-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v210)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v210) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v237) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S100000 : Shape := ⟨1, ![100000]⟩
abbrev S5x64x64 : Shape := ⟨3, ![5, 64, 64]⟩
abbrev S5x64 : Shape := ⟨2, ![5, 64]⟩
abbrev S2x64x64 : Shape := ⟨3, ![2, 64, 64]⟩
abbrev S2x64 : Shape := ⟨2, ![2, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S5x64x64 : S_.BroadcastsInDim S5x64x64 (![] : Fin 0 → Fin S5x64x64.rank)
  reducesTo_S5x64x64_S_d0_1_2 : S5x64x64.ReducesTo [0, 1, 2] S_
  bcast_S_S5x64 : S_.BroadcastsInDim S5x64 (![] : Fin 0 → Fin S5x64.rank)
  reducesTo_S5x64_S_d0_1 : S5x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_

variable [Facts]

def fn_part1 {F : FTy → Type} [FloatOps F] (main_arg6 : FVec F S2x64 .f32) (main_arg7 : FVec F S2x64 .f32) (main_arg8 : FVec F S2x64 .f32) (main_v13 : IVec S_ 1) (main_v16 : IVec S2x64x64 1) : IVec S_ 1 :=
  let main_c_5 : IVec S_ 1 := constantI S_ 1 1#1
  let main_v17 : IVec S_ 1 := (fun x v => Host.reduce IntOp.andi x v reducesTo_S2x64x64_S_d0_1_2 h_S_) main_v16 main_c_5
  let main_v18 : IVec S_ 1 := andi main_v13 main_v17
  let main_v19 : FVec F S2x64 .f32 := Host.absf main_arg6
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2x64 .f32 := Host.absf main_arg7
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S2x64 .f32 := Host.absf main_arg8
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  main_v33

def fn {F : FTy → Type} [FloatOps F] (main_arg0 : FVec F S100000x64 .f32) (main_arg1 : IVec S2x1000000 32) (main_arg2 : IVec S100000 32) (main_arg3 : FVec F S5x64x64 .f32) (main_arg4 : FVec F S5x64 .f32) (main_arg5 : FVec F S2x64x64 .f32) (main_arg6 : FVec F S2x64 .f32) (main_arg7 : FVec F S2x64 .f32) (main_arg8 : FVec F S2x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S5x64x64 .f32 := Host.absf main_arg3
  let main_cst_0 : FVec F S_ .f32 := constant S_ .f32 0x7F800000#32
  let main_v5 : FVec F S5x64x64 .f32 := broadcastInDim S5x64x64 ![] bcast_S_S5x64x64 main_cst_0
  let main_v6 : IVec S5x64x64 1 := cmpf .olt main_v4 main_v5
  let main_c_1 : IVec S_ 1 := constantI S_ 1 1#1
  let main_v7 : IVec S_ 1 := (fun x v => Host.reduce IntOp.andi x v reducesTo_S5x64x64_S_d0_1_2 h_S_) main_v6 main_c_1
  let main_v8 : IVec S_ 1 := andi main_v3 main_v7
  let main_v9 : FVec F S5x64 .f32 := Host.absf main_arg4
  let main_cst_2 : FVec F S_ .f32 := constant S_ .f32 0x7F800000#32
  let main_v10 : FVec F S5x64 .f32 := broadcastInDim S5x64 ![] bcast_S_S5x64 main_cst_2
  let main_v11 : IVec S5x64 1 := cmpf .olt main_v9 main_v10
  let main_c_3 : IVec S_ 1 := constantI S_ 1 1#1
  let main_v12 : IVec S_ 1 := (fun x v => Host.reduce IntOp.andi x v reducesTo_S5x64_S_d0_1 h_S_) main_v11 main_c_3
  let main_v13 : IVec S_ 1 := andi main_v8 main_v12
  let main_v14 : FVec F S2x64x64 .f32 := Host.absf main_arg5
  let main_cst_4 : FVec F S_ .f32 := constant S_ .f32 0x7F800000#32
  let main_v15 : FVec F S2x64x64 .f32 := broadcastInDim S2x64x64 ![] bcast_S_S2x64x64 main_cst_4
  let main_v16 : IVec S2x64x64 1 := cmpf .olt main_v14 main_v15
  fn_part1 (F := F) main_arg6 main_arg7 main_arg8 main_v13 main_v16
-- ==== Kernel.lean ====
abbrev S100000x64 : Shape := ⟨2, ![100000, 64]⟩
abbrev S2x1000000 : Shape := ⟨2, ![2, 1000000]⟩
abbrev S100000 : Shape := ⟨1, ![100000]⟩
abbrev S5x64x64 : Shape := ⟨3, ![5, 64, 64]⟩
abbrev S5x64 : Shape := ⟨2, ![5, 64]⟩
abbrev S2x64x64 : Shape := ⟨3, ![2, 64, 64]⟩
abbrev S2x64 : Shape := ⟨2, ![2, 64]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S2000x64 : Shape := ⟨2, ![2000, 64]⟩
abbrev S1100000x64 : Shape := ⟨2, ![1100000, 64]⟩
abbrev S100000x1 : Shape := ⟨2, ![100000, 1]⟩
abbrev S25000x64 : Shape := ⟨2, ![25000, 64]⟩
abbrev S1000x64 : Shape := ⟨2, ![1000, 64]⟩

abbrev nBuf : Space → Nat
  | .hbm => 261
  | .vmem => 74
  | .smem => 0
  | _ => 0

abbrev hbmTy0_0 (i : Nat) : BufTy := match i % 128 with
  | 0 => ⟨S100000x64, .f32⟩
  | 1 => ⟨S2x1000000, .i32⟩
  | 2 => ⟨S100000, .i32⟩
  | 3 => ⟨S5x64x64, .f32⟩
  | 4 => ⟨S5x64, .f32⟩
  | 5 => ⟨S2x64x64, .f32⟩
  | 6 => ⟨S2x64, .f32⟩
  | 7 => ⟨S2x64, .f32⟩
  | 8 => ⟨S2x64, .f32⟩
  | 9 => ⟨S100000, .i32⟩
  | 10 => ⟨S1x1000000, .i32⟩
  | 11 => ⟨S1000000, .i32⟩
  | 12 => ⟨S1100000, .i32⟩
  | 13 => ⟨S1x1000000, .i32⟩
  | 14 => ⟨S1000000, .i32⟩
  | 15 => ⟨S1100000, .i32⟩
  | 16 => ⟨S_, .f32⟩
  | 17 => ⟨S1100000, .f32⟩
  | 18 => ⟨S_, .f32⟩
  | 19 => ⟨S100000, .f32⟩
  | 20 => ⟨S1100000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1100000, .i32⟩
  | 32 => ⟨S1100000, .i1⟩
  | 33 => ⟨S_, .i32⟩
  | 34 => ⟨S1100000, .i32⟩
  | 35 => ⟨S1100000, .i32⟩
  | 36 => ⟨S1100000, .i32⟩
  | 37 => ⟨S1100000x1, .i32⟩
  | 38 => ⟨S1100000, .f32⟩
  | 39 => ⟨S_, .i32⟩
  | 40 => ⟨S1100000, .i32⟩
  | 41 => ⟨S1100000, .i1⟩
  | 42 => ⟨S_, .i32⟩
  | 43 => ⟨S1100000, .i32⟩
  | 44 => ⟨S1100000, .i32⟩
  | 45 => ⟨S1100000, .i32⟩
  | 46 => ⟨S1100000x1, .i32⟩
  | 47 => ⟨S1100000, .f32⟩
  | 48 => ⟨S1100000, .f32⟩
  | 49 => ⟨S100000, .i32⟩
  | 50 => ⟨S1x64x64, .f32⟩
  | 51 => ⟨S64x64, .f32⟩
  | 52 => ⟨S1x64, .f32⟩
  | 53 => ⟨S64, .f32⟩
  | 54 => ⟨S100000x64, .f32⟩
  | 55 => ⟨S_, .i32⟩
  | 56 => ⟨S1100000, .i32⟩
  | 57 => ⟨S1100000, .i1⟩
  | 58 => ⟨S_, .i32⟩
  | 59 => ⟨S1100000, .i32⟩
  | 60 => ⟨S1100000, .i32⟩
  | 61 => ⟨S1100000, .i32⟩
  | 62 => ⟨S1100000x1, .i32⟩
  | 63 => ⟨S1100000x64, .f32⟩
  | 64 => ⟨S1100000x1, .f32⟩
  | 65 => ⟨S1100000x64, .f32⟩
  | 66 => ⟨S1100000x64, .f32⟩
  | 67 => ⟨S_, .f32⟩
  | 68 => ⟨S100000x64, .f32⟩
  | 69 => ⟨S1100000x1, .i32⟩
  | 70 => ⟨S100000x64, .f32⟩
  | 71 => ⟨S1x64, .f32⟩
  | 72 => ⟨S100000x64, .f32⟩
  | 73 => ⟨S1x64x64, .f32⟩
  | 74 => ⟨S64x64, .f32⟩
  | 75 => ⟨S1x64, .f32⟩
  | 76 => ⟨S64, .f32⟩
  | 77 => ⟨S100000x64, .f32⟩
  | 78 => ⟨S_, .i32⟩
  | 79 => ⟨S1100000, .i32⟩
  | 80 => ⟨S1100000, .i1⟩
  | 81 => ⟨S_, .i32⟩
  | 82 => ⟨S1100000, .i32⟩
  | 83 => ⟨S1100000, .i32⟩
  | 84 => ⟨S1100000, .i32⟩
  | 85 => ⟨S1100000x1, .i32⟩
  | 86 => ⟨S1100000x64, .f32⟩
  | 87 => ⟨S1100000x1, .f32⟩
  | 88 => ⟨S1100000x64, .f32⟩
  | 89 => ⟨S1100000x64, .f32⟩
  | 90 => ⟨S_, .f32⟩
  | 91 => ⟨S100000x64, .f32⟩
  | 92 => ⟨S1100000x1, .i32⟩
  | 93 => ⟨S100000x64, .f32⟩
  | 94 => ⟨S1x64, .f32⟩
  | 95 => ⟨S100000x64, .f32⟩
  | 96 => ⟨S1x64x64, .f32⟩
  | 97 => ⟨S64x64, .f32⟩
  | 98 => ⟨S1x64, .f32⟩
  | 99 => ⟨S64, .f32⟩
  | 100 => ⟨S1x64, .f32⟩
  | 101 => ⟨S64, .f32⟩
  | 102 => ⟨S1x64, .f32⟩
  | 103 => ⟨S64, .f32⟩
  | 104 => ⟨S_, .i32⟩
  | 105 => ⟨S100000, .i32⟩
  | 106 => ⟨S100000, .i1⟩
  | 107 => ⟨S_, .i32⟩
  | 108 => ⟨S100000, .i32⟩
  | 109 => ⟨S100000, .i32⟩
  | 110 => ⟨S100000, .i32⟩
  | 111 => ⟨S100000x1, .i32⟩
  | 112 => ⟨S100000x64, .f32⟩
  | 113 => ⟨S_, .f32⟩
  | 114 => ⟨S25000x64, .f32⟩
  | 115 => ⟨S100000x1, .i32⟩
  | 116 => ⟨S25000x64, .f32⟩
  | 117 => ⟨S1x64, .f32⟩
  | 118 => ⟨S25000x64, .f32⟩
  | 119 => ⟨S_, .f32⟩
  | 120 => ⟨S64, .f32⟩
  | 121 => ⟨S_, .f32⟩
  | 122 => ⟨S64, .f32⟩
  | 123 => ⟨S64, .f32⟩
  | 124 => ⟨S1x64, .f32⟩
  | 125 => ⟨S25000x64, .f32⟩
  | 126 => ⟨S25000x64, .f32⟩
  | 127 => ⟨S25000x64, .f32⟩
  | _ => ⟨S100000x64, .f32⟩

abbrev hbmTy0_1 (i : Nat) : BufTy := match i % 128 with
  | 0 => ⟨S_, .f32⟩
  | 1 => ⟨S64, .f32⟩
  | 2 => ⟨S_, .f32⟩
  | 3 => ⟨S64, .f32⟩
  | 4 => ⟨S64, .f32⟩
  | 5 => ⟨S_, .f32⟩
  | 6 => ⟨S64, .f32⟩
  | 7 => ⟨S64, .f32⟩
  | 8 => ⟨S64, .f32⟩
  | 9 => ⟨S64, .f32⟩
  | 10 => ⟨S64, .f32⟩
  | 11 => ⟨S64, .f32⟩
  | 12 => ⟨S64, .f32⟩
  | 13 => ⟨S1x64, .f32⟩
  | 14 => ⟨S1x64, .f32⟩
  | 15 => ⟨S25000x64, .f32⟩
  | 16 => ⟨S1x64x64, .f32⟩
  | 17 => ⟨S64x64, .f32⟩
  | 18 => ⟨S1x64, .f32⟩
  | 19 => ⟨S64, .f32⟩
  | 20 => ⟨S1x64, .f32⟩
  | 21 => ⟨S64, .f32⟩
  | 22 => ⟨S1x64, .f32⟩
  | 23 => ⟨S64, .f32⟩
  | 24 => ⟨S_, .i32⟩
  | 25 => ⟨S100000, .i32⟩
  | 26 => ⟨S100000, .i1⟩
  | 27 => ⟨S_, .i32⟩
  | 28 => ⟨S100000, .i32⟩
  | 29 => ⟨S100000, .i32⟩
  | 30 => ⟨S100000, .i32⟩
  | 31 => ⟨S100000x1, .i32⟩
  | 32 => ⟨S100000x64, .f32⟩
  | 33 => ⟨S_, .f32⟩
  | 34 => ⟨S100000x64, .f32⟩
  | 35 => ⟨S100000x1, .i32⟩
  | 36 => ⟨S100000x64, .f32⟩
  | 37 => ⟨S1x64, .f32⟩
  | 38 => ⟨S100000x64, .f32⟩
  | 39 => ⟨S_, .f32⟩
  | 40 => ⟨S64, .f32⟩
  | 41 => ⟨S_, .f32⟩
  | 42 => ⟨S64, .f32⟩
  | 43 => ⟨S64, .f32⟩
  | 44 => ⟨S1x64, .f32⟩
  | 45 => ⟨S100000x64, .f32⟩
  | 46 => ⟨S100000x64, .f32⟩
  | 47 => ⟨S100000x64, .f32⟩
  | 48 => ⟨S_, .f32⟩
  | 49 => ⟨S64, .f32⟩
  | 50 => ⟨S_, .f32⟩
  | 51 => ⟨S64, .f32⟩
  | 52 => ⟨S64, .f32⟩
  | 53 => ⟨S_, .f32⟩
  | 54 => ⟨S64, .f32⟩
  | 55 => ⟨S64, .f32⟩
  | 56 => ⟨S64, .f32⟩
  | 57 => ⟨S64, .f32⟩
  | 58 => ⟨S64, .f32⟩
  | 59 => ⟨S64, .f32⟩
  | 60 => ⟨S64, .f32⟩
  | 61 => ⟨S1x64, .f32⟩
  | 62 => ⟨S1x64, .f32⟩
  | 63 => ⟨S100000x64, .f32⟩
  | 64 => ⟨S1x64x64, .f32⟩
  | 65 => ⟨S64x64, .f32⟩
  | 66 => ⟨S1x64, .f32⟩
  | 67 => ⟨S64, .f32⟩
  | 68 => ⟨S100000x64, .f32⟩
  | 69 => ⟨S_, .i32⟩
  | 70 => ⟨S1100000, .i32⟩
  | 71 => ⟨S1100000, .i1⟩
  | 72 => ⟨S_, .i32⟩
  | 73 => ⟨S1100000, .i32⟩
  | 74 => ⟨S1100000, .i32⟩
  | 75 => ⟨S1100000, .i32⟩
  | 76 => ⟨S1100000x1, .i32⟩
  | 77 => ⟨S1100000x64, .f32⟩
  | 78 => ⟨S1100000x1, .f32⟩
  | 79 => ⟨S1100000x64, .f32⟩
  | 80 => ⟨S1100000x64, .f32⟩
  | 81 => ⟨S_, .f32⟩
  | 82 => ⟨S100000x64, .f32⟩
  | 83 => ⟨S1100000x1, .i32⟩
  | 84 => ⟨S100000x64, .f32⟩
  | 85 => ⟨S1x64, .f32⟩
  | 86 => ⟨S100000x64, .f32⟩
  | 87 => ⟨S1x64x64, .f32⟩
  | 88 => ⟨S64x64, .f32⟩
  | 89 => ⟨S1x64, .f32⟩
  | 90 => ⟨S64, .f32⟩
  | 91 => ⟨S100000x64, .f32⟩
  | 92 => ⟨S_, .i32⟩
  | 93 => ⟨S1100000, .i32⟩
  | 94 => ⟨S1100000, .i1⟩
  | 95 => ⟨S_, .i32⟩
  | 96 => ⟨S1100000, .i32⟩
  | 97 => ⟨S1100000, .i32⟩
  | 98 => ⟨S1100000, .i32⟩
  | 99 => ⟨S1100000x1, .i32⟩
  | 100 => ⟨S1100000x64, .f32⟩
  | 101 => ⟨S1100000x1, .f32⟩
  | 102 => ⟨S1100000x64, .f32⟩
  | 103 => ⟨S1100000x64, .f32⟩
  | 104 => ⟨S_, .f32⟩
  | 105 => ⟨S100000x64, .f32⟩
  | 106 => ⟨S1100000x1, .i32⟩
  | 107 => ⟨S100000x64, .f32⟩
  | 108 => ⟨S1x64, .f32⟩
  | 109 => ⟨S100000x64, .f32⟩
  | 110 => ⟨S1x64x64, .f32⟩
  | 111 => ⟨S64x64, .f32⟩
  | 112 => ⟨S1x64, .f32⟩
  | 113 => ⟨S64, .f32⟩
  | 114 => ⟨S100000x64, .f32⟩
  | 115 => ⟨S_, .i32⟩
  | 116 => ⟨S1100000, .i32⟩
  | 117 => ⟨S1100000, .i1⟩
  | 118 => ⟨S_, .i32⟩
  | 119 => ⟨S1100000, .i32⟩
  | 120 => ⟨S1100000, .i32⟩
  | 121 => ⟨S1100000, .i32⟩
  | 122 => ⟨S1100000x1, .i32⟩
  | 123 => ⟨S1100000x64, .f32⟩
  | 124 => ⟨S1100000x1, .f32⟩
  | 125 => ⟨S1100000x64, .f32⟩
  | 126 => ⟨S1100000x64, .f32⟩
  | 127 => ⟨S_, .f32⟩
  | _ => ⟨S100000x64, .f32⟩

abbrev hbmTy0_2 (i : Nat) : BufTy := match i % 128 with
  | 0 => ⟨S100000x64, .f32⟩
  | 1 => ⟨S1100000x1, .i32⟩
  | 2 => ⟨S100000x64, .f32⟩
  | 3 => ⟨S1x64, .f32⟩
  | 4 => ⟨S100000x64, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | .local _ .vmem, ⟨20, _⟩ => ⟨S1000x64, .f32⟩
  | .local _ .vmem, ⟨21, _⟩ => ⟨S1000x64, .f32⟩
  | .local _ .vmem, ⟨22, _⟩ => ⟨S64x64, .f32⟩
  | .local _ .vmem, ⟨23, _⟩ => ⟨S1x64, .f32⟩
  | .local _ .vmem, ⟨24, _⟩ => ⟨S1000x64, .f32⟩
  | .local _ .vmem, ⟨25, _⟩ => ⟨S1000x64, .f32⟩
  | .local _ .vmem, ⟨26, _⟩ => ⟨S1000x64, .f32⟩
  | .local _ .vmem, ⟨27, _⟩ => ⟨S1000x64, .f32⟩
  | .local _ .vmem, ⟨28, _⟩ => ⟨S1x64, .f32⟩
  | .local _ .vmem, ⟨29, _⟩ => ⟨S1x64, .f32⟩
  | .local _ .vmem, ⟨30, _⟩ => ⟨S1000x64, .f32⟩
  | .local _ .vmem, ⟨31, _⟩ => ⟨S1000x64, .f32⟩
  | .local _ .vmem, ⟨32, _⟩ => ⟨S2000x64, .f32⟩
  | .local _ .vmem, ⟨33, _⟩ => ⟨S2000x64, .f32⟩
  | .local _ .vmem, ⟨34, _⟩ => ⟨S64x64, .f32⟩
  | .local _ .vmem, ⟨35, _⟩ => ⟨S1x64, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | .local _ .vmem, ⟨39, _⟩ => ⟨S2000x64, .f32⟩
  | .local _ .vmem, ⟨40, _⟩ => ⟨S1x64, .f32⟩
  | .local _ .vmem, ⟨41, _⟩ => ⟨S1x64, .f32⟩
  | .local _ .vmem, ⟨42, _⟩ => ⟨S2000x64, .f32⟩
  | .local _ .vmem, ⟨43, _⟩ => ⟨S2000x64, .f32⟩
  | .local _ .vmem, ⟨44, _⟩ => ⟨S2000x64, .f32⟩
  | .local _ .vmem, ⟨45, _⟩ => ⟨S2000x64, .f32⟩
  | .local _ .vmem, ⟨46, _⟩ => ⟨S64x64, .f32⟩
  | .local _ .vmem, ⟨47, _⟩ => ⟨S2000x64, .f32⟩
  | .local _ .vmem, ⟨48, _⟩ => ⟨S2000x64, .f32⟩
  | .local _ .vmem, ⟨49, _⟩ => ⟨S2000x64, .f32⟩
  | .local _ .vmem, ⟨50, _⟩ => ⟨S2000x64, .f32⟩
  | .local _ .vmem, ⟨51, _⟩ => ⟨S1x64, .f32⟩
  | .local _ .vmem, ⟨52, _⟩ => ⟨S2000x64, .f32⟩
  | .local _ .vmem, ⟨53, _⟩ => ⟨S2000x64, .f32⟩
  | .local _ .vmem, ⟨54, _⟩ => ⟨S2000x64, .f32⟩
  | .local _ .vmem, ⟨55, _⟩ => ⟨S2000x64, .f32⟩
  | .local _ .vmem, ⟨56, _⟩ => ⟨S64x64, .f32⟩
  | .local _ .vmem, ⟨57, _⟩ => ⟨S2000x64, .f32⟩
  | .local _ .vmem, ⟨58, _⟩ => ⟨S2000x64, .f32⟩
  | .local _ .vmem, ⟨59, _⟩ => ⟨S2000x64, .f32⟩
  | .local _ .vmem, ⟨60, _⟩ => ⟨S2000x64, .f32⟩
  | .local _ .vmem, ⟨61, _⟩ => ⟨S1x64, .f32⟩
  | .local _ .vmem, ⟨62, _⟩ => ⟨S2000x64, .f32⟩
  | .local _ .vmem, ⟨63, _⟩ => ⟨S2000x64, .f32⟩
  | .local _ .vmem, ⟨64, _⟩ => ⟨S2000x64, .f32⟩
  | .local _ .vmem, ⟨65, _⟩ => ⟨S2000x64, .f32⟩
  | .local _ .vmem, ⟨66, _⟩ => ⟨S64x64, .f32⟩
  | .local _ .vmem, ⟨67, _⟩ => ⟨S2000x64, .f32⟩
  | .local _ .vmem, ⟨68, _⟩ => ⟨S2000x64, .f32⟩
  | .local _ .vmem, ⟨69, _⟩ => ⟨S2000x64, .f32⟩
  | .local _ .vmem, ⟨70, _⟩ => ⟨S2000x64, .f32⟩
  | .local _ .vmem, ⟨71, _⟩ => ⟨S1x64, .f32⟩
  | .local _ .vmem, ⟨72, _⟩ => ⟨S2000x64, .f32⟩
  | .local _ .vmem, ⟨73, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_9 : Ref sig .tc := ⟨.hbm, 78, rfl⟩
abbrev main_v56 : Ref sig .tc := ⟨.hbm, 79, rfl⟩
abbrev main_v57 : Ref sig .tc := ⟨.hbm, 80, rfl⟩
abbrev main_c_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_11 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_c_12 : Ref sig .tc := ⟨.hbm, 104, rfl⟩
abbrev main_v79 : Ref sig .tc := ⟨.hbm, 105, rfl⟩
abbrev main_v80 : Ref sig .tc := ⟨.hbm, 106, rfl⟩
abbrev main_c_13 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_14 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_15 : Ref sig .tc := ⟨.hbm, 119, rfl⟩
abbrev main_v91 : Ref sig .tc := ⟨.hbm, 120, rfl⟩
abbrev main_cst_16 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_17 : Ref sig .tc := ⟨.hbm, 128, rfl⟩
abbrev main_v98 : Ref sig .tc := ⟨.hbm, 129, rfl⟩
abbrev main_cst_18 : Ref sig .tc := ⟨.hbm, 130, rfl⟩
abbrev main_v99 : Ref sig .tc := ⟨.hbm, 131, rfl⟩
abbrev main_v100 : Ref sig .tc := ⟨.hbm, 132, rfl⟩
abbrev main_cst_19 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_c_20 : Ref sig .tc := ⟨.hbm, 152, rfl⟩
abbrev main_v119 : Ref sig .tc := ⟨.hbm, 153, rfl⟩
abbrev main_v120 : Ref sig .tc := ⟨.hbm, 154, rfl⟩
abbrev main_c_21 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_22 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_cst_23 : Ref sig .tc := ⟨.hbm, 167, rfl⟩
abbrev main_v131 : Ref sig .tc := ⟨.hbm, 168, rfl⟩
abbrev main_cst_24 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_cst_25 : Ref sig .tc := ⟨.hbm, 176, rfl⟩
abbrev main_v138 : Ref sig .tc := ⟨.hbm, 177, rfl⟩
abbrev main_cst_26 : Ref sig .tc := ⟨.hbm, 178, rfl⟩
abbrev main_v139 : Ref sig .tc := ⟨.hbm, 179, rfl⟩
abbrev main_v140 : Ref sig .tc := ⟨.hbm, 180, rfl⟩
abbrev main_cst_27 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_c_28 : Ref sig .tc := ⟨.hbm, 197, rfl⟩
abbrev main_v156 : Ref sig .tc := ⟨.hbm, 198, rfl⟩
abbrev main_v157 : Ref sig .tc := ⟨.hbm, 199, rfl⟩
abbrev main_c_29 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_cst_30 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_c_31 : Ref sig .tc := ⟨.hbm, 220, rfl⟩
abbrev main_v176 : Ref sig .tc := ⟨.hbm, 221, rfl⟩
abbrev main_v177 : Ref sig .tc := ⟨.hbm, 222, rfl⟩
abbrev main_c_32 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_cst_33 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_c_34 : Ref sig .tc := ⟨.hbm, 243, rfl⟩
abbrev main_v196 : Ref sig .tc := ⟨.hbm, 244, rfl⟩
abbrev main_v197 : Ref sig .tc := ⟨.hbm, 245, rfl⟩
abbrev main_c_35 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_cst_36 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg3_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg3_0 : Ref sig .tc := ⟨.vmem, 36, rfl⟩
abbrev cc6_stg3_1 : Ref sig .tc := ⟨.vmem, 37, rfl⟩
abbrev cc7_stg0_0 : Ref sig .tc := ⟨.vmem, 38, rfl⟩
abbrev cc7_stg0_1 : Ref sig .tc := ⟨.vmem, 39, rfl⟩
abbrev cc7_stg1_0 : Ref sig .tc := ⟨.vmem, 40, rfl⟩
abbrev cc7_stg2_0 : Ref sig .tc := ⟨.vmem, 41, rfl⟩
abbrev cc7_stg3_0 : Ref sig .tc := ⟨.vmem, 42, rfl⟩
abbrev cc7_stg3_1 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg2_0 : Ref sig .tc := ⟨.vmem, 47, rfl⟩
abbrev cc8_stg2_1 : Ref sig .tc := ⟨.vmem, 48, rfl⟩
abbrev cc9_stg0_0 : Ref sig .tc := ⟨.vmem, 49, rfl⟩
abbrev cc9_stg0_1 : Ref sig .tc := ⟨.vmem, 50, rfl⟩
abbrev cc9_stg1_0 : Ref sig .tc := ⟨.vmem, 51, rfl⟩
abbrev cc9_stg2_0 : Ref sig .tc := ⟨.vmem, 52, rfl⟩
abbrev cc9_stg2_1 : Ref sig .tc := ⟨.vmem, 53, rfl⟩
abbrev cc10_stg0_0 : Ref sig .tc := ⟨.vmem, 54, rfl⟩
abbrev cc10_stg0_1 : Ref sig .tc := ⟨.vmem, 55, rfl⟩
abbrev cc10_stg1_0 : Ref sig .tc := ⟨.vmem, 56, rfl⟩
abbrev cc10_stg2_0 : Ref sig .tc := ⟨.vmem, 57, rfl⟩
abbrev cc10_stg2_1 : Ref sig .tc := ⟨.vmem, 58, rfl⟩
abbrev cc11_stg0_0 : Ref sig .tc := ⟨.vmem, 59, rfl⟩
abbrev cc11_stg0_1 : Ref sig .tc := ⟨.vmem, 60, rfl⟩
abbrev cc11_stg1_0 : Ref sig .tc := ⟨.vmem, 61, rfl⟩
abbrev cc11_stg2_0 : Ref sig .tc := ⟨.vmem, 62, rfl⟩
abbrev cc11_stg2_1 : Ref sig .tc := ⟨.vmem, 63, rfl⟩
abbrev cc12_stg0_0 : Ref sig .tc := ⟨.vmem, 64, rfl⟩
abbrev cc12_stg0_1 : Ref sig .tc := ⟨.vmem, 65, rfl⟩
abbrev cc12_stg1_0 : Ref sig .tc := ⟨.vmem, 66, rfl⟩
abbrev cc12_stg2_0 : Ref sig .tc := ⟨.vmem, 67, rfl⟩
abbrev cc12_stg2_1 : Ref sig .tc := ⟨.vmem, 68, rfl⟩
abbrev cc13_stg0_0 : Ref sig .tc := ⟨.vmem, 69, rfl⟩
abbrev cc13_stg0_1 : Ref sig .tc := ⟨.vmem, 70, rfl⟩
abbrev cc13_stg1_0 : Ref sig .tc := ⟨.vmem, 71, rfl⟩
abbrev cc13_stg2_0 : Ref sig .tc := ⟨.vmem, 72, rfl⟩
abbrev cc13_stg2_1 : Ref sig .tc := ⟨.vmem, 73, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem3_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem3_0 : DmaSem sig := 36
abbrev cc6_sem3_1 : DmaSem sig := 37
abbrev cc7_sem0_0 : DmaSem sig := 38
abbrev cc7_sem0_1 : DmaSem sig := 39
abbrev cc7_sem1_0 : DmaSem sig := 40
abbrev cc7_sem2_0 : DmaSem sig := 41
abbrev cc7_sem3_0 : DmaSem sig := 42
abbrev cc7_sem3_1 : DmaSem sig := 43
abbrev cc8_sem0_0 : DmaSem sig := 44
abbrev cc8_sem0_1 : DmaSem sig := 45
abbrev cc8_sem1_0 : DmaSem sig := 46
abbrev cc8_sem2_0 : DmaSem sig := 47
abbrev cc8_sem2_1 : DmaSem sig := 48
abbrev cc9_sem0_0 : DmaSem sig := 49
abbrev cc9_sem0_1 : DmaSem sig := 50
abbrev cc9_sem1_0 : DmaSem sig := 51
abbrev cc9_sem2_0 : DmaSem sig := 52
abbrev cc9_sem2_1 : DmaSem sig := 53
abbrev cc10_sem0_0 : DmaSem sig := 54
abbrev cc10_sem0_1 : DmaSem sig := 55
abbrev cc10_sem1_0 : DmaSem sig := 56
abbrev cc10_sem2_0 : DmaSem sig := 57
abbrev cc10_sem2_1 : DmaSem sig := 58
abbrev cc11_sem0_0 : DmaSem sig := 59
abbrev cc11_sem0_1 : DmaSem sig := 60
abbrev cc11_sem1_0 : DmaSem sig := 61
abbrev cc11_sem2_0 : DmaSem sig := 62
abbrev cc11_sem2_1 : DmaSem sig := 63
abbrev cc12_sem0_0 : DmaSem sig := 64
abbrev cc12_sem0_1 : DmaSem sig := 65
abbrev cc12_sem1_0 : DmaSem sig := 66
abbrev cc12_sem2_0 : DmaSem sig := 67
abbrev cc12_sem2_1 : DmaSem sig := 68
abbrev cc13_sem0_0 : DmaSem sig := 69
abbrev cc13_sem0_1 : DmaSem sig := 70
abbrev cc13_sem1_0 : DmaSem sig := 71
abbrev cc13_sem2_0 : DmaSem sig := 72
abbrev cc13_sem2_1 : DmaSem sig := 73

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S2000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S2000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![50], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S2000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![50], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S2000x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![50], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S64x64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S2000x64 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![50], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x64 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S2000x64 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  slices_S5x64x64_S1x64x64_0_0_0 : S5x64x64.Slices ![0, 0, 0] S1x64x64
  shapeCasts_S1x64x64_S64x64 : S1x64x64.ShapeCasts S64x64
  slices_S5x64_S1x64_0_0 : S5x64.Slices ![0, 0] S1x64
  shapeCasts_S1x64_S64 : S1x64.ShapeCasts S64
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  slices_S5x64x64_S1x64x64_1_0_0 : S5x64x64.Slices ![1, 0, 0] S1x64x64
  slices_S5x64_S1x64_1_0 : S5x64.Slices ![1, 0] S1x64
  slices_S2x64x64_S1x64x64_0_0_0 : S2x64x64.Slices ![0, 0, 0] S1x64x64
  slices_S2x64_S1x64_0_0 : S2x64.Slices ![0, 0] S1x64
  bcast_S100000_S100000x1_0 : S100000.BroadcastsInDim S100000x1 (![0] : Fin 1 → Fin S100000x1.rank)
  bcast_S_S25000x64 : S_.BroadcastsInDim S25000x64 (![] : Fin 0 → Fin S25000x64.rank)
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  broadcasts_S1x64_S1000x64 : S1x64.Broadcasts S1000x64
  reducesTo_S25000x64_S64_d0 : S25000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S25000x64_0_1 : S1x64.BroadcastsInDim S25000x64 (![0, 1] : Fin 2 → Fin S25000x64.rank)
  slices_S2x64x64_S1x64x64_1_0_0 : S2x64x64.Slices ![1, 0, 0] S1x64x64
  slices_S2x64_S1x64_1_0 : S2x64.Slices ![1, 0] S1x64
  reducesTo_S100000x64_S64_d0 : S100000x64.ReducesTo [0] S64
  bcast_S1x64_S100000x64_0_1 : S1x64.BroadcastsInDim S100000x64 (![0, 1] : Fin 2 → Fin S100000x64.rank)
  slices_S5x64x64_S1x64x64_2_0_0 : S5x64x64.Slices ![2, 0, 0] S1x64x64
  slices_S5x64_S1x64_2_0 : S5x64.Slices ![2, 0] S1x64
  slices_S5x64x64_S1x64x64_3_0_0 : S5x64x64.Slices ![3, 0, 0] S1x64x64
  slices_S5x64_S1x64_3_0 : S5x64.Slices ![3, 0] S1x64
  slices_S5x64x64_S1x64x64_4_0_0 : S5x64x64.Slices ![4, 0, 0] S1x64x64
  slices_S5x64_S1x64_4_0 : S5x64.Slices ![4, 0] S1x64
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S2000x64_S64x64_S2000x64_1_0_0_1_n_n_wf : DotDims.WF S2000x64 S64x64 S2000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  gather_S100000x64_S100000x1_S100000x64_1_0_n_n_0_1_164_wf : GatherDims.WF S100000x64 S100000x1 S100000x64 [1] [0] [] [0] [] 1 ![1, 64]
  scatter_S25000x64_S100000x1_S100000x64_1_0_0_1_wf : ScatterDims.WF S25000x64 S100000x1 S100000x64 [1] [0] [0] 1
  dot_S1000x64_S64x64_S1000x64_1_0_0_1_n_n_wf : DotDims.WF S1000x64 S64x64 S1000x64 [1] [0] [0] [1] [] []
  gather_S25000x64_S100000x1_S100000x64_1_0_n_n_0_1_164_wf : GatherDims.WF S25000x64 S100000x1 S100000x64 [1] [0] [] [0] [] 1 ![1, 64]
  scatter_S100000x64_S100000x1_S100000x64_1_0_0_1_wf : ScatterDims.WF S100000x64 S100000x1 S100000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x64.size a ≤ S25000x64.size a
  hwx4_0 : ∀ i : grid4.Coords, EltTy.bits .f32 = 32 ∨ (Rect.block (s := S25000x64) S1000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x64.size a ≤ S25000x64.size a
  hwx4_3 : ∀ i : grid4.Coords, EltTy.bits .f32 = 32 ∨ (Rect.block (s := S25000x64) S1000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x64.size a ≤ S25000x64.size a
  hwx5_0 : ∀ i : grid5.Coords, EltTy.bits .f32 = 32 ∨ (Rect.block (s := S25000x64) S1000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1000x64.size a ≤ S25000x64.size a
  hwx5_3 : ∀ i : grid5.Coords, EltTy.bits .f32 = 32 ∨ (Rect.block (s := S25000x64) S1000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S100000x64.size a
  hwx6_0 : ∀ i : grid6.Coords, EltTy.bits .f32 = 32 ∨ (Rect.block (s := S100000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x64.size a ≤ S100000x64.size a
  hwx6_3 : ∀ i : grid6.Coords, EltTy.bits .f32 = 32 ∨ (Rect.block (s := S100000x64) S2000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S100000x64.size a
  hwx7_0 : ∀ i : grid7.Coords, EltTy.bits .f32 = 32 ∨ (Rect.block (s := S100000x64) S2000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x64.size a ≤ S100000x64.size a
  hwx7_3 : ∀ i : grid7.Coords, EltTy.bits .f32 = 32 ∨ (Rect.block (s := S100000x64) S2000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x64.size a ≤ S100000x64.size a
  hwx8_0 : ∀ i : grid8.Coords, EltTy.bits .f32 = 32 ∨ (Rect.block (s := S100000x64) S2000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x64.size a ≤ S100000x64.size a
  hwx8_2 : ∀ i : grid8.Coords, EltTy.bits .f32 = 32 ∨ (Rect.block (s := S100000x64) S2000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x64.size a ≤ S100000x64.size a
  hwx9_0 : ∀ i : grid9.Coords, EltTy.bits .f32 = 32 ∨ (Rect.block (s := S100000x64) S2000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x64.size a ≤ S100000x64.size a
  hwx9_2 : ∀ i : grid9.Coords, EltTy.bits .f32 = 32 ∨ (Rect.block (s := S100000x64) S2000x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x64.size a ≤ S100000x64.size a
  hwx10_0 : ∀ i : grid10.Coords, EltTy.bits .f32 = 32 ∨ (Rect.block (s := S100000x64) S2000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x64.size a ≤ S64x64.size a
  hwx10_1 : ∀ i : grid10.Coords, EltTy.bits .f32 = 32 ∨ (Rect.block (s := S64x64) S64x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x64.size a ≤ S100000x64.size a
  hwx10_2 : ∀ i : grid10.Coords, EltTy.bits .f32 = 32 ∨ (Rect.block (s := S100000x64) S2000x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x64.size a ≤ S100000x64.size a
  hwx11_0 : ∀ i : grid11.Coords, EltTy.bits .f32 = 32 ∨ (Rect.block (s := S100000x64) S2000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S2000x64.size a ≤ S100000x64.size a
  hwx11_2 : ∀ i : grid11.Coords, EltTy.bits .f32 = 32 ∨ (Rect.block (s := S100000x64) S2000x64.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x64.size a ≤ S100000x64.size a
  hwx12_0 : ∀ i : grid12.Coords, EltTy.bits .f32 = 32 ∨ (Rect.block (s := S100000x64) S2000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S64x64.size a ≤ S64x64.size a
  hwx12_1 : ∀ i : grid12.Coords, EltTy.bits .f32 = 32 ∨ (Rect.block (s := S64x64) S64x64.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S2000x64.size a ≤ S100000x64.size a
  hwx12_2 : ∀ i : grid12.Coords, EltTy.bits .f32 = 32 ∨ (Rect.block (s := S100000x64) S2000x64.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x64.size a ≤ S100000x64.size a
  hwx13_0 : ∀ i : grid13.Coords, EltTy.bits .f32 = 32 ∨ (Rect.block (s := S100000x64) S2000x64.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x64.size a ≤ S1x64.size a
  hwx13_1 : ∀ i : grid13.Coords, EltTy.bits .f32 = 32 ∨ (Rect.block (s := S1x64) S1x64.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S2000x64.size a ≤ S100000x64.size a
  hwx13_2 : ∀ i : grid13.Coords, EltTy.bits .f32 = 32 ∨ (Rect.block (s := S100000x64) S2000x64.size (cc13_transform_2 i) (hinb13_2 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def scatter_S25000x64_S100000x1_S100000x64_1_0_0_1 : ScatterDims S25000x64 S100000x1 S100000x64 where
  updateWindowDims := [1]
  insertedWindowDims := [0]
  scatterDimsToOperandDims := [0]
  indexVectorDim := 1
  wf := scatter_S25000x64_S100000x1_S100000x64_1_0_0_1_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def gather_S25000x64_S100000x1_S100000x64_1_0_n_n_0_1_164 : GatherDims S25000x64 S100000x1 S100000x64 where
  offsetDims := [1]
  collapsedSliceDims := [0]
  operandBatchingDims := []
  startIndicesBatchingDims := []
  startIndexMap := [0]
  indexVectorDim := 1
  sliceSizes := ![1, 64]
  wf := gather_S25000x64_S100000x1_S100000x64_1_0_n_n_0_1_164_wf
def scatter_S100000x64_S100000x1_S100000x64_1_0_0_1 : ScatterDims S100000x64 S100000x1 S100000x64 where
  updateWindowDims := [1]
  insertedWindowDims := [0]
  scatterDimsToOperandDims := [0]
  indexVectorDim := 1
  wf := scatter_S100000x64_S100000x1_S100000x64_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v68) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v88) S1000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v72) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v89) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v90) S1000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v90) S1000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v108) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v109) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v110) S1000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v128) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v112) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v129) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v130) S2000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v130) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v148) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v149) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v150) S2000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v150) S2000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v152) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v155) S2000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v168) S2000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v169) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v170) S2000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v170) S2000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v172) S64x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v175) S2000x64.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v188) S2000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v189) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v190) S2000x64.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v190) S2000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v192) S64x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v195) S2000x64.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v208) S2000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v209) S1x64.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v210) S2000x64.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S100000 : Shape := ⟨1, ![100000]⟩
abbrev S5x64x64 : Shape := ⟨3, ![5, 64, 64]⟩
abbrev S5x64 : Shape := ⟨2, ![5, 64]⟩
abbrev S2x64x64 : Shape := ⟨3, ![2, 64, 64]⟩
abbrev S2x64 : Shape := ⟨2, ![2, 64]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1100000x64 : Shape := ⟨2, ![1100000, 64]⟩
abbrev S100000x1 : Shape := ⟨2, ![100000, 1]⟩
abbrev S25000x64 : Shape := ⟨2, ![25000, 64]⟩

abbrev nBuf : Space → Nat
  | .hbm => 304
  | .vmem => 0
  | .smem => 0
  | _ => 0

abbrev hbmTy0_0 (i : Nat) : BufTy := match i % 128 with
  | 0 => ⟨S100000x64, .f32⟩
  | 1 => ⟨S2x1000000, .i32⟩
  | 2 => ⟨S100000, .i32⟩
  | 3 => ⟨S5x64x64, .f32⟩
  | 4 => ⟨S5x64, .f32⟩
  | 5 => ⟨S2x64x64, .f32⟩
  | 6 => ⟨S2x64, .f32⟩
  | 7 => ⟨S2x64, .f32⟩
  | 8 => ⟨S2x64, .f32⟩
  | 9 => ⟨S100000, .i32⟩
  | 10 => ⟨S1x1000000, .i32⟩
  | 11 => ⟨S1000000, .i32⟩
  | 12 => ⟨S1100000, .i32⟩
  | 13 => ⟨S1x1000000, .i32⟩
  | 14 => ⟨S1000000, .i32⟩
  | 15 => ⟨S1100000, .i32⟩
  | 16 => ⟨S_, .f32⟩
  | 17 => ⟨S1100000, .f32⟩
  | 18 => ⟨S_, .f32⟩
  | 19 => ⟨S100000, .f32⟩
  | 20 => ⟨S1100000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1100000, .i32⟩
  | 32 => ⟨S1100000, .i1⟩
  | 33 => ⟨S_, .i32⟩
  | 34 => ⟨S1100000, .i32⟩
  | 35 => ⟨S1100000, .i32⟩
  | 36 => ⟨S1100000, .i32⟩
  | 37 => ⟨S1100000x1, .i32⟩
  | 38 => ⟨S1100000, .f32⟩
  | 39 => ⟨S_, .i32⟩
  | 40 => ⟨S1100000, .i32⟩
  | 41 => ⟨S1100000, .i1⟩
  | 42 => ⟨S_, .i32⟩
  | 43 => ⟨S1100000, .i32⟩
  | 44 => ⟨S1100000, .i32⟩
  | 45 => ⟨S1100000, .i32⟩
  | 46 => ⟨S1100000x1, .i32⟩
  | 47 => ⟨S1100000, .f32⟩
  | 48 => ⟨S1100000, .f32⟩
  | 49 => ⟨S100000, .i32⟩
  | 50 => ⟨S1x64x64, .f32⟩
  | 51 => ⟨S64x64, .f32⟩
  | 52 => ⟨S1x64, .f32⟩
  | 53 => ⟨S64, .f32⟩
  | 54 => ⟨S100000x64, .f32⟩
  | 55 => ⟨S_, .i32⟩
  | 56 => ⟨S1100000, .i32⟩
  | 57 => ⟨S1100000, .i1⟩
  | 58 => ⟨S_, .i32⟩
  | 59 => ⟨S1100000, .i32⟩
  | 60 => ⟨S1100000, .i32⟩
  | 61 => ⟨S1100000, .i32⟩
  | 62 => ⟨S1100000x1, .i32⟩
  | 63 => ⟨S1100000x64, .f32⟩
  | 64 => ⟨S1100000x1, .f32⟩
  | 65 => ⟨S1100000x64, .f32⟩
  | 66 => ⟨S1100000x64, .f32⟩
  | 67 => ⟨S_, .f32⟩
  | 68 => ⟨S100000x64, .f32⟩
  | 69 => ⟨S1100000x1, .i32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S1x64x64, .f32⟩
  | 78 => ⟨S64x64, .f32⟩
  | 79 => ⟨S1x64, .f32⟩
  | 80 => ⟨S64, .f32⟩
  | 81 => ⟨S100000x64, .f32⟩
  | 82 => ⟨S_, .i32⟩
  | 83 => ⟨S1100000, .i32⟩
  | 84 => ⟨S1100000, .i1⟩
  | 85 => ⟨S_, .i32⟩
  | 86 => ⟨S1100000, .i32⟩
  | 87 => ⟨S1100000, .i32⟩
  | 88 => ⟨S1100000, .i32⟩
  | 89 => ⟨S1100000x1, .i32⟩
  | 90 => ⟨S1100000x64, .f32⟩
  | 91 => ⟨S1100000x1, .f32⟩
  | 92 => ⟨S1100000x64, .f32⟩
  | 93 => ⟨S1100000x64, .f32⟩
  | 94 => ⟨S_, .f32⟩
  | 95 => ⟨S100000x64, .f32⟩
  | 96 => ⟨S1100000x1, .i32⟩
  | 97 => ⟨S100000x64, .f32⟩
  | 98 => ⟨S1x64, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S1x64x64, .f32⟩
  | 105 => ⟨S64x64, .f32⟩
  | 106 => ⟨S1x64, .f32⟩
  | 107 => ⟨S64, .f32⟩
  | 108 => ⟨S1x64, .f32⟩
  | 109 => ⟨S64, .f32⟩
  | 110 => ⟨S1x64, .f32⟩
  | 111 => ⟨S64, .f32⟩
  | 112 => ⟨S_, .i32⟩
  | 113 => ⟨S100000, .i32⟩
  | 114 => ⟨S100000, .i1⟩
  | 115 => ⟨S_, .i32⟩
  | 116 => ⟨S100000, .i32⟩
  | 117 => ⟨S100000, .i32⟩
  | 118 => ⟨S100000, .i32⟩
  | 119 => ⟨S100000x1, .i32⟩
  | 120 => ⟨S100000x64, .f32⟩
  | 121 => ⟨S_, .f32⟩
  | 122 => ⟨S25000x64, .f32⟩
  | 123 => ⟨S100000x1, .i32⟩
  | 124 => ⟨S25000x64, .f32⟩
  | 125 => ⟨S25000x64, .f32⟩
  | 126 => ⟨S1x64, .f32⟩
  | 127 => ⟨S25000x64, .f32⟩
  | _ => ⟨S100000x64, .f32⟩

abbrev hbmTy0_1 (i : Nat) : BufTy := match i % 128 with
  | 0 => ⟨S25000x64, .f32⟩
  | 1 => ⟨S_, .f32⟩
  | 2 => ⟨S25000x64, .f32⟩
  | 3 => ⟨S25000x64, .f32⟩
  | 4 => ⟨S_, .f32⟩
  | 5 => ⟨S64, .f32⟩
  | 6 => ⟨S_, .f32⟩
  | 7 => ⟨S64, .f32⟩
  | 8 => ⟨S64, .f32⟩
  | 9 => ⟨S1x64, .f32⟩
  | 10 => ⟨S25000x64, .f32⟩
  | 11 => ⟨S25000x64, .f32⟩
  | 12 => ⟨S25000x64, .f32⟩
  | 13 => ⟨S_, .f32⟩
  | 14 => ⟨S64, .f32⟩
  | 15 => ⟨S_, .f32⟩
  | 16 => ⟨S64, .f32⟩
  | 17 => ⟨S64, .f32⟩
  | 18 => ⟨S1x64, .f32⟩
  | 19 => ⟨S25000x64, .f32⟩
  | 20 => ⟨S25000x64, .f32⟩
  | 21 => ⟨S1x64, .f32⟩
  | 22 => ⟨S25000x64, .f32⟩
  | 23 => ⟨S25000x64, .f32⟩
  | 24 => ⟨S_, .f32⟩
  | 25 => ⟨S64, .f32⟩
  | 26 => ⟨S64, .f32⟩
  | 27 => ⟨S64, .f32⟩
  | 28 => ⟨S1x64, .f32⟩
  | 29 => ⟨S25000x64, .f32⟩
  | 30 => ⟨S25000x64, .f32⟩
  | 31 => ⟨S1x64, .f32⟩
  | 32 => ⟨S25000x64, .f32⟩
  | 33 => ⟨S25000x64, .f32⟩
  | 34 => ⟨S_, .f32⟩
  | 35 => ⟨S25000x64, .f32⟩
  | 36 => ⟨S25000x64, .f32⟩
  | 37 => ⟨S1x64x64, .f32⟩
  | 38 => ⟨S64x64, .f32⟩
  | 39 => ⟨S1x64, .f32⟩
  | 40 => ⟨S64, .f32⟩
  | 41 => ⟨S1x64, .f32⟩
  | 42 => ⟨S64, .f32⟩
  | 43 => ⟨S1x64, .f32⟩
  | 44 => ⟨S64, .f32⟩
  | 45 => ⟨S_, .i32⟩
  | 46 => ⟨S100000, .i32⟩
  | 47 => ⟨S100000, .i1⟩
  | 48 => ⟨S_, .i32⟩
  | 49 => ⟨S100000, .i32⟩
  | 50 => ⟨S100000, .i32⟩
  | 51 => ⟨S100000, .i32⟩
  | 52 => ⟨S100000x1, .i32⟩
  | 53 => ⟨S100000x64, .f32⟩
  | 54 => ⟨S_, .f32⟩
  | 55 => ⟨S100000x64, .f32⟩
  | 56 => ⟨S100000x1, .i32⟩
  | 57 => ⟨S100000x64, .f32⟩
  | 58 => ⟨S100000x64, .f32⟩
  | 59 => ⟨S1x64, .f32⟩
  | 60 => ⟨S100000x64, .f32⟩
  | 61 => ⟨S100000x64, .f32⟩
  | 62 => ⟨S_, .f32⟩
  | 63 => ⟨S100000x64, .f32⟩
  | 64 => ⟨S100000x64, .f32⟩
  | 65 => ⟨S_, .f32⟩
  | 66 => ⟨S64, .f32⟩
  | 67 => ⟨S_, .f32⟩
  | 68 => ⟨S64, .f32⟩
  | 69 => ⟨S64, .f32⟩
  | 70 => ⟨S1x64, .f32⟩
  | 71 => ⟨S100000x64, .f32⟩
  | 72 => ⟨S100000x64, .f32⟩
  | 73 => ⟨S100000x64, .f32⟩
  | 74 => ⟨S_, .f32⟩
  | 75 => ⟨S64, .f32⟩
  | 76 => ⟨S_, .f32⟩
  | 77 => ⟨S64, .f32⟩
  | 78 => ⟨S64, .f32⟩
  | 79 => ⟨S1x64, .f32⟩
  | 80 => ⟨S100000x64, .f32⟩
  | 81 => ⟨S100000x64, .f32⟩
  | 82 => ⟨S1x64, .f32⟩
  | 83 => ⟨S100000x64, .f32⟩
  | 84 => ⟨S100000x64, .f32⟩
  | 85 => ⟨S_, .f32⟩
  | 86 => ⟨S64, .f32⟩
  | 87 => ⟨S64, .f32⟩
  | 88 => ⟨S64, .f32⟩
  | 89 => ⟨S1x64, .f32⟩
  | 90 => ⟨S100000x64, .f32⟩
  | 91 => ⟨S100000x64, .f32⟩
  | 92 => ⟨S1x64, .f32⟩
  | 93 => ⟨S100000x64, .f32⟩
  | 94 => ⟨S100000x64, .f32⟩
  | 95 => ⟨S_, .f32⟩
  | 96 => ⟨S100000x64, .f32⟩
  | 97 => ⟨S100000x64, .f32⟩
  | 98 => ⟨S1x64x64, .f32⟩
  | 99 => ⟨S64x64, .f32⟩
  | 100 => ⟨S1x64, .f32⟩
  | 101 => ⟨S64, .f32⟩
  | 102 => ⟨S100000x64, .f32⟩
  | 103 => ⟨S_, .i32⟩
  | 104 => ⟨S1100000, .i32⟩
  | 105 => ⟨S1100000, .i1⟩
  | 106 => ⟨S_, .i32⟩
  | 107 => ⟨S1100000, .i32⟩
  | 108 => ⟨S1100000, .i32⟩
  | 109 => ⟨S1100000, .i32⟩
  | 110 => ⟨S1100000x1, .i32⟩
  | 111 => ⟨S1100000x64, .f32⟩
  | 112 => ⟨S1100000x1, .f32⟩
  | 113 => ⟨S1100000x64, .f32⟩
  | 114 => ⟨S1100000x64, .f32⟩
  | 115 => ⟨S_, .f32⟩
  | 116 => ⟨S100000x64, .f32⟩
  | 117 => ⟨S1100000x1, .i32⟩
  | 118 => ⟨S100000x64, .f32⟩
  | 119 => ⟨S1x64, .f32⟩
  | 120 => ⟨S100000x64, .f32⟩
  | 121 => ⟨S100000x64, .f32⟩
  | 122 => ⟨S_, .f32⟩
  | 123 => ⟨S100000x64, .f32⟩
  | 124 => ⟨S100000x64, .f32⟩
  | 125 => ⟨S1x64x64, .f32⟩
  | 126 => ⟨S64x64, .f32⟩
  | 127 => ⟨S1x64, .f32⟩
  | _ => ⟨S100000x64, .f32⟩

abbrev hbmTy0_2 (i : Nat) : BufTy := match i % 128 with
  | 0 => ⟨S64, .f32⟩
  | 1 => ⟨S100000x64, .f32⟩
  | 2 => ⟨S_, .i32⟩
  | 3 => ⟨S1100000, .i32⟩
  | 4 => ⟨S1100000, .i1⟩
  | 5 => ⟨S_, .i32⟩
  | 6 => ⟨S1100000, .i32⟩
  | 7 => ⟨S1100000, .i32⟩
  | 8 => ⟨S1100000, .i32⟩
  | 9 => ⟨S1100000x1, .i32⟩
  | 10 => ⟨S1100000x64, .f32⟩
  | 11 => ⟨S1100000x1, .f32⟩
  | 12 => ⟨S1100000x64, .f32⟩
  | 13 => ⟨S1100000x64, .f32⟩
  | 14 => ⟨S_, .f32⟩
  | 15 => ⟨S100000x64, .f32⟩
  | 16 => ⟨S1100000x1, .i32⟩
  | 17 => ⟨S100000x64, .f32⟩
  | 18 => ⟨S1x64, .f32⟩
  | 19 => ⟨S100000x64, .f32⟩
  | 20 => ⟨S100000x64, .f32⟩
  | 21 => ⟨S_, .f32⟩
  | 22 => ⟨S100000x64, .f32⟩
  | 23 => ⟨S100000x64, .f32⟩
  | 24 => ⟨S1x64x64, .f32⟩
  | 25 => ⟨S64x64, .f32⟩
  | 26 => ⟨S1x64, .f32⟩
  | 27 => ⟨S64, .f32⟩
  | 28 => ⟨S100000x64, .f32⟩
  | 29 => ⟨S_, .i32⟩
  | 30 => ⟨S1100000, .i32⟩
  | 31 => ⟨S1100000, .i1⟩
  | 32 => ⟨S_, .i32⟩
  | 33 => ⟨S1100000, .i32⟩
  | 34 => ⟨S1100000, .i32⟩
  | 35 => ⟨S1100000, .i32⟩
  | 36 => ⟨S1100000x1, .i32⟩
  | 37 => ⟨S1100000x64, .f32⟩
  | 38 => ⟨S1100000x1, .f32⟩
  | 39 => ⟨S1100000x64, .f32⟩
  | 40 => ⟨S1100000x64, .f32⟩
  | 41 => ⟨S_, .f32⟩
  | 42 => ⟨S100000x64, .f32⟩
  | 43 => ⟨S1100000x1, .i32⟩
  | 44 => ⟨S100000x64, .f32⟩
  | 45 => ⟨S1x64, .f32⟩
  | 46 => ⟨S100000x64, .f32⟩
  | 47 => ⟨S100000x64, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call1_cst : Ref sig .tc := ⟨.hbm, 74, rfl⟩
abbrev main_call1_v0 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_9 : Ref sig .tc := ⟨.hbm, 82, rfl⟩
abbrev main_v58 : Ref sig .tc := ⟨.hbm, 83, rfl⟩
abbrev main_v59 : Ref sig .tc := ⟨.hbm, 84, rfl⟩
abbrev main_c_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_11 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_call2_cst : Ref sig .tc := ⟨.hbm, 101, rfl⟩
abbrev main_call2_v0 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_12 : Ref sig .tc := ⟨.hbm, 112, rfl⟩
abbrev main_v83 : Ref sig .tc := ⟨.hbm, 113, rfl⟩
abbrev main_v84 : Ref sig .tc := ⟨.hbm, 114, rfl⟩
abbrev main_c_13 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_14 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_call3_cst : Ref sig .tc := ⟨.hbm, 129, rfl⟩
abbrev main_call3_v0 : Ref sig .tc := ⟨.hbm, 130, rfl⟩
abbrev main_v97 : Ref sig .tc := ⟨.hbm, 131, rfl⟩
abbrev main_cst_15 : Ref sig .tc := ⟨.hbm, 132, rfl⟩
abbrev main_v98 : Ref sig .tc := ⟨.hbm, 133, rfl⟩
abbrev main_cst_16 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_17 : Ref sig .tc := ⟨.hbm, 141, rfl⟩
abbrev main_v105 : Ref sig .tc := ⟨.hbm, 142, rfl⟩
abbrev main_cst_18 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_19 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_call4_cst : Ref sig .tc := ⟨.hbm, 162, rfl⟩
abbrev main_call4_v0 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_c_20 : Ref sig .tc := ⟨.hbm, 173, rfl⟩
abbrev main_v132 : Ref sig .tc := ⟨.hbm, 174, rfl⟩
abbrev main_v133 : Ref sig .tc := ⟨.hbm, 175, rfl⟩
abbrev main_c_21 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_cst_22 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_call5_cst : Ref sig .tc := ⟨.hbm, 190, rfl⟩
abbrev main_call5_v0 : Ref sig .tc := ⟨.hbm, 191, rfl⟩
abbrev main_v146 : Ref sig .tc := ⟨.hbm, 192, rfl⟩
abbrev main_cst_23 : Ref sig .tc := ⟨.hbm, 193, rfl⟩
abbrev main_v147 : Ref sig .tc := ⟨.hbm, 194, rfl⟩
abbrev main_cst_24 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_cst_25 : Ref sig .tc := ⟨.hbm, 202, rfl⟩
abbrev main_v154 : Ref sig .tc := ⟨.hbm, 203, rfl⟩
abbrev main_cst_26 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_cst_27 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_call6_cst : Ref sig .tc := ⟨.hbm, 223, rfl⟩
abbrev main_call6_v0 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_c_28 : Ref sig .tc := ⟨.hbm, 231, rfl⟩
abbrev main_v178 : Ref sig .tc := ⟨.hbm, 232, rfl⟩
abbrev main_v179 : Ref sig .tc := ⟨.hbm, 233, rfl⟩
abbrev main_c_29 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_cst_30 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_call7_cst : Ref sig .tc := ⟨.hbm, 250, rfl⟩
abbrev main_call7_v0 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_c_31 : Ref sig .tc := ⟨.hbm, 258, rfl⟩
abbrev main_v200 : Ref sig .tc := ⟨.hbm, 259, rfl⟩
abbrev main_v201 : Ref sig .tc := ⟨.hbm, 260, rfl⟩
abbrev main_c_32 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_cst_33 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_call8_cst : Ref sig .tc := ⟨.hbm, 277, rfl⟩
abbrev main_call8_v0 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_c_34 : Ref sig .tc := ⟨.hbm, 285, rfl⟩
abbrev main_v222 : Ref sig .tc := ⟨.hbm, 286, rfl⟩
abbrev main_v223 : Ref sig .tc := ⟨.hbm, 287, rfl⟩
abbrev main_c_35 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_cst_36 : Ref sig .tc := ⟨.hbm, 297, rfl⟩
abbrev main_v232 : Ref sig .tc := ⟨.hbm, 298, rfl⟩
abbrev main_v233 : Ref sig .tc := ⟨.hbm, 299, rfl⟩
abbrev main_v234 : Ref sig .tc := ⟨.hbm, 300, rfl⟩
abbrev main_v235 : Ref sig .tc := ⟨.hbm, 301, rfl⟩
abbrev main_v236 : Ref sig .tc := ⟨.hbm, 302, rfl⟩
abbrev main_v237 : Ref sig .tc := ⟨.hbm, 303, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  slices_S5x64x64_S1x64x64_0_0_0 : S5x64x64.Slices ![0, 0, 0] S1x64x64
  shapeCasts_S1x64x64_S64x64 : S1x64x64.ShapeCasts S64x64
  slices_S5x64_S1x64_0_0 : S5x64.Slices ![0, 0] S1x64
  shapeCasts_S1x64_S64 : S1x64.ShapeCasts S64
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S5x64x64_S1x64x64_1_0_0 : S5x64x64.Slices ![1, 0, 0] S1x64x64
  slices_S5x64_S1x64_1_0 : S5x64.Slices ![1, 0] S1x64
  slices_S2x64x64_S1x64x64_0_0_0 : S2x64x64.Slices ![0, 0, 0] S1x64x64
  slices_S2x64_S1x64_0_0 : S2x64.Slices ![0, 0] S1x64
  bcast_S100000_S100000x1_0 : S100000.BroadcastsInDim S100000x1 (![0] : Fin 1 → Fin S100000x1.rank)
  bcast_S_S25000x64 : S_.BroadcastsInDim S25000x64 (![] : Fin 0 → Fin S25000x64.rank)
  bcast_S1x64_S25000x64_0_1 : S1x64.BroadcastsInDim S25000x64 (![0, 1] : Fin 2 → Fin S25000x64.rank)
  reducesTo_S25000x64_S64_d0 : S25000x64.ReducesTo [0] S64
  h_S_ : 0 < S_.numel
  bcast_S_S64 : S_.BroadcastsInDim S64 (![] : Fin 0 → Fin S64.rank)
  slices_S2x64x64_S1x64x64_1_0_0 : S2x64x64.Slices ![1, 0, 0] S1x64x64
  slices_S2x64_S1x64_1_0 : S2x64.Slices ![1, 0] S1x64
  reducesTo_S100000x64_S64_d0 : S100000x64.ReducesTo [0] S64
  slices_S5x64x64_S1x64x64_2_0_0 : S5x64x64.Slices ![2, 0, 0] S1x64x64
  slices_S5x64_S1x64_2_0 : S5x64.Slices ![2, 0] S1x64
  slices_S5x64x64_S1x64x64_3_0_0 : S5x64x64.Slices ![3, 0, 0] S1x64x64
  slices_S5x64_S1x64_3_0 : S5x64.Slices ![3, 0] S1x64
  slices_S5x64x64_S1x64x64_4_0_0 : S5x64x64.Slices ![4, 0, 0] S1x64x64
  slices_S5x64_S1x64_4_0 : S5x64.Slices ![4, 0] S1x64
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x64_S64x64_S100000x64_1_0_0_1_n_n_wf : DotDims.WF S100000x64 S64x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  gather_S100000x64_S100000x1_S100000x64_1_0_n_n_0_1_164_wf : GatherDims.WF S100000x64 S100000x1 S100000x64 [1] [0] [] [0] [] 1 ![1, 64]
  scatter_S25000x64_S100000x1_S100000x64_1_0_0_1_wf : ScatterDims.WF S25000x64 S100000x1 S100000x64 [1] [0] [0] 1
  dot_S25000x64_S64x64_S25000x64_1_0_0_1_n_n_wf : DotDims.WF S25000x64 S64x64 S25000x64 [1] [0] [0] [1] [] []
  gather_S25000x64_S100000x1_S100000x64_1_0_n_n_0_1_164_wf : GatherDims.WF S25000x64 S100000x1 S100000x64 [1] [0] [] [0] [] 1 ![1, 64]
  scatter_S100000x64_S100000x1_S100000x64_1_0_0_1_wf : ScatterDims.WF S100000x64 S100000x1 S100000x64 [1] [0] [0] 1

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def scatter_S25000x64_S100000x1_S100000x64_1_0_0_1 : ScatterDims S25000x64 S100000x1 S100000x64 where
  updateWindowDims := [1]
  insertedWindowDims := [0]
  scatterDimsToOperandDims := [0]
  indexVectorDim := 1
  wf := scatter_S25000x64_S100000x1_S100000x64_1_0_0_1_wf
def dot_S25000x64_S64x64_S25000x64_1_0_0_1_n_n : DotDims S25000x64 S64x64 S25000x64 where
  lhsContracting := [1]
  rhsContracting := [0]
  lhsNonContracting := [0]
  rhsNonContracting := [1]
  lhsBatch := []
  rhsBatch := []
  wf := dot_S25000x64_S64x64_S25000x64_1_0_0_1_n_n_wf
def gather_S25000x64_S100000x1_S100000x64_1_0_n_n_0_1_164 : GatherDims S25000x64 S100000x1 S100000x64 where
  offsetDims := [1]
  collapsedSliceDims := [0]
  operandBatchingDims := []
  startIndicesBatchingDims := []
  startIndexMap := [0]
  indexVectorDim := 1
  sliceSizes := ![1, 64]
  wf := gather_S25000x64_S100000x1_S100000x64_1_0_n_n_0_1_164_wf
def scatter_S100000x64_S100000x1_S100000x64_1_0_0_1 : ScatterDims S100000x64 S100000x1 S100000x64 where
  updateWindowDims := [1]
  insertedWindowDims := [0]
  scatterDimsToOperandDims := [0]
  indexVectorDim := 1
  wf := scatter_S100000x64_S100000x1_S100000x64_1_0_0_1_wf

class Facts : Prop extends Facts₀ where

variable [Facts]
-- ==== Proof.KernelRun.lean ====
/-
  The idealized kernel's run with its result array named. The program is fourteen TensorCore regions among
  stretches of host operations; the contents of every buffer at each boundary between them are a fold from the
  launch memory (the region exits put each output array at what its grid points wrote back). This module states
  the run once more with one more conjunct in its post: the returned array ends at that fold's last stage read at
  the result buffer; the argument arrays end unchanged, as in the frame.
-/
import proofs.«168298_j84988812853302_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates without a fault; the returned array holds the
    last boundary's contents at the result buffer, and every argument array is as launched. -/
theorem run_result : θ_run defs (onTc (τ := τ) (main (F := F))) ⟨m, fun _ => 0, ρ⟩ (fun r => ∀ c : Dev nD,
      r.2.mem ((c.tc : Thread nD τ).loc main_v210) = W30 m ρ c (Proc.devRef .tc main_v210)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W30 m ρ c b)
    (hfin := fun c s' => by
      iintro ⟨⟨Hh, -⟩, HSI⟩
      unfold StableHlo.held
      imodintro
      iapply (pointsTo_read_all (Pipeline.ucRefs τ sig) (fun b => (((c : Thread nD τ)).1, b)) (W30 m ρ c) s')
      isplitl [Hh] <;> iassumption)
    (hQ := fun s h c =>
      ⟨h c _ (mem_uc main_v210 (by decide)),
       (h c _ (mem_uc main_arg0 (by decide))).trans (W30_main_arg0 m ρ c),
       (h c _ (mem_uc main_arg1 (by decide))).trans (W30_main_arg1 m ρ c),
       (h c _ (mem_uc main_arg2 (by decide))).trans (W30_main_arg2 m ρ c),
       (h c _ (mem_uc main_arg3 (by decide))).trans (W30_main_arg3 m ρ c),
       (h c _ (mem_uc main_arg4 (by decide))).trans (W30_main_arg4 m ρ c),
       (h c _ (mem_uc main_arg5 (by decide))).trans (W30_main_arg5 m ρ c),
       (h c _ (mem_uc main_arg6 (by decide))).trans (W30_main_arg6 m ρ c),
       (h c _ (mem_uc main_arg7 (by decide))).trans (W30_main_arg7 m ρ c),
       (h c _ (mem_uc main_arg8 (by decide))).trans (W30_main_arg8 m ρ c)⟩)

end Cert.KernelIdeal.RunValue

end
-- ==== Proof.RefSegs.lean ====
/-
  The reference's @main cut into the consecutive stretches that correspond, one for one, to the idealized kernel's
  stretches of host operations and to its regions: a stretch ends where the kernel's next region begins or ends
  (the kernel's matrix product against the reference's `dot_general`; its bias-and-positive-part body against the
  reference's broadcasts, sum and maximum; its scale-and-shift body against the whole batch normalisation).
  The buffers after each stretch are the previous ones folded through that stretch; after the last one they are the
  buffers the reference's run ends with.
-/
import proofs.«168298_j84988812853302_1_alg».proof.Proof.RefRunP

set_option maxRecDepth 8192

noncomputable section

namespace Cert.ReferenceIdeal.Segs

open Cert.ReferenceIdeal Cert.ReferenceIdeal.Gen Idealize.ShloMosaic Idealize.ShloMosaic.TcCoe Idealize.SL.Sem Idealize.ShloMosaic.StableHlo

variable {F : FTy → Type} [FloatOps F]

/-- The buffers after two lines run one after the other: the second line's fold over the first's. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- Operations 1–45 of the reference's @main (45), ending with the one that writes `main_v34`. -/
abbrev seg0 : List (HloOp τ sig (Elt F)) :=
  [ nullary main_v0 (iotaInDim S100000 32 0),
    unary main_arg1 main_v1 ((extractStridedSlice S1x1000000 ![0, 0] · slices_S2x1000000_S1x1000000_0_0) : (⟨S2x1000000, .i32⟩ : BufTy).Contents (Elt F) → (⟨S1x1000000, .i32⟩ : BufTy).Contents (Elt F)),
    reshape main_v1 main_v2 rfl shapeCasts_S1x1000000_S1000000,
    binary main_v2 main_v0 main_v3 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)),
    unary main_arg1 main_v4 ((extractStridedSlice S1x1000000 ![1, 0] · slices_S2x1000000_S1x1000000_1_0) : (⟨S2x1000000, .i32⟩ : BufTy).Contents (Elt F) → (⟨S1x1000000, .i32⟩ : BufTy).Contents (Elt F)),
    reshape main_v4 main_v5 rfl shapeCasts_S1x1000000_S1000000,
    binary main_v5 main_v0 main_v6 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)),
    nullary main_cst (constant S_ .f32 0x3F800000#32),
    unary main_cst main_v7 (broadcastInDim S1100000 ![] bcast_S_S1100000 : (⟨S_, .f32⟩ : BufTy).Contents (Elt F) → (⟨S1100000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1100000x1 ![0] bcast_S1100000_S1100000x1_0 : (⟨S1100000, .i32⟩ : BufTy).Contents (Elt F) → (⟨S1100000x1, .i32⟩ : BufTy).Contents (Elt F)),
    ternary main_v8 main_v9 main_v7 main_v10 ((fun x i u => Host.scatterAdd scatter_S100000_S1100000x1_S1100000_n_0_0_1 x i u) : (⟨S100000, .f32⟩ : BufTy).Contents (Elt F) → (⟨S1100000x1, .i32⟩ : BufTy).Contents (Elt F) → (⟨S1100000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1100000 ![] bcast_S_S1100000 : (⟨S_, .i32⟩ : BufTy).Contents (Elt F) → (⟨S1100000, .i32⟩ : BufTy).Contents (Elt F)),
    binary main_v3 main_v15 main_v16 (cmpi .slt : (⟨S1100000, .i32⟩ : BufTy).Contents (Elt F) → (⟨S1100000, .i32⟩ : BufTy).Contents (Elt F) → (⟨S1100000, .i1⟩ : BufTy).Contents (Elt F)),
    nullary main_c_3 (constantI S_ 32 100000#32),
    unary main_c_3 main_v17 (broadcastInDim S1100000 ![] bcast_S_S1100000 : (⟨S_, .i32⟩ : BufTy).Contents (Elt F) → (⟨S1100000, .i32⟩ : BufTy).Contents (Elt F)),
    binary main_v3 main_v17 main_v18 (addi : (⟨S1100000, .i32⟩ : BufTy).Contents (Elt F) → (⟨S1100000, .i32⟩ : BufTy).Contents (Elt F) → (⟨S1100000, .i32⟩ : BufTy).Contents (Elt F)),
    ternary main_v16 main_v18 main_v3 main_v19 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v19 main_v20 (broadcastInDim S1100000x1 ![0] bcast_S1100000_S1100000x1_0 : (⟨S1100000, .i32⟩ : BufTy).Contents (Elt F) → (⟨S1100000x1, .i32⟩ : BufTy).Contents (Elt F)),
    binary main_v14 main_v20 main_v21 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F)),
    nullary main_c_4 (constantI S_ 32 0#32),
    unary main_c_4 main_v22 (broadcastInDim S1100000 ![] bcast_S_S1100000 : (⟨S_, .i32⟩ : BufTy).Contents (Elt F) → (⟨S1100000, .i32⟩ : BufTy).Contents (Elt F)),
    binary main_v6 main_v22 main_v23 (cmpi .slt : (⟨S1100000, .i32⟩ : BufTy).Contents (Elt F) → (⟨S1100000, .i32⟩ : BufTy).Contents (Elt F) → (⟨S1100000, .i1⟩ : BufTy).Contents (Elt F)),
    nullary main_c_5 (constantI S_ 32 100000#32),
    unary main_c_5 main_v24 (broadcastInDim S1100000 ![] bcast_S_S1100000 : (⟨S_, .i32⟩ : BufTy).Contents (Elt F) → (⟨S1100000, .i32⟩ : BufTy).Contents (Elt F)),
    binary main_v6 main_v24 main_v25 (addi : (⟨S1100000, .i32⟩ : BufTy).Contents (Elt F) → (⟨S1100000, .i32⟩ : BufTy).Contents (Elt F) → (⟨S1100000, .i32⟩ : BufTy).Contents (Elt F)),
    ternary main_v23 main_v25 main_v6 main_v26 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v26 main_v27 (broadcastInDim S1100000x1 ![0] bcast_S1100000_S1100000x1_0 : (⟨S1100000, .i32⟩ : BufTy).Contents (Elt F) → (⟨S1100000x1, .i32⟩ : BufTy).Contents (Elt F)),
    binary main_v14 main_v27 main_v28 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F)),
    binary main_v21 main_v28 main_v29 (mulf : (⟨S1100000, .f32⟩ : BufTy).Contents (Elt F) → (⟨S1100000, .f32⟩ : BufTy).Contents (Elt F) → (⟨S1100000, .f32⟩ : BufTy).Contents (Elt F)),
    nullary main_v30 (iotaInDim S100000 32 0),
    unary main_arg3 main_v31 ((extractStridedSlice S1x64x64 ![0, 0, 0] · slices_S5x64x64_S1x64x64_0_0_0) : (⟨S5x64x64, .f32⟩ : BufTy).Contents (Elt F) → (⟨S1x64x64, .f32⟩ : BufTy).Contents (Elt F)),
    reshape main_v31 main_v32 rfl shapeCasts_S1x64x64_S64x64,
    unary main_arg4 main_v33 ((extractStridedSlice S1x64 ![0, 0] · slices_S5x64_S1x64_0_0) : (⟨S5x64, .f32⟩ : BufTy).Contents (Elt F) → (⟨S1x64, .f32⟩ : BufTy).Contents (Elt F)),
    reshape main_v33 main_v34 rfl shapeCasts_S1x64_S64 ]

/-- Operations 46–46 of the reference's @main (1), ending with the one that writes `main_v35`. -/
abbrev seg1 : List (HloOp τ sig (Elt F)) :=
  [ binary main_arg0 main_v32 main_v35 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- Operations 47–62 of the reference's @main (16), ending with the one that writes `main_v48`. -/
abbrev seg2 : List (HloOp τ sig (Elt F)) :=
  [ nullary main_c_6 (constantI S_ 32 0#32),
    unary main_c_6 main_v36 (broadcastInDim S1100000 ![] bcast_S_S1100000 : (⟨S_, .i32⟩ : BufTy).Contents (Elt F) → (⟨S1100000, .i32⟩ : BufTy).Contents (Elt F)),
    binary main_v3 main_v36 main_v37 (cmpi .slt : (⟨S1100000, .i32⟩ : BufTy).Contents (Elt F) → (⟨S1100000, .i32⟩ : BufTy).Contents (Elt F) → (⟨S1100000, .i1⟩ : BufTy).Contents (Elt F)),
    nullary main_c_7 (constantI S_ 32 100000#32),
    unary main_c_7 main_v38 (broadcastInDim S1100000 ![] bcast_S_S1100000 : (⟨S_, .i32⟩ : BufTy).Contents (Elt F) → (⟨S1100000, .i32⟩ : BufTy).Contents (Elt F)),
    binary main_v3 main_v38 main_v39 (addi : (⟨S1100000, .i32⟩ : BufTy).Contents (Elt F) → (⟨S1100000, .i32⟩ : BufTy).Contents (Elt F) → (⟨S1100000, .i32⟩ : BufTy).Contents (Elt F)),
    ternary main_v37 main_v39 main_v3 main_v40 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v40 main_v41 (broadcastInDim S1100000x1 ![0] bcast_S1100000_S1100000x1_0 : (⟨S1100000, .i32⟩ : BufTy).Contents (Elt F) → (⟨S1100000x1, .i32⟩ : BufTy).Contents (Elt F)),
    binary main_v35 main_v41 main_v42 ((fun x i => Host.gather gather_S100000x64_S1100000x1_S1100000x64_1_0_n_n_0_1_164 x i) : (⟨S100000x64, .f32⟩ : BufTy).Contents (Elt F) → (⟨S1100000x1, .i32⟩ : BufTy).Contents (Elt F) → (⟨S1100000x64, .f32⟩ : BufTy).Contents (Elt F)),
    unary main_v29 main_v43 (broadcastInDim S1100000x1 ![0] bcast_S1100000_S1100000x1_0 : (⟨S1100000, .f32⟩ : BufTy).Contents (Elt F) → (⟨S1100000x1, .f32⟩ : BufTy).Contents (Elt F)),
    unary main_v43 main_v44 (broadcastInDim S1100000x64 ![0, 1] bcast_S1100000x1_S1100000x64_0_1 : (⟨S1100000x1, .f32⟩ : BufTy).Contents (Elt F) → (⟨S1100000x64, .f32⟩ : BufTy).Contents (Elt F)),
    binary main_v42 main_v44 main_v45 (mulf : (⟨S1100000x64, .f32⟩ : BufTy).Contents (Elt F) → (⟨S1100000x64, .f32⟩ : BufTy).Contents (Elt F) → (⟨S1100000x64, .f32⟩ : BufTy).Contents (Elt F)),
    nullary main_cst_8 (constant S_ .f32 0x00000000#32),
    unary main_cst_8 main_v46 (broadcastInDim S100000x64 ![] bcast_S_S100000x64 : (⟨S_, .f32⟩ : BufTy).Contents (Elt F) → (⟨S100000x64, .f32⟩ : BufTy).Contents (Elt F)),
    unary main_v6 main_v47 (broadcastInDim S1100000x1 ![0] bcast_S1100000_S1100000x1_0 : (⟨S1100000, .i32⟩ : BufTy).Contents (Elt F) → (⟨S1100000x1, .i32⟩ : BufTy).Contents (Elt F)),
    ternary main_v46 main_v47 main_v45 main_v48 ((fun x i u => Host.scatterAdd scatter_S100000x64_S1100000x1_S1100000x64_1_0_0_1 x i u) : (⟨S100000x64, .f32⟩ : BufTy).Contents (Elt F) → (⟨S1100000x1, .i32⟩ : BufTy).Contents (Elt F) → (⟨S1100000x64, .f32⟩ : BufTy).Contents (Elt F) → (⟨S100000x64, .f32⟩ : BufTy).Contents (Elt F)) ]

/-- Operations 63–68 of the reference's @main (6), ending with the one that writes `main_v52`. -/
abbrev seg3 : List (HloOp τ sig (Elt F)) :=
  [ unary main_v34 main_v49 (broadcastInDim S1x64 ![1] bcast_S64_S1x64_1 : (⟨S64, .f32⟩ : BufTy).Contents (Elt F) → (⟨S1x64, .f32⟩ : BufTy).Contents (Elt F)),
    unary main_v49 main_v50 (broadcastInDim S100000x64 ![0, 1] bcast_S1x64_S100000x64_0_1 : (⟨S1x64, .f32⟩ : BufTy).Contents (Elt F) → (⟨S100000x64, .f32⟩ : BufTy).Contents (Elt F)),
    binary main_v48 main_v50 main_v51 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v51) (TRef.of (T := ⟨S100000x64, .f32⟩) main_call1_v0) (TRef.of (T := ⟨S100000x64, .f32⟩) main_v52) maximumf ]

/-- Operations 69–72 of the reference's @main (4), ending with the one that writes `main_v56`. -/
abbrev seg4 : List (HloOp τ sig (Elt F)) :=
  [ unary main_arg3 main_v53 ((extractStridedSlice S1x64x64 ![1, 0, 0] · slices_S5x64x64_S1x64x64_1_0_0) : (⟨S5x64x64, .f32⟩ : BufTy).Contents (Elt F) → (⟨S1x64x64, .f32⟩ : BufTy).Contents (Elt F)),
    reshape main_v53 main_v54 rfl shapeCasts_S1x64x64_S64x64,
    unary main_arg4 main_v55 ((extractStridedSlice S1x64 ![1, 0] · slices_S5x64_S1x64_1_0) : (⟨S5x64, .f32⟩ : BufTy).Contents (Elt F) → (⟨S1x64, .f32⟩ : BufTy).Contents (Elt F)),
    reshape main_v55 main_v56 rfl shapeCasts_S1x64_S64 ]

/-- Operations 73–73 of the reference's @main (1), ending with the one that writes `main_v57`. -/
abbrev seg5 : List (HloOp τ sig (Elt F)) :=
  [ binary main_v52 main_v54 main_v57 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- Operations 74–89 of the reference's @main (16), ending with the one that writes `main_v70`. -/
abbrev seg6 : List (HloOp τ sig (Elt F)) :=
  [ nullary main_c_9 (constantI S_ 32 0#32),
    unary main_c_9 main_v58 (broadcastInDim S1100000 ![] bcast_S_S1100000 : (⟨S_, .i32⟩ : BufTy).Contents (Elt F) → (⟨S1100000, .i32⟩ : BufTy).Contents (Elt F)),
    binary main_v3 main_v58 main_v59 (cmpi .slt : (⟨S1100000, .i32⟩ : BufTy).Contents (Elt F) → (⟨S1100000, .i32⟩ : BufTy).Contents (Elt F) → (⟨S1100000, .i1⟩ : BufTy).Contents (Elt F)),
    nullary main_c_10 (constantI S_ 32 100000#32),
    unary main_c_10 main_v60 (broadcastInDim S1100000 ![] bcast_S_S1100000 : (⟨S_, .i32⟩ : BufTy).Contents (Elt F) → (⟨S1100000, .i32⟩ : BufTy).Contents (Elt F)),
    binary main_v3 main_v60 main_v61 (addi : (⟨S1100000, .i32⟩ : BufTy).Contents (Elt F) → (⟨S1100000, .i32⟩ : BufTy).Contents (Elt F) → (⟨S1100000, .i32⟩ : BufTy).Contents (Elt F)),
    ternary main_v59 main_v61 main_v3 main_v62 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v62 main_v63 (broadcastInDim S1100000x1 ![0] bcast_S1100000_S1100000x1_0 : (⟨S1100000, .i32⟩ : BufTy).Contents (Elt F) → (⟨S1100000x1, .i32⟩ : BufTy).Contents (Elt F)),
    binary main_v57 main_v63 main_v64 ((fun x i => Host.gather gather_S100000x64_S1100000x1_S1100000x64_1_0_n_n_0_1_164 x i) : (⟨S100000x64, .f32⟩ : BufTy).Contents (Elt F) → (⟨S1100000x1, .i32⟩ : BufTy).Contents (Elt F) → (⟨S1100000x64, .f32⟩ : BufTy).Contents (Elt F)),
    unary main_v29 main_v65 (broadcastInDim S1100000x1 ![0] bcast_S1100000_S1100000x1_0 : (⟨S1100000, .f32⟩ : BufTy).Contents (Elt F) → (⟨S1100000x1, .f32⟩ : BufTy).Contents (Elt F)),
    unary main_v65 main_v66 (broadcastInDim S1100000x64 ![0, 1] bcast_S1100000x1_S1100000x64_0_1 : (⟨S1100000x1, .f32⟩ : BufTy).Contents (Elt F) → (⟨S1100000x64, .f32⟩ : BufTy).Contents (Elt F)),
    binary main_v64 main_v66 main_v67 (mulf : (⟨S1100000x64, .f32⟩ : BufTy).Contents (Elt F) → (⟨S1100000x64, .f32⟩ : BufTy).Contents (Elt F) → (⟨S1100000x64, .f32⟩ : BufTy).Contents (Elt F)),
    nullary main_cst_11 (constant S_ .f32 0x00000000#32),
    unary main_cst_11 main_v68 (broadcastInDim S100000x64 ![] bcast_S_S100000x64 : (⟨S_, .f32⟩ : BufTy).Contents (Elt F) → (⟨S100000x64, .f32⟩ : BufTy).Contents (Elt F)),
    unary main_v6 main_v69 (broadcastInDim S1100000x1 ![0] bcast_S1100000_S1100000x1_0 : (⟨S1100000, .i32⟩ : BufTy).Contents (Elt F) → (⟨S1100000x1, .i32⟩ : BufTy).Contents (Elt F)),
    ternary main_v68 main_v69 main_v67 main_v70 ((fun x i u => Host.scatterAdd scatter_S100000x64_S1100000x1_S1100000x64_1_0_0_1 x i u) : (⟨S100000x64, .f32⟩ : BufTy).Contents (Elt F) → (⟨S1100000x1, .i32⟩ : BufTy).Contents (Elt F) → (⟨S1100000x64, .f32⟩ : BufTy).Contents (Elt F) → (⟨S100000x64, .f32⟩ : BufTy).Contents (Elt F)) ]

/-- Operations 90–95 of the reference's @main (6), ending with the one that writes `main_v74`. -/
abbrev seg7 : List (HloOp τ sig (Elt F)) :=
  [ unary main_v56 main_v71 (broadcastInDim S1x64 ![1] bcast_S64_S1x64_1 : (⟨S64, .f32⟩ : BufTy).Contents (Elt F) → (⟨S1x64, .f32⟩ : BufTy).Contents (Elt F)),
    unary main_v71 main_v72 (broadcastInDim S100000x64 ![0, 1] bcast_S1x64_S100000x64_0_1 : (⟨S1x64, .f32⟩ : BufTy).Contents (Elt F) → (⟨S100000x64, .f32⟩ : BufTy).Contents (Elt F)),
    binary main_v70 main_v72 main_v73 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v73) (TRef.of (T := ⟨S100000x64, .f32⟩) main_call2_v0) (TRef.of (T := ⟨S100000x64, .f32⟩) main_v74) maximumf ]

/-- Operations 96–116 of the reference's @main (21), ending with the one that writes `main_v92`. -/
abbrev seg8 : List (HloOp τ sig (Elt F)) :=
  [ unary main_arg5 main_v75 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v75 main_v76 rfl shapeCasts_S1x64x64_S64x64,
    unary main_arg6 main_v77 ((extractStridedSlice S1x64 ![0, 0] · slices_S2x64_S1x64_0_0) : (⟨S2x64, .f32⟩ : BufTy).Contents (Elt F) → (⟨S1x64, .f32⟩ : BufTy).Contents (Elt F)),
    reshape main_v77 main_v78 rfl shapeCasts_S1x64_S64,
    unary main_arg7 main_v79 ((extractStridedSlice S1x64 ![0, 0] · slices_S2x64_S1x64_0_0) : (⟨S2x64, .f32⟩ : BufTy).Contents (Elt F) → (⟨S1x64, .f32⟩ : BufTy).Contents (Elt F)),
    reshape main_v79 main_v80 rfl shapeCasts_S1x64_S64,
    unary main_arg8 main_v81 ((extractStridedSlice S1x64 ![0, 0] · slices_S2x64_S1x64_0_0) : (⟨S2x64, .f32⟩ : BufTy).Contents (Elt F) → (⟨S1x64, .f32⟩ : BufTy).Contents (Elt F)),
    reshape main_v81 main_v82 rfl shapeCasts_S1x64_S64,
    nullary main_c_12 (constantI S_ 32 0#32),
    unary main_c_12 main_v83 (broadcastInDim S100000 ![] bcast_S_S100000 : (⟨S_, .i32⟩ : BufTy).Contents (Elt F) → (⟨S100000, .i32⟩ : BufTy).Contents (Elt F)),
    binary main_v30 main_v83 main_v84 (cmpi .slt : (⟨S100000, .i32⟩ : BufTy).Contents (Elt F) → (⟨S100000, .i32⟩ : BufTy).Contents (Elt F) → (⟨S100000, .i1⟩ : BufTy).Contents (Elt F)),
    nullary main_c_13 (constantI S_ 32 100000#32),
    unary main_c_13 main_v85 (broadcastInDim S100000 ![] bcast_S_S100000 : (⟨S_, .i32⟩ : BufTy).Contents (Elt F) → (⟨S100000, .i32⟩ : BufTy).Contents (Elt F)),
    binary main_v30 main_v85 main_v86 (addi : (⟨S100000, .i32⟩ : BufTy).Contents (Elt F) → (⟨S100000, .i32⟩ : BufTy).Contents (Elt F) → (⟨S100000, .i32⟩ : BufTy).Contents (Elt F)),
    ternary main_v84 main_v86 main_v30 main_v87 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v87 main_v88 (broadcastInDim S100000x1 ![0] bcast_S100000_S100000x1_0 : (⟨S100000, .i32⟩ : BufTy).Contents (Elt F) → (⟨S100000x1, .i32⟩ : BufTy).Contents (Elt F)),
    binary main_v74 main_v88 main_v89 ((fun x i => Host.gather gather_S100000x64_S100000x1_S100000x64_1_0_n_n_0_1_164 x i) : (⟨S100000x64, .f32⟩ : BufTy).Contents (Elt F) → (⟨S100000x1, .i32⟩ : BufTy).Contents (Elt F) → (⟨S100000x64, .f32⟩ : BufTy).Contents (Elt F)),
    nullary main_cst_14 (constant S_ .f32 0x00000000#32),
    unary main_cst_14 main_v90 (broadcastInDim S25000x64 ![] bcast_S_S25000x64 : (⟨S_, .f32⟩ : BufTy).Contents (Elt F) → (⟨S25000x64, .f32⟩ : BufTy).Contents (Elt F)),
    unary main_arg2 main_v91 (broadcastInDim S100000x1 ![0] bcast_S100000_S100000x1_0 : (⟨S100000, .i32⟩ : BufTy).Contents (Elt F) → (⟨S100000x1, .i32⟩ : BufTy).Contents (Elt F)),
    ternary main_v90 main_v91 main_v89 main_v92 ((fun x i u => Host.scatterAdd scatter_S25000x64_S100000x1_S100000x64_1_0_0_1 x i u) : (⟨S25000x64, .f32⟩ : BufTy).Contents (Elt F) → (⟨S100000x1, .i32⟩ : BufTy).Contents (Elt F) → (⟨S100000x64, .f32⟩ : BufTy).Contents (Elt F) → (⟨S25000x64, .f32⟩ : BufTy).Contents (Elt F)) ]

/-- Operations 117–123 of the reference's @main (7), ending with the one that writes `main_v97`. -/
abbrev seg9 : List (HloOp τ sig (Elt F)) :=
  [ binary main_v92 main_v76 main_v93 ((fun l r => Host.dotGeneral dot_S25000x64_S64x64_S25000x64_1_0_0_1_n_n none l r) : (⟨S25000x64, .f32⟩ : BufTy).Contents (Elt F) → (⟨S64x64, .f32⟩ : BufTy).Contents (Elt F) → (⟨S25000x64, .f32⟩ : BufTy).Contents (Elt F)),
    unary main_v78 main_v94 (broadcastInDim S1x64 ![1] bcast_S64_S1x64_1 : (⟨S64, .f32⟩ : BufTy).Contents (Elt F) → (⟨S1x64, .f32⟩ : BufTy).Contents (Elt F)),
    unary main_v94 main_v95 (broadcastInDim S25000x64 ![0, 1] bcast_S1x64_S25000x64_0_1 : (⟨S1x64, .f32⟩ : BufTy).Contents (Elt F) → (⟨S25000x64, .f32⟩ : BufTy).Contents (Elt F)),
    binary main_v93 main_v95 main_v96 (addf : (⟨S25000x64, .f32⟩ : BufTy).Contents (Elt F) → (⟨S25000x64, .f32⟩ : BufTy).Contents (Elt F) → (⟨S25000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S25000x64, .f32⟩) main_call3_v0) (broadcastInDim S25000x64 ![] bcast_S_S25000x64),
    TRef.binary (TRef.of (T := ⟨S25000x64, .f32⟩) main_v96) (TRef.of (T := ⟨S25000x64, .f32⟩) main_call3_v0) (TRef.of (T := ⟨S25000x64, .f32⟩) main_v97) maximumf ]

/-- Operations 124–156 of the reference's @main (33), ending with the one that writes `main_v123`. -/
abbrev seg10 : List (HloOp τ sig (Elt F)) :=
  [ nullary main_cst_15 (constant S_ .f32 0x00000000#32),
    binary main_v97 main_cst_15 main_v98 ((fun x v => Host.reduceAdd x v reducesTo_S25000x64_S64_d0 h_S_) : (⟨S25000x64, .f32⟩ : BufTy).Contents (Elt F) → (⟨S_, .f32⟩ : BufTy).Contents (Elt F) → (⟨S64, .f32⟩ : BufTy).Contents (Elt F)),
    nullary main_cst_16 (constant S_ .f32 0x46C35000#32),
    unary main_cst_16 main_v99 (broadcastInDim S64 ![] bcast_S_S64 : (⟨S_, .f32⟩ : BufTy).Contents (Elt F) → (⟨S64, .f32⟩ : BufTy).Contents (Elt F)),
    binary main_v98 main_v99 main_v100 (Host.divf : (⟨S64, .f32⟩ : BufTy).Contents (Elt F) → (⟨S64, .f32⟩ : BufTy).Contents (Elt F) → (⟨S64, .f32⟩ : BufTy).Contents (Elt F)),
    unary main_v100 main_v101 (broadcastInDim S1x64 ![1] bcast_S64_S1x64_1 : (⟨S64, .f32⟩ : BufTy).Contents (Elt F) → (⟨S1x64, .f32⟩ : BufTy).Contents (Elt F)),
    unary main_v101 main_v102 (broadcastInDim S25000x64 ![0, 1] bcast_S1x64_S25000x64_0_1 : (⟨S1x64, .f32⟩ : BufTy).Contents (Elt F) → (⟨S25000x64, .f32⟩ : BufTy).Contents (Elt F)),
    binary main_v97 main_v102 main_v103 (subf : (⟨S25000x64, .f32⟩ : BufTy).Contents (Elt F) → (⟨S25000x64, .f32⟩ : BufTy).Contents (Elt F) → (⟨S25000x64, .f32⟩ : BufTy).Contents (Elt F)),
    binary main_v103 main_v103 main_v104 (mulf : (⟨S25000x64, .f32⟩ : BufTy).Contents (Elt F) → (⟨S25000x64, .f32⟩ : BufTy).Contents (Elt F) → (⟨S25000x64, .f32⟩ : BufTy).Contents (Elt F)),
    nullary main_cst_17 (constant S_ .f32 0x00000000#32),
    binary main_v104 main_cst_17 main_v105 ((fun x v => Host.reduceAdd x v reducesTo_S25000x64_S64_d0 h_S_) : (⟨S25000x64, .f32⟩ : BufTy).Contents (Elt F) → (⟨S_, .f32⟩ : BufTy).Contents (Elt F) → (⟨S64, .f32⟩ : BufTy).Contents (Elt F)),
    nullary main_cst_18 (constant S_ .f32 0x46C35000#32),
    unary main_cst_18 main_v106 (broadcastInDim S64 ![] bcast_S_S64 : (⟨S_, .f32⟩ : BufTy).Contents (Elt F) → (⟨S64, .f32⟩ : BufTy).Contents (Elt F)),
    binary main_v105 main_v106 main_v107 (Host.divf : (⟨S64, .f32⟩ : BufTy).Contents (Elt F) → (⟨S64, .f32⟩ : BufTy).Contents (Elt F) → (⟨S64, .f32⟩ : BufTy).Contents (Elt F)),
    unary main_v100 main_v108 (broadcastInDim S1x64 ![1] bcast_S64_S1x64_1 : (⟨S64, .f32⟩ : BufTy).Contents (Elt F) → (⟨S1x64, .f32⟩ : BufTy).Contents (Elt F)),
    unary main_v108 main_v109 (broadcastInDim S25000x64 ![0, 1] bcast_S1x64_S25000x64_0_1 : (⟨S1x64, .f32⟩ : BufTy).Contents (Elt F) → (⟨S25000x64, .f32⟩ : BufTy).Contents (Elt F)),
    binary main_v97 main_v109 main_v110 (subf : (⟨S25000x64, .f32⟩ : BufTy).Contents (Elt F) → (⟨S25000x64, .f32⟩ : BufTy).Contents (Elt F) → (⟨S25000x64, .f32⟩ : BufTy).Contents (Elt F)),
    unary main_v80 main_v111 (broadcastInDim S1x64 ![1] bcast_S64_S1x64_1 : (⟨S64, .f32⟩ : BufTy).Contents (Elt F) → (⟨S1x64, .f32⟩ : BufTy).Contents (Elt F)),
    unary main_v111 main_v112 (broadcastInDim S25000x64 ![0, 1] bcast_S1x64_S25000x64_0_1 : (⟨S1x64, .f32⟩ : BufTy).Contents (Elt F) → (⟨S25000x64, .f32⟩ : BufTy).Contents (Elt F)),
    binary main_v112 main_v110 main_v113 (mulf : (⟨S25000x64, .f32⟩ : BufTy).Contents (Elt F) → (⟨S25000x64, .f32⟩ : BufTy).Contents (Elt F) → (⟨S25000x64, .f32⟩ : BufTy).Contents (Elt F)),
    nullary main_cst_19 (constant S_ .f32 0x3727C5AC#32),
    unary main_cst_19 main_v114 (broadcastInDim S64 ![] bcast_S_S64 : (⟨S_, .f32⟩ : BufTy).Contents (Elt F) → (⟨S64, .f32⟩ : BufTy).Contents (Elt F)),
    binary main_v107 main_v114 main_v115 (addf : (⟨S64, .f32⟩ : BufTy).Contents (Elt F) → (⟨S64, .f32⟩ : BufTy).Contents (Elt F) → (⟨S64, .f32⟩ : BufTy).Contents (Elt F)),
    unary main_v115 main_v116 (Host.rsqrt : (⟨S64, .f32⟩ : BufTy).Contents (Elt F) → (⟨S64, .f32⟩ : BufTy).Contents (Elt F)),
    unary main_v116 main_v117 (broadcastInDim S1x64 ![1] bcast_S64_S1x64_1 : (⟨S64, .f32⟩ : BufTy).Contents (Elt F) → (⟨S1x64, .f32⟩ : BufTy).Contents (Elt F)),
    unary main_v117 main_v118 (broadcastInDim S25000x64 ![0, 1] bcast_S1x64_S25000x64_0_1 : (⟨S1x64, .f32⟩ : BufTy).Contents (Elt F) → (⟨S25000x64, .f32⟩ : BufTy).Contents (Elt F)),
    binary main_v113 main_v118 main_v119 (mulf : (⟨S25000x64, .f32⟩ : BufTy).Contents (Elt F) → (⟨S25000x64, .f32⟩ : BufTy).Contents (Elt F) → (⟨S25000x64, .f32⟩ : BufTy).Contents (Elt F)),
    unary main_v82 main_v120 (broadcastInDim S1x64 ![1] bcast_S64_S1x64_1 : (⟨S64, .f32⟩ : BufTy).Contents (Elt F) → (⟨S1x64, .f32⟩ : BufTy).Contents (Elt F)),
    unary main_v120 main_v121 (broadcastInDim S25000x64 ![0, 1] bcast_S1x64_S25000x64_0_1 : (⟨S1x64, .f32⟩ : BufTy).Contents (Elt F) → (⟨S25000x64, .f32⟩ : BufTy).Contents (Elt F)),
    binary main_v119 main_v121 main_v122 (addf : (⟨S25000x64, .f32⟩ : BufTy).Contents (Elt F) → (⟨S25000x64, .f32⟩ : BufTy).Contents (Elt F) → (⟨S25000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S25000x64, .f32⟩) main_call4_v0) (broadcastInDim S25000x64 ![] bcast_S_S25000x64),
    TRef.binary (TRef.of (T := ⟨S25000x64, .f32⟩) main_v122) (TRef.of (T := ⟨S25000x64, .f32⟩) main_call4_v0) (TRef.of (T := ⟨S25000x64, .f32⟩) main_v123) maximumf ]

/-- Operations 157–177 of the reference's @main (21), ending with the one that writes `main_v141`. -/
abbrev seg11 : List (HloOp τ sig (Elt F)) :=
  [ unary main_arg5 main_v124 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v124 main_v125 rfl shapeCasts_S1x64x64_S64x64,
    unary main_arg6 main_v126 ((extractStridedSlice S1x64 ![1, 0] · slices_S2x64_S1x64_1_0) : (⟨S2x64, .f32⟩ : BufTy).Contents (Elt F) → (⟨S1x64, .f32⟩ : BufTy).Contents (Elt F)),
    reshape main_v126 main_v127 rfl shapeCasts_S1x64_S64,
    unary main_arg7 main_v128 ((extractStridedSlice S1x64 ![1, 0] · slices_S2x64_S1x64_1_0) : (⟨S2x64, .f32⟩ : BufTy).Contents (Elt F) → (⟨S1x64, .f32⟩ : BufTy).Contents (Elt F)),
    reshape main_v128 main_v129 rfl shapeCasts_S1x64_S64,
    unary main_arg8 main_v130 ((extractStridedSlice S1x64 ![1, 0] · slices_S2x64_S1x64_1_0) : (⟨S2x64, .f32⟩ : BufTy).Contents (Elt F) → (⟨S1x64, .f32⟩ : BufTy).Contents (Elt F)),
    reshape main_v130 main_v131 rfl shapeCasts_S1x64_S64,
    nullary main_c_20 (constantI S_ 32 0#32),
    unary main_c_20 main_v132 (broadcastInDim S100000 ![] bcast_S_S100000 : (⟨S_, .i32⟩ : BufTy).Contents (Elt F) → (⟨S100000, .i32⟩ : BufTy).Contents (Elt F)),
    binary main_arg2 main_v132 main_v133 (cmpi .slt : (⟨S100000, .i32⟩ : BufTy).Contents (Elt F) → (⟨S100000, .i32⟩ : BufTy).Contents (Elt F) → (⟨S100000, .i1⟩ : BufTy).Contents (Elt F)),
    nullary main_c_21 (constantI S_ 32 25000#32),
    unary main_c_21 main_v134 (broadcastInDim S100000 ![] bcast_S_S100000 : (⟨S_, .i32⟩ : BufTy).Contents (Elt F) → (⟨S100000, .i32⟩ : BufTy).Contents (Elt F)),
    binary main_arg2 main_v134 main_v135 (addi : (⟨S100000, .i32⟩ : BufTy).Contents (Elt F) → (⟨S100000, .i32⟩ : BufTy).Contents (Elt F) → (⟨S100000, .i32⟩ : BufTy).Contents (Elt F)),
    ternary main_v133 main_v135 main_arg2 main_v136 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v136 main_v137 (broadcastInDim S100000x1 ![0] bcast_S100000_S100000x1_0 : (⟨S100000, .i32⟩ : BufTy).Contents (Elt F) → (⟨S100000x1, .i32⟩ : BufTy).Contents (Elt F)),
    binary main_v123 main_v137 main_v138 ((fun x i => Host.gather gather_S25000x64_S100000x1_S100000x64_1_0_n_n_0_1_164 x i) : (⟨S25000x64, .f32⟩ : BufTy).Contents (Elt F) → (⟨S100000x1, .i32⟩ : BufTy).Contents (Elt F) → (⟨S100000x64, .f32⟩ : BufTy).Contents (Elt F)),
    nullary main_cst_22 (constant S_ .f32 0x00000000#32),
    unary main_cst_22 main_v139 (broadcastInDim S100000x64 ![] bcast_S_S100000x64 : (⟨S_, .f32⟩ : BufTy).Contents (Elt F) → (⟨S100000x64, .f32⟩ : BufTy).Contents (Elt F)),
    unary main_v30 main_v140 (broadcastInDim S100000x1 ![0] bcast_S100000_S100000x1_0 : (⟨S100000, .i32⟩ : BufTy).Contents (Elt F) → (⟨S100000x1, .i32⟩ : BufTy).Contents (Elt F)),
    ternary main_v139 main_v140 main_v138 main_v141 ((fun x i u => Host.scatterAdd scatter_S100000x64_S100000x1_S100000x64_1_0_0_1 x i u) : (⟨S100000x64, .f32⟩ : BufTy).Contents (Elt F) → (⟨S100000x1, .i32⟩ : BufTy).Contents (Elt F) → (⟨S100000x64, .f32⟩ : BufTy).Contents (Elt F) → (⟨S100000x64, .f32⟩ : BufTy).Contents (Elt F)) ]

/-- Operations 178–184 of the reference's @main (7), ending with the one that writes `main_v146`. -/
abbrev seg12 : List (HloOp τ sig (Elt F)) :=
  [ binary main_v141 main_v125 main_v142 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v127 main_v143 (broadcastInDim S1x64 ![1] bcast_S64_S1x64_1 : (⟨S64, .f32⟩ : BufTy).Contents (Elt F) → (⟨S1x64, .f32⟩ : BufTy).Contents (Elt F)),
    unary main_v143 main_v144 (broadcastInDim S100000x64 ![0, 1] bcast_S1x64_S100000x64_0_1 : (⟨S1x64, .f32⟩ : BufTy).Contents (Elt F) → (⟨S100000x64, .f32⟩ : BufTy).Contents (Elt F)),
    binary main_v142 main_v144 main_v145 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v145) (TRef.of (T := ⟨S100000x64, .f32⟩) main_call5_v0) (TRef.of (T := ⟨S100000x64, .f32⟩) main_v146) maximumf ]

/-- Operations 185–217 of the reference's @main (33), ending with the one that writes `main_v172`. -/
abbrev seg13 : List (HloOp τ sig (Elt F)) :=
  [ nullary main_cst_23 (constant S_ .f32 0x00000000#32),
    binary main_v146 main_cst_23 main_v147 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_24 (constant S_ .f32 0x47C35000#32),
    unary main_cst_24 main_v148 (broadcastInDim S64 ![] bcast_S_S64 : (⟨S_, .f32⟩ : BufTy).Contents (Elt F) → (⟨S64, .f32⟩ : BufTy).Contents (Elt F)),
    binary main_v147 main_v148 main_v149 (Host.divf : (⟨S64, .f32⟩ : BufTy).Contents (Elt F) → (⟨S64, .f32⟩ : BufTy).Contents (Elt F) → (⟨S64, .f32⟩ : BufTy).Contents (Elt F)),
    unary main_v149 main_v150 (broadcastInDim S1x64 ![1] bcast_S64_S1x64_1 : (⟨S64, .f32⟩ : BufTy).Contents (Elt F) → (⟨S1x64, .f32⟩ : BufTy).Contents (Elt F)),
    unary main_v150 main_v151 (broadcastInDim S100000x64 ![0, 1] bcast_S1x64_S100000x64_0_1 : (⟨S1x64, .f32⟩ : BufTy).Contents (Elt F) → (⟨S100000x64, .f32⟩ : BufTy).Contents (Elt F)),
    binary main_v146 main_v151 main_v152 (subf : (⟨S100000x64, .f32⟩ : BufTy).Contents (Elt F) → (⟨S100000x64, .f32⟩ : BufTy).Contents (Elt F) → (⟨S100000x64, .f32⟩ : BufTy).Contents (Elt F)),
    binary main_v152 main_v152 main_v153 (mulf : (⟨S100000x64, .f32⟩ : BufTy).Contents (Elt F) → (⟨S100000x64, .f32⟩ : BufTy).Contents (Elt F) → (⟨S100000x64, .f32⟩ : BufTy).Contents (Elt F)),
    nullary main_cst_25 (constant S_ .f32 0x00000000#32),
    binary main_v153 main_cst_25 main_v154 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_26 (constant S_ .f32 0x47C35000#32),
    unary main_cst_26 main_v155 (broadcastInDim S64 ![] bcast_S_S64 : (⟨S_, .f32⟩ : BufTy).Contents (Elt F) → (⟨S64, .f32⟩ : BufTy).Contents (Elt F)),
    binary main_v154 main_v155 main_v156 (Host.divf : (⟨S64, .f32⟩ : BufTy).Contents (Elt F) → (⟨S64, .f32⟩ : BufTy).Contents (Elt F) → (⟨S64, .f32⟩ : BufTy).Contents (Elt F)),
    unary main_v149 main_v157 (broadcastInDim S1x64 ![1] bcast_S64_S1x64_1 : (⟨S64, .f32⟩ : BufTy).Contents (Elt F) → (⟨S1x64, .f32⟩ : BufTy).Contents (Elt F)),
    unary main_v157 main_v158 (broadcastInDim S100000x64 ![0, 1] bcast_S1x64_S100000x64_0_1 : (⟨S1x64, .f32⟩ : BufTy).Contents (Elt F) → (⟨S100000x64, .f32⟩ : BufTy).Contents (Elt F)),
    binary main_v146 main_v158 main_v159 (subf : (⟨S100000x64, .f32⟩ : BufTy).Contents (Elt F) → (⟨S100000x64, .f32⟩ : BufTy).Contents (Elt F) → (⟨S100000x64, .f32⟩ : BufTy).Contents (Elt F)),
    unary main_v129 main_v160 (broadcastInDim S1x64 ![1] bcast_S64_S1x64_1 : (⟨S64, .f32⟩ : BufTy).Contents (Elt F) → (⟨S1x64, .f32⟩ : BufTy).Contents (Elt F)),
    unary main_v160 main_v161 (broadcastInDim S100000x64 ![0, 1] bcast_S1x64_S100000x64_0_1 : (⟨S1x64, .f32⟩ : BufTy).Contents (Elt F) → (⟨S100000x64, .f32⟩ : BufTy).Contents (Elt F)),
    binary main_v161 main_v159 main_v162 (mulf : (⟨S100000x64, .f32⟩ : BufTy).Contents (Elt F) → (⟨S100000x64, .f32⟩ : BufTy).Contents (Elt F) → (⟨S100000x64, .f32⟩ : BufTy).Contents (Elt F)),
    nullary main_cst_27 (constant S_ .f32 0x3727C5AC#32),
    unary main_cst_27 main_v163 (broadcastInDim S64 ![] bcast_S_S64 : (⟨S_, .f32⟩ : BufTy).Contents (Elt F) → (⟨S64, .f32⟩ : BufTy).Contents (Elt F)),
    binary main_v156 main_v163 main_v164 (addf : (⟨S64, .f32⟩ : BufTy).Contents (Elt F) → (⟨S64, .f32⟩ : BufTy).Contents (Elt F) → (⟨S64, .f32⟩ : BufTy).Contents (Elt F)),
    unary main_v164 main_v165 (Host.rsqrt : (⟨S64, .f32⟩ : BufTy).Contents (Elt F) → (⟨S64, .f32⟩ : BufTy).Contents (Elt F)),
    unary main_v165 main_v166 (broadcastInDim S1x64 ![1] bcast_S64_S1x64_1 : (⟨S64, .f32⟩ : BufTy).Contents (Elt F) → (⟨S1x64, .f32⟩ : BufTy).Contents (Elt F)),
    unary main_v166 main_v167 (broadcastInDim S100000x64 ![0, 1] bcast_S1x64_S100000x64_0_1 : (⟨S1x64, .f32⟩ : BufTy).Contents (Elt F) → (⟨S100000x64, .f32⟩ : BufTy).Contents (Elt F)),
    binary main_v162 main_v167 main_v168 (mulf : (⟨S100000x64, .f32⟩ : BufTy).Contents (Elt F) → (⟨S100000x64, .f32⟩ : BufTy).Contents (Elt F) → (⟨S100000x64, .f32⟩ : BufTy).Contents (Elt F)),
    unary main_v131 main_v169 (broadcastInDim S1x64 ![1] bcast_S64_S1x64_1 : (⟨S64, .f32⟩ : BufTy).Contents (Elt F) → (⟨S1x64, .f32⟩ : BufTy).Contents (Elt F)),
    unary main_v169 main_v170 (broadcastInDim S100000x64 ![0, 1] bcast_S1x64_S100000x64_0_1 : (⟨S1x64, .f32⟩ : BufTy).Contents (Elt F) → (⟨S100000x64, .f32⟩ : BufTy).Contents (Elt F)),
    binary main_v168 main_v170 main_v171 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x64, .f32⟩) main_call6_v0) (broadcastInDim S100000x64 ![] bcast_S_S100000x64),
    TRef.binary (TRef.of (T := ⟨S100000x64, .f32⟩) main_v171) (TRef.of (T := ⟨S100000x64, .f32⟩) main_call6_v0) (TRef.of (T := ⟨S100000x64, .f32⟩) main_v172) maximumf ]

/-- Operations 218–221 of the reference's @main (4), ending with the one that writes `main_v176`. -/
abbrev seg14 : List (HloOp τ sig (Elt F)) :=
  [ unary main_arg3 main_v173 ((extractStridedSlice S1x64x64 ![2, 0, 0] · slices_S5x64x64_S1x64x64_2_0_0) : (⟨S5x64x64, .f32⟩ : BufTy).Contents (Elt F) → (⟨S1x64x64, .f32⟩ : BufTy).Contents (Elt F)),
    reshape main_v173 main_v174 rfl shapeCasts_S1x64x64_S64x64,
    unary main_arg4 main_v175 ((extractStridedSlice S1x64 ![2, 0] · slices_S5x64_S1x64_2_0) : (⟨S5x64, .f32⟩ : BufTy).Contents (Elt F) → (⟨S1x64, .f32⟩ : BufTy).Contents (Elt F)),
    reshape main_v175 main_v176 rfl shapeCasts_S1x64_S64 ]

/-- Operations 222–222 of the reference's @main (1), ending with the one that writes `main_v177`. -/
abbrev seg15 : List (HloOp τ sig (Elt F)) :=
  [ binary main_v172 main_v174 main_v177 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- Operations 223–238 of the reference's @main (16), ending with the one that writes `main_v190`. -/
abbrev seg16 : List (HloOp τ sig (Elt F)) :=
  [ nullary main_c_28 (constantI S_ 32 0#32),
    unary main_c_28 main_v178 (broadcastInDim S1100000 ![] bcast_S_S1100000 : (⟨S_, .i32⟩ : BufTy).Contents (Elt F) → (⟨S1100000, .i32⟩ : BufTy).Contents (Elt F)),
    binary main_v3 main_v178 main_v179 (cmpi .slt : (⟨S1100000, .i32⟩ : BufTy).Contents (Elt F) → (⟨S1100000, .i32⟩ : BufTy).Contents (Elt F) → (⟨S1100000, .i1⟩ : BufTy).Contents (Elt F)),
    nullary main_c_29 (constantI S_ 32 100000#32),
    unary main_c_29 main_v180 (broadcastInDim S1100000 ![] bcast_S_S1100000 : (⟨S_, .i32⟩ : BufTy).Contents (Elt F) → (⟨S1100000, .i32⟩ : BufTy).Contents (Elt F)),
    binary main_v3 main_v180 main_v181 (addi : (⟨S1100000, .i32⟩ : BufTy).Contents (Elt F) → (⟨S1100000, .i32⟩ : BufTy).Contents (Elt F) → (⟨S1100000, .i32⟩ : BufTy).Contents (Elt F)),
    ternary main_v179 main_v181 main_v3 main_v182 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v182 main_v183 (broadcastInDim S1100000x1 ![0] bcast_S1100000_S1100000x1_0 : (⟨S1100000, .i32⟩ : BufTy).Contents (Elt F) → (⟨S1100000x1, .i32⟩ : BufTy).Contents (Elt F)),
    binary main_v177 main_v183 main_v184 ((fun x i => Host.gather gather_S100000x64_S1100000x1_S1100000x64_1_0_n_n_0_1_164 x i) : (⟨S100000x64, .f32⟩ : BufTy).Contents (Elt F) → (⟨S1100000x1, .i32⟩ : BufTy).Contents (Elt F) → (⟨S1100000x64, .f32⟩ : BufTy).Contents (Elt F)),
    unary main_v29 main_v185 (broadcastInDim S1100000x1 ![0] bcast_S1100000_S1100000x1_0 : (⟨S1100000, .f32⟩ : BufTy).Contents (Elt F) → (⟨S1100000x1, .f32⟩ : BufTy).Contents (Elt F)),
    unary main_v185 main_v186 (broadcastInDim S1100000x64 ![0, 1] bcast_S1100000x1_S1100000x64_0_1 : (⟨S1100000x1, .f32⟩ : BufTy).Contents (Elt F) → (⟨S1100000x64, .f32⟩ : BufTy).Contents (Elt F)),
    binary main_v184 main_v186 main_v187 (mulf : (⟨S1100000x64, .f32⟩ : BufTy).Contents (Elt F) → (⟨S1100000x64, .f32⟩ : BufTy).Contents (Elt F) → (⟨S1100000x64, .f32⟩ : BufTy).Contents (Elt F)),
    nullary main_cst_30 (constant S_ .f32 0x00000000#32),
    unary main_cst_30 main_v188 (broadcastInDim S100000x64 ![] bcast_S_S100000x64 : (⟨S_, .f32⟩ : BufTy).Contents (Elt F) → (⟨S100000x64, .f32⟩ : BufTy).Contents (Elt F)),
    unary main_v6 main_v189 (broadcastInDim S1100000x1 ![0] bcast_S1100000_S1100000x1_0 : (⟨S1100000, .i32⟩ : BufTy).Contents (Elt F) → (⟨S1100000x1, .i32⟩ : BufTy).Contents (Elt F)),
    ternary main_v188 main_v189 main_v187 main_v190 ((fun x i u => Host.scatterAdd scatter_S100000x64_S1100000x1_S1100000x64_1_0_0_1 x i u) : (⟨S100000x64, .f32⟩ : BufTy).Contents (Elt F) → (⟨S1100000x1, .i32⟩ : BufTy).Contents (Elt F) → (⟨S1100000x64, .f32⟩ : BufTy).Contents (Elt F) → (⟨S100000x64, .f32⟩ : BufTy).Contents (Elt F)) ]

/-- Operations 239–244 of the reference's @main (6), ending with the one that writes `main_v194`. -/
abbrev seg17 : List (HloOp τ sig (Elt F)) :=
  [ unary main_v176 main_v191 (broadcastInDim S1x64 ![1] bcast_S64_S1x64_1 : (⟨S64, .f32⟩ : BufTy).Contents (Elt F) → (⟨S1x64, .f32⟩ : BufTy).Contents (Elt F)),
    unary main_v191 main_v192 (broadcastInDim S100000x64 ![0, 1] bcast_S1x64_S100000x64_0_1 : (⟨S1x64, .f32⟩ : BufTy).Contents (Elt F) → (⟨S100000x64, .f32⟩ : BufTy).Contents (Elt F)),
    binary main_v190 main_v192 main_v193 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S100000x64, .f32⟩) main_call7_v0) (broadcastInDim S100000x64 ![] bcast_S_S100000x64),
    TRef.binary (TRef.of (T := ⟨S100000x64, .f32⟩) main_v193) (TRef.of (T := ⟨S100000x64, .f32⟩) main_call7_v0) (TRef.of (T := ⟨S100000x64, .f32⟩) main_v194) maximumf ]

/-- Operations 245–248 of the reference's @main (4), ending with the one that writes `main_v198`. -/
abbrev seg18 : List (HloOp τ sig (Elt F)) :=
  [ unary main_arg3 main_v195 ((extractStridedSlice S1x64x64 ![3, 0, 0] · slices_S5x64x64_S1x64x64_3_0_0) : (⟨S5x64x64, .f32⟩ : BufTy).Contents (Elt F) → (⟨S1x64x64, .f32⟩ : BufTy).Contents (Elt F)),
    reshape main_v195 main_v196 rfl shapeCasts_S1x64x64_S64x64,
    unary main_arg4 main_v197 ((extractStridedSlice S1x64 ![3, 0] · slices_S5x64_S1x64_3_0) : (⟨S5x64, .f32⟩ : BufTy).Contents (Elt F) → (⟨S1x64, .f32⟩ : BufTy).Contents (Elt F)),
    reshape main_v197 main_v198 rfl shapeCasts_S1x64_S64 ]

/-- Operations 249–249 of the reference's @main (1), ending with the one that writes `main_v199`. -/
abbrev seg19 : List (HloOp τ sig (Elt F)) :=
  [ binary main_v194 main_v196 main_v199 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- Operations 250–265 of the reference's @main (16), ending with the one that writes `main_v212`. -/
abbrev seg20 : List (HloOp τ sig (Elt F)) :=
  [ nullary main_c_31 (constantI S_ 32 0#32),
    unary main_c_31 main_v200 (broadcastInDim S1100000 ![] bcast_S_S1100000 : (⟨S_, .i32⟩ : BufTy).Contents (Elt F) → (⟨S1100000, .i32⟩ : BufTy).Contents (Elt F)),
    binary main_v3 main_v200 main_v201 (cmpi .slt : (⟨S1100000, .i32⟩ : BufTy).Contents (Elt F) → (⟨S1100000, .i32⟩ : BufTy).Contents (Elt F) → (⟨S1100000, .i1⟩ : BufTy).Contents (Elt F)),
    nullary main_c_32 (constantI S_ 32 100000#32),
    unary main_c_32 main_v202 (broadcastInDim S1100000 ![] bcast_S_S1100000 : (⟨S_, .i32⟩ : BufTy).Contents (Elt F) → (⟨S1100000, .i32⟩ : BufTy).Contents (Elt F)),
    binary main_v3 main_v202 main_v203 (addi : (⟨S1100000, .i32⟩ : BufTy).Contents (Elt F) → (⟨S1100000, .i32⟩ : BufTy).Contents (Elt F) → (⟨S1100000, .i32⟩ : BufTy).Contents (Elt F)),
    ternary main_v201 main_v203 main_v3 main_v204 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v204 main_v205 (broadcastInDim S1100000x1 ![0] bcast_S1100000_S1100000x1_0 : (⟨S1100000, .i32⟩ : BufTy).Contents (Elt F) → (⟨S1100000x1, .i32⟩ : BufTy).Contents (Elt F)),
    binary main_v199 main_v205 main_v206 ((fun x i => Host.gather gather_S100000x64_S1100000x1_S1100000x64_1_0_n_n_0_1_164 x i) : (⟨S100000x64, .f32⟩ : BufTy).Contents (Elt F) → (⟨S1100000x1, .i32⟩ : BufTy).Contents (Elt F) → (⟨S1100000x64, .f32⟩ : BufTy).Contents (Elt F)),
    unary main_v29 main_v207 (broadcastInDim S1100000x1 ![0] bcast_S1100000_S1100000x1_0 : (⟨S1100000, .f32⟩ : BufTy).Contents (Elt F) → (⟨S1100000x1, .f32⟩ : BufTy).Contents (Elt F)),
    unary main_v207 main_v208 (broadcastInDim S1100000x64 ![0, 1] bcast_S1100000x1_S1100000x64_0_1 : (⟨S1100000x1, .f32⟩ : BufTy).Contents (Elt F) → (⟨S1100000x64, .f32⟩ : BufTy).Contents (Elt F)),
    binary main_v206 main_v208 main_v209 (mulf : (⟨S1100000x64, .f32⟩ : BufTy).Contents (Elt F) → (⟨S1100000x64, .f32⟩ : BufTy).Contents (Elt F) → (⟨S1100000x64, .f32⟩ : BufTy).Contents (Elt F)),
    nullary main_cst_33 (constant S_ .f32 0x00000000#32),
    unary main_cst_33 main_v210 (broadcastInDim S100000x64 ![] bcast_S_S100000x64 : (⟨S_, .f32⟩ : BufTy).Contents (Elt F) → (⟨S100000x64, .f32⟩ : BufTy).Contents (Elt F)),
    unary main_v6 main_v211 (broadcastInDim S1100000x1 ![0] bcast_S1100000_S1100000x1_0 : (⟨S1100000, .i32⟩ : BufTy).Contents (Elt F) → (⟨S1100000x1, .i32⟩ : BufTy).Contents (Elt F)),
    ternary main_v210 main_v211 main_v209 main_v212 ((fun x i u => Host.scatterAdd scatter_S100000x64_S1100000x1_S1100000x64_1_0_0_1 x i u) : (⟨S100000x64, .f32⟩ : BufTy).Contents (Elt F) → (⟨S1100000x1, .i32⟩ : BufTy).Contents (Elt F) → (⟨S1100000x64, .f32⟩ : BufTy).Contents (Elt F) → (⟨S100000x64, .f32⟩ : BufTy).Contents (Elt F)) ]

/-- Operations 266–271 of the reference's @main (6), ending with the one that writes `main_v216`. -/
abbrev seg21 : List (HloOp τ sig (Elt F)) :=
  [ unary main_v198 main_v213 (broadcastInDim S1x64 ![1] bcast_S64_S1x64_1 : (⟨S64, .f32⟩ : BufTy).Contents (Elt F) → (⟨S1x64, .f32⟩ : BufTy).Contents (Elt F)),
    unary main_v213 main_v214 (broadcastInDim S100000x64 ![0, 1] bcast_S1x64_S100000x64_0_1 : (⟨S1x64, .f32⟩ : BufTy).Contents (Elt F) → (⟨S100000x64, .f32⟩ : BufTy).Contents (Elt F)),
    binary main_v212 main_v214 main_v215 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S100000x64, .f32⟩) main_call8_v0) (broadcastInDim S100000x64 ![] bcast_S_S100000x64),
    TRef.binary (TRef.of (T := ⟨S100000x64, .f32⟩) main_v215) (TRef.of (T := ⟨S100000x64, .f32⟩) main_call8_v0) (TRef.of (T := ⟨S100000x64, .f32⟩) main_v216) maximumf ]

/-- Operations 272–275 of the reference's @main (4), ending with the one that writes `main_v220`. -/
abbrev seg22 : List (HloOp τ sig (Elt F)) :=
  [ unary main_arg3 main_v217 ((extractStridedSlice S1x64x64 ![4, 0, 0] · slices_S5x64x64_S1x64x64_4_0_0) : (⟨S5x64x64, .f32⟩ : BufTy).Contents (Elt F) → (⟨S1x64x64, .f32⟩ : BufTy).Contents (Elt F)),
    reshape main_v217 main_v218 rfl shapeCasts_S1x64x64_S64x64,
    unary main_arg4 main_v219 ((extractStridedSlice S1x64 ![4, 0] · slices_S5x64_S1x64_4_0) : (⟨S5x64, .f32⟩ : BufTy).Contents (Elt F) → (⟨S1x64, .f32⟩ : BufTy).Contents (Elt F)),
    reshape main_v219 main_v220 rfl shapeCasts_S1x64_S64 ]

/-- Operations 276–276 of the reference's @main (1), ending with the one that writes `main_v221`. -/
abbrev seg23 : List (HloOp τ sig (Elt F)) :=
  [ binary main_v216 main_v218 main_v221 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- Operations 277–292 of the reference's @main (16), ending with the one that writes `main_v234`. -/
abbrev seg24 : List (HloOp τ sig (Elt F)) :=
  [ nullary main_c_34 (constantI S_ 32 0#32),
    unary main_c_34 main_v222 (broadcastInDim S1100000 ![] bcast_S_S1100000 : (⟨S_, .i32⟩ : BufTy).Contents (Elt F) → (⟨S1100000, .i32⟩ : BufTy).Contents (Elt F)),
    binary main_v3 main_v222 main_v223 (cmpi .slt : (⟨S1100000, .i32⟩ : BufTy).Contents (Elt F) → (⟨S1100000, .i32⟩ : BufTy).Contents (Elt F) → (⟨S1100000, .i1⟩ : BufTy).Contents (Elt F)),
    nullary main_c_35 (constantI S_ 32 100000#32),
    unary main_c_35 main_v224 (broadcastInDim S1100000 ![] bcast_S_S1100000 : (⟨S_, .i32⟩ : BufTy).Contents (Elt F) → (⟨S1100000, .i32⟩ : BufTy).Contents (Elt F)),
    binary main_v3 main_v224 main_v225 (addi : (⟨S1100000, .i32⟩ : BufTy).Contents (Elt F) → (⟨S1100000, .i32⟩ : BufTy).Contents (Elt F) → (⟨S1100000, .i32⟩ : BufTy).Contents (Elt F)),
    ternary main_v223 main_v225 main_v3 main_v226 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v226 main_v227 (broadcastInDim S1100000x1 ![0] bcast_S1100000_S1100000x1_0 : (⟨S1100000, .i32⟩ : BufTy).Contents (Elt F) → (⟨S1100000x1, .i32⟩ : BufTy).Contents (Elt F)),
    binary main_v221 main_v227 main_v228 ((fun x i => Host.gather gather_S100000x64_S1100000x1_S1100000x64_1_0_n_n_0_1_164 x i) : (⟨S100000x64, .f32⟩ : BufTy).Contents (Elt F) → (⟨S1100000x1, .i32⟩ : BufTy).Contents (Elt F) → (⟨S1100000x64, .f32⟩ : BufTy).Contents (Elt F)),
    unary main_v29 main_v229 (broadcastInDim S1100000x1 ![0] bcast_S1100000_S1100000x1_0 : (⟨S1100000, .f32⟩ : BufTy).Contents (Elt F) → (⟨S1100000x1, .f32⟩ : BufTy).Contents (Elt F)),
    unary main_v229 main_v230 (broadcastInDim S1100000x64 ![0, 1] bcast_S1100000x1_S1100000x64_0_1 : (⟨S1100000x1, .f32⟩ : BufTy).Contents (Elt F) → (⟨S1100000x64, .f32⟩ : BufTy).Contents (Elt F)),
    binary main_v228 main_v230 main_v231 (mulf : (⟨S1100000x64, .f32⟩ : BufTy).Contents (Elt F) → (⟨S1100000x64, .f32⟩ : BufTy).Contents (Elt F) → (⟨S1100000x64, .f32⟩ : BufTy).Contents (Elt F)),
    nullary main_cst_36 (constant S_ .f32 0x00000000#32),
    unary main_cst_36 main_v232 (broadcastInDim S100000x64 ![] bcast_S_S100000x64 : (⟨S_, .f32⟩ : BufTy).Contents (Elt F) → (⟨S100000x64, .f32⟩ : BufTy).Contents (Elt F)),
    unary main_v6 main_v233 (broadcastInDim S1100000x1 ![0] bcast_S1100000_S1100000x1_0 : (⟨S1100000, .i32⟩ : BufTy).Contents (Elt F) → (⟨S1100000x1, .i32⟩ : BufTy).Contents (Elt F)),
    ternary main_v232 main_v233 main_v231 main_v234 ((fun x i u => Host.scatterAdd scatter_S100000x64_S1100000x1_S1100000x64_1_0_0_1 x i u) : (⟨S100000x64, .f32⟩ : BufTy).Contents (Elt F) → (⟨S1100000x1, .i32⟩ : BufTy).Contents (Elt F) → (⟨S1100000x64, .f32⟩ : BufTy).Contents (Elt F) → (⟨S100000x64, .f32⟩ : BufTy).Contents (Elt F)) ]

/-- Operations 293–295 of the reference's @main (3), ending with the one that writes `main_v237`. -/
abbrev seg25 : List (HloOp τ sig (Elt F)) :=
  [ unary main_v220 main_v235 (broadcastInDim S1x64 ![1] bcast_S64_S1x64_1 : (⟨S64, .f32⟩ : BufTy).Contents (Elt F) → (⟨S1x64, .f32⟩ : BufTy).Contents (Elt F)),
    unary main_v235 main_v236 (broadcastInDim S100000x64 ![0, 1] bcast_S1x64_S100000x64_0_1 : (⟨S1x64, .f32⟩ : BufTy).Contents (Elt F) → (⟨S100000x64, .f32⟩ : BufTy).Contents (Elt F)),
    binary main_v234 main_v236 main_v237 (addf : (⟨S100000x64, .f32⟩ : BufTy).Contents (Elt F) → (⟨S100000x64, .f32⟩ : BufTy).Contents (Elt F) → (⟨S100000x64, .f32⟩ : BufTy).Contents (Elt F)) ]

/-- The stretches, in order, are the whole program. -/
theorem ops_eq : (Cert.ReferenceIdeal.RunP.ops : List (HloOp τ sig (Elt F))) = seg0 ++ (seg1 ++ (seg2 ++ (seg3 ++ (seg4 ++ (seg5 ++ (seg6 ++ (seg7 ++ (seg8 ++ (seg9 ++ (seg10 ++ (seg11 ++ (seg12 ++ (seg13 ++ (seg14 ++ (seg15 ++ (seg16 ++ (seg17 ++ (seg18 ++ (seg19 ++ (seg20 ++ (seg21 ++ (seg22 ++ (seg23 ++ (seg24 ++ (seg25))))))))))))))))))))))))) := rfl

variable (m : (ℓ : Loc nD τ sig) → Buf (Elt F) ℓ) (c : Dev nD)

/-- The reference's buffers at launch. -/
def U0 : Valuation τ sig (Elt F) := launchContents m c
theorem U0_apply (b : Ref sig .tc) : U0 m c (Proc.devRef .tc b) = m ((c.tc : Thread nD τ).loc b) := rfl
/-- The reference's buffers after its first 1 stretch. -/
def U1 : Valuation τ sig (Elt F) := StableHlo.after (seg0 (F := F)) (U0 m c)
theorem U1_eq : U1 m c = StableHlo.after (seg0 (F := F)) (U0 m c) := rfl
/-- The reference's buffers after its first 2 stretches. -/
def U2 : Valuation τ sig (Elt F) := StableHlo.after (seg1 (F := F)) (U1 m c)
theorem U2_eq : U2 m c = StableHlo.after (seg1 (F := F)) (U1 m c) := rfl
/-- The reference's buffers after its first 3 stretches. -/
def U3 : Valuation τ sig (Elt F) := StableHlo.after (seg2 (F := F)) (U2 m c)
theorem U3_eq : U3 m c = StableHlo.after (seg2 (F := F)) (U2 m c) := rfl
/-- The reference's buffers after its first 4 stretches. -/
def U4 : Valuation τ sig (Elt F) := StableHlo.after (seg3 (F := F)) (U3 m c)
theorem U4_eq : U4 m c = StableHlo.after (seg3 (F := F)) (U3 m c) := rfl
/-- The reference's buffers after its first 5 stretches. -/
def U5 : Valuation τ sig (Elt F) := StableHlo.after (seg4 (F := F)) (U4 m c)
theorem U5_eq : U5 m c = StableHlo.after (seg4 (F := F)) (U4 m c) := rfl
/-- The reference's buffers after its first 6 stretches. -/
def U6 : Valuation τ sig (Elt F) := StableHlo.after (seg5 (F := F)) (U5 m c)
theorem U6_eq : U6 m c = StableHlo.after (seg5 (F := F)) (U5 m c) := rfl
/-- The reference's buffers after its first 7 stretches. -/
def U7 : Valuation τ sig (Elt F) := StableHlo.after (seg6 (F := F)) (U6 m c)
theorem U7_eq : U7 m c = StableHlo.after (seg6 (F := F)) (U6 m c) := rfl
/-- The reference's buffers after its first 8 stretches. -/
def U8 : Valuation τ sig (Elt F) := StableHlo.after (seg7 (F := F)) (U7 m c)
theorem U8_eq : U8 m c = StableHlo.after (seg7 (F := F)) (U7 m c) := rfl
/-- The reference's buffers after its first 9 stretches. -/
def U9 : Valuation τ sig (Elt F) := StableHlo.after (seg8 (F := F)) (U8 m c)
theorem U9_eq : U9 m c = StableHlo.after (seg8 (F := F)) (U8 m c) := rfl
/-- The reference's buffers after its first 10 stretches. -/
def U10 : Valuation τ sig (Elt F) := StableHlo.after (seg9 (F := F)) (U9 m c)
theorem U10_eq : U10 m c = StableHlo.after (seg9 (F := F)) (U9 m c) := rfl
/-- The reference's buffers after its first 11 stretches. -/
def U11 : Valuation τ sig (Elt F) := StableHlo.after (seg10 (F := F)) (U10 m c)
theorem U11_eq : U11 m c = StableHlo.after (seg10 (F := F)) (U10 m c) := rfl
/-- The reference's buffers after its first 12 stretches. -/
def U12 : Valuation τ sig (Elt F) := StableHlo.after (seg11 (F := F)) (U11 m c)
theorem U12_eq : U12 m c = StableHlo.after (seg11 (F := F)) (U11 m c) := rfl
/-- The reference's buffers after its first 13 stretches. -/
def U13 : Valuation τ sig (Elt F) := StableHlo.after (seg12 (F := F)) (U12 m c)
theorem U13_eq : U13 m c = StableHlo.after (seg12 (F := F)) (U12 m c) := rfl
/-- The reference's buffers after its first 14 stretches. -/
def U14 : Valuation τ sig (Elt F) := StableHlo.after (seg13 (F := F)) (U13 m c)
theorem U14_eq : U14 m c = StableHlo.after (seg13 (F := F)) (U13 m c) := rfl
/-- The reference's buffers after its first 15 stretches. -/
def U15 : Valuation τ sig (Elt F) := StableHlo.after (seg14 (F := F)) (U14 m c)
theorem U15_eq : U15 m c = StableHlo.after (seg14 (F := F)) (U14 m c) := rfl
/-- The reference's buffers after its first 16 stretches. -/
def U16 : Valuation τ sig (Elt F) := StableHlo.after (seg15 (F := F)) (U15 m c)
theorem U16_eq : U16 m c = StableHlo.after (seg15 (F := F)) (U15 m c) := rfl
/-- The reference's buffers after its first 17 stretches. -/
def U17 : Valuation τ sig (Elt F) := StableHlo.after (seg16 (F := F)) (U16 m c)
theorem U17_eq : U17 m c = StableHlo.after (seg16 (F := F)) (U16 m c) := rfl
/-- The reference's buffers after its first 18 stretches. -/
def U18 : Valuation τ sig (Elt F) := StableHlo.after (seg17 (F := F)) (U17 m c)
theorem U18_eq : U18 m c = StableHlo.after (seg17 (F := F)) (U17 m c) := rfl
/-- The reference's buffers after its first 19 stretches. -/
def U19 : Valuation τ sig (Elt F) := StableHlo.after (seg18 (F := F)) (U18 m c)
theorem U19_eq : U19 m c = StableHlo.after (seg18 (F := F)) (U18 m c) := rfl
/-- The reference's buffers after its first 20 stretches. -/
def U20 : Valuation τ sig (Elt F) := StableHlo.after (seg19 (F := F)) (U19 m c)
theorem U20_eq : U20 m c = StableHlo.after (seg19 (F := F)) (U19 m c) := rfl
/-- The reference's buffers after its first 21 stretches. -/
def U21 : Valuation τ sig (Elt F) := StableHlo.after (seg20 (F := F)) (U20 m c)
theorem U21_eq : U21 m c = StableHlo.after (seg20 (F := F)) (U20 m c) := rfl
/-- The reference's buffers after its first 22 stretches. -/
def U22 : Valuation τ sig (Elt F) := StableHlo.after (seg21 (F := F)) (U21 m c)
theorem U22_eq : U22 m c = StableHlo.after (seg21 (F := F)) (U21 m c) := rfl
/-- The reference's buffers after its first 23 stretches. -/
def U23 : Valuation τ sig (Elt F) := StableHlo.after (seg22 (F := F)) (U22 m c)
theorem U23_eq : U23 m c = StableHlo.after (seg22 (F := F)) (U22 m c) := rfl
/-- The reference's buffers after its first 24 stretches. -/
def U24 : Valuation τ sig (Elt F) := StableHlo.after (seg23 (F := F)) (U23 m c)
theorem U24_eq : U24 m c = StableHlo.after (seg23 (F := F)) (U23 m c) := rfl
/-- The reference's buffers after its first 25 stretches. -/
def U25 : Valuation τ sig (Elt F) := StableHlo.after (seg24 (F := F)) (U24 m c)
theorem U25_eq : U25 m c = StableHlo.after (seg24 (F := F)) (U24 m c) := rfl
/-- The reference's buffers after its first 26 stretches. -/
def U26 : Valuation τ sig (Elt F) := StableHlo.after (seg25 (F := F)) (U25 m c)
theorem U26_eq : U26 m c = StableHlo.after (seg25 (F := F)) (U25 m c) := rfl

/-- The fold of the whole program over the launch contents is the last stretch's. -/
theorem after_ops : StableHlo.after (Cert.ReferenceIdeal.RunP.ops (F := F)) (launchContents m c) = U26 m c := by
  rw [ops_eq]
  simp only [after_append]
  rfl

end Cert.ReferenceIdeal.Segs

end
-- ==== Proof.RFrameA.lean ====
/-
  The reference writes none of its argument arrays: through each of its stretches an argument's buffer keeps its
  contents, so after the whole program every argument is as launched.
-/
import proofs.«168298_j84988812853302_1_alg».proof.Proof.RefSegs
import Idealize.ShloMosaic.PureOps.Ideal

set_option maxRecDepth 16384
set_option maxHeartbeats 4000000

noncomputable section

namespace Cert.ReferenceIdeal.FrameCarry

open Idealize.ShloMosaic Idealize.ShloMosaic.TcCoe Idealize.SL.Sem Idealize.ShloMosaic.StableHlo

variable (m' : (ℓ : Loc Cert.ReferenceIdeal.nD Cert.ReferenceIdeal.τ Cert.ReferenceIdeal.sig) → Buf (Elt Ideal) ℓ)
  (c : Dev Cert.ReferenceIdeal.nD)

theorem f_arg0_1 : Cert.ReferenceIdeal.Segs.U1 m' c (Proc.devRef .tc Cert.ReferenceIdeal.main_arg0) = Cert.ReferenceIdeal.Segs.U0 m' c (Proc.devRef .tc Cert.ReferenceIdeal.main_arg0) := by
  show StableHlo.after Cert.ReferenceIdeal.Segs.seg0 (Cert.ReferenceIdeal.Segs.U0 m' c) (Proc.devRef .tc Cert.ReferenceIdeal.main_arg0) = _
  after_results_simp

theorem f_arg0_2 : Cert.ReferenceIdeal.Segs.U2 m' c (Proc.devRef .tc Cert.ReferenceIdeal.main_arg0) = Cert.ReferenceIdeal.Segs.U1 m' c (Proc.devRef .tc Cert.ReferenceIdeal.main_arg0) := by
  show StableHlo.after Cert.ReferenceIdeal.Segs.seg1 (Cert.ReferenceIdeal.Segs.U1 m' c) (Proc.devRef .tc Cert.ReferenceIdeal.main_arg0) = _
  after_results_simp

theorem f_arg0_3 : Cert.ReferenceIdeal.Segs.U3 m' c (Proc.devRef .tc Cert.ReferenceIdeal.main_arg0) = Cert.ReferenceIdeal.Segs.U2 m' c (Proc.devRef .tc Cert.ReferenceIdeal.main_arg0) := by
  show StableHlo.after Cert.ReferenceIdeal.Segs.seg2 (Cert.ReferenceIdeal.Segs.U2 m' c) (Proc.devRef .tc Cert.ReferenceIdeal.main_arg0) = _
  after_results_simp

theorem f_arg0_4 : Cert.ReferenceIdeal.Segs.U4 m' c (Proc.devRef .tc Cert.ReferenceIdeal.main_arg0) = Cert.ReferenceIdeal.Segs.U3 m' c (Proc.devRef .tc Cert.ReferenceIdeal.main_arg0) := by
  show StableHlo.after Cert.ReferenceIdeal.Segs.seg3 (Cert.ReferenceIdeal.Segs.U3 m' c) (Proc.devRef .tc Cert.ReferenceIdeal.main_arg0) = _
  after_results_simp

theorem f_arg0_5 : Cert.ReferenceIdeal.Segs.U5 m' c (Proc.devRef .tc Cert.ReferenceIdeal.main_arg0) = Cert.ReferenceIdeal.Segs.U4 m' c (Proc.devRef .tc Cert.ReferenceIdeal.main_arg0) := by
  show StableHlo.after Cert.ReferenceIdeal.Segs.seg4 (Cert.ReferenceIdeal.Segs.U4 m' c) (Proc.devRef .tc Cert.ReferenceIdeal.main_arg0) = _
  after_results_simp

theorem f_arg0_6 : Cert.ReferenceIdeal.Segs.U6 m' c (Proc.devRef .tc Cert.ReferenceIdeal.main_arg0) = Cert.ReferenceIdeal.Segs.U5 m' c (Proc.devRef .tc Cert.ReferenceIdeal.main_arg0) := by
  show StableHlo.after Cert.ReferenceIdeal.Segs.seg5 (Cert.ReferenceIdeal.Segs.U5 m' c) (Proc.devRef .tc Cert.ReferenceIdeal.main_arg0) = _
  after_results_simp

theorem f_arg0_7 : Cert.ReferenceIdeal.Segs.U7 m' c (Proc.devRef .tc Cert.ReferenceIdeal.main_arg0) = Cert.ReferenceIdeal.Segs.U6 m' c (Proc.devRef .tc Cert.ReferenceIdeal.main_arg0) := by
  show StableHlo.after Cert.ReferenceIdeal.Segs.seg6 (Cert.ReferenceIdeal.Segs.U6 m' c) (Proc.devRef .tc Cert.ReferenceIdeal.main_arg0) = _
  after_results_simp

theorem f_arg0_8 : Cert.ReferenceIdeal.Segs.U8 m' c (Proc.devRef .tc Cert.ReferenceIdeal.main_arg0) = Cert.ReferenceIdeal.Segs.U7 m' c (Proc.devRef .tc Cert.ReferenceIdeal.main_arg0) := by
  show StableHlo.after Cert.ReferenceIdeal.Segs.seg7 (Cert.ReferenceIdeal.Segs.U7 m' c) (Proc.devRef .tc Cert.ReferenceIdeal.main_arg0) = _
  after_results_simp

theorem f_arg0_9 : Cert.ReferenceIdeal.Segs.U9 m' c (Proc.devRef .tc Cert.ReferenceIdeal.main_arg0) = Cert.ReferenceIdeal.Segs.U8 m' c (Proc.devRef .tc Cert.ReferenceIdeal.main_arg0) := by
  show StableHlo.after Cert.ReferenceIdeal.Segs.seg8 (Cert.ReferenceIdeal.Segs.U8 m' c) (Proc.devRef .tc Cert.ReferenceIdeal.main_arg0) = _
  after_results_simp

theorem f_arg0_10 : Cert.ReferenceIdeal.Segs.U10 m' c (Proc.devRef .tc Cert.ReferenceIdeal.main_arg0) = Cert.ReferenceIdeal.Segs.U9 m' c (Proc.devRef .tc Cert.ReferenceIdeal.main_arg0) := by
  show StableHlo.after Cert.ReferenceIdeal.Segs.seg9 (Cert.ReferenceIdeal.Segs.U9 m' c) (Proc.devRef .tc Cert.ReferenceIdeal.main_arg0) = _
  after_results_simp

theorem f_arg0_11 : Cert.ReferenceIdeal.Segs.U11 m' c (Proc.devRef .tc Cert.ReferenceIdeal.main_arg0) = Cert.ReferenceIdeal.Segs.U10 m' c (Proc.devRef .tc Cert.ReferenceIdeal.main_arg0) := by
  show StableHlo.after Cert.ReferenceIdeal.Segs.seg10 (Cert.ReferenceIdeal.Segs.U10 m' c) (Proc.devRef .tc Cert.ReferenceIdeal.main_arg0) = _
  after_results_simp

theorem f_arg0_12 : Cert.ReferenceIdeal.Segs.U12 m' c (Proc.devRef .tc Cert.ReferenceIdeal.main_arg0) = Cert.ReferenceIdeal.Segs.U11 m' c (Proc.devRef .tc Cert.ReferenceIdeal.main_arg0) := by
  show StableHlo.after Cert.ReferenceIdeal.Segs.seg11 (Cert.ReferenceIdeal.Segs.U11 m' c) (Proc.devRef .tc Cert.ReferenceIdeal.main_arg0) = _
  after_results_simp

theorem f_arg0_13 : Cert.ReferenceIdeal.Segs.U13 m' c (Proc.devRef .tc Cert.ReferenceIdeal.main_arg0) = Cert.ReferenceIdeal.Segs.U12 m' c (Proc.devRef .tc Cert.ReferenceIdeal.main_arg0) := by
  show StableHlo.after Cert.ReferenceIdeal.Segs.seg12 (Cert.ReferenceIdeal.Segs.U12 m' c) (Proc.devRef .tc Cert.ReferenceIdeal.main_arg0) = _
  after_results_simp

theorem f_arg0_14 : Cert.ReferenceIdeal.Segs.U14 m' c (Proc.devRef .tc Cert.ReferenceIdeal.main_arg0) = Cert.ReferenceIdeal.Segs.U13 m' c (Proc.devRef .tc Cert.ReferenceIdeal.main_arg0) := by
  show StableHlo.after Cert.ReferenceIdeal.Segs.seg13 (Cert.ReferenceIdeal.Segs.U13 m' c) (Proc.devRef .tc Cert.ReferenceIdeal.main_arg0) = _
  after_results_simp

theorem f_arg0_15 : Cert.ReferenceIdeal.Segs.U15 m' c (Proc.devRef .tc Cert.ReferenceIdeal.main_arg0) = Cert.ReferenceIdeal.Segs.U14 m' c (Proc.devRef .tc Cert.ReferenceIdeal.main_arg0) := by
  show StableHlo.after Cert.ReferenceIdeal.Segs.seg14 (Cert.ReferenceIdeal.Segs.U14 m' c) (Proc.devRef .tc Cert.ReferenceIdeal.main_arg0) = _
  after_results_simp

theorem f_arg0_16 : Cert.ReferenceIdeal.Segs.U16 m' c (Proc.devRef .tc Cert.ReferenceIdeal.main_arg0) = Cert.ReferenceIdeal.Segs.U15 m' c (Proc.devRef .tc Cert.ReferenceIdeal.main_arg0) := by
  show StableHlo.after Cert.ReferenceIdeal.Segs.seg15 (Cert.ReferenceIdeal.Segs.U15 m' c) (Proc.devRef .tc Cert.ReferenceIdeal.main_arg0) = _
  after_results_simp

theorem f_arg0_17 : Cert.ReferenceIdeal.Segs.U17 m' c (Proc.devRef .tc Cert.ReferenceIdeal.main_arg0) = Cert.ReferenceIdeal.Segs.U16 m' c (Proc.devRef .tc Cert.ReferenceIdeal.main_arg0) := by
  show StableHlo.after Cert.ReferenceIdeal.Segs.seg16 (Cert.ReferenceIdeal.Segs.U16 m' c) (Proc.devRef .tc Cert.ReferenceIdeal.main_arg0) = _
  after_results_simp

theorem f_arg0_18 : Cert.ReferenceIdeal.Segs.U18 m' c (Proc.devRef .tc Cert.ReferenceIdeal.main_arg0) = Cert.ReferenceIdeal.Segs.U17 m' c (Proc.devRef .tc Cert.ReferenceIdeal.main_arg0) := by
  show StableHlo.after Cert.ReferenceIdeal.Segs.seg17 (Cert.ReferenceIdeal.Segs.U17 m' c) (Proc.devRef .tc Cert.ReferenceIdeal.main_arg0) = _
  after_results_simp

theorem f_arg0_19 : Cert.ReferenceIdeal.Segs.U19 m' c (Proc.devRef .tc Cert.ReferenceIdeal.main_arg0) = Cert.ReferenceIdeal.Segs.U18 m' c (Proc.devRef .tc Cert.ReferenceIdeal.main_arg0) := by
  show StableHlo.after Cert.ReferenceIdeal.Segs.seg18 (Cert.ReferenceIdeal.Segs.U18 m' c) (Proc.devRef .tc Cert.ReferenceIdeal.main_arg0) = _
  after_results_simp

theorem f_arg0_20 : Cert.ReferenceIdeal.Segs.U20 m' c (Proc.devRef .tc Cert.ReferenceIdeal.main_arg0) = Cert.ReferenceIdeal.Segs.U19 m' c (Proc.devRef .tc Cert.ReferenceIdeal.main_arg0) := by
  show StableHlo.after Cert.ReferenceIdeal.Segs.seg19 (Cert.ReferenceIdeal.Segs.U19 m' c) (Proc.devRef .tc Cert.ReferenceIdeal.main_arg0) = _
  after_results_simp

theorem f_arg0_21 : Cert.ReferenceIdeal.Segs.U21 m' c (Proc.devRef .tc Cert.ReferenceIdeal.main_arg0) = Cert.ReferenceIdeal.Segs.U20 m' c (Proc.devRef .tc Cert.ReferenceIdeal.main_arg0) := by
  show StableHlo.after Cert.ReferenceIdeal.Segs.seg20 (Cert.ReferenceIdeal.Segs.U20 m' c) (Proc.devRef .tc Cert.ReferenceIdeal.main_arg0) = _
  after_results_simp

theorem f_arg0_22 : Cert.ReferenceIdeal.Segs.U22 m' c (Proc.devRef .tc Cert.ReferenceIdeal.main_arg0) = Cert.ReferenceIdeal.Segs.U21 m' c (Proc.devRef .tc Cert.ReferenceIdeal.main_arg0) := by
  show StableHlo.after Cert.ReferenceIdeal.Segs.seg21 (Cert.ReferenceIdeal.Segs.U21 m' c) (Proc.devRef .tc Cert.ReferenceIdeal.main_arg0) = _
  after_results_simp

theorem f_arg0_23 : Cert.ReferenceIdeal.Segs.U23 m' c (Proc.devRef .tc Cert.ReferenceIdeal.main_arg0) = Cert.ReferenceIdeal.Segs.U22 m' c (Proc.devRef .tc Cert.ReferenceIdeal.main_arg0) := by
  show StableHlo.after Cert.ReferenceIdeal.Segs.seg22 (Cert.ReferenceIdeal.Segs.U22 m' c) (Proc.devRef .tc Cert.ReferenceIdeal.main_arg0) = _
  after_results_simp

theorem f_arg0_24 : Cert.ReferenceIdeal.Segs.U24 m' c (Proc.devRef .tc Cert.ReferenceIdeal.main_arg0) = Cert.ReferenceIdeal.Segs.U23 m' c (Proc.devRef .tc Cert.ReferenceIdeal.main_arg0) := by
  show StableHlo.after Cert.ReferenceIdeal.Segs.seg23 (Cert.ReferenceIdeal.Segs.U23 m' c) (Proc.devRef .tc Cert.ReferenceIdeal.main_arg0) = _
  after_results_simp

theorem f_arg0_25 : Cert.ReferenceIdeal.Segs.U25 m' c (Proc.devRef .tc Cert.ReferenceIdeal.main_arg0) = Cert.ReferenceIdeal.Segs.U24 m' c (Proc.devRef .tc Cert.ReferenceIdeal.main_arg0) := by
  show StableHlo.after Cert.ReferenceIdeal.Segs.seg24 (Cert.ReferenceIdeal.Segs.U24 m' c) (Proc.devRef .tc Cert.ReferenceIdeal.main_arg0) = _
  after_results_simp

theorem f_arg0_26 : Cert.ReferenceIdeal.Segs.U26 m' c (Proc.devRef .tc Cert.ReferenceIdeal.main_arg0) = Cert.ReferenceIdeal.Segs.U25 m' c (Proc.devRef .tc Cert.ReferenceIdeal.main_arg0) := by
  show StableHlo.after Cert.ReferenceIdeal.Segs.seg25 (Cert.ReferenceIdeal.Segs.U25 m' c) (Proc.devRef .tc Cert.ReferenceIdeal.main_arg0) = _
  after_results_simp

/-- No operation of the reference writes the argument `arg0`: after the whole program it is as launched. -/
theorem f_arg0_unchanged : Cert.ReferenceIdeal.Segs.U26 m' c (Proc.devRef .tc Cert.ReferenceIdeal.main_arg0) = m' ((c.tc : Thread Cert.ReferenceIdeal.nD Cert.ReferenceIdeal.τ).loc Cert.ReferenceIdeal.main_arg0) :=
  ((f_arg0_26 m' c).trans ((f_arg0_25 m' c).trans ((f_arg0_24 m' c).trans ((f_arg0_23 m' c).trans ((f_arg0_22 m' c).trans ((f_arg0_21 m' c).trans ((f_arg0_20 m' c).trans ((f_arg0_19 m' c).trans ((f_arg0_18 m' c).trans ((f_arg0_17 m' c).trans ((f_arg0_16 m' c).trans ((f_arg0_15 m' c).trans ((f_arg0_14 m' c).trans ((f_arg0_13 m' c).trans ((f_arg0_12 m' c).trans ((f_arg0_11 m' c).trans ((f_arg0_10 m' c).trans ((f_arg0_9 m' c).trans ((f_arg0_8 m' c).trans ((f_arg0_7 m' c).trans ((f_arg0_6 m' c).trans ((f_arg0_5 m' c).trans ((f_arg0_4 m' c).trans ((f_arg0_3 m' c).trans ((f_arg0_2 m' c).trans (f_arg0_1 m' c)))))))))))))))))))))))))).trans (Cert.ReferenceIdeal.Segs.U0_apply m' c Cert.ReferenceIdeal.main_arg0)

theorem f_arg1_1 : Cert.ReferenceIdeal.Segs.U1 m' c (Proc.devRef .tc Cert.ReferenceIdeal.main_arg1) = Cert.ReferenceIdeal.Segs.U0 m' c (Proc.devRef .tc Cert.ReferenceIdeal.main_arg1) := by
  show StableHlo.after Cert.ReferenceIdeal.Segs.seg0 (Cert.ReferenceIdeal.Segs.U0 m' c) (Proc.devRef .tc Cert.ReferenceIdeal.main_arg1) = _
  after_results_simp

theorem f_arg1_2 : Cert.ReferenceIdeal.Segs.U2 m' c (Proc.devRef .tc Cert.ReferenceIdeal.main_arg1) = Cert.ReferenceIdeal.Segs.U1 m' c (Proc.devRef .tc Cert.ReferenceIdeal.main_arg1) := by
  show StableHlo.after Cert.ReferenceIdeal.Segs.seg1 (Cert.ReferenceIdeal.Segs.U1 m' c) (Proc.devRef .tc Cert.ReferenceIdeal.main_arg1) = _
  after_results_simp

theorem f_arg1_3 : Cert.ReferenceIdeal.Segs.U3 m' c (Proc.devRef .tc Cert.ReferenceIdeal.main_arg1) = Cert.ReferenceIdeal.Segs.U2 m' c (Proc.devRef .tc Cert.ReferenceIdeal.main_arg1) := by
  show StableHlo.after Cert.ReferenceIdeal.Segs.seg2 (Cert.ReferenceIdeal.Segs.U2 m' c) (Proc.devRef .tc Cert.ReferenceIdeal.main_arg1) = _
  after_results_simp

theorem f_arg1_4 : Cert.ReferenceIdeal.Segs.U4 m' c (Proc.devRef .tc Cert.ReferenceIdeal.main_arg1) = Cert.ReferenceIdeal.Segs.U3 m' c (Proc.devRef .tc Cert.ReferenceIdeal.main_arg1) := by
  show StableHlo.after Cert.ReferenceIdeal.Segs.seg3 (Cert.ReferenceIdeal.Segs.U3 m' c) (Proc.devRef .tc Cert.ReferenceIdeal.main_arg1) = _
  after_results_simp

theorem f_arg1_5 : Cert.ReferenceIdeal.Segs.U5 m' c (Proc.devRef .tc Cert.ReferenceIdeal.main_arg1) = Cert.ReferenceIdeal.Segs.U4 m' c (Proc.devRef .tc Cert.ReferenceIdeal.main_arg1) := by
  show StableHlo.after Cert.ReferenceIdeal.Segs.seg4 (Cert.ReferenceIdeal.Segs.U4 m' c) (Proc.devRef .tc Cert.ReferenceIdeal.main_arg1) = _
  after_results_simp

theorem f_arg1_6 : Cert.ReferenceIdeal.Segs.U6 m' c (Proc.devRef .tc Cert.ReferenceIdeal.main_arg1) = Cert.ReferenceIdeal.Segs.U5 m' c (Proc.devRef .tc Cert.ReferenceIdeal.main_arg1) := by
  show StableHlo.after Cert.ReferenceIdeal.Segs.seg5 (Cert.ReferenceIdeal.Segs.U5 m' c) (Proc.devRef .tc Cert.ReferenceIdeal.main_arg1) = _
  after_results_simp

theorem f_arg1_7 : Cert.ReferenceIdeal.Segs.U7 m' c (Proc.devRef .tc Cert.ReferenceIdeal.main_arg1) = Cert.ReferenceIdeal.Segs.U6 m' c (Proc.devRef .tc Cert.ReferenceIdeal.main_arg1) := by
  show StableHlo.after Cert.ReferenceIdeal.Segs.seg6 (Cert.ReferenceIdeal.Segs.U6 m' c) (Proc.devRef .tc Cert.ReferenceIdeal.main_arg1) = _
  after_results_simp

theorem f_arg1_8 : Cert.ReferenceIdeal.Segs.U8 m' c (Proc.devRef .tc Cert.ReferenceIdeal.main_arg1) = Cert.ReferenceIdeal.Segs.U7 m' c (Proc.devRef .tc Cert.ReferenceIdeal.main_arg1) := by
  show StableHlo.after Cert.ReferenceIdeal.Segs.seg7 (Cert.ReferenceIdeal.Segs.U7 m' c) (Proc.devRef .tc Cert.ReferenceIdeal.main_arg1) = _
  after_results_simp

theorem f_arg1_9 : Cert.ReferenceIdeal.Segs.U9 m' c (Proc.devRef .tc Cert.ReferenceIdeal.main_arg1) = Cert.ReferenceIdeal.Segs.U8 m' c (Proc.devRef .tc Cert.ReferenceIdeal.main_arg1) := by
  show StableHlo.after Cert.ReferenceIdeal.Segs.seg8 (Cert.ReferenceIdeal.Segs.U8 m' c) (Proc.devRef .tc Cert.ReferenceIdeal.main_arg1) = _
  after_results_simp

theorem f_arg1_10 : Cert.ReferenceIdeal.Segs.U10 m' c (Proc.devRef .tc Cert.ReferenceIdeal.main_arg1) = Cert.ReferenceIdeal.Segs.U9 m' c (Proc.devRef .tc Cert.ReferenceIdeal.main_arg1) := by
  show StableHlo.after Cert.ReferenceIdeal.Segs.seg9 (Cert.ReferenceIdeal.Segs.U9 m' c) (Proc.devRef .tc Cert.ReferenceIdeal.main_arg1) = _
  after_results_simp

theorem f_arg1_11 : Cert.ReferenceIdeal.Segs.U11 m' c (Proc.devRef .tc Cert.ReferenceIdeal.main_arg1) = Cert.ReferenceIdeal.Segs.U10 m' c (Proc.devRef .tc Cert.ReferenceIdeal.main_arg1) := by
  show StableHlo.after Cert.ReferenceIdeal.Segs.seg10 (Cert.ReferenceIdeal.Segs.U10 m' c) (Proc.devRef .tc Cert.ReferenceIdeal.main_arg1) = _
  after_results_simp

theorem f_arg1_12 : Cert.ReferenceIdeal.Segs.U12 m' c (Proc.devRef .tc Cert.ReferenceIdeal.main_arg1) = Cert.ReferenceIdeal.Segs.U11 m' c (Proc.devRef .tc Cert.ReferenceIdeal.main_arg1) := by
  show StableHlo.after Cert.ReferenceIdeal.Segs.seg11 (Cert.ReferenceIdeal.Segs.U11 m' c) (Proc.devRef .tc Cert.ReferenceIdeal.main_arg1) = _
  after_results_simp

theorem f_arg1_13 : Cert.ReferenceIdeal.Segs.U13 m' c (Proc.devRef .tc Cert.ReferenceIdeal.main_arg1) = Cert.ReferenceIdeal.Segs.U12 m' c (Proc.devRef .tc Cert.ReferenceIdeal.main_arg1) := by
  show StableHlo.after Cert.ReferenceIdeal.Segs.seg12 (Cert.ReferenceIdeal.Segs.U12 m' c) (Proc.devRef .tc Cert.ReferenceIdeal.main_arg1) = _
  after_results_simp

theorem f_arg1_14 : Cert.ReferenceIdeal.Segs.U14 m' c (Proc.devRef .tc Cert.ReferenceIdeal.main_arg1) = Cert.ReferenceIdeal.Segs.U13 m' c (Proc.devRef .tc Cert.ReferenceIdeal.main_arg1) := by
  show StableHlo.after Cert.ReferenceIdeal.Segs.seg13 (Cert.ReferenceIdeal.Segs.U13 m' c) (Proc.devRef .tc Cert.ReferenceIdeal.main_arg1) = _
  after_results_simp

theorem f_arg1_15 : Cert.ReferenceIdeal.Segs.U15 m' c (Proc.devRef .tc Cert.ReferenceIdeal.main_arg1) = Cert.ReferenceIdeal.Segs.U14 m' c (Proc.devRef .tc Cert.ReferenceIdeal.main_arg1) := by
  show StableHlo.after Cert.ReferenceIdeal.Segs.seg14 (Cert.ReferenceIdeal.Segs.U14 m' c) (Proc.devRef .tc Cert.ReferenceIdeal.main_arg1) = _
  after_results_simp

theorem f_arg1_16 : Cert.ReferenceIdeal.Segs.U16 m' c (Proc.devRef .tc Cert.ReferenceIdeal.main_arg1) = Cert.ReferenceIdeal.Segs.U15 m' c (Proc.devRef .tc Cert.ReferenceIdeal.main_arg1) := by
  show StableHlo.after Cert.ReferenceIdeal.Segs.seg15 (Cert.ReferenceIdeal.Segs.U15 m' c) (Proc.devRef .tc Cert.ReferenceIdeal.main_arg1) = _
  after_results_simp

theorem f_arg1_17 : Cert.ReferenceIdeal.Segs.U17 m' c (Proc.devRef .tc Cert.ReferenceIdeal.main_arg1) = Cert.ReferenceIdeal.Segs.U16 m' c (Proc.devRef .tc Cert.ReferenceIdeal.main_arg1) := by
  show StableHlo.after Cert.ReferenceIdeal.Segs.seg16 (Cert.ReferenceIdeal.Segs.U16 m' c) (Proc.devRef .tc Cert.ReferenceIdeal.main_arg1) = _
  after_results_simp

theorem f_arg1_18 : Cert.ReferenceIdeal.Segs.U18 m' c (Proc.devRef .tc Cert.ReferenceIdeal.main_arg1) = Cert.ReferenceIdeal.Segs.U17 m' c (Proc.devRef .tc Cert.ReferenceIdeal.main_arg1) := by
  show StableHlo.after Cert.ReferenceIdeal.Segs.seg17 (Cert.ReferenceIdeal.Segs.U17 m' c) (Proc.devRef .tc Cert.ReferenceIdeal.main_arg1) = _
  after_results_simp

theorem f_arg1_19 : Cert.ReferenceIdeal.Segs.U19 m' c (Proc.devRef .tc Cert.ReferenceIdeal.main_arg1) = Cert.ReferenceIdeal.Segs.U18 m' c (Proc.devRef .tc Cert.ReferenceIdeal.main_arg1) := by
  show StableHlo.after Cert.ReferenceIdeal.Segs.seg18 (Cert.ReferenceIdeal.Segs.U18 m' c) (Proc.devRef .tc Cert.ReferenceIdeal.main_arg1) = _
  after_results_simp

theorem f_arg1_20 : Cert.ReferenceIdeal.Segs.U20 m' c (Proc.devRef .tc Cert.ReferenceIdeal.main_arg1) = Cert.ReferenceIdeal.Segs.U19 m' c (Proc.devRef .tc Cert.ReferenceIdeal.main_arg1) := by
  show StableHlo.after Cert.ReferenceIdeal.Segs.seg19 (Cert.ReferenceIdeal.Segs.U19 m' c) (Proc.devRef .tc Cert.ReferenceIdeal.main_arg1) = _
  after_results_simp

theorem f_arg1_21 : Cert.ReferenceIdeal.Segs.U21 m' c (Proc.devRef .tc Cert.ReferenceIdeal.main_arg1) = Cert.ReferenceIdeal.Segs.U20 m' c (Proc.devRef .tc Cert.ReferenceIdeal.main_arg1) := by
  show StableHlo.after Cert.ReferenceIdeal.Segs.seg20 (Cert.ReferenceIdeal.Segs.U20 m' c) (Proc.devRef .tc Cert.ReferenceIdeal.main_arg1) = _
  after_results_simp

theorem f_arg1_22 : Cert.ReferenceIdeal.Segs.U22 m' c (Proc.devRef .tc Cert.ReferenceIdeal.main_arg1) = Cert.ReferenceIdeal.Segs.U21 m' c (Proc.devRef .tc Cert.ReferenceIdeal.main_arg1) := by
  show StableHlo.after Cert.ReferenceIdeal.Segs.seg21 (Cert.ReferenceIdeal.Segs.U21 m' c) (Proc.devRef .tc Cert.ReferenceIdeal.main_arg1) = _
  after_results_simp

theorem f_arg1_23 : Cert.ReferenceIdeal.Segs.U23 m' c (Proc.devRef .tc Cert.ReferenceIdeal.main_arg1) = Cert.ReferenceIdeal.Segs.U22 m' c (Proc.devRef .tc Cert.ReferenceIdeal.main_arg1) := by
  show StableHlo.after Cert.ReferenceIdeal.Segs.seg22 (Cert.ReferenceIdeal.Segs.U22 m' c) (Proc.devRef .tc Cert.ReferenceIdeal.main_arg1) = _
  after_results_simp

theorem f_arg1_24 : Cert.ReferenceIdeal.Segs.U24 m' c (Proc.devRef .tc Cert.ReferenceIdeal.main_arg1) = Cert.ReferenceIdeal.Segs.U23 m' c (Proc.devRef .tc Cert.ReferenceIdeal.main_arg1) := by
  show StableHlo.after Cert.ReferenceIdeal.Segs.seg23 (Cert.ReferenceIdeal.Segs.U23 m' c) (Proc.devRef .tc Cert.ReferenceIdeal.main_arg1) = _
  after_results_simp

theorem f_arg1_25 : Cert.ReferenceIdeal.Segs.U25 m' c (Proc.devRef .tc Cert.ReferenceIdeal.main_arg1) = Cert.ReferenceIdeal.Segs.U24 m' c (Proc.devRef .tc Cert.ReferenceIdeal.main_arg1) := by
  show StableHlo.after Cert.ReferenceIdeal.Segs.seg24 (Cert.ReferenceIdeal.Segs.U24 m' c) (Proc.devRef .tc Cert.ReferenceIdeal.main_arg1) = _
  after_results_simp

theorem f_arg1_26 : Cert.ReferenceIdeal.Segs.U26 m' c (Proc.devRef .tc Cert.ReferenceIdeal.main_arg1) = Cert.ReferenceIdeal.Segs.U25 m' c (Proc.devRef .tc Cert.ReferenceIdeal.main_arg1) := by
  show StableHlo.after Cert.ReferenceIdeal.Segs.seg25 (Cert.ReferenceIdeal.Segs.U25 m' c) (Proc.devRef .tc Cert.ReferenceIdeal.main_arg1) = _
  after_results_simp

/-- No operation of the reference writes the argument `arg1`: after the whole program it is as launched. -/
theorem f_arg1_unchanged : Cert.ReferenceIdeal.Segs.U26 m' c (Proc.devRef .tc Cert.ReferenceIdeal.main_arg1) = m' ((c.tc : Thread Cert.ReferenceIdeal.nD Cert.ReferenceIdeal.τ).loc Cert.ReferenceIdeal.main_arg1) :=
  ((f_arg1_26 m' c).trans ((f_arg1_25 m' c).trans ((f_arg1_24 m' c).trans ((f_arg1_23 m' c).trans ((f_arg1_22 m' c).trans ((f_arg1_21 m' c).trans ((f_arg1_20 m' c).trans ((f_arg1_19 m' c).trans ((f_arg1_18 m' c).trans ((f_arg1_17 m' c).trans ((f_arg1_16 m' c).trans ((f_arg1_15 m' c).trans ((f_arg1_14 m' c).trans ((f_arg1_13 m' c).trans ((f_arg1_12 m' c).trans ((f_arg1_11 m' c).trans ((f_arg1_10 m' c).trans ((f_arg1_9 m' c).trans ((f_arg1_8 m' c).trans ((f_arg1_7 m' c).trans ((f_arg1_6 m' c).trans ((f_arg1_5 m' c).trans ((f_arg1_4 m' c).trans ((f_arg1_3 m' c).trans ((f_arg1_2 m' c).trans (f_arg1_1 m' c)))))))))))))))))))))))))).trans (Cert.ReferenceIdeal.Segs.U0_apply m' c Cert.ReferenceIdeal.main_arg1)

theorem f_arg2_1 : Cert.ReferenceIdeal.Segs.U1 m' c (Proc.devRef .tc Cert.ReferenceIdeal.main_arg2) = Cert.ReferenceIdeal.Segs.U0 m' c (Proc.devRef .tc Cert.ReferenceIdeal.main_arg2) := by
  show StableHlo.after Cert.ReferenceIdeal.Segs.seg0 (Cert.ReferenceIdeal.Segs.U0 m' c) (Proc.devRef .tc Cert.ReferenceIdeal.main_arg2) = _
  after_results_simp

theorem f_arg2_2 : Cert.ReferenceIdeal.Segs.U2 m' c (Proc.devRef .tc Cert.ReferenceIdeal.main_arg2) = Cert.ReferenceIdeal.Segs.U1 m' c (Proc.devRef .tc Cert.ReferenceIdeal.main_arg2) := by
  show StableHlo.after Cert.ReferenceIdeal.Segs.seg1 (Cert.ReferenceIdeal.Segs.U1 m' c) (Proc.devRef .tc Cert.ReferenceIdeal.main_arg2) = _
  after_results_simp

theorem f_arg2_3 : Cert.ReferenceIdeal.Segs.U3 m' c (Proc.devRef .tc Cert.ReferenceIdeal.main_arg2) = Cert.ReferenceIdeal.Segs.U2 m' c (Proc.devRef .tc Cert.ReferenceIdeal.main_arg2) := by
  show StableHlo.after Cert.ReferenceIdeal.Segs.seg2 (Cert.ReferenceIdeal.Segs.U2 m' c) (Proc.devRef .tc Cert.ReferenceIdeal.main_arg2) = _
  after_results_simp

theorem f_arg2_4 : Cert.ReferenceIdeal.Segs.U4 m' c (Proc.devRef .tc Cert.ReferenceIdeal.main_arg2) = Cert.ReferenceIdeal.Segs.U3 m' c (Proc.devRef .tc Cert.ReferenceIdeal.main_arg2) := by
  show StableHlo.after Cert.ReferenceIdeal.Segs.seg3 (Cert.ReferenceIdeal.Segs.U3 m' c) (Proc.devRef .tc Cert.ReferenceIdeal.main_arg2) = _
  after_results_simp

theorem f_arg2_5 : Cert.ReferenceIdeal.Segs.U5 m' c (Proc.devRef .tc Cert.ReferenceIdeal.main_arg2) = Cert.ReferenceIdeal.Segs.U4 m' c (Proc.devRef .tc Cert.ReferenceIdeal.main_arg2) := by
  show StableHlo.after Cert.ReferenceIdeal.Segs.seg4 (Cert.ReferenceIdeal.Segs.U4 m' c) (Proc.devRef .tc Cert.ReferenceIdeal.main_arg2) = _
  after_results_simp

theorem f_arg2_6 : Cert.ReferenceIdeal.Segs.U6 m' c (Proc.devRef .tc Cert.ReferenceIdeal.main_arg2) = Cert.ReferenceIdeal.Segs.U5 m' c (Proc.devRef .tc Cert.ReferenceIdeal.main_arg2) := by
  show StableHlo.after Cert.ReferenceIdeal.Segs.seg5 (Cert.ReferenceIdeal.Segs.U5 m' c) (Proc.devRef .tc Cert.ReferenceIdeal.main_arg2) = _
  after_results_simp

theorem f_arg2_7 : Cert.ReferenceIdeal.Segs.U7 m' c (Proc.devRef .tc Cert.ReferenceIdeal.main_arg2) = Cert.ReferenceIdeal.Segs.U6 m' c (Proc.devRef .tc Cert.ReferenceIdeal.main_arg2) := by
  show StableHlo.after Cert.ReferenceIdeal.Segs.seg6 (Cert.ReferenceIdeal.Segs.U6 m' c) (Proc.devRef .tc Cert.ReferenceIdeal.main_arg2) = _
  after_results_simp

theorem f_arg2_8 : Cert.ReferenceIdeal.Segs.U8 m' c (Proc.devRef .tc Cert.ReferenceIdeal.main_arg2) = Cert.ReferenceIdeal.Segs.U7 m' c (Proc.devRef .tc Cert.ReferenceIdeal.main_arg2) := by
  show StableHlo.after Cert.ReferenceIdeal.Segs.seg7 (Cert.ReferenceIdeal.Segs.U7 m' c) (Proc.devRef .tc Cert.ReferenceIdeal.main_arg2) = _
  after_results_simp

theorem f_arg2_9 : Cert.ReferenceIdeal.Segs.U9 m' c (Proc.devRef .tc Cert.ReferenceIdeal.main_arg2) = Cert.ReferenceIdeal.Segs.U8 m' c (Proc.devRef .tc Cert.ReferenceIdeal.main_arg2) := by
  show StableHlo.after Cert.ReferenceIdeal.Segs.seg8 (Cert.ReferenceIdeal.Segs.U8 m' c) (Proc.devRef .tc Cert.ReferenceIdeal.main_arg2) = _
  after_results_simp

theorem f_arg2_10 : Cert.ReferenceIdeal.Segs.U10 m' c (Proc.devRef .tc Cert.ReferenceIdeal.main_arg2) = Cert.ReferenceIdeal.Segs.U9 m' c (Proc.devRef .tc Cert.ReferenceIdeal.main_arg2) := by
  show StableHlo.after Cert.ReferenceIdeal.Segs.seg9 (Cert.ReferenceIdeal.Segs.U9 m' c) (Proc.devRef .tc Cert.ReferenceIdeal.main_arg2) = _
  after_results_simp

theorem f_arg2_11 : Cert.ReferenceIdeal.Segs.U11 m' c (Proc.devRef .tc Cert.ReferenceIdeal.main_arg2) = Cert.ReferenceIdeal.Segs.U10 m' c (Proc.devRef .tc Cert.ReferenceIdeal.main_arg2) := by
  show StableHlo.after Cert.ReferenceIdeal.Segs.seg10 (Cert.ReferenceIdeal.Segs.U10 m' c) (Proc.devRef .tc Cert.ReferenceIdeal.main_arg2) = _
  after_results_simp

theorem f_arg2_12 : Cert.ReferenceIdeal.Segs.U12 m' c (Proc.devRef .tc Cert.ReferenceIdeal.main_arg2) = Cert.ReferenceIdeal.Segs.U11 m' c (Proc.devRef .tc Cert.ReferenceIdeal.main_arg2) := by
  show StableHlo.after Cert.ReferenceIdeal.Segs.seg11 (Cert.ReferenceIdeal.Segs.U11 m' c) (Proc.devRef .tc Cert.ReferenceIdeal.main_arg2) = _
  after_results_simp

theorem f_arg2_13 : Cert.ReferenceIdeal.Segs.U13 m' c (Proc.devRef .tc Cert.ReferenceIdeal.main_arg2) = Cert.ReferenceIdeal.Segs.U12 m' c (Proc.devRef .tc Cert.ReferenceIdeal.main_arg2) := by
  show StableHlo.after Cert.ReferenceIdeal.Segs.seg12 (Cert.ReferenceIdeal.Segs.U12 m' c) (Proc.devRef .tc Cert.ReferenceIdeal.main_arg2) = _
  after_results_simp

theorem f_arg2_14 : Cert.ReferenceIdeal.Segs.U14 m' c (Proc.devRef .tc Cert.ReferenceIdeal.main_arg2) = Cert.ReferenceIdeal.Segs.U13 m' c (Proc.devRef .tc Cert.ReferenceIdeal.main_arg2) := by
  show StableHlo.after Cert.ReferenceIdeal.Segs.seg13 (Cert.ReferenceIdeal.Segs.U13 m' c) (Proc.devRef .tc Cert.ReferenceIdeal.main_arg2) = _
  after_results_simp

theorem f_arg2_15 : Cert.ReferenceIdeal.Segs.U15 m' c (Proc.devRef .tc Cert.ReferenceIdeal.main_arg2) = Cert.ReferenceIdeal.Segs.U14 m' c (Proc.devRef .tc Cert.ReferenceIdeal.main_arg2) := by
  show StableHlo.after Cert.ReferenceIdeal.Segs.seg14 (Cert.ReferenceIdeal.Segs.U14 m' c) (Proc.devRef .tc Cert.ReferenceIdeal.main_arg2) = _
  after_results_simp

theorem f_arg2_16 : Cert.ReferenceIdeal.Segs.U16 m' c (Proc.devRef .tc Cert.ReferenceIdeal.main_arg2) = Cert.ReferenceIdeal.Segs.U15 m' c (Proc.devRef .tc Cert.ReferenceIdeal.main_arg2) := by
  show StableHlo.after Cert.ReferenceIdeal.Segs.seg15 (Cert.ReferenceIdeal.Segs.U15 m' c) (Proc.devRef .tc Cert.ReferenceIdeal.main_arg2) = _
  after_results_simp

theorem f_arg2_17 : Cert.ReferenceIdeal.Segs.U17 m' c (Proc.devRef .tc Cert.ReferenceIdeal.main_arg2) = Cert.ReferenceIdeal.Segs.U16 m' c (Proc.devRef .tc Cert.ReferenceIdeal.main_arg2) := by
  show StableHlo.after Cert.ReferenceIdeal.Segs.seg16 (Cert.ReferenceIdeal.Segs.U16 m' c) (Proc.devRef .tc Cert.ReferenceIdeal.main_arg2) = _
  after_results_simp

theorem f_arg2_18 : Cert.ReferenceIdeal.Segs.U18 m' c (Proc.devRef .tc Cert.ReferenceIdeal.main_arg2) = Cert.ReferenceIdeal.Segs.U17 m' c (Proc.devRef .tc Cert.ReferenceIdeal.main_arg2) := by
  show StableHlo.after Cert.ReferenceIdeal.Segs.seg17 (Cert.ReferenceIdeal.Segs.U17 m' c) (Proc.devRef .tc Cert.ReferenceIdeal.main_arg2) = _
  after_results_simp

theorem f_arg2_19 : Cert.ReferenceIdeal.Segs.U19 m' c (Proc.devRef .tc Cert.ReferenceIdeal.main_arg2) = Cert.ReferenceIdeal.Segs.U18 m' c (Proc.devRef .tc Cert.ReferenceIdeal.main_arg2) := by
  show StableHlo.after Cert.ReferenceIdeal.Segs.seg18 (Cert.ReferenceIdeal.Segs.U18 m' c) (Proc.devRef .tc Cert.ReferenceIdeal.main_arg2) = _
  after_results_simp

theorem f_arg2_20 : Cert.ReferenceIdeal.Segs.U20 m' c (Proc.devRef .tc Cert.ReferenceIdeal.main_arg2) = Cert.ReferenceIdeal.Segs.U19 m' c (Proc.devRef .tc Cert.ReferenceIdeal.main_arg2) := by
  show StableHlo.after Cert.ReferenceIdeal.Segs.seg19 (Cert.ReferenceIdeal.Segs.U19 m' c) (Proc.devRef .tc Cert.ReferenceIdeal.main_arg2) = _
  after_results_simp

theorem f_arg2_21 : Cert.ReferenceIdeal.Segs.U21 m' c (Proc.devRef .tc Cert.ReferenceIdeal.main_arg2) = Cert.ReferenceIdeal.Segs.U20 m' c (Proc.devRef .tc Cert.ReferenceIdeal.main_arg2) := by
  show StableHlo.after Cert.ReferenceIdeal.Segs.seg20 (Cert.ReferenceIdeal.Segs.U20 m' c) (Proc.devRef .tc Cert.ReferenceIdeal.main_arg2) = _
  after_results_simp

theorem f_arg2_22 : Cert.ReferenceIdeal.Segs.U22 m' c (Proc.devRef .tc Cert.ReferenceIdeal.main_arg2) = Cert.ReferenceIdeal.Segs.U21 m' c (Proc.devRef .tc Cert.ReferenceIdeal.main_arg2) := by
  show StableHlo.after Cert.ReferenceIdeal.Segs.seg21 (Cert.ReferenceIdeal.Segs.U21 m' c) (Proc.devRef .tc Cert.ReferenceIdeal.main_arg2) = _
  after_results_simp

theorem f_arg2_23 : Cert.ReferenceIdeal.Segs.U23 m' c (Proc.devRef .tc Cert.ReferenceIdeal.main_arg2) = Cert.ReferenceIdeal.Segs.U22 m' c (Proc.devRef .tc Cert.ReferenceIdeal.main_arg2) := by
  show StableHlo.after Cert.ReferenceIdeal.Segs.seg22 (Cert.ReferenceIdeal.Segs.U22 m' c) (Proc.devRef .tc Cert.ReferenceIdeal.main_arg2) = _
  after_results_simp

theorem f_arg2_24 : Cert.ReferenceIdeal.Segs.U24 m' c (Proc.devRef .tc Cert.ReferenceIdeal.main_arg2) = Cert.ReferenceIdeal.Segs.U23 m' c (Proc.devRef .tc Cert.ReferenceIdeal.main_arg2) := by
  show StableHlo.after Cert.ReferenceIdeal.Segs.seg23 (Cert.ReferenceIdeal.Segs.U23 m' c) (Proc.devRef .tc Cert.ReferenceIdeal.main_arg2) = _
  after_results_simp

theorem f_arg2_25 : Cert.ReferenceIdeal.Segs.U25 m' c (Proc.devRef .tc Cert.ReferenceIdeal.main_arg2) = Cert.ReferenceIdeal.Segs.U24 m' c (Proc.devRef .tc Cert.ReferenceIdeal.main_arg2) := by
  show StableHlo.after Cert.ReferenceIdeal.Segs.seg24 (Cert.ReferenceIdeal.Segs.U24 m' c) (Proc.devRef .tc Cert.ReferenceIdeal.main_arg2) = _
  after_results_simp

theorem f_arg2_26 : Cert.ReferenceIdeal.Segs.U26 m' c (Proc.devRef .tc Cert.ReferenceIdeal.main_arg2) = Cert.ReferenceIdeal.Segs.U25 m' c (Proc.devRef .tc Cert.ReferenceIdeal.main_arg2) := by
  show StableHlo.after Cert.ReferenceIdeal.Segs.seg25 (Cert.ReferenceIdeal.Segs.U25 m' c) (Proc.devRef .tc Cert.ReferenceIdeal.main_arg2) = _
  after_results_simp

/-- No operation of the reference writes the argument `arg2`: after the whole program it is as launched. -/
theorem f_arg2_unchanged : Cert.ReferenceIdeal.Segs.U26 m' c (Proc.devRef .tc Cert.ReferenceIdeal.main_arg2) = m' ((c.tc : Thread Cert.ReferenceIdeal.nD Cert.ReferenceIdeal.τ).loc Cert.ReferenceIdeal.main_arg2) :=
  ((f_arg2_26 m' c).trans ((f_arg2_25 m' c).trans ((f_arg2_24 m' c).trans ((f_arg2_23 m' c).trans ((f_arg2_22 m' c).trans ((f_arg2_21 m' c).trans ((f_arg2_20 m' c).trans ((f_arg2_19 m' c).trans ((f_arg2_18 m' c).trans ((f_arg2_17 m' c).trans ((f_arg2_16 m' c).trans ((f_arg2_15 m' c).trans ((f_arg2_14 m' c).trans ((f_arg2_13 m' c).trans ((f_arg2_12 m' c).trans ((f_arg2_11 m' c).trans ((f_arg2_10 m' c).trans ((f_arg2_9 m' c).trans ((f_arg2_8 m' c).trans ((f_arg2_7 m' c).trans ((f_arg2_6 m' c).trans ((f_arg2_5 m' c).trans ((f_arg2_4 m' c).trans ((f_arg2_3 m' c).trans ((f_arg2_2 m' c).trans (f_arg2_1 m' c)))))))))))))))))))))))))).trans (Cert.ReferenceIdeal.Segs.U0_apply m' c Cert.ReferenceIdeal.main_arg2)

end Cert.ReferenceIdeal.FrameCarry

end
-- ==== Proof.RFrameB.lean ====
/-
  The reference writes none of its argument arrays: through each of its stretches an argument's buffer keeps its
  contents, so after the whole program every argument is as launched.
-/
import proofs.«168298_j84988812853302_1_alg».proof.Proof.RefSegs
import Idealize.ShloMosaic.PureOps.Ideal

set_option maxRecDepth 16384
set_option maxHeartbeats 4000000

noncomputable section

namespace Cert.ReferenceIdeal.FrameCarry

open Idealize.ShloMosaic Idealize.ShloMosaic.TcCoe Idealize.SL.Sem Idealize.ShloMosaic.StableHlo

variable (m' : (ℓ : Loc Cert.ReferenceIdeal.nD Cert.ReferenceIdeal.τ Cert.ReferenceIdeal.sig) → Buf (Elt Ideal) ℓ)
  (c : Dev Cert.ReferenceIdeal.nD)

theorem f_arg3_1 : Cert.ReferenceIdeal.Segs.U1 m' c (Proc.devRef .tc Cert.ReferenceIdeal.main_arg3) = Cert.ReferenceIdeal.Segs.U0 m' c (Proc.devRef .tc Cert.ReferenceIdeal.main_arg3) := by
  show StableHlo.after Cert.ReferenceIdeal.Segs.seg0 (Cert.ReferenceIdeal.Segs.U0 m' c) (Proc.devRef .tc Cert.ReferenceIdeal.main_arg3) = _
  after_results_simp

theorem f_arg3_2 : Cert.ReferenceIdeal.Segs.U2 m' c (Proc.devRef .tc Cert.ReferenceIdeal.main_arg3) = Cert.ReferenceIdeal.Segs.U1 m' c (Proc.devRef .tc Cert.ReferenceIdeal.main_arg3) := by
  show StableHlo.after Cert.ReferenceIdeal.Segs.seg1 (Cert.ReferenceIdeal.Segs.U1 m' c) (Proc.devRef .tc Cert.ReferenceIdeal.main_arg3) = _
  after_results_simp

theorem f_arg3_3 : Cert.ReferenceIdeal.Segs.U3 m' c (Proc.devRef .tc Cert.ReferenceIdeal.main_arg3) = Cert.ReferenceIdeal.Segs.U2 m' c (Proc.devRef .tc Cert.ReferenceIdeal.main_arg3) := by
  show StableHlo.after Cert.ReferenceIdeal.Segs.seg2 (Cert.ReferenceIdeal.Segs.U2 m' c) (Proc.devRef .tc Cert.ReferenceIdeal.main_arg3) = _
  after_results_simp

theorem f_arg3_4 : Cert.ReferenceIdeal.Segs.U4 m' c (Proc.devRef .tc Cert.ReferenceIdeal.main_arg3) = Cert.ReferenceIdeal.Segs.U3 m' c (Proc.devRef .tc Cert.ReferenceIdeal.main_arg3) := by
  show StableHlo.after Cert.ReferenceIdeal.Segs.seg3 (Cert.ReferenceIdeal.Segs.U3 m' c) (Proc.devRef .tc Cert.ReferenceIdeal.main_arg3) = _
  after_results_simp

theorem f_arg3_5 : Cert.ReferenceIdeal.Segs.U5 m' c (Proc.devRef .tc Cert.ReferenceIdeal.main_arg3) = Cert.ReferenceIdeal.Segs.U4 m' c (Proc.devRef .tc Cert.ReferenceIdeal.main_arg3) := by
  show StableHlo.after Cert.ReferenceIdeal.Segs.seg4 (Cert.ReferenceIdeal.Segs.U4 m' c) (Proc.devRef .tc Cert.ReferenceIdeal.main_arg3) = _
  after_results_simp

theorem f_arg3_6 : Cert.ReferenceIdeal.Segs.U6 m' c (Proc.devRef .tc Cert.ReferenceIdeal.main_arg3) = Cert.ReferenceIdeal.Segs.U5 m' c (Proc.devRef .tc Cert.ReferenceIdeal.main_arg3) := by
  show StableHlo.after Cert.ReferenceIdeal.Segs.seg5 (Cert.ReferenceIdeal.Segs.U5 m' c) (Proc.devRef .tc Cert.ReferenceIdeal.main_arg3) = _
  after_results_simp

theorem f_arg3_7 : Cert.ReferenceIdeal.Segs.U7 m' c (Proc.devRef .tc Cert.ReferenceIdeal.main_arg3) = Cert.ReferenceIdeal.Segs.U6 m' c (Proc.devRef .tc Cert.ReferenceIdeal.main_arg3) := by
  show StableHlo.after Cert.ReferenceIdeal.Segs.seg6 (Cert.ReferenceIdeal.Segs.U6 m' c) (Proc.devRef .tc Cert.ReferenceIdeal.main_arg3) = _
  after_results_simp

theorem f_arg3_8 : Cert.ReferenceIdeal.Segs.U8 m' c (Proc.devRef .tc Cert.ReferenceIdeal.main_arg3) = Cert.ReferenceIdeal.Segs.U7 m' c (Proc.devRef .tc Cert.ReferenceIdeal.main_arg3) := by
  show StableHlo.after Cert.ReferenceIdeal.Segs.seg7 (Cert.ReferenceIdeal.Segs.U7 m' c) (Proc.devRef .tc Cert.ReferenceIdeal.main_arg3) = _
  after_results_simp

theorem f_arg3_9 : Cert.ReferenceIdeal.Segs.U9 m' c (Proc.devRef .tc Cert.ReferenceIdeal.main_arg3) = Cert.ReferenceIdeal.Segs.U8 m' c (Proc.devRef .tc Cert.ReferenceIdeal.main_arg3) := by
  show StableHlo.after Cert.ReferenceIdeal.Segs.seg8 (Cert.ReferenceIdeal.Segs.U8 m' c) (Proc.devRef .tc Cert.ReferenceIdeal.main_arg3) = _
  after_results_simp

theorem f_arg3_10 : Cert.ReferenceIdeal.Segs.U10 m' c (Proc.devRef .tc Cert.ReferenceIdeal.main_arg3) = Cert.ReferenceIdeal.Segs.U9 m' c (Proc.devRef .tc Cert.ReferenceIdeal.main_arg3) := by
  show StableHlo.after Cert.ReferenceIdeal.Segs.seg9 (Cert.ReferenceIdeal.Segs.U9 m' c) (Proc.devRef .tc Cert.ReferenceIdeal.main_arg3) = _
  after_results_simp

theorem f_arg3_11 : Cert.ReferenceIdeal.Segs.U11 m' c (Proc.devRef .tc Cert.ReferenceIdeal.main_arg3) = Cert.ReferenceIdeal.Segs.U10 m' c (Proc.devRef .tc Cert.ReferenceIdeal.main_arg3) := by
  show StableHlo.after Cert.ReferenceIdeal.Segs.seg10 (Cert.ReferenceIdeal.Segs.U10 m' c) (Proc.devRef .tc Cert.ReferenceIdeal.main_arg3) = _
  after_results_simp

theorem f_arg3_12 : Cert.ReferenceIdeal.Segs.U12 m' c (Proc.devRef .tc Cert.ReferenceIdeal.main_arg3) = Cert.ReferenceIdeal.Segs.U11 m' c (Proc.devRef .tc Cert.ReferenceIdeal.main_arg3) := by
  show StableHlo.after Cert.ReferenceIdeal.Segs.seg11 (Cert.ReferenceIdeal.Segs.U11 m' c) (Proc.devRef .tc Cert.ReferenceIdeal.main_arg3) = _
  after_results_simp

theorem f_arg3_13 : Cert.ReferenceIdeal.Segs.U13 m' c (Proc.devRef .tc Cert.ReferenceIdeal.main_arg3) = Cert.ReferenceIdeal.Segs.U12 m' c (Proc.devRef .tc Cert.ReferenceIdeal.main_arg3) := by
  show StableHlo.after Cert.ReferenceIdeal.Segs.seg12 (Cert.ReferenceIdeal.Segs.U12 m' c) (Proc.devRef .tc Cert.ReferenceIdeal.main_arg3) = _
  after_results_simp

theorem f_arg3_14 : Cert.ReferenceIdeal.Segs.U14 m' c (Proc.devRef .tc Cert.ReferenceIdeal.main_arg3) = Cert.ReferenceIdeal.Segs.U13 m' c (Proc.devRef .tc Cert.ReferenceIdeal.main_arg3) := by
  show StableHlo.after Cert.ReferenceIdeal.Segs.seg13 (Cert.ReferenceIdeal.Segs.U13 m' c) (Proc.devRef .tc Cert.ReferenceIdeal.main_arg3) = _
  after_results_simp

theorem f_arg3_15 : Cert.ReferenceIdeal.Segs.U15 m' c (Proc.devRef .tc Cert.ReferenceIdeal.main_arg3) = Cert.ReferenceIdeal.Segs.U14 m' c (Proc.devRef .tc Cert.ReferenceIdeal.main_arg3) := by
  show StableHlo.after Cert.ReferenceIdeal.Segs.seg14 (Cert.ReferenceIdeal.Segs.U14 m' c) (Proc.devRef .tc Cert.ReferenceIdeal.main_arg3) = _
  after_results_simp

theorem f_arg3_16 : Cert.ReferenceIdeal.Segs.U16 m' c (Proc.devRef .tc Cert.ReferenceIdeal.main_arg3) = Cert.ReferenceIdeal.Segs.U15 m' c (Proc.devRef .tc Cert.ReferenceIdeal.main_arg3) := by
  show StableHlo.after Cert.ReferenceIdeal.Segs.seg15 (Cert.ReferenceIdeal.Segs.U15 m' c) (Proc.devRef .tc Cert.ReferenceIdeal.main_arg3) = _
  after_results_simp

theorem f_arg3_17 : Cert.ReferenceIdeal.Segs.U17 m' c (Proc.devRef .tc Cert.ReferenceIdeal.main_arg3) = Cert.ReferenceIdeal.Segs.U16 m' c (Proc.devRef .tc Cert.ReferenceIdeal.main_arg3) := by
  show StableHlo.after Cert.ReferenceIdeal.Segs.seg16 (Cert.ReferenceIdeal.Segs.U16 m' c) (Proc.devRef .tc Cert.ReferenceIdeal.main_arg3) = _
  after_results_simp

theorem f_arg3_18 : Cert.ReferenceIdeal.Segs.U18 m' c (Proc.devRef .tc Cert.ReferenceIdeal.main_arg3) = Cert.ReferenceIdeal.Segs.U17 m' c (Proc.devRef .tc Cert.ReferenceIdeal.main_arg3) := by
  show StableHlo.after Cert.ReferenceIdeal.Segs.seg17 (Cert.ReferenceIdeal.Segs.U17 m' c) (Proc.devRef .tc Cert.ReferenceIdeal.main_arg3) = _
  after_results_simp

theorem f_arg3_19 : Cert.ReferenceIdeal.Segs.U19 m' c (Proc.devRef .tc Cert.ReferenceIdeal.main_arg3) = Cert.ReferenceIdeal.Segs.U18 m' c (Proc.devRef .tc Cert.ReferenceIdeal.main_arg3) := by
  show StableHlo.after Cert.ReferenceIdeal.Segs.seg18 (Cert.ReferenceIdeal.Segs.U18 m' c) (Proc.devRef .tc Cert.ReferenceIdeal.main_arg3) = _
  after_results_simp

theorem f_arg3_20 : Cert.ReferenceIdeal.Segs.U20 m' c (Proc.devRef .tc Cert.ReferenceIdeal.main_arg3) = Cert.ReferenceIdeal.Segs.U19 m' c (Proc.devRef .tc Cert.ReferenceIdeal.main_arg3) := by
  show StableHlo.after Cert.ReferenceIdeal.Segs.seg19 (Cert.ReferenceIdeal.Segs.U19 m' c) (Proc.devRef .tc Cert.ReferenceIdeal.main_arg3) = _
  after_results_simp

theorem f_arg3_21 : Cert.ReferenceIdeal.Segs.U21 m' c (Proc.devRef .tc Cert.ReferenceIdeal.main_arg3) = Cert.ReferenceIdeal.Segs.U20 m' c (Proc.devRef .tc Cert.ReferenceIdeal.main_arg3) := by
  show StableHlo.after Cert.ReferenceIdeal.Segs.seg20 (Cert.ReferenceIdeal.Segs.U20 m' c) (Proc.devRef .tc Cert.ReferenceIdeal.main_arg3) = _
  after_results_simp

theorem f_arg3_22 : Cert.ReferenceIdeal.Segs.U22 m' c (Proc.devRef .tc Cert.ReferenceIdeal.main_arg3) = Cert.ReferenceIdeal.Segs.U21 m' c (Proc.devRef .tc Cert.ReferenceIdeal.main_arg3) := by
  show StableHlo.after Cert.ReferenceIdeal.Segs.seg21 (Cert.ReferenceIdeal.Segs.U21 m' c) (Proc.devRef .tc Cert.ReferenceIdeal.main_arg3) = _
  after_results_simp

theorem f_arg3_23 : Cert.ReferenceIdeal.Segs.U23 m' c (Proc.devRef .tc Cert.ReferenceIdeal.main_arg3) = Cert.ReferenceIdeal.Segs.U22 m' c (Proc.devRef .tc Cert.ReferenceIdeal.main_arg3) := by
  show StableHlo.after Cert.ReferenceIdeal.Segs.seg22 (Cert.ReferenceIdeal.Segs.U22 m' c) (Proc.devRef .tc Cert.ReferenceIdeal.main_arg3) = _
  after_results_simp

theorem f_arg3_24 : Cert.ReferenceIdeal.Segs.U24 m' c (Proc.devRef .tc Cert.ReferenceIdeal.main_arg3) = Cert.ReferenceIdeal.Segs.U23 m' c (Proc.devRef .tc Cert.ReferenceIdeal.main_arg3) := by
  show StableHlo.after Cert.ReferenceIdeal.Segs.seg23 (Cert.ReferenceIdeal.Segs.U23 m' c) (Proc.devRef .tc Cert.ReferenceIdeal.main_arg3) = _
  after_results_simp

theorem f_arg3_25 : Cert.ReferenceIdeal.Segs.U25 m' c (Proc.devRef .tc Cert.ReferenceIdeal.main_arg3) = Cert.ReferenceIdeal.Segs.U24 m' c (Proc.devRef .tc Cert.ReferenceIdeal.main_arg3) := by
  show StableHlo.after Cert.ReferenceIdeal.Segs.seg24 (Cert.ReferenceIdeal.Segs.U24 m' c) (Proc.devRef .tc Cert.ReferenceIdeal.main_arg3) = _
  after_results_simp

theorem f_arg3_26 : Cert.ReferenceIdeal.Segs.U26 m' c (Proc.devRef .tc Cert.ReferenceIdeal.main_arg3) = Cert.ReferenceIdeal.Segs.U25 m' c (Proc.devRef .tc Cert.ReferenceIdeal.main_arg3) := by
  show StableHlo.after Cert.ReferenceIdeal.Segs.seg25 (Cert.ReferenceIdeal.Segs.U25 m' c) (Proc.devRef .tc Cert.ReferenceIdeal.main_arg3) = _
  after_results_simp

/-- No operation of the reference writes the argument `arg3`: after the whole program it is as launched. -/
theorem f_arg3_unchanged : Cert.ReferenceIdeal.Segs.U26 m' c (Proc.devRef .tc Cert.ReferenceIdeal.main_arg3) = m' ((c.tc : Thread Cert.ReferenceIdeal.nD Cert.ReferenceIdeal.τ).loc Cert.ReferenceIdeal.main_arg3) :=
  ((f_arg3_26 m' c).trans ((f_arg3_25 m' c).trans ((f_arg3_24 m' c).trans ((f_arg3_23 m' c).trans ((f_arg3_22 m' c).trans ((f_arg3_21 m' c).trans ((f_arg3_20 m' c).trans ((f_arg3_19 m' c).trans ((f_arg3_18 m' c).trans ((f_arg3_17 m' c).trans ((f_arg3_16 m' c).trans ((f_arg3_15 m' c).trans ((f_arg3_14 m' c).trans ((f_arg3_13 m' c).trans ((f_arg3_12 m' c).trans ((f_arg3_11 m' c).trans ((f_arg3_10 m' c).trans ((f_arg3_9 m' c).trans ((f_arg3_8 m' c).trans ((f_arg3_7 m' c).trans ((f_arg3_6 m' c).trans ((f_arg3_5 m' c).trans ((f_arg3_4 m' c).trans ((f_arg3_3 m' c).trans ((f_arg3_2 m' c).trans (f_arg3_1 m' c)))))))))))))))))))))))))).trans (Cert.ReferenceIdeal.Segs.U0_apply m' c Cert.ReferenceIdeal.main_arg3)

theorem f_arg4_1 : Cert.ReferenceIdeal.Segs.U1 m' c (Proc.devRef .tc Cert.ReferenceIdeal.main_arg4) = Cert.ReferenceIdeal.Segs.U0 m' c (Proc.devRef .tc Cert.ReferenceIdeal.main_arg4) := by
  show StableHlo.after Cert.ReferenceIdeal.Segs.seg0 (Cert.ReferenceIdeal.Segs.U0 m' c) (Proc.devRef .tc Cert.ReferenceIdeal.main_arg4) = _
  after_results_simp

theorem f_arg4_2 : Cert.ReferenceIdeal.Segs.U2 m' c (Proc.devRef .tc Cert.ReferenceIdeal.main_arg4) = Cert.ReferenceIdeal.Segs.U1 m' c (Proc.devRef .tc Cert.ReferenceIdeal.main_arg4) := by
  show StableHlo.after Cert.ReferenceIdeal.Segs.seg1 (Cert.ReferenceIdeal.Segs.U1 m' c) (Proc.devRef .tc Cert.ReferenceIdeal.main_arg4) = _
  after_results_simp

theorem f_arg4_3 : Cert.ReferenceIdeal.Segs.U3 m' c (Proc.devRef .tc Cert.ReferenceIdeal.main_arg4) = Cert.ReferenceIdeal.Segs.U2 m' c (Proc.devRef .tc Cert.ReferenceIdeal.main_arg4) := by
  show StableHlo.after Cert.ReferenceIdeal.Segs.seg2 (Cert.ReferenceIdeal.Segs.U2 m' c) (Proc.devRef .tc Cert.ReferenceIdeal.main_arg4) = _
  after_results_simp

theorem f_arg4_4 : Cert.ReferenceIdeal.Segs.U4 m' c (Proc.devRef .tc Cert.ReferenceIdeal.main_arg4) = Cert.ReferenceIdeal.Segs.U3 m' c (Proc.devRef .tc Cert.ReferenceIdeal.main_arg4) := by
  show StableHlo.after Cert.ReferenceIdeal.Segs.seg3 (Cert.ReferenceIdeal.Segs.U3 m' c) (Proc.devRef .tc Cert.ReferenceIdeal.main_arg4) = _
  after_results_simp

theorem f_arg4_5 : Cert.ReferenceIdeal.Segs.U5 m' c (Proc.devRef .tc Cert.ReferenceIdeal.main_arg4) = Cert.ReferenceIdeal.Segs.U4 m' c (Proc.devRef .tc Cert.ReferenceIdeal.main_arg4) := by
  show StableHlo.after Cert.ReferenceIdeal.Segs.seg4 (Cert.ReferenceIdeal.Segs.U4 m' c) (Proc.devRef .tc Cert.ReferenceIdeal.main_arg4) = _
  after_results_simp

theorem f_arg4_6 : Cert.ReferenceIdeal.Segs.U6 m' c (Proc.devRef .tc Cert.ReferenceIdeal.main_arg4) = Cert.ReferenceIdeal.Segs.U5 m' c (Proc.devRef .tc Cert.ReferenceIdeal.main_arg4) := by
  show StableHlo.after Cert.ReferenceIdeal.Segs.seg5 (Cert.ReferenceIdeal.Segs.U5 m' c) (Proc.devRef .tc Cert.ReferenceIdeal.main_arg4) = _
  after_results_simp

theorem f_arg4_7 : Cert.ReferenceIdeal.Segs.U7 m' c (Proc.devRef .tc Cert.ReferenceIdeal.main_arg4) = Cert.ReferenceIdeal.Segs.U6 m' c (Proc.devRef .tc Cert.ReferenceIdeal.main_arg4) := by
  show StableHlo.after Cert.ReferenceIdeal.Segs.seg6 (Cert.ReferenceIdeal.Segs.U6 m' c) (Proc.devRef .tc Cert.ReferenceIdeal.main_arg4) = _
  after_results_simp

theorem f_arg4_8 : Cert.ReferenceIdeal.Segs.U8 m' c (Proc.devRef .tc Cert.ReferenceIdeal.main_arg4) = Cert.ReferenceIdeal.Segs.U7 m' c (Proc.devRef .tc Cert.ReferenceIdeal.main_arg4) := by
  show StableHlo.after Cert.ReferenceIdeal.Segs.seg7 (Cert.ReferenceIdeal.Segs.U7 m' c) (Proc.devRef .tc Cert.ReferenceIdeal.main_arg4) = _
  after_results_simp

theorem f_arg4_9 : Cert.ReferenceIdeal.Segs.U9 m' c (Proc.devRef .tc Cert.ReferenceIdeal.main_arg4) = Cert.ReferenceIdeal.Segs.U8 m' c (Proc.devRef .tc Cert.ReferenceIdeal.main_arg4) := by
  show StableHlo.after Cert.ReferenceIdeal.Segs.seg8 (Cert.ReferenceIdeal.Segs.U8 m' c) (Proc.devRef .tc Cert.ReferenceIdeal.main_arg4) = _
  after_results_simp

theorem f_arg4_10 : Cert.ReferenceIdeal.Segs.U10 m' c (Proc.devRef .tc Cert.ReferenceIdeal.main_arg4) = Cert.ReferenceIdeal.Segs.U9 m' c (Proc.devRef .tc Cert.ReferenceIdeal.main_arg4) := by
  show StableHlo.after Cert.ReferenceIdeal.Segs.seg9 (Cert.ReferenceIdeal.Segs.U9 m' c) (Proc.devRef .tc Cert.ReferenceIdeal.main_arg4) = _
  after_results_simp

theorem f_arg4_11 : Cert.ReferenceIdeal.Segs.U11 m' c (Proc.devRef .tc Cert.ReferenceIdeal.main_arg4) = Cert.ReferenceIdeal.Segs.U10 m' c (Proc.devRef .tc Cert.ReferenceIdeal.main_arg4) := by
  show StableHlo.after Cert.ReferenceIdeal.Segs.seg10 (Cert.ReferenceIdeal.Segs.U10 m' c) (Proc.devRef .tc Cert.ReferenceIdeal.main_arg4) = _
  after_results_simp

theorem f_arg4_12 : Cert.ReferenceIdeal.Segs.U12 m' c (Proc.devRef .tc Cert.ReferenceIdeal.main_arg4) = Cert.ReferenceIdeal.Segs.U11 m' c (Proc.devRef .tc Cert.ReferenceIdeal.main_arg4) := by
  show StableHlo.after Cert.ReferenceIdeal.Segs.seg11 (Cert.ReferenceIdeal.Segs.U11 m' c) (Proc.devRef .tc Cert.ReferenceIdeal.main_arg4) = _
  after_results_simp

theorem f_arg4_13 : Cert.ReferenceIdeal.Segs.U13 m' c (Proc.devRef .tc Cert.ReferenceIdeal.main_arg4) = Cert.ReferenceIdeal.Segs.U12 m' c (Proc.devRef .tc Cert.ReferenceIdeal.main_arg4) := by
  show StableHlo.after Cert.ReferenceIdeal.Segs.seg12 (Cert.ReferenceIdeal.Segs.U12 m' c) (Proc.devRef .tc Cert.ReferenceIdeal.main_arg4) = _
  after_results_simp

theorem f_arg4_14 : Cert.ReferenceIdeal.Segs.U14 m' c (Proc.devRef .tc Cert.ReferenceIdeal.main_arg4) = Cert.ReferenceIdeal.Segs.U13 m' c (Proc.devRef .tc Cert.ReferenceIdeal.main_arg4) := by
  show StableHlo.after Cert.ReferenceIdeal.Segs.seg13 (Cert.ReferenceIdeal.Segs.U13 m' c) (Proc.devRef .tc Cert.ReferenceIdeal.main_arg4) = _
  after_results_simp

theorem f_arg4_15 : Cert.ReferenceIdeal.Segs.U15 m' c (Proc.devRef .tc Cert.ReferenceIdeal.main_arg4) = Cert.ReferenceIdeal.Segs.U14 m' c (Proc.devRef .tc Cert.ReferenceIdeal.main_arg4) := by
  show StableHlo.after Cert.ReferenceIdeal.Segs.seg14 (Cert.ReferenceIdeal.Segs.U14 m' c) (Proc.devRef .tc Cert.ReferenceIdeal.main_arg4) = _
  after_results_simp

theorem f_arg4_16 : Cert.ReferenceIdeal.Segs.U16 m' c (Proc.devRef .tc Cert.ReferenceIdeal.main_arg4) = Cert.ReferenceIdeal.Segs.U15 m' c (Proc.devRef .tc Cert.ReferenceIdeal.main_arg4) := by
  show StableHlo.after Cert.ReferenceIdeal.Segs.seg15 (Cert.ReferenceIdeal.Segs.U15 m' c) (Proc.devRef .tc Cert.ReferenceIdeal.main_arg4) = _
  after_results_simp

theorem f_arg4_17 : Cert.ReferenceIdeal.Segs.U17 m' c (Proc.devRef .tc Cert.ReferenceIdeal.main_arg4) = Cert.ReferenceIdeal.Segs.U16 m' c (Proc.devRef .tc Cert.ReferenceIdeal.main_arg4) := by
  show StableHlo.after Cert.ReferenceIdeal.Segs.seg16 (Cert.ReferenceIdeal.Segs.U16 m' c) (Proc.devRef .tc Cert.ReferenceIdeal.main_arg4) = _
  after_results_simp

theorem f_arg4_18 : Cert.ReferenceIdeal.Segs.U18 m' c (Proc.devRef .tc Cert.ReferenceIdeal.main_arg4) = Cert.ReferenceIdeal.Segs.U17 m' c (Proc.devRef .tc Cert.ReferenceIdeal.main_arg4) := by
  show StableHlo.after Cert.ReferenceIdeal.Segs.seg17 (Cert.ReferenceIdeal.Segs.U17 m' c) (Proc.devRef .tc Cert.ReferenceIdeal.main_arg4) = _
  after_results_simp

theorem f_arg4_19 : Cert.ReferenceIdeal.Segs.U19 m' c (Proc.devRef .tc Cert.ReferenceIdeal.main_arg4) = Cert.ReferenceIdeal.Segs.U18 m' c (Proc.devRef .tc Cert.ReferenceIdeal.main_arg4) := by
  show StableHlo.after Cert.ReferenceIdeal.Segs.seg18 (Cert.ReferenceIdeal.Segs.U18 m' c) (Proc.devRef .tc Cert.ReferenceIdeal.main_arg4) = _
  after_results_simp

theorem f_arg4_20 : Cert.ReferenceIdeal.Segs.U20 m' c (Proc.devRef .tc Cert.ReferenceIdeal.main_arg4) = Cert.ReferenceIdeal.Segs.U19 m' c (Proc.devRef .tc Cert.ReferenceIdeal.main_arg4) := by
  show StableHlo.after Cert.ReferenceIdeal.Segs.seg19 (Cert.ReferenceIdeal.Segs.U19 m' c) (Proc.devRef .tc Cert.ReferenceIdeal.main_arg4) = _
  after_results_simp

theorem f_arg4_21 : Cert.ReferenceIdeal.Segs.U21 m' c (Proc.devRef .tc Cert.ReferenceIdeal.main_arg4) = Cert.ReferenceIdeal.Segs.U20 m' c (Proc.devRef .tc Cert.ReferenceIdeal.main_arg4) := by
  show StableHlo.after Cert.ReferenceIdeal.Segs.seg20 (Cert.ReferenceIdeal.Segs.U20 m' c) (Proc.devRef .tc Cert.ReferenceIdeal.main_arg4) = _
  after_results_simp

theorem f_arg4_22 : Cert.ReferenceIdeal.Segs.U22 m' c (Proc.devRef .tc Cert.ReferenceIdeal.main_arg4) = Cert.ReferenceIdeal.Segs.U21 m' c (Proc.devRef .tc Cert.ReferenceIdeal.main_arg4) := by
  show StableHlo.after Cert.ReferenceIdeal.Segs.seg21 (Cert.ReferenceIdeal.Segs.U21 m' c) (Proc.devRef .tc Cert.ReferenceIdeal.main_arg4) = _
  after_results_simp

theorem f_arg4_23 : Cert.ReferenceIdeal.Segs.U23 m' c (Proc.devRef .tc Cert.ReferenceIdeal.main_arg4) = Cert.ReferenceIdeal.Segs.U22 m' c (Proc.devRef .tc Cert.ReferenceIdeal.main_arg4) := by
  show StableHlo.after Cert.ReferenceIdeal.Segs.seg22 (Cert.ReferenceIdeal.Segs.U22 m' c) (Proc.devRef .tc Cert.ReferenceIdeal.main_arg4) = _
  after_results_simp

theorem f_arg4_24 : Cert.ReferenceIdeal.Segs.U24 m' c (Proc.devRef .tc Cert.ReferenceIdeal.main_arg4) = Cert.ReferenceIdeal.Segs.U23 m' c (Proc.devRef .tc Cert.ReferenceIdeal.main_arg4) := by
  show StableHlo.after Cert.ReferenceIdeal.Segs.seg23 (Cert.ReferenceIdeal.Segs.U23 m' c) (Proc.devRef .tc Cert.ReferenceIdeal.main_arg4) = _
  after_results_simp

theorem f_arg4_25 : Cert.ReferenceIdeal.Segs.U25 m' c (Proc.devRef .tc Cert.ReferenceIdeal.main_arg4) = Cert.ReferenceIdeal.Segs.U24 m' c (Proc.devRef .tc Cert.ReferenceIdeal.main_arg4) := by
  show StableHlo.after Cert.ReferenceIdeal.Segs.seg24 (Cert.ReferenceIdeal.Segs.U24 m' c) (Proc.devRef .tc Cert.ReferenceIdeal.main_arg4) = _
  after_results_simp

theorem f_arg4_26 : Cert.ReferenceIdeal.Segs.U26 m' c (Proc.devRef .tc Cert.ReferenceIdeal.main_arg4) = Cert.ReferenceIdeal.Segs.U25 m' c (Proc.devRef .tc Cert.ReferenceIdeal.main_arg4) := by
  show StableHlo.after Cert.ReferenceIdeal.Segs.seg25 (Cert.ReferenceIdeal.Segs.U25 m' c) (Proc.devRef .tc Cert.ReferenceIdeal.main_arg4) = _
  after_results_simp

/-- No operation of the reference writes the argument `arg4`: after the whole program it is as launched. -/
theorem f_arg4_unchanged : Cert.ReferenceIdeal.Segs.U26 m' c (Proc.devRef .tc Cert.ReferenceIdeal.main_arg4) = m' ((c.tc : Thread Cert.ReferenceIdeal.nD Cert.ReferenceIdeal.τ).loc Cert.ReferenceIdeal.main_arg4) :=
  ((f_arg4_26 m' c).trans ((f_arg4_25 m' c).trans ((f_arg4_24 m' c).trans ((f_arg4_23 m' c).trans ((f_arg4_22 m' c).trans ((f_arg4_21 m' c).trans ((f_arg4_20 m' c).trans ((f_arg4_19 m' c).trans ((f_arg4_18 m' c).trans ((f_arg4_17 m' c).trans ((f_arg4_16 m' c).trans ((f_arg4_15 m' c).trans ((f_arg4_14 m' c).trans ((f_arg4_13 m' c).trans ((f_arg4_12 m' c).trans ((f_arg4_11 m' c).trans ((f_arg4_10 m' c).trans ((f_arg4_9 m' c).trans ((f_arg4_8 m' c).trans ((f_arg4_7 m' c).trans ((f_arg4_6 m' c).trans ((f_arg4_5 m' c).trans ((f_arg4_4 m' c).trans ((f_arg4_3 m' c).trans ((f_arg4_2 m' c).trans (f_arg4_1 m' c)))))))))))))))))))))))))).trans (Cert.ReferenceIdeal.Segs.U0_apply m' c Cert.ReferenceIdeal.main_arg4)

theorem f_arg5_1 : Cert.ReferenceIdeal.Segs.U1 m' c (Proc.devRef .tc Cert.ReferenceIdeal.main_arg5) = Cert.ReferenceIdeal.Segs.U0 m' c (Proc.devRef .tc Cert.ReferenceIdeal.main_arg5) := by
  show StableHlo.after Cert.ReferenceIdeal.Segs.seg0 (Cert.ReferenceIdeal.Segs.U0 m' c) (Proc.devRef .tc Cert.ReferenceIdeal.main_arg5) = _
  after_results_simp

theorem f_arg5_2 : Cert.ReferenceIdeal.Segs.U2 m' c (Proc.devRef .tc Cert.ReferenceIdeal.main_arg5) = Cert.ReferenceIdeal.Segs.U1 m' c (Proc.devRef .tc Cert.ReferenceIdeal.main_arg5) := by
  show StableHlo.after Cert.ReferenceIdeal.Segs.seg1 (Cert.ReferenceIdeal.Segs.U1 m' c) (Proc.devRef .tc Cert.ReferenceIdeal.main_arg5) = _
  after_results_simp

theorem f_arg5_3 : Cert.ReferenceIdeal.Segs.U3 m' c (Proc.devRef .tc Cert.ReferenceIdeal.main_arg5) = Cert.ReferenceIdeal.Segs.U2 m' c (Proc.devRef .tc Cert.ReferenceIdeal.main_arg5) := by
  show StableHlo.after Cert.ReferenceIdeal.Segs.seg2 (Cert.ReferenceIdeal.Segs.U2 m' c) (Proc.devRef .tc Cert.ReferenceIdeal.main_arg5) = _
  after_results_simp

theorem f_arg5_4 : Cert.ReferenceIdeal.Segs.U4 m' c (Proc.devRef .tc Cert.ReferenceIdeal.main_arg5) = Cert.ReferenceIdeal.Segs.U3 m' c (Proc.devRef .tc Cert.ReferenceIdeal.main_arg5) := by
  show StableHlo.after Cert.ReferenceIdeal.Segs.seg3 (Cert.ReferenceIdeal.Segs.U3 m' c) (Proc.devRef .tc Cert.ReferenceIdeal.main_arg5) = _
  after_results_simp

theorem f_arg5_5 : Cert.ReferenceIdeal.Segs.U5 m' c (Proc.devRef .tc Cert.ReferenceIdeal.main_arg5) = Cert.ReferenceIdeal.Segs.U4 m' c (Proc.devRef .tc Cert.ReferenceIdeal.main_arg5) := by
  show StableHlo.after Cert.ReferenceIdeal.Segs.seg4 (Cert.ReferenceIdeal.Segs.U4 m' c) (Proc.devRef .tc Cert.ReferenceIdeal.main_arg5) = _
  after_results_simp

theorem f_arg5_6 : Cert.ReferenceIdeal.Segs.U6 m' c (Proc.devRef .tc Cert.ReferenceIdeal.main_arg5) = Cert.ReferenceIdeal.Segs.U5 m' c (Proc.devRef .tc Cert.ReferenceIdeal.main_arg5) := by
  show StableHlo.after Cert.ReferenceIdeal.Segs.seg5 (Cert.ReferenceIdeal.Segs.U5 m' c) (Proc.devRef .tc Cert.ReferenceIdeal.main_arg5) = _
  after_results_simp

theorem f_arg5_7 : Cert.ReferenceIdeal.Segs.U7 m' c (Proc.devRef .tc Cert.ReferenceIdeal.main_arg5) = Cert.ReferenceIdeal.Segs.U6 m' c (Proc.devRef .tc Cert.ReferenceIdeal.main_arg5) := by
  show StableHlo.after Cert.ReferenceIdeal.Segs.seg6 (Cert.ReferenceIdeal.Segs.U6 m' c) (Proc.devRef .tc Cert.ReferenceIdeal.main_arg5) = _
  after_results_simp

theorem f_arg5_8 : Cert.ReferenceIdeal.Segs.U8 m' c (Proc.devRef .tc Cert.ReferenceIdeal.main_arg5) = Cert.ReferenceIdeal.Segs.U7 m' c (Proc.devRef .tc Cert.ReferenceIdeal.main_arg5) := by
  show StableHlo.after Cert.ReferenceIdeal.Segs.seg7 (Cert.ReferenceIdeal.Segs.U7 m' c) (Proc.devRef .tc Cert.ReferenceIdeal.main_arg5) = _
  after_results_simp

theorem f_arg5_9 : Cert.ReferenceIdeal.Segs.U9 m' c (Proc.devRef .tc Cert.ReferenceIdeal.main_arg5) = Cert.ReferenceIdeal.Segs.U8 m' c (Proc.devRef .tc Cert.ReferenceIdeal.main_arg5) := by
  show StableHlo.after Cert.ReferenceIdeal.Segs.seg8 (Cert.ReferenceIdeal.Segs.U8 m' c) (Proc.devRef .tc Cert.ReferenceIdeal.main_arg5) = _
  after_results_simp

theorem f_arg5_10 : Cert.ReferenceIdeal.Segs.U10 m' c (Proc.devRef .tc Cert.ReferenceIdeal.main_arg5) = Cert.ReferenceIdeal.Segs.U9 m' c (Proc.devRef .tc Cert.ReferenceIdeal.main_arg5) := by
  show StableHlo.after Cert.ReferenceIdeal.Segs.seg9 (Cert.ReferenceIdeal.Segs.U9 m' c) (Proc.devRef .tc Cert.ReferenceIdeal.main_arg5) = _
  after_results_simp

theorem f_arg5_11 : Cert.ReferenceIdeal.Segs.U11 m' c (Proc.devRef .tc Cert.ReferenceIdeal.main_arg5) = Cert.ReferenceIdeal.Segs.U10 m' c (Proc.devRef .tc Cert.ReferenceIdeal.main_arg5) := by
  show StableHlo.after Cert.ReferenceIdeal.Segs.seg10 (Cert.ReferenceIdeal.Segs.U10 m' c) (Proc.devRef .tc Cert.ReferenceIdeal.main_arg5) = _
  after_results_simp

theorem f_arg5_12 : Cert.ReferenceIdeal.Segs.U12 m' c (Proc.devRef .tc Cert.ReferenceIdeal.main_arg5) = Cert.ReferenceIdeal.Segs.U11 m' c (Proc.devRef .tc Cert.ReferenceIdeal.main_arg5) := by
  show StableHlo.after Cert.ReferenceIdeal.Segs.seg11 (Cert.ReferenceIdeal.Segs.U11 m' c) (Proc.devRef .tc Cert.ReferenceIdeal.main_arg5) = _
  after_results_simp

theorem f_arg5_13 : Cert.ReferenceIdeal.Segs.U13 m' c (Proc.devRef .tc Cert.ReferenceIdeal.main_arg5) = Cert.ReferenceIdeal.Segs.U12 m' c (Proc.devRef .tc Cert.ReferenceIdeal.main_arg5) := by
  show StableHlo.after Cert.ReferenceIdeal.Segs.seg12 (Cert.ReferenceIdeal.Segs.U12 m' c) (Proc.devRef .tc Cert.ReferenceIdeal.main_arg5) = _
  after_results_simp

theorem f_arg5_14 : Cert.ReferenceIdeal.Segs.U14 m' c (Proc.devRef .tc Cert.ReferenceIdeal.main_arg5) = Cert.ReferenceIdeal.Segs.U13 m' c (Proc.devRef .tc Cert.ReferenceIdeal.main_arg5) := by
  show StableHlo.after Cert.ReferenceIdeal.Segs.seg13 (Cert.ReferenceIdeal.Segs.U13 m' c) (Proc.devRef .tc Cert.ReferenceIdeal.main_arg5) = _
  after_results_simp

theorem f_arg5_15 : Cert.ReferenceIdeal.Segs.U15 m' c (Proc.devRef .tc Cert.ReferenceIdeal.main_arg5) = Cert.ReferenceIdeal.Segs.U14 m' c (Proc.devRef .tc Cert.ReferenceIdeal.main_arg5) := by
  show StableHlo.after Cert.ReferenceIdeal.Segs.seg14 (Cert.ReferenceIdeal.Segs.U14 m' c) (Proc.devRef .tc Cert.ReferenceIdeal.main_arg5) = _
  after_results_simp

theorem f_arg5_16 : Cert.ReferenceIdeal.Segs.U16 m' c (Proc.devRef .tc Cert.ReferenceIdeal.main_arg5) = Cert.ReferenceIdeal.Segs.U15 m' c (Proc.devRef .tc Cert.ReferenceIdeal.main_arg5) := by
  show StableHlo.after Cert.ReferenceIdeal.Segs.seg15 (Cert.ReferenceIdeal.Segs.U15 m' c) (Proc.devRef .tc Cert.ReferenceIdeal.main_arg5) = _
  after_results_simp

theorem f_arg5_17 : Cert.ReferenceIdeal.Segs.U17 m' c (Proc.devRef .tc Cert.ReferenceIdeal.main_arg5) = Cert.ReferenceIdeal.Segs.U16 m' c (Proc.devRef .tc Cert.ReferenceIdeal.main_arg5) := by
  show StableHlo.after Cert.ReferenceIdeal.Segs.seg16 (Cert.ReferenceIdeal.Segs.U16 m' c) (Proc.devRef .tc Cert.ReferenceIdeal.main_arg5) = _
  after_results_simp

theorem f_arg5_18 : Cert.ReferenceIdeal.Segs.U18 m' c (Proc.devRef .tc Cert.ReferenceIdeal.main_arg5) = Cert.ReferenceIdeal.Segs.U17 m' c (Proc.devRef .tc Cert.ReferenceIdeal.main_arg5) := by
  show StableHlo.after Cert.ReferenceIdeal.Segs.seg17 (Cert.ReferenceIdeal.Segs.U17 m' c) (Proc.devRef .tc Cert.ReferenceIdeal.main_arg5) = _
  after_results_simp

theorem f_arg5_19 : Cert.ReferenceIdeal.Segs.U19 m' c (Proc.devRef .tc Cert.ReferenceIdeal.main_arg5) = Cert.ReferenceIdeal.Segs.U18 m' c (Proc.devRef .tc Cert.ReferenceIdeal.main_arg5) := by
  show StableHlo.after Cert.ReferenceIdeal.Segs.seg18 (Cert.ReferenceIdeal.Segs.U18 m' c) (Proc.devRef .tc Cert.ReferenceIdeal.main_arg5) = _
  after_results_simp

theorem f_arg5_20 : Cert.ReferenceIdeal.Segs.U20 m' c (Proc.devRef .tc Cert.ReferenceIdeal.main_arg5) = Cert.ReferenceIdeal.Segs.U19 m' c (Proc.devRef .tc Cert.ReferenceIdeal.main_arg5) := by
  show StableHlo.after Cert.ReferenceIdeal.Segs.seg19 (Cert.ReferenceIdeal.Segs.U19 m' c) (Proc.devRef .tc Cert.ReferenceIdeal.main_arg5) = _
  after_results_simp

theorem f_arg5_21 : Cert.ReferenceIdeal.Segs.U21 m' c (Proc.devRef .tc Cert.ReferenceIdeal.main_arg5) = Cert.ReferenceIdeal.Segs.U20 m' c (Proc.devRef .tc Cert.ReferenceIdeal.main_arg5) := by
  show StableHlo.after Cert.ReferenceIdeal.Segs.seg20 (Cert.ReferenceIdeal.Segs.U20 m' c) (Proc.devRef .tc Cert.ReferenceIdeal.main_arg5) = _
  after_results_simp

theorem f_arg5_22 : Cert.ReferenceIdeal.Segs.U22 m' c (Proc.devRef .tc Cert.ReferenceIdeal.main_arg5) = Cert.ReferenceIdeal.Segs.U21 m' c (Proc.devRef .tc Cert.ReferenceIdeal.main_arg5) := by
  show StableHlo.after Cert.ReferenceIdeal.Segs.seg21 (Cert.ReferenceIdeal.Segs.U21 m' c) (Proc.devRef .tc Cert.ReferenceIdeal.main_arg5) = _
  after_results_simp

theorem f_arg5_23 : Cert.ReferenceIdeal.Segs.U23 m' c (Proc.devRef .tc Cert.ReferenceIdeal.main_arg5) = Cert.ReferenceIdeal.Segs.U22 m' c (Proc.devRef .tc Cert.ReferenceIdeal.main_arg5) := by
  show StableHlo.after Cert.ReferenceIdeal.Segs.seg22 (Cert.ReferenceIdeal.Segs.U22 m' c) (Proc.devRef .tc Cert.ReferenceIdeal.main_arg5) = _
  after_results_simp

theorem f_arg5_24 : Cert.ReferenceIdeal.Segs.U24 m' c (Proc.devRef .tc Cert.ReferenceIdeal.main_arg5) = Cert.ReferenceIdeal.Segs.U23 m' c (Proc.devRef .tc Cert.ReferenceIdeal.main_arg5) := by
  show StableHlo.after Cert.ReferenceIdeal.Segs.seg23 (Cert.ReferenceIdeal.Segs.U23 m' c) (Proc.devRef .tc Cert.ReferenceIdeal.main_arg5) = _
  after_results_simp

theorem f_arg5_25 : Cert.ReferenceIdeal.Segs.U25 m' c (Proc.devRef .tc Cert.ReferenceIdeal.main_arg5) = Cert.ReferenceIdeal.Segs.U24 m' c (Proc.devRef .tc Cert.ReferenceIdeal.main_arg5) := by
  show StableHlo.after Cert.ReferenceIdeal.Segs.seg24 (Cert.ReferenceIdeal.Segs.U24 m' c) (Proc.devRef .tc Cert.ReferenceIdeal.main_arg5) = _
  after_results_simp

theorem f_arg5_26 : Cert.ReferenceIdeal.Segs.U26 m' c (Proc.devRef .tc Cert.ReferenceIdeal.main_arg5) = Cert.ReferenceIdeal.Segs.U25 m' c (Proc.devRef .tc Cert.ReferenceIdeal.main_arg5) := by
  show StableHlo.after Cert.ReferenceIdeal.Segs.seg25 (Cert.ReferenceIdeal.Segs.U25 m' c) (Proc.devRef .tc Cert.ReferenceIdeal.main_arg5) = _
  after_results_simp

/-- No operation of the reference writes the argument `arg5`: after the whole program it is as launched. -/
theorem f_arg5_unchanged : Cert.ReferenceIdeal.Segs.U26 m' c (Proc.devRef .tc Cert.ReferenceIdeal.main_arg5) = m' ((c.tc : Thread Cert.ReferenceIdeal.nD Cert.ReferenceIdeal.τ).loc Cert.ReferenceIdeal.main_arg5) :=
  ((f_arg5_26 m' c).trans ((f_arg5_25 m' c).trans ((f_arg5_24 m' c).trans ((f_arg5_23 m' c).trans ((f_arg5_22 m' c).trans ((f_arg5_21 m' c).trans ((f_arg5_20 m' c).trans ((f_arg5_19 m' c).trans ((f_arg5_18 m' c).trans ((f_arg5_17 m' c).trans ((f_arg5_16 m' c).trans ((f_arg5_15 m' c).trans ((f_arg5_14 m' c).trans ((f_arg5_13 m' c).trans ((f_arg5_12 m' c).trans ((f_arg5_11 m' c).trans ((f_arg5_10 m' c).trans ((f_arg5_9 m' c).trans ((f_arg5_8 m' c).trans ((f_arg5_7 m' c).trans ((f_arg5_6 m' c).trans ((f_arg5_5 m' c).trans ((f_arg5_4 m' c).trans ((f_arg5_3 m' c).trans ((f_arg5_2 m' c).trans (f_arg5_1 m' c)))))))))))))))))))))))))).trans (Cert.ReferenceIdeal.Segs.U0_apply m' c Cert.ReferenceIdeal.main_arg5)

end Cert.ReferenceIdeal.FrameCarry

end
-- ==== Proof.RFrameC.lean ====
/-
  The reference writes none of its argument arrays: through each of its stretches an argument's buffer keeps its
  contents, so after the whole program every argument is as launched.
-/
import proofs.«168298_j84988812853302_1_alg».proof.Proof.RefSegs
import Idealize.ShloMosaic.PureOps.Ideal

set_option maxRecDepth 16384
set_option maxHeartbeats 4000000

noncomputable section

namespace Cert.ReferenceIdeal.FrameCarry

open Idealize.ShloMosaic Idealize.ShloMosaic.TcCoe Idealize.SL.Sem Idealize.ShloMosaic.StableHlo

variable (m' : (ℓ : Loc Cert.ReferenceIdeal.nD Cert.ReferenceIdeal.τ Cert.ReferenceIdeal.sig) → Buf (Elt Ideal) ℓ)
  (c : Dev Cert.ReferenceIdeal.nD)

theorem f_arg6_1 : Cert.ReferenceIdeal.Segs.U1 m' c (Proc.devRef .tc Cert.ReferenceIdeal.main_arg6) = Cert.ReferenceIdeal.Segs.U0 m' c (Proc.devRef .tc Cert.ReferenceIdeal.main_arg6) := by
  show StableHlo.after Cert.ReferenceIdeal.Segs.seg0 (Cert.ReferenceIdeal.Segs.U0 m' c) (Proc.devRef .tc Cert.ReferenceIdeal.main_arg6) = _
  after_results_simp

theorem f_arg6_2 : Cert.ReferenceIdeal.Segs.U2 m' c (Proc.devRef .tc Cert.ReferenceIdeal.main_arg6) = Cert.ReferenceIdeal.Segs.U1 m' c (Proc.devRef .tc Cert.ReferenceIdeal.main_arg6) := by
  show StableHlo.after Cert.ReferenceIdeal.Segs.seg1 (Cert.ReferenceIdeal.Segs.U1 m' c) (Proc.devRef .tc Cert.ReferenceIdeal.main_arg6) = _
  after_results_simp

theorem f_arg6_3 : Cert.ReferenceIdeal.Segs.U3 m' c (Proc.devRef .tc Cert.ReferenceIdeal.main_arg6) = Cert.ReferenceIdeal.Segs.U2 m' c (Proc.devRef .tc Cert.ReferenceIdeal.main_arg6) := by
  show StableHlo.after Cert.ReferenceIdeal.Segs.seg2 (Cert.ReferenceIdeal.Segs.U2 m' c) (Proc.devRef .tc Cert.ReferenceIdeal.main_arg6) = _
  after_results_simp

theorem f_arg6_4 : Cert.ReferenceIdeal.Segs.U4 m' c (Proc.devRef .tc Cert.ReferenceIdeal.main_arg6) = Cert.ReferenceIdeal.Segs.U3 m' c (Proc.devRef .tc Cert.ReferenceIdeal.main_arg6) := by
  show StableHlo.after Cert.ReferenceIdeal.Segs.seg3 (Cert.ReferenceIdeal.Segs.U3 m' c) (Proc.devRef .tc Cert.ReferenceIdeal.main_arg6) = _
  after_results_simp

theorem f_arg6_5 : Cert.ReferenceIdeal.Segs.U5 m' c (Proc.devRef .tc Cert.ReferenceIdeal.main_arg6) = Cert.ReferenceIdeal.Segs.U4 m' c (Proc.devRef .tc Cert.ReferenceIdeal.main_arg6) := by
  show StableHlo.after Cert.ReferenceIdeal.Segs.seg4 (Cert.ReferenceIdeal.Segs.U4 m' c) (Proc.devRef .tc Cert.ReferenceIdeal.main_arg6) = _
  after_results_simp

theorem f_arg6_6 : Cert.ReferenceIdeal.Segs.U6 m' c (Proc.devRef .tc Cert.ReferenceIdeal.main_arg6) = Cert.ReferenceIdeal.Segs.U5 m' c (Proc.devRef .tc Cert.ReferenceIdeal.main_arg6) := by
  show StableHlo.after Cert.ReferenceIdeal.Segs.seg5 (Cert.ReferenceIdeal.Segs.U5 m' c) (Proc.devRef .tc Cert.ReferenceIdeal.main_arg6) = _
  after_results_simp

theorem f_arg6_7 : Cert.ReferenceIdeal.Segs.U7 m' c (Proc.devRef .tc Cert.ReferenceIdeal.main_arg6) = Cert.ReferenceIdeal.Segs.U6 m' c (Proc.devRef .tc Cert.ReferenceIdeal.main_arg6) := by
  show StableHlo.after Cert.ReferenceIdeal.Segs.seg6 (Cert.ReferenceIdeal.Segs.U6 m' c) (Proc.devRef .tc Cert.ReferenceIdeal.main_arg6) = _
  after_results_simp

theorem f_arg6_8 : Cert.ReferenceIdeal.Segs.U8 m' c (Proc.devRef .tc Cert.ReferenceIdeal.main_arg6) = Cert.ReferenceIdeal.Segs.U7 m' c (Proc.devRef .tc Cert.ReferenceIdeal.main_arg6) := by
  show StableHlo.after Cert.ReferenceIdeal.Segs.seg7 (Cert.ReferenceIdeal.Segs.U7 m' c) (Proc.devRef .tc Cert.ReferenceIdeal.main_arg6) = _
  after_results_simp

theorem f_arg6_9 : Cert.ReferenceIdeal.Segs.U9 m' c (Proc.devRef .tc Cert.ReferenceIdeal.main_arg6) = Cert.ReferenceIdeal.Segs.U8 m' c (Proc.devRef .tc Cert.ReferenceIdeal.main_arg6) := by
  show StableHlo.after Cert.ReferenceIdeal.Segs.seg8 (Cert.ReferenceIdeal.Segs.U8 m' c) (Proc.devRef .tc Cert.ReferenceIdeal.main_arg6) = _
  after_results_simp

theorem f_arg6_10 : Cert.ReferenceIdeal.Segs.U10 m' c (Proc.devRef .tc Cert.ReferenceIdeal.main_arg6) = Cert.ReferenceIdeal.Segs.U9 m' c (Proc.devRef .tc Cert.ReferenceIdeal.main_arg6) := by
  show StableHlo.after Cert.ReferenceIdeal.Segs.seg9 (Cert.ReferenceIdeal.Segs.U9 m' c) (Proc.devRef .tc Cert.ReferenceIdeal.main_arg6) = _
  after_results_simp

theorem f_arg6_11 : Cert.ReferenceIdeal.Segs.U11 m' c (Proc.devRef .tc Cert.ReferenceIdeal.main_arg6) = Cert.ReferenceIdeal.Segs.U10 m' c (Proc.devRef .tc Cert.ReferenceIdeal.main_arg6) := by
  show StableHlo.after Cert.ReferenceIdeal.Segs.seg10 (Cert.ReferenceIdeal.Segs.U10 m' c) (Proc.devRef .tc Cert.ReferenceIdeal.main_arg6) = _
  after_results_simp

theorem f_arg6_12 : Cert.ReferenceIdeal.Segs.U12 m' c (Proc.devRef .tc Cert.ReferenceIdeal.main_arg6) = Cert.ReferenceIdeal.Segs.U11 m' c (Proc.devRef .tc Cert.ReferenceIdeal.main_arg6) := by
  show StableHlo.after Cert.ReferenceIdeal.Segs.seg11 (Cert.ReferenceIdeal.Segs.U11 m' c) (Proc.devRef .tc Cert.ReferenceIdeal.main_arg6) = _
  after_results_simp

theorem f_arg6_13 : Cert.ReferenceIdeal.Segs.U13 m' c (Proc.devRef .tc Cert.ReferenceIdeal.main_arg6) = Cert.ReferenceIdeal.Segs.U12 m' c (Proc.devRef .tc Cert.ReferenceIdeal.main_arg6) := by
  show StableHlo.after Cert.ReferenceIdeal.Segs.seg12 (Cert.ReferenceIdeal.Segs.U12 m' c) (Proc.devRef .tc Cert.ReferenceIdeal.main_arg6) = _
  after_results_simp

theorem f_arg6_14 : Cert.ReferenceIdeal.Segs.U14 m' c (Proc.devRef .tc Cert.ReferenceIdeal.main_arg6) = Cert.ReferenceIdeal.Segs.U13 m' c (Proc.devRef .tc Cert.ReferenceIdeal.main_arg6) := by
  show StableHlo.after Cert.ReferenceIdeal.Segs.seg13 (Cert.ReferenceIdeal.Segs.U13 m' c) (Proc.devRef .tc Cert.ReferenceIdeal.main_arg6) = _
  after_results_simp

theorem f_arg6_15 : Cert.ReferenceIdeal.Segs.U15 m' c (Proc.devRef .tc Cert.ReferenceIdeal.main_arg6) = Cert.ReferenceIdeal.Segs.U14 m' c (Proc.devRef .tc Cert.ReferenceIdeal.main_arg6) := by
  show StableHlo.after Cert.ReferenceIdeal.Segs.seg14 (Cert.ReferenceIdeal.Segs.U14 m' c) (Proc.devRef .tc Cert.ReferenceIdeal.main_arg6) = _
  after_results_simp

theorem f_arg6_16 : Cert.ReferenceIdeal.Segs.U16 m' c (Proc.devRef .tc Cert.ReferenceIdeal.main_arg6) = Cert.ReferenceIdeal.Segs.U15 m' c (Proc.devRef .tc Cert.ReferenceIdeal.main_arg6) := by
  show StableHlo.after Cert.ReferenceIdeal.Segs.seg15 (Cert.ReferenceIdeal.Segs.U15 m' c) (Proc.devRef .tc Cert.ReferenceIdeal.main_arg6) = _
  after_results_simp

theorem f_arg6_17 : Cert.ReferenceIdeal.Segs.U17 m' c (Proc.devRef .tc Cert.ReferenceIdeal.main_arg6) = Cert.ReferenceIdeal.Segs.U16 m' c (Proc.devRef .tc Cert.ReferenceIdeal.main_arg6) := by
  show StableHlo.after Cert.ReferenceIdeal.Segs.seg16 (Cert.ReferenceIdeal.Segs.U16 m' c) (Proc.devRef .tc Cert.ReferenceIdeal.main_arg6) = _
  after_results_simp

theorem f_arg6_18 : Cert.ReferenceIdeal.Segs.U18 m' c (Proc.devRef .tc Cert.ReferenceIdeal.main_arg6) = Cert.ReferenceIdeal.Segs.U17 m' c (Proc.devRef .tc Cert.ReferenceIdeal.main_arg6) := by
  show StableHlo.after Cert.ReferenceIdeal.Segs.seg17 (Cert.ReferenceIdeal.Segs.U17 m' c) (Proc.devRef .tc Cert.ReferenceIdeal.main_arg6) = _
  after_results_simp

theorem f_arg6_19 : Cert.ReferenceIdeal.Segs.U19 m' c (Proc.devRef .tc Cert.ReferenceIdeal.main_arg6) = Cert.ReferenceIdeal.Segs.U18 m' c (Proc.devRef .tc Cert.ReferenceIdeal.main_arg6) := by
  show StableHlo.after Cert.ReferenceIdeal.Segs.seg18 (Cert.ReferenceIdeal.Segs.U18 m' c) (Proc.devRef .tc Cert.ReferenceIdeal.main_arg6) = _
  after_results_simp

theorem f_arg6_20 : Cert.ReferenceIdeal.Segs.U20 m' c (Proc.devRef .tc Cert.ReferenceIdeal.main_arg6) = Cert.ReferenceIdeal.Segs.U19 m' c (Proc.devRef .tc Cert.ReferenceIdeal.main_arg6) := by
  show StableHlo.after Cert.ReferenceIdeal.Segs.seg19 (Cert.ReferenceIdeal.Segs.U19 m' c) (Proc.devRef .tc Cert.ReferenceIdeal.main_arg6) = _
  after_results_simp

theorem f_arg6_21 : Cert.ReferenceIdeal.Segs.U21 m' c (Proc.devRef .tc Cert.ReferenceIdeal.main_arg6) = Cert.ReferenceIdeal.Segs.U20 m' c (Proc.devRef .tc Cert.ReferenceIdeal.main_arg6) := by
  show StableHlo.after Cert.ReferenceIdeal.Segs.seg20 (Cert.ReferenceIdeal.Segs.U20 m' c) (Proc.devRef .tc Cert.ReferenceIdeal.main_arg6) = _
  after_results_simp

theorem f_arg6_22 : Cert.ReferenceIdeal.Segs.U22 m' c (Proc.devRef .tc Cert.ReferenceIdeal.main_arg6) = Cert.ReferenceIdeal.Segs.U21 m' c (Proc.devRef .tc Cert.ReferenceIdeal.main_arg6) := by
  show StableHlo.after Cert.ReferenceIdeal.Segs.seg21 (Cert.ReferenceIdeal.Segs.U21 m' c) (Proc.devRef .tc Cert.ReferenceIdeal.main_arg6) = _
  after_results_simp

theorem f_arg6_23 : Cert.ReferenceIdeal.Segs.U23 m' c (Proc.devRef .tc Cert.ReferenceIdeal.main_arg6) = Cert.ReferenceIdeal.Segs.U22 m' c (Proc.devRef .tc Cert.ReferenceIdeal.main_arg6) := by
  show StableHlo.after Cert.ReferenceIdeal.Segs.seg22 (Cert.ReferenceIdeal.Segs.U22 m' c) (Proc.devRef .tc Cert.ReferenceIdeal.main_arg6) = _
  after_results_simp

theorem f_arg6_24 : Cert.ReferenceIdeal.Segs.U24 m' c (Proc.devRef .tc Cert.ReferenceIdeal.main_arg6) = Cert.ReferenceIdeal.Segs.U23 m' c (Proc.devRef .tc Cert.ReferenceIdeal.main_arg6) := by
  show StableHlo.after Cert.ReferenceIdeal.Segs.seg23 (Cert.ReferenceIdeal.Segs.U23 m' c) (Proc.devRef .tc Cert.ReferenceIdeal.main_arg6) = _
  after_results_simp

theorem f_arg6_25 : Cert.ReferenceIdeal.Segs.U25 m' c (Proc.devRef .tc Cert.ReferenceIdeal.main_arg6) = Cert.ReferenceIdeal.Segs.U24 m' c (Proc.devRef .tc Cert.ReferenceIdeal.main_arg6) := by
  show StableHlo.after Cert.ReferenceIdeal.Segs.seg24 (Cert.ReferenceIdeal.Segs.U24 m' c) (Proc.devRef .tc Cert.ReferenceIdeal.main_arg6) = _
  after_results_simp

theorem f_arg6_26 : Cert.ReferenceIdeal.Segs.U26 m' c (Proc.devRef .tc Cert.ReferenceIdeal.main_arg6) = Cert.ReferenceIdeal.Segs.U25 m' c (Proc.devRef .tc Cert.ReferenceIdeal.main_arg6) := by
  show StableHlo.after Cert.ReferenceIdeal.Segs.seg25 (Cert.ReferenceIdeal.Segs.U25 m' c) (Proc.devRef .tc Cert.ReferenceIdeal.main_arg6) = _
  after_results_simp

/-- No operation of the reference writes the argument `arg6`: after the whole program it is as launched. -/
theorem f_arg6_unchanged : Cert.ReferenceIdeal.Segs.U26 m' c (Proc.devRef .tc Cert.ReferenceIdeal.main_arg6) = m' ((c.tc : Thread Cert.ReferenceIdeal.nD Cert.ReferenceIdeal.τ).loc Cert.ReferenceIdeal.main_arg6) :=
  ((f_arg6_26 m' c).trans ((f_arg6_25 m' c).trans ((f_arg6_24 m' c).trans ((f_arg6_23 m' c).trans ((f_arg6_22 m' c).trans ((f_arg6_21 m' c).trans ((f_arg6_20 m' c).trans ((f_arg6_19 m' c).trans ((f_arg6_18 m' c).trans ((f_arg6_17 m' c).trans ((f_arg6_16 m' c).trans ((f_arg6_15 m' c).trans ((f_arg6_14 m' c).trans ((f_arg6_13 m' c).trans ((f_arg6_12 m' c).trans ((f_arg6_11 m' c).trans ((f_arg6_10 m' c).trans ((f_arg6_9 m' c).trans ((f_arg6_8 m' c).trans ((f_arg6_7 m' c).trans ((f_arg6_6 m' c).trans ((f_arg6_5 m' c).trans ((f_arg6_4 m' c).trans ((f_arg6_3 m' c).trans ((f_arg6_2 m' c).trans (f_arg6_1 m' c)))))))))))))))))))))))))).trans (Cert.ReferenceIdeal.Segs.U0_apply m' c Cert.ReferenceIdeal.main_arg6)

theorem f_arg7_1 : Cert.ReferenceIdeal.Segs.U1 m' c (Proc.devRef .tc Cert.ReferenceIdeal.main_arg7) = Cert.ReferenceIdeal.Segs.U0 m' c (Proc.devRef .tc Cert.ReferenceIdeal.main_arg7) := by
  show StableHlo.after Cert.ReferenceIdeal.Segs.seg0 (Cert.ReferenceIdeal.Segs.U0 m' c) (Proc.devRef .tc Cert.ReferenceIdeal.main_arg7) = _
  after_results_simp

theorem f_arg7_2 : Cert.ReferenceIdeal.Segs.U2 m' c (Proc.devRef .tc Cert.ReferenceIdeal.main_arg7) = Cert.ReferenceIdeal.Segs.U1 m' c (Proc.devRef .tc Cert.ReferenceIdeal.main_arg7) := by
  show StableHlo.after Cert.ReferenceIdeal.Segs.seg1 (Cert.ReferenceIdeal.Segs.U1 m' c) (Proc.devRef .tc Cert.ReferenceIdeal.main_arg7) = _
  after_results_simp

theorem f_arg7_3 : Cert.ReferenceIdeal.Segs.U3 m' c (Proc.devRef .tc Cert.ReferenceIdeal.main_arg7) = Cert.ReferenceIdeal.Segs.U2 m' c (Proc.devRef .tc Cert.ReferenceIdeal.main_arg7) := by
  show StableHlo.after Cert.ReferenceIdeal.Segs.seg2 (Cert.ReferenceIdeal.Segs.U2 m' c) (Proc.devRef .tc Cert.ReferenceIdeal.main_arg7) = _
  after_results_simp

theorem f_arg7_4 : Cert.ReferenceIdeal.Segs.U4 m' c (Proc.devRef .tc Cert.ReferenceIdeal.main_arg7) = Cert.ReferenceIdeal.Segs.U3 m' c (Proc.devRef .tc Cert.ReferenceIdeal.main_arg7) := by
  show StableHlo.after Cert.ReferenceIdeal.Segs.seg3 (Cert.ReferenceIdeal.Segs.U3 m' c) (Proc.devRef .tc Cert.ReferenceIdeal.main_arg7) = _
  after_results_simp

theorem f_arg7_5 : Cert.ReferenceIdeal.Segs.U5 m' c (Proc.devRef .tc Cert.ReferenceIdeal.main_arg7) = Cert.ReferenceIdeal.Segs.U4 m' c (Proc.devRef .tc Cert.ReferenceIdeal.main_arg7) := by
  show StableHlo.after Cert.ReferenceIdeal.Segs.seg4 (Cert.ReferenceIdeal.Segs.U4 m' c) (Proc.devRef .tc Cert.ReferenceIdeal.main_arg7) = _
  after_results_simp

theorem f_arg7_6 : Cert.ReferenceIdeal.Segs.U6 m' c (Proc.devRef .tc Cert.ReferenceIdeal.main_arg7) = Cert.ReferenceIdeal.Segs.U5 m' c (Proc.devRef .tc Cert.ReferenceIdeal.main_arg7) := by
  show StableHlo.after Cert.ReferenceIdeal.Segs.seg5 (Cert.ReferenceIdeal.Segs.U5 m' c) (Proc.devRef .tc Cert.ReferenceIdeal.main_arg7) = _
  after_results_simp

theorem f_arg7_7 : Cert.ReferenceIdeal.Segs.U7 m' c (Proc.devRef .tc Cert.ReferenceIdeal.main_arg7) = Cert.ReferenceIdeal.Segs.U6 m' c (Proc.devRef .tc Cert.ReferenceIdeal.main_arg7) := by
  show StableHlo.after Cert.ReferenceIdeal.Segs.seg6 (Cert.ReferenceIdeal.Segs.U6 m' c) (Proc.devRef .tc Cert.ReferenceIdeal.main_arg7) = _
  after_results_simp

theorem f_arg7_8 : Cert.ReferenceIdeal.Segs.U8 m' c (Proc.devRef .tc Cert.ReferenceIdeal.main_arg7) = Cert.ReferenceIdeal.Segs.U7 m' c (Proc.devRef .tc Cert.ReferenceIdeal.main_arg7) := by
  show StableHlo.after Cert.ReferenceIdeal.Segs.seg7 (Cert.ReferenceIdeal.Segs.U7 m' c) (Proc.devRef .tc Cert.ReferenceIdeal.main_arg7) = _
  after_results_simp

theorem f_arg7_9 : Cert.ReferenceIdeal.Segs.U9 m' c (Proc.devRef .tc Cert.ReferenceIdeal.main_arg7) = Cert.ReferenceIdeal.Segs.U8 m' c (Proc.devRef .tc Cert.ReferenceIdeal.main_arg7) := by
  show StableHlo.after Cert.ReferenceIdeal.Segs.seg8 (Cert.ReferenceIdeal.Segs.U8 m' c) (Proc.devRef .tc Cert.ReferenceIdeal.main_arg7) = _
  after_results_simp

theorem f_arg7_10 : Cert.ReferenceIdeal.Segs.U10 m' c (Proc.devRef .tc Cert.ReferenceIdeal.main_arg7) = Cert.ReferenceIdeal.Segs.U9 m' c (Proc.devRef .tc Cert.ReferenceIdeal.main_arg7) := by
  show StableHlo.after Cert.ReferenceIdeal.Segs.seg9 (Cert.ReferenceIdeal.Segs.U9 m' c) (Proc.devRef .tc Cert.ReferenceIdeal.main_arg7) = _
  after_results_simp

theorem f_arg7_11 : Cert.ReferenceIdeal.Segs.U11 m' c (Proc.devRef .tc Cert.ReferenceIdeal.main_arg7) = Cert.ReferenceIdeal.Segs.U10 m' c (Proc.devRef .tc Cert.ReferenceIdeal.main_arg7) := by
  show StableHlo.after Cert.ReferenceIdeal.Segs.seg10 (Cert.ReferenceIdeal.Segs.U10 m' c) (Proc.devRef .tc Cert.ReferenceIdeal.main_arg7) = _
  after_results_simp

theorem f_arg7_12 : Cert.ReferenceIdeal.Segs.U12 m' c (Proc.devRef .tc Cert.ReferenceIdeal.main_arg7) = Cert.ReferenceIdeal.Segs.U11 m' c (Proc.devRef .tc Cert.ReferenceIdeal.main_arg7) := by
  show StableHlo.after Cert.ReferenceIdeal.Segs.seg11 (Cert.ReferenceIdeal.Segs.U11 m' c) (Proc.devRef .tc Cert.ReferenceIdeal.main_arg7) = _
  after_results_simp

theorem f_arg7_13 : Cert.ReferenceIdeal.Segs.U13 m' c (Proc.devRef .tc Cert.ReferenceIdeal.main_arg7) = Cert.ReferenceIdeal.Segs.U12 m' c (Proc.devRef .tc Cert.ReferenceIdeal.main_arg7) := by
  show StableHlo.after Cert.ReferenceIdeal.Segs.seg12 (Cert.ReferenceIdeal.Segs.U12 m' c) (Proc.devRef .tc Cert.ReferenceIdeal.main_arg7) = _
  after_results_simp

theorem f_arg7_14 : Cert.ReferenceIdeal.Segs.U14 m' c (Proc.devRef .tc Cert.ReferenceIdeal.main_arg7) = Cert.ReferenceIdeal.Segs.U13 m' c (Proc.devRef .tc Cert.ReferenceIdeal.main_arg7) := by
  show StableHlo.after Cert.ReferenceIdeal.Segs.seg13 (Cert.ReferenceIdeal.Segs.U13 m' c) (Proc.devRef .tc Cert.ReferenceIdeal.main_arg7) = _
  after_results_simp

theorem f_arg7_15 : Cert.ReferenceIdeal.Segs.U15 m' c (Proc.devRef .tc Cert.ReferenceIdeal.main_arg7) = Cert.ReferenceIdeal.Segs.U14 m' c (Proc.devRef .tc Cert.ReferenceIdeal.main_arg7) := by
  show StableHlo.after Cert.ReferenceIdeal.Segs.seg14 (Cert.ReferenceIdeal.Segs.U14 m' c) (Proc.devRef .tc Cert.ReferenceIdeal.main_arg7) = _
  after_results_simp

theorem f_arg7_16 : Cert.ReferenceIdeal.Segs.U16 m' c (Proc.devRef .tc Cert.ReferenceIdeal.main_arg7) = Cert.ReferenceIdeal.Segs.U15 m' c (Proc.devRef .tc Cert.ReferenceIdeal.main_arg7) := by
  show StableHlo.after Cert.ReferenceIdeal.Segs.seg15 (Cert.ReferenceIdeal.Segs.U15 m' c) (Proc.devRef .tc Cert.ReferenceIdeal.main_arg7) = _
  after_results_simp

theorem f_arg7_17 : Cert.ReferenceIdeal.Segs.U17 m' c (Proc.devRef .tc Cert.ReferenceIdeal.main_arg7) = Cert.ReferenceIdeal.Segs.U16 m' c (Proc.devRef .tc Cert.ReferenceIdeal.main_arg7) := by
  show StableHlo.after Cert.ReferenceIdeal.Segs.seg16 (Cert.ReferenceIdeal.Segs.U16 m' c) (Proc.devRef .tc Cert.ReferenceIdeal.main_arg7) = _
  after_results_simp

theorem f_arg7_18 : Cert.ReferenceIdeal.Segs.U18 m' c (Proc.devRef .tc Cert.ReferenceIdeal.main_arg7) = Cert.ReferenceIdeal.Segs.U17 m' c (Proc.devRef .tc Cert.ReferenceIdeal.main_arg7) := by
  show StableHlo.after Cert.ReferenceIdeal.Segs.seg17 (Cert.ReferenceIdeal.Segs.U17 m' c) (Proc.devRef .tc Cert.ReferenceIdeal.main_arg7) = _
  after_results_simp

theorem f_arg7_19 : Cert.ReferenceIdeal.Segs.U19 m' c (Proc.devRef .tc Cert.ReferenceIdeal.main_arg7) = Cert.ReferenceIdeal.Segs.U18 m' c (Proc.devRef .tc Cert.ReferenceIdeal.main_arg7) := by
  show StableHlo.after Cert.ReferenceIdeal.Segs.seg18 (Cert.ReferenceIdeal.Segs.U18 m' c) (Proc.devRef .tc Cert.ReferenceIdeal.main_arg7) = _
  after_results_simp

theorem f_arg7_20 : Cert.ReferenceIdeal.Segs.U20 m' c (Proc.devRef .tc Cert.ReferenceIdeal.main_arg7) = Cert.ReferenceIdeal.Segs.U19 m' c (Proc.devRef .tc Cert.ReferenceIdeal.main_arg7) := by
  show StableHlo.after Cert.ReferenceIdeal.Segs.seg19 (Cert.ReferenceIdeal.Segs.U19 m' c) (Proc.devRef .tc Cert.ReferenceIdeal.main_arg7) = _
  after_results_simp

theorem f_arg7_21 : Cert.ReferenceIdeal.Segs.U21 m' c (Proc.devRef .tc Cert.ReferenceIdeal.main_arg7) = Cert.ReferenceIdeal.Segs.U20 m' c (Proc.devRef .tc Cert.ReferenceIdeal.main_arg7) := by
  show StableHlo.after Cert.ReferenceIdeal.Segs.seg20 (Cert.ReferenceIdeal.Segs.U20 m' c) (Proc.devRef .tc Cert.ReferenceIdeal.main_arg7) = _
  after_results_simp

theorem f_arg7_22 : Cert.ReferenceIdeal.Segs.U22 m' c (Proc.devRef .tc Cert.ReferenceIdeal.main_arg7) = Cert.ReferenceIdeal.Segs.U21 m' c (Proc.devRef .tc Cert.ReferenceIdeal.main_arg7) := by
  show StableHlo.after Cert.ReferenceIdeal.Segs.seg21 (Cert.ReferenceIdeal.Segs.U21 m' c) (Proc.devRef .tc Cert.ReferenceIdeal.main_arg7) = _
  after_results_simp

theorem f_arg7_23 : Cert.ReferenceIdeal.Segs.U23 m' c (Proc.devRef .tc Cert.ReferenceIdeal.main_arg7) = Cert.ReferenceIdeal.Segs.U22 m' c (Proc.devRef .tc Cert.ReferenceIdeal.main_arg7) := by
  show StableHlo.after Cert.ReferenceIdeal.Segs.seg22 (Cert.ReferenceIdeal.Segs.U22 m' c) (Proc.devRef .tc Cert.ReferenceIdeal.main_arg7) = _
  after_results_simp

theorem f_arg7_24 : Cert.ReferenceIdeal.Segs.U24 m' c (Proc.devRef .tc Cert.ReferenceIdeal.main_arg7) = Cert.ReferenceIdeal.Segs.U23 m' c (Proc.devRef .tc Cert.ReferenceIdeal.main_arg7) := by
  show StableHlo.after Cert.ReferenceIdeal.Segs.seg23 (Cert.ReferenceIdeal.Segs.U23 m' c) (Proc.devRef .tc Cert.ReferenceIdeal.main_arg7) = _
  after_results_simp

theorem f_arg7_25 : Cert.ReferenceIdeal.Segs.U25 m' c (Proc.devRef .tc Cert.ReferenceIdeal.main_arg7) = Cert.ReferenceIdeal.Segs.U24 m' c (Proc.devRef .tc Cert.ReferenceIdeal.main_arg7) := by
  show StableHlo.after Cert.ReferenceIdeal.Segs.seg24 (Cert.ReferenceIdeal.Segs.U24 m' c) (Proc.devRef .tc Cert.ReferenceIdeal.main_arg7) = _
  after_results_simp

theorem f_arg7_26 : Cert.ReferenceIdeal.Segs.U26 m' c (Proc.devRef .tc Cert.ReferenceIdeal.main_arg7) = Cert.ReferenceIdeal.Segs.U25 m' c (Proc.devRef .tc Cert.ReferenceIdeal.main_arg7) := by
  show StableHlo.after Cert.ReferenceIdeal.Segs.seg25 (Cert.ReferenceIdeal.Segs.U25 m' c) (Proc.devRef .tc Cert.ReferenceIdeal.main_arg7) = _
  after_results_simp

/-- No operation of the reference writes the argument `arg7`: after the whole program it is as launched. -/
theorem f_arg7_unchanged : Cert.ReferenceIdeal.Segs.U26 m' c (Proc.devRef .tc Cert.ReferenceIdeal.main_arg7) = m' ((c.tc : Thread Cert.ReferenceIdeal.nD Cert.ReferenceIdeal.τ).loc Cert.ReferenceIdeal.main_arg7) :=
  ((f_arg7_26 m' c).trans ((f_arg7_25 m' c).trans ((f_arg7_24 m' c).trans ((f_arg7_23 m' c).trans ((f_arg7_22 m' c).trans ((f_arg7_21 m' c).trans ((f_arg7_20 m' c).trans ((f_arg7_19 m' c).trans ((f_arg7_18 m' c).trans ((f_arg7_17 m' c).trans ((f_arg7_16 m' c).trans ((f_arg7_15 m' c).trans ((f_arg7_14 m' c).trans ((f_arg7_13 m' c).trans ((f_arg7_12 m' c).trans ((f_arg7_11 m' c).trans ((f_arg7_10 m' c).trans ((f_arg7_9 m' c).trans ((f_arg7_8 m' c).trans ((f_arg7_7 m' c).trans ((f_arg7_6 m' c).trans ((f_arg7_5 m' c).trans ((f_arg7_4 m' c).trans ((f_arg7_3 m' c).trans ((f_arg7_2 m' c).trans (f_arg7_1 m' c)))))))))))))))))))))))))).trans (Cert.ReferenceIdeal.Segs.U0_apply m' c Cert.ReferenceIdeal.main_arg7)

theorem f_arg8_1 : Cert.ReferenceIdeal.Segs.U1 m' c (Proc.devRef .tc Cert.ReferenceIdeal.main_arg8) = Cert.ReferenceIdeal.Segs.U0 m' c (Proc.devRef .tc Cert.ReferenceIdeal.main_arg8) := by
  show StableHlo.after Cert.ReferenceIdeal.Segs.seg0 (Cert.ReferenceIdeal.Segs.U0 m' c) (Proc.devRef .tc Cert.ReferenceIdeal.main_arg8) = _
  after_results_simp

theorem f_arg8_2 : Cert.ReferenceIdeal.Segs.U2 m' c (Proc.devRef .tc Cert.ReferenceIdeal.main_arg8) = Cert.ReferenceIdeal.Segs.U1 m' c (Proc.devRef .tc Cert.ReferenceIdeal.main_arg8) := by
  show StableHlo.after Cert.ReferenceIdeal.Segs.seg1 (Cert.ReferenceIdeal.Segs.U1 m' c) (Proc.devRef .tc Cert.ReferenceIdeal.main_arg8) = _
  after_results_simp

theorem f_arg8_3 : Cert.ReferenceIdeal.Segs.U3 m' c (Proc.devRef .tc Cert.ReferenceIdeal.main_arg8) = Cert.ReferenceIdeal.Segs.U2 m' c (Proc.devRef .tc Cert.ReferenceIdeal.main_arg8) := by
  show StableHlo.after Cert.ReferenceIdeal.Segs.seg2 (Cert.ReferenceIdeal.Segs.U2 m' c) (Proc.devRef .tc Cert.ReferenceIdeal.main_arg8) = _
  after_results_simp

theorem f_arg8_4 : Cert.ReferenceIdeal.Segs.U4 m' c (Proc.devRef .tc Cert.ReferenceIdeal.main_arg8) = Cert.ReferenceIdeal.Segs.U3 m' c (Proc.devRef .tc Cert.ReferenceIdeal.main_arg8) := by
  show StableHlo.after Cert.ReferenceIdeal.Segs.seg3 (Cert.ReferenceIdeal.Segs.U3 m' c) (Proc.devRef .tc Cert.ReferenceIdeal.main_arg8) = _
  after_results_simp

theorem f_arg8_5 : Cert.ReferenceIdeal.Segs.U5 m' c (Proc.devRef .tc Cert.ReferenceIdeal.main_arg8) = Cert.ReferenceIdeal.Segs.U4 m' c (Proc.devRef .tc Cert.ReferenceIdeal.main_arg8) := by
  show StableHlo.after Cert.ReferenceIdeal.Segs.seg4 (Cert.ReferenceIdeal.Segs.U4 m' c) (Proc.devRef .tc Cert.ReferenceIdeal.main_arg8) = _
  after_results_simp

theorem f_arg8_6 : Cert.ReferenceIdeal.Segs.U6 m' c (Proc.devRef .tc Cert.ReferenceIdeal.main_arg8) = Cert.ReferenceIdeal.Segs.U5 m' c (Proc.devRef .tc Cert.ReferenceIdeal.main_arg8) := by
  show StableHlo.after Cert.ReferenceIdeal.Segs.seg5 (Cert.ReferenceIdeal.Segs.U5 m' c) (Proc.devRef .tc Cert.ReferenceIdeal.main_arg8) = _
  after_results_simp

theorem f_arg8_7 : Cert.ReferenceIdeal.Segs.U7 m' c (Proc.devRef .tc Cert.ReferenceIdeal.main_arg8) = Cert.ReferenceIdeal.Segs.U6 m' c (Proc.devRef .tc Cert.ReferenceIdeal.main_arg8) := by
  show StableHlo.after Cert.ReferenceIdeal.Segs.seg6 (Cert.ReferenceIdeal.Segs.U6 m' c) (Proc.devRef .tc Cert.ReferenceIdeal.main_arg8) = _
  after_results_simp

theorem f_arg8_8 : Cert.ReferenceIdeal.Segs.U8 m' c (Proc.devRef .tc Cert.ReferenceIdeal.main_arg8) = Cert.ReferenceIdeal.Segs.U7 m' c (Proc.devRef .tc Cert.ReferenceIdeal.main_arg8) := by
  show StableHlo.after Cert.ReferenceIdeal.Segs.seg7 (Cert.ReferenceIdeal.Segs.U7 m' c) (Proc.devRef .tc Cert.ReferenceIdeal.main_arg8) = _
  after_results_simp

theorem f_arg8_9 : Cert.ReferenceIdeal.Segs.U9 m' c (Proc.devRef .tc Cert.ReferenceIdeal.main_arg8) = Cert.ReferenceIdeal.Segs.U8 m' c (Proc.devRef .tc Cert.ReferenceIdeal.main_arg8) := by
  show StableHlo.after Cert.ReferenceIdeal.Segs.seg8 (Cert.ReferenceIdeal.Segs.U8 m' c) (Proc.devRef .tc Cert.ReferenceIdeal.main_arg8) = _
  after_results_simp

theorem f_arg8_10 : Cert.ReferenceIdeal.Segs.U10 m' c (Proc.devRef .tc Cert.ReferenceIdeal.main_arg8) = Cert.ReferenceIdeal.Segs.U9 m' c (Proc.devRef .tc Cert.ReferenceIdeal.main_arg8) := by
  show StableHlo.after Cert.ReferenceIdeal.Segs.seg9 (Cert.ReferenceIdeal.Segs.U9 m' c) (Proc.devRef .tc Cert.ReferenceIdeal.main_arg8) = _
  after_results_simp

theorem f_arg8_11 : Cert.ReferenceIdeal.Segs.U11 m' c (Proc.devRef .tc Cert.ReferenceIdeal.main_arg8) = Cert.ReferenceIdeal.Segs.U10 m' c (Proc.devRef .tc Cert.ReferenceIdeal.main_arg8) := by
  show StableHlo.after Cert.ReferenceIdeal.Segs.seg10 (Cert.ReferenceIdeal.Segs.U10 m' c) (Proc.devRef .tc Cert.ReferenceIdeal.main_arg8) = _
  after_results_simp

theorem f_arg8_12 : Cert.ReferenceIdeal.Segs.U12 m' c (Proc.devRef .tc Cert.ReferenceIdeal.main_arg8) = Cert.ReferenceIdeal.Segs.U11 m' c (Proc.devRef .tc Cert.ReferenceIdeal.main_arg8) := by
  show StableHlo.after Cert.ReferenceIdeal.Segs.seg11 (Cert.ReferenceIdeal.Segs.U11 m' c) (Proc.devRef .tc Cert.ReferenceIdeal.main_arg8) = _
  after_results_simp

theorem f_arg8_13 : Cert.ReferenceIdeal.Segs.U13 m' c (Proc.devRef .tc Cert.ReferenceIdeal.main_arg8) = Cert.ReferenceIdeal.Segs.U12 m' c (Proc.devRef .tc Cert.ReferenceIdeal.main_arg8) := by
  show StableHlo.after Cert.ReferenceIdeal.Segs.seg12 (Cert.ReferenceIdeal.Segs.U12 m' c) (Proc.devRef .tc Cert.ReferenceIdeal.main_arg8) = _
  after_results_simp

theorem f_arg8_14 : Cert.ReferenceIdeal.Segs.U14 m' c (Proc.devRef .tc Cert.ReferenceIdeal.main_arg8) = Cert.ReferenceIdeal.Segs.U13 m' c (Proc.devRef .tc Cert.ReferenceIdeal.main_arg8) := by
  show StableHlo.after Cert.ReferenceIdeal.Segs.seg13 (Cert.ReferenceIdeal.Segs.U13 m' c) (Proc.devRef .tc Cert.ReferenceIdeal.main_arg8) = _
  after_results_simp

theorem f_arg8_15 : Cert.ReferenceIdeal.Segs.U15 m' c (Proc.devRef .tc Cert.ReferenceIdeal.main_arg8) = Cert.ReferenceIdeal.Segs.U14 m' c (Proc.devRef .tc Cert.ReferenceIdeal.main_arg8) := by
  show StableHlo.after Cert.ReferenceIdeal.Segs.seg14 (Cert.ReferenceIdeal.Segs.U14 m' c) (Proc.devRef .tc Cert.ReferenceIdeal.main_arg8) = _
  after_results_simp

theorem f_arg8_16 : Cert.ReferenceIdeal.Segs.U16 m' c (Proc.devRef .tc Cert.ReferenceIdeal.main_arg8) = Cert.ReferenceIdeal.Segs.U15 m' c (Proc.devRef .tc Cert.ReferenceIdeal.main_arg8) := by
  show StableHlo.after Cert.ReferenceIdeal.Segs.seg15 (Cert.ReferenceIdeal.Segs.U15 m' c) (Proc.devRef .tc Cert.ReferenceIdeal.main_arg8) = _
  after_results_simp

theorem f_arg8_17 : Cert.ReferenceIdeal.Segs.U17 m' c (Proc.devRef .tc Cert.ReferenceIdeal.main_arg8) = Cert.ReferenceIdeal.Segs.U16 m' c (Proc.devRef .tc Cert.ReferenceIdeal.main_arg8) := by
  show StableHlo.after Cert.ReferenceIdeal.Segs.seg16 (Cert.ReferenceIdeal.Segs.U16 m' c) (Proc.devRef .tc Cert.ReferenceIdeal.main_arg8) = _
  after_results_simp

theorem f_arg8_18 : Cert.ReferenceIdeal.Segs.U18 m' c (Proc.devRef .tc Cert.ReferenceIdeal.main_arg8) = Cert.ReferenceIdeal.Segs.U17 m' c (Proc.devRef .tc Cert.ReferenceIdeal.main_arg8) := by
  show StableHlo.after Cert.ReferenceIdeal.Segs.seg17 (Cert.ReferenceIdeal.Segs.U17 m' c) (Proc.devRef .tc Cert.ReferenceIdeal.main_arg8) = _
  after_results_simp

theorem f_arg8_19 : Cert.ReferenceIdeal.Segs.U19 m' c (Proc.devRef .tc Cert.ReferenceIdeal.main_arg8) = Cert.ReferenceIdeal.Segs.U18 m' c (Proc.devRef .tc Cert.ReferenceIdeal.main_arg8) := by
  show StableHlo.after Cert.ReferenceIdeal.Segs.seg18 (Cert.ReferenceIdeal.Segs.U18 m' c) (Proc.devRef .tc Cert.ReferenceIdeal.main_arg8) = _
  after_results_simp

theorem f_arg8_20 : Cert.ReferenceIdeal.Segs.U20 m' c (Proc.devRef .tc Cert.ReferenceIdeal.main_arg8) = Cert.ReferenceIdeal.Segs.U19 m' c (Proc.devRef .tc Cert.ReferenceIdeal.main_arg8) := by
  show StableHlo.after Cert.ReferenceIdeal.Segs.seg19 (Cert.ReferenceIdeal.Segs.U19 m' c) (Proc.devRef .tc Cert.ReferenceIdeal.main_arg8) = _
  after_results_simp

theorem f_arg8_21 : Cert.ReferenceIdeal.Segs.U21 m' c (Proc.devRef .tc Cert.ReferenceIdeal.main_arg8) = Cert.ReferenceIdeal.Segs.U20 m' c (Proc.devRef .tc Cert.ReferenceIdeal.main_arg8) := by
  show StableHlo.after Cert.ReferenceIdeal.Segs.seg20 (Cert.ReferenceIdeal.Segs.U20 m' c) (Proc.devRef .tc Cert.ReferenceIdeal.main_arg8) = _
  after_results_simp

theorem f_arg8_22 : Cert.ReferenceIdeal.Segs.U22 m' c (Proc.devRef .tc Cert.ReferenceIdeal.main_arg8) = Cert.ReferenceIdeal.Segs.U21 m' c (Proc.devRef .tc Cert.ReferenceIdeal.main_arg8) := by
  show StableHlo.after Cert.ReferenceIdeal.Segs.seg21 (Cert.ReferenceIdeal.Segs.U21 m' c) (Proc.devRef .tc Cert.ReferenceIdeal.main_arg8) = _
  after_results_simp

theorem f_arg8_23 : Cert.ReferenceIdeal.Segs.U23 m' c (Proc.devRef .tc Cert.ReferenceIdeal.main_arg8) = Cert.ReferenceIdeal.Segs.U22 m' c (Proc.devRef .tc Cert.ReferenceIdeal.main_arg8) := by
  show StableHlo.after Cert.ReferenceIdeal.Segs.seg22 (Cert.ReferenceIdeal.Segs.U22 m' c) (Proc.devRef .tc Cert.ReferenceIdeal.main_arg8) = _
  after_results_simp

theorem f_arg8_24 : Cert.ReferenceIdeal.Segs.U24 m' c (Proc.devRef .tc Cert.ReferenceIdeal.main_arg8) = Cert.ReferenceIdeal.Segs.U23 m' c (Proc.devRef .tc Cert.ReferenceIdeal.main_arg8) := by
  show StableHlo.after Cert.ReferenceIdeal.Segs.seg23 (Cert.ReferenceIdeal.Segs.U23 m' c) (Proc.devRef .tc Cert.ReferenceIdeal.main_arg8) = _
  after_results_simp

theorem f_arg8_25 : Cert.ReferenceIdeal.Segs.U25 m' c (Proc.devRef .tc Cert.ReferenceIdeal.main_arg8) = Cert.ReferenceIdeal.Segs.U24 m' c (Proc.devRef .tc Cert.ReferenceIdeal.main_arg8) := by
  show StableHlo.after Cert.ReferenceIdeal.Segs.seg24 (Cert.ReferenceIdeal.Segs.U24 m' c) (Proc.devRef .tc Cert.ReferenceIdeal.main_arg8) = _
  after_results_simp

theorem f_arg8_26 : Cert.ReferenceIdeal.Segs.U26 m' c (Proc.devRef .tc Cert.ReferenceIdeal.main_arg8) = Cert.ReferenceIdeal.Segs.U25 m' c (Proc.devRef .tc Cert.ReferenceIdeal.main_arg8) := by
  show StableHlo.after Cert.ReferenceIdeal.Segs.seg25 (Cert.ReferenceIdeal.Segs.U25 m' c) (Proc.devRef .tc Cert.ReferenceIdeal.main_arg8) = _
  after_results_simp

/-- No operation of the reference writes the argument `arg8`: after the whole program it is as launched. -/
theorem f_arg8_unchanged : Cert.ReferenceIdeal.Segs.U26 m' c (Proc.devRef .tc Cert.ReferenceIdeal.main_arg8) = m' ((c.tc : Thread Cert.ReferenceIdeal.nD Cert.ReferenceIdeal.τ).loc Cert.ReferenceIdeal.main_arg8) :=
  ((f_arg8_26 m' c).trans ((f_arg8_25 m' c).trans ((f_arg8_24 m' c).trans ((f_arg8_23 m' c).trans ((f_arg8_22 m' c).trans ((f_arg8_21 m' c).trans ((f_arg8_20 m' c).trans ((f_arg8_19 m' c).trans ((f_arg8_18 m' c).trans ((f_arg8_17 m' c).trans ((f_arg8_16 m' c).trans ((f_arg8_15 m' c).trans ((f_arg8_14 m' c).trans ((f_arg8_13 m' c).trans ((f_arg8_12 m' c).trans ((f_arg8_11 m' c).trans ((f_arg8_10 m' c).trans ((f_arg8_9 m' c).trans ((f_arg8_8 m' c).trans ((f_arg8_7 m' c).trans ((f_arg8_6 m' c).trans ((f_arg8_5 m' c).trans ((f_arg8_4 m' c).trans ((f_arg8_3 m' c).trans ((f_arg8_2 m' c).trans (f_arg8_1 m' c)))))))))))))))))))))))))).trans (Cert.ReferenceIdeal.Segs.U0_apply m' c Cert.ReferenceIdeal.main_arg8)

end Cert.ReferenceIdeal.FrameCarry

end
-- ==== Proof.KCarryEdges.lean ====
/-
  Buffers of the idealized kernel that later stretches read long after they were written (the edge lists, the
  per-edge normalisation, the argument arrays): between the boundary where such a buffer is written and the boundary
  where it is read, no host operation writes it and no region has it among its arrays, so its contents are the same
  at both. One equation per boundary crossed, then their compositions.
-/
import proofs.«168298_j84988812853302_1_alg».proof.Proof.Gen.KernelIdeal.Frame
import Idealize.ShloMosaic.Lib.StableHlo.Run
import Idealize.ShloMosaic.PureOps.Ideal

set_option maxRecDepth 16384
set_option maxHeartbeats 4000000

noncomputable section

namespace Cert.KernelIdeal.Carry

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

theorem k_v3_4 : Cert.KernelIdeal.Gen.W4 m ρ c (Proc.devRef .tc Cert.KernelIdeal.main_v3) = Cert.KernelIdeal.Gen.W3 m ρ c (Proc.devRef .tc Cert.KernelIdeal.main_v3) :=
  Cert.KernelIdeal.Gen.W4_of_ne m ρ c Cert.KernelIdeal.main_v3 (by decide)

theorem k_v3_5 : Cert.KernelIdeal.Gen.W5 m ρ c (Proc.devRef .tc Cert.KernelIdeal.main_v3) = Cert.KernelIdeal.Gen.W4 m ρ c (Proc.devRef .tc Cert.KernelIdeal.main_v3) := by
  show StableHlo.after Cert.KernelIdeal.Gen.hostOps1 (Cert.KernelIdeal.Gen.W4 m ρ c) (Proc.devRef .tc Cert.KernelIdeal.main_v3) = _
  after_results_simp

theorem k_v3_6 : Cert.KernelIdeal.Gen.W6 m ρ c (Proc.devRef .tc Cert.KernelIdeal.main_v3) = Cert.KernelIdeal.Gen.W5 m ρ c (Proc.devRef .tc Cert.KernelIdeal.main_v3) :=
  Cert.KernelIdeal.Gen.W6_of_ne m ρ c Cert.KernelIdeal.main_v3 (by decide)

theorem k_v3_7 : Cert.KernelIdeal.Gen.W7 m ρ c (Proc.devRef .tc Cert.KernelIdeal.main_v3) = Cert.KernelIdeal.Gen.W6 m ρ c (Proc.devRef .tc Cert.KernelIdeal.main_v3) := by
  show StableHlo.after Cert.KernelIdeal.Gen.hostOps2 (Cert.KernelIdeal.Gen.W6 m ρ c) (Proc.devRef .tc Cert.KernelIdeal.main_v3) = _
  after_results_simp

theorem k_v3_8 : Cert.KernelIdeal.Gen.W8 m ρ c (Proc.devRef .tc Cert.KernelIdeal.main_v3) = Cert.KernelIdeal.Gen.W7 m ρ c (Proc.devRef .tc Cert.KernelIdeal.main_v3) :=
  Cert.KernelIdeal.Gen.W8_of_ne m ρ c Cert.KernelIdeal.main_v3 (by decide)

theorem k_v3_9 : Cert.KernelIdeal.Gen.W9 m ρ c (Proc.devRef .tc Cert.KernelIdeal.main_v3) = Cert.KernelIdeal.Gen.W8 m ρ c (Proc.devRef .tc Cert.KernelIdeal.main_v3) := by
  show StableHlo.after Cert.KernelIdeal.Gen.hostOps3 (Cert.KernelIdeal.Gen.W8 m ρ c) (Proc.devRef .tc Cert.KernelIdeal.main_v3) = _
  after_results_simp

theorem k_v3_10 : Cert.KernelIdeal.Gen.W10 m ρ c (Proc.devRef .tc Cert.KernelIdeal.main_v3) = Cert.KernelIdeal.Gen.W9 m ρ c (Proc.devRef .tc Cert.KernelIdeal.main_v3) :=
  Cert.KernelIdeal.Gen.W10_of_ne m ρ c Cert.KernelIdeal.main_v3 (by decide)

theorem k_v3_11 : Cert.KernelIdeal.Gen.W11 m ρ c (Proc.devRef .tc Cert.KernelIdeal.main_v3) = Cert.KernelIdeal.Gen.W10 m ρ c (Proc.devRef .tc Cert.KernelIdeal.main_v3) := by
  show StableHlo.after Cert.KernelIdeal.Gen.hostOps4 (Cert.KernelIdeal.Gen.W10 m ρ c) (Proc.devRef .tc Cert.KernelIdeal.main_v3) = _
  after_results_simp

theorem k_v3_12 : Cert.KernelIdeal.Gen.W12 m ρ c (Proc.devRef .tc Cert.KernelIdeal.main_v3) = Cert.KernelIdeal.Gen.W11 m ρ c (Proc.devRef .tc Cert.KernelIdeal.main_v3) :=
  Cert.KernelIdeal.Gen.W12_of_ne m ρ c Cert.KernelIdeal.main_v3 (by decide)

theorem k_v3_13 : Cert.KernelIdeal.Gen.W13 m ρ c (Proc.devRef .tc Cert.KernelIdeal.main_v3) = Cert.KernelIdeal.Gen.W12 m ρ c (Proc.devRef .tc Cert.KernelIdeal.main_v3) := by
  show StableHlo.after Cert.KernelIdeal.Gen.hostOps5 (Cert.KernelIdeal.Gen.W12 m ρ c) (Proc.devRef .tc Cert.KernelIdeal.main_v3) = _
  after_results_simp

theorem k_v3_14 : Cert.KernelIdeal.Gen.W14 m ρ c (Proc.devRef .tc Cert.KernelIdeal.main_v3) = Cert.KernelIdeal.Gen.W13 m ρ c (Proc.devRef .tc Cert.KernelIdeal.main_v3) :=
  Cert.KernelIdeal.Gen.W14_of_ne m ρ c Cert.KernelIdeal.main_v3 (by decide)

theorem k_v3_15 : Cert.KernelIdeal.Gen.W15 m ρ c (Proc.devRef .tc Cert.KernelIdeal.main_v3) = Cert.KernelIdeal.Gen.W14 m ρ c (Proc.devRef .tc Cert.KernelIdeal.main_v3) := by
  show StableHlo.after Cert.KernelIdeal.Gen.hostOps6 (Cert.KernelIdeal.Gen.W14 m ρ c) (Proc.devRef .tc Cert.KernelIdeal.main_v3) = _
  after_results_simp

theorem k_v3_16 : Cert.KernelIdeal.Gen.W16 m ρ c (Proc.devRef .tc Cert.KernelIdeal.main_v3) = Cert.KernelIdeal.Gen.W15 m ρ c (Proc.devRef .tc Cert.KernelIdeal.main_v3) :=
  Cert.KernelIdeal.Gen.W16_of_ne m ρ c Cert.KernelIdeal.main_v3 (by decide)

theorem k_v3_17 : Cert.KernelIdeal.Gen.W17 m ρ c (Proc.devRef .tc Cert.KernelIdeal.main_v3) = Cert.KernelIdeal.Gen.W16 m ρ c (Proc.devRef .tc Cert.KernelIdeal.main_v3) := by
  show StableHlo.after Cert.KernelIdeal.Gen.hostOps7 (Cert.KernelIdeal.Gen.W16 m ρ c) (Proc.devRef .tc Cert.KernelIdeal.main_v3) = _
  after_results_simp

theorem k_v3_18 : Cert.KernelIdeal.Gen.W18 m ρ c (Proc.devRef .tc Cert.KernelIdeal.main_v3) = Cert.KernelIdeal.Gen.W17 m ρ c (Proc.devRef .tc Cert.KernelIdeal.main_v3) :=
  Cert.KernelIdeal.Gen.W18_of_ne m ρ c Cert.KernelIdeal.main_v3 (by decide)

theorem k_v3_19 : Cert.KernelIdeal.Gen.W19 m ρ c (Proc.devRef .tc Cert.KernelIdeal.main_v3) = Cert.KernelIdeal.Gen.W18 m ρ c (Proc.devRef .tc Cert.KernelIdeal.main_v3) := by
  show StableHlo.after Cert.KernelIdeal.Gen.hostOps8 (Cert.KernelIdeal.Gen.W18 m ρ c) (Proc.devRef .tc Cert.KernelIdeal.main_v3) = _
  after_results_simp

theorem k_v3_20 : Cert.KernelIdeal.Gen.W20 m ρ c (Proc.devRef .tc Cert.KernelIdeal.main_v3) = Cert.KernelIdeal.Gen.W19 m ρ c (Proc.devRef .tc Cert.KernelIdeal.main_v3) :=
  Cert.KernelIdeal.Gen.W20_of_ne m ρ c Cert.KernelIdeal.main_v3 (by decide)

theorem k_v3_21 : Cert.KernelIdeal.Gen.W21 m ρ c (Proc.devRef .tc Cert.KernelIdeal.main_v3) = Cert.KernelIdeal.Gen.W20 m ρ c (Proc.devRef .tc Cert.KernelIdeal.main_v3) := by
  show StableHlo.after Cert.KernelIdeal.Gen.hostOps9 (Cert.KernelIdeal.Gen.W20 m ρ c) (Proc.devRef .tc Cert.KernelIdeal.main_v3) = _
  after_results_simp

theorem k_v3_22 : Cert.KernelIdeal.Gen.W22 m ρ c (Proc.devRef .tc Cert.KernelIdeal.main_v3) = Cert.KernelIdeal.Gen.W21 m ρ c (Proc.devRef .tc Cert.KernelIdeal.main_v3) :=
  Cert.KernelIdeal.Gen.W22_of_ne m ρ c Cert.KernelIdeal.main_v3 (by decide)

theorem k_v3_23 : Cert.KernelIdeal.Gen.W23 m ρ c (Proc.devRef .tc Cert.KernelIdeal.main_v3) = Cert.KernelIdeal.Gen.W22 m ρ c (Proc.devRef .tc Cert.KernelIdeal.main_v3) := by
  show StableHlo.after Cert.KernelIdeal.Gen.hostOps10 (Cert.KernelIdeal.Gen.W22 m ρ c) (Proc.devRef .tc Cert.KernelIdeal.main_v3) = _
  after_results_simp

theorem k_v3_24 : Cert.KernelIdeal.Gen.W24 m ρ c (Proc.devRef .tc Cert.KernelIdeal.main_v3) = Cert.KernelIdeal.Gen.W23 m ρ c (Proc.devRef .tc Cert.KernelIdeal.main_v3) :=
  Cert.KernelIdeal.Gen.W24_of_ne m ρ c Cert.KernelIdeal.main_v3 (by decide)

theorem k_v3_25 : Cert.KernelIdeal.Gen.W25 m ρ c (Proc.devRef .tc Cert.KernelIdeal.main_v3) = Cert.KernelIdeal.Gen.W24 m ρ c (Proc.devRef .tc Cert.KernelIdeal.main_v3) := by
  show StableHlo.after Cert.KernelIdeal.Gen.hostOps11 (Cert.KernelIdeal.Gen.W24 m ρ c) (Proc.devRef .tc Cert.KernelIdeal.main_v3) = _
  after_results_simp

theorem k_v3_26 : Cert.KernelIdeal.Gen.W26 m ρ c (Proc.devRef .tc Cert.KernelIdeal.main_v3) = Cert.KernelIdeal.Gen.W25 m ρ c (Proc.devRef .tc Cert.KernelIdeal.main_v3) :=
  Cert.KernelIdeal.Gen.W26_of_ne m ρ c Cert.KernelIdeal.main_v3 (by decide)

theorem k_v3_27 : Cert.KernelIdeal.Gen.W27 m ρ c (Proc.devRef .tc Cert.KernelIdeal.main_v3) = Cert.KernelIdeal.Gen.W26 m ρ c (Proc.devRef .tc Cert.KernelIdeal.main_v3) := by
  show StableHlo.after Cert.KernelIdeal.Gen.hostOps12 (Cert.KernelIdeal.Gen.W26 m ρ c) (Proc.devRef .tc Cert.KernelIdeal.main_v3) = _
  after_results_simp

theorem k_v3_28 : Cert.KernelIdeal.Gen.W28 m ρ c (Proc.devRef .tc Cert.KernelIdeal.main_v3) = Cert.KernelIdeal.Gen.W27 m ρ c (Proc.devRef .tc Cert.KernelIdeal.main_v3) :=
  Cert.KernelIdeal.Gen.W28_of_ne m ρ c Cert.KernelIdeal.main_v3 (by decide)

theorem k_v3_3_4 : Cert.KernelIdeal.Gen.W4 m ρ c (Proc.devRef .tc Cert.KernelIdeal.main_v3) = Cert.KernelIdeal.Gen.W3 m ρ c (Proc.devRef .tc Cert.KernelIdeal.main_v3) :=
  k_v3_4 m ρ c

theorem k_v3_4_8 : Cert.KernelIdeal.Gen.W8 m ρ c (Proc.devRef .tc Cert.KernelIdeal.main_v3) = Cert.KernelIdeal.Gen.W4 m ρ c (Proc.devRef .tc Cert.KernelIdeal.main_v3) :=
  (k_v3_8 m ρ c).trans ((k_v3_7 m ρ c).trans ((k_v3_6 m ρ c).trans (k_v3_5 m ρ c)))

theorem k_v3_8_20 : Cert.KernelIdeal.Gen.W20 m ρ c (Proc.devRef .tc Cert.KernelIdeal.main_v3) = Cert.KernelIdeal.Gen.W8 m ρ c (Proc.devRef .tc Cert.KernelIdeal.main_v3) :=
  (k_v3_20 m ρ c).trans ((k_v3_19 m ρ c).trans ((k_v3_18 m ρ c).trans ((k_v3_17 m ρ c).trans ((k_v3_16 m ρ c).trans ((k_v3_15 m ρ c).trans ((k_v3_14 m ρ c).trans ((k_v3_13 m ρ c).trans ((k_v3_12 m ρ c).trans ((k_v3_11 m ρ c).trans ((k_v3_10 m ρ c).trans (k_v3_9 m ρ c)))))))))))

theorem k_v3_20_24 : Cert.KernelIdeal.Gen.W24 m ρ c (Proc.devRef .tc Cert.KernelIdeal.main_v3) = Cert.KernelIdeal.Gen.W20 m ρ c (Proc.devRef .tc Cert.KernelIdeal.main_v3) :=
  (k_v3_24 m ρ c).trans ((k_v3_23 m ρ c).trans ((k_v3_22 m ρ c).trans (k_v3_21 m ρ c)))

theorem k_v3_24_28 : Cert.KernelIdeal.Gen.W28 m ρ c (Proc.devRef .tc Cert.KernelIdeal.main_v3) = Cert.KernelIdeal.Gen.W24 m ρ c (Proc.devRef .tc Cert.KernelIdeal.main_v3) :=
  (k_v3_28 m ρ c).trans ((k_v3_27 m ρ c).trans ((k_v3_26 m ρ c).trans (k_v3_25 m ρ c)))

theorem k_v6_4 : Cert.KernelIdeal.Gen.W4 m ρ c (Proc.devRef .tc Cert.KernelIdeal.main_v6) = Cert.KernelIdeal.Gen.W3 m ρ c (Proc.devRef .tc Cert.KernelIdeal.main_v6) :=
  Cert.KernelIdeal.Gen.W4_of_ne m ρ c Cert.KernelIdeal.main_v6 (by decide)

theorem k_v6_5 : Cert.KernelIdeal.Gen.W5 m ρ c (Proc.devRef .tc Cert.KernelIdeal.main_v6) = Cert.KernelIdeal.Gen.W4 m ρ c (Proc.devRef .tc Cert.KernelIdeal.main_v6) := by
  show StableHlo.after Cert.KernelIdeal.Gen.hostOps1 (Cert.KernelIdeal.Gen.W4 m ρ c) (Proc.devRef .tc Cert.KernelIdeal.main_v6) = _
  after_results_simp

theorem k_v6_6 : Cert.KernelIdeal.Gen.W6 m ρ c (Proc.devRef .tc Cert.KernelIdeal.main_v6) = Cert.KernelIdeal.Gen.W5 m ρ c (Proc.devRef .tc Cert.KernelIdeal.main_v6) :=
  Cert.KernelIdeal.Gen.W6_of_ne m ρ c Cert.KernelIdeal.main_v6 (by decide)

theorem k_v6_7 : Cert.KernelIdeal.Gen.W7 m ρ c (Proc.devRef .tc Cert.KernelIdeal.main_v6) = Cert.KernelIdeal.Gen.W6 m ρ c (Proc.devRef .tc Cert.KernelIdeal.main_v6) := by
  show StableHlo.after Cert.KernelIdeal.Gen.hostOps2 (Cert.KernelIdeal.Gen.W6 m ρ c) (Proc.devRef .tc Cert.KernelIdeal.main_v6) = _
  after_results_simp

theorem k_v6_8 : Cert.KernelIdeal.Gen.W8 m ρ c (Proc.devRef .tc Cert.KernelIdeal.main_v6) = Cert.KernelIdeal.Gen.W7 m ρ c (Proc.devRef .tc Cert.KernelIdeal.main_v6) :=
  Cert.KernelIdeal.Gen.W8_of_ne m ρ c Cert.KernelIdeal.main_v6 (by decide)

theorem k_v6_9 : Cert.KernelIdeal.Gen.W9 m ρ c (Proc.devRef .tc Cert.KernelIdeal.main_v6) = Cert.KernelIdeal.Gen.W8 m ρ c (Proc.devRef .tc Cert.KernelIdeal.main_v6) := by
  show StableHlo.after Cert.KernelIdeal.Gen.hostOps3 (Cert.KernelIdeal.Gen.W8 m ρ c) (Proc.devRef .tc Cert.KernelIdeal.main_v6) = _
  after_results_simp

theorem k_v6_10 : Cert.KernelIdeal.Gen.W10 m ρ c (Proc.devRef .tc Cert.KernelIdeal.main_v6) = Cert.KernelIdeal.Gen.W9 m ρ c (Proc.devRef .tc Cert.KernelIdeal.main_v6) :=
  Cert.KernelIdeal.Gen.W10_of_ne m ρ c Cert.KernelIdeal.main_v6 (by decide)

theorem k_v6_11 : Cert.KernelIdeal.Gen.W11 m ρ c (Proc.devRef .tc Cert.KernelIdeal.main_v6) = Cert.KernelIdeal.Gen.W10 m ρ c (Proc.devRef .tc Cert.KernelIdeal.main_v6) := by
  show StableHlo.after Cert.KernelIdeal.Gen.hostOps4 (Cert.KernelIdeal.Gen.W10 m ρ c) (Proc.devRef .tc Cert.KernelIdeal.main_v6) = _
  after_results_simp

theorem k_v6_12 : Cert.KernelIdeal.Gen.W12 m ρ c (Proc.devRef .tc Cert.KernelIdeal.main_v6) = Cert.KernelIdeal.Gen.W11 m ρ c (Proc.devRef .tc Cert.KernelIdeal.main_v6) :=
  Cert.KernelIdeal.Gen.W12_of_ne m ρ c Cert.KernelIdeal.main_v6 (by decide)

theorem k_v6_13 : Cert.KernelIdeal.Gen.W13 m ρ c (Proc.devRef .tc Cert.KernelIdeal.main_v6) = Cert.KernelIdeal.Gen.W12 m ρ c (Proc.devRef .tc Cert.KernelIdeal.main_v6) := by
  show StableHlo.after Cert.KernelIdeal.Gen.hostOps5 (Cert.KernelIdeal.Gen.W12 m ρ c) (Proc.devRef .tc Cert.KernelIdeal.main_v6) = _
  after_results_simp

theorem k_v6_14 : Cert.KernelIdeal.Gen.W14 m ρ c (Proc.devRef .tc Cert.KernelIdeal.main_v6) = Cert.KernelIdeal.Gen.W13 m ρ c (Proc.devRef .tc Cert.KernelIdeal.main_v6) :=
  Cert.KernelIdeal.Gen.W14_of_ne m ρ c Cert.KernelIdeal.main_v6 (by decide)

theorem k_v6_15 : Cert.KernelIdeal.Gen.W15 m ρ c (Proc.devRef .tc Cert.KernelIdeal.main_v6) = Cert.KernelIdeal.Gen.W14 m ρ c (Proc.devRef .tc Cert.KernelIdeal.main_v6) := by
  show StableHlo.after Cert.KernelIdeal.Gen.hostOps6 (Cert.KernelIdeal.Gen.W14 m ρ c) (Proc.devRef .tc Cert.KernelIdeal.main_v6) = _
  after_results_simp

theorem k_v6_16 : Cert.KernelIdeal.Gen.W16 m ρ c (Proc.devRef .tc Cert.KernelIdeal.main_v6) = Cert.KernelIdeal.Gen.W15 m ρ c (Proc.devRef .tc Cert.KernelIdeal.main_v6) :=
  Cert.KernelIdeal.Gen.W16_of_ne m ρ c Cert.KernelIdeal.main_v6 (by decide)

theorem k_v6_17 : Cert.KernelIdeal.Gen.W17 m ρ c (Proc.devRef .tc Cert.KernelIdeal.main_v6) = Cert.KernelIdeal.Gen.W16 m ρ c (Proc.devRef .tc Cert.KernelIdeal.main_v6) := by
  show StableHlo.after Cert.KernelIdeal.Gen.hostOps7 (Cert.KernelIdeal.Gen.W16 m ρ c) (Proc.devRef .tc Cert.KernelIdeal.main_v6) = _
  after_results_simp

theorem k_v6_18 : Cert.KernelIdeal.Gen.W18 m ρ c (Proc.devRef .tc Cert.KernelIdeal.main_v6) = Cert.KernelIdeal.Gen.W17 m ρ c (Proc.devRef .tc Cert.KernelIdeal.main_v6) :=
  Cert.KernelIdeal.Gen.W18_of_ne m ρ c Cert.KernelIdeal.main_v6 (by decide)

theorem k_v6_19 : Cert.KernelIdeal.Gen.W19 m ρ c (Proc.devRef .tc Cert.KernelIdeal.main_v6) = Cert.KernelIdeal.Gen.W18 m ρ c (Proc.devRef .tc Cert.KernelIdeal.main_v6) := by
  show StableHlo.after Cert.KernelIdeal.Gen.hostOps8 (Cert.KernelIdeal.Gen.W18 m ρ c) (Proc.devRef .tc Cert.KernelIdeal.main_v6) = _
  after_results_simp

theorem k_v6_20 : Cert.KernelIdeal.Gen.W20 m ρ c (Proc.devRef .tc Cert.KernelIdeal.main_v6) = Cert.KernelIdeal.Gen.W19 m ρ c (Proc.devRef .tc Cert.KernelIdeal.main_v6) :=
  Cert.KernelIdeal.Gen.W20_of_ne m ρ c Cert.KernelIdeal.main_v6 (by decide)

theorem k_v6_21 : Cert.KernelIdeal.Gen.W21 m ρ c (Proc.devRef .tc Cert.KernelIdeal.main_v6) = Cert.KernelIdeal.Gen.W20 m ρ c (Proc.devRef .tc Cert.KernelIdeal.main_v6) := by
  show StableHlo.after Cert.KernelIdeal.Gen.hostOps9 (Cert.KernelIdeal.Gen.W20 m ρ c) (Proc.devRef .tc Cert.KernelIdeal.main_v6) = _
  after_results_simp

theorem k_v6_22 : Cert.KernelIdeal.Gen.W22 m ρ c (Proc.devRef .tc Cert.KernelIdeal.main_v6) = Cert.KernelIdeal.Gen.W21 m ρ c (Proc.devRef .tc Cert.KernelIdeal.main_v6) :=
  Cert.KernelIdeal.Gen.W22_of_ne m ρ c Cert.KernelIdeal.main_v6 (by decide)

theorem k_v6_23 : Cert.KernelIdeal.Gen.W23 m ρ c (Proc.devRef .tc Cert.KernelIdeal.main_v6) = Cert.KernelIdeal.Gen.W22 m ρ c (Proc.devRef .tc Cert.KernelIdeal.main_v6) := by
  show StableHlo.after Cert.KernelIdeal.Gen.hostOps10 (Cert.KernelIdeal.Gen.W22 m ρ c) (Proc.devRef .tc Cert.KernelIdeal.main_v6) = _
  after_results_simp

theorem k_v6_24 : Cert.KernelIdeal.Gen.W24 m ρ c (Proc.devRef .tc Cert.KernelIdeal.main_v6) = Cert.KernelIdeal.Gen.W23 m ρ c (Proc.devRef .tc Cert.KernelIdeal.main_v6) :=
  Cert.KernelIdeal.Gen.W24_of_ne m ρ c Cert.KernelIdeal.main_v6 (by decide)

theorem k_v6_25 : Cert.KernelIdeal.Gen.W25 m ρ c (Proc.devRef .tc Cert.KernelIdeal.main_v6) = Cert.KernelIdeal.Gen.W24 m ρ c (Proc.devRef .tc Cert.KernelIdeal.main_v6) := by
  show StableHlo.after Cert.KernelIdeal.Gen.hostOps11 (Cert.KernelIdeal.Gen.W24 m ρ c) (Proc.devRef .tc Cert.KernelIdeal.main_v6) = _
  after_results_simp

theorem k_v6_26 : Cert.KernelIdeal.Gen.W26 m ρ c (Proc.devRef .tc Cert.KernelIdeal.main_v6) = Cert.KernelIdeal.Gen.W25 m ρ c (Proc.devRef .tc Cert.KernelIdeal.main_v6) :=
  Cert.KernelIdeal.Gen.W26_of_ne m ρ c Cert.KernelIdeal.main_v6 (by decide)

theorem k_v6_27 : Cert.KernelIdeal.Gen.W27 m ρ c (Proc.devRef .tc Cert.KernelIdeal.main_v6) = Cert.KernelIdeal.Gen.W26 m ρ c (Proc.devRef .tc Cert.KernelIdeal.main_v6) := by
  show StableHlo.after Cert.KernelIdeal.Gen.hostOps12 (Cert.KernelIdeal.Gen.W26 m ρ c) (Proc.devRef .tc Cert.KernelIdeal.main_v6) = _
  after_results_simp

theorem k_v6_28 : Cert.KernelIdeal.Gen.W28 m ρ c (Proc.devRef .tc Cert.KernelIdeal.main_v6) = Cert.KernelIdeal.Gen.W27 m ρ c (Proc.devRef .tc Cert.KernelIdeal.main_v6) :=
  Cert.KernelIdeal.Gen.W28_of_ne m ρ c Cert.KernelIdeal.main_v6 (by decide)

theorem k_v6_3_4 : Cert.KernelIdeal.Gen.W4 m ρ c (Proc.devRef .tc Cert.KernelIdeal.main_v6) = Cert.KernelIdeal.Gen.W3 m ρ c (Proc.devRef .tc Cert.KernelIdeal.main_v6) :=
  k_v6_4 m ρ c

theorem k_v6_4_8 : Cert.KernelIdeal.Gen.W8 m ρ c (Proc.devRef .tc Cert.KernelIdeal.main_v6) = Cert.KernelIdeal.Gen.W4 m ρ c (Proc.devRef .tc Cert.KernelIdeal.main_v6) :=
  (k_v6_8 m ρ c).trans ((k_v6_7 m ρ c).trans ((k_v6_6 m ρ c).trans (k_v6_5 m ρ c)))

theorem k_v6_8_20 : Cert.KernelIdeal.Gen.W20 m ρ c (Proc.devRef .tc Cert.KernelIdeal.main_v6) = Cert.KernelIdeal.Gen.W8 m ρ c (Proc.devRef .tc Cert.KernelIdeal.main_v6) :=
  (k_v6_20 m ρ c).trans ((k_v6_19 m ρ c).trans ((k_v6_18 m ρ c).trans ((k_v6_17 m ρ c).trans ((k_v6_16 m ρ c).trans ((k_v6_15 m ρ c).trans ((k_v6_14 m ρ c).trans ((k_v6_13 m ρ c).trans ((k_v6_12 m ρ c).trans ((k_v6_11 m ρ c).trans ((k_v6_10 m ρ c).trans (k_v6_9 m ρ c)))))))))))

theorem k_v6_20_24 : Cert.KernelIdeal.Gen.W24 m ρ c (Proc.devRef .tc Cert.KernelIdeal.main_v6) = Cert.KernelIdeal.Gen.W20 m ρ c (Proc.devRef .tc Cert.KernelIdeal.main_v6) :=
  (k_v6_24 m ρ c).trans ((k_v6_23 m ρ c).trans ((k_v6_22 m ρ c).trans (k_v6_21 m ρ c)))

theorem k_v6_24_28 : Cert.KernelIdeal.Gen.W28 m ρ c (Proc.devRef .tc Cert.KernelIdeal.main_v6) = Cert.KernelIdeal.Gen.W24 m ρ c (Proc.devRef .tc Cert.KernelIdeal.main_v6) :=
  (k_v6_28 m ρ c).trans ((k_v6_27 m ρ c).trans ((k_v6_26 m ρ c).trans (k_v6_25 m ρ c)))

end Cert.KernelIdeal.Carry

end
-- ==== Proof.KCarryNorm.lean ====
/-
  Buffers of the idealized kernel that later stretches read long after they were written (the edge lists, the
  per-edge normalisation, the argument arrays): between the boundary where such a buffer is written and the boundary
  where it is read, no host operation writes it and no region has it among its arrays, so its contents are the same
  at both. One equation per boundary crossed, then their compositions.
-/
import proofs.«168298_j84988812853302_1_alg».proof.Proof.Gen.KernelIdeal.Frame
import Idealize.ShloMosaic.Lib.StableHlo.Run
import Idealize.ShloMosaic.PureOps.Ideal

set_option maxRecDepth 16384
set_option maxHeartbeats 4000000

noncomputable section

namespace Cert.KernelIdeal.Carry

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

theorem k_v29_4 : Cert.KernelIdeal.Gen.W4 m ρ c (Proc.devRef .tc Cert.KernelIdeal.main_v29) = Cert.KernelIdeal.Gen.W3 m ρ c (Proc.devRef .tc Cert.KernelIdeal.main_v29) :=
  Cert.KernelIdeal.Gen.W4_of_ne m ρ c Cert.KernelIdeal.main_v29 (by decide)

theorem k_v29_5 : Cert.KernelIdeal.Gen.W5 m ρ c (Proc.devRef .tc Cert.KernelIdeal.main_v29) = Cert.KernelIdeal.Gen.W4 m ρ c (Proc.devRef .tc Cert.KernelIdeal.main_v29) := by
  show StableHlo.after Cert.KernelIdeal.Gen.hostOps1 (Cert.KernelIdeal.Gen.W4 m ρ c) (Proc.devRef .tc Cert.KernelIdeal.main_v29) = _
  after_results_simp

theorem k_v29_6 : Cert.KernelIdeal.Gen.W6 m ρ c (Proc.devRef .tc Cert.KernelIdeal.main_v29) = Cert.KernelIdeal.Gen.W5 m ρ c (Proc.devRef .tc Cert.KernelIdeal.main_v29) :=
  Cert.KernelIdeal.Gen.W6_of_ne m ρ c Cert.KernelIdeal.main_v29 (by decide)

theorem k_v29_7 : Cert.KernelIdeal.Gen.W7 m ρ c (Proc.devRef .tc Cert.KernelIdeal.main_v29) = Cert.KernelIdeal.Gen.W6 m ρ c (Proc.devRef .tc Cert.KernelIdeal.main_v29) := by
  show StableHlo.after Cert.KernelIdeal.Gen.hostOps2 (Cert.KernelIdeal.Gen.W6 m ρ c) (Proc.devRef .tc Cert.KernelIdeal.main_v29) = _
  after_results_simp

theorem k_v29_8 : Cert.KernelIdeal.Gen.W8 m ρ c (Proc.devRef .tc Cert.KernelIdeal.main_v29) = Cert.KernelIdeal.Gen.W7 m ρ c (Proc.devRef .tc Cert.KernelIdeal.main_v29) :=
  Cert.KernelIdeal.Gen.W8_of_ne m ρ c Cert.KernelIdeal.main_v29 (by decide)

theorem k_v29_9 : Cert.KernelIdeal.Gen.W9 m ρ c (Proc.devRef .tc Cert.KernelIdeal.main_v29) = Cert.KernelIdeal.Gen.W8 m ρ c (Proc.devRef .tc Cert.KernelIdeal.main_v29) := by
  show StableHlo.after Cert.KernelIdeal.Gen.hostOps3 (Cert.KernelIdeal.Gen.W8 m ρ c) (Proc.devRef .tc Cert.KernelIdeal.main_v29) = _
  after_results_simp

theorem k_v29_10 : Cert.KernelIdeal.Gen.W10 m ρ c (Proc.devRef .tc Cert.KernelIdeal.main_v29) = Cert.KernelIdeal.Gen.W9 m ρ c (Proc.devRef .tc Cert.KernelIdeal.main_v29) :=
  Cert.KernelIdeal.Gen.W10_of_ne m ρ c Cert.KernelIdeal.main_v29 (by decide)

theorem k_v29_11 : Cert.KernelIdeal.Gen.W11 m ρ c (Proc.devRef .tc Cert.KernelIdeal.main_v29) = Cert.KernelIdeal.Gen.W10 m ρ c (Proc.devRef .tc Cert.KernelIdeal.main_v29) := by
  show StableHlo.after Cert.KernelIdeal.Gen.hostOps4 (Cert.KernelIdeal.Gen.W10 m ρ c) (Proc.devRef .tc Cert.KernelIdeal.main_v29) = _
  after_results_simp

theorem k_v29_12 : Cert.KernelIdeal.Gen.W12 m ρ c (Proc.devRef .tc Cert.KernelIdeal.main_v29) = Cert.KernelIdeal.Gen.W11 m ρ c (Proc.devRef .tc Cert.KernelIdeal.main_v29) :=
  Cert.KernelIdeal.Gen.W12_of_ne m ρ c Cert.KernelIdeal.main_v29 (by decide)

theorem k_v29_13 : Cert.KernelIdeal.Gen.W13 m ρ c (Proc.devRef .tc Cert.KernelIdeal.main_v29) = Cert.KernelIdeal.Gen.W12 m ρ c (Proc.devRef .tc Cert.KernelIdeal.main_v29) := by
  show StableHlo.after Cert.KernelIdeal.Gen.hostOps5 (Cert.KernelIdeal.Gen.W12 m ρ c) (Proc.devRef .tc Cert.KernelIdeal.main_v29) = _
  after_results_simp

theorem k_v29_14 : Cert.KernelIdeal.Gen.W14 m ρ c (Proc.devRef .tc Cert.KernelIdeal.main_v29) = Cert.KernelIdeal.Gen.W13 m ρ c (Proc.devRef .tc Cert.KernelIdeal.main_v29) :=
  Cert.KernelIdeal.Gen.W14_of_ne m ρ c Cert.KernelIdeal.main_v29 (by decide)

theorem k_v29_15 : Cert.KernelIdeal.Gen.W15 m ρ c (Proc.devRef .tc Cert.KernelIdeal.main_v29) = Cert.KernelIdeal.Gen.W14 m ρ c (Proc.devRef .tc Cert.KernelIdeal.main_v29) := by
  show StableHlo.after Cert.KernelIdeal.Gen.hostOps6 (Cert.KernelIdeal.Gen.W14 m ρ c) (Proc.devRef .tc Cert.KernelIdeal.main_v29) = _
  after_results_simp

theorem k_v29_16 : Cert.KernelIdeal.Gen.W16 m ρ c (Proc.devRef .tc Cert.KernelIdeal.main_v29) = Cert.KernelIdeal.Gen.W15 m ρ c (Proc.devRef .tc Cert.KernelIdeal.main_v29) :=
  Cert.KernelIdeal.Gen.W16_of_ne m ρ c Cert.KernelIdeal.main_v29 (by decide)

theorem k_v29_17 : Cert.KernelIdeal.Gen.W17 m ρ c (Proc.devRef .tc Cert.KernelIdeal.main_v29) = Cert.KernelIdeal.Gen.W16 m ρ c (Proc.devRef .tc Cert.KernelIdeal.main_v29) := by
  show StableHlo.after Cert.KernelIdeal.Gen.hostOps7 (Cert.KernelIdeal.Gen.W16 m ρ c) (Proc.devRef .tc Cert.KernelIdeal.main_v29) = _
  after_results_simp

theorem k_v29_18 : Cert.KernelIdeal.Gen.W18 m ρ c (Proc.devRef .tc Cert.KernelIdeal.main_v29) = Cert.KernelIdeal.Gen.W17 m ρ c (Proc.devRef .tc Cert.KernelIdeal.main_v29) :=
  Cert.KernelIdeal.Gen.W18_of_ne m ρ c Cert.KernelIdeal.main_v29 (by decide)

theorem k_v29_19 : Cert.KernelIdeal.Gen.W19 m ρ c (Proc.devRef .tc Cert.KernelIdeal.main_v29) = Cert.KernelIdeal.Gen.W18 m ρ c (Proc.devRef .tc Cert.KernelIdeal.main_v29) := by
  show StableHlo.after Cert.KernelIdeal.Gen.hostOps8 (Cert.KernelIdeal.Gen.W18 m ρ c) (Proc.devRef .tc Cert.KernelIdeal.main_v29) = _
  after_results_simp

theorem k_v29_20 : Cert.KernelIdeal.Gen.W20 m ρ c (Proc.devRef .tc Cert.KernelIdeal.main_v29) = Cert.KernelIdeal.Gen.W19 m ρ c (Proc.devRef .tc Cert.KernelIdeal.main_v29) :=
  Cert.KernelIdeal.Gen.W20_of_ne m ρ c Cert.KernelIdeal.main_v29 (by decide)

theorem k_v29_21 : Cert.KernelIdeal.Gen.W21 m ρ c (Proc.devRef .tc Cert.KernelIdeal.main_v29) = Cert.KernelIdeal.Gen.W20 m ρ c (Proc.devRef .tc Cert.KernelIdeal.main_v29) := by
  show StableHlo.after Cert.KernelIdeal.Gen.hostOps9 (Cert.KernelIdeal.Gen.W20 m ρ c) (Proc.devRef .tc Cert.KernelIdeal.main_v29) = _
  after_results_simp

theorem k_v29_22 : Cert.KernelIdeal.Gen.W22 m ρ c (Proc.devRef .tc Cert.KernelIdeal.main_v29) = Cert.KernelIdeal.Gen.W21 m ρ c (Proc.devRef .tc Cert.KernelIdeal.main_v29) :=
  Cert.KernelIdeal.Gen.W22_of_ne m ρ c Cert.KernelIdeal.main_v29 (by decide)

theorem k_v29_23 : Cert.KernelIdeal.Gen.W23 m ρ c (Proc.devRef .tc Cert.KernelIdeal.main_v29) = Cert.KernelIdeal.Gen.W22 m ρ c (Proc.devRef .tc Cert.KernelIdeal.main_v29) := by
  show StableHlo.after Cert.KernelIdeal.Gen.hostOps10 (Cert.KernelIdeal.Gen.W22 m ρ c) (Proc.devRef .tc Cert.KernelIdeal.main_v29) = _
  after_results_simp

theorem k_v29_24 : Cert.KernelIdeal.Gen.W24 m ρ c (Proc.devRef .tc Cert.KernelIdeal.main_v29) = Cert.KernelIdeal.Gen.W23 m ρ c (Proc.devRef .tc Cert.KernelIdeal.main_v29) :=
  Cert.KernelIdeal.Gen.W24_of_ne m ρ c Cert.KernelIdeal.main_v29 (by decide)

theorem k_v29_25 : Cert.KernelIdeal.Gen.W25 m ρ c (Proc.devRef .tc Cert.KernelIdeal.main_v29) = Cert.KernelIdeal.Gen.W24 m ρ c (Proc.devRef .tc Cert.KernelIdeal.main_v29) := by
  show StableHlo.after Cert.KernelIdeal.Gen.hostOps11 (Cert.KernelIdeal.Gen.W24 m ρ c) (Proc.devRef .tc Cert.KernelIdeal.main_v29) = _
  after_results_simp

theorem k_v29_26 : Cert.KernelIdeal.Gen.W26 m ρ c (Proc.devRef .tc Cert.KernelIdeal.main_v29) = Cert.KernelIdeal.Gen.W25 m ρ c (Proc.devRef .tc Cert.KernelIdeal.main_v29) :=
  Cert.KernelIdeal.Gen.W26_of_ne m ρ c Cert.KernelIdeal.main_v29 (by decide)

theorem k_v29_27 : Cert.KernelIdeal.Gen.W27 m ρ c (Proc.devRef .tc Cert.KernelIdeal.main_v29) = Cert.KernelIdeal.Gen.W26 m ρ c (Proc.devRef .tc Cert.KernelIdeal.main_v29) := by
  show StableHlo.after Cert.KernelIdeal.Gen.hostOps12 (Cert.KernelIdeal.Gen.W26 m ρ c) (Proc.devRef .tc Cert.KernelIdeal.main_v29) = _
  after_results_simp

theorem k_v29_28 : Cert.KernelIdeal.Gen.W28 m ρ c (Proc.devRef .tc Cert.KernelIdeal.main_v29) = Cert.KernelIdeal.Gen.W27 m ρ c (Proc.devRef .tc Cert.KernelIdeal.main_v29) :=
  Cert.KernelIdeal.Gen.W28_of_ne m ρ c Cert.KernelIdeal.main_v29 (by decide)

theorem k_v29_3_4 : Cert.KernelIdeal.Gen.W4 m ρ c (Proc.devRef .tc Cert.KernelIdeal.main_v29) = Cert.KernelIdeal.Gen.W3 m ρ c (Proc.devRef .tc Cert.KernelIdeal.main_v29) :=
  k_v29_4 m ρ c

theorem k_v29_4_8 : Cert.KernelIdeal.Gen.W8 m ρ c (Proc.devRef .tc Cert.KernelIdeal.main_v29) = Cert.KernelIdeal.Gen.W4 m ρ c (Proc.devRef .tc Cert.KernelIdeal.main_v29) :=
  (k_v29_8 m ρ c).trans ((k_v29_7 m ρ c).trans ((k_v29_6 m ρ c).trans (k_v29_5 m ρ c)))

theorem k_v29_8_20 : Cert.KernelIdeal.Gen.W20 m ρ c (Proc.devRef .tc Cert.KernelIdeal.main_v29) = Cert.KernelIdeal.Gen.W8 m ρ c (Proc.devRef .tc Cert.KernelIdeal.main_v29) :=
  (k_v29_20 m ρ c).trans ((k_v29_19 m ρ c).trans ((k_v29_18 m ρ c).trans ((k_v29_17 m ρ c).trans ((k_v29_16 m ρ c).trans ((k_v29_15 m ρ c).trans ((k_v29_14 m ρ c).trans ((k_v29_13 m ρ c).trans ((k_v29_12 m ρ c).trans ((k_v29_11 m ρ c).trans ((k_v29_10 m ρ c).trans (k_v29_9 m ρ c)))))))))))

theorem k_v29_20_24 : Cert.KernelIdeal.Gen.W24 m ρ c (Proc.devRef .tc Cert.KernelIdeal.main_v29) = Cert.KernelIdeal.Gen.W20 m ρ c (Proc.devRef .tc Cert.KernelIdeal.main_v29) :=
  (k_v29_24 m ρ c).trans ((k_v29_23 m ρ c).trans ((k_v29_22 m ρ c).trans (k_v29_21 m ρ c)))

theorem k_v29_24_28 : Cert.KernelIdeal.Gen.W28 m ρ c (Proc.devRef .tc Cert.KernelIdeal.main_v29) = Cert.KernelIdeal.Gen.W24 m ρ c (Proc.devRef .tc Cert.KernelIdeal.main_v29) :=
  (k_v29_28 m ρ c).trans ((k_v29_27 m ρ c).trans ((k_v29_26 m ρ c).trans (k_v29_25 m ρ c)))

theorem k_v34_4 : Cert.KernelIdeal.Gen.W4 m ρ c (Proc.devRef .tc Cert.KernelIdeal.main_v34) = Cert.KernelIdeal.Gen.W3 m ρ c (Proc.devRef .tc Cert.KernelIdeal.main_v34) :=
  Cert.KernelIdeal.Gen.W4_of_ne m ρ c Cert.KernelIdeal.main_v34 (by decide)

theorem k_v34_3_4 : Cert.KernelIdeal.Gen.W4 m ρ c (Proc.devRef .tc Cert.KernelIdeal.main_v34) = Cert.KernelIdeal.Gen.W3 m ρ c (Proc.devRef .tc Cert.KernelIdeal.main_v34) :=
  k_v34_4 m ρ c

theorem k_v30_4 : Cert.KernelIdeal.Gen.W4 m ρ c (Proc.devRef .tc Cert.KernelIdeal.main_v30) = Cert.KernelIdeal.Gen.W3 m ρ c (Proc.devRef .tc Cert.KernelIdeal.main_v30) :=
  Cert.KernelIdeal.Gen.W4_of_ne m ρ c Cert.KernelIdeal.main_v30 (by decide)

theorem k_v30_5 : Cert.KernelIdeal.Gen.W5 m ρ c (Proc.devRef .tc Cert.KernelIdeal.main_v30) = Cert.KernelIdeal.Gen.W4 m ρ c (Proc.devRef .tc Cert.KernelIdeal.main_v30) := by
  show StableHlo.after Cert.KernelIdeal.Gen.hostOps1 (Cert.KernelIdeal.Gen.W4 m ρ c) (Proc.devRef .tc Cert.KernelIdeal.main_v30) = _
  after_results_simp

theorem k_v30_6 : Cert.KernelIdeal.Gen.W6 m ρ c (Proc.devRef .tc Cert.KernelIdeal.main_v30) = Cert.KernelIdeal.Gen.W5 m ρ c (Proc.devRef .tc Cert.KernelIdeal.main_v30) :=
  Cert.KernelIdeal.Gen.W6_of_ne m ρ c Cert.KernelIdeal.main_v30 (by decide)

theorem k_v30_7 : Cert.KernelIdeal.Gen.W7 m ρ c (Proc.devRef .tc Cert.KernelIdeal.main_v30) = Cert.KernelIdeal.Gen.W6 m ρ c (Proc.devRef .tc Cert.KernelIdeal.main_v30) := by
  show StableHlo.after Cert.KernelIdeal.Gen.hostOps2 (Cert.KernelIdeal.Gen.W6 m ρ c) (Proc.devRef .tc Cert.KernelIdeal.main_v30) = _
  after_results_simp

theorem k_v30_8 : Cert.KernelIdeal.Gen.W8 m ρ c (Proc.devRef .tc Cert.KernelIdeal.main_v30) = Cert.KernelIdeal.Gen.W7 m ρ c (Proc.devRef .tc Cert.KernelIdeal.main_v30) :=
  Cert.KernelIdeal.Gen.W8_of_ne m ρ c Cert.KernelIdeal.main_v30 (by decide)

theorem k_v30_9 : Cert.KernelIdeal.Gen.W9 m ρ c (Proc.devRef .tc Cert.KernelIdeal.main_v30) = Cert.KernelIdeal.Gen.W8 m ρ c (Proc.devRef .tc Cert.KernelIdeal.main_v30) := by
  show StableHlo.after Cert.KernelIdeal.Gen.hostOps3 (Cert.KernelIdeal.Gen.W8 m ρ c) (Proc.devRef .tc Cert.KernelIdeal.main_v30) = _
  after_results_simp

theorem k_v30_10 : Cert.KernelIdeal.Gen.W10 m ρ c (Proc.devRef .tc Cert.KernelIdeal.main_v30) = Cert.KernelIdeal.Gen.W9 m ρ c (Proc.devRef .tc Cert.KernelIdeal.main_v30) :=
  Cert.KernelIdeal.Gen.W10_of_ne m ρ c Cert.KernelIdeal.main_v30 (by decide)

theorem k_v30_11 : Cert.KernelIdeal.Gen.W11 m ρ c (Proc.devRef .tc Cert.KernelIdeal.main_v30) = Cert.KernelIdeal.Gen.W10 m ρ c (Proc.devRef .tc Cert.KernelIdeal.main_v30) := by
  show StableHlo.after Cert.KernelIdeal.Gen.hostOps4 (Cert.KernelIdeal.Gen.W10 m ρ c) (Proc.devRef .tc Cert.KernelIdeal.main_v30) = _
  after_results_simp

theorem k_v30_12 : Cert.KernelIdeal.Gen.W12 m ρ c (Proc.devRef .tc Cert.KernelIdeal.main_v30) = Cert.KernelIdeal.Gen.W11 m ρ c (Proc.devRef .tc Cert.KernelIdeal.main_v30) :=
  Cert.KernelIdeal.Gen.W12_of_ne m ρ c Cert.KernelIdeal.main_v30 (by decide)

theorem k_v30_13 : Cert.KernelIdeal.Gen.W13 m ρ c (Proc.devRef .tc Cert.KernelIdeal.main_v30) = Cert.KernelIdeal.Gen.W12 m ρ c (Proc.devRef .tc Cert.KernelIdeal.main_v30) := by
  show StableHlo.after Cert.KernelIdeal.Gen.hostOps5 (Cert.KernelIdeal.Gen.W12 m ρ c) (Proc.devRef .tc Cert.KernelIdeal.main_v30) = _
  after_results_simp

theorem k_v30_14 : Cert.KernelIdeal.Gen.W14 m ρ c (Proc.devRef .tc Cert.KernelIdeal.main_v30) = Cert.KernelIdeal.Gen.W13 m ρ c (Proc.devRef .tc Cert.KernelIdeal.main_v30) :=
  Cert.KernelIdeal.Gen.W14_of_ne m ρ c Cert.KernelIdeal.main_v30 (by decide)

theorem k_v30_3_10 : Cert.KernelIdeal.Gen.W10 m ρ c (Proc.devRef .tc Cert.KernelIdeal.main_v30) = Cert.KernelIdeal.Gen.W3 m ρ c (Proc.devRef .tc Cert.KernelIdeal.main_v30) :=
  (k_v30_10 m ρ c).trans ((k_v30_9 m ρ c).trans ((k_v30_8 m ρ c).trans ((k_v30_7 m ρ c).trans ((k_v30_6 m ρ c).trans ((k_v30_5 m ρ c).trans (k_v30_4 m ρ c))))))

theorem k_v30_10_14 : Cert.KernelIdeal.Gen.W14 m ρ c (Proc.devRef .tc Cert.KernelIdeal.main_v30) = Cert.KernelIdeal.Gen.W10 m ρ c (Proc.devRef .tc Cert.KernelIdeal.main_v30) :=
  (k_v30_14 m ρ c).trans ((k_v30_13 m ρ c).trans ((k_v30_12 m ρ c).trans (k_v30_11 m ρ c)))

end Cert.KernelIdeal.Carry

end
-- ==== Proof.KCarryArgsA.lean ====
/-
  Buffers of the idealized kernel that later stretches read long after they were written (the edge lists, the
  per-edge normalisation, the argument arrays): between the boundary where such a buffer is written and the boundary
  where it is read, no host operation writes it and no region has it among its arrays, so its contents are the same
  at both. One equation per boundary crossed, then their compositions.
-/
import proofs.«168298_j84988812853302_1_alg».proof.Proof.Gen.KernelIdeal.Frame
import Idealize.ShloMosaic.Lib.StableHlo.Run
import Idealize.ShloMosaic.PureOps.Ideal

set_option maxRecDepth 16384
set_option maxHeartbeats 4000000

noncomputable section

namespace Cert.KernelIdeal.Carry

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

theorem k_arg0_1 : Cert.KernelIdeal.Gen.W1 m ρ c (Proc.devRef .tc Cert.KernelIdeal.main_arg0) = Cert.KernelIdeal.Gen.W0 m ρ c (Proc.devRef .tc Cert.KernelIdeal.main_arg0) := by
  show StableHlo.after Cert.KernelIdeal.Gen.hostOps0 (Cert.KernelIdeal.Gen.W0 m ρ c) (Proc.devRef .tc Cert.KernelIdeal.main_arg0) = _
  after_results_simp

theorem k_arg0_2 : Cert.KernelIdeal.Gen.W2 m ρ c (Proc.devRef .tc Cert.KernelIdeal.main_arg0) = Cert.KernelIdeal.Gen.W1 m ρ c (Proc.devRef .tc Cert.KernelIdeal.main_arg0) := by
  show StableHlo.after Cert.KernelIdeal.Gen.hostOps0_1 (Cert.KernelIdeal.Gen.W1 m ρ c) (Proc.devRef .tc Cert.KernelIdeal.main_arg0) = _
  after_results_simp

theorem k_arg0_3 : Cert.KernelIdeal.Gen.W3 m ρ c (Proc.devRef .tc Cert.KernelIdeal.main_arg0) = Cert.KernelIdeal.Gen.W2 m ρ c (Proc.devRef .tc Cert.KernelIdeal.main_arg0) := by
  show StableHlo.after Cert.KernelIdeal.Gen.hostOps0_2 (Cert.KernelIdeal.Gen.W2 m ρ c) (Proc.devRef .tc Cert.KernelIdeal.main_arg0) = _
  after_results_simp

theorem k_arg0_0_3 : Cert.KernelIdeal.Gen.W3 m ρ c (Proc.devRef .tc Cert.KernelIdeal.main_arg0) = Cert.KernelIdeal.Gen.W0 m ρ c (Proc.devRef .tc Cert.KernelIdeal.main_arg0) :=
  (k_arg0_3 m ρ c).trans ((k_arg0_2 m ρ c).trans (k_arg0_1 m ρ c))

theorem k_arg2_1 : Cert.KernelIdeal.Gen.W1 m ρ c (Proc.devRef .tc Cert.KernelIdeal.main_arg2) = Cert.KernelIdeal.Gen.W0 m ρ c (Proc.devRef .tc Cert.KernelIdeal.main_arg2) := by
  show StableHlo.after Cert.KernelIdeal.Gen.hostOps0 (Cert.KernelIdeal.Gen.W0 m ρ c) (Proc.devRef .tc Cert.KernelIdeal.main_arg2) = _
  after_results_simp

theorem k_arg2_2 : Cert.KernelIdeal.Gen.W2 m ρ c (Proc.devRef .tc Cert.KernelIdeal.main_arg2) = Cert.KernelIdeal.Gen.W1 m ρ c (Proc.devRef .tc Cert.KernelIdeal.main_arg2) := by
  show StableHlo.after Cert.KernelIdeal.Gen.hostOps0_1 (Cert.KernelIdeal.Gen.W1 m ρ c) (Proc.devRef .tc Cert.KernelIdeal.main_arg2) = _
  after_results_simp

theorem k_arg2_3 : Cert.KernelIdeal.Gen.W3 m ρ c (Proc.devRef .tc Cert.KernelIdeal.main_arg2) = Cert.KernelIdeal.Gen.W2 m ρ c (Proc.devRef .tc Cert.KernelIdeal.main_arg2) := by
  show StableHlo.after Cert.KernelIdeal.Gen.hostOps0_2 (Cert.KernelIdeal.Gen.W2 m ρ c) (Proc.devRef .tc Cert.KernelIdeal.main_arg2) = _
  after_results_simp

theorem k_arg2_4 : Cert.KernelIdeal.Gen.W4 m ρ c (Proc.devRef .tc Cert.KernelIdeal.main_arg2) = Cert.KernelIdeal.Gen.W3 m ρ c (Proc.devRef .tc Cert.KernelIdeal.main_arg2) :=
  Cert.KernelIdeal.Gen.W4_of_ne m ρ c Cert.KernelIdeal.main_arg2 (by decide)

theorem k_arg2_5 : Cert.KernelIdeal.Gen.W5 m ρ c (Proc.devRef .tc Cert.KernelIdeal.main_arg2) = Cert.KernelIdeal.Gen.W4 m ρ c (Proc.devRef .tc Cert.KernelIdeal.main_arg2) := by
  show StableHlo.after Cert.KernelIdeal.Gen.hostOps1 (Cert.KernelIdeal.Gen.W4 m ρ c) (Proc.devRef .tc Cert.KernelIdeal.main_arg2) = _
  after_results_simp

theorem k_arg2_6 : Cert.KernelIdeal.Gen.W6 m ρ c (Proc.devRef .tc Cert.KernelIdeal.main_arg2) = Cert.KernelIdeal.Gen.W5 m ρ c (Proc.devRef .tc Cert.KernelIdeal.main_arg2) :=
  Cert.KernelIdeal.Gen.W6_of_ne m ρ c Cert.KernelIdeal.main_arg2 (by decide)

theorem k_arg2_7 : Cert.KernelIdeal.Gen.W7 m ρ c (Proc.devRef .tc Cert.KernelIdeal.main_arg2) = Cert.KernelIdeal.Gen.W6 m ρ c (Proc.devRef .tc Cert.KernelIdeal.main_arg2) := by
  show StableHlo.after Cert.KernelIdeal.Gen.hostOps2 (Cert.KernelIdeal.Gen.W6 m ρ c) (Proc.devRef .tc Cert.KernelIdeal.main_arg2) = _
  after_results_simp

theorem k_arg2_8 : Cert.KernelIdeal.Gen.W8 m ρ c (Proc.devRef .tc Cert.KernelIdeal.main_arg2) = Cert.KernelIdeal.Gen.W7 m ρ c (Proc.devRef .tc Cert.KernelIdeal.main_arg2) :=
  Cert.KernelIdeal.Gen.W8_of_ne m ρ c Cert.KernelIdeal.main_arg2 (by decide)

theorem k_arg2_9 : Cert.KernelIdeal.Gen.W9 m ρ c (Proc.devRef .tc Cert.KernelIdeal.main_arg2) = Cert.KernelIdeal.Gen.W8 m ρ c (Proc.devRef .tc Cert.KernelIdeal.main_arg2) := by
  show StableHlo.after Cert.KernelIdeal.Gen.hostOps3 (Cert.KernelIdeal.Gen.W8 m ρ c) (Proc.devRef .tc Cert.KernelIdeal.main_arg2) = _
  after_results_simp

theorem k_arg2_10 : Cert.KernelIdeal.Gen.W10 m ρ c (Proc.devRef .tc Cert.KernelIdeal.main_arg2) = Cert.KernelIdeal.Gen.W9 m ρ c (Proc.devRef .tc Cert.KernelIdeal.main_arg2) :=
  Cert.KernelIdeal.Gen.W10_of_ne m ρ c Cert.KernelIdeal.main_arg2 (by decide)

theorem k_arg2_11 : Cert.KernelIdeal.Gen.W11 m ρ c (Proc.devRef .tc Cert.KernelIdeal.main_arg2) = Cert.KernelIdeal.Gen.W10 m ρ c (Proc.devRef .tc Cert.KernelIdeal.main_arg2) := by
  show StableHlo.after Cert.KernelIdeal.Gen.hostOps4 (Cert.KernelIdeal.Gen.W10 m ρ c) (Proc.devRef .tc Cert.KernelIdeal.main_arg2) = _
  after_results_simp

theorem k_arg2_12 : Cert.KernelIdeal.Gen.W12 m ρ c (Proc.devRef .tc Cert.KernelIdeal.main_arg2) = Cert.KernelIdeal.Gen.W11 m ρ c (Proc.devRef .tc Cert.KernelIdeal.main_arg2) :=
  Cert.KernelIdeal.Gen.W12_of_ne m ρ c Cert.KernelIdeal.main_arg2 (by decide)

theorem k_arg2_13 : Cert.KernelIdeal.Gen.W13 m ρ c (Proc.devRef .tc Cert.KernelIdeal.main_arg2) = Cert.KernelIdeal.Gen.W12 m ρ c (Proc.devRef .tc Cert.KernelIdeal.main_arg2) := by
  show StableHlo.after Cert.KernelIdeal.Gen.hostOps5 (Cert.KernelIdeal.Gen.W12 m ρ c) (Proc.devRef .tc Cert.KernelIdeal.main_arg2) = _
  after_results_simp

theorem k_arg2_14 : Cert.KernelIdeal.Gen.W14 m ρ c (Proc.devRef .tc Cert.KernelIdeal.main_arg2) = Cert.KernelIdeal.Gen.W13 m ρ c (Proc.devRef .tc Cert.KernelIdeal.main_arg2) :=
  Cert.KernelIdeal.Gen.W14_of_ne m ρ c Cert.KernelIdeal.main_arg2 (by decide)

theorem k_arg2_0_10 : Cert.KernelIdeal.Gen.W10 m ρ c (Proc.devRef .tc Cert.KernelIdeal.main_arg2) = Cert.KernelIdeal.Gen.W0 m ρ c (Proc.devRef .tc Cert.KernelIdeal.main_arg2) :=
  (k_arg2_10 m ρ c).trans ((k_arg2_9 m ρ c).trans ((k_arg2_8 m ρ c).trans ((k_arg2_7 m ρ c).trans ((k_arg2_6 m ρ c).trans ((k_arg2_5 m ρ c).trans ((k_arg2_4 m ρ c).trans ((k_arg2_3 m ρ c).trans ((k_arg2_2 m ρ c).trans (k_arg2_1 m ρ c)))))))))

theorem k_arg2_10_14 : Cert.KernelIdeal.Gen.W14 m ρ c (Proc.devRef .tc Cert.KernelIdeal.main_arg2) = Cert.KernelIdeal.Gen.W10 m ρ c (Proc.devRef .tc Cert.KernelIdeal.main_arg2) :=
  (k_arg2_14 m ρ c).trans ((k_arg2_13 m ρ c).trans ((k_arg2_12 m ρ c).trans (k_arg2_11 m ρ c)))

theorem k_arg3_1 : Cert.KernelIdeal.Gen.W1 m ρ c (Proc.devRef .tc Cert.KernelIdeal.main_arg3) = Cert.KernelIdeal.Gen.W0 m ρ c (Proc.devRef .tc Cert.KernelIdeal.main_arg3) := by
  show StableHlo.after Cert.KernelIdeal.Gen.hostOps0 (Cert.KernelIdeal.Gen.W0 m ρ c) (Proc.devRef .tc Cert.KernelIdeal.main_arg3) = _
  after_results_simp

theorem k_arg3_2 : Cert.KernelIdeal.Gen.W2 m ρ c (Proc.devRef .tc Cert.KernelIdeal.main_arg3) = Cert.KernelIdeal.Gen.W1 m ρ c (Proc.devRef .tc Cert.KernelIdeal.main_arg3) := by
  show StableHlo.after Cert.KernelIdeal.Gen.hostOps0_1 (Cert.KernelIdeal.Gen.W1 m ρ c) (Proc.devRef .tc Cert.KernelIdeal.main_arg3) = _
  after_results_simp

theorem k_arg3_3 : Cert.KernelIdeal.Gen.W3 m ρ c (Proc.devRef .tc Cert.KernelIdeal.main_arg3) = Cert.KernelIdeal.Gen.W2 m ρ c (Proc.devRef .tc Cert.KernelIdeal.main_arg3) := by
  show StableHlo.after Cert.KernelIdeal.Gen.hostOps0_2 (Cert.KernelIdeal.Gen.W2 m ρ c) (Proc.devRef .tc Cert.KernelIdeal.main_arg3) = _
  after_results_simp

theorem k_arg3_4 : Cert.KernelIdeal.Gen.W4 m ρ c (Proc.devRef .tc Cert.KernelIdeal.main_arg3) = Cert.KernelIdeal.Gen.W3 m ρ c (Proc.devRef .tc Cert.KernelIdeal.main_arg3) :=
  Cert.KernelIdeal.Gen.W4_of_ne m ρ c Cert.KernelIdeal.main_arg3 (by decide)

theorem k_arg3_5 : Cert.KernelIdeal.Gen.W5 m ρ c (Proc.devRef .tc Cert.KernelIdeal.main_arg3) = Cert.KernelIdeal.Gen.W4 m ρ c (Proc.devRef .tc Cert.KernelIdeal.main_arg3) := by
  show StableHlo.after Cert.KernelIdeal.Gen.hostOps1 (Cert.KernelIdeal.Gen.W4 m ρ c) (Proc.devRef .tc Cert.KernelIdeal.main_arg3) = _
  after_results_simp

theorem k_arg3_6 : Cert.KernelIdeal.Gen.W6 m ρ c (Proc.devRef .tc Cert.KernelIdeal.main_arg3) = Cert.KernelIdeal.Gen.W5 m ρ c (Proc.devRef .tc Cert.KernelIdeal.main_arg3) :=
  Cert.KernelIdeal.Gen.W6_of_ne m ρ c Cert.KernelIdeal.main_arg3 (by decide)

theorem k_arg3_7 : Cert.KernelIdeal.Gen.W7 m ρ c (Proc.devRef .tc Cert.KernelIdeal.main_arg3) = Cert.KernelIdeal.Gen.W6 m ρ c (Proc.devRef .tc Cert.KernelIdeal.main_arg3) := by
  show StableHlo.after Cert.KernelIdeal.Gen.hostOps2 (Cert.KernelIdeal.Gen.W6 m ρ c) (Proc.devRef .tc Cert.KernelIdeal.main_arg3) = _
  after_results_simp

theorem k_arg3_8 : Cert.KernelIdeal.Gen.W8 m ρ c (Proc.devRef .tc Cert.KernelIdeal.main_arg3) = Cert.KernelIdeal.Gen.W7 m ρ c (Proc.devRef .tc Cert.KernelIdeal.main_arg3) :=
  Cert.KernelIdeal.Gen.W8_of_ne m ρ c Cert.KernelIdeal.main_arg3 (by decide)

theorem k_arg3_9 : Cert.KernelIdeal.Gen.W9 m ρ c (Proc.devRef .tc Cert.KernelIdeal.main_arg3) = Cert.KernelIdeal.Gen.W8 m ρ c (Proc.devRef .tc Cert.KernelIdeal.main_arg3) := by
  show StableHlo.after Cert.KernelIdeal.Gen.hostOps3 (Cert.KernelIdeal.Gen.W8 m ρ c) (Proc.devRef .tc Cert.KernelIdeal.main_arg3) = _
  after_results_simp

theorem k_arg3_10 : Cert.KernelIdeal.Gen.W10 m ρ c (Proc.devRef .tc Cert.KernelIdeal.main_arg3) = Cert.KernelIdeal.Gen.W9 m ρ c (Proc.devRef .tc Cert.KernelIdeal.main_arg3) :=
  Cert.KernelIdeal.Gen.W10_of_ne m ρ c Cert.KernelIdeal.main_arg3 (by decide)

theorem k_arg3_11 : Cert.KernelIdeal.Gen.W11 m ρ c (Proc.devRef .tc Cert.KernelIdeal.main_arg3) = Cert.KernelIdeal.Gen.W10 m ρ c (Proc.devRef .tc Cert.KernelIdeal.main_arg3) := by
  show StableHlo.after Cert.KernelIdeal.Gen.hostOps4 (Cert.KernelIdeal.Gen.W10 m ρ c) (Proc.devRef .tc Cert.KernelIdeal.main_arg3) = _
  after_results_simp

theorem k_arg3_12 : Cert.KernelIdeal.Gen.W12 m ρ c (Proc.devRef .tc Cert.KernelIdeal.main_arg3) = Cert.KernelIdeal.Gen.W11 m ρ c (Proc.devRef .tc Cert.KernelIdeal.main_arg3) :=
  Cert.KernelIdeal.Gen.W12_of_ne m ρ c Cert.KernelIdeal.main_arg3 (by decide)

theorem k_arg3_13 : Cert.KernelIdeal.Gen.W13 m ρ c (Proc.devRef .tc Cert.KernelIdeal.main_arg3) = Cert.KernelIdeal.Gen.W12 m ρ c (Proc.devRef .tc Cert.KernelIdeal.main_arg3) := by
  show StableHlo.after Cert.KernelIdeal.Gen.hostOps5 (Cert.KernelIdeal.Gen.W12 m ρ c) (Proc.devRef .tc Cert.KernelIdeal.main_arg3) = _
  after_results_simp

theorem k_arg3_14 : Cert.KernelIdeal.Gen.W14 m ρ c (Proc.devRef .tc Cert.KernelIdeal.main_arg3) = Cert.KernelIdeal.Gen.W13 m ρ c (Proc.devRef .tc Cert.KernelIdeal.main_arg3) :=
  Cert.KernelIdeal.Gen.W14_of_ne m ρ c Cert.KernelIdeal.main_arg3 (by decide)

theorem k_arg3_15 : Cert.KernelIdeal.Gen.W15 m ρ c (Proc.devRef .tc Cert.KernelIdeal.main_arg3) = Cert.KernelIdeal.Gen.W14 m ρ c (Proc.devRef .tc Cert.KernelIdeal.main_arg3) := by
  show StableHlo.after Cert.KernelIdeal.Gen.hostOps6 (Cert.KernelIdeal.Gen.W14 m ρ c) (Proc.devRef .tc Cert.KernelIdeal.main_arg3) = _
  after_results_simp

theorem k_arg3_16 : Cert.KernelIdeal.Gen.W16 m ρ c (Proc.devRef .tc Cert.KernelIdeal.main_arg3) = Cert.KernelIdeal.Gen.W15 m ρ c (Proc.devRef .tc Cert.KernelIdeal.main_arg3) :=
  Cert.KernelIdeal.Gen.W16_of_ne m ρ c Cert.KernelIdeal.main_arg3 (by decide)

theorem k_arg3_17 : Cert.KernelIdeal.Gen.W17 m ρ c (Proc.devRef .tc Cert.KernelIdeal.main_arg3) = Cert.KernelIdeal.Gen.W16 m ρ c (Proc.devRef .tc Cert.KernelIdeal.main_arg3) := by
  show StableHlo.after Cert.KernelIdeal.Gen.hostOps7 (Cert.KernelIdeal.Gen.W16 m ρ c) (Proc.devRef .tc Cert.KernelIdeal.main_arg3) = _
  after_results_simp

theorem k_arg3_18 : Cert.KernelIdeal.Gen.W18 m ρ c (Proc.devRef .tc Cert.KernelIdeal.main_arg3) = Cert.KernelIdeal.Gen.W17 m ρ c (Proc.devRef .tc Cert.KernelIdeal.main_arg3) :=
  Cert.KernelIdeal.Gen.W18_of_ne m ρ c Cert.KernelIdeal.main_arg3 (by decide)

theorem k_arg3_19 : Cert.KernelIdeal.Gen.W19 m ρ c (Proc.devRef .tc Cert.KernelIdeal.main_arg3) = Cert.KernelIdeal.Gen.W18 m ρ c (Proc.devRef .tc Cert.KernelIdeal.main_arg3) := by
  show StableHlo.after Cert.KernelIdeal.Gen.hostOps8 (Cert.KernelIdeal.Gen.W18 m ρ c) (Proc.devRef .tc Cert.KernelIdeal.main_arg3) = _
  after_results_simp

theorem k_arg3_20 : Cert.KernelIdeal.Gen.W20 m ρ c (Proc.devRef .tc Cert.KernelIdeal.main_arg3) = Cert.KernelIdeal.Gen.W19 m ρ c (Proc.devRef .tc Cert.KernelIdeal.main_arg3) :=
  Cert.KernelIdeal.Gen.W20_of_ne m ρ c Cert.KernelIdeal.main_arg3 (by decide)

theorem k_arg3_21 : Cert.KernelIdeal.Gen.W21 m ρ c (Proc.devRef .tc Cert.KernelIdeal.main_arg3) = Cert.KernelIdeal.Gen.W20 m ρ c (Proc.devRef .tc Cert.KernelIdeal.main_arg3) := by
  show StableHlo.after Cert.KernelIdeal.Gen.hostOps9 (Cert.KernelIdeal.Gen.W20 m ρ c) (Proc.devRef .tc Cert.KernelIdeal.main_arg3) = _
  after_results_simp

theorem k_arg3_22 : Cert.KernelIdeal.Gen.W22 m ρ c (Proc.devRef .tc Cert.KernelIdeal.main_arg3) = Cert.KernelIdeal.Gen.W21 m ρ c (Proc.devRef .tc Cert.KernelIdeal.main_arg3) :=
  Cert.KernelIdeal.Gen.W22_of_ne m ρ c Cert.KernelIdeal.main_arg3 (by decide)

theorem k_arg3_23 : Cert.KernelIdeal.Gen.W23 m ρ c (Proc.devRef .tc Cert.KernelIdeal.main_arg3) = Cert.KernelIdeal.Gen.W22 m ρ c (Proc.devRef .tc Cert.KernelIdeal.main_arg3) := by
  show StableHlo.after Cert.KernelIdeal.Gen.hostOps10 (Cert.KernelIdeal.Gen.W22 m ρ c) (Proc.devRef .tc Cert.KernelIdeal.main_arg3) = _
  after_results_simp

theorem k_arg3_24 : Cert.KernelIdeal.Gen.W24 m ρ c (Proc.devRef .tc Cert.KernelIdeal.main_arg3) = Cert.KernelIdeal.Gen.W23 m ρ c (Proc.devRef .tc Cert.KernelIdeal.main_arg3) :=
  Cert.KernelIdeal.Gen.W24_of_ne m ρ c Cert.KernelIdeal.main_arg3 (by decide)

theorem k_arg3_25 : Cert.KernelIdeal.Gen.W25 m ρ c (Proc.devRef .tc Cert.KernelIdeal.main_arg3) = Cert.KernelIdeal.Gen.W24 m ρ c (Proc.devRef .tc Cert.KernelIdeal.main_arg3) := by
  show StableHlo.after Cert.KernelIdeal.Gen.hostOps11 (Cert.KernelIdeal.Gen.W24 m ρ c) (Proc.devRef .tc Cert.KernelIdeal.main_arg3) = _
  after_results_simp

theorem k_arg3_26 : Cert.KernelIdeal.Gen.W26 m ρ c (Proc.devRef .tc Cert.KernelIdeal.main_arg3) = Cert.KernelIdeal.Gen.W25 m ρ c (Proc.devRef .tc Cert.KernelIdeal.main_arg3) :=
  Cert.KernelIdeal.Gen.W26_of_ne m ρ c Cert.KernelIdeal.main_arg3 (by decide)

theorem k_arg3_0_2 : Cert.KernelIdeal.Gen.W2 m ρ c (Proc.devRef .tc Cert.KernelIdeal.main_arg3) = Cert.KernelIdeal.Gen.W0 m ρ c (Proc.devRef .tc Cert.KernelIdeal.main_arg3) :=
  (k_arg3_2 m ρ c).trans (k_arg3_1 m ρ c)

theorem k_arg3_2_6 : Cert.KernelIdeal.Gen.W6 m ρ c (Proc.devRef .tc Cert.KernelIdeal.main_arg3) = Cert.KernelIdeal.Gen.W2 m ρ c (Proc.devRef .tc Cert.KernelIdeal.main_arg3) :=
  (k_arg3_6 m ρ c).trans ((k_arg3_5 m ρ c).trans ((k_arg3_4 m ρ c).trans (k_arg3_3 m ρ c)))

theorem k_arg3_6_18 : Cert.KernelIdeal.Gen.W18 m ρ c (Proc.devRef .tc Cert.KernelIdeal.main_arg3) = Cert.KernelIdeal.Gen.W6 m ρ c (Proc.devRef .tc Cert.KernelIdeal.main_arg3) :=
  (k_arg3_18 m ρ c).trans ((k_arg3_17 m ρ c).trans ((k_arg3_16 m ρ c).trans ((k_arg3_15 m ρ c).trans ((k_arg3_14 m ρ c).trans ((k_arg3_13 m ρ c).trans ((k_arg3_12 m ρ c).trans ((k_arg3_11 m ρ c).trans ((k_arg3_10 m ρ c).trans ((k_arg3_9 m ρ c).trans ((k_arg3_8 m ρ c).trans (k_arg3_7 m ρ c)))))))))))

theorem k_arg3_18_22 : Cert.KernelIdeal.Gen.W22 m ρ c (Proc.devRef .tc Cert.KernelIdeal.main_arg3) = Cert.KernelIdeal.Gen.W18 m ρ c (Proc.devRef .tc Cert.KernelIdeal.main_arg3) :=
  (k_arg3_22 m ρ c).trans ((k_arg3_21 m ρ c).trans ((k_arg3_20 m ρ c).trans (k_arg3_19 m ρ c)))

theorem k_arg3_22_26 : Cert.KernelIdeal.Gen.W26 m ρ c (Proc.devRef .tc Cert.KernelIdeal.main_arg3) = Cert.KernelIdeal.Gen.W22 m ρ c (Proc.devRef .tc Cert.KernelIdeal.main_arg3) :=
  (k_arg3_26 m ρ c).trans ((k_arg3_25 m ρ c).trans ((k_arg3_24 m ρ c).trans (k_arg3_23 m ρ c)))

theorem k_arg4_1 : Cert.KernelIdeal.Gen.W1 m ρ c (Proc.devRef .tc Cert.KernelIdeal.main_arg4) = Cert.KernelIdeal.Gen.W0 m ρ c (Proc.devRef .tc Cert.KernelIdeal.main_arg4) := by
  show StableHlo.after Cert.KernelIdeal.Gen.hostOps0 (Cert.KernelIdeal.Gen.W0 m ρ c) (Proc.devRef .tc Cert.KernelIdeal.main_arg4) = _
  after_results_simp

theorem k_arg4_2 : Cert.KernelIdeal.Gen.W2 m ρ c (Proc.devRef .tc Cert.KernelIdeal.main_arg4) = Cert.KernelIdeal.Gen.W1 m ρ c (Proc.devRef .tc Cert.KernelIdeal.main_arg4) := by
  show StableHlo.after Cert.KernelIdeal.Gen.hostOps0_1 (Cert.KernelIdeal.Gen.W1 m ρ c) (Proc.devRef .tc Cert.KernelIdeal.main_arg4) = _
  after_results_simp

theorem k_arg4_3 : Cert.KernelIdeal.Gen.W3 m ρ c (Proc.devRef .tc Cert.KernelIdeal.main_arg4) = Cert.KernelIdeal.Gen.W2 m ρ c (Proc.devRef .tc Cert.KernelIdeal.main_arg4) := by
  show StableHlo.after Cert.KernelIdeal.Gen.hostOps0_2 (Cert.KernelIdeal.Gen.W2 m ρ c) (Proc.devRef .tc Cert.KernelIdeal.main_arg4) = _
  after_results_simp

theorem k_arg4_4 : Cert.KernelIdeal.Gen.W4 m ρ c (Proc.devRef .tc Cert.KernelIdeal.main_arg4) = Cert.KernelIdeal.Gen.W3 m ρ c (Proc.devRef .tc Cert.KernelIdeal.main_arg4) :=
  Cert.KernelIdeal.Gen.W4_of_ne m ρ c Cert.KernelIdeal.main_arg4 (by decide)

theorem k_arg4_5 : Cert.KernelIdeal.Gen.W5 m ρ c (Proc.devRef .tc Cert.KernelIdeal.main_arg4) = Cert.KernelIdeal.Gen.W4 m ρ c (Proc.devRef .tc Cert.KernelIdeal.main_arg4) := by
  show StableHlo.after Cert.KernelIdeal.Gen.hostOps1 (Cert.KernelIdeal.Gen.W4 m ρ c) (Proc.devRef .tc Cert.KernelIdeal.main_arg4) = _
  after_results_simp

theorem k_arg4_6 : Cert.KernelIdeal.Gen.W6 m ρ c (Proc.devRef .tc Cert.KernelIdeal.main_arg4) = Cert.KernelIdeal.Gen.W5 m ρ c (Proc.devRef .tc Cert.KernelIdeal.main_arg4) :=
  Cert.KernelIdeal.Gen.W6_of_ne m ρ c Cert.KernelIdeal.main_arg4 (by decide)

theorem k_arg4_7 : Cert.KernelIdeal.Gen.W7 m ρ c (Proc.devRef .tc Cert.KernelIdeal.main_arg4) = Cert.KernelIdeal.Gen.W6 m ρ c (Proc.devRef .tc Cert.KernelIdeal.main_arg4) := by
  show StableHlo.after Cert.KernelIdeal.Gen.hostOps2 (Cert.KernelIdeal.Gen.W6 m ρ c) (Proc.devRef .tc Cert.KernelIdeal.main_arg4) = _
  after_results_simp

theorem k_arg4_8 : Cert.KernelIdeal.Gen.W8 m ρ c (Proc.devRef .tc Cert.KernelIdeal.main_arg4) = Cert.KernelIdeal.Gen.W7 m ρ c (Proc.devRef .tc Cert.KernelIdeal.main_arg4) :=
  Cert.KernelIdeal.Gen.W8_of_ne m ρ c Cert.KernelIdeal.main_arg4 (by decide)

theorem k_arg4_9 : Cert.KernelIdeal.Gen.W9 m ρ c (Proc.devRef .tc Cert.KernelIdeal.main_arg4) = Cert.KernelIdeal.Gen.W8 m ρ c (Proc.devRef .tc Cert.KernelIdeal.main_arg4) := by
  show StableHlo.after Cert.KernelIdeal.Gen.hostOps3 (Cert.KernelIdeal.Gen.W8 m ρ c) (Proc.devRef .tc Cert.KernelIdeal.main_arg4) = _
  after_results_simp

theorem k_arg4_10 : Cert.KernelIdeal.Gen.W10 m ρ c (Proc.devRef .tc Cert.KernelIdeal.main_arg4) = Cert.KernelIdeal.Gen.W9 m ρ c (Proc.devRef .tc Cert.KernelIdeal.main_arg4) :=
  Cert.KernelIdeal.Gen.W10_of_ne m ρ c Cert.KernelIdeal.main_arg4 (by decide)

theorem k_arg4_11 : Cert.KernelIdeal.Gen.W11 m ρ c (Proc.devRef .tc Cert.KernelIdeal.main_arg4) = Cert.KernelIdeal.Gen.W10 m ρ c (Proc.devRef .tc Cert.KernelIdeal.main_arg4) := by
  show StableHlo.after Cert.KernelIdeal.Gen.hostOps4 (Cert.KernelIdeal.Gen.W10 m ρ c) (Proc.devRef .tc Cert.KernelIdeal.main_arg4) = _
  after_results_simp

theorem k_arg4_12 : Cert.KernelIdeal.Gen.W12 m ρ c (Proc.devRef .tc Cert.KernelIdeal.main_arg4) = Cert.KernelIdeal.Gen.W11 m ρ c (Proc.devRef .tc Cert.KernelIdeal.main_arg4) :=
  Cert.KernelIdeal.Gen.W12_of_ne m ρ c Cert.KernelIdeal.main_arg4 (by decide)

theorem k_arg4_13 : Cert.KernelIdeal.Gen.W13 m ρ c (Proc.devRef .tc Cert.KernelIdeal.main_arg4) = Cert.KernelIdeal.Gen.W12 m ρ c (Proc.devRef .tc Cert.KernelIdeal.main_arg4) := by
  show StableHlo.after Cert.KernelIdeal.Gen.hostOps5 (Cert.KernelIdeal.Gen.W12 m ρ c) (Proc.devRef .tc Cert.KernelIdeal.main_arg4) = _
  after_results_simp

theorem k_arg4_14 : Cert.KernelIdeal.Gen.W14 m ρ c (Proc.devRef .tc Cert.KernelIdeal.main_arg4) = Cert.KernelIdeal.Gen.W13 m ρ c (Proc.devRef .tc Cert.KernelIdeal.main_arg4) :=
  Cert.KernelIdeal.Gen.W14_of_ne m ρ c Cert.KernelIdeal.main_arg4 (by decide)

theorem k_arg4_15 : Cert.KernelIdeal.Gen.W15 m ρ c (Proc.devRef .tc Cert.KernelIdeal.main_arg4) = Cert.KernelIdeal.Gen.W14 m ρ c (Proc.devRef .tc Cert.KernelIdeal.main_arg4) := by
  show StableHlo.after Cert.KernelIdeal.Gen.hostOps6 (Cert.KernelIdeal.Gen.W14 m ρ c) (Proc.devRef .tc Cert.KernelIdeal.main_arg4) = _
  after_results_simp

theorem k_arg4_16 : Cert.KernelIdeal.Gen.W16 m ρ c (Proc.devRef .tc Cert.KernelIdeal.main_arg4) = Cert.KernelIdeal.Gen.W15 m ρ c (Proc.devRef .tc Cert.KernelIdeal.main_arg4) :=
  Cert.KernelIdeal.Gen.W16_of_ne m ρ c Cert.KernelIdeal.main_arg4 (by decide)

theorem k_arg4_17 : Cert.KernelIdeal.Gen.W17 m ρ c (Proc.devRef .tc Cert.KernelIdeal.main_arg4) = Cert.KernelIdeal.Gen.W16 m ρ c (Proc.devRef .tc Cert.KernelIdeal.main_arg4) := by
  show StableHlo.after Cert.KernelIdeal.Gen.hostOps7 (Cert.KernelIdeal.Gen.W16 m ρ c) (Proc.devRef .tc Cert.KernelIdeal.main_arg4) = _
  after_results_simp

theorem k_arg4_18 : Cert.KernelIdeal.Gen.W18 m ρ c (Proc.devRef .tc Cert.KernelIdeal.main_arg4) = Cert.KernelIdeal.Gen.W17 m ρ c (Proc.devRef .tc Cert.KernelIdeal.main_arg4) :=
  Cert.KernelIdeal.Gen.W18_of_ne m ρ c Cert.KernelIdeal.main_arg4 (by decide)

theorem k_arg4_19 : Cert.KernelIdeal.Gen.W19 m ρ c (Proc.devRef .tc Cert.KernelIdeal.main_arg4) = Cert.KernelIdeal.Gen.W18 m ρ c (Proc.devRef .tc Cert.KernelIdeal.main_arg4) := by
  show StableHlo.after Cert.KernelIdeal.Gen.hostOps8 (Cert.KernelIdeal.Gen.W18 m ρ c) (Proc.devRef .tc Cert.KernelIdeal.main_arg4) = _
  after_results_simp

theorem k_arg4_20 : Cert.KernelIdeal.Gen.W20 m ρ c (Proc.devRef .tc Cert.KernelIdeal.main_arg4) = Cert.KernelIdeal.Gen.W19 m ρ c (Proc.devRef .tc Cert.KernelIdeal.main_arg4) :=
  Cert.KernelIdeal.Gen.W20_of_ne m ρ c Cert.KernelIdeal.main_arg4 (by decide)

theorem k_arg4_21 : Cert.KernelIdeal.Gen.W21 m ρ c (Proc.devRef .tc Cert.KernelIdeal.main_arg4) = Cert.KernelIdeal.Gen.W20 m ρ c (Proc.devRef .tc Cert.KernelIdeal.main_arg4) := by
  show StableHlo.after Cert.KernelIdeal.Gen.hostOps9 (Cert.KernelIdeal.Gen.W20 m ρ c) (Proc.devRef .tc Cert.KernelIdeal.main_arg4) = _
  after_results_simp

theorem k_arg4_22 : Cert.KernelIdeal.Gen.W22 m ρ c (Proc.devRef .tc Cert.KernelIdeal.main_arg4) = Cert.KernelIdeal.Gen.W21 m ρ c (Proc.devRef .tc Cert.KernelIdeal.main_arg4) :=
  Cert.KernelIdeal.Gen.W22_of_ne m ρ c Cert.KernelIdeal.main_arg4 (by decide)

theorem k_arg4_23 : Cert.KernelIdeal.Gen.W23 m ρ c (Proc.devRef .tc Cert.KernelIdeal.main_arg4) = Cert.KernelIdeal.Gen.W22 m ρ c (Proc.devRef .tc Cert.KernelIdeal.main_arg4) := by
  show StableHlo.after Cert.KernelIdeal.Gen.hostOps10 (Cert.KernelIdeal.Gen.W22 m ρ c) (Proc.devRef .tc Cert.KernelIdeal.main_arg4) = _
  after_results_simp

theorem k_arg4_24 : Cert.KernelIdeal.Gen.W24 m ρ c (Proc.devRef .tc Cert.KernelIdeal.main_arg4) = Cert.KernelIdeal.Gen.W23 m ρ c (Proc.devRef .tc Cert.KernelIdeal.main_arg4) :=
  Cert.KernelIdeal.Gen.W24_of_ne m ρ c Cert.KernelIdeal.main_arg4 (by decide)

theorem k_arg4_25 : Cert.KernelIdeal.Gen.W25 m ρ c (Proc.devRef .tc Cert.KernelIdeal.main_arg4) = Cert.KernelIdeal.Gen.W24 m ρ c (Proc.devRef .tc Cert.KernelIdeal.main_arg4) := by
  show StableHlo.after Cert.KernelIdeal.Gen.hostOps11 (Cert.KernelIdeal.Gen.W24 m ρ c) (Proc.devRef .tc Cert.KernelIdeal.main_arg4) = _
  after_results_simp

theorem k_arg4_26 : Cert.KernelIdeal.Gen.W26 m ρ c (Proc.devRef .tc Cert.KernelIdeal.main_arg4) = Cert.KernelIdeal.Gen.W25 m ρ c (Proc.devRef .tc Cert.KernelIdeal.main_arg4) :=
  Cert.KernelIdeal.Gen.W26_of_ne m ρ c Cert.KernelIdeal.main_arg4 (by decide)

theorem k_arg4_0_2 : Cert.KernelIdeal.Gen.W2 m ρ c (Proc.devRef .tc Cert.KernelIdeal.main_arg4) = Cert.KernelIdeal.Gen.W0 m ρ c (Proc.devRef .tc Cert.KernelIdeal.main_arg4) :=
  (k_arg4_2 m ρ c).trans (k_arg4_1 m ρ c)

theorem k_arg4_2_6 : Cert.KernelIdeal.Gen.W6 m ρ c (Proc.devRef .tc Cert.KernelIdeal.main_arg4) = Cert.KernelIdeal.Gen.W2 m ρ c (Proc.devRef .tc Cert.KernelIdeal.main_arg4) :=
  (k_arg4_6 m ρ c).trans ((k_arg4_5 m ρ c).trans ((k_arg4_4 m ρ c).trans (k_arg4_3 m ρ c)))

theorem k_arg4_6_18 : Cert.KernelIdeal.Gen.W18 m ρ c (Proc.devRef .tc Cert.KernelIdeal.main_arg4) = Cert.KernelIdeal.Gen.W6 m ρ c (Proc.devRef .tc Cert.KernelIdeal.main_arg4) :=
  (k_arg4_18 m ρ c).trans ((k_arg4_17 m ρ c).trans ((k_arg4_16 m ρ c).trans ((k_arg4_15 m ρ c).trans ((k_arg4_14 m ρ c).trans ((k_arg4_13 m ρ c).trans ((k_arg4_12 m ρ c).trans ((k_arg4_11 m ρ c).trans ((k_arg4_10 m ρ c).trans ((k_arg4_9 m ρ c).trans ((k_arg4_8 m ρ c).trans (k_arg4_7 m ρ c)))))))))))

theorem k_arg4_18_22 : Cert.KernelIdeal.Gen.W22 m ρ c (Proc.devRef .tc Cert.KernelIdeal.main_arg4) = Cert.KernelIdeal.Gen.W18 m ρ c (Proc.devRef .tc Cert.KernelIdeal.main_arg4) :=
  (k_arg4_22 m ρ c).trans ((k_arg4_21 m ρ c).trans ((k_arg4_20 m ρ c).trans (k_arg4_19 m ρ c)))

theorem k_arg4_22_26 : Cert.KernelIdeal.Gen.W26 m ρ c (Proc.devRef .tc Cert.KernelIdeal.main_arg4) = Cert.KernelIdeal.Gen.W22 m ρ c (Proc.devRef .tc Cert.KernelIdeal.main_arg4) :=
  (k_arg4_26 m ρ c).trans ((k_arg4_25 m ρ c).trans ((k_arg4_24 m ρ c).trans (k_arg4_23 m ρ c)))

end Cert.KernelIdeal.Carry

end
-- ==== Proof.KCarryArgsB.lean ====
/-
  Buffers of the idealized kernel that later stretches read long after they were written (the edge lists, the
  per-edge normalisation, the argument arrays): between the boundary where such a buffer is written and the boundary
  where it is read, no host operation writes it and no region has it among its arrays, so its contents are the same
  at both. One equation per boundary crossed, then their compositions.
-/
import proofs.«168298_j84988812853302_1_alg».proof.Proof.Gen.KernelIdeal.Frame
import Idealize.ShloMosaic.Lib.StableHlo.Run
import Idealize.ShloMosaic.PureOps.Ideal

set_option maxRecDepth 16384
set_option maxHeartbeats 4000000

noncomputable section

namespace Cert.KernelIdeal.Carry

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

theorem k_arg5_1 : Cert.KernelIdeal.Gen.W1 m ρ c (Proc.devRef .tc Cert.KernelIdeal.main_arg5) = Cert.KernelIdeal.Gen.W0 m ρ c (Proc.devRef .tc Cert.KernelIdeal.main_arg5) := by
  show StableHlo.after Cert.KernelIdeal.Gen.hostOps0 (Cert.KernelIdeal.Gen.W0 m ρ c) (Proc.devRef .tc Cert.KernelIdeal.main_arg5) = _
  after_results_simp

theorem k_arg5_2 : Cert.KernelIdeal.Gen.W2 m ρ c (Proc.devRef .tc Cert.KernelIdeal.main_arg5) = Cert.KernelIdeal.Gen.W1 m ρ c (Proc.devRef .tc Cert.KernelIdeal.main_arg5) := by
  show StableHlo.after Cert.KernelIdeal.Gen.hostOps0_1 (Cert.KernelIdeal.Gen.W1 m ρ c) (Proc.devRef .tc Cert.KernelIdeal.main_arg5) = _
  after_results_simp

theorem k_arg5_3 : Cert.KernelIdeal.Gen.W3 m ρ c (Proc.devRef .tc Cert.KernelIdeal.main_arg5) = Cert.KernelIdeal.Gen.W2 m ρ c (Proc.devRef .tc Cert.KernelIdeal.main_arg5) := by
  show StableHlo.after Cert.KernelIdeal.Gen.hostOps0_2 (Cert.KernelIdeal.Gen.W2 m ρ c) (Proc.devRef .tc Cert.KernelIdeal.main_arg5) = _
  after_results_simp

theorem k_arg5_4 : Cert.KernelIdeal.Gen.W4 m ρ c (Proc.devRef .tc Cert.KernelIdeal.main_arg5) = Cert.KernelIdeal.Gen.W3 m ρ c (Proc.devRef .tc Cert.KernelIdeal.main_arg5) :=
  Cert.KernelIdeal.Gen.W4_of_ne m ρ c Cert.KernelIdeal.main_arg5 (by decide)

theorem k_arg5_5 : Cert.KernelIdeal.Gen.W5 m ρ c (Proc.devRef .tc Cert.KernelIdeal.main_arg5) = Cert.KernelIdeal.Gen.W4 m ρ c (Proc.devRef .tc Cert.KernelIdeal.main_arg5) := by
  show StableHlo.after Cert.KernelIdeal.Gen.hostOps1 (Cert.KernelIdeal.Gen.W4 m ρ c) (Proc.devRef .tc Cert.KernelIdeal.main_arg5) = _
  after_results_simp

theorem k_arg5_6 : Cert.KernelIdeal.Gen.W6 m ρ c (Proc.devRef .tc Cert.KernelIdeal.main_arg5) = Cert.KernelIdeal.Gen.W5 m ρ c (Proc.devRef .tc Cert.KernelIdeal.main_arg5) :=
  Cert.KernelIdeal.Gen.W6_of_ne m ρ c Cert.KernelIdeal.main_arg5 (by decide)

theorem k_arg5_7 : Cert.KernelIdeal.Gen.W7 m ρ c (Proc.devRef .tc Cert.KernelIdeal.main_arg5) = Cert.KernelIdeal.Gen.W6 m ρ c (Proc.devRef .tc Cert.KernelIdeal.main_arg5) := by
  show StableHlo.after Cert.KernelIdeal.Gen.hostOps2 (Cert.KernelIdeal.Gen.W6 m ρ c) (Proc.devRef .tc Cert.KernelIdeal.main_arg5) = _
  after_results_simp

theorem k_arg5_8 : Cert.KernelIdeal.Gen.W8 m ρ c (Proc.devRef .tc Cert.KernelIdeal.main_arg5) = Cert.KernelIdeal.Gen.W7 m ρ c (Proc.devRef .tc Cert.KernelIdeal.main_arg5) :=
  Cert.KernelIdeal.Gen.W8_of_ne m ρ c Cert.KernelIdeal.main_arg5 (by decide)

theorem k_arg5_9 : Cert.KernelIdeal.Gen.W9 m ρ c (Proc.devRef .tc Cert.KernelIdeal.main_arg5) = Cert.KernelIdeal.Gen.W8 m ρ c (Proc.devRef .tc Cert.KernelIdeal.main_arg5) := by
  show StableHlo.after Cert.KernelIdeal.Gen.hostOps3 (Cert.KernelIdeal.Gen.W8 m ρ c) (Proc.devRef .tc Cert.KernelIdeal.main_arg5) = _
  after_results_simp

theorem k_arg5_10 : Cert.KernelIdeal.Gen.W10 m ρ c (Proc.devRef .tc Cert.KernelIdeal.main_arg5) = Cert.KernelIdeal.Gen.W9 m ρ c (Proc.devRef .tc Cert.KernelIdeal.main_arg5) :=
  Cert.KernelIdeal.Gen.W10_of_ne m ρ c Cert.KernelIdeal.main_arg5 (by decide)

theorem k_arg5_11 : Cert.KernelIdeal.Gen.W11 m ρ c (Proc.devRef .tc Cert.KernelIdeal.main_arg5) = Cert.KernelIdeal.Gen.W10 m ρ c (Proc.devRef .tc Cert.KernelIdeal.main_arg5) := by
  show StableHlo.after Cert.KernelIdeal.Gen.hostOps4 (Cert.KernelIdeal.Gen.W10 m ρ c) (Proc.devRef .tc Cert.KernelIdeal.main_arg5) = _
  after_results_simp

theorem k_arg5_12 : Cert.KernelIdeal.Gen.W12 m ρ c (Proc.devRef .tc Cert.KernelIdeal.main_arg5) = Cert.KernelIdeal.Gen.W11 m ρ c (Proc.devRef .tc Cert.KernelIdeal.main_arg5) :=
  Cert.KernelIdeal.Gen.W12_of_ne m ρ c Cert.KernelIdeal.main_arg5 (by decide)

theorem k_arg5_13 : Cert.KernelIdeal.Gen.W13 m ρ c (Proc.devRef .tc Cert.KernelIdeal.main_arg5) = Cert.KernelIdeal.Gen.W12 m ρ c (Proc.devRef .tc Cert.KernelIdeal.main_arg5) := by
  show StableHlo.after Cert.KernelIdeal.Gen.hostOps5 (Cert.KernelIdeal.Gen.W12 m ρ c) (Proc.devRef .tc Cert.KernelIdeal.main_arg5) = _
  after_results_simp

theorem k_arg5_14 : Cert.KernelIdeal.Gen.W14 m ρ c (Proc.devRef .tc Cert.KernelIdeal.main_arg5) = Cert.KernelIdeal.Gen.W13 m ρ c (Proc.devRef .tc Cert.KernelIdeal.main_arg5) :=
  Cert.KernelIdeal.Gen.W14_of_ne m ρ c Cert.KernelIdeal.main_arg5 (by decide)

theorem k_arg5_0_10 : Cert.KernelIdeal.Gen.W10 m ρ c (Proc.devRef .tc Cert.KernelIdeal.main_arg5) = Cert.KernelIdeal.Gen.W0 m ρ c (Proc.devRef .tc Cert.KernelIdeal.main_arg5) :=
  (k_arg5_10 m ρ c).trans ((k_arg5_9 m ρ c).trans ((k_arg5_8 m ρ c).trans ((k_arg5_7 m ρ c).trans ((k_arg5_6 m ρ c).trans ((k_arg5_5 m ρ c).trans ((k_arg5_4 m ρ c).trans ((k_arg5_3 m ρ c).trans ((k_arg5_2 m ρ c).trans (k_arg5_1 m ρ c)))))))))

theorem k_arg5_10_14 : Cert.KernelIdeal.Gen.W14 m ρ c (Proc.devRef .tc Cert.KernelIdeal.main_arg5) = Cert.KernelIdeal.Gen.W10 m ρ c (Proc.devRef .tc Cert.KernelIdeal.main_arg5) :=
  (k_arg5_14 m ρ c).trans ((k_arg5_13 m ρ c).trans ((k_arg5_12 m ρ c).trans (k_arg5_11 m ρ c)))

theorem k_arg6_1 : Cert.KernelIdeal.Gen.W1 m ρ c (Proc.devRef .tc Cert.KernelIdeal.main_arg6) = Cert.KernelIdeal.Gen.W0 m ρ c (Proc.devRef .tc Cert.KernelIdeal.main_arg6) := by
  show StableHlo.after Cert.KernelIdeal.Gen.hostOps0 (Cert.KernelIdeal.Gen.W0 m ρ c) (Proc.devRef .tc Cert.KernelIdeal.main_arg6) = _
  after_results_simp

theorem k_arg6_2 : Cert.KernelIdeal.Gen.W2 m ρ c (Proc.devRef .tc Cert.KernelIdeal.main_arg6) = Cert.KernelIdeal.Gen.W1 m ρ c (Proc.devRef .tc Cert.KernelIdeal.main_arg6) := by
  show StableHlo.after Cert.KernelIdeal.Gen.hostOps0_1 (Cert.KernelIdeal.Gen.W1 m ρ c) (Proc.devRef .tc Cert.KernelIdeal.main_arg6) = _
  after_results_simp

theorem k_arg6_3 : Cert.KernelIdeal.Gen.W3 m ρ c (Proc.devRef .tc Cert.KernelIdeal.main_arg6) = Cert.KernelIdeal.Gen.W2 m ρ c (Proc.devRef .tc Cert.KernelIdeal.main_arg6) := by
  show StableHlo.after Cert.KernelIdeal.Gen.hostOps0_2 (Cert.KernelIdeal.Gen.W2 m ρ c) (Proc.devRef .tc Cert.KernelIdeal.main_arg6) = _
  after_results_simp

theorem k_arg6_4 : Cert.KernelIdeal.Gen.W4 m ρ c (Proc.devRef .tc Cert.KernelIdeal.main_arg6) = Cert.KernelIdeal.Gen.W3 m ρ c (Proc.devRef .tc Cert.KernelIdeal.main_arg6) :=
  Cert.KernelIdeal.Gen.W4_of_ne m ρ c Cert.KernelIdeal.main_arg6 (by decide)

theorem k_arg6_5 : Cert.KernelIdeal.Gen.W5 m ρ c (Proc.devRef .tc Cert.KernelIdeal.main_arg6) = Cert.KernelIdeal.Gen.W4 m ρ c (Proc.devRef .tc Cert.KernelIdeal.main_arg6) := by
  show StableHlo.after Cert.KernelIdeal.Gen.hostOps1 (Cert.KernelIdeal.Gen.W4 m ρ c) (Proc.devRef .tc Cert.KernelIdeal.main_arg6) = _
  after_results_simp

theorem k_arg6_6 : Cert.KernelIdeal.Gen.W6 m ρ c (Proc.devRef .tc Cert.KernelIdeal.main_arg6) = Cert.KernelIdeal.Gen.W5 m ρ c (Proc.devRef .tc Cert.KernelIdeal.main_arg6) :=
  Cert.KernelIdeal.Gen.W6_of_ne m ρ c Cert.KernelIdeal.main_arg6 (by decide)

theorem k_arg6_7 : Cert.KernelIdeal.Gen.W7 m ρ c (Proc.devRef .tc Cert.KernelIdeal.main_arg6) = Cert.KernelIdeal.Gen.W6 m ρ c (Proc.devRef .tc Cert.KernelIdeal.main_arg6) := by
  show StableHlo.after Cert.KernelIdeal.Gen.hostOps2 (Cert.KernelIdeal.Gen.W6 m ρ c) (Proc.devRef .tc Cert.KernelIdeal.main_arg6) = _
  after_results_simp

theorem k_arg6_8 : Cert.KernelIdeal.Gen.W8 m ρ c (Proc.devRef .tc Cert.KernelIdeal.main_arg6) = Cert.KernelIdeal.Gen.W7 m ρ c (Proc.devRef .tc Cert.KernelIdeal.main_arg6) :=
  Cert.KernelIdeal.Gen.W8_of_ne m ρ c Cert.KernelIdeal.main_arg6 (by decide)

theorem k_arg6_9 : Cert.KernelIdeal.Gen.W9 m ρ c (Proc.devRef .tc Cert.KernelIdeal.main_arg6) = Cert.KernelIdeal.Gen.W8 m ρ c (Proc.devRef .tc Cert.KernelIdeal.main_arg6) := by
  show StableHlo.after Cert.KernelIdeal.Gen.hostOps3 (Cert.KernelIdeal.Gen.W8 m ρ c) (Proc.devRef .tc Cert.KernelIdeal.main_arg6) = _
  after_results_simp

theorem k_arg6_10 : Cert.KernelIdeal.Gen.W10 m ρ c (Proc.devRef .tc Cert.KernelIdeal.main_arg6) = Cert.KernelIdeal.Gen.W9 m ρ c (Proc.devRef .tc Cert.KernelIdeal.main_arg6) :=
  Cert.KernelIdeal.Gen.W10_of_ne m ρ c Cert.KernelIdeal.main_arg6 (by decide)

theorem k_arg6_11 : Cert.KernelIdeal.Gen.W11 m ρ c (Proc.devRef .tc Cert.KernelIdeal.main_arg6) = Cert.KernelIdeal.Gen.W10 m ρ c (Proc.devRef .tc Cert.KernelIdeal.main_arg6) := by
  show StableHlo.after Cert.KernelIdeal.Gen.hostOps4 (Cert.KernelIdeal.Gen.W10 m ρ c) (Proc.devRef .tc Cert.KernelIdeal.main_arg6) = _
  after_results_simp

theorem k_arg6_12 : Cert.KernelIdeal.Gen.W12 m ρ c (Proc.devRef .tc Cert.KernelIdeal.main_arg6) = Cert.KernelIdeal.Gen.W11 m ρ c (Proc.devRef .tc Cert.KernelIdeal.main_arg6) :=
  Cert.KernelIdeal.Gen.W12_of_ne m ρ c Cert.KernelIdeal.main_arg6 (by decide)

theorem k_arg6_13 : Cert.KernelIdeal.Gen.W13 m ρ c (Proc.devRef .tc Cert.KernelIdeal.main_arg6) = Cert.KernelIdeal.Gen.W12 m ρ c (Proc.devRef .tc Cert.KernelIdeal.main_arg6) := by
  show StableHlo.after Cert.KernelIdeal.Gen.hostOps5 (Cert.KernelIdeal.Gen.W12 m ρ c) (Proc.devRef .tc Cert.KernelIdeal.main_arg6) = _
  after_results_simp

theorem k_arg6_14 : Cert.KernelIdeal.Gen.W14 m ρ c (Proc.devRef .tc Cert.KernelIdeal.main_arg6) = Cert.KernelIdeal.Gen.W13 m ρ c (Proc.devRef .tc Cert.KernelIdeal.main_arg6) :=
  Cert.KernelIdeal.Gen.W14_of_ne m ρ c Cert.KernelIdeal.main_arg6 (by decide)

theorem k_arg6_0_10 : Cert.KernelIdeal.Gen.W10 m ρ c (Proc.devRef .tc Cert.KernelIdeal.main_arg6) = Cert.KernelIdeal.Gen.W0 m ρ c (Proc.devRef .tc Cert.KernelIdeal.main_arg6) :=
  (k_arg6_10 m ρ c).trans ((k_arg6_9 m ρ c).trans ((k_arg6_8 m ρ c).trans ((k_arg6_7 m ρ c).trans ((k_arg6_6 m ρ c).trans ((k_arg6_5 m ρ c).trans ((k_arg6_4 m ρ c).trans ((k_arg6_3 m ρ c).trans ((k_arg6_2 m ρ c).trans (k_arg6_1 m ρ c)))))))))

theorem k_arg6_10_14 : Cert.KernelIdeal.Gen.W14 m ρ c (Proc.devRef .tc Cert.KernelIdeal.main_arg6) = Cert.KernelIdeal.Gen.W10 m ρ c (Proc.devRef .tc Cert.KernelIdeal.main_arg6) :=
  (k_arg6_14 m ρ c).trans ((k_arg6_13 m ρ c).trans ((k_arg6_12 m ρ c).trans (k_arg6_11 m ρ c)))

theorem k_arg7_1 : Cert.KernelIdeal.Gen.W1 m ρ c (Proc.devRef .tc Cert.KernelIdeal.main_arg7) = Cert.KernelIdeal.Gen.W0 m ρ c (Proc.devRef .tc Cert.KernelIdeal.main_arg7) := by
  show StableHlo.after Cert.KernelIdeal.Gen.hostOps0 (Cert.KernelIdeal.Gen.W0 m ρ c) (Proc.devRef .tc Cert.KernelIdeal.main_arg7) = _
  after_results_simp

theorem k_arg7_2 : Cert.KernelIdeal.Gen.W2 m ρ c (Proc.devRef .tc Cert.KernelIdeal.main_arg7) = Cert.KernelIdeal.Gen.W1 m ρ c (Proc.devRef .tc Cert.KernelIdeal.main_arg7) := by
  show StableHlo.after Cert.KernelIdeal.Gen.hostOps0_1 (Cert.KernelIdeal.Gen.W1 m ρ c) (Proc.devRef .tc Cert.KernelIdeal.main_arg7) = _
  after_results_simp

theorem k_arg7_3 : Cert.KernelIdeal.Gen.W3 m ρ c (Proc.devRef .tc Cert.KernelIdeal.main_arg7) = Cert.KernelIdeal.Gen.W2 m ρ c (Proc.devRef .tc Cert.KernelIdeal.main_arg7) := by
  show StableHlo.after Cert.KernelIdeal.Gen.hostOps0_2 (Cert.KernelIdeal.Gen.W2 m ρ c) (Proc.devRef .tc Cert.KernelIdeal.main_arg7) = _
  after_results_simp

theorem k_arg7_4 : Cert.KernelIdeal.Gen.W4 m ρ c (Proc.devRef .tc Cert.KernelIdeal.main_arg7) = Cert.KernelIdeal.Gen.W3 m ρ c (Proc.devRef .tc Cert.KernelIdeal.main_arg7) :=
  Cert.KernelIdeal.Gen.W4_of_ne m ρ c Cert.KernelIdeal.main_arg7 (by decide)

theorem k_arg7_5 : Cert.KernelIdeal.Gen.W5 m ρ c (Proc.devRef .tc Cert.KernelIdeal.main_arg7) = Cert.KernelIdeal.Gen.W4 m ρ c (Proc.devRef .tc Cert.KernelIdeal.main_arg7) := by
  show StableHlo.after Cert.KernelIdeal.Gen.hostOps1 (Cert.KernelIdeal.Gen.W4 m ρ c) (Proc.devRef .tc Cert.KernelIdeal.main_arg7) = _
  after_results_simp

theorem k_arg7_6 : Cert.KernelIdeal.Gen.W6 m ρ c (Proc.devRef .tc Cert.KernelIdeal.main_arg7) = Cert.KernelIdeal.Gen.W5 m ρ c (Proc.devRef .tc Cert.KernelIdeal.main_arg7) :=
  Cert.KernelIdeal.Gen.W6_of_ne m ρ c Cert.KernelIdeal.main_arg7 (by decide)

theorem k_arg7_7 : Cert.KernelIdeal.Gen.W7 m ρ c (Proc.devRef .tc Cert.KernelIdeal.main_arg7) = Cert.KernelIdeal.Gen.W6 m ρ c (Proc.devRef .tc Cert.KernelIdeal.main_arg7) := by
  show StableHlo.after Cert.KernelIdeal.Gen.hostOps2 (Cert.KernelIdeal.Gen.W6 m ρ c) (Proc.devRef .tc Cert.KernelIdeal.main_arg7) = _
  after_results_simp

theorem k_arg7_8 : Cert.KernelIdeal.Gen.W8 m ρ c (Proc.devRef .tc Cert.KernelIdeal.main_arg7) = Cert.KernelIdeal.Gen.W7 m ρ c (Proc.devRef .tc Cert.KernelIdeal.main_arg7) :=
  Cert.KernelIdeal.Gen.W8_of_ne m ρ c Cert.KernelIdeal.main_arg7 (by decide)

theorem k_arg7_9 : Cert.KernelIdeal.Gen.W9 m ρ c (Proc.devRef .tc Cert.KernelIdeal.main_arg7) = Cert.KernelIdeal.Gen.W8 m ρ c (Proc.devRef .tc Cert.KernelIdeal.main_arg7) := by
  show StableHlo.after Cert.KernelIdeal.Gen.hostOps3 (Cert.KernelIdeal.Gen.W8 m ρ c) (Proc.devRef .tc Cert.KernelIdeal.main_arg7) = _
  after_results_simp

theorem k_arg7_10 : Cert.KernelIdeal.Gen.W10 m ρ c (Proc.devRef .tc Cert.KernelIdeal.main_arg7) = Cert.KernelIdeal.Gen.W9 m ρ c (Proc.devRef .tc Cert.KernelIdeal.main_arg7) :=
  Cert.KernelIdeal.Gen.W10_of_ne m ρ c Cert.KernelIdeal.main_arg7 (by decide)

theorem k_arg7_11 : Cert.KernelIdeal.Gen.W11 m ρ c (Proc.devRef .tc Cert.KernelIdeal.main_arg7) = Cert.KernelIdeal.Gen.W10 m ρ c (Proc.devRef .tc Cert.KernelIdeal.main_arg7) := by
  show StableHlo.after Cert.KernelIdeal.Gen.hostOps4 (Cert.KernelIdeal.Gen.W10 m ρ c) (Proc.devRef .tc Cert.KernelIdeal.main_arg7) = _
  after_results_simp

theorem k_arg7_12 : Cert.KernelIdeal.Gen.W12 m ρ c (Proc.devRef .tc Cert.KernelIdeal.main_arg7) = Cert.KernelIdeal.Gen.W11 m ρ c (Proc.devRef .tc Cert.KernelIdeal.main_arg7) :=
  Cert.KernelIdeal.Gen.W12_of_ne m ρ c Cert.KernelIdeal.main_arg7 (by decide)

theorem k_arg7_13 : Cert.KernelIdeal.Gen.W13 m ρ c (Proc.devRef .tc Cert.KernelIdeal.main_arg7) = Cert.KernelIdeal.Gen.W12 m ρ c (Proc.devRef .tc Cert.KernelIdeal.main_arg7) := by
  show StableHlo.after Cert.KernelIdeal.Gen.hostOps5 (Cert.KernelIdeal.Gen.W12 m ρ c) (Proc.devRef .tc Cert.KernelIdeal.main_arg7) = _
  after_results_simp

theorem k_arg7_14 : Cert.KernelIdeal.Gen.W14 m ρ c (Proc.devRef .tc Cert.KernelIdeal.main_arg7) = Cert.KernelIdeal.Gen.W13 m ρ c (Proc.devRef .tc Cert.KernelIdeal.main_arg7) :=
  Cert.KernelIdeal.Gen.W14_of_ne m ρ c Cert.KernelIdeal.main_arg7 (by decide)

theorem k_arg7_0_10 : Cert.KernelIdeal.Gen.W10 m ρ c (Proc.devRef .tc Cert.KernelIdeal.main_arg7) = Cert.KernelIdeal.Gen.W0 m ρ c (Proc.devRef .tc Cert.KernelIdeal.main_arg7) :=
  (k_arg7_10 m ρ c).trans ((k_arg7_9 m ρ c).trans ((k_arg7_8 m ρ c).trans ((k_arg7_7 m ρ c).trans ((k_arg7_6 m ρ c).trans ((k_arg7_5 m ρ c).trans ((k_arg7_4 m ρ c).trans ((k_arg7_3 m ρ c).trans ((k_arg7_2 m ρ c).trans (k_arg7_1 m ρ c)))))))))

theorem k_arg7_10_14 : Cert.KernelIdeal.Gen.W14 m ρ c (Proc.devRef .tc Cert.KernelIdeal.main_arg7) = Cert.KernelIdeal.Gen.W10 m ρ c (Proc.devRef .tc Cert.KernelIdeal.main_arg7) :=
  (k_arg7_14 m ρ c).trans ((k_arg7_13 m ρ c).trans ((k_arg7_12 m ρ c).trans (k_arg7_11 m ρ c)))

theorem k_arg8_1 : Cert.KernelIdeal.Gen.W1 m ρ c (Proc.devRef .tc Cert.KernelIdeal.main_arg8) = Cert.KernelIdeal.Gen.W0 m ρ c (Proc.devRef .tc Cert.KernelIdeal.main_arg8) := by
  show StableHlo.after Cert.KernelIdeal.Gen.hostOps0 (Cert.KernelIdeal.Gen.W0 m ρ c) (Proc.devRef .tc Cert.KernelIdeal.main_arg8) = _
  after_results_simp

theorem k_arg8_2 : Cert.KernelIdeal.Gen.W2 m ρ c (Proc.devRef .tc Cert.KernelIdeal.main_arg8) = Cert.KernelIdeal.Gen.W1 m ρ c (Proc.devRef .tc Cert.KernelIdeal.main_arg8) := by
  show StableHlo.after Cert.KernelIdeal.Gen.hostOps0_1 (Cert.KernelIdeal.Gen.W1 m ρ c) (Proc.devRef .tc Cert.KernelIdeal.main_arg8) = _
  after_results_simp

theorem k_arg8_3 : Cert.KernelIdeal.Gen.W3 m ρ c (Proc.devRef .tc Cert.KernelIdeal.main_arg8) = Cert.KernelIdeal.Gen.W2 m ρ c (Proc.devRef .tc Cert.KernelIdeal.main_arg8) := by
  show StableHlo.after Cert.KernelIdeal.Gen.hostOps0_2 (Cert.KernelIdeal.Gen.W2 m ρ c) (Proc.devRef .tc Cert.KernelIdeal.main_arg8) = _
  after_results_simp

theorem k_arg8_4 : Cert.KernelIdeal.Gen.W4 m ρ c (Proc.devRef .tc Cert.KernelIdeal.main_arg8) = Cert.KernelIdeal.Gen.W3 m ρ c (Proc.devRef .tc Cert.KernelIdeal.main_arg8) :=
  Cert.KernelIdeal.Gen.W4_of_ne m ρ c Cert.KernelIdeal.main_arg8 (by decide)

theorem k_arg8_5 : Cert.KernelIdeal.Gen.W5 m ρ c (Proc.devRef .tc Cert.KernelIdeal.main_arg8) = Cert.KernelIdeal.Gen.W4 m ρ c (Proc.devRef .tc Cert.KernelIdeal.main_arg8) := by
  show StableHlo.after Cert.KernelIdeal.Gen.hostOps1 (Cert.KernelIdeal.Gen.W4 m ρ c) (Proc.devRef .tc Cert.KernelIdeal.main_arg8) = _
  after_results_simp

theorem k_arg8_6 : Cert.KernelIdeal.Gen.W6 m ρ c (Proc.devRef .tc Cert.KernelIdeal.main_arg8) = Cert.KernelIdeal.Gen.W5 m ρ c (Proc.devRef .tc Cert.KernelIdeal.main_arg8) :=
  Cert.KernelIdeal.Gen.W6_of_ne m ρ c Cert.KernelIdeal.main_arg8 (by decide)

theorem k_arg8_7 : Cert.KernelIdeal.Gen.W7 m ρ c (Proc.devRef .tc Cert.KernelIdeal.main_arg8) = Cert.KernelIdeal.Gen.W6 m ρ c (Proc.devRef .tc Cert.KernelIdeal.main_arg8) := by
  show StableHlo.after Cert.KernelIdeal.Gen.hostOps2 (Cert.KernelIdeal.Gen.W6 m ρ c) (Proc.devRef .tc Cert.KernelIdeal.main_arg8) = _
  after_results_simp

theorem k_arg8_8 : Cert.KernelIdeal.Gen.W8 m ρ c (Proc.devRef .tc Cert.KernelIdeal.main_arg8) = Cert.KernelIdeal.Gen.W7 m ρ c (Proc.devRef .tc Cert.KernelIdeal.main_arg8) :=
  Cert.KernelIdeal.Gen.W8_of_ne m ρ c Cert.KernelIdeal.main_arg8 (by decide)

theorem k_arg8_9 : Cert.KernelIdeal.Gen.W9 m ρ c (Proc.devRef .tc Cert.KernelIdeal.main_arg8) = Cert.KernelIdeal.Gen.W8 m ρ c (Proc.devRef .tc Cert.KernelIdeal.main_arg8) := by
  show StableHlo.after Cert.KernelIdeal.Gen.hostOps3 (Cert.KernelIdeal.Gen.W8 m ρ c) (Proc.devRef .tc Cert.KernelIdeal.main_arg8) = _
  after_results_simp

theorem k_arg8_10 : Cert.KernelIdeal.Gen.W10 m ρ c (Proc.devRef .tc Cert.KernelIdeal.main_arg8) = Cert.KernelIdeal.Gen.W9 m ρ c (Proc.devRef .tc Cert.KernelIdeal.main_arg8) :=
  Cert.KernelIdeal.Gen.W10_of_ne m ρ c Cert.KernelIdeal.main_arg8 (by decide)

theorem k_arg8_11 : Cert.KernelIdeal.Gen.W11 m ρ c (Proc.devRef .tc Cert.KernelIdeal.main_arg8) = Cert.KernelIdeal.Gen.W10 m ρ c (Proc.devRef .tc Cert.KernelIdeal.main_arg8) := by
  show StableHlo.after Cert.KernelIdeal.Gen.hostOps4 (Cert.KernelIdeal.Gen.W10 m ρ c) (Proc.devRef .tc Cert.KernelIdeal.main_arg8) = _
  after_results_simp

theorem k_arg8_12 : Cert.KernelIdeal.Gen.W12 m ρ c (Proc.devRef .tc Cert.KernelIdeal.main_arg8) = Cert.KernelIdeal.Gen.W11 m ρ c (Proc.devRef .tc Cert.KernelIdeal.main_arg8) :=
  Cert.KernelIdeal.Gen.W12_of_ne m ρ c Cert.KernelIdeal.main_arg8 (by decide)

theorem k_arg8_13 : Cert.KernelIdeal.Gen.W13 m ρ c (Proc.devRef .tc Cert.KernelIdeal.main_arg8) = Cert.KernelIdeal.Gen.W12 m ρ c (Proc.devRef .tc Cert.KernelIdeal.main_arg8) := by
  show StableHlo.after Cert.KernelIdeal.Gen.hostOps5 (Cert.KernelIdeal.Gen.W12 m ρ c) (Proc.devRef .tc Cert.KernelIdeal.main_arg8) = _
  after_results_simp

theorem k_arg8_14 : Cert.KernelIdeal.Gen.W14 m ρ c (Proc.devRef .tc Cert.KernelIdeal.main_arg8) = Cert.KernelIdeal.Gen.W13 m ρ c (Proc.devRef .tc Cert.KernelIdeal.main_arg8) :=
  Cert.KernelIdeal.Gen.W14_of_ne m ρ c Cert.KernelIdeal.main_arg8 (by decide)

theorem k_arg8_0_10 : Cert.KernelIdeal.Gen.W10 m ρ c (Proc.devRef .tc Cert.KernelIdeal.main_arg8) = Cert.KernelIdeal.Gen.W0 m ρ c (Proc.devRef .tc Cert.KernelIdeal.main_arg8) :=
  (k_arg8_10 m ρ c).trans ((k_arg8_9 m ρ c).trans ((k_arg8_8 m ρ c).trans ((k_arg8_7 m ρ c).trans ((k_arg8_6 m ρ c).trans ((k_arg8_5 m ρ c).trans ((k_arg8_4 m ρ c).trans ((k_arg8_3 m ρ c).trans ((k_arg8_2 m ρ c).trans (k_arg8_1 m ρ c)))))))))

theorem k_arg8_10_14 : Cert.KernelIdeal.Gen.W14 m ρ c (Proc.devRef .tc Cert.KernelIdeal.main_arg8) = Cert.KernelIdeal.Gen.W10 m ρ c (Proc.devRef .tc Cert.KernelIdeal.main_arg8) :=
  (k_arg8_14 m ρ c).trans ((k_arg8_13 m ρ c).trans ((k_arg8_12 m ρ c).trans (k_arg8_11 m ρ c)))

end Cert.KernelIdeal.Carry

end
-- ==== Proof.KCarryShort.lean ====
/-
  Buffers of the idealized kernel that later stretches read long after they were written (the edge lists, the
  per-edge normalisation, the argument arrays): between the boundary where such a buffer is written and the boundary
  where it is read, no host operation writes it and no region has it among its arrays, so its contents are the same
  at both. One equation per boundary crossed, then their compositions.
-/
import proofs.«168298_j84988812853302_1_alg».proof.Proof.Gen.KernelIdeal.Frame
import Idealize.ShloMosaic.Lib.StableHlo.Run
import Idealize.ShloMosaic.PureOps.Ideal

set_option maxRecDepth 16384
set_option maxHeartbeats 4000000

noncomputable section

namespace Cert.KernelIdeal.Carry

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

theorem k_v50_7 : Cert.KernelIdeal.Gen.W7 m ρ c (Proc.devRef .tc Cert.KernelIdeal.main_v50) = Cert.KernelIdeal.Gen.W6 m ρ c (Proc.devRef .tc Cert.KernelIdeal.main_v50) := by
  show StableHlo.after Cert.KernelIdeal.Gen.hostOps2 (Cert.KernelIdeal.Gen.W6 m ρ c) (Proc.devRef .tc Cert.KernelIdeal.main_v50) = _
  after_results_simp

theorem k_v50_6_7 : Cert.KernelIdeal.Gen.W7 m ρ c (Proc.devRef .tc Cert.KernelIdeal.main_v50) = Cert.KernelIdeal.Gen.W6 m ρ c (Proc.devRef .tc Cert.KernelIdeal.main_v50) :=
  k_v50_7 m ρ c

theorem k_v54_8 : Cert.KernelIdeal.Gen.W8 m ρ c (Proc.devRef .tc Cert.KernelIdeal.main_v54) = Cert.KernelIdeal.Gen.W7 m ρ c (Proc.devRef .tc Cert.KernelIdeal.main_v54) :=
  Cert.KernelIdeal.Gen.W8_of_ne m ρ c Cert.KernelIdeal.main_v54 (by decide)

theorem k_v54_7_8 : Cert.KernelIdeal.Gen.W8 m ρ c (Proc.devRef .tc Cert.KernelIdeal.main_v54) = Cert.KernelIdeal.Gen.W7 m ρ c (Proc.devRef .tc Cert.KernelIdeal.main_v54) :=
  k_v54_8 m ρ c

theorem k_v76_12 : Cert.KernelIdeal.Gen.W12 m ρ c (Proc.devRef .tc Cert.KernelIdeal.main_v76) = Cert.KernelIdeal.Gen.W11 m ρ c (Proc.devRef .tc Cert.KernelIdeal.main_v76) :=
  Cert.KernelIdeal.Gen.W12_of_ne m ρ c Cert.KernelIdeal.main_v76 (by decide)

theorem k_v76_11_12 : Cert.KernelIdeal.Gen.W12 m ρ c (Proc.devRef .tc Cert.KernelIdeal.main_v76) = Cert.KernelIdeal.Gen.W11 m ρ c (Proc.devRef .tc Cert.KernelIdeal.main_v76) :=
  k_v76_12 m ρ c

theorem k_v78_12 : Cert.KernelIdeal.Gen.W12 m ρ c (Proc.devRef .tc Cert.KernelIdeal.main_v78) = Cert.KernelIdeal.Gen.W11 m ρ c (Proc.devRef .tc Cert.KernelIdeal.main_v78) :=
  Cert.KernelIdeal.Gen.W12_of_ne m ρ c Cert.KernelIdeal.main_v78 (by decide)

theorem k_v78_11_12 : Cert.KernelIdeal.Gen.W12 m ρ c (Proc.devRef .tc Cert.KernelIdeal.main_v78) = Cert.KernelIdeal.Gen.W11 m ρ c (Proc.devRef .tc Cert.KernelIdeal.main_v78) :=
  k_v78_12 m ρ c

theorem k_v90_13 : Cert.KernelIdeal.Gen.W13 m ρ c (Proc.devRef .tc Cert.KernelIdeal.main_v90) = Cert.KernelIdeal.Gen.W12 m ρ c (Proc.devRef .tc Cert.KernelIdeal.main_v90) := by
  show StableHlo.after Cert.KernelIdeal.Gen.hostOps5 (Cert.KernelIdeal.Gen.W12 m ρ c) (Proc.devRef .tc Cert.KernelIdeal.main_v90) = _
  after_results_simp

theorem k_v90_12_13 : Cert.KernelIdeal.Gen.W13 m ρ c (Proc.devRef .tc Cert.KernelIdeal.main_v90) = Cert.KernelIdeal.Gen.W12 m ρ c (Proc.devRef .tc Cert.KernelIdeal.main_v90) :=
  k_v90_13 m ρ c

theorem k_v116_16 : Cert.KernelIdeal.Gen.W16 m ρ c (Proc.devRef .tc Cert.KernelIdeal.main_v116) = Cert.KernelIdeal.Gen.W15 m ρ c (Proc.devRef .tc Cert.KernelIdeal.main_v116) :=
  Cert.KernelIdeal.Gen.W16_of_ne m ρ c Cert.KernelIdeal.main_v116 (by decide)

theorem k_v116_15_16 : Cert.KernelIdeal.Gen.W16 m ρ c (Proc.devRef .tc Cert.KernelIdeal.main_v116) = Cert.KernelIdeal.Gen.W15 m ρ c (Proc.devRef .tc Cert.KernelIdeal.main_v116) :=
  k_v116_16 m ρ c

theorem k_v118_16 : Cert.KernelIdeal.Gen.W16 m ρ c (Proc.devRef .tc Cert.KernelIdeal.main_v118) = Cert.KernelIdeal.Gen.W15 m ρ c (Proc.devRef .tc Cert.KernelIdeal.main_v118) :=
  Cert.KernelIdeal.Gen.W16_of_ne m ρ c Cert.KernelIdeal.main_v118 (by decide)

theorem k_v118_15_16 : Cert.KernelIdeal.Gen.W16 m ρ c (Proc.devRef .tc Cert.KernelIdeal.main_v118) = Cert.KernelIdeal.Gen.W15 m ρ c (Proc.devRef .tc Cert.KernelIdeal.main_v118) :=
  k_v118_16 m ρ c

theorem k_v130_17 : Cert.KernelIdeal.Gen.W17 m ρ c (Proc.devRef .tc Cert.KernelIdeal.main_v130) = Cert.KernelIdeal.Gen.W16 m ρ c (Proc.devRef .tc Cert.KernelIdeal.main_v130) := by
  show StableHlo.after Cert.KernelIdeal.Gen.hostOps7 (Cert.KernelIdeal.Gen.W16 m ρ c) (Proc.devRef .tc Cert.KernelIdeal.main_v130) = _
  after_results_simp

theorem k_v130_16_17 : Cert.KernelIdeal.Gen.W17 m ρ c (Proc.devRef .tc Cert.KernelIdeal.main_v130) = Cert.KernelIdeal.Gen.W16 m ρ c (Proc.devRef .tc Cert.KernelIdeal.main_v130) :=
  k_v130_17 m ρ c

theorem k_v150_19 : Cert.KernelIdeal.Gen.W19 m ρ c (Proc.devRef .tc Cert.KernelIdeal.main_v150) = Cert.KernelIdeal.Gen.W18 m ρ c (Proc.devRef .tc Cert.KernelIdeal.main_v150) := by
  show StableHlo.after Cert.KernelIdeal.Gen.hostOps8 (Cert.KernelIdeal.Gen.W18 m ρ c) (Proc.devRef .tc Cert.KernelIdeal.main_v150) = _
  after_results_simp

theorem k_v150_18_19 : Cert.KernelIdeal.Gen.W19 m ρ c (Proc.devRef .tc Cert.KernelIdeal.main_v150) = Cert.KernelIdeal.Gen.W18 m ρ c (Proc.devRef .tc Cert.KernelIdeal.main_v150) :=
  k_v150_19 m ρ c

theorem k_v154_20 : Cert.KernelIdeal.Gen.W20 m ρ c (Proc.devRef .tc Cert.KernelIdeal.main_v154) = Cert.KernelIdeal.Gen.W19 m ρ c (Proc.devRef .tc Cert.KernelIdeal.main_v154) :=
  Cert.KernelIdeal.Gen.W20_of_ne m ρ c Cert.KernelIdeal.main_v154 (by decide)

theorem k_v154_19_20 : Cert.KernelIdeal.Gen.W20 m ρ c (Proc.devRef .tc Cert.KernelIdeal.main_v154) = Cert.KernelIdeal.Gen.W19 m ρ c (Proc.devRef .tc Cert.KernelIdeal.main_v154) :=
  k_v154_20 m ρ c

theorem k_v170_23 : Cert.KernelIdeal.Gen.W23 m ρ c (Proc.devRef .tc Cert.KernelIdeal.main_v170) = Cert.KernelIdeal.Gen.W22 m ρ c (Proc.devRef .tc Cert.KernelIdeal.main_v170) := by
  show StableHlo.after Cert.KernelIdeal.Gen.hostOps10 (Cert.KernelIdeal.Gen.W22 m ρ c) (Proc.devRef .tc Cert.KernelIdeal.main_v170) = _
  after_results_simp

theorem k_v170_22_23 : Cert.KernelIdeal.Gen.W23 m ρ c (Proc.devRef .tc Cert.KernelIdeal.main_v170) = Cert.KernelIdeal.Gen.W22 m ρ c (Proc.devRef .tc Cert.KernelIdeal.main_v170) :=
  k_v170_23 m ρ c

theorem k_v174_24 : Cert.KernelIdeal.Gen.W24 m ρ c (Proc.devRef .tc Cert.KernelIdeal.main_v174) = Cert.KernelIdeal.Gen.W23 m ρ c (Proc.devRef .tc Cert.KernelIdeal.main_v174) :=
  Cert.KernelIdeal.Gen.W24_of_ne m ρ c Cert.KernelIdeal.main_v174 (by decide)

theorem k_v174_23_24 : Cert.KernelIdeal.Gen.W24 m ρ c (Proc.devRef .tc Cert.KernelIdeal.main_v174) = Cert.KernelIdeal.Gen.W23 m ρ c (Proc.devRef .tc Cert.KernelIdeal.main_v174) :=
  k_v174_24 m ρ c

theorem k_v190_27 : Cert.KernelIdeal.Gen.W27 m ρ c (Proc.devRef .tc Cert.KernelIdeal.main_v190) = Cert.KernelIdeal.Gen.W26 m ρ c (Proc.devRef .tc Cert.KernelIdeal.main_v190) := by
  show StableHlo.after Cert.KernelIdeal.Gen.hostOps12 (Cert.KernelIdeal.Gen.W26 m ρ c) (Proc.devRef .tc Cert.KernelIdeal.main_v190) = _
  after_results_simp

theorem k_v190_26_27 : Cert.KernelIdeal.Gen.W27 m ρ c (Proc.devRef .tc Cert.KernelIdeal.main_v190) = Cert.KernelIdeal.Gen.W26 m ρ c (Proc.devRef .tc Cert.KernelIdeal.main_v190) :=
  k_v190_27 m ρ c

theorem k_v194_28 : Cert.KernelIdeal.Gen.W28 m ρ c (Proc.devRef .tc Cert.KernelIdeal.main_v194) = Cert.KernelIdeal.Gen.W27 m ρ c (Proc.devRef .tc Cert.KernelIdeal.main_v194) :=
  Cert.KernelIdeal.Gen.W28_of_ne m ρ c Cert.KernelIdeal.main_v194 (by decide)

theorem k_v194_27_28 : Cert.KernelIdeal.Gen.W28 m ρ c (Proc.devRef .tc Cert.KernelIdeal.main_v194) = Cert.KernelIdeal.Gen.W27 m ρ c (Proc.devRef .tc Cert.KernelIdeal.main_v194) :=
  k_v194_28 m ρ c

end Cert.KernelIdeal.Carry

end
-- ==== Proof.RCarryEdges.lean ====
/-
  Buffers of the reference that later stretches read long after they were written (the edge lists, the per-edge
  normalisation, the argument arrays): no operation in between writes them, so their contents are the same at both
  boundaries. One equation per stretch crossed, then their compositions.
-/
import proofs.«168298_j84988812853302_1_alg».proof.Proof.RefSegs
import Idealize.ShloMosaic.PureOps.Ideal

set_option maxRecDepth 16384
set_option maxHeartbeats 4000000

noncomputable section

namespace Cert.ReferenceIdeal.Carry

open Idealize.ShloMosaic Idealize.ShloMosaic.TcCoe Idealize.SL.Sem Idealize.ShloMosaic.StableHlo

variable (m' : (ℓ : Loc Cert.ReferenceIdeal.nD Cert.ReferenceIdeal.τ Cert.ReferenceIdeal.sig) → Buf (Elt Ideal) ℓ)
  (c : Dev Cert.ReferenceIdeal.nD)

theorem r_v3_2 : Cert.ReferenceIdeal.Segs.U2 m' c (Proc.devRef .tc Cert.ReferenceIdeal.main_v3) = Cert.ReferenceIdeal.Segs.U1 m' c (Proc.devRef .tc Cert.ReferenceIdeal.main_v3) := by
  show StableHlo.after Cert.ReferenceIdeal.Segs.seg1 (Cert.ReferenceIdeal.Segs.U1 m' c) (Proc.devRef .tc Cert.ReferenceIdeal.main_v3) = _
  after_results_simp

theorem r_v3_3 : Cert.ReferenceIdeal.Segs.U3 m' c (Proc.devRef .tc Cert.ReferenceIdeal.main_v3) = Cert.ReferenceIdeal.Segs.U2 m' c (Proc.devRef .tc Cert.ReferenceIdeal.main_v3) := by
  show StableHlo.after Cert.ReferenceIdeal.Segs.seg2 (Cert.ReferenceIdeal.Segs.U2 m' c) (Proc.devRef .tc Cert.ReferenceIdeal.main_v3) = _
  after_results_simp

theorem r_v3_4 : Cert.ReferenceIdeal.Segs.U4 m' c (Proc.devRef .tc Cert.ReferenceIdeal.main_v3) = Cert.ReferenceIdeal.Segs.U3 m' c (Proc.devRef .tc Cert.ReferenceIdeal.main_v3) := by
  show StableHlo.after Cert.ReferenceIdeal.Segs.seg3 (Cert.ReferenceIdeal.Segs.U3 m' c) (Proc.devRef .tc Cert.ReferenceIdeal.main_v3) = _
  after_results_simp

theorem r_v3_5 : Cert.ReferenceIdeal.Segs.U5 m' c (Proc.devRef .tc Cert.ReferenceIdeal.main_v3) = Cert.ReferenceIdeal.Segs.U4 m' c (Proc.devRef .tc Cert.ReferenceIdeal.main_v3) := by
  show StableHlo.after Cert.ReferenceIdeal.Segs.seg4 (Cert.ReferenceIdeal.Segs.U4 m' c) (Proc.devRef .tc Cert.ReferenceIdeal.main_v3) = _
  after_results_simp

theorem r_v3_6 : Cert.ReferenceIdeal.Segs.U6 m' c (Proc.devRef .tc Cert.ReferenceIdeal.main_v3) = Cert.ReferenceIdeal.Segs.U5 m' c (Proc.devRef .tc Cert.ReferenceIdeal.main_v3) := by
  show StableHlo.after Cert.ReferenceIdeal.Segs.seg5 (Cert.ReferenceIdeal.Segs.U5 m' c) (Proc.devRef .tc Cert.ReferenceIdeal.main_v3) = _
  after_results_simp

theorem r_v3_7 : Cert.ReferenceIdeal.Segs.U7 m' c (Proc.devRef .tc Cert.ReferenceIdeal.main_v3) = Cert.ReferenceIdeal.Segs.U6 m' c (Proc.devRef .tc Cert.ReferenceIdeal.main_v3) := by
  show StableHlo.after Cert.ReferenceIdeal.Segs.seg6 (Cert.ReferenceIdeal.Segs.U6 m' c) (Proc.devRef .tc Cert.ReferenceIdeal.main_v3) = _
  after_results_simp

theorem r_v3_8 : Cert.ReferenceIdeal.Segs.U8 m' c (Proc.devRef .tc Cert.ReferenceIdeal.main_v3) = Cert.ReferenceIdeal.Segs.U7 m' c (Proc.devRef .tc Cert.ReferenceIdeal.main_v3) := by
  show StableHlo.after Cert.ReferenceIdeal.Segs.seg7 (Cert.ReferenceIdeal.Segs.U7 m' c) (Proc.devRef .tc Cert.ReferenceIdeal.main_v3) = _
  after_results_simp

theorem r_v3_9 : Cert.ReferenceIdeal.Segs.U9 m' c (Proc.devRef .tc Cert.ReferenceIdeal.main_v3) = Cert.ReferenceIdeal.Segs.U8 m' c (Proc.devRef .tc Cert.ReferenceIdeal.main_v3) := by
  show StableHlo.after Cert.ReferenceIdeal.Segs.seg8 (Cert.ReferenceIdeal.Segs.U8 m' c) (Proc.devRef .tc Cert.ReferenceIdeal.main_v3) = _
  after_results_simp

theorem r_v3_10 : Cert.ReferenceIdeal.Segs.U10 m' c (Proc.devRef .tc Cert.ReferenceIdeal.main_v3) = Cert.ReferenceIdeal.Segs.U9 m' c (Proc.devRef .tc Cert.ReferenceIdeal.main_v3) := by
  show StableHlo.after Cert.ReferenceIdeal.Segs.seg9 (Cert.ReferenceIdeal.Segs.U9 m' c) (Proc.devRef .tc Cert.ReferenceIdeal.main_v3) = _
  after_results_simp

theorem r_v3_11 : Cert.ReferenceIdeal.Segs.U11 m' c (Proc.devRef .tc Cert.ReferenceIdeal.main_v3) = Cert.ReferenceIdeal.Segs.U10 m' c (Proc.devRef .tc Cert.ReferenceIdeal.main_v3) := by
  show StableHlo.after Cert.ReferenceIdeal.Segs.seg10 (Cert.ReferenceIdeal.Segs.U10 m' c) (Proc.devRef .tc Cert.ReferenceIdeal.main_v3) = _
  after_results_simp

theorem r_v3_12 : Cert.ReferenceIdeal.Segs.U12 m' c (Proc.devRef .tc Cert.ReferenceIdeal.main_v3) = Cert.ReferenceIdeal.Segs.U11 m' c (Proc.devRef .tc Cert.ReferenceIdeal.main_v3) := by
  show StableHlo.after Cert.ReferenceIdeal.Segs.seg11 (Cert.ReferenceIdeal.Segs.U11 m' c) (Proc.devRef .tc Cert.ReferenceIdeal.main_v3) = _
  after_results_simp

theorem r_v3_13 : Cert.ReferenceIdeal.Segs.U13 m' c (Proc.devRef .tc Cert.ReferenceIdeal.main_v3) = Cert.ReferenceIdeal.Segs.U12 m' c (Proc.devRef .tc Cert.ReferenceIdeal.main_v3) := by
  show StableHlo.after Cert.ReferenceIdeal.Segs.seg12 (Cert.ReferenceIdeal.Segs.U12 m' c) (Proc.devRef .tc Cert.ReferenceIdeal.main_v3) = _
  after_results_simp

theorem r_v3_14 : Cert.ReferenceIdeal.Segs.U14 m' c (Proc.devRef .tc Cert.ReferenceIdeal.main_v3) = Cert.ReferenceIdeal.Segs.U13 m' c (Proc.devRef .tc Cert.ReferenceIdeal.main_v3) := by
  show StableHlo.after Cert.ReferenceIdeal.Segs.seg13 (Cert.ReferenceIdeal.Segs.U13 m' c) (Proc.devRef .tc Cert.ReferenceIdeal.main_v3) = _
  after_results_simp

theorem r_v3_15 : Cert.ReferenceIdeal.Segs.U15 m' c (Proc.devRef .tc Cert.ReferenceIdeal.main_v3) = Cert.ReferenceIdeal.Segs.U14 m' c (Proc.devRef .tc Cert.ReferenceIdeal.main_v3) := by
  show StableHlo.after Cert.ReferenceIdeal.Segs.seg14 (Cert.ReferenceIdeal.Segs.U14 m' c) (Proc.devRef .tc Cert.ReferenceIdeal.main_v3) = _
  after_results_simp

theorem r_v3_16 : Cert.ReferenceIdeal.Segs.U16 m' c (Proc.devRef .tc Cert.ReferenceIdeal.main_v3) = Cert.ReferenceIdeal.Segs.U15 m' c (Proc.devRef .tc Cert.ReferenceIdeal.main_v3) := by
  show StableHlo.after Cert.ReferenceIdeal.Segs.seg15 (Cert.ReferenceIdeal.Segs.U15 m' c) (Proc.devRef .tc Cert.ReferenceIdeal.main_v3) = _
  after_results_simp

theorem r_v3_17 : Cert.ReferenceIdeal.Segs.U17 m' c (Proc.devRef .tc Cert.ReferenceIdeal.main_v3) = Cert.ReferenceIdeal.Segs.U16 m' c (Proc.devRef .tc Cert.ReferenceIdeal.main_v3) := by
  show StableHlo.after Cert.ReferenceIdeal.Segs.seg16 (Cert.ReferenceIdeal.Segs.U16 m' c) (Proc.devRef .tc Cert.ReferenceIdeal.main_v3) = _
  after_results_simp

theorem r_v3_18 : Cert.ReferenceIdeal.Segs.U18 m' c (Proc.devRef .tc Cert.ReferenceIdeal.main_v3) = Cert.ReferenceIdeal.Segs.U17 m' c (Proc.devRef .tc Cert.ReferenceIdeal.main_v3) := by
  show StableHlo.after Cert.ReferenceIdeal.Segs.seg17 (Cert.ReferenceIdeal.Segs.U17 m' c) (Proc.devRef .tc Cert.ReferenceIdeal.main_v3) = _
  after_results_simp

theorem r_v3_19 : Cert.ReferenceIdeal.Segs.U19 m' c (Proc.devRef .tc Cert.ReferenceIdeal.main_v3) = Cert.ReferenceIdeal.Segs.U18 m' c (Proc.devRef .tc Cert.ReferenceIdeal.main_v3) := by
  show StableHlo.after Cert.ReferenceIdeal.Segs.seg18 (Cert.ReferenceIdeal.Segs.U18 m' c) (Proc.devRef .tc Cert.ReferenceIdeal.main_v3) = _
  after_results_simp

theorem r_v3_20 : Cert.ReferenceIdeal.Segs.U20 m' c (Proc.devRef .tc Cert.ReferenceIdeal.main_v3) = Cert.ReferenceIdeal.Segs.U19 m' c (Proc.devRef .tc Cert.ReferenceIdeal.main_v3) := by
  show StableHlo.after Cert.ReferenceIdeal.Segs.seg19 (Cert.ReferenceIdeal.Segs.U19 m' c) (Proc.devRef .tc Cert.ReferenceIdeal.main_v3) = _
  after_results_simp

theorem r_v3_21 : Cert.ReferenceIdeal.Segs.U21 m' c (Proc.devRef .tc Cert.ReferenceIdeal.main_v3) = Cert.ReferenceIdeal.Segs.U20 m' c (Proc.devRef .tc Cert.ReferenceIdeal.main_v3) := by
  show StableHlo.after Cert.ReferenceIdeal.Segs.seg20 (Cert.ReferenceIdeal.Segs.U20 m' c) (Proc.devRef .tc Cert.ReferenceIdeal.main_v3) = _
  after_results_simp

theorem r_v3_22 : Cert.ReferenceIdeal.Segs.U22 m' c (Proc.devRef .tc Cert.ReferenceIdeal.main_v3) = Cert.ReferenceIdeal.Segs.U21 m' c (Proc.devRef .tc Cert.ReferenceIdeal.main_v3) := by
  show StableHlo.after Cert.ReferenceIdeal.Segs.seg21 (Cert.ReferenceIdeal.Segs.U21 m' c) (Proc.devRef .tc Cert.ReferenceIdeal.main_v3) = _
  after_results_simp

theorem r_v3_23 : Cert.ReferenceIdeal.Segs.U23 m' c (Proc.devRef .tc Cert.ReferenceIdeal.main_v3) = Cert.ReferenceIdeal.Segs.U22 m' c (Proc.devRef .tc Cert.ReferenceIdeal.main_v3) := by
  show StableHlo.after Cert.ReferenceIdeal.Segs.seg22 (Cert.ReferenceIdeal.Segs.U22 m' c) (Proc.devRef .tc Cert.ReferenceIdeal.main_v3) = _
  after_results_simp

theorem r_v3_24 : Cert.ReferenceIdeal.Segs.U24 m' c (Proc.devRef .tc Cert.ReferenceIdeal.main_v3) = Cert.ReferenceIdeal.Segs.U23 m' c (Proc.devRef .tc Cert.ReferenceIdeal.main_v3) := by
  show StableHlo.after Cert.ReferenceIdeal.Segs.seg23 (Cert.ReferenceIdeal.Segs.U23 m' c) (Proc.devRef .tc Cert.ReferenceIdeal.main_v3) = _
  after_results_simp

theorem r_v3_1_2 : Cert.ReferenceIdeal.Segs.U2 m' c (Proc.devRef .tc Cert.ReferenceIdeal.main_v3) = Cert.ReferenceIdeal.Segs.U1 m' c (Proc.devRef .tc Cert.ReferenceIdeal.main_v3) :=
  r_v3_2 m' c

theorem r_v3_2_6 : Cert.ReferenceIdeal.Segs.U6 m' c (Proc.devRef .tc Cert.ReferenceIdeal.main_v3) = Cert.ReferenceIdeal.Segs.U2 m' c (Proc.devRef .tc Cert.ReferenceIdeal.main_v3) :=
  (r_v3_6 m' c).trans ((r_v3_5 m' c).trans ((r_v3_4 m' c).trans (r_v3_3 m' c)))

theorem r_v3_6_16 : Cert.ReferenceIdeal.Segs.U16 m' c (Proc.devRef .tc Cert.ReferenceIdeal.main_v3) = Cert.ReferenceIdeal.Segs.U6 m' c (Proc.devRef .tc Cert.ReferenceIdeal.main_v3) :=
  (r_v3_16 m' c).trans ((r_v3_15 m' c).trans ((r_v3_14 m' c).trans ((r_v3_13 m' c).trans ((r_v3_12 m' c).trans ((r_v3_11 m' c).trans ((r_v3_10 m' c).trans ((r_v3_9 m' c).trans ((r_v3_8 m' c).trans (r_v3_7 m' c)))))))))

theorem r_v3_16_20 : Cert.ReferenceIdeal.Segs.U20 m' c (Proc.devRef .tc Cert.ReferenceIdeal.main_v3) = Cert.ReferenceIdeal.Segs.U16 m' c (Proc.devRef .tc Cert.ReferenceIdeal.main_v3) :=
  (r_v3_20 m' c).trans ((r_v3_19 m' c).trans ((r_v3_18 m' c).trans (r_v3_17 m' c)))

theorem r_v3_20_24 : Cert.ReferenceIdeal.Segs.U24 m' c (Proc.devRef .tc Cert.ReferenceIdeal.main_v3) = Cert.ReferenceIdeal.Segs.U20 m' c (Proc.devRef .tc Cert.ReferenceIdeal.main_v3) :=
  (r_v3_24 m' c).trans ((r_v3_23 m' c).trans ((r_v3_22 m' c).trans (r_v3_21 m' c)))

theorem r_v6_2 : Cert.ReferenceIdeal.Segs.U2 m' c (Proc.devRef .tc Cert.ReferenceIdeal.main_v6) = Cert.ReferenceIdeal.Segs.U1 m' c (Proc.devRef .tc Cert.ReferenceIdeal.main_v6) := by
  show StableHlo.after Cert.ReferenceIdeal.Segs.seg1 (Cert.ReferenceIdeal.Segs.U1 m' c) (Proc.devRef .tc Cert.ReferenceIdeal.main_v6) = _
  after_results_simp

theorem r_v6_3 : Cert.ReferenceIdeal.Segs.U3 m' c (Proc.devRef .tc Cert.ReferenceIdeal.main_v6) = Cert.ReferenceIdeal.Segs.U2 m' c (Proc.devRef .tc Cert.ReferenceIdeal.main_v6) := by
  show StableHlo.after Cert.ReferenceIdeal.Segs.seg2 (Cert.ReferenceIdeal.Segs.U2 m' c) (Proc.devRef .tc Cert.ReferenceIdeal.main_v6) = _
  after_results_simp

theorem r_v6_4 : Cert.ReferenceIdeal.Segs.U4 m' c (Proc.devRef .tc Cert.ReferenceIdeal.main_v6) = Cert.ReferenceIdeal.Segs.U3 m' c (Proc.devRef .tc Cert.ReferenceIdeal.main_v6) := by
  show StableHlo.after Cert.ReferenceIdeal.Segs.seg3 (Cert.ReferenceIdeal.Segs.U3 m' c) (Proc.devRef .tc Cert.ReferenceIdeal.main_v6) = _
  after_results_simp

theorem r_v6_5 : Cert.ReferenceIdeal.Segs.U5 m' c (Proc.devRef .tc Cert.ReferenceIdeal.main_v6) = Cert.ReferenceIdeal.Segs.U4 m' c (Proc.devRef .tc Cert.ReferenceIdeal.main_v6) := by
  show StableHlo.after Cert.ReferenceIdeal.Segs.seg4 (Cert.ReferenceIdeal.Segs.U4 m' c) (Proc.devRef .tc Cert.ReferenceIdeal.main_v6) = _
  after_results_simp

theorem r_v6_6 : Cert.ReferenceIdeal.Segs.U6 m' c (Proc.devRef .tc Cert.ReferenceIdeal.main_v6) = Cert.ReferenceIdeal.Segs.U5 m' c (Proc.devRef .tc Cert.ReferenceIdeal.main_v6) := by
  show StableHlo.after Cert.ReferenceIdeal.Segs.seg5 (Cert.ReferenceIdeal.Segs.U5 m' c) (Proc.devRef .tc Cert.ReferenceIdeal.main_v6) = _
  after_results_simp

theorem r_v6_7 : Cert.ReferenceIdeal.Segs.U7 m' c (Proc.devRef .tc Cert.ReferenceIdeal.main_v6) = Cert.ReferenceIdeal.Segs.U6 m' c (Proc.devRef .tc Cert.ReferenceIdeal.main_v6) := by
  show StableHlo.after Cert.ReferenceIdeal.Segs.seg6 (Cert.ReferenceIdeal.Segs.U6 m' c) (Proc.devRef .tc Cert.ReferenceIdeal.main_v6) = _
  after_results_simp

theorem r_v6_8 : Cert.ReferenceIdeal.Segs.U8 m' c (Proc.devRef .tc Cert.ReferenceIdeal.main_v6) = Cert.ReferenceIdeal.Segs.U7 m' c (Proc.devRef .tc Cert.ReferenceIdeal.main_v6) := by
  show StableHlo.after Cert.ReferenceIdeal.Segs.seg7 (Cert.ReferenceIdeal.Segs.U7 m' c) (Proc.devRef .tc Cert.ReferenceIdeal.main_v6) = _
  after_results_simp

theorem r_v6_9 : Cert.ReferenceIdeal.Segs.U9 m' c (Proc.devRef .tc Cert.ReferenceIdeal.main_v6) = Cert.ReferenceIdeal.Segs.U8 m' c (Proc.devRef .tc Cert.ReferenceIdeal.main_v6) := by
  show StableHlo.after Cert.ReferenceIdeal.Segs.seg8 (Cert.ReferenceIdeal.Segs.U8 m' c) (Proc.devRef .tc Cert.ReferenceIdeal.main_v6) = _
  after_results_simp

theorem r_v6_10 : Cert.ReferenceIdeal.Segs.U10 m' c (Proc.devRef .tc Cert.ReferenceIdeal.main_v6) = Cert.ReferenceIdeal.Segs.U9 m' c (Proc.devRef .tc Cert.ReferenceIdeal.main_v6) := by
  show StableHlo.after Cert.ReferenceIdeal.Segs.seg9 (Cert.ReferenceIdeal.Segs.U9 m' c) (Proc.devRef .tc Cert.ReferenceIdeal.main_v6) = _
  after_results_simp

theorem r_v6_11 : Cert.ReferenceIdeal.Segs.U11 m' c (Proc.devRef .tc Cert.ReferenceIdeal.main_v6) = Cert.ReferenceIdeal.Segs.U10 m' c (Proc.devRef .tc Cert.ReferenceIdeal.main_v6) := by
  show StableHlo.after Cert.ReferenceIdeal.Segs.seg10 (Cert.ReferenceIdeal.Segs.U10 m' c) (Proc.devRef .tc Cert.ReferenceIdeal.main_v6) = _
  after_results_simp

theorem r_v6_12 : Cert.ReferenceIdeal.Segs.U12 m' c (Proc.devRef .tc Cert.ReferenceIdeal.main_v6) = Cert.ReferenceIdeal.Segs.U11 m' c (Proc.devRef .tc Cert.ReferenceIdeal.main_v6) := by
  show StableHlo.after Cert.ReferenceIdeal.Segs.seg11 (Cert.ReferenceIdeal.Segs.U11 m' c) (Proc.devRef .tc Cert.ReferenceIdeal.main_v6) = _
  after_results_simp

theorem r_v6_13 : Cert.ReferenceIdeal.Segs.U13 m' c (Proc.devRef .tc Cert.ReferenceIdeal.main_v6) = Cert.ReferenceIdeal.Segs.U12 m' c (Proc.devRef .tc Cert.ReferenceIdeal.main_v6) := by
  show StableHlo.after Cert.ReferenceIdeal.Segs.seg12 (Cert.ReferenceIdeal.Segs.U12 m' c) (Proc.devRef .tc Cert.ReferenceIdeal.main_v6) = _
  after_results_simp

theorem r_v6_14 : Cert.ReferenceIdeal.Segs.U14 m' c (Proc.devRef .tc Cert.ReferenceIdeal.main_v6) = Cert.ReferenceIdeal.Segs.U13 m' c (Proc.devRef .tc Cert.ReferenceIdeal.main_v6) := by
  show StableHlo.after Cert.ReferenceIdeal.Segs.seg13 (Cert.ReferenceIdeal.Segs.U13 m' c) (Proc.devRef .tc Cert.ReferenceIdeal.main_v6) = _
  after_results_simp

theorem r_v6_15 : Cert.ReferenceIdeal.Segs.U15 m' c (Proc.devRef .tc Cert.ReferenceIdeal.main_v6) = Cert.ReferenceIdeal.Segs.U14 m' c (Proc.devRef .tc Cert.ReferenceIdeal.main_v6) := by
  show StableHlo.after Cert.ReferenceIdeal.Segs.seg14 (Cert.ReferenceIdeal.Segs.U14 m' c) (Proc.devRef .tc Cert.ReferenceIdeal.main_v6) = _
  after_results_simp

theorem r_v6_16 : Cert.ReferenceIdeal.Segs.U16 m' c (Proc.devRef .tc Cert.ReferenceIdeal.main_v6) = Cert.ReferenceIdeal.Segs.U15 m' c (Proc.devRef .tc Cert.ReferenceIdeal.main_v6) := by
  show StableHlo.after Cert.ReferenceIdeal.Segs.seg15 (Cert.ReferenceIdeal.Segs.U15 m' c) (Proc.devRef .tc Cert.ReferenceIdeal.main_v6) = _
  after_results_simp

theorem r_v6_17 : Cert.ReferenceIdeal.Segs.U17 m' c (Proc.devRef .tc Cert.ReferenceIdeal.main_v6) = Cert.ReferenceIdeal.Segs.U16 m' c (Proc.devRef .tc Cert.ReferenceIdeal.main_v6) := by
  show StableHlo.after Cert.ReferenceIdeal.Segs.seg16 (Cert.ReferenceIdeal.Segs.U16 m' c) (Proc.devRef .tc Cert.ReferenceIdeal.main_v6) = _
  after_results_simp

theorem r_v6_18 : Cert.ReferenceIdeal.Segs.U18 m' c (Proc.devRef .tc Cert.ReferenceIdeal.main_v6) = Cert.ReferenceIdeal.Segs.U17 m' c (Proc.devRef .tc Cert.ReferenceIdeal.main_v6) := by
  show StableHlo.after Cert.ReferenceIdeal.Segs.seg17 (Cert.ReferenceIdeal.Segs.U17 m' c) (Proc.devRef .tc Cert.ReferenceIdeal.main_v6) = _
  after_results_simp

theorem r_v6_19 : Cert.ReferenceIdeal.Segs.U19 m' c (Proc.devRef .tc Cert.ReferenceIdeal.main_v6) = Cert.ReferenceIdeal.Segs.U18 m' c (Proc.devRef .tc Cert.ReferenceIdeal.main_v6) := by
  show StableHlo.after Cert.ReferenceIdeal.Segs.seg18 (Cert.ReferenceIdeal.Segs.U18 m' c) (Proc.devRef .tc Cert.ReferenceIdeal.main_v6) = _
  after_results_simp

theorem r_v6_20 : Cert.ReferenceIdeal.Segs.U20 m' c (Proc.devRef .tc Cert.ReferenceIdeal.main_v6) = Cert.ReferenceIdeal.Segs.U19 m' c (Proc.devRef .tc Cert.ReferenceIdeal.main_v6) := by
  show StableHlo.after Cert.ReferenceIdeal.Segs.seg19 (Cert.ReferenceIdeal.Segs.U19 m' c) (Proc.devRef .tc Cert.ReferenceIdeal.main_v6) = _
  after_results_simp

theorem r_v6_21 : Cert.ReferenceIdeal.Segs.U21 m' c (Proc.devRef .tc Cert.ReferenceIdeal.main_v6) = Cert.ReferenceIdeal.Segs.U20 m' c (Proc.devRef .tc Cert.ReferenceIdeal.main_v6) := by
  show StableHlo.after Cert.ReferenceIdeal.Segs.seg20 (Cert.ReferenceIdeal.Segs.U20 m' c) (Proc.devRef .tc Cert.ReferenceIdeal.main_v6) = _
  after_results_simp

theorem r_v6_22 : Cert.ReferenceIdeal.Segs.U22 m' c (Proc.devRef .tc Cert.ReferenceIdeal.main_v6) = Cert.ReferenceIdeal.Segs.U21 m' c (Proc.devRef .tc Cert.ReferenceIdeal.main_v6) := by
  show StableHlo.after Cert.ReferenceIdeal.Segs.seg21 (Cert.ReferenceIdeal.Segs.U21 m' c) (Proc.devRef .tc Cert.ReferenceIdeal.main_v6) = _
  after_results_simp

theorem r_v6_23 : Cert.ReferenceIdeal.Segs.U23 m' c (Proc.devRef .tc Cert.ReferenceIdeal.main_v6) = Cert.ReferenceIdeal.Segs.U22 m' c (Proc.devRef .tc Cert.ReferenceIdeal.main_v6) := by
  show StableHlo.after Cert.ReferenceIdeal.Segs.seg22 (Cert.ReferenceIdeal.Segs.U22 m' c) (Proc.devRef .tc Cert.ReferenceIdeal.main_v6) = _
  after_results_simp

theorem r_v6_24 : Cert.ReferenceIdeal.Segs.U24 m' c (Proc.devRef .tc Cert.ReferenceIdeal.main_v6) = Cert.ReferenceIdeal.Segs.U23 m' c (Proc.devRef .tc Cert.ReferenceIdeal.main_v6) := by
  show StableHlo.after Cert.ReferenceIdeal.Segs.seg23 (Cert.ReferenceIdeal.Segs.U23 m' c) (Proc.devRef .tc Cert.ReferenceIdeal.main_v6) = _
  after_results_simp

theorem r_v6_1_2 : Cert.ReferenceIdeal.Segs.U2 m' c (Proc.devRef .tc Cert.ReferenceIdeal.main_v6) = Cert.ReferenceIdeal.Segs.U1 m' c (Proc.devRef .tc Cert.ReferenceIdeal.main_v6) :=
  r_v6_2 m' c

theorem r_v6_2_6 : Cert.ReferenceIdeal.Segs.U6 m' c (Proc.devRef .tc Cert.ReferenceIdeal.main_v6) = Cert.ReferenceIdeal.Segs.U2 m' c (Proc.devRef .tc Cert.ReferenceIdeal.main_v6) :=
  (r_v6_6 m' c).trans ((r_v6_5 m' c).trans ((r_v6_4 m' c).trans (r_v6_3 m' c)))

theorem r_v6_6_16 : Cert.ReferenceIdeal.Segs.U16 m' c (Proc.devRef .tc Cert.ReferenceIdeal.main_v6) = Cert.ReferenceIdeal.Segs.U6 m' c (Proc.devRef .tc Cert.ReferenceIdeal.main_v6) :=
  (r_v6_16 m' c).trans ((r_v6_15 m' c).trans ((r_v6_14 m' c).trans ((r_v6_13 m' c).trans ((r_v6_12 m' c).trans ((r_v6_11 m' c).trans ((r_v6_10 m' c).trans ((r_v6_9 m' c).trans ((r_v6_8 m' c).trans (r_v6_7 m' c)))))))))

theorem r_v6_16_20 : Cert.ReferenceIdeal.Segs.U20 m' c (Proc.devRef .tc Cert.ReferenceIdeal.main_v6) = Cert.ReferenceIdeal.Segs.U16 m' c (Proc.devRef .tc Cert.ReferenceIdeal.main_v6) :=
  (r_v6_20 m' c).trans ((r_v6_19 m' c).trans ((r_v6_18 m' c).trans (r_v6_17 m' c)))

theorem r_v6_20_24 : Cert.ReferenceIdeal.Segs.U24 m' c (Proc.devRef .tc Cert.ReferenceIdeal.main_v6) = Cert.ReferenceIdeal.Segs.U20 m' c (Proc.devRef .tc Cert.ReferenceIdeal.main_v6) :=
  (r_v6_24 m' c).trans ((r_v6_23 m' c).trans ((r_v6_22 m' c).trans (r_v6_21 m' c)))

end Cert.ReferenceIdeal.Carry

end
-- ==== Proof.RCarryNorm.lean ====
/-
  Buffers of the reference that later stretches read long after they were written (the edge lists, the per-edge
  normalisation, the argument arrays): no operation in between writes them, so their contents are the same at both
  boundaries. One equation per stretch crossed, then their compositions.
-/
import proofs.«168298_j84988812853302_1_alg».proof.Proof.RefSegs
import Idealize.ShloMosaic.PureOps.Ideal

set_option maxRecDepth 16384
set_option maxHeartbeats 4000000

noncomputable section

namespace Cert.ReferenceIdeal.Carry

open Idealize.ShloMosaic Idealize.ShloMosaic.TcCoe Idealize.SL.Sem Idealize.ShloMosaic.StableHlo

variable (m' : (ℓ : Loc Cert.ReferenceIdeal.nD Cert.ReferenceIdeal.τ Cert.ReferenceIdeal.sig) → Buf (Elt Ideal) ℓ)
  (c : Dev Cert.ReferenceIdeal.nD)

theorem r_v29_2 : Cert.ReferenceIdeal.Segs.U2 m' c (Proc.devRef .tc Cert.ReferenceIdeal.main_v29) = Cert.ReferenceIdeal.Segs.U1 m' c (Proc.devRef .tc Cert.ReferenceIdeal.main_v29) := by
  show StableHlo.after Cert.ReferenceIdeal.Segs.seg1 (Cert.ReferenceIdeal.Segs.U1 m' c) (Proc.devRef .tc Cert.ReferenceIdeal.main_v29) = _
  after_results_simp

theorem r_v29_3 : Cert.ReferenceIdeal.Segs.U3 m' c (Proc.devRef .tc Cert.ReferenceIdeal.main_v29) = Cert.ReferenceIdeal.Segs.U2 m' c (Proc.devRef .tc Cert.ReferenceIdeal.main_v29) := by
  show StableHlo.after Cert.ReferenceIdeal.Segs.seg2 (Cert.ReferenceIdeal.Segs.U2 m' c) (Proc.devRef .tc Cert.ReferenceIdeal.main_v29) = _
  after_results_simp

theorem r_v29_4 : Cert.ReferenceIdeal.Segs.U4 m' c (Proc.devRef .tc Cert.ReferenceIdeal.main_v29) = Cert.ReferenceIdeal.Segs.U3 m' c (Proc.devRef .tc Cert.ReferenceIdeal.main_v29) := by
  show StableHlo.after Cert.ReferenceIdeal.Segs.seg3 (Cert.ReferenceIdeal.Segs.U3 m' c) (Proc.devRef .tc Cert.ReferenceIdeal.main_v29) = _
  after_results_simp

theorem r_v29_5 : Cert.ReferenceIdeal.Segs.U5 m' c (Proc.devRef .tc Cert.ReferenceIdeal.main_v29) = Cert.ReferenceIdeal.Segs.U4 m' c (Proc.devRef .tc Cert.ReferenceIdeal.main_v29) := by
  show StableHlo.after Cert.ReferenceIdeal.Segs.seg4 (Cert.ReferenceIdeal.Segs.U4 m' c) (Proc.devRef .tc Cert.ReferenceIdeal.main_v29) = _
  after_results_simp

theorem r_v29_6 : Cert.ReferenceIdeal.Segs.U6 m' c (Proc.devRef .tc Cert.ReferenceIdeal.main_v29) = Cert.ReferenceIdeal.Segs.U5 m' c (Proc.devRef .tc Cert.ReferenceIdeal.main_v29) := by
  show StableHlo.after Cert.ReferenceIdeal.Segs.seg5 (Cert.ReferenceIdeal.Segs.U5 m' c) (Proc.devRef .tc Cert.ReferenceIdeal.main_v29) = _
  after_results_simp

theorem r_v29_7 : Cert.ReferenceIdeal.Segs.U7 m' c (Proc.devRef .tc Cert.ReferenceIdeal.main_v29) = Cert.ReferenceIdeal.Segs.U6 m' c (Proc.devRef .tc Cert.ReferenceIdeal.main_v29) := by
  show StableHlo.after Cert.ReferenceIdeal.Segs.seg6 (Cert.ReferenceIdeal.Segs.U6 m' c) (Proc.devRef .tc Cert.ReferenceIdeal.main_v29) = _
  after_results_simp

theorem r_v29_8 : Cert.ReferenceIdeal.Segs.U8 m' c (Proc.devRef .tc Cert.ReferenceIdeal.main_v29) = Cert.ReferenceIdeal.Segs.U7 m' c (Proc.devRef .tc Cert.ReferenceIdeal.main_v29) := by
  show StableHlo.after Cert.ReferenceIdeal.Segs.seg7 (Cert.ReferenceIdeal.Segs.U7 m' c) (Proc.devRef .tc Cert.ReferenceIdeal.main_v29) = _
  after_results_simp

theorem r_v29_9 : Cert.ReferenceIdeal.Segs.U9 m' c (Proc.devRef .tc Cert.ReferenceIdeal.main_v29) = Cert.ReferenceIdeal.Segs.U8 m' c (Proc.devRef .tc Cert.ReferenceIdeal.main_v29) := by
  show StableHlo.after Cert.ReferenceIdeal.Segs.seg8 (Cert.ReferenceIdeal.Segs.U8 m' c) (Proc.devRef .tc Cert.ReferenceIdeal.main_v29) = _
  after_results_simp

theorem r_v29_10 : Cert.ReferenceIdeal.Segs.U10 m' c (Proc.devRef .tc Cert.ReferenceIdeal.main_v29) = Cert.ReferenceIdeal.Segs.U9 m' c (Proc.devRef .tc Cert.ReferenceIdeal.main_v29) := by
  show StableHlo.after Cert.ReferenceIdeal.Segs.seg9 (Cert.ReferenceIdeal.Segs.U9 m' c) (Proc.devRef .tc Cert.ReferenceIdeal.main_v29) = _
  after_results_simp

theorem r_v29_11 : Cert.ReferenceIdeal.Segs.U11 m' c (Proc.devRef .tc Cert.ReferenceIdeal.main_v29) = Cert.ReferenceIdeal.Segs.U10 m' c (Proc.devRef .tc Cert.ReferenceIdeal.main_v29) := by
  show StableHlo.after Cert.ReferenceIdeal.Segs.seg10 (Cert.ReferenceIdeal.Segs.U10 m' c) (Proc.devRef .tc Cert.ReferenceIdeal.main_v29) = _
  after_results_simp

theorem r_v29_12 : Cert.ReferenceIdeal.Segs.U12 m' c (Proc.devRef .tc Cert.ReferenceIdeal.main_v29) = Cert.ReferenceIdeal.Segs.U11 m' c (Proc.devRef .tc Cert.ReferenceIdeal.main_v29) := by
  show StableHlo.after Cert.ReferenceIdeal.Segs.seg11 (Cert.ReferenceIdeal.Segs.U11 m' c) (Proc.devRef .tc Cert.ReferenceIdeal.main_v29) = _
  after_results_simp

theorem r_v29_13 : Cert.ReferenceIdeal.Segs.U13 m' c (Proc.devRef .tc Cert.ReferenceIdeal.main_v29) = Cert.ReferenceIdeal.Segs.U12 m' c (Proc.devRef .tc Cert.ReferenceIdeal.main_v29) := by
  show StableHlo.after Cert.ReferenceIdeal.Segs.seg12 (Cert.ReferenceIdeal.Segs.U12 m' c) (Proc.devRef .tc Cert.ReferenceIdeal.main_v29) = _
  after_results_simp

theorem r_v29_14 : Cert.ReferenceIdeal.Segs.U14 m' c (Proc.devRef .tc Cert.ReferenceIdeal.main_v29) = Cert.ReferenceIdeal.Segs.U13 m' c (Proc.devRef .tc Cert.ReferenceIdeal.main_v29) := by
  show StableHlo.after Cert.ReferenceIdeal.Segs.seg13 (Cert.ReferenceIdeal.Segs.U13 m' c) (Proc.devRef .tc Cert.ReferenceIdeal.main_v29) = _
  after_results_simp

theorem r_v29_15 : Cert.ReferenceIdeal.Segs.U15 m' c (Proc.devRef .tc Cert.ReferenceIdeal.main_v29) = Cert.ReferenceIdeal.Segs.U14 m' c (Proc.devRef .tc Cert.ReferenceIdeal.main_v29) := by
  show StableHlo.after Cert.ReferenceIdeal.Segs.seg14 (Cert.ReferenceIdeal.Segs.U14 m' c) (Proc.devRef .tc Cert.ReferenceIdeal.main_v29) = _
  after_results_simp

theorem r_v29_16 : Cert.ReferenceIdeal.Segs.U16 m' c (Proc.devRef .tc Cert.ReferenceIdeal.main_v29) = Cert.ReferenceIdeal.Segs.U15 m' c (Proc.devRef .tc Cert.ReferenceIdeal.main_v29) := by
  show StableHlo.after Cert.ReferenceIdeal.Segs.seg15 (Cert.ReferenceIdeal.Segs.U15 m' c) (Proc.devRef .tc Cert.ReferenceIdeal.main_v29) = _
  after_results_simp

theorem r_v29_17 : Cert.ReferenceIdeal.Segs.U17 m' c (Proc.devRef .tc Cert.ReferenceIdeal.main_v29) = Cert.ReferenceIdeal.Segs.U16 m' c (Proc.devRef .tc Cert.ReferenceIdeal.main_v29) := by
  show StableHlo.after Cert.ReferenceIdeal.Segs.seg16 (Cert.ReferenceIdeal.Segs.U16 m' c) (Proc.devRef .tc Cert.ReferenceIdeal.main_v29) = _
  after_results_simp

theorem r_v29_18 : Cert.ReferenceIdeal.Segs.U18 m' c (Proc.devRef .tc Cert.ReferenceIdeal.main_v29) = Cert.ReferenceIdeal.Segs.U17 m' c (Proc.devRef .tc Cert.ReferenceIdeal.main_v29) := by
  show StableHlo.after Cert.ReferenceIdeal.Segs.seg17 (Cert.ReferenceIdeal.Segs.U17 m' c) (Proc.devRef .tc Cert.ReferenceIdeal.main_v29) = _
  after_results_simp

theorem r_v29_19 : Cert.ReferenceIdeal.Segs.U19 m' c (Proc.devRef .tc Cert.ReferenceIdeal.main_v29) = Cert.ReferenceIdeal.Segs.U18 m' c (Proc.devRef .tc Cert.ReferenceIdeal.main_v29) := by
  show StableHlo.after Cert.ReferenceIdeal.Segs.seg18 (Cert.ReferenceIdeal.Segs.U18 m' c) (Proc.devRef .tc Cert.ReferenceIdeal.main_v29) = _
  after_results_simp

theorem r_v29_20 : Cert.ReferenceIdeal.Segs.U20 m' c (Proc.devRef .tc Cert.ReferenceIdeal.main_v29) = Cert.ReferenceIdeal.Segs.U19 m' c (Proc.devRef .tc Cert.ReferenceIdeal.main_v29) := by
  show StableHlo.after Cert.ReferenceIdeal.Segs.seg19 (Cert.ReferenceIdeal.Segs.U19 m' c) (Proc.devRef .tc Cert.ReferenceIdeal.main_v29) = _
  after_results_simp

theorem r_v29_21 : Cert.ReferenceIdeal.Segs.U21 m' c (Proc.devRef .tc Cert.ReferenceIdeal.main_v29) = Cert.ReferenceIdeal.Segs.U20 m' c (Proc.devRef .tc Cert.ReferenceIdeal.main_v29) := by
  show StableHlo.after Cert.ReferenceIdeal.Segs.seg20 (Cert.ReferenceIdeal.Segs.U20 m' c) (Proc.devRef .tc Cert.ReferenceIdeal.main_v29) = _
  after_results_simp

theorem r_v29_22 : Cert.ReferenceIdeal.Segs.U22 m' c (Proc.devRef .tc Cert.ReferenceIdeal.main_v29) = Cert.ReferenceIdeal.Segs.U21 m' c (Proc.devRef .tc Cert.ReferenceIdeal.main_v29) := by
  show StableHlo.after Cert.ReferenceIdeal.Segs.seg21 (Cert.ReferenceIdeal.Segs.U21 m' c) (Proc.devRef .tc Cert.ReferenceIdeal.main_v29) = _
  after_results_simp

theorem r_v29_23 : Cert.ReferenceIdeal.Segs.U23 m' c (Proc.devRef .tc Cert.ReferenceIdeal.main_v29) = Cert.ReferenceIdeal.Segs.U22 m' c (Proc.devRef .tc Cert.ReferenceIdeal.main_v29) := by
  show StableHlo.after Cert.ReferenceIdeal.Segs.seg22 (Cert.ReferenceIdeal.Segs.U22 m' c) (Proc.devRef .tc Cert.ReferenceIdeal.main_v29) = _
  after_results_simp

theorem r_v29_24 : Cert.ReferenceIdeal.Segs.U24 m' c (Proc.devRef .tc Cert.ReferenceIdeal.main_v29) = Cert.ReferenceIdeal.Segs.U23 m' c (Proc.devRef .tc Cert.ReferenceIdeal.main_v29) := by
  show StableHlo.after Cert.ReferenceIdeal.Segs.seg23 (Cert.ReferenceIdeal.Segs.U23 m' c) (Proc.devRef .tc Cert.ReferenceIdeal.main_v29) = _
  after_results_simp

theorem r_v29_1_2 : Cert.ReferenceIdeal.Segs.U2 m' c (Proc.devRef .tc Cert.ReferenceIdeal.main_v29) = Cert.ReferenceIdeal.Segs.U1 m' c (Proc.devRef .tc Cert.ReferenceIdeal.main_v29) :=
  r_v29_2 m' c

theorem r_v29_2_6 : Cert.ReferenceIdeal.Segs.U6 m' c (Proc.devRef .tc Cert.ReferenceIdeal.main_v29) = Cert.ReferenceIdeal.Segs.U2 m' c (Proc.devRef .tc Cert.ReferenceIdeal.main_v29) :=
  (r_v29_6 m' c).trans ((r_v29_5 m' c).trans ((r_v29_4 m' c).trans (r_v29_3 m' c)))

theorem r_v29_6_16 : Cert.ReferenceIdeal.Segs.U16 m' c (Proc.devRef .tc Cert.ReferenceIdeal.main_v29) = Cert.ReferenceIdeal.Segs.U6 m' c (Proc.devRef .tc Cert.ReferenceIdeal.main_v29) :=
  (r_v29_16 m' c).trans ((r_v29_15 m' c).trans ((r_v29_14 m' c).trans ((r_v29_13 m' c).trans ((r_v29_12 m' c).trans ((r_v29_11 m' c).trans ((r_v29_10 m' c).trans ((r_v29_9 m' c).trans ((r_v29_8 m' c).trans (r_v29_7 m' c)))))))))

theorem r_v29_16_20 : Cert.ReferenceIdeal.Segs.U20 m' c (Proc.devRef .tc Cert.ReferenceIdeal.main_v29) = Cert.ReferenceIdeal.Segs.U16 m' c (Proc.devRef .tc Cert.ReferenceIdeal.main_v29) :=
  (r_v29_20 m' c).trans ((r_v29_19 m' c).trans ((r_v29_18 m' c).trans (r_v29_17 m' c)))

theorem r_v29_20_24 : Cert.ReferenceIdeal.Segs.U24 m' c (Proc.devRef .tc Cert.ReferenceIdeal.main_v29) = Cert.ReferenceIdeal.Segs.U20 m' c (Proc.devRef .tc Cert.ReferenceIdeal.main_v29) :=
  (r_v29_24 m' c).trans ((r_v29_23 m' c).trans ((r_v29_22 m' c).trans (r_v29_21 m' c)))

theorem r_v34_2 : Cert.ReferenceIdeal.Segs.U2 m' c (Proc.devRef .tc Cert.ReferenceIdeal.main_v34) = Cert.ReferenceIdeal.Segs.U1 m' c (Proc.devRef .tc Cert.ReferenceIdeal.main_v34) := by
  show StableHlo.after Cert.ReferenceIdeal.Segs.seg1 (Cert.ReferenceIdeal.Segs.U1 m' c) (Proc.devRef .tc Cert.ReferenceIdeal.main_v34) = _
  after_results_simp

theorem r_v34_3 : Cert.ReferenceIdeal.Segs.U3 m' c (Proc.devRef .tc Cert.ReferenceIdeal.main_v34) = Cert.ReferenceIdeal.Segs.U2 m' c (Proc.devRef .tc Cert.ReferenceIdeal.main_v34) := by
  show StableHlo.after Cert.ReferenceIdeal.Segs.seg2 (Cert.ReferenceIdeal.Segs.U2 m' c) (Proc.devRef .tc Cert.ReferenceIdeal.main_v34) = _
  after_results_simp

theorem r_v34_1_3 : Cert.ReferenceIdeal.Segs.U3 m' c (Proc.devRef .tc Cert.ReferenceIdeal.main_v34) = Cert.ReferenceIdeal.Segs.U1 m' c (Proc.devRef .tc Cert.ReferenceIdeal.main_v34) :=
  (r_v34_3 m' c).trans (r_v34_2 m' c)

theorem r_v30_2 : Cert.ReferenceIdeal.Segs.U2 m' c (Proc.devRef .tc Cert.ReferenceIdeal.main_v30) = Cert.ReferenceIdeal.Segs.U1 m' c (Proc.devRef .tc Cert.ReferenceIdeal.main_v30) := by
  show StableHlo.after Cert.ReferenceIdeal.Segs.seg1 (Cert.ReferenceIdeal.Segs.U1 m' c) (Proc.devRef .tc Cert.ReferenceIdeal.main_v30) = _
  after_results_simp

theorem r_v30_3 : Cert.ReferenceIdeal.Segs.U3 m' c (Proc.devRef .tc Cert.ReferenceIdeal.main_v30) = Cert.ReferenceIdeal.Segs.U2 m' c (Proc.devRef .tc Cert.ReferenceIdeal.main_v30) := by
  show StableHlo.after Cert.ReferenceIdeal.Segs.seg2 (Cert.ReferenceIdeal.Segs.U2 m' c) (Proc.devRef .tc Cert.ReferenceIdeal.main_v30) = _
  after_results_simp

theorem r_v30_4 : Cert.ReferenceIdeal.Segs.U4 m' c (Proc.devRef .tc Cert.ReferenceIdeal.main_v30) = Cert.ReferenceIdeal.Segs.U3 m' c (Proc.devRef .tc Cert.ReferenceIdeal.main_v30) := by
  show StableHlo.after Cert.ReferenceIdeal.Segs.seg3 (Cert.ReferenceIdeal.Segs.U3 m' c) (Proc.devRef .tc Cert.ReferenceIdeal.main_v30) = _
  after_results_simp

theorem r_v30_5 : Cert.ReferenceIdeal.Segs.U5 m' c (Proc.devRef .tc Cert.ReferenceIdeal.main_v30) = Cert.ReferenceIdeal.Segs.U4 m' c (Proc.devRef .tc Cert.ReferenceIdeal.main_v30) := by
  show StableHlo.after Cert.ReferenceIdeal.Segs.seg4 (Cert.ReferenceIdeal.Segs.U4 m' c) (Proc.devRef .tc Cert.ReferenceIdeal.main_v30) = _
  after_results_simp

theorem r_v30_6 : Cert.ReferenceIdeal.Segs.U6 m' c (Proc.devRef .tc Cert.ReferenceIdeal.main_v30) = Cert.ReferenceIdeal.Segs.U5 m' c (Proc.devRef .tc Cert.ReferenceIdeal.main_v30) := by
  show StableHlo.after Cert.ReferenceIdeal.Segs.seg5 (Cert.ReferenceIdeal.Segs.U5 m' c) (Proc.devRef .tc Cert.ReferenceIdeal.main_v30) = _
  after_results_simp

theorem r_v30_7 : Cert.ReferenceIdeal.Segs.U7 m' c (Proc.devRef .tc Cert.ReferenceIdeal.main_v30) = Cert.ReferenceIdeal.Segs.U6 m' c (Proc.devRef .tc Cert.ReferenceIdeal.main_v30) := by
  show StableHlo.after Cert.ReferenceIdeal.Segs.seg6 (Cert.ReferenceIdeal.Segs.U6 m' c) (Proc.devRef .tc Cert.ReferenceIdeal.main_v30) = _
  after_results_simp

theorem r_v30_8 : Cert.ReferenceIdeal.Segs.U8 m' c (Proc.devRef .tc Cert.ReferenceIdeal.main_v30) = Cert.ReferenceIdeal.Segs.U7 m' c (Proc.devRef .tc Cert.ReferenceIdeal.main_v30) := by
  show StableHlo.after Cert.ReferenceIdeal.Segs.seg7 (Cert.ReferenceIdeal.Segs.U7 m' c) (Proc.devRef .tc Cert.ReferenceIdeal.main_v30) = _
  after_results_simp

theorem r_v30_9 : Cert.ReferenceIdeal.Segs.U9 m' c (Proc.devRef .tc Cert.ReferenceIdeal.main_v30) = Cert.ReferenceIdeal.Segs.U8 m' c (Proc.devRef .tc Cert.ReferenceIdeal.main_v30) := by
  show StableHlo.after Cert.ReferenceIdeal.Segs.seg8 (Cert.ReferenceIdeal.Segs.U8 m' c) (Proc.devRef .tc Cert.ReferenceIdeal.main_v30) = _
  after_results_simp

theorem r_v30_10 : Cert.ReferenceIdeal.Segs.U10 m' c (Proc.devRef .tc Cert.ReferenceIdeal.main_v30) = Cert.ReferenceIdeal.Segs.U9 m' c (Proc.devRef .tc Cert.ReferenceIdeal.main_v30) := by
  show StableHlo.after Cert.ReferenceIdeal.Segs.seg9 (Cert.ReferenceIdeal.Segs.U9 m' c) (Proc.devRef .tc Cert.ReferenceIdeal.main_v30) = _
  after_results_simp

theorem r_v30_11 : Cert.ReferenceIdeal.Segs.U11 m' c (Proc.devRef .tc Cert.ReferenceIdeal.main_v30) = Cert.ReferenceIdeal.Segs.U10 m' c (Proc.devRef .tc Cert.ReferenceIdeal.main_v30) := by
  show StableHlo.after Cert.ReferenceIdeal.Segs.seg10 (Cert.ReferenceIdeal.Segs.U10 m' c) (Proc.devRef .tc Cert.ReferenceIdeal.main_v30) = _
  after_results_simp

theorem r_v30_1_8 : Cert.ReferenceIdeal.Segs.U8 m' c (Proc.devRef .tc Cert.ReferenceIdeal.main_v30) = Cert.ReferenceIdeal.Segs.U1 m' c (Proc.devRef .tc Cert.ReferenceIdeal.main_v30) :=
  (r_v30_8 m' c).trans ((r_v30_7 m' c).trans ((r_v30_6 m' c).trans ((r_v30_5 m' c).trans ((r_v30_4 m' c).trans ((r_v30_3 m' c).trans (r_v30_2 m' c))))))

theorem r_v30_8_11 : Cert.ReferenceIdeal.Segs.U11 m' c (Proc.devRef .tc Cert.ReferenceIdeal.main_v30) = Cert.ReferenceIdeal.Segs.U8 m' c (Proc.devRef .tc Cert.ReferenceIdeal.main_v30) :=
  (r_v30_11 m' c).trans ((r_v30_10 m' c).trans (r_v30_9 m' c))

end Cert.ReferenceIdeal.Carry

end
-- ==== Proof.RCarryArgsA.lean ====
/-
  Buffers of the reference that later stretches read long after they were written (the edge lists, the per-edge
  normalisation, the argument arrays): no operation in between writes them, so their contents are the same at both
  boundaries. One equation per stretch crossed, then their compositions.
-/
import proofs.«168298_j84988812853302_1_alg».proof.Proof.RefSegs
import Idealize.ShloMosaic.PureOps.Ideal

set_option maxRecDepth 16384
set_option maxHeartbeats 4000000

noncomputable section

namespace Cert.ReferenceIdeal.Carry

open Idealize.ShloMosaic Idealize.ShloMosaic.TcCoe Idealize.SL.Sem Idealize.ShloMosaic.StableHlo

variable (m' : (ℓ : Loc Cert.ReferenceIdeal.nD Cert.ReferenceIdeal.τ Cert.ReferenceIdeal.sig) → Buf (Elt Ideal) ℓ)
  (c : Dev Cert.ReferenceIdeal.nD)

theorem r_arg0_1 : Cert.ReferenceIdeal.Segs.U1 m' c (Proc.devRef .tc Cert.ReferenceIdeal.main_arg0) = Cert.ReferenceIdeal.Segs.U0 m' c (Proc.devRef .tc Cert.ReferenceIdeal.main_arg0) := by
  show StableHlo.after Cert.ReferenceIdeal.Segs.seg0 (Cert.ReferenceIdeal.Segs.U0 m' c) (Proc.devRef .tc Cert.ReferenceIdeal.main_arg0) = _
  after_results_simp

theorem r_arg0_0_1 : Cert.ReferenceIdeal.Segs.U1 m' c (Proc.devRef .tc Cert.ReferenceIdeal.main_arg0) = Cert.ReferenceIdeal.Segs.U0 m' c (Proc.devRef .tc Cert.ReferenceIdeal.main_arg0) :=
  r_arg0_1 m' c

theorem r_arg2_1 : Cert.ReferenceIdeal.Segs.U1 m' c (Proc.devRef .tc Cert.ReferenceIdeal.main_arg2) = Cert.ReferenceIdeal.Segs.U0 m' c (Proc.devRef .tc Cert.ReferenceIdeal.main_arg2) := by
  show StableHlo.after Cert.ReferenceIdeal.Segs.seg0 (Cert.ReferenceIdeal.Segs.U0 m' c) (Proc.devRef .tc Cert.ReferenceIdeal.main_arg2) = _
  after_results_simp

theorem r_arg2_2 : Cert.ReferenceIdeal.Segs.U2 m' c (Proc.devRef .tc Cert.ReferenceIdeal.main_arg2) = Cert.ReferenceIdeal.Segs.U1 m' c (Proc.devRef .tc Cert.ReferenceIdeal.main_arg2) := by
  show StableHlo.after Cert.ReferenceIdeal.Segs.seg1 (Cert.ReferenceIdeal.Segs.U1 m' c) (Proc.devRef .tc Cert.ReferenceIdeal.main_arg2) = _
  after_results_simp

theorem r_arg2_3 : Cert.ReferenceIdeal.Segs.U3 m' c (Proc.devRef .tc Cert.ReferenceIdeal.main_arg2) = Cert.ReferenceIdeal.Segs.U2 m' c (Proc.devRef .tc Cert.ReferenceIdeal.main_arg2) := by
  show StableHlo.after Cert.ReferenceIdeal.Segs.seg2 (Cert.ReferenceIdeal.Segs.U2 m' c) (Proc.devRef .tc Cert.ReferenceIdeal.main_arg2) = _
  after_results_simp

theorem r_arg2_4 : Cert.ReferenceIdeal.Segs.U4 m' c (Proc.devRef .tc Cert.ReferenceIdeal.main_arg2) = Cert.ReferenceIdeal.Segs.U3 m' c (Proc.devRef .tc Cert.ReferenceIdeal.main_arg2) := by
  show StableHlo.after Cert.ReferenceIdeal.Segs.seg3 (Cert.ReferenceIdeal.Segs.U3 m' c) (Proc.devRef .tc Cert.ReferenceIdeal.main_arg2) = _
  after_results_simp

theorem r_arg2_5 : Cert.ReferenceIdeal.Segs.U5 m' c (Proc.devRef .tc Cert.ReferenceIdeal.main_arg2) = Cert.ReferenceIdeal.Segs.U4 m' c (Proc.devRef .tc Cert.ReferenceIdeal.main_arg2) := by
  show StableHlo.after Cert.ReferenceIdeal.Segs.seg4 (Cert.ReferenceIdeal.Segs.U4 m' c) (Proc.devRef .tc Cert.ReferenceIdeal.main_arg2) = _
  after_results_simp

theorem r_arg2_6 : Cert.ReferenceIdeal.Segs.U6 m' c (Proc.devRef .tc Cert.ReferenceIdeal.main_arg2) = Cert.ReferenceIdeal.Segs.U5 m' c (Proc.devRef .tc Cert.ReferenceIdeal.main_arg2) := by
  show StableHlo.after Cert.ReferenceIdeal.Segs.seg5 (Cert.ReferenceIdeal.Segs.U5 m' c) (Proc.devRef .tc Cert.ReferenceIdeal.main_arg2) = _
  after_results_simp

theorem r_arg2_7 : Cert.ReferenceIdeal.Segs.U7 m' c (Proc.devRef .tc Cert.ReferenceIdeal.main_arg2) = Cert.ReferenceIdeal.Segs.U6 m' c (Proc.devRef .tc Cert.ReferenceIdeal.main_arg2) := by
  show StableHlo.after Cert.ReferenceIdeal.Segs.seg6 (Cert.ReferenceIdeal.Segs.U6 m' c) (Proc.devRef .tc Cert.ReferenceIdeal.main_arg2) = _
  after_results_simp

theorem r_arg2_8 : Cert.ReferenceIdeal.Segs.U8 m' c (Proc.devRef .tc Cert.ReferenceIdeal.main_arg2) = Cert.ReferenceIdeal.Segs.U7 m' c (Proc.devRef .tc Cert.ReferenceIdeal.main_arg2) := by
  show StableHlo.after Cert.ReferenceIdeal.Segs.seg7 (Cert.ReferenceIdeal.Segs.U7 m' c) (Proc.devRef .tc Cert.ReferenceIdeal.main_arg2) = _
  after_results_simp

theorem r_arg2_9 : Cert.ReferenceIdeal.Segs.U9 m' c (Proc.devRef .tc Cert.ReferenceIdeal.main_arg2) = Cert.ReferenceIdeal.Segs.U8 m' c (Proc.devRef .tc Cert.ReferenceIdeal.main_arg2) := by
  show StableHlo.after Cert.ReferenceIdeal.Segs.seg8 (Cert.ReferenceIdeal.Segs.U8 m' c) (Proc.devRef .tc Cert.ReferenceIdeal.main_arg2) = _
  after_results_simp

theorem r_arg2_10 : Cert.ReferenceIdeal.Segs.U10 m' c (Proc.devRef .tc Cert.ReferenceIdeal.main_arg2) = Cert.ReferenceIdeal.Segs.U9 m' c (Proc.devRef .tc Cert.ReferenceIdeal.main_arg2) := by
  show StableHlo.after Cert.ReferenceIdeal.Segs.seg9 (Cert.ReferenceIdeal.Segs.U9 m' c) (Proc.devRef .tc Cert.ReferenceIdeal.main_arg2) = _
  after_results_simp

theorem r_arg2_11 : Cert.ReferenceIdeal.Segs.U11 m' c (Proc.devRef .tc Cert.ReferenceIdeal.main_arg2) = Cert.ReferenceIdeal.Segs.U10 m' c (Proc.devRef .tc Cert.ReferenceIdeal.main_arg2) := by
  show StableHlo.after Cert.ReferenceIdeal.Segs.seg10 (Cert.ReferenceIdeal.Segs.U10 m' c) (Proc.devRef .tc Cert.ReferenceIdeal.main_arg2) = _
  after_results_simp

theorem r_arg2_0_8 : Cert.ReferenceIdeal.Segs.U8 m' c (Proc.devRef .tc Cert.ReferenceIdeal.main_arg2) = Cert.ReferenceIdeal.Segs.U0 m' c (Proc.devRef .tc Cert.ReferenceIdeal.main_arg2) :=
  (r_arg2_8 m' c).trans ((r_arg2_7 m' c).trans ((r_arg2_6 m' c).trans ((r_arg2_5 m' c).trans ((r_arg2_4 m' c).trans ((r_arg2_3 m' c).trans ((r_arg2_2 m' c).trans (r_arg2_1 m' c)))))))

theorem r_arg2_8_11 : Cert.ReferenceIdeal.Segs.U11 m' c (Proc.devRef .tc Cert.ReferenceIdeal.main_arg2) = Cert.ReferenceIdeal.Segs.U8 m' c (Proc.devRef .tc Cert.ReferenceIdeal.main_arg2) :=
  (r_arg2_11 m' c).trans ((r_arg2_10 m' c).trans (r_arg2_9 m' c))

theorem r_arg3_1 : Cert.ReferenceIdeal.Segs.U1 m' c (Proc.devRef .tc Cert.ReferenceIdeal.main_arg3) = Cert.ReferenceIdeal.Segs.U0 m' c (Proc.devRef .tc Cert.ReferenceIdeal.main_arg3) := by
  show StableHlo.after Cert.ReferenceIdeal.Segs.seg0 (Cert.ReferenceIdeal.Segs.U0 m' c) (Proc.devRef .tc Cert.ReferenceIdeal.main_arg3) = _
  after_results_simp

theorem r_arg3_2 : Cert.ReferenceIdeal.Segs.U2 m' c (Proc.devRef .tc Cert.ReferenceIdeal.main_arg3) = Cert.ReferenceIdeal.Segs.U1 m' c (Proc.devRef .tc Cert.ReferenceIdeal.main_arg3) := by
  show StableHlo.after Cert.ReferenceIdeal.Segs.seg1 (Cert.ReferenceIdeal.Segs.U1 m' c) (Proc.devRef .tc Cert.ReferenceIdeal.main_arg3) = _
  after_results_simp

theorem r_arg3_3 : Cert.ReferenceIdeal.Segs.U3 m' c (Proc.devRef .tc Cert.ReferenceIdeal.main_arg3) = Cert.ReferenceIdeal.Segs.U2 m' c (Proc.devRef .tc Cert.ReferenceIdeal.main_arg3) := by
  show StableHlo.after Cert.ReferenceIdeal.Segs.seg2 (Cert.ReferenceIdeal.Segs.U2 m' c) (Proc.devRef .tc Cert.ReferenceIdeal.main_arg3) = _
  after_results_simp

theorem r_arg3_4 : Cert.ReferenceIdeal.Segs.U4 m' c (Proc.devRef .tc Cert.ReferenceIdeal.main_arg3) = Cert.ReferenceIdeal.Segs.U3 m' c (Proc.devRef .tc Cert.ReferenceIdeal.main_arg3) := by
  show StableHlo.after Cert.ReferenceIdeal.Segs.seg3 (Cert.ReferenceIdeal.Segs.U3 m' c) (Proc.devRef .tc Cert.ReferenceIdeal.main_arg3) = _
  after_results_simp

theorem r_arg3_5 : Cert.ReferenceIdeal.Segs.U5 m' c (Proc.devRef .tc Cert.ReferenceIdeal.main_arg3) = Cert.ReferenceIdeal.Segs.U4 m' c (Proc.devRef .tc Cert.ReferenceIdeal.main_arg3) := by
  show StableHlo.after Cert.ReferenceIdeal.Segs.seg4 (Cert.ReferenceIdeal.Segs.U4 m' c) (Proc.devRef .tc Cert.ReferenceIdeal.main_arg3) = _
  after_results_simp

theorem r_arg3_6 : Cert.ReferenceIdeal.Segs.U6 m' c (Proc.devRef .tc Cert.ReferenceIdeal.main_arg3) = Cert.ReferenceIdeal.Segs.U5 m' c (Proc.devRef .tc Cert.ReferenceIdeal.main_arg3) := by
  show StableHlo.after Cert.ReferenceIdeal.Segs.seg5 (Cert.ReferenceIdeal.Segs.U5 m' c) (Proc.devRef .tc Cert.ReferenceIdeal.main_arg3) = _
  after_results_simp

theorem r_arg3_7 : Cert.ReferenceIdeal.Segs.U7 m' c (Proc.devRef .tc Cert.ReferenceIdeal.main_arg3) = Cert.ReferenceIdeal.Segs.U6 m' c (Proc.devRef .tc Cert.ReferenceIdeal.main_arg3) := by
  show StableHlo.after Cert.ReferenceIdeal.Segs.seg6 (Cert.ReferenceIdeal.Segs.U6 m' c) (Proc.devRef .tc Cert.ReferenceIdeal.main_arg3) = _
  after_results_simp

theorem r_arg3_8 : Cert.ReferenceIdeal.Segs.U8 m' c (Proc.devRef .tc Cert.ReferenceIdeal.main_arg3) = Cert.ReferenceIdeal.Segs.U7 m' c (Proc.devRef .tc Cert.ReferenceIdeal.main_arg3) := by
  show StableHlo.after Cert.ReferenceIdeal.Segs.seg7 (Cert.ReferenceIdeal.Segs.U7 m' c) (Proc.devRef .tc Cert.ReferenceIdeal.main_arg3) = _
  after_results_simp

theorem r_arg3_9 : Cert.ReferenceIdeal.Segs.U9 m' c (Proc.devRef .tc Cert.ReferenceIdeal.main_arg3) = Cert.ReferenceIdeal.Segs.U8 m' c (Proc.devRef .tc Cert.ReferenceIdeal.main_arg3) := by
  show StableHlo.after Cert.ReferenceIdeal.Segs.seg8 (Cert.ReferenceIdeal.Segs.U8 m' c) (Proc.devRef .tc Cert.ReferenceIdeal.main_arg3) = _
  after_results_simp

theorem r_arg3_10 : Cert.ReferenceIdeal.Segs.U10 m' c (Proc.devRef .tc Cert.ReferenceIdeal.main_arg3) = Cert.ReferenceIdeal.Segs.U9 m' c (Proc.devRef .tc Cert.ReferenceIdeal.main_arg3) := by
  show StableHlo.after Cert.ReferenceIdeal.Segs.seg9 (Cert.ReferenceIdeal.Segs.U9 m' c) (Proc.devRef .tc Cert.ReferenceIdeal.main_arg3) = _
  after_results_simp

theorem r_arg3_11 : Cert.ReferenceIdeal.Segs.U11 m' c (Proc.devRef .tc Cert.ReferenceIdeal.main_arg3) = Cert.ReferenceIdeal.Segs.U10 m' c (Proc.devRef .tc Cert.ReferenceIdeal.main_arg3) := by
  show StableHlo.after Cert.ReferenceIdeal.Segs.seg10 (Cert.ReferenceIdeal.Segs.U10 m' c) (Proc.devRef .tc Cert.ReferenceIdeal.main_arg3) = _
  after_results_simp

theorem r_arg3_12 : Cert.ReferenceIdeal.Segs.U12 m' c (Proc.devRef .tc Cert.ReferenceIdeal.main_arg3) = Cert.ReferenceIdeal.Segs.U11 m' c (Proc.devRef .tc Cert.ReferenceIdeal.main_arg3) := by
  show StableHlo.after Cert.ReferenceIdeal.Segs.seg11 (Cert.ReferenceIdeal.Segs.U11 m' c) (Proc.devRef .tc Cert.ReferenceIdeal.main_arg3) = _
  after_results_simp

theorem r_arg3_13 : Cert.ReferenceIdeal.Segs.U13 m' c (Proc.devRef .tc Cert.ReferenceIdeal.main_arg3) = Cert.ReferenceIdeal.Segs.U12 m' c (Proc.devRef .tc Cert.ReferenceIdeal.main_arg3) := by
  show StableHlo.after Cert.ReferenceIdeal.Segs.seg12 (Cert.ReferenceIdeal.Segs.U12 m' c) (Proc.devRef .tc Cert.ReferenceIdeal.main_arg3) = _
  after_results_simp

theorem r_arg3_14 : Cert.ReferenceIdeal.Segs.U14 m' c (Proc.devRef .tc Cert.ReferenceIdeal.main_arg3) = Cert.ReferenceIdeal.Segs.U13 m' c (Proc.devRef .tc Cert.ReferenceIdeal.main_arg3) := by
  show StableHlo.after Cert.ReferenceIdeal.Segs.seg13 (Cert.ReferenceIdeal.Segs.U13 m' c) (Proc.devRef .tc Cert.ReferenceIdeal.main_arg3) = _
  after_results_simp

theorem r_arg3_15 : Cert.ReferenceIdeal.Segs.U15 m' c (Proc.devRef .tc Cert.ReferenceIdeal.main_arg3) = Cert.ReferenceIdeal.Segs.U14 m' c (Proc.devRef .tc Cert.ReferenceIdeal.main_arg3) := by
  show StableHlo.after Cert.ReferenceIdeal.Segs.seg14 (Cert.ReferenceIdeal.Segs.U14 m' c) (Proc.devRef .tc Cert.ReferenceIdeal.main_arg3) = _
  after_results_simp

theorem r_arg3_16 : Cert.ReferenceIdeal.Segs.U16 m' c (Proc.devRef .tc Cert.ReferenceIdeal.main_arg3) = Cert.ReferenceIdeal.Segs.U15 m' c (Proc.devRef .tc Cert.ReferenceIdeal.main_arg3) := by
  show StableHlo.after Cert.ReferenceIdeal.Segs.seg15 (Cert.ReferenceIdeal.Segs.U15 m' c) (Proc.devRef .tc Cert.ReferenceIdeal.main_arg3) = _
  after_results_simp

theorem r_arg3_17 : Cert.ReferenceIdeal.Segs.U17 m' c (Proc.devRef .tc Cert.ReferenceIdeal.main_arg3) = Cert.ReferenceIdeal.Segs.U16 m' c (Proc.devRef .tc Cert.ReferenceIdeal.main_arg3) := by
  show StableHlo.after Cert.ReferenceIdeal.Segs.seg16 (Cert.ReferenceIdeal.Segs.U16 m' c) (Proc.devRef .tc Cert.ReferenceIdeal.main_arg3) = _
  after_results_simp

theorem r_arg3_18 : Cert.ReferenceIdeal.Segs.U18 m' c (Proc.devRef .tc Cert.ReferenceIdeal.main_arg3) = Cert.ReferenceIdeal.Segs.U17 m' c (Proc.devRef .tc Cert.ReferenceIdeal.main_arg3) := by
  show StableHlo.after Cert.ReferenceIdeal.Segs.seg17 (Cert.ReferenceIdeal.Segs.U17 m' c) (Proc.devRef .tc Cert.ReferenceIdeal.main_arg3) = _
  after_results_simp

theorem r_arg3_19 : Cert.ReferenceIdeal.Segs.U19 m' c (Proc.devRef .tc Cert.ReferenceIdeal.main_arg3) = Cert.ReferenceIdeal.Segs.U18 m' c (Proc.devRef .tc Cert.ReferenceIdeal.main_arg3) := by
  show StableHlo.after Cert.ReferenceIdeal.Segs.seg18 (Cert.ReferenceIdeal.Segs.U18 m' c) (Proc.devRef .tc Cert.ReferenceIdeal.main_arg3) = _
  after_results_simp

theorem r_arg3_20 : Cert.ReferenceIdeal.Segs.U20 m' c (Proc.devRef .tc Cert.ReferenceIdeal.main_arg3) = Cert.ReferenceIdeal.Segs.U19 m' c (Proc.devRef .tc Cert.ReferenceIdeal.main_arg3) := by
  show StableHlo.after Cert.ReferenceIdeal.Segs.seg19 (Cert.ReferenceIdeal.Segs.U19 m' c) (Proc.devRef .tc Cert.ReferenceIdeal.main_arg3) = _
  after_results_simp

theorem r_arg3_21 : Cert.ReferenceIdeal.Segs.U21 m' c (Proc.devRef .tc Cert.ReferenceIdeal.main_arg3) = Cert.ReferenceIdeal.Segs.U20 m' c (Proc.devRef .tc Cert.ReferenceIdeal.main_arg3) := by
  show StableHlo.after Cert.ReferenceIdeal.Segs.seg20 (Cert.ReferenceIdeal.Segs.U20 m' c) (Proc.devRef .tc Cert.ReferenceIdeal.main_arg3) = _
  after_results_simp

theorem r_arg3_22 : Cert.ReferenceIdeal.Segs.U22 m' c (Proc.devRef .tc Cert.ReferenceIdeal.main_arg3) = Cert.ReferenceIdeal.Segs.U21 m' c (Proc.devRef .tc Cert.ReferenceIdeal.main_arg3) := by
  show StableHlo.after Cert.ReferenceIdeal.Segs.seg21 (Cert.ReferenceIdeal.Segs.U21 m' c) (Proc.devRef .tc Cert.ReferenceIdeal.main_arg3) = _
  after_results_simp

theorem r_arg3_0_4 : Cert.ReferenceIdeal.Segs.U4 m' c (Proc.devRef .tc Cert.ReferenceIdeal.main_arg3) = Cert.ReferenceIdeal.Segs.U0 m' c (Proc.devRef .tc Cert.ReferenceIdeal.main_arg3) :=
  (r_arg3_4 m' c).trans ((r_arg3_3 m' c).trans ((r_arg3_2 m' c).trans (r_arg3_1 m' c)))

theorem r_arg3_4_14 : Cert.ReferenceIdeal.Segs.U14 m' c (Proc.devRef .tc Cert.ReferenceIdeal.main_arg3) = Cert.ReferenceIdeal.Segs.U4 m' c (Proc.devRef .tc Cert.ReferenceIdeal.main_arg3) :=
  (r_arg3_14 m' c).trans ((r_arg3_13 m' c).trans ((r_arg3_12 m' c).trans ((r_arg3_11 m' c).trans ((r_arg3_10 m' c).trans ((r_arg3_9 m' c).trans ((r_arg3_8 m' c).trans ((r_arg3_7 m' c).trans ((r_arg3_6 m' c).trans (r_arg3_5 m' c)))))))))

theorem r_arg3_14_18 : Cert.ReferenceIdeal.Segs.U18 m' c (Proc.devRef .tc Cert.ReferenceIdeal.main_arg3) = Cert.ReferenceIdeal.Segs.U14 m' c (Proc.devRef .tc Cert.ReferenceIdeal.main_arg3) :=
  (r_arg3_18 m' c).trans ((r_arg3_17 m' c).trans ((r_arg3_16 m' c).trans (r_arg3_15 m' c)))

theorem r_arg3_18_22 : Cert.ReferenceIdeal.Segs.U22 m' c (Proc.devRef .tc Cert.ReferenceIdeal.main_arg3) = Cert.ReferenceIdeal.Segs.U18 m' c (Proc.devRef .tc Cert.ReferenceIdeal.main_arg3) :=
  (r_arg3_22 m' c).trans ((r_arg3_21 m' c).trans ((r_arg3_20 m' c).trans (r_arg3_19 m' c)))

theorem r_arg4_1 : Cert.ReferenceIdeal.Segs.U1 m' c (Proc.devRef .tc Cert.ReferenceIdeal.main_arg4) = Cert.ReferenceIdeal.Segs.U0 m' c (Proc.devRef .tc Cert.ReferenceIdeal.main_arg4) := by
  show StableHlo.after Cert.ReferenceIdeal.Segs.seg0 (Cert.ReferenceIdeal.Segs.U0 m' c) (Proc.devRef .tc Cert.ReferenceIdeal.main_arg4) = _
  after_results_simp

theorem r_arg4_2 : Cert.ReferenceIdeal.Segs.U2 m' c (Proc.devRef .tc Cert.ReferenceIdeal.main_arg4) = Cert.ReferenceIdeal.Segs.U1 m' c (Proc.devRef .tc Cert.ReferenceIdeal.main_arg4) := by
  show StableHlo.after Cert.ReferenceIdeal.Segs.seg1 (Cert.ReferenceIdeal.Segs.U1 m' c) (Proc.devRef .tc Cert.ReferenceIdeal.main_arg4) = _
  after_results_simp

theorem r_arg4_3 : Cert.ReferenceIdeal.Segs.U3 m' c (Proc.devRef .tc Cert.ReferenceIdeal.main_arg4) = Cert.ReferenceIdeal.Segs.U2 m' c (Proc.devRef .tc Cert.ReferenceIdeal.main_arg4) := by
  show StableHlo.after Cert.ReferenceIdeal.Segs.seg2 (Cert.ReferenceIdeal.Segs.U2 m' c) (Proc.devRef .tc Cert.ReferenceIdeal.main_arg4) = _
  after_results_simp

theorem r_arg4_4 : Cert.ReferenceIdeal.Segs.U4 m' c (Proc.devRef .tc Cert.ReferenceIdeal.main_arg4) = Cert.ReferenceIdeal.Segs.U3 m' c (Proc.devRef .tc Cert.ReferenceIdeal.main_arg4) := by
  show StableHlo.after Cert.ReferenceIdeal.Segs.seg3 (Cert.ReferenceIdeal.Segs.U3 m' c) (Proc.devRef .tc Cert.ReferenceIdeal.main_arg4) = _
  after_results_simp

theorem r_arg4_5 : Cert.ReferenceIdeal.Segs.U5 m' c (Proc.devRef .tc Cert.ReferenceIdeal.main_arg4) = Cert.ReferenceIdeal.Segs.U4 m' c (Proc.devRef .tc Cert.ReferenceIdeal.main_arg4) := by
  show StableHlo.after Cert.ReferenceIdeal.Segs.seg4 (Cert.ReferenceIdeal.Segs.U4 m' c) (Proc.devRef .tc Cert.ReferenceIdeal.main_arg4) = _
  after_results_simp

theorem r_arg4_6 : Cert.ReferenceIdeal.Segs.U6 m' c (Proc.devRef .tc Cert.ReferenceIdeal.main_arg4) = Cert.ReferenceIdeal.Segs.U5 m' c (Proc.devRef .tc Cert.ReferenceIdeal.main_arg4) := by
  show StableHlo.after Cert.ReferenceIdeal.Segs.seg5 (Cert.ReferenceIdeal.Segs.U5 m' c) (Proc.devRef .tc Cert.ReferenceIdeal.main_arg4) = _
  after_results_simp

theorem r_arg4_7 : Cert.ReferenceIdeal.Segs.U7 m' c (Proc.devRef .tc Cert.ReferenceIdeal.main_arg4) = Cert.ReferenceIdeal.Segs.U6 m' c (Proc.devRef .tc Cert.ReferenceIdeal.main_arg4) := by
  show StableHlo.after Cert.ReferenceIdeal.Segs.seg6 (Cert.ReferenceIdeal.Segs.U6 m' c) (Proc.devRef .tc Cert.ReferenceIdeal.main_arg4) = _
  after_results_simp

theorem r_arg4_8 : Cert.ReferenceIdeal.Segs.U8 m' c (Proc.devRef .tc Cert.ReferenceIdeal.main_arg4) = Cert.ReferenceIdeal.Segs.U7 m' c (Proc.devRef .tc Cert.ReferenceIdeal.main_arg4) := by
  show StableHlo.after Cert.ReferenceIdeal.Segs.seg7 (Cert.ReferenceIdeal.Segs.U7 m' c) (Proc.devRef .tc Cert.ReferenceIdeal.main_arg4) = _
  after_results_simp

theorem r_arg4_9 : Cert.ReferenceIdeal.Segs.U9 m' c (Proc.devRef .tc Cert.ReferenceIdeal.main_arg4) = Cert.ReferenceIdeal.Segs.U8 m' c (Proc.devRef .tc Cert.ReferenceIdeal.main_arg4) := by
  show StableHlo.after Cert.ReferenceIdeal.Segs.seg8 (Cert.ReferenceIdeal.Segs.U8 m' c) (Proc.devRef .tc Cert.ReferenceIdeal.main_arg4) = _
  after_results_simp

theorem r_arg4_10 : Cert.ReferenceIdeal.Segs.U10 m' c (Proc.devRef .tc Cert.ReferenceIdeal.main_arg4) = Cert.ReferenceIdeal.Segs.U9 m' c (Proc.devRef .tc Cert.ReferenceIdeal.main_arg4) := by
  show StableHlo.after Cert.ReferenceIdeal.Segs.seg9 (Cert.ReferenceIdeal.Segs.U9 m' c) (Proc.devRef .tc Cert.ReferenceIdeal.main_arg4) = _
  after_results_simp

theorem r_arg4_11 : Cert.ReferenceIdeal.Segs.U11 m' c (Proc.devRef .tc Cert.ReferenceIdeal.main_arg4) = Cert.ReferenceIdeal.Segs.U10 m' c (Proc.devRef .tc Cert.ReferenceIdeal.main_arg4) := by
  show StableHlo.after Cert.ReferenceIdeal.Segs.seg10 (Cert.ReferenceIdeal.Segs.U10 m' c) (Proc.devRef .tc Cert.ReferenceIdeal.main_arg4) = _
  after_results_simp

theorem r_arg4_12 : Cert.ReferenceIdeal.Segs.U12 m' c (Proc.devRef .tc Cert.ReferenceIdeal.main_arg4) = Cert.ReferenceIdeal.Segs.U11 m' c (Proc.devRef .tc Cert.ReferenceIdeal.main_arg4) := by
  show StableHlo.after Cert.ReferenceIdeal.Segs.seg11 (Cert.ReferenceIdeal.Segs.U11 m' c) (Proc.devRef .tc Cert.ReferenceIdeal.main_arg4) = _
  after_results_simp

theorem r_arg4_13 : Cert.ReferenceIdeal.Segs.U13 m' c (Proc.devRef .tc Cert.ReferenceIdeal.main_arg4) = Cert.ReferenceIdeal.Segs.U12 m' c (Proc.devRef .tc Cert.ReferenceIdeal.main_arg4) := by
  show StableHlo.after Cert.ReferenceIdeal.Segs.seg12 (Cert.ReferenceIdeal.Segs.U12 m' c) (Proc.devRef .tc Cert.ReferenceIdeal.main_arg4) = _
  after_results_simp

theorem r_arg4_14 : Cert.ReferenceIdeal.Segs.U14 m' c (Proc.devRef .tc Cert.ReferenceIdeal.main_arg4) = Cert.ReferenceIdeal.Segs.U13 m' c (Proc.devRef .tc Cert.ReferenceIdeal.main_arg4) := by
  show StableHlo.after Cert.ReferenceIdeal.Segs.seg13 (Cert.ReferenceIdeal.Segs.U13 m' c) (Proc.devRef .tc Cert.ReferenceIdeal.main_arg4) = _
  after_results_simp

theorem r_arg4_15 : Cert.ReferenceIdeal.Segs.U15 m' c (Proc.devRef .tc Cert.ReferenceIdeal.main_arg4) = Cert.ReferenceIdeal.Segs.U14 m' c (Proc.devRef .tc Cert.ReferenceIdeal.main_arg4) := by
  show StableHlo.after Cert.ReferenceIdeal.Segs.seg14 (Cert.ReferenceIdeal.Segs.U14 m' c) (Proc.devRef .tc Cert.ReferenceIdeal.main_arg4) = _
  after_results_simp

theorem r_arg4_16 : Cert.ReferenceIdeal.Segs.U16 m' c (Proc.devRef .tc Cert.ReferenceIdeal.main_arg4) = Cert.ReferenceIdeal.Segs.U15 m' c (Proc.devRef .tc Cert.ReferenceIdeal.main_arg4) := by
  show StableHlo.after Cert.ReferenceIdeal.Segs.seg15 (Cert.ReferenceIdeal.Segs.U15 m' c) (Proc.devRef .tc Cert.ReferenceIdeal.main_arg4) = _
  after_results_simp

theorem r_arg4_17 : Cert.ReferenceIdeal.Segs.U17 m' c (Proc.devRef .tc Cert.ReferenceIdeal.main_arg4) = Cert.ReferenceIdeal.Segs.U16 m' c (Proc.devRef .tc Cert.ReferenceIdeal.main_arg4) := by
  show StableHlo.after Cert.ReferenceIdeal.Segs.seg16 (Cert.ReferenceIdeal.Segs.U16 m' c) (Proc.devRef .tc Cert.ReferenceIdeal.main_arg4) = _
  after_results_simp

theorem r_arg4_18 : Cert.ReferenceIdeal.Segs.U18 m' c (Proc.devRef .tc Cert.ReferenceIdeal.main_arg4) = Cert.ReferenceIdeal.Segs.U17 m' c (Proc.devRef .tc Cert.ReferenceIdeal.main_arg4) := by
  show StableHlo.after Cert.ReferenceIdeal.Segs.seg17 (Cert.ReferenceIdeal.Segs.U17 m' c) (Proc.devRef .tc Cert.ReferenceIdeal.main_arg4) = _
  after_results_simp

theorem r_arg4_19 : Cert.ReferenceIdeal.Segs.U19 m' c (Proc.devRef .tc Cert.ReferenceIdeal.main_arg4) = Cert.ReferenceIdeal.Segs.U18 m' c (Proc.devRef .tc Cert.ReferenceIdeal.main_arg4) := by
  show StableHlo.after Cert.ReferenceIdeal.Segs.seg18 (Cert.ReferenceIdeal.Segs.U18 m' c) (Proc.devRef .tc Cert.ReferenceIdeal.main_arg4) = _
  after_results_simp

theorem r_arg4_20 : Cert.ReferenceIdeal.Segs.U20 m' c (Proc.devRef .tc Cert.ReferenceIdeal.main_arg4) = Cert.ReferenceIdeal.Segs.U19 m' c (Proc.devRef .tc Cert.ReferenceIdeal.main_arg4) := by
  show StableHlo.after Cert.ReferenceIdeal.Segs.seg19 (Cert.ReferenceIdeal.Segs.U19 m' c) (Proc.devRef .tc Cert.ReferenceIdeal.main_arg4) = _
  after_results_simp

theorem r_arg4_21 : Cert.ReferenceIdeal.Segs.U21 m' c (Proc.devRef .tc Cert.ReferenceIdeal.main_arg4) = Cert.ReferenceIdeal.Segs.U20 m' c (Proc.devRef .tc Cert.ReferenceIdeal.main_arg4) := by
  show StableHlo.after Cert.ReferenceIdeal.Segs.seg20 (Cert.ReferenceIdeal.Segs.U20 m' c) (Proc.devRef .tc Cert.ReferenceIdeal.main_arg4) = _
  after_results_simp

theorem r_arg4_22 : Cert.ReferenceIdeal.Segs.U22 m' c (Proc.devRef .tc Cert.ReferenceIdeal.main_arg4) = Cert.ReferenceIdeal.Segs.U21 m' c (Proc.devRef .tc Cert.ReferenceIdeal.main_arg4) := by
  show StableHlo.after Cert.ReferenceIdeal.Segs.seg21 (Cert.ReferenceIdeal.Segs.U21 m' c) (Proc.devRef .tc Cert.ReferenceIdeal.main_arg4) = _
  after_results_simp

theorem r_arg4_0_4 : Cert.ReferenceIdeal.Segs.U4 m' c (Proc.devRef .tc Cert.ReferenceIdeal.main_arg4) = Cert.ReferenceIdeal.Segs.U0 m' c (Proc.devRef .tc Cert.ReferenceIdeal.main_arg4) :=
  (r_arg4_4 m' c).trans ((r_arg4_3 m' c).trans ((r_arg4_2 m' c).trans (r_arg4_1 m' c)))

theorem r_arg4_4_14 : Cert.ReferenceIdeal.Segs.U14 m' c (Proc.devRef .tc Cert.ReferenceIdeal.main_arg4) = Cert.ReferenceIdeal.Segs.U4 m' c (Proc.devRef .tc Cert.ReferenceIdeal.main_arg4) :=
  (r_arg4_14 m' c).trans ((r_arg4_13 m' c).trans ((r_arg4_12 m' c).trans ((r_arg4_11 m' c).trans ((r_arg4_10 m' c).trans ((r_arg4_9 m' c).trans ((r_arg4_8 m' c).trans ((r_arg4_7 m' c).trans ((r_arg4_6 m' c).trans (r_arg4_5 m' c)))))))))

theorem r_arg4_14_18 : Cert.ReferenceIdeal.Segs.U18 m' c (Proc.devRef .tc Cert.ReferenceIdeal.main_arg4) = Cert.ReferenceIdeal.Segs.U14 m' c (Proc.devRef .tc Cert.ReferenceIdeal.main_arg4) :=
  (r_arg4_18 m' c).trans ((r_arg4_17 m' c).trans ((r_arg4_16 m' c).trans (r_arg4_15 m' c)))

theorem r_arg4_18_22 : Cert.ReferenceIdeal.Segs.U22 m' c (Proc.devRef .tc Cert.ReferenceIdeal.main_arg4) = Cert.ReferenceIdeal.Segs.U18 m' c (Proc.devRef .tc Cert.ReferenceIdeal.main_arg4) :=
  (r_arg4_22 m' c).trans ((r_arg4_21 m' c).trans ((r_arg4_20 m' c).trans (r_arg4_19 m' c)))

end Cert.ReferenceIdeal.Carry

end
-- ==== Proof.RCarryArgsB.lean ====
/-
  Buffers of the reference that later stretches read long after they were written (the edge lists, the per-edge
  normalisation, the argument arrays): no operation in between writes them, so their contents are the same at both
  boundaries. One equation per stretch crossed, then their compositions.
-/
import proofs.«168298_j84988812853302_1_alg».proof.Proof.RefSegs
import Idealize.ShloMosaic.PureOps.Ideal

set_option maxRecDepth 16384
set_option maxHeartbeats 4000000

noncomputable section

namespace Cert.ReferenceIdeal.Carry

open Idealize.ShloMosaic Idealize.ShloMosaic.TcCoe Idealize.SL.Sem Idealize.ShloMosaic.StableHlo

variable (m' : (ℓ : Loc Cert.ReferenceIdeal.nD Cert.ReferenceIdeal.τ Cert.ReferenceIdeal.sig) → Buf (Elt Ideal) ℓ)
  (c : Dev Cert.ReferenceIdeal.nD)

theorem r_arg5_1 : Cert.ReferenceIdeal.Segs.U1 m' c (Proc.devRef .tc Cert.ReferenceIdeal.main_arg5) = Cert.ReferenceIdeal.Segs.U0 m' c (Proc.devRef .tc Cert.ReferenceIdeal.main_arg5) := by
  show StableHlo.after Cert.ReferenceIdeal.Segs.seg0 (Cert.ReferenceIdeal.Segs.U0 m' c) (Proc.devRef .tc Cert.ReferenceIdeal.main_arg5) = _
  after_results_simp

theorem r_arg5_2 : Cert.ReferenceIdeal.Segs.U2 m' c (Proc.devRef .tc Cert.ReferenceIdeal.main_arg5) = Cert.ReferenceIdeal.Segs.U1 m' c (Proc.devRef .tc Cert.ReferenceIdeal.main_arg5) := by
  show StableHlo.after Cert.ReferenceIdeal.Segs.seg1 (Cert.ReferenceIdeal.Segs.U1 m' c) (Proc.devRef .tc Cert.ReferenceIdeal.main_arg5) = _
  after_results_simp

theorem r_arg5_3 : Cert.ReferenceIdeal.Segs.U3 m' c (Proc.devRef .tc Cert.ReferenceIdeal.main_arg5) = Cert.ReferenceIdeal.Segs.U2 m' c (Proc.devRef .tc Cert.ReferenceIdeal.main_arg5) := by
  show StableHlo.after Cert.ReferenceIdeal.Segs.seg2 (Cert.ReferenceIdeal.Segs.U2 m' c) (Proc.devRef .tc Cert.ReferenceIdeal.main_arg5) = _
  after_results_simp

theorem r_arg5_4 : Cert.ReferenceIdeal.Segs.U4 m' c (Proc.devRef .tc Cert.ReferenceIdeal.main_arg5) = Cert.ReferenceIdeal.Segs.U3 m' c (Proc.devRef .tc Cert.ReferenceIdeal.main_arg5) := by
  show StableHlo.after Cert.ReferenceIdeal.Segs.seg3 (Cert.ReferenceIdeal.Segs.U3 m' c) (Proc.devRef .tc Cert.ReferenceIdeal.main_arg5) = _
  after_results_simp

theorem r_arg5_5 : Cert.ReferenceIdeal.Segs.U5 m' c (Proc.devRef .tc Cert.ReferenceIdeal.main_arg5) = Cert.ReferenceIdeal.Segs.U4 m' c (Proc.devRef .tc Cert.ReferenceIdeal.main_arg5) := by
  show StableHlo.after Cert.ReferenceIdeal.Segs.seg4 (Cert.ReferenceIdeal.Segs.U4 m' c) (Proc.devRef .tc Cert.ReferenceIdeal.main_arg5) = _
  after_results_simp

theorem r_arg5_6 : Cert.ReferenceIdeal.Segs.U6 m' c (Proc.devRef .tc Cert.ReferenceIdeal.main_arg5) = Cert.ReferenceIdeal.Segs.U5 m' c (Proc.devRef .tc Cert.ReferenceIdeal.main_arg5) := by
  show StableHlo.after Cert.ReferenceIdeal.Segs.seg5 (Cert.ReferenceIdeal.Segs.U5 m' c) (Proc.devRef .tc Cert.ReferenceIdeal.main_arg5) = _
  after_results_simp

theorem r_arg5_7 : Cert.ReferenceIdeal.Segs.U7 m' c (Proc.devRef .tc Cert.ReferenceIdeal.main_arg5) = Cert.ReferenceIdeal.Segs.U6 m' c (Proc.devRef .tc Cert.ReferenceIdeal.main_arg5) := by
  show StableHlo.after Cert.ReferenceIdeal.Segs.seg6 (Cert.ReferenceIdeal.Segs.U6 m' c) (Proc.devRef .tc Cert.ReferenceIdeal.main_arg5) = _
  after_results_simp

theorem r_arg5_8 : Cert.ReferenceIdeal.Segs.U8 m' c (Proc.devRef .tc Cert.ReferenceIdeal.main_arg5) = Cert.ReferenceIdeal.Segs.U7 m' c (Proc.devRef .tc Cert.ReferenceIdeal.main_arg5) := by
  show StableHlo.after Cert.ReferenceIdeal.Segs.seg7 (Cert.ReferenceIdeal.Segs.U7 m' c) (Proc.devRef .tc Cert.ReferenceIdeal.main_arg5) = _
  after_results_simp

theorem r_arg5_9 : Cert.ReferenceIdeal.Segs.U9 m' c (Proc.devRef .tc Cert.ReferenceIdeal.main_arg5) = Cert.ReferenceIdeal.Segs.U8 m' c (Proc.devRef .tc Cert.ReferenceIdeal.main_arg5) := by
  show StableHlo.after Cert.ReferenceIdeal.Segs.seg8 (Cert.ReferenceIdeal.Segs.U8 m' c) (Proc.devRef .tc Cert.ReferenceIdeal.main_arg5) = _
  after_results_simp

theorem r_arg5_10 : Cert.ReferenceIdeal.Segs.U10 m' c (Proc.devRef .tc Cert.ReferenceIdeal.main_arg5) = Cert.ReferenceIdeal.Segs.U9 m' c (Proc.devRef .tc Cert.ReferenceIdeal.main_arg5) := by
  show StableHlo.after Cert.ReferenceIdeal.Segs.seg9 (Cert.ReferenceIdeal.Segs.U9 m' c) (Proc.devRef .tc Cert.ReferenceIdeal.main_arg5) = _
  after_results_simp

theorem r_arg5_11 : Cert.ReferenceIdeal.Segs.U11 m' c (Proc.devRef .tc Cert.ReferenceIdeal.main_arg5) = Cert.ReferenceIdeal.Segs.U10 m' c (Proc.devRef .tc Cert.ReferenceIdeal.main_arg5) := by
  show StableHlo.after Cert.ReferenceIdeal.Segs.seg10 (Cert.ReferenceIdeal.Segs.U10 m' c) (Proc.devRef .tc Cert.ReferenceIdeal.main_arg5) = _
  after_results_simp

theorem r_arg5_0_8 : Cert.ReferenceIdeal.Segs.U8 m' c (Proc.devRef .tc Cert.ReferenceIdeal.main_arg5) = Cert.ReferenceIdeal.Segs.U0 m' c (Proc.devRef .tc Cert.ReferenceIdeal.main_arg5) :=
  (r_arg5_8 m' c).trans ((r_arg5_7 m' c).trans ((r_arg5_6 m' c).trans ((r_arg5_5 m' c).trans ((r_arg5_4 m' c).trans ((r_arg5_3 m' c).trans ((r_arg5_2 m' c).trans (r_arg5_1 m' c)))))))

theorem r_arg5_8_11 : Cert.ReferenceIdeal.Segs.U11 m' c (Proc.devRef .tc Cert.ReferenceIdeal.main_arg5) = Cert.ReferenceIdeal.Segs.U8 m' c (Proc.devRef .tc Cert.ReferenceIdeal.main_arg5) :=
  (r_arg5_11 m' c).trans ((r_arg5_10 m' c).trans (r_arg5_9 m' c))

theorem r_arg6_1 : Cert.ReferenceIdeal.Segs.U1 m' c (Proc.devRef .tc Cert.ReferenceIdeal.main_arg6) = Cert.ReferenceIdeal.Segs.U0 m' c (Proc.devRef .tc Cert.ReferenceIdeal.main_arg6) := by
  show StableHlo.after Cert.ReferenceIdeal.Segs.seg0 (Cert.ReferenceIdeal.Segs.U0 m' c) (Proc.devRef .tc Cert.ReferenceIdeal.main_arg6) = _
  after_results_simp

theorem r_arg6_2 : Cert.ReferenceIdeal.Segs.U2 m' c (Proc.devRef .tc Cert.ReferenceIdeal.main_arg6) = Cert.ReferenceIdeal.Segs.U1 m' c (Proc.devRef .tc Cert.ReferenceIdeal.main_arg6) := by
  show StableHlo.after Cert.ReferenceIdeal.Segs.seg1 (Cert.ReferenceIdeal.Segs.U1 m' c) (Proc.devRef .tc Cert.ReferenceIdeal.main_arg6) = _
  after_results_simp

theorem r_arg6_3 : Cert.ReferenceIdeal.Segs.U3 m' c (Proc.devRef .tc Cert.ReferenceIdeal.main_arg6) = Cert.ReferenceIdeal.Segs.U2 m' c (Proc.devRef .tc Cert.ReferenceIdeal.main_arg6) := by
  show StableHlo.after Cert.ReferenceIdeal.Segs.seg2 (Cert.ReferenceIdeal.Segs.U2 m' c) (Proc.devRef .tc Cert.ReferenceIdeal.main_arg6) = _
  after_results_simp

theorem r_arg6_4 : Cert.ReferenceIdeal.Segs.U4 m' c (Proc.devRef .tc Cert.ReferenceIdeal.main_arg6) = Cert.ReferenceIdeal.Segs.U3 m' c (Proc.devRef .tc Cert.ReferenceIdeal.main_arg6) := by
  show StableHlo.after Cert.ReferenceIdeal.Segs.seg3 (Cert.ReferenceIdeal.Segs.U3 m' c) (Proc.devRef .tc Cert.ReferenceIdeal.main_arg6) = _
  after_results_simp

theorem r_arg6_5 : Cert.ReferenceIdeal.Segs.U5 m' c (Proc.devRef .tc Cert.ReferenceIdeal.main_arg6) = Cert.ReferenceIdeal.Segs.U4 m' c (Proc.devRef .tc Cert.ReferenceIdeal.main_arg6) := by
  show StableHlo.after Cert.ReferenceIdeal.Segs.seg4 (Cert.ReferenceIdeal.Segs.U4 m' c) (Proc.devRef .tc Cert.ReferenceIdeal.main_arg6) = _
  after_results_simp

theorem r_arg6_6 : Cert.ReferenceIdeal.Segs.U6 m' c (Proc.devRef .tc Cert.ReferenceIdeal.main_arg6) = Cert.ReferenceIdeal.Segs.U5 m' c (Proc.devRef .tc Cert.ReferenceIdeal.main_arg6) := by
  show StableHlo.after Cert.ReferenceIdeal.Segs.seg5 (Cert.ReferenceIdeal.Segs.U5 m' c) (Proc.devRef .tc Cert.ReferenceIdeal.main_arg6) = _
  after_results_simp

theorem r_arg6_7 : Cert.ReferenceIdeal.Segs.U7 m' c (Proc.devRef .tc Cert.ReferenceIdeal.main_arg6) = Cert.ReferenceIdeal.Segs.U6 m' c (Proc.devRef .tc Cert.ReferenceIdeal.main_arg6) := by
  show StableHlo.after Cert.ReferenceIdeal.Segs.seg6 (Cert.ReferenceIdeal.Segs.U6 m' c) (Proc.devRef .tc Cert.ReferenceIdeal.main_arg6) = _
  after_results_simp

theorem r_arg6_8 : Cert.ReferenceIdeal.Segs.U8 m' c (Proc.devRef .tc Cert.ReferenceIdeal.main_arg6) = Cert.ReferenceIdeal.Segs.U7 m' c (Proc.devRef .tc Cert.ReferenceIdeal.main_arg6) := by
  show StableHlo.after Cert.ReferenceIdeal.Segs.seg7 (Cert.ReferenceIdeal.Segs.U7 m' c) (Proc.devRef .tc Cert.ReferenceIdeal.main_arg6) = _
  after_results_simp

theorem r_arg6_9 : Cert.ReferenceIdeal.Segs.U9 m' c (Proc.devRef .tc Cert.ReferenceIdeal.main_arg6) = Cert.ReferenceIdeal.Segs.U8 m' c (Proc.devRef .tc Cert.ReferenceIdeal.main_arg6) := by
  show StableHlo.after Cert.ReferenceIdeal.Segs.seg8 (Cert.ReferenceIdeal.Segs.U8 m' c) (Proc.devRef .tc Cert.ReferenceIdeal.main_arg6) = _
  after_results_simp

theorem r_arg6_10 : Cert.ReferenceIdeal.Segs.U10 m' c (Proc.devRef .tc Cert.ReferenceIdeal.main_arg6) = Cert.ReferenceIdeal.Segs.U9 m' c (Proc.devRef .tc Cert.ReferenceIdeal.main_arg6) := by
  show StableHlo.after Cert.ReferenceIdeal.Segs.seg9 (Cert.ReferenceIdeal.Segs.U9 m' c) (Proc.devRef .tc Cert.ReferenceIdeal.main_arg6) = _
  after_results_simp

theorem r_arg6_11 : Cert.ReferenceIdeal.Segs.U11 m' c (Proc.devRef .tc Cert.ReferenceIdeal.main_arg6) = Cert.ReferenceIdeal.Segs.U10 m' c (Proc.devRef .tc Cert.ReferenceIdeal.main_arg6) := by
  show StableHlo.after Cert.ReferenceIdeal.Segs.seg10 (Cert.ReferenceIdeal.Segs.U10 m' c) (Proc.devRef .tc Cert.ReferenceIdeal.main_arg6) = _
  after_results_simp

theorem r_arg6_0_8 : Cert.ReferenceIdeal.Segs.U8 m' c (Proc.devRef .tc Cert.ReferenceIdeal.main_arg6) = Cert.ReferenceIdeal.Segs.U0 m' c (Proc.devRef .tc Cert.ReferenceIdeal.main_arg6) :=
  (r_arg6_8 m' c).trans ((r_arg6_7 m' c).trans ((r_arg6_6 m' c).trans ((r_arg6_5 m' c).trans ((r_arg6_4 m' c).trans ((r_arg6_3 m' c).trans ((r_arg6_2 m' c).trans (r_arg6_1 m' c)))))))

theorem r_arg6_8_11 : Cert.ReferenceIdeal.Segs.U11 m' c (Proc.devRef .tc Cert.ReferenceIdeal.main_arg6) = Cert.ReferenceIdeal.Segs.U8 m' c (Proc.devRef .tc Cert.ReferenceIdeal.main_arg6) :=
  (r_arg6_11 m' c).trans ((r_arg6_10 m' c).trans (r_arg6_9 m' c))

theorem r_arg7_1 : Cert.ReferenceIdeal.Segs.U1 m' c (Proc.devRef .tc Cert.ReferenceIdeal.main_arg7) = Cert.ReferenceIdeal.Segs.U0 m' c (Proc.devRef .tc Cert.ReferenceIdeal.main_arg7) := by
  show StableHlo.after Cert.ReferenceIdeal.Segs.seg0 (Cert.ReferenceIdeal.Segs.U0 m' c) (Proc.devRef .tc Cert.ReferenceIdeal.main_arg7) = _
  after_results_simp

theorem r_arg7_2 : Cert.ReferenceIdeal.Segs.U2 m' c (Proc.devRef .tc Cert.ReferenceIdeal.main_arg7) = Cert.ReferenceIdeal.Segs.U1 m' c (Proc.devRef .tc Cert.ReferenceIdeal.main_arg7) := by
  show StableHlo.after Cert.ReferenceIdeal.Segs.seg1 (Cert.ReferenceIdeal.Segs.U1 m' c) (Proc.devRef .tc Cert.ReferenceIdeal.main_arg7) = _
  after_results_simp

theorem r_arg7_3 : Cert.ReferenceIdeal.Segs.U3 m' c (Proc.devRef .tc Cert.ReferenceIdeal.main_arg7) = Cert.ReferenceIdeal.Segs.U2 m' c (Proc.devRef .tc Cert.ReferenceIdeal.main_arg7) := by
  show StableHlo.after Cert.ReferenceIdeal.Segs.seg2 (Cert.ReferenceIdeal.Segs.U2 m' c) (Proc.devRef .tc Cert.ReferenceIdeal.main_arg7) = _
  after_results_simp

theorem r_arg7_4 : Cert.ReferenceIdeal.Segs.U4 m' c (Proc.devRef .tc Cert.ReferenceIdeal.main_arg7) = Cert.ReferenceIdeal.Segs.U3 m' c (Proc.devRef .tc Cert.ReferenceIdeal.main_arg7) := by
  show StableHlo.after Cert.ReferenceIdeal.Segs.seg3 (Cert.ReferenceIdeal.Segs.U3 m' c) (Proc.devRef .tc Cert.ReferenceIdeal.main_arg7) = _
  after_results_simp

theorem r_arg7_5 : Cert.ReferenceIdeal.Segs.U5 m' c (Proc.devRef .tc Cert.ReferenceIdeal.main_arg7) = Cert.ReferenceIdeal.Segs.U4 m' c (Proc.devRef .tc Cert.ReferenceIdeal.main_arg7) := by
  show StableHlo.after Cert.ReferenceIdeal.Segs.seg4 (Cert.ReferenceIdeal.Segs.U4 m' c) (Proc.devRef .tc Cert.ReferenceIdeal.main_arg7) = _
  after_results_simp

theorem r_arg7_6 : Cert.ReferenceIdeal.Segs.U6 m' c (Proc.devRef .tc Cert.ReferenceIdeal.main_arg7) = Cert.ReferenceIdeal.Segs.U5 m' c (Proc.devRef .tc Cert.ReferenceIdeal.main_arg7) := by
  show StableHlo.after Cert.ReferenceIdeal.Segs.seg5 (Cert.ReferenceIdeal.Segs.U5 m' c) (Proc.devRef .tc Cert.ReferenceIdeal.main_arg7) = _
  after_results_simp

theorem r_arg7_7 : Cert.ReferenceIdeal.Segs.U7 m' c (Proc.devRef .tc Cert.ReferenceIdeal.main_arg7) = Cert.ReferenceIdeal.Segs.U6 m' c (Proc.devRef .tc Cert.ReferenceIdeal.main_arg7) := by
  show StableHlo.after Cert.ReferenceIdeal.Segs.seg6 (Cert.ReferenceIdeal.Segs.U6 m' c) (Proc.devRef .tc Cert.ReferenceIdeal.main_arg7) = _
  after_results_simp

theorem r_arg7_8 : Cert.ReferenceIdeal.Segs.U8 m' c (Proc.devRef .tc Cert.ReferenceIdeal.main_arg7) = Cert.ReferenceIdeal.Segs.U7 m' c (Proc.devRef .tc Cert.ReferenceIdeal.main_arg7) := by
  show StableHlo.after Cert.ReferenceIdeal.Segs.seg7 (Cert.ReferenceIdeal.Segs.U7 m' c) (Proc.devRef .tc Cert.ReferenceIdeal.main_arg7) = _
  after_results_simp

theorem r_arg7_9 : Cert.ReferenceIdeal.Segs.U9 m' c (Proc.devRef .tc Cert.ReferenceIdeal.main_arg7) = Cert.ReferenceIdeal.Segs.U8 m' c (Proc.devRef .tc Cert.ReferenceIdeal.main_arg7) := by
  show StableHlo.after Cert.ReferenceIdeal.Segs.seg8 (Cert.ReferenceIdeal.Segs.U8 m' c) (Proc.devRef .tc Cert.ReferenceIdeal.main_arg7) = _
  after_results_simp

theorem r_arg7_10 : Cert.ReferenceIdeal.Segs.U10 m' c (Proc.devRef .tc Cert.ReferenceIdeal.main_arg7) = Cert.ReferenceIdeal.Segs.U9 m' c (Proc.devRef .tc Cert.ReferenceIdeal.main_arg7) := by
  show StableHlo.after Cert.ReferenceIdeal.Segs.seg9 (Cert.ReferenceIdeal.Segs.U9 m' c) (Proc.devRef .tc Cert.ReferenceIdeal.main_arg7) = _
  after_results_simp

theorem r_arg7_11 : Cert.ReferenceIdeal.Segs.U11 m' c (Proc.devRef .tc Cert.ReferenceIdeal.main_arg7) = Cert.ReferenceIdeal.Segs.U10 m' c (Proc.devRef .tc Cert.ReferenceIdeal.main_arg7) := by
  show StableHlo.after Cert.ReferenceIdeal.Segs.seg10 (Cert.ReferenceIdeal.Segs.U10 m' c) (Proc.devRef .tc Cert.ReferenceIdeal.main_arg7) = _
  after_results_simp

theorem r_arg7_0_8 : Cert.ReferenceIdeal.Segs.U8 m' c (Proc.devRef .tc Cert.ReferenceIdeal.main_arg7) = Cert.ReferenceIdeal.Segs.U0 m' c (Proc.devRef .tc Cert.ReferenceIdeal.main_arg7) :=
  (r_arg7_8 m' c).trans ((r_arg7_7 m' c).trans ((r_arg7_6 m' c).trans ((r_arg7_5 m' c).trans ((r_arg7_4 m' c).trans ((r_arg7_3 m' c).trans ((r_arg7_2 m' c).trans (r_arg7_1 m' c)))))))

theorem r_arg7_8_11 : Cert.ReferenceIdeal.Segs.U11 m' c (Proc.devRef .tc Cert.ReferenceIdeal.main_arg7) = Cert.ReferenceIdeal.Segs.U8 m' c (Proc.devRef .tc Cert.ReferenceIdeal.main_arg7) :=
  (r_arg7_11 m' c).trans ((r_arg7_10 m' c).trans (r_arg7_9 m' c))

theorem r_arg8_1 : Cert.ReferenceIdeal.Segs.U1 m' c (Proc.devRef .tc Cert.ReferenceIdeal.main_arg8) = Cert.ReferenceIdeal.Segs.U0 m' c (Proc.devRef .tc Cert.ReferenceIdeal.main_arg8) := by
  show StableHlo.after Cert.ReferenceIdeal.Segs.seg0 (Cert.ReferenceIdeal.Segs.U0 m' c) (Proc.devRef .tc Cert.ReferenceIdeal.main_arg8) = _
  after_results_simp

theorem r_arg8_2 : Cert.ReferenceIdeal.Segs.U2 m' c (Proc.devRef .tc Cert.ReferenceIdeal.main_arg8) = Cert.ReferenceIdeal.Segs.U1 m' c (Proc.devRef .tc Cert.ReferenceIdeal.main_arg8) := by
  show StableHlo.after Cert.ReferenceIdeal.Segs.seg1 (Cert.ReferenceIdeal.Segs.U1 m' c) (Proc.devRef .tc Cert.ReferenceIdeal.main_arg8) = _
  after_results_simp

theorem r_arg8_3 : Cert.ReferenceIdeal.Segs.U3 m' c (Proc.devRef .tc Cert.ReferenceIdeal.main_arg8) = Cert.ReferenceIdeal.Segs.U2 m' c (Proc.devRef .tc Cert.ReferenceIdeal.main_arg8) := by
  show StableHlo.after Cert.ReferenceIdeal.Segs.seg2 (Cert.ReferenceIdeal.Segs.U2 m' c) (Proc.devRef .tc Cert.ReferenceIdeal.main_arg8) = _
  after_results_simp

theorem r_arg8_4 : Cert.ReferenceIdeal.Segs.U4 m' c (Proc.devRef .tc Cert.ReferenceIdeal.main_arg8) = Cert.ReferenceIdeal.Segs.U3 m' c (Proc.devRef .tc Cert.ReferenceIdeal.main_arg8) := by
  show StableHlo.after Cert.ReferenceIdeal.Segs.seg3 (Cert.ReferenceIdeal.Segs.U3 m' c) (Proc.devRef .tc Cert.ReferenceIdeal.main_arg8) = _
  after_results_simp

theorem r_arg8_5 : Cert.ReferenceIdeal.Segs.U5 m' c (Proc.devRef .tc Cert.ReferenceIdeal.main_arg8) = Cert.ReferenceIdeal.Segs.U4 m' c (Proc.devRef .tc Cert.ReferenceIdeal.main_arg8) := by
  show StableHlo.after Cert.ReferenceIdeal.Segs.seg4 (Cert.ReferenceIdeal.Segs.U4 m' c) (Proc.devRef .tc Cert.ReferenceIdeal.main_arg8) = _
  after_results_simp

theorem r_arg8_6 : Cert.ReferenceIdeal.Segs.U6 m' c (Proc.devRef .tc Cert.ReferenceIdeal.main_arg8) = Cert.ReferenceIdeal.Segs.U5 m' c (Proc.devRef .tc Cert.ReferenceIdeal.main_arg8) := by
  show StableHlo.after Cert.ReferenceIdeal.Segs.seg5 (Cert.ReferenceIdeal.Segs.U5 m' c) (Proc.devRef .tc Cert.ReferenceIdeal.main_arg8) = _
  after_results_simp

theorem r_arg8_7 : Cert.ReferenceIdeal.Segs.U7 m' c (Proc.devRef .tc Cert.ReferenceIdeal.main_arg8) = Cert.ReferenceIdeal.Segs.U6 m' c (Proc.devRef .tc Cert.ReferenceIdeal.main_arg8) := by
  show StableHlo.after Cert.ReferenceIdeal.Segs.seg6 (Cert.ReferenceIdeal.Segs.U6 m' c) (Proc.devRef .tc Cert.ReferenceIdeal.main_arg8) = _
  after_results_simp

theorem r_arg8_8 : Cert.ReferenceIdeal.Segs.U8 m' c (Proc.devRef .tc Cert.ReferenceIdeal.main_arg8) = Cert.ReferenceIdeal.Segs.U7 m' c (Proc.devRef .tc Cert.ReferenceIdeal.main_arg8) := by
  show StableHlo.after Cert.ReferenceIdeal.Segs.seg7 (Cert.ReferenceIdeal.Segs.U7 m' c) (Proc.devRef .tc Cert.ReferenceIdeal.main_arg8) = _
  after_results_simp

theorem r_arg8_9 : Cert.ReferenceIdeal.Segs.U9 m' c (Proc.devRef .tc Cert.ReferenceIdeal.main_arg8) = Cert.ReferenceIdeal.Segs.U8 m' c (Proc.devRef .tc Cert.ReferenceIdeal.main_arg8) := by
  show StableHlo.after Cert.ReferenceIdeal.Segs.seg8 (Cert.ReferenceIdeal.Segs.U8 m' c) (Proc.devRef .tc Cert.ReferenceIdeal.main_arg8) = _
  after_results_simp

theorem r_arg8_10 : Cert.ReferenceIdeal.Segs.U10 m' c (Proc.devRef .tc Cert.ReferenceIdeal.main_arg8) = Cert.ReferenceIdeal.Segs.U9 m' c (Proc.devRef .tc Cert.ReferenceIdeal.main_arg8) := by
  show StableHlo.after Cert.ReferenceIdeal.Segs.seg9 (Cert.ReferenceIdeal.Segs.U9 m' c) (Proc.devRef .tc Cert.ReferenceIdeal.main_arg8) = _
  after_results_simp

theorem r_arg8_11 : Cert.ReferenceIdeal.Segs.U11 m' c (Proc.devRef .tc Cert.ReferenceIdeal.main_arg8) = Cert.ReferenceIdeal.Segs.U10 m' c (Proc.devRef .tc Cert.ReferenceIdeal.main_arg8) := by
  show StableHlo.after Cert.ReferenceIdeal.Segs.seg10 (Cert.ReferenceIdeal.Segs.U10 m' c) (Proc.devRef .tc Cert.ReferenceIdeal.main_arg8) = _
  after_results_simp

theorem r_arg8_0_8 : Cert.ReferenceIdeal.Segs.U8 m' c (Proc.devRef .tc Cert.ReferenceIdeal.main_arg8) = Cert.ReferenceIdeal.Segs.U0 m' c (Proc.devRef .tc Cert.ReferenceIdeal.main_arg8) :=
  (r_arg8_8 m' c).trans ((r_arg8_7 m' c).trans ((r_arg8_6 m' c).trans ((r_arg8_5 m' c).trans ((r_arg8_4 m' c).trans ((r_arg8_3 m' c).trans ((r_arg8_2 m' c).trans (r_arg8_1 m' c)))))))

theorem r_arg8_8_11 : Cert.ReferenceIdeal.Segs.U11 m' c (Proc.devRef .tc Cert.ReferenceIdeal.main_arg8) = Cert.ReferenceIdeal.Segs.U8 m' c (Proc.devRef .tc Cert.ReferenceIdeal.main_arg8) :=
  (r_arg8_11 m' c).trans ((r_arg8_10 m' c).trans (r_arg8_9 m' c))

end Cert.ReferenceIdeal.Carry

end
-- ==== Proof.RCarryShort.lean ====
/-
  Buffers of the reference that later stretches read long after they were written (the edge lists, the per-edge
  normalisation, the argument arrays): no operation in between writes them, so their contents are the same at both
  boundaries. One equation per stretch crossed, then their compositions.
-/
import proofs.«168298_j84988812853302_1_alg».proof.Proof.RefSegs
import Idealize.ShloMosaic.PureOps.Ideal

set_option maxRecDepth 16384
set_option maxHeartbeats 4000000

noncomputable section

namespace Cert.ReferenceIdeal.Carry

open Idealize.ShloMosaic Idealize.ShloMosaic.TcCoe Idealize.SL.Sem Idealize.ShloMosaic.StableHlo

variable (m' : (ℓ : Loc Cert.ReferenceIdeal.nD Cert.ReferenceIdeal.τ Cert.ReferenceIdeal.sig) → Buf (Elt Ideal) ℓ)
  (c : Dev Cert.ReferenceIdeal.nD)

theorem r_v52_5 : Cert.ReferenceIdeal.Segs.U5 m' c (Proc.devRef .tc Cert.ReferenceIdeal.main_v52) = Cert.ReferenceIdeal.Segs.U4 m' c (Proc.devRef .tc Cert.ReferenceIdeal.main_v52) := by
  show StableHlo.after Cert.ReferenceIdeal.Segs.seg4 (Cert.ReferenceIdeal.Segs.U4 m' c) (Proc.devRef .tc Cert.ReferenceIdeal.main_v52) = _
  after_results_simp

theorem r_v52_4_5 : Cert.ReferenceIdeal.Segs.U5 m' c (Proc.devRef .tc Cert.ReferenceIdeal.main_v52) = Cert.ReferenceIdeal.Segs.U4 m' c (Proc.devRef .tc Cert.ReferenceIdeal.main_v52) :=
  r_v52_5 m' c

theorem r_v56_6 : Cert.ReferenceIdeal.Segs.U6 m' c (Proc.devRef .tc Cert.ReferenceIdeal.main_v56) = Cert.ReferenceIdeal.Segs.U5 m' c (Proc.devRef .tc Cert.ReferenceIdeal.main_v56) := by
  show StableHlo.after Cert.ReferenceIdeal.Segs.seg5 (Cert.ReferenceIdeal.Segs.U5 m' c) (Proc.devRef .tc Cert.ReferenceIdeal.main_v56) = _
  after_results_simp

theorem r_v56_7 : Cert.ReferenceIdeal.Segs.U7 m' c (Proc.devRef .tc Cert.ReferenceIdeal.main_v56) = Cert.ReferenceIdeal.Segs.U6 m' c (Proc.devRef .tc Cert.ReferenceIdeal.main_v56) := by
  show StableHlo.after Cert.ReferenceIdeal.Segs.seg6 (Cert.ReferenceIdeal.Segs.U6 m' c) (Proc.devRef .tc Cert.ReferenceIdeal.main_v56) = _
  after_results_simp

theorem r_v56_5_7 : Cert.ReferenceIdeal.Segs.U7 m' c (Proc.devRef .tc Cert.ReferenceIdeal.main_v56) = Cert.ReferenceIdeal.Segs.U5 m' c (Proc.devRef .tc Cert.ReferenceIdeal.main_v56) :=
  (r_v56_7 m' c).trans (r_v56_6 m' c)

theorem r_v80_10 : Cert.ReferenceIdeal.Segs.U10 m' c (Proc.devRef .tc Cert.ReferenceIdeal.main_v80) = Cert.ReferenceIdeal.Segs.U9 m' c (Proc.devRef .tc Cert.ReferenceIdeal.main_v80) := by
  show StableHlo.after Cert.ReferenceIdeal.Segs.seg9 (Cert.ReferenceIdeal.Segs.U9 m' c) (Proc.devRef .tc Cert.ReferenceIdeal.main_v80) = _
  after_results_simp

theorem r_v80_9_10 : Cert.ReferenceIdeal.Segs.U10 m' c (Proc.devRef .tc Cert.ReferenceIdeal.main_v80) = Cert.ReferenceIdeal.Segs.U9 m' c (Proc.devRef .tc Cert.ReferenceIdeal.main_v80) :=
  r_v80_10 m' c

theorem r_v82_10 : Cert.ReferenceIdeal.Segs.U10 m' c (Proc.devRef .tc Cert.ReferenceIdeal.main_v82) = Cert.ReferenceIdeal.Segs.U9 m' c (Proc.devRef .tc Cert.ReferenceIdeal.main_v82) := by
  show StableHlo.after Cert.ReferenceIdeal.Segs.seg9 (Cert.ReferenceIdeal.Segs.U9 m' c) (Proc.devRef .tc Cert.ReferenceIdeal.main_v82) = _
  after_results_simp

theorem r_v82_9_10 : Cert.ReferenceIdeal.Segs.U10 m' c (Proc.devRef .tc Cert.ReferenceIdeal.main_v82) = Cert.ReferenceIdeal.Segs.U9 m' c (Proc.devRef .tc Cert.ReferenceIdeal.main_v82) :=
  r_v82_10 m' c

theorem r_v129_13 : Cert.ReferenceIdeal.Segs.U13 m' c (Proc.devRef .tc Cert.ReferenceIdeal.main_v129) = Cert.ReferenceIdeal.Segs.U12 m' c (Proc.devRef .tc Cert.ReferenceIdeal.main_v129) := by
  show StableHlo.after Cert.ReferenceIdeal.Segs.seg12 (Cert.ReferenceIdeal.Segs.U12 m' c) (Proc.devRef .tc Cert.ReferenceIdeal.main_v129) = _
  after_results_simp

theorem r_v129_12_13 : Cert.ReferenceIdeal.Segs.U13 m' c (Proc.devRef .tc Cert.ReferenceIdeal.main_v129) = Cert.ReferenceIdeal.Segs.U12 m' c (Proc.devRef .tc Cert.ReferenceIdeal.main_v129) :=
  r_v129_13 m' c

theorem r_v131_13 : Cert.ReferenceIdeal.Segs.U13 m' c (Proc.devRef .tc Cert.ReferenceIdeal.main_v131) = Cert.ReferenceIdeal.Segs.U12 m' c (Proc.devRef .tc Cert.ReferenceIdeal.main_v131) := by
  show StableHlo.after Cert.ReferenceIdeal.Segs.seg12 (Cert.ReferenceIdeal.Segs.U12 m' c) (Proc.devRef .tc Cert.ReferenceIdeal.main_v131) = _
  after_results_simp

theorem r_v131_12_13 : Cert.ReferenceIdeal.Segs.U13 m' c (Proc.devRef .tc Cert.ReferenceIdeal.main_v131) = Cert.ReferenceIdeal.Segs.U12 m' c (Proc.devRef .tc Cert.ReferenceIdeal.main_v131) :=
  r_v131_13 m' c

theorem r_v172_15 : Cert.ReferenceIdeal.Segs.U15 m' c (Proc.devRef .tc Cert.ReferenceIdeal.main_v172) = Cert.ReferenceIdeal.Segs.U14 m' c (Proc.devRef .tc Cert.ReferenceIdeal.main_v172) := by
  show StableHlo.after Cert.ReferenceIdeal.Segs.seg14 (Cert.ReferenceIdeal.Segs.U14 m' c) (Proc.devRef .tc Cert.ReferenceIdeal.main_v172) = _
  after_results_simp

theorem r_v172_14_15 : Cert.ReferenceIdeal.Segs.U15 m' c (Proc.devRef .tc Cert.ReferenceIdeal.main_v172) = Cert.ReferenceIdeal.Segs.U14 m' c (Proc.devRef .tc Cert.ReferenceIdeal.main_v172) :=
  r_v172_15 m' c

theorem r_v176_16 : Cert.ReferenceIdeal.Segs.U16 m' c (Proc.devRef .tc Cert.ReferenceIdeal.main_v176) = Cert.ReferenceIdeal.Segs.U15 m' c (Proc.devRef .tc Cert.ReferenceIdeal.main_v176) := by
  show StableHlo.after Cert.ReferenceIdeal.Segs.seg15 (Cert.ReferenceIdeal.Segs.U15 m' c) (Proc.devRef .tc Cert.ReferenceIdeal.main_v176) = _
  after_results_simp

theorem r_v176_17 : Cert.ReferenceIdeal.Segs.U17 m' c (Proc.devRef .tc Cert.ReferenceIdeal.main_v176) = Cert.ReferenceIdeal.Segs.U16 m' c (Proc.devRef .tc Cert.ReferenceIdeal.main_v176) := by
  show StableHlo.after Cert.ReferenceIdeal.Segs.seg16 (Cert.ReferenceIdeal.Segs.U16 m' c) (Proc.devRef .tc Cert.ReferenceIdeal.main_v176) = _
  after_results_simp

theorem r_v176_15_17 : Cert.ReferenceIdeal.Segs.U17 m' c (Proc.devRef .tc Cert.ReferenceIdeal.main_v176) = Cert.ReferenceIdeal.Segs.U15 m' c (Proc.devRef .tc Cert.ReferenceIdeal.main_v176) :=
  (r_v176_17 m' c).trans (r_v176_16 m' c)

theorem r_v194_19 : Cert.ReferenceIdeal.Segs.U19 m' c (Proc.devRef .tc Cert.ReferenceIdeal.main_v194) = Cert.ReferenceIdeal.Segs.U18 m' c (Proc.devRef .tc Cert.ReferenceIdeal.main_v194) := by
  show StableHlo.after Cert.ReferenceIdeal.Segs.seg18 (Cert.ReferenceIdeal.Segs.U18 m' c) (Proc.devRef .tc Cert.ReferenceIdeal.main_v194) = _
  after_results_simp

theorem r_v194_18_19 : Cert.ReferenceIdeal.Segs.U19 m' c (Proc.devRef .tc Cert.ReferenceIdeal.main_v194) = Cert.ReferenceIdeal.Segs.U18 m' c (Proc.devRef .tc Cert.ReferenceIdeal.main_v194) :=
  r_v194_19 m' c

theorem r_v198_20 : Cert.ReferenceIdeal.Segs.U20 m' c (Proc.devRef .tc Cert.ReferenceIdeal.main_v198) = Cert.ReferenceIdeal.Segs.U19 m' c (Proc.devRef .tc Cert.ReferenceIdeal.main_v198) := by
  show StableHlo.after Cert.ReferenceIdeal.Segs.seg19 (Cert.ReferenceIdeal.Segs.U19 m' c) (Proc.devRef .tc Cert.ReferenceIdeal.main_v198) = _
  after_results_simp

theorem r_v198_21 : Cert.ReferenceIdeal.Segs.U21 m' c (Proc.devRef .tc Cert.ReferenceIdeal.main_v198) = Cert.ReferenceIdeal.Segs.U20 m' c (Proc.devRef .tc Cert.ReferenceIdeal.main_v198) := by
  show StableHlo.after Cert.ReferenceIdeal.Segs.seg20 (Cert.ReferenceIdeal.Segs.U20 m' c) (Proc.devRef .tc Cert.ReferenceIdeal.main_v198) = _
  after_results_simp

theorem r_v198_19_21 : Cert.ReferenceIdeal.Segs.U21 m' c (Proc.devRef .tc Cert.ReferenceIdeal.main_v198) = Cert.ReferenceIdeal.Segs.U19 m' c (Proc.devRef .tc Cert.ReferenceIdeal.main_v198) :=
  (r_v198_21 m' c).trans (r_v198_20 m' c)

theorem r_v216_23 : Cert.ReferenceIdeal.Segs.U23 m' c (Proc.devRef .tc Cert.ReferenceIdeal.main_v216) = Cert.ReferenceIdeal.Segs.U22 m' c (Proc.devRef .tc Cert.ReferenceIdeal.main_v216) := by
  show StableHlo.after Cert.ReferenceIdeal.Segs.seg22 (Cert.ReferenceIdeal.Segs.U22 m' c) (Proc.devRef .tc Cert.ReferenceIdeal.main_v216) = _
  after_results_simp

theorem r_v216_22_23 : Cert.ReferenceIdeal.Segs.U23 m' c (Proc.devRef .tc Cert.ReferenceIdeal.main_v216) = Cert.ReferenceIdeal.Segs.U22 m' c (Proc.devRef .tc Cert.ReferenceIdeal.main_v216) :=
  r_v216_23 m' c

theorem r_v220_24 : Cert.ReferenceIdeal.Segs.U24 m' c (Proc.devRef .tc Cert.ReferenceIdeal.main_v220) = Cert.ReferenceIdeal.Segs.U23 m' c (Proc.devRef .tc Cert.ReferenceIdeal.main_v220) := by
  show StableHlo.after Cert.ReferenceIdeal.Segs.seg23 (Cert.ReferenceIdeal.Segs.U23 m' c) (Proc.devRef .tc Cert.ReferenceIdeal.main_v220) = _
  after_results_simp

theorem r_v220_25 : Cert.ReferenceIdeal.Segs.U25 m' c (Proc.devRef .tc Cert.ReferenceIdeal.main_v220) = Cert.ReferenceIdeal.Segs.U24 m' c (Proc.devRef .tc Cert.ReferenceIdeal.main_v220) := by
  show StableHlo.after Cert.ReferenceIdeal.Segs.seg24 (Cert.ReferenceIdeal.Segs.U24 m' c) (Proc.devRef .tc Cert.ReferenceIdeal.main_v220) = _
  after_results_simp

theorem r_v220_23_25 : Cert.ReferenceIdeal.Segs.U25 m' c (Proc.devRef .tc Cert.ReferenceIdeal.main_v220) = Cert.ReferenceIdeal.Segs.U23 m' c (Proc.devRef .tc Cert.ReferenceIdeal.main_v220) :=
  (r_v220_25 m' c).trans (r_v220_24 m' c)

end Cert.ReferenceIdeal.Carry

end
-- ==== Proof.RowOps.lean ====
/-
  Row-wise operations on arrays of `n` rows and 64 columns over the extended reals, index by index: the product of
  every row with a 64×64 matrix, the addition of one row vector to every row, the positive part, and an affine map
  per column. Each region of the kernel computes one of these (or a composition) of the arrays it finds, and each
  corresponding stretch of the reference computes the same function of the same arrays.
-/
import Idealize.ShloMosaic.PureOps.Ideal
import Idealize.ShloMosaic.Lib.ValueIdx

noncomputable section

namespace Cert.RowOps

open Idealize.ShloMosaic Idealize.ShloMosaic.ValueIdx

/-- An array of `n` rows and 64 columns of extended reals. -/
abbrev Rows (n : Nat) : Type := (⟨2, ![n, 64]⟩ : Shape).Idx → EReal

/-- Every row times the matrix: entry `(r, j)` is `∑ k, X (r, k) · W (k, j)`. -/
def rowsMul {n : Nat} (X : Rows n) (Wm : Rows 64) : Rows n :=
  fun i => ∑ k : Fin 64, X (ix2 (i 0) k) * Wm (ix2 k (i 1))

/-- One row vector (a 1×64 array) added to every row: entry `(r, j)` is `A (r, j) + b (0, j)`. -/
def addRow {n : Nat} (A : Rows n) (b : Rows 1) : Rows n :=
  fun i => A i + b (ix2 0 (i 1))

/-- The positive part, entry by entry: `max (A i) 0`. -/
def posPart {n : Nat} (A : Rows n) : Rows n :=
  fun i => max (A i) 0

/-- A scale and a shift per column (two 1×64 arrays): entry `(r, j)` is `H (r, j) · sc (0, j) + sh (0, j)`. -/
def scaleShift {n : Nat} (H : Rows n) (sc sh : Rows 1) : Rows n :=
  fun i => H i * sc (ix2 0 (i 1)) + sh (ix2 0 (i 1))

theorem rowsMul_apply {n : Nat} (X : Rows n) (Wm : Rows 64) (r : Fin n) (j : Fin 64) :
    rowsMul X Wm (ix2 r j) = ∑ k : Fin 64, X (ix2 r k) * Wm (ix2 k j) := rfl

theorem addRow_apply {n : Nat} (A : Rows n) (b : Rows 1) (r : Fin n) (j : Fin 64) :
    addRow A b (ix2 r j) = A (ix2 r j) + b (ix2 0 j) := rfl

theorem posPart_apply {n : Nat} (A : Rows n) (i : (⟨2, ![n, 64]⟩ : Shape).Idx) : posPart A i = max (A i) 0 := rfl

theorem scaleShift_apply {n : Nat} (H : Rows n) (sc sh : Rows 1) (r : Fin n) (j : Fin 64) :
    scaleShift H sc sh (ix2 r j) = H (ix2 r j) * sc (ix2 0 j) + sh (ix2 0 j) := rfl

end Cert.RowOps

end
-- ==== Proof.RowLayout.lean ====
/-
  A vector of 64 entries recast as a 1×64 array holds, at column `j` of its one row, the vector's entry `j`.
-/
import Idealize.ShloMosaic.Lib.Pipeline.Value
import Idealize.ShloMosaic.Lib.ValueIdx

noncomputable section

namespace Cert.RowLayout

open Idealize.ShloMosaic Idealize.ShloMosaic.ValueIdx

/-- Reading the recast 1×64 array at `(0, j)` gives the vector at `j`: both positions have row-major offset `j`. -/
theorem shapeCast_row {α : Type} (y : (⟨1, ![64]⟩ : Shape).Idx → α)
    (h : (⟨1, ![64]⟩ : Shape).ShapeCasts (⟨2, ![1, 64]⟩ : Shape)) (j : Fin 64) :
    shapeCast (⟨2, ![1, 64]⟩ : Shape) y h (ix2 0 j) = y (ix1 j) :=
  shapeCast_apply y h (ix2 0 j) (ix1 j) (by
    rewrite [Shape.rowMajor_val_two, Shape.rowMajor_val_one]
    have hj : j.val < 64 := j.isLt
    show j.val = 0 * 64 + j.val
    omega)

end Cert.RowLayout

end
-- ==== Proof.LibFinite.lean ====
/-
  Real-valued entries of extended-real arrays.

  The ideal reading of a float program computes on the extended reals, where algebraic laws
  such as a * (b - c) = a * b - a * c fail at the infinities. This file states when an
  extended real is a real number (IsReal), a real number that is not negative (IsNonneg) or
  a positive real number (IsPos), shows that these are kept by the arithmetic of the ideal
  instance, and lifts them to arrays: every elementwise, layout, gather, scatter-add,
  reduce-add, dot-product, quotient and reciprocal-square-root operation of the host maps
  arrays of real numbers to arrays of real numbers, under the side conditions stated.
-/
import Idealize.ShloMosaic.PureOps.Ideal.Laws
import Idealize.ShloMosaic.Lib.IdealHost

namespace Cert.LibFinite

open Idealize.ShloMosaic
open scoped BigOperators

/-! ## Scalars -/

/-- An extended real that is a real number: neither infinity. -/
def IsReal (x : EReal) : Prop := ∃ r : ℝ, x = (r : EReal)

/-- An extended real that is a real number and not negative. -/
def IsNonneg (x : EReal) : Prop := ∃ r : ℝ, 0 ≤ r ∧ x = (r : EReal)

/-- An extended real that is a positive real number. -/
def IsPos (x : EReal) : Prop := ∃ r : ℝ, 0 < r ∧ x = (r : EReal)

/-- A real number, read as an extended real, is a real number. -/
theorem isReal_coe (r : ℝ) : IsReal (r : EReal) := ⟨r, rfl⟩

/-- Zero is a real number. -/
theorem isReal_zero : IsReal 0 := ⟨0, rfl⟩

/-- One is a real number. -/
theorem isReal_one : IsReal 1 := ⟨1, rfl⟩

/-- A real number is not the upper infinity. -/
theorem IsReal.ne_top {x : EReal} (h : IsReal x) : x ≠ ⊤ := by
  obtain ⟨r, rfl⟩ := h; exact EReal.coe_ne_top r

/-- A real number is not the lower infinity. -/
theorem IsReal.ne_bot {x : EReal} (h : IsReal x) : x ≠ ⊥ := by
  obtain ⟨r, rfl⟩ := h; exact EReal.coe_ne_bot r

/-- An extended real that is neither infinity is a real number. -/
theorem isReal_of_ne {x : EReal} (hb : x ≠ ⊥) (ht : x ≠ ⊤) : IsReal x := by
  induction x using EReal.rec with
  | bot => exact absurd rfl hb
  | coe r => exact ⟨r, rfl⟩
  | top => exact absurd rfl ht

/-- Being a real number is being neither infinity. -/
theorem isReal_iff {x : EReal} : IsReal x ↔ x ≠ ⊥ ∧ x ≠ ⊤ :=
  ⟨fun h => ⟨h.ne_bot, h.ne_top⟩, fun h => isReal_of_ne h.1 h.2⟩

/-- A real number that is not negative is a real number. -/
theorem IsNonneg.isReal {x : EReal} (h : IsNonneg x) : IsReal x := by
  obtain ⟨r, _, rfl⟩ := h; exact ⟨r, rfl⟩

/-- A positive real number is not negative. -/
theorem IsPos.isNonneg {x : EReal} (h : IsPos x) : IsNonneg x := by
  obtain ⟨r, hr, rfl⟩ := h; exact ⟨r, hr.le, rfl⟩

/-- A positive real number is a real number. -/
theorem IsPos.isReal {x : EReal} (h : IsPos x) : IsReal x := h.isNonneg.isReal

/-- A real number that is not negative is at least zero in the order of the extended reals. -/
theorem IsNonneg.nonneg {x : EReal} (h : IsNonneg x) : 0 ≤ x := by
  obtain ⟨r, hr, rfl⟩ := h; exact EReal.coe_nonneg.2 hr

/-- A positive real number is above zero in the order of the extended reals. -/
theorem IsPos.pos {x : EReal} (h : IsPos x) : 0 < x := by
  obtain ⟨r, hr, rfl⟩ := h; exact EReal.coe_pos.2 hr

/-- A positive real number is not zero. -/
theorem IsPos.ne_zero {x : EReal} (h : IsPos x) : x ≠ 0 := h.pos.ne'

/-- A real number above zero in the order of the extended reals is a positive real number. -/
theorem IsReal.isPos {x : EReal} (h : IsReal x) (hx : 0 < x) : IsPos x := by
  obtain ⟨r, rfl⟩ := h; exact ⟨r, EReal.coe_pos.1 hx, rfl⟩

/-- A real number at least zero in the order of the extended reals is a real number that is not negative. -/
theorem IsReal.isNonneg {x : EReal} (h : IsReal x) (hx : 0 ≤ x) : IsNonneg x := by
  obtain ⟨r, rfl⟩ := h; exact ⟨r, EReal.coe_nonneg.1 hx, rfl⟩

/-- Zero is a real number that is not negative. -/
theorem isNonneg_zero : IsNonneg 0 := ⟨0, le_rfl, rfl⟩

/-- One is a positive real number. -/
theorem isPos_one : IsPos 1 := ⟨1, one_pos, rfl⟩

/-- The sum of two real numbers is a real number. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negative of a real number is a real number. -/
theorem IsReal.neg {x : EReal} (hx : IsReal x) : IsReal (-x) := by
  obtain ⟨a, rfl⟩ := hx; exact ⟨-a, (EReal.coe_neg a).symm⟩

/-- The difference of two real numbers is a real number. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two real numbers is a real number. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The greater of two real numbers is a real number. -/
theorem IsReal.max {x y : EReal} (hx : IsReal x) (hy : IsReal y) : IsReal (Max.max x y) := by
  rcases max_choice x y with h | h <;> rw [h] <;> assumption

/-- The lesser of two real numbers is a real number. -/
theorem IsReal.min {x y : EReal} (hx : IsReal x) (hy : IsReal y) : IsReal (Min.min x y) := by
  rcases min_choice x y with h | h <;> rw [h] <;> assumption

/-- The greater of a real number and a real number that is not negative is not negative. -/
theorem IsReal.max_nonneg {x y : EReal} (hx : IsReal x) (hy : IsNonneg y) : IsNonneg (Max.max x y) :=
  (IsReal.max hx hy.isReal).isNonneg (le_trans hy.nonneg (le_max_right x y))

/-- A finite sum of real numbers is a real number. -/
theorem isReal_sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The sum of two real numbers that are not negative is not negative. -/
theorem IsNonneg.add {x y : EReal} (hx : IsNonneg x) (hy : IsNonneg y) : IsNonneg (x + y) :=
  (hx.isReal.add hy.isReal).isNonneg (add_nonneg hx.nonneg hy.nonneg)

/-- A real number that is not negative plus a positive real number is a positive real number. -/
theorem IsNonneg.add_pos {x y : EReal} (hx : IsNonneg x) (hy : IsPos y) : IsPos (x + y) := by
  obtain ⟨a, ha, rfl⟩ := hx; obtain ⟨b, hb, rfl⟩ := hy
  exact ⟨a + b, by linarith, (EReal.coe_add a b).symm⟩

/-- The product of two real numbers that are not negative is not negative. -/
theorem IsNonneg.mul {x y : EReal} (hx : IsNonneg x) (hy : IsNonneg y) : IsNonneg (x * y) := by
  obtain ⟨a, ha, rfl⟩ := hx; obtain ⟨b, hb, rfl⟩ := hy
  exact ⟨a * b, mul_nonneg ha hb, (EReal.coe_mul a b).symm⟩

/-- The product of two positive real numbers is a positive real number. -/
theorem IsPos.mul {x y : EReal} (hx : IsPos x) (hy : IsPos y) : IsPos (x * y) := by
  obtain ⟨a, ha, rfl⟩ := hx; obtain ⟨b, hb, rfl⟩ := hy
  exact ⟨a * b, mul_pos ha hb, (EReal.coe_mul a b).symm⟩

/-- The square of a real number is a real number that is not negative. -/
theorem IsReal.mul_self {x : EReal} (hx : IsReal x) : IsNonneg (x * x) := by
  obtain ⟨a, rfl⟩ := hx; exact ⟨a * a, mul_self_nonneg a, (EReal.coe_mul a a).symm⟩

/-- A finite sum of real numbers that are not negative is a real number that is not negative. -/
theorem isNonneg_sum {ι : Type} (s : Finset ι) (f : ι → EReal) (h : ∀ i ∈ s, IsNonneg (f i)) :
    IsNonneg (∑ i ∈ s, f i) :=
  (isReal_sum s f fun i hi => (h i hi).isReal).isNonneg (Finset.sum_nonneg fun i hi => (h i hi).nonneg)

/-- The ideal quotient of a real number by a real number that is not zero is a real number. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun e => h0 (by rw [e]; rfl)
  rw [Ideal.div_coe hb]; exact (isReal_coe a).mul (isReal_coe _)

/-- The ideal quotient of a real number that is not negative by a positive real number is not negative. -/
theorem IsNonneg.div {x y : EReal} (hx : IsNonneg x) (hy : IsPos y) : IsNonneg (Ideal.div x y) := by
  obtain ⟨a, ha, rfl⟩ := hx; obtain ⟨b, hb, rfl⟩ := hy
  rw [Ideal.div_coe hb.ne']
  exact IsNonneg.mul ⟨a, ha, rfl⟩ ⟨1 / b, by positivity, rfl⟩

/-- The ideal quotient of two positive real numbers is a positive real number. -/
theorem IsPos.div {x y : EReal} (hx : IsPos x) (hy : IsPos y) : IsPos (Ideal.div x y) := by
  obtain ⟨a, ha, rfl⟩ := hx; obtain ⟨b, hb, rfl⟩ := hy
  rw [Ideal.div_coe hb.ne']
  exact IsPos.mul ⟨a, ha, rfl⟩ ⟨1 / b, by positivity, rfl⟩

/-- The ideal reciprocal square root of a positive real number is a positive real number. -/
theorem IsPos.rsqrt {x : EReal} (hx : IsPos x) : IsPos (Ideal.rsqrt x) := by
  obtain ⟨a, ha, rfl⟩ := hx
  rw [Ideal.rsqrt_coe, if_neg (not_lt.2 ha.le), if_neg ha.ne']
  exact ⟨(Real.sqrt a)⁻¹, inv_pos.2 (Real.sqrt_pos.2 ha), rfl⟩

/-- The affine form of a normalisation: over the real numbers, scaling the centred value and shifting is
    one multiplication and one addition. It fails at the infinities, hence the hypotheses. -/
theorem scale_shift_eq {g h m s b : EReal} (hg : IsReal g) (hh : IsReal h) (hm : IsReal m) (hs : IsReal s)
    (hb : IsReal b) : g * (h - m) * s + b = h * (g * s) + (b - (g * m) * s) := by
  obtain ⟨g, rfl⟩ := hg; obtain ⟨h, rfl⟩ := hh; obtain ⟨m, rfl⟩ := hm; obtain ⟨s, rfl⟩ := hs
  obtain ⟨b, rfl⟩ := hb
  simp only [← EReal.coe_sub, ← EReal.coe_mul, ← EReal.coe_add]
  exact congrArg _ (by ring)

/-! ## Arrays -/

/-- Every entry of a family of extended reals has the property P. -/
def All {ι : Type} (P : EReal → Prop) (f : ι → EReal) : Prop := ∀ i, P (f i)

/-- Every entry of the family is a real number. -/
abbrev AllReal {ι : Type} (f : ι → EReal) : Prop := All IsReal f

/-- Every entry of the family is a real number that is not negative. -/
abbrev AllNonneg {ι : Type} (f : ι → EReal) : Prop := All IsNonneg f

/-- Every entry of the family is a positive real number. -/
abbrev AllPos {ι : Type} (f : ι → EReal) : Prop := All IsPos f

/-- A property that implies another, entry by entry. -/
theorem All.mono {ι : Type} {P Q : EReal → Prop} (h : ∀ x, P x → Q x) {f : ι → EReal} (hf : All P f) : All Q f :=
  fun i => h _ (hf i)

/-- Positive real entries are real entries. -/
theorem allReal_of_allPos {ι : Type} {f : ι → EReal} (hf : AllPos f) : AllReal f := hf.mono fun _ => IsPos.isReal

/-- Real entries that are not negative are real entries. -/
theorem allReal_of_allNonneg {ι : Type} {f : ι → EReal} (hf : AllNonneg f) : AllReal f :=
  hf.mono fun _ => IsNonneg.isReal

/-- Positive real entries are not negative. -/
theorem allNonneg_of_allPos {ι : Type} {f : ι → EReal} (hf : AllPos f) : AllNonneg f :=
  hf.mono fun _ => IsPos.isNonneg

/-- Reading a family through any map of indices keeps a property of all its entries. -/
theorem All.comp {ι κ : Type} {P : EReal → Prop} {f : ι → EReal} (hf : All P f) (g : κ → ι) :
    All P (fun j => f (g j)) := fun j => hf (g j)

section Arrays
variable {s t : Shape} {φ : FTy} {P : EReal → Prop}

/-! ### Constants and layout operations: every entry of the result is an entry of the operand -/

/-- A splat constant has the property of the value its bit pattern denotes. -/
theorem all_constant {b : BitVec φ.bits} (hb : P (Ideal.ofBits φ b)) : All P (constant (F := Ideal) s φ b) :=
  fun _ => hb

/-- A broadcast reads entries of its operand. -/
theorem all_broadcastInDim {dims : Fin s.rank → Fin t.rank} {h : s.BroadcastsInDim t dims} {x : s.Idx → EReal}
    (hx : All P x) : All P (broadcastInDim t dims h x) := fun _ => hx _

/-- A reshape reads entries of its operand. -/
theorem all_shapeCast {h : s.ShapeCasts t} {x : s.Idx → EReal} (hx : All P x) : All P (shapeCast t x h) :=
  fun _ => hx _

/-- A slice reads entries of its operand. -/
theorem all_extractStridedSlice {off : Fin s.rank → Nat} {h : s.Slices off t} {x : s.Idx → EReal} (hx : All P x) :
    All P (extractStridedSlice t off x h) := fun _ => hx _

/-- A gather reads entries of its operand, whatever the indices are. -/
theorem all_gather {si : Shape} {w : Nat} {d : GatherDims s si t} {x : s.Idx → EReal} {idx : IVec si w}
    (hx : All P x) : All P (Host.gather d x idx) := fun _ => hx _

/-- A select whose two branches have the property where they are chosen has it everywhere. -/
theorem all_select_of {c : IVec s 1} {a b : s.Idx → EReal} (ha : ∀ i, c i = 1#1 → P (a i))
    (hb : ∀ i, c i ≠ 1#1 → P (b i)) : All P (select c a b) := by
  intro i
  show P (if c i = 1 then a i else b i)
  split
  · exact ha i ‹_›
  · exact hb i ‹_›

/-- A select between two arrays with the property has it. -/
theorem all_select {c : IVec s 1} {a b : s.Idx → EReal} (ha : All P a) (hb : All P b) : All P (select c a b) :=
  all_select_of (fun i _ => ha i) (fun i _ => hb i)

/-! ### Comparisons read back -/

/-- The ordered comparison greater-than answers 1 exactly when the order says so. -/
theorem cmpf_ogt_eq_one_iff {x y : Ideal φ} : FloatOps.cmpf (F := Ideal) .ogt x y = 1#1 ↔ y < x := by
  rw [Ideal.cmpf_def]; unfold Ideal.cmp
  by_cases h : y < x <;> simp [h]

/-- The ordered comparison less-than answers 1 exactly when the order says so. -/
theorem cmpf_olt_eq_one_iff {x y : Ideal φ} : FloatOps.cmpf (F := Ideal) .olt x y = 1#1 ↔ x < y := by
  rw [Ideal.cmpf_def]; unfold Ideal.cmp
  by_cases h : x < y <;> simp [h]

/-- An extended real whose absolute value is below the upper infinity is a real number. -/
theorem isReal_of_abs_lt_top {x : EReal} (h : Max.max x (-x) < ⊤) : IsReal x := by
  refine isReal_of_ne ?_ ?_
  · rintro rfl; simp at h
  · rintro rfl; simp at h

/-- The finiteness test abs x < inf, answered 1 at every index, says every entry is a real number. -/
theorem allReal_of_abs_lt {x inf : FVec Ideal s φ} (hinf : ∀ i, inf i = ⊤)
    (h : ∀ i, cmpf .olt (Host.absf x) inf i = 1#1) : AllReal x := by
  intro i
  have hi : FloatOps.cmpf (F := Ideal) .olt (FloatOps.hostAbsf (x i)) (inf i) = 1#1 := h i
  rw [cmpf_olt_eq_one_iff, hinf i] at hi
  exact isReal_of_abs_lt_top hi

/-! ### Elementwise arithmetic -/

/-- The elementwise sum of arrays of real numbers is an array of real numbers. -/
theorem allReal_addf {x y : FVec Ideal s φ} (hx : AllReal x) (hy : AllReal y) : AllReal (addf (F := Ideal) x y) :=
  fun i => (hx i).add (hy i)

/-- The elementwise difference of arrays of real numbers is an array of real numbers. -/
theorem allReal_subf {x y : FVec Ideal s φ} (hx : AllReal x) (hy : AllReal y) : AllReal (subf (F := Ideal) x y) :=
  fun i => (hx i).sub (hy i)

/-- The elementwise product of arrays of real numbers is an array of real numbers. -/
theorem allReal_mulf {x y : FVec Ideal s φ} (hx : AllReal x) (hy : AllReal y) : AllReal (mulf (F := Ideal) x y) :=
  fun i => (hx i).mul (hy i)

/-- The elementwise maximum of arrays of real numbers is an array of real numbers. -/
theorem allReal_maximumf {x y : FVec Ideal s φ} (hx : AllReal x) (hy : AllReal y) :
    AllReal (maximumf (F := Ideal) x y) := fun i => IsReal.max (hx i) (hy i)

/-- The elementwise minimum of arrays of real numbers is an array of real numbers. -/
theorem allReal_minimumf {x y : FVec Ideal s φ} (hx : AllReal x) (hy : AllReal y) :
    AllReal (minimumf (F := Ideal) x y) := fun i => IsReal.min (hx i) (hy i)

/-- The elementwise maximum of a real array with one that is not negative is not negative: a rectifier's output. -/
theorem allNonneg_maximumf {x y : FVec Ideal s φ} (hx : AllReal x) (hy : AllNonneg y) :
    AllNonneg (maximumf (F := Ideal) x y) := fun i => IsReal.max_nonneg (hx i) (hy i)

/-- The elementwise square of an array of real numbers is an array of real numbers that are not negative. -/
theorem allNonneg_mulf_self {x : FVec Ideal s φ} (hx : AllReal x) : AllNonneg (mulf (F := Ideal) x x) :=
  fun i => (hx i).mul_self

/-- The elementwise sum of arrays of real numbers that are not negative is one. -/
theorem allNonneg_addf {x y : FVec Ideal s φ} (hx : AllNonneg x) (hy : AllNonneg y) :
    AllNonneg (addf (F := Ideal) x y) := fun i => (hx i).add (hy i)

/-- An array of real numbers that are not negative plus an array of positive real numbers is positive:
    a variance plus its stabilising constant. -/
theorem allPos_addf {x y : FVec Ideal s φ} (hx : AllNonneg x) (hy : AllPos y) : AllPos (addf (F := Ideal) x y) :=
  fun i => (hx i).add_pos (hy i)

/-! ### The host's quotient and reciprocal square root -/

/-- The host's quotient of real numbers by real numbers that are not zero is real. -/
theorem allReal_divf {x y : FVec Ideal s φ} (hx : AllReal x) (hy : AllReal y) (h0 : ∀ i, y i ≠ 0) :
    AllReal (Host.divf x y) := fun i => (hx i).div (hy i) (h0 i)

/-- The host's quotient of real numbers by positive real numbers is real: a mean. -/
theorem allReal_divf_pos {x y : FVec Ideal s φ} (hx : AllReal x) (hy : AllPos y) : AllReal (Host.divf x y) :=
  fun i => (hx i).div (hy i).isReal (hy i).ne_zero

/-- The host's quotient of real numbers that are not negative by positive real numbers is not negative: a variance. -/
theorem allNonneg_divf {x y : FVec Ideal s φ} (hx : AllNonneg x) (hy : AllPos y) : AllNonneg (Host.divf x y) :=
  fun i => (hx i).div (hy i)

/-- The host's reciprocal square root at an index is the ideal instance's of the entry. -/
theorem host_rsqrt_apply (x : FVec Ideal s φ) (i : s.Idx) : Host.rsqrt x i = Ideal.rsqrt (x i) := rfl

/-- The host's reciprocal square root of positive real numbers is positive real numbers. -/
theorem allPos_rsqrt {x : FVec Ideal s φ} (hx : AllPos x) : AllPos (Host.rsqrt x) := fun i => (hx i).rsqrt

/-- The guarded reciprocal square root where(x > z, rsqrt x, b) of a real array x, against a threshold z that is not
    negative and with a real fallback b, is real: the reciprocal square root is taken only where x is positive. -/
theorem allReal_select_gt_rsqrt {x z b : FVec Ideal s φ} (hx : AllReal x) (hz : AllNonneg z) (hb : AllReal b) :
    AllReal (select (cmpf .ogt x z) (Host.rsqrt x) b) :=
  all_select_of
    (fun i hc => ((hx i).isPos (lt_of_le_of_lt (hz i).nonneg (cmpf_ogt_eq_one_iff.1 hc))).rsqrt.isReal)
    (fun i _ => hb i)

/-! ### Sums: scatter-add, reduce-add, dot product -/

/-- The host's scatter-add of real updates into a real operand is real, whatever the indices are: each entry is
    the operand's plus a finite sum of updates. -/
theorem allReal_scatterAdd {si u : Shape} {w : Nat} {d : ScatterDims s si u} {x : FVec Ideal s φ} {idx : IVec si w}
    {upd : FVec Ideal u φ} (hx : AllReal x) (hu : AllReal upd) : AllReal (Host.scatterAdd d x idx upd) := by
  intro i
  show IsReal (Ideal.hostScatterAdd d x idx upd i)
  unfold Ideal.hostScatterAdd
  exact (hx i).add (isReal_sum _ _ fun j _ => hu j)

/-- The host's scatter-add of updates that are not negative into such an operand is not negative. -/
theorem allNonneg_scatterAdd {si u : Shape} {w : Nat} {d : ScatterDims s si u} {x : FVec Ideal s φ} {idx : IVec si w}
    {upd : FVec Ideal u φ} (hx : AllNonneg x) (hu : AllNonneg upd) : AllNonneg (Host.scatterAdd d x idx upd) := by
  intro i
  show IsNonneg (Ideal.hostScatterAdd d x idx upd i)
  unfold Ideal.hostScatterAdd
  exact (hx i).add (isNonneg_sum _ _ fun j _ => hu j)

/-- The host's sum-reduction of a real array from a real initial value is real: each entry is the initial value
    plus a finite sum of entries. -/
theorem allReal_reduceAdd {axes : List (Fin s.rank)} {u : Shape} {x : FVec Ideal s φ} {init : u.Idx → Ideal φ}
    {h : s.ReducesTo axes t} {hu : 0 < u.numel} (hx : AllReal x) (hi : AllReal init) :
    AllReal (Host.reduceAdd x init h hu) := by
  intro j
  show IsReal (Ideal.hostReduceAdd h x (init (Shape.Idx.first hu)) j)
  unfold Ideal.hostReduceAdd
  exact (hi _).add (isReal_sum _ _ fun i _ => hx i)

/-- The host's sum-reduction of an array that is not negative from such an initial value is not negative. -/
theorem allNonneg_reduceAdd {axes : List (Fin s.rank)} {u : Shape} {x : FVec Ideal s φ} {init : u.Idx → Ideal φ}
    {h : s.ReducesTo axes t} {hu : 0 < u.numel} (hx : AllNonneg x) (hi : AllNonneg init) :
    AllNonneg (Host.reduceAdd x init h hu) := by
  intro j
  show IsNonneg (Ideal.hostReduceAdd h x (init (Shape.Idx.first hu)) j)
  unfold Ideal.hostReduceAdd
  exact (hi _).add (isNonneg_sum _ _ fun i _ => hx i)

/-- The host's dot product of real arrays is real, at any dimension numbers: each entry is a finite sum of
    products of entries. -/
theorem allReal_dotGeneral {sl sr so : Shape} {φ₁ φ₂ : FTy} {d : DotDims sl sr so} {prec : Option ContractPrecision}
    {lhs : FVec Ideal sl φ₁} {rhs : FVec Ideal sr φ₂} (hl : AllReal lhs) (hr : AllReal rhs) :
    AllReal (Host.dotGeneral d prec lhs rhs) := by
  intro j
  show IsReal (FloatOps.dotGeneral d prec .single lhs rhs j)
  rw [Ideal.dotGeneral_apply]
  exact isReal_sum _ _ fun k _ => (hl _).mul (hr _)

end Arrays

/-! ## The float literals of a normalisation -/

/-- The f32 pattern 0x46C35000 is the real number 25000. -/
theorem ofBits_f32_25000 : Ideal.ofBits .f32 0x46C35000#32 = ((25000 : ℝ) : EReal) := by
  simp [Ideal.ofBits, Ideal.ieee, -EReal.coe_mul]; norm_num

/-- The f32 pattern 0x47C35000 is the real number 100000. -/
theorem ofBits_f32_100000 : Ideal.ofBits .f32 0x47C35000#32 = ((100000 : ℝ) : EReal) := by
  simp [Ideal.ofBits, Ideal.ieee, -EReal.coe_mul]; norm_num

/-- The f32 pattern 0x3727C5AC, the float nearest to one hundred-thousandth, is the real number 10995116 / 2 ^ 40. -/
theorem ofBits_f32_eps : Ideal.ofBits .f32 0x3727C5AC#32 = ((10995116 * (2 : ℝ) ^ (-40 : ℤ) : ℝ) : EReal) := by
  simp [Ideal.ofBits, Ideal.ieee, -EReal.coe_mul]

/-- The f32 pattern of zero denotes a real number that is not negative. -/
theorem isNonneg_ofBits_f32_zero : IsNonneg (Ideal.ofBits .f32 0x00000000#32) := by
  rw [Ideal.ofBits_zero_f32]; exact isNonneg_zero

/-- The f32 pattern of zero denotes a real number. -/
theorem isReal_ofBits_f32_zero : IsReal (Ideal.ofBits .f32 0x00000000#32) := isNonneg_ofBits_f32_zero.isReal

/-- The f32 pattern of one denotes a positive real number. -/
theorem isPos_ofBits_f32_one : IsPos (Ideal.ofBits .f32 0x3F800000#32) := by
  rw [Ideal.ofBits_one_f32]; exact isPos_one

/-- The f32 pattern of 25000 denotes a positive real number. -/
theorem isPos_ofBits_f32_25000 : IsPos (Ideal.ofBits .f32 0x46C35000#32) :=
  ⟨25000, by norm_num, ofBits_f32_25000⟩

/-- The f32 pattern of 100000 denotes a positive real number. -/
theorem isPos_ofBits_f32_100000 : IsPos (Ideal.ofBits .f32 0x47C35000#32) :=
  ⟨100000, by norm_num, ofBits_f32_100000⟩

/-- The f32 pattern 0x3727C5AC (one hundred-thousandth, rounded) denotes a positive real number. -/
theorem isPos_ofBits_f32_eps : IsPos (Ideal.ofBits .f32 0x3727C5AC#32) :=
  ⟨10995116 * (2 : ℝ) ^ (-40 : ℤ), by positivity, ofBits_f32_eps⟩

/-! ## A closing tactic for operator trees -/

section More
variable {s : Shape} {φ : FTy} {P : EReal → Prop}

/-- A copy has the property of its operand. -/
theorem all_id {x : s.Idx → EReal} (hx : All P x) : All P (id x) := hx

/-- The host's reciprocal square root of positive real numbers is real. -/
theorem allReal_rsqrt {x : FVec Ideal s φ} (hx : AllPos x) : AllReal (Host.rsqrt x) :=
  allReal_of_allPos (allPos_rsqrt hx)

/-- The elementwise product of arrays of real numbers that are not negative is one. -/
theorem allNonneg_mulf {x y : FVec Ideal s φ} (hx : AllNonneg x) (hy : AllNonneg y) :
    AllNonneg (mulf (F := Ideal) x y) := fun i => (hx i).mul (hy i)

/-- The elementwise product of arrays of positive real numbers is one. -/
theorem allPos_mulf {x y : FVec Ideal s φ} (hx : AllPos x) (hy : AllPos y) : AllPos (mulf (F := Ideal) x y) :=
  fun i => (hx i).mul (hy i)

/-- The host's quotient of arrays of positive real numbers is one. -/
theorem allPos_divf {x y : FVec Ideal s φ} (hx : AllPos x) (hy : AllPos y) : AllPos (Host.divf x y) :=
  fun i => (hx i).div (hy i)

end More

/-- Closes a goal AllReal t, AllNonneg t or AllPos t, where t is a tree of the host's operations (elementwise
    arithmetic, rectifier, layout operations, gather, scatter-add, sum-reduction, dot product, quotient by one of
    the positive literals, reciprocal square root of a variance plus its positive constant) over arrays whose
    property is a hypothesis in the context. The rules are chosen by the property asked and the head operation:
    a quotient asks its divisor to be positive, a reciprocal square root asks its operand to be positive, a sum
    is positive when its left term is not negative and its right term is positive, a square is not negative.
    Integer index arrays are arbitrary. -/
macro "all_real" : tactic => `(tactic| with_reducible
  repeat' (first
    | assumption
    | exact isNonneg_ofBits_f32_zero | exact isReal_ofBits_f32_zero
    | exact isPos_ofBits_f32_one | exact isPos_ofBits_f32_one.isNonneg | exact isPos_ofBits_f32_one.isReal
    | exact isPos_ofBits_f32_eps | exact isPos_ofBits_f32_eps.isNonneg | exact isPos_ofBits_f32_eps.isReal
    | exact isPos_ofBits_f32_25000 | exact isPos_ofBits_f32_25000.isNonneg | exact isPos_ofBits_f32_25000.isReal
    | exact isPos_ofBits_f32_100000 | exact isPos_ofBits_f32_100000.isNonneg | exact isPos_ofBits_f32_100000.isReal
    | apply allPos_rsqrt | apply allPos_addf | apply allPos_mulf | apply allPos_divf
    | apply allNonneg_mulf_self | apply allNonneg_mulf | apply allNonneg_addf | apply allNonneg_maximumf
    | apply allNonneg_divf | apply allNonneg_scatterAdd | apply allNonneg_reduceAdd
    | apply allReal_addf | apply allReal_subf | apply allReal_mulf | apply allReal_maximumf | apply allReal_minimumf
    | apply allReal_divf_pos | apply allReal_rsqrt | apply allReal_scatterAdd | apply allReal_reduceAdd
    | apply allReal_dotGeneral | apply allReal_select_gt_rsqrt
    | apply all_constant | apply all_broadcastInDim | apply all_shapeCast | apply all_extractStridedSlice
    | apply all_gather | apply all_id | apply all_select
    | (apply allReal_of_allNonneg; assumption) | (apply allReal_of_allPos; assumption)
    | (apply allNonneg_of_allPos; assumption)))

end Cert.LibFinite
-- ==== Proof.EdgeCat.lean ====
/-
  The edge endpoints followed by the node identifiers (every node's self-loop), as one function of the two pieces.
-/
import Idealize.ShloMosaic.PureOps.ShapeOps

noncomputable section

namespace Cert.EdgeCat

open Idealize.ShloMosaic

/-- A list of 1,000,000 edge endpoints followed by the 100,000 node identifiers: the concatenation of the two along their
    one axis. -/
def withLoops {α : Type} (h : Shape.Concatenates [(⟨1, ![1000000]⟩ : Shape), (⟨1, ![100000]⟩ : Shape)] (⟨1, ![1100000]⟩ : Shape) 0)
    (a : (⟨1, ![1000000]⟩ : Shape).Idx → α) (b : (⟨1, ![100000]⟩ : Shape).Idx → α) : (⟨1, ![1100000]⟩ : Shape).Idx → α :=
  concatenate (⟨1, ![1100000]⟩ : Shape) 0 [⟨(⟨1, ![1000000]⟩ : Shape), a⟩, ⟨(⟨1, ![100000]⟩ : Shape), b⟩] h

theorem withLoops_def {α : Type} (h : Shape.Concatenates [(⟨1, ![1000000]⟩ : Shape), (⟨1, ![100000]⟩ : Shape)] (⟨1, ![1100000]⟩ : Shape) 0)
    (a : (⟨1, ![1000000]⟩ : Shape).Idx → α) (b : (⟨1, ![100000]⟩ : Shape).Idx → α) :
    concatenate (⟨1, ![1100000]⟩ : Shape) 0 [⟨(⟨1, ![1000000]⟩ : Shape), a⟩, ⟨(⟨1, ![100000]⟩ : Shape), b⟩] h = withLoops h a b := rfl

end Cert.EdgeCat

end
-- ==== Proof.SimInit.lean ====
/-
  The stretches of host operations that the two programs share. Between two regions the idealized kernel runs the
  same host operations as the reference does between the corresponding points (index normalisation, gather of the
  transformed rows, scaling by the per-edge coefficient, scatter-add into the target rows; slices of the parameter
  arrays): from buffers that agree, the buffers written agree. Where the kernel recasts a 64-entry vector as a 1×64
  row for its next region, the row's entries are the vector's. Along the way every entry of the reference's float
  buffers is a real number.
-/
import proofs.«168298_j84988812853302_1_alg».proof.Proof.Gen.KernelIdeal.Frame
import proofs.«168298_j84988812853302_1_alg».proof.Proof.RefSegs
import proofs.«168298_j84988812853302_1_alg».proof.Proof.RowOps
import proofs.«168298_j84988812853302_1_alg».proof.Proof.RowLayout
import proofs.«168298_j84988812853302_1_alg».proof.Proof.LibFinite
import proofs.«168298_j84988812853302_1_alg».proof.Proof.EdgeCat
import Idealize.ShloMosaic.Lib.StableHlo.Run
import Idealize.ShloMosaic.PureOps.Ideal

set_option maxRecDepth 16384
set_option maxHeartbeats 16000000

noncomputable section

namespace Cert.Sim

open Idealize.ShloMosaic Idealize.ShloMosaic.TcCoe Idealize.SL.Sem Idealize.ShloMosaic.StableHlo
open Idealize.ShloMosaic.ValueIdx Cert.RowOps Cert.LibFinite

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- Before the first region both programs run the same operations on the same arguments (the edge lists with the
    self-loops, the degrees and the per-edge normalisation, the first layer's weights and bias): `v3` agrees. -/
theorem init_v3
    (a1 : Cert.KernelIdeal.Gen.W0 m ρ c (Proc.devRef .tc Cert.KernelIdeal.main_arg1) = Cert.ReferenceIdeal.Segs.U0 m' c (Proc.devRef .tc Cert.ReferenceIdeal.main_arg1))
    (a3 : Cert.KernelIdeal.Gen.W0 m ρ c (Proc.devRef .tc Cert.KernelIdeal.main_arg3) = Cert.ReferenceIdeal.Segs.U0 m' c (Proc.devRef .tc Cert.ReferenceIdeal.main_arg3))
    (a4 : Cert.KernelIdeal.Gen.W0 m ρ c (Proc.devRef .tc Cert.KernelIdeal.main_arg4) = Cert.ReferenceIdeal.Segs.U0 m' c (Proc.devRef .tc Cert.ReferenceIdeal.main_arg4)) :
    Cert.KernelIdeal.Gen.W3 m ρ c (Proc.devRef .tc Cert.KernelIdeal.main_v3) = Cert.ReferenceIdeal.Segs.U1 m' c (Proc.devRef .tc Cert.ReferenceIdeal.main_v3) := by
  show StableHlo.after Cert.KernelIdeal.Gen.hostOps0_2 (StableHlo.after Cert.KernelIdeal.Gen.hostOps0_1 (StableHlo.after Cert.KernelIdeal.Gen.hostOps0 (Cert.KernelIdeal.Gen.W0 m ρ c))) (Proc.devRef .tc Cert.KernelIdeal.main_v3)
     = StableHlo.after Cert.ReferenceIdeal.Segs.seg0 (Cert.ReferenceIdeal.Segs.U0 m' c) (Proc.devRef .tc Cert.ReferenceIdeal.main_v3)
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Cert.EdgeCat.withLoops_def]
  all_goals try simp only [a1, a3, a4]
  all_goals try rfl

/-- Before the first region both programs run the same operations on the same arguments (the edge lists with the
    self-loops, the degrees and the per-edge normalisation, the first layer's weights and bias): `v6` agrees. -/
theorem init_v6
    (a1 : Cert.KernelIdeal.Gen.W0 m ρ c (Proc.devRef .tc Cert.KernelIdeal.main_arg1) = Cert.ReferenceIdeal.Segs.U0 m' c (Proc.devRef .tc Cert.ReferenceIdeal.main_arg1))
    (a3 : Cert.KernelIdeal.Gen.W0 m ρ c (Proc.devRef .tc Cert.KernelIdeal.main_arg3) = Cert.ReferenceIdeal.Segs.U0 m' c (Proc.devRef .tc Cert.ReferenceIdeal.main_arg3))
    (a4 : Cert.KernelIdeal.Gen.W0 m ρ c (Proc.devRef .tc Cert.KernelIdeal.main_arg4) = Cert.ReferenceIdeal.Segs.U0 m' c (Proc.devRef .tc Cert.ReferenceIdeal.main_arg4)) :
    Cert.KernelIdeal.Gen.W3 m ρ c (Proc.devRef .tc Cert.KernelIdeal.main_v6) = Cert.ReferenceIdeal.Segs.U1 m' c (Proc.devRef .tc Cert.ReferenceIdeal.main_v6) := by
  show StableHlo.after Cert.KernelIdeal.Gen.hostOps0_2 (StableHlo.after Cert.KernelIdeal.Gen.hostOps0_1 (StableHlo.after Cert.KernelIdeal.Gen.hostOps0 (Cert.KernelIdeal.Gen.W0 m ρ c))) (Proc.devRef .tc Cert.KernelIdeal.main_v6)
     = StableHlo.after Cert.ReferenceIdeal.Segs.seg0 (Cert.ReferenceIdeal.Segs.U0 m' c) (Proc.devRef .tc Cert.ReferenceIdeal.main_v6)
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Cert.EdgeCat.withLoops_def]
  all_goals try simp only [a1, a3, a4]
  all_goals try rfl

/-- Before the first region both programs run the same operations on the same arguments (the edge lists with the
    self-loops, the degrees and the per-edge normalisation, the first layer's weights and bias): `v29` agrees. -/
theorem init_v29
    (a1 : Cert.KernelIdeal.Gen.W0 m ρ c (Proc.devRef .tc Cert.KernelIdeal.main_arg1) = Cert.ReferenceIdeal.Segs.U0 m' c (Proc.devRef .tc Cert.ReferenceIdeal.main_arg1))
    (a3 : Cert.KernelIdeal.Gen.W0 m ρ c (Proc.devRef .tc Cert.KernelIdeal.main_arg3) = Cert.ReferenceIdeal.Segs.U0 m' c (Proc.devRef .tc Cert.ReferenceIdeal.main_arg3))
    (a4 : Cert.KernelIdeal.Gen.W0 m ρ c (Proc.devRef .tc Cert.KernelIdeal.main_arg4) = Cert.ReferenceIdeal.Segs.U0 m' c (Proc.devRef .tc Cert.ReferenceIdeal.main_arg4)) :
    Cert.KernelIdeal.Gen.W3 m ρ c (Proc.devRef .tc Cert.KernelIdeal.main_v29) = Cert.ReferenceIdeal.Segs.U1 m' c (Proc.devRef .tc Cert.ReferenceIdeal.main_v29) := by
  show StableHlo.after Cert.KernelIdeal.Gen.hostOps0_2 (StableHlo.after Cert.KernelIdeal.Gen.hostOps0_1 (StableHlo.after Cert.KernelIdeal.Gen.hostOps0 (Cert.KernelIdeal.Gen.W0 m ρ c))) (Proc.devRef .tc Cert.KernelIdeal.main_v29)
     = StableHlo.after Cert.ReferenceIdeal.Segs.seg0 (Cert.ReferenceIdeal.Segs.U0 m' c) (Proc.devRef .tc Cert.ReferenceIdeal.main_v29)
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Cert.EdgeCat.withLoops_def]
  all_goals try simp only [a1, a3, a4]
  all_goals try rfl

/-- Before the first region both programs run the same operations on the same arguments (the edge lists with the
    self-loops, the degrees and the per-edge normalisation, the first layer's weights and bias): `v30` agrees. -/
theorem init_v30
    (a1 : Cert.KernelIdeal.Gen.W0 m ρ c (Proc.devRef .tc Cert.KernelIdeal.main_arg1) = Cert.ReferenceIdeal.Segs.U0 m' c (Proc.devRef .tc Cert.ReferenceIdeal.main_arg1))
    (a3 : Cert.KernelIdeal.Gen.W0 m ρ c (Proc.devRef .tc Cert.KernelIdeal.main_arg3) = Cert.ReferenceIdeal.Segs.U0 m' c (Proc.devRef .tc Cert.ReferenceIdeal.main_arg3))
    (a4 : Cert.KernelIdeal.Gen.W0 m ρ c (Proc.devRef .tc Cert.KernelIdeal.main_arg4) = Cert.ReferenceIdeal.Segs.U0 m' c (Proc.devRef .tc Cert.ReferenceIdeal.main_arg4)) :
    Cert.KernelIdeal.Gen.W3 m ρ c (Proc.devRef .tc Cert.KernelIdeal.main_v30) = Cert.ReferenceIdeal.Segs.U1 m' c (Proc.devRef .tc Cert.ReferenceIdeal.main_v30) := by
  show StableHlo.after Cert.KernelIdeal.Gen.hostOps0_2 (StableHlo.after Cert.KernelIdeal.Gen.hostOps0_1 (StableHlo.after Cert.KernelIdeal.Gen.hostOps0 (Cert.KernelIdeal.Gen.W0 m ρ c))) (Proc.devRef .tc Cert.KernelIdeal.main_v30)
     = StableHlo.after Cert.ReferenceIdeal.Segs.seg0 (Cert.ReferenceIdeal.Segs.U0 m' c) (Proc.devRef .tc Cert.ReferenceIdeal.main_v30)
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Cert.EdgeCat.withLoops_def]
  all_goals try simp only [a1, a3, a4]
  all_goals try rfl

/-- Before the first region both programs run the same operations on the same arguments (the edge lists with the
    self-loops, the degrees and the per-edge normalisation, the first layer's weights and bias): `v32` agrees. -/
theorem init_v32
    (a1 : Cert.KernelIdeal.Gen.W0 m ρ c (Proc.devRef .tc Cert.KernelIdeal.main_arg1) = Cert.ReferenceIdeal.Segs.U0 m' c (Proc.devRef .tc Cert.ReferenceIdeal.main_arg1))
    (a3 : Cert.KernelIdeal.Gen.W0 m ρ c (Proc.devRef .tc Cert.KernelIdeal.main_arg3) = Cert.ReferenceIdeal.Segs.U0 m' c (Proc.devRef .tc Cert.ReferenceIdeal.main_arg3))
    (a4 : Cert.KernelIdeal.Gen.W0 m ρ c (Proc.devRef .tc Cert.KernelIdeal.main_arg4) = Cert.ReferenceIdeal.Segs.U0 m' c (Proc.devRef .tc Cert.ReferenceIdeal.main_arg4)) :
    Cert.KernelIdeal.Gen.W3 m ρ c (Proc.devRef .tc Cert.KernelIdeal.main_v32) = Cert.ReferenceIdeal.Segs.U1 m' c (Proc.devRef .tc Cert.ReferenceIdeal.main_v32) := by
  show StableHlo.after Cert.KernelIdeal.Gen.hostOps0_2 (StableHlo.after Cert.KernelIdeal.Gen.hostOps0_1 (StableHlo.after Cert.KernelIdeal.Gen.hostOps0 (Cert.KernelIdeal.Gen.W0 m ρ c))) (Proc.devRef .tc Cert.KernelIdeal.main_v32)
     = StableHlo.after Cert.ReferenceIdeal.Segs.seg0 (Cert.ReferenceIdeal.Segs.U0 m' c) (Proc.devRef .tc Cert.ReferenceIdeal.main_v32)
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Cert.EdgeCat.withLoops_def]
  all_goals try simp only [a1, a3, a4]
  all_goals try rfl

/-- Before the first region both programs run the same operations on the same arguments (the edge lists with the
    self-loops, the degrees and the per-edge normalisation, the first layer's weights and bias): `v34` agrees. -/
theorem init_v34
    (a1 : Cert.KernelIdeal.Gen.W0 m ρ c (Proc.devRef .tc Cert.KernelIdeal.main_arg1) = Cert.ReferenceIdeal.Segs.U0 m' c (Proc.devRef .tc Cert.ReferenceIdeal.main_arg1))
    (a3 : Cert.KernelIdeal.Gen.W0 m ρ c (Proc.devRef .tc Cert.KernelIdeal.main_arg3) = Cert.ReferenceIdeal.Segs.U0 m' c (Proc.devRef .tc Cert.ReferenceIdeal.main_arg3))
    (a4 : Cert.KernelIdeal.Gen.W0 m ρ c (Proc.devRef .tc Cert.KernelIdeal.main_arg4) = Cert.ReferenceIdeal.Segs.U0 m' c (Proc.devRef .tc Cert.ReferenceIdeal.main_arg4)) :
    Cert.KernelIdeal.Gen.W3 m ρ c (Proc.devRef .tc Cert.KernelIdeal.main_v34) = Cert.ReferenceIdeal.Segs.U1 m' c (Proc.devRef .tc Cert.ReferenceIdeal.main_v34) := by
  show StableHlo.after Cert.KernelIdeal.Gen.hostOps0_2 (StableHlo.after Cert.KernelIdeal.Gen.hostOps0_1 (StableHlo.after Cert.KernelIdeal.Gen.hostOps0 (Cert.KernelIdeal.Gen.W0 m ρ c))) (Proc.devRef .tc Cert.KernelIdeal.main_v34)
     = StableHlo.after Cert.ReferenceIdeal.Segs.seg0 (Cert.ReferenceIdeal.Segs.U0 m' c) (Proc.devRef .tc Cert.ReferenceIdeal.main_v34)
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Cert.EdgeCat.withLoops_def]
  all_goals try simp only [a1, a3, a4]
  all_goals try rfl

/-! ### The per-edge normalisation is real

The reference's first stretch, cut at its one called function: the operations before it (which compute the degrees),
the three operations of the call (which select the inverse square root where the degree is positive), the rest. -/

section FirstStretch
variable {F : FTy → Type} [FloatOps F]
open Cert.ReferenceIdeal Cert.ReferenceIdeal.Gen

/-- The operations up to the degree, its comparison with zero and its inverse square root. -/
abbrev seg0a : List (HloOp Cert.ReferenceIdeal.τ Cert.ReferenceIdeal.sig (Elt F)) :=
  [ nullary main_v0 (iotaInDim S100000 32 0),
    unary main_arg1 main_v1 ((extractStridedSlice S1x1000000 ![0, 0] · slices_S2x1000000_S1x1000000_0_0) : (⟨S2x1000000, .i32⟩ : BufTy).Contents (Elt F) → (⟨S1x1000000, .i32⟩ : BufTy).Contents (Elt F)),
    reshape main_v1 main_v2 rfl shapeCasts_S1x1000000_S1000000,
    binary main_v2 main_v0 main_v3 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)),
    unary main_arg1 main_v4 ((extractStridedSlice S1x1000000 ![1, 0] · slices_S2x1000000_S1x1000000_1_0) : (⟨S2x1000000, .i32⟩ : BufTy).Contents (Elt F) → (⟨S1x1000000, .i32⟩ : BufTy).Contents (Elt F)),
    reshape main_v4 main_v5 rfl shapeCasts_S1x1000000_S1000000,
    binary main_v5 main_v0 main_v6 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)),
    nullary main_cst (constant S_ .f32 0x3F800000#32),
    unary main_cst main_v7 (broadcastInDim S1100000 ![] bcast_S_S1100000 : (⟨S_, .f32⟩ : BufTy).Contents (Elt F) → (⟨S1100000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1100000x1 ![0] bcast_S1100000_S1100000x1_0 : (⟨S1100000, .i32⟩ : BufTy).Contents (Elt F) → (⟨S1100000x1, .i32⟩ : BufTy).Contents (Elt F)),
    ternary main_v8 main_v9 main_v7 main_v10 ((fun x i u => Host.scatterAdd scatter_S100000_S1100000x1_S1100000_n_0_0_1 x i u) : (⟨S100000, .f32⟩ : BufTy).Contents (Elt F) → (⟨S1100000x1, .i32⟩ : BufTy).Contents (Elt F) → (⟨S1100000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]
/-- The called function: zero broadcast, and the selection. -/
abbrev seg0b : List (HloOp Cert.ReferenceIdeal.τ Cert.ReferenceIdeal.sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]
/-- The rest of the first stretch. -/
abbrev seg0c : List (HloOp Cert.ReferenceIdeal.τ Cert.ReferenceIdeal.sig (Elt F)) :=
  [ nullary main_c (constantI S_ 32 0#32),
    unary main_c main_v15 (broadcastInDim S1100000 ![] bcast_S_S1100000 : (⟨S_, .i32⟩ : BufTy).Contents (Elt F) → (⟨S1100000, .i32⟩ : BufTy).Contents (Elt F)),
    binary main_v3 main_v15 main_v16 (cmpi .slt : (⟨S1100000, .i32⟩ : BufTy).Contents (Elt F) → (⟨S1100000, .i32⟩ : BufTy).Contents (Elt F) → (⟨S1100000, .i1⟩ : BufTy).Contents (Elt F)),
    nullary main_c_3 (constantI S_ 32 100000#32),
    unary main_c_3 main_v17 (broadcastInDim S1100000 ![] bcast_S_S1100000 : (⟨S_, .i32⟩ : BufTy).Contents (Elt F) → (⟨S1100000, .i32⟩ : BufTy).Contents (Elt F)),
    binary main_v3 main_v17 main_v18 (addi : (⟨S1100000, .i32⟩ : BufTy).Contents (Elt F) → (⟨S1100000, .i32⟩ : BufTy).Contents (Elt F) → (⟨S1100000, .i32⟩ : BufTy).Contents (Elt F)),
    ternary main_v16 main_v18 main_v3 main_v19 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v19 main_v20 (broadcastInDim S1100000x1 ![0] bcast_S1100000_S1100000x1_0 : (⟨S1100000, .i32⟩ : BufTy).Contents (Elt F) → (⟨S1100000x1, .i32⟩ : BufTy).Contents (Elt F)),
    binary main_v14 main_v20 main_v21 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F)),
    nullary main_c_4 (constantI S_ 32 0#32),
    unary main_c_4 main_v22 (broadcastInDim S1100000 ![] bcast_S_S1100000 : (⟨S_, .i32⟩ : BufTy).Contents (Elt F) → (⟨S1100000, .i32⟩ : BufTy).Contents (Elt F)),
    binary main_v6 main_v22 main_v23 (cmpi .slt : (⟨S1100000, .i32⟩ : BufTy).Contents (Elt F) → (⟨S1100000, .i32⟩ : BufTy).Contents (Elt F) → (⟨S1100000, .i1⟩ : BufTy).Contents (Elt F)),
    nullary main_c_5 (constantI S_ 32 100000#32),
    unary main_c_5 main_v24 (broadcastInDim S1100000 ![] bcast_S_S1100000 : (⟨S_, .i32⟩ : BufTy).Contents (Elt F) → (⟨S1100000, .i32⟩ : BufTy).Contents (Elt F)),
    binary main_v6 main_v24 main_v25 (addi : (⟨S1100000, .i32⟩ : BufTy).Contents (Elt F) → (⟨S1100000, .i32⟩ : BufTy).Contents (Elt F) → (⟨S1100000, .i32⟩ : BufTy).Contents (Elt F)),
    ternary main_v23 main_v25 main_v6 main_v26 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v26 main_v27 (broadcastInDim S1100000x1 ![0] bcast_S1100000_S1100000x1_0 : (⟨S1100000, .i32⟩ : BufTy).Contents (Elt F) → (⟨S1100000x1, .i32⟩ : BufTy).Contents (Elt F)),
    binary main_v14 main_v27 main_v28 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F)),
    binary main_v21 main_v28 main_v29 (mulf : (⟨S1100000, .f32⟩ : BufTy).Contents (Elt F) → (⟨S1100000, .f32⟩ : BufTy).Contents (Elt F) → (⟨S1100000, .f32⟩ : BufTy).Contents (Elt F)),
    nullary main_v30 (iotaInDim S100000 32 0),
    unary main_arg3 main_v31 ((extractStridedSlice S1x64x64 ![0, 0, 0] · slices_S5x64x64_S1x64x64_0_0_0) : (⟨S5x64x64, .f32⟩ : BufTy).Contents (Elt F) → (⟨S1x64x64, .f32⟩ : BufTy).Contents (Elt F)),
    reshape main_v31 main_v32 rfl shapeCasts_S1x64x64_S64x64,
    unary main_arg4 main_v33 ((extractStridedSlice S1x64 ![0, 0] · slices_S5x64_S1x64_0_0) : (⟨S5x64, .f32⟩ : BufTy).Contents (Elt F) → (⟨S1x64, .f32⟩ : BufTy).Contents (Elt F)),
    reshape main_v33 main_v34 rfl shapeCasts_S1x64_S64 ]
end FirstStretch

/-- The reference's buffers after the first of the three pieces. -/
def U0a : Valuation Cert.ReferenceIdeal.τ Cert.ReferenceIdeal.sig (Elt Ideal) := StableHlo.after (seg0a (F := Ideal)) (Cert.ReferenceIdeal.Segs.U0 m' c)
/-- … after the second. -/
def U0b : Valuation Cert.ReferenceIdeal.τ Cert.ReferenceIdeal.sig (Elt Ideal) := StableHlo.after (seg0b (F := Ideal)) (U0a m' c)

/-- The three pieces are the first stretch. -/
theorem U1_pieces : Cert.ReferenceIdeal.Segs.U1 m' c = StableHlo.after (seg0c (F := Ideal)) (U0b m' c) := by
  show StableHlo.after ((seg0a (F := Ideal)) ++ ((seg0b (F := Ideal)) ++ (seg0c (F := Ideal)))) (Cert.ReferenceIdeal.Segs.U0 m' c) = _
  simp only [Cert.ReferenceIdeal.Segs.after_append]
  rfl

/-- A node's degree: zero plus one for every entry of the target list that names it. -/
def degree (col : IVec Cert.ReferenceIdeal.S1100000 32) : FVec Ideal Cert.ReferenceIdeal.S100000 .f32 :=
  Host.scatterAdd (F := Ideal) (φ := .f32) Cert.ReferenceIdeal.scatter_S100000_S1100000x1_S1100000_n_0_0_1
    (broadcastInDim Cert.ReferenceIdeal.S100000 ![] Cert.ReferenceIdeal.Gen.bcast_S_S100000 (constant (F := Ideal) Cert.ReferenceIdeal.S_ .f32 0x00000000#32))
    (broadcastInDim Cert.ReferenceIdeal.S1100000x1 ![0] Cert.ReferenceIdeal.Gen.bcast_S1100000_S1100000x1_0 col)
    (broadcastInDim Cert.ReferenceIdeal.S1100000 ![] Cert.ReferenceIdeal.Gen.bcast_S_S1100000 (constant (F := Ideal) Cert.ReferenceIdeal.S_ .f32 0x3F800000#32))

/-- The inverse square root of the degree where the degree is positive, zero elsewhere. -/
def invSqrtDegree (col : IVec Cert.ReferenceIdeal.S1100000 32) : FVec Ideal Cert.ReferenceIdeal.S100000 .f32 :=
  select (cmpf (F := Ideal) (φ := .f32) .ogt (degree col) (broadcastInDim Cert.ReferenceIdeal.S100000 ![] Cert.ReferenceIdeal.Gen.bcast_S_S100000 (constant (F := Ideal) Cert.ReferenceIdeal.S_ .f32 0x00000000#32)))
    (Host.rsqrt (F := Ideal) (φ := .f32) (degree col))
    (broadcastInDim Cert.ReferenceIdeal.S100000 ![] Cert.ReferenceIdeal.Gen.bcast_S_S100000 (id (constant (F := Ideal) Cert.ReferenceIdeal.S_ .f32 0x00000000#32)))

/-- Which degrees are positive, as the first piece leaves it: the comparison of the degree of the target list with zero. -/
theorem piece_a_v12 : U0a m' c (Proc.devRef .tc Cert.ReferenceIdeal.main_v12) = cmpf (F := Ideal) (φ := .f32) .ogt (degree (U0a m' c (Proc.devRef .tc Cert.ReferenceIdeal.main_v6))) (broadcastInDim Cert.ReferenceIdeal.S100000 ![] Cert.ReferenceIdeal.Gen.bcast_S_S100000 (constant (F := Ideal) Cert.ReferenceIdeal.S_ .f32 0x00000000#32)) := by
  show StableHlo.after (seg0a (F := Ideal)) (Cert.ReferenceIdeal.Segs.U0 m' c) (Proc.devRef .tc Cert.ReferenceIdeal.main_v12)
     = cmpf (F := Ideal) (φ := .f32) .ogt (degree (StableHlo.after (seg0a (F := Ideal)) (Cert.ReferenceIdeal.Segs.U0 m' c) (Proc.devRef .tc Cert.ReferenceIdeal.main_v6))) (broadcastInDim Cert.ReferenceIdeal.S100000 ![] Cert.ReferenceIdeal.Gen.bcast_S_S100000 (constant (F := Ideal) Cert.ReferenceIdeal.S_ .f32 0x00000000#32))
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Cert.EdgeCat.withLoops_def]
  rfl

/-- The degree's inverse square root, as the first piece leaves it. -/
theorem piece_a_v13 : U0a m' c (Proc.devRef .tc Cert.ReferenceIdeal.main_v13) = Host.rsqrt (F := Ideal) (φ := .f32) (degree (U0a m' c (Proc.devRef .tc Cert.ReferenceIdeal.main_v6))) := by
  show StableHlo.after (seg0a (F := Ideal)) (Cert.ReferenceIdeal.Segs.U0 m' c) (Proc.devRef .tc Cert.ReferenceIdeal.main_v13)
     = Host.rsqrt (F := Ideal) (φ := .f32) (degree (StableHlo.after (seg0a (F := Ideal)) (Cert.ReferenceIdeal.Segs.U0 m' c) (Proc.devRef .tc Cert.ReferenceIdeal.main_v6)))
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Cert.EdgeCat.withLoops_def]
  rfl

/-- The zero the call receives. -/
theorem piece_a_cst : U0a m' c (Proc.devRef .tc Cert.ReferenceIdeal.main_cst_2) = constant (F := Ideal) Cert.ReferenceIdeal.S_ .f32 0x00000000#32 := by
  show StableHlo.after (seg0a (F := Ideal)) (Cert.ReferenceIdeal.Segs.U0 m' c) (Proc.devRef .tc Cert.ReferenceIdeal.main_cst_2) = _
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Cert.EdgeCat.withLoops_def]

/-- The called function, over any three operands: it selects, entry by entry, between the two arrays and a broadcast of
    the scalar; the conversions between a value and its buffer are identities. -/
theorem where_tree (p : (⟨Cert.ReferenceIdeal.S100000, .i1⟩ : BufTy).Contents (Elt Ideal)) (a : (⟨Cert.ReferenceIdeal.S100000, .f32⟩ : BufTy).Contents (Elt Ideal))
    (z : (⟨Cert.ReferenceIdeal.S_, .f32⟩ : BufTy).Contents (Elt Ideal)) :
    (TRef.of (sig := Cert.ReferenceIdeal.sig) (T := ⟨Cert.ReferenceIdeal.S100000, .f32⟩) Cert.ReferenceIdeal.main_v14).toBuf
      (select ((TRef.of (sig := Cert.ReferenceIdeal.sig) (T := ⟨Cert.ReferenceIdeal.S100000, .i1⟩) Cert.ReferenceIdeal.main_v12).ofBuf p) ((TRef.of (sig := Cert.ReferenceIdeal.sig) (T := ⟨Cert.ReferenceIdeal.S100000, .f32⟩) Cert.ReferenceIdeal.main_v13).ofBuf a)
        ((TRef.of (sig := Cert.ReferenceIdeal.sig) (T := ⟨Cert.ReferenceIdeal.S100000, .f32⟩) Cert.ReferenceIdeal.main_call0_v1).ofBuf ((TRef.of (sig := Cert.ReferenceIdeal.sig) (T := ⟨Cert.ReferenceIdeal.S100000, .f32⟩) Cert.ReferenceIdeal.main_call0_v1).toBuf
          (broadcastInDim Cert.ReferenceIdeal.S100000 ![] Cert.ReferenceIdeal.Gen.bcast_S_S100000
            ((TRef.of (sig := Cert.ReferenceIdeal.sig) (T := ⟨Cert.ReferenceIdeal.S_, .f32⟩) Cert.ReferenceIdeal.main_call0_v0).ofBuf ((TRef.of (sig := Cert.ReferenceIdeal.sig) (T := ⟨Cert.ReferenceIdeal.S_, .f32⟩) Cert.ReferenceIdeal.main_call0_v0).toBuf (id ((TRef.of (sig := Cert.ReferenceIdeal.sig) (T := ⟨Cert.ReferenceIdeal.S_, .f32⟩) Cert.ReferenceIdeal.main_cst_2).ofBuf z))))))))
    = select p a (broadcastInDim Cert.ReferenceIdeal.S100000 ![] Cert.ReferenceIdeal.Gen.bcast_S_S100000 (id z)) := rfl

/-- The call selects, entry by entry, between the two arrays it is given and a broadcast of the scalar it is given. -/
theorem piece_b_select : U0b m' c (Proc.devRef .tc Cert.ReferenceIdeal.main_v14)
    = select (U0a m' c (Proc.devRef .tc Cert.ReferenceIdeal.main_v12)) (U0a m' c (Proc.devRef .tc Cert.ReferenceIdeal.main_v13))
        (broadcastInDim Cert.ReferenceIdeal.S100000 ![] Cert.ReferenceIdeal.Gen.bcast_S_S100000 (id (U0a m' c (Proc.devRef .tc Cert.ReferenceIdeal.main_cst_2)))) := by
  show StableHlo.after (seg0b (F := Ideal)) (U0a m' c) (Proc.devRef .tc Cert.ReferenceIdeal.main_v14) = _
  after_results_simp
  exact where_tree _ _ _

/-- So it holds the inverse square root where the degree is positive and zero elsewhere. -/
theorem piece_b_v14 : U0b m' c (Proc.devRef .tc Cert.ReferenceIdeal.main_v14) = invSqrtDegree (U0a m' c (Proc.devRef .tc Cert.ReferenceIdeal.main_v6)) := by
  rw [piece_b_select, piece_a_v12, piece_a_v13, piece_a_cst]
  rfl

/-- It is real: a degree is a finite sum of ones, and its inverse square root is taken only where it is positive. -/
theorem piece_b_real : AllReal (U0b m' c (Proc.devRef .tc Cert.ReferenceIdeal.main_v14)) := by
  rw [piece_b_v14]
  unfold invSqrtDegree degree
  all_real

/-- The per-edge normalisation is real whatever the edge lists hold: it is a product of two entries of that array. -/
theorem init_real_v29 : AllReal (Cert.ReferenceIdeal.Segs.U1 m' c (Proc.devRef .tc Cert.ReferenceIdeal.main_v29)) := by
  have r14 := piece_b_real m' c
  rw [U1_pieces]
  show AllReal (StableHlo.after (seg0c (F := Ideal)) (U0b m' c) (Proc.devRef .tc Cert.ReferenceIdeal.main_v29))
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Cert.EdgeCat.withLoops_def]
  all_real

/-- A slice of a real array is real. -/
theorem init_real_v32 (r3 : AllReal (Cert.ReferenceIdeal.Segs.U0 m' c (Proc.devRef .tc Cert.ReferenceIdeal.main_arg3))) : AllReal (Cert.ReferenceIdeal.Segs.U1 m' c (Proc.devRef .tc Cert.ReferenceIdeal.main_v32)) := by
  show AllReal (StableHlo.after Cert.ReferenceIdeal.Segs.seg0 (Cert.ReferenceIdeal.Segs.U0 m' c) (Proc.devRef .tc Cert.ReferenceIdeal.main_v32))
  after_results_simp
  all_real

/-- A slice of a real array is real. -/
theorem init_real_v34 (r4 : AllReal (Cert.ReferenceIdeal.Segs.U0 m' c (Proc.devRef .tc Cert.ReferenceIdeal.main_arg4))) : AllReal (Cert.ReferenceIdeal.Segs.U1 m' c (Proc.devRef .tc Cert.ReferenceIdeal.main_v34)) := by
  show AllReal (StableHlo.after Cert.ReferenceIdeal.Segs.seg0 (Cert.ReferenceIdeal.Segs.U0 m' c) (Proc.devRef .tc Cert.ReferenceIdeal.main_v34))
  after_results_simp
  all_real

end Cert.Sim

end
-- ==== Proof.SimHostA.lean ====
/-
  The stretches of host operations that the two programs share. Between two regions the idealized kernel runs the
  same host operations as the reference does between the corresponding points (index normalisation, gather of the
  transformed rows, scaling by the per-edge coefficient, scatter-add into the target rows; slices of the parameter
  arrays): from buffers that agree, the buffers written agree. Where the kernel recasts a 64-entry vector as a 1×64
  row for its next region, the row's entries are the vector's. Along the way every entry of the reference's float
  buffers is a real number.
-/
import proofs.«168298_j84988812853302_1_alg».proof.Proof.Gen.KernelIdeal.Frame
import proofs.«168298_j84988812853302_1_alg».proof.Proof.RefSegs
import proofs.«168298_j84988812853302_1_alg».proof.Proof.RowOps
import proofs.«168298_j84988812853302_1_alg».proof.Proof.RowLayout
import proofs.«168298_j84988812853302_1_alg».proof.Proof.LibFinite

import Idealize.ShloMosaic.Lib.StableHlo.Run
import Idealize.ShloMosaic.PureOps.Ideal

set_option maxRecDepth 16384
set_option maxHeartbeats 16000000

noncomputable section

namespace Cert.Sim

open Idealize.ShloMosaic Idealize.ShloMosaic.TcCoe Idealize.SL.Sem Idealize.ShloMosaic.StableHlo
open Idealize.ShloMosaic.ValueIdx Cert.RowOps Cert.LibFinite

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The two programs run the same host operations on buffers that agree: the result buffers agree. Here: `v48` of the kernel against `v48` of the reference. -/
theorem gcn0_v48
    (h_v3 : Cert.KernelIdeal.Gen.W4 m ρ c (Proc.devRef .tc Cert.KernelIdeal.main_v3) = Cert.ReferenceIdeal.Segs.U2 m' c (Proc.devRef .tc Cert.ReferenceIdeal.main_v3))
    (h_v6 : Cert.KernelIdeal.Gen.W4 m ρ c (Proc.devRef .tc Cert.KernelIdeal.main_v6) = Cert.ReferenceIdeal.Segs.U2 m' c (Proc.devRef .tc Cert.ReferenceIdeal.main_v6))
    (h_v29 : Cert.KernelIdeal.Gen.W4 m ρ c (Proc.devRef .tc Cert.KernelIdeal.main_v29) = Cert.ReferenceIdeal.Segs.U2 m' c (Proc.devRef .tc Cert.ReferenceIdeal.main_v29))
    (h_v35 : Cert.KernelIdeal.Gen.W4 m ρ c (Proc.devRef .tc Cert.KernelIdeal.main_v35) = Cert.ReferenceIdeal.Segs.U2 m' c (Proc.devRef .tc Cert.ReferenceIdeal.main_v35)) :
    Cert.KernelIdeal.Gen.W5 m ρ c (Proc.devRef .tc Cert.KernelIdeal.main_v48) = Cert.ReferenceIdeal.Segs.U3 m' c (Proc.devRef .tc Cert.ReferenceIdeal.main_v48) := by
  show StableHlo.after Cert.KernelIdeal.Gen.hostOps1 (Cert.KernelIdeal.Gen.W4 m ρ c) (Proc.devRef .tc Cert.KernelIdeal.main_v48)
     = StableHlo.after Cert.ReferenceIdeal.Segs.seg2 (Cert.ReferenceIdeal.Segs.U2 m' c) (Proc.devRef .tc Cert.ReferenceIdeal.main_v48)
  after_results_simp
  simp only [h_v3, h_v6, h_v29, h_v35]
  try rfl

/-- Every entry of the reference's `v48` after this stretch is a real number, the entries it is computed from being real. -/
theorem gcn0_real_v48
    (r_v35 : AllReal (Cert.ReferenceIdeal.Segs.U2 m' c (Proc.devRef .tc Cert.ReferenceIdeal.main_v35)))
    (r_v29 : AllReal (Cert.ReferenceIdeal.Segs.U2 m' c (Proc.devRef .tc Cert.ReferenceIdeal.main_v29))) :
    AllReal (Cert.ReferenceIdeal.Segs.U3 m' c (Proc.devRef .tc Cert.ReferenceIdeal.main_v48)) := by
  show AllReal (StableHlo.after Cert.ReferenceIdeal.Segs.seg2 (Cert.ReferenceIdeal.Segs.U2 m' c) (Proc.devRef .tc Cert.ReferenceIdeal.main_v48))
  after_results_simp
  all_real

/-- The kernel recasts the 64-entry vector `v34` as the 1×64 row `v49`: entry `(0, j)` is the vector's entry `j`. -/
theorem gcn0_row_v49 (j : Fin 64) :
    (Cert.KernelIdeal.Gen.W5 m ρ c (Proc.devRef .tc Cert.KernelIdeal.main_v49)) (ix2 0 j) = (Cert.KernelIdeal.Gen.W4 m ρ c (Proc.devRef .tc Cert.KernelIdeal.main_v34)) (ix1 j) := by
  show (StableHlo.after Cert.KernelIdeal.Gen.hostOps1 (Cert.KernelIdeal.Gen.W4 m ρ c) (Proc.devRef .tc Cert.KernelIdeal.main_v49)) (ix2 0 j) = _
  after_results_simp
  exact Cert.RowLayout.shapeCast_row _ _ j

/-- Both programs slice the same layer's weights and bias out of the same argument arrays. Here: `v52` of the kernel against `v54` of the reference. -/
theorem slice1_v52
    (h_arg3 : Cert.KernelIdeal.Gen.W6 m ρ c (Proc.devRef .tc Cert.KernelIdeal.main_arg3) = Cert.ReferenceIdeal.Segs.U4 m' c (Proc.devRef .tc Cert.ReferenceIdeal.main_arg3))
    (h_arg4 : Cert.KernelIdeal.Gen.W6 m ρ c (Proc.devRef .tc Cert.KernelIdeal.main_arg4) = Cert.ReferenceIdeal.Segs.U4 m' c (Proc.devRef .tc Cert.ReferenceIdeal.main_arg4)) :
    Cert.KernelIdeal.Gen.W7 m ρ c (Proc.devRef .tc Cert.KernelIdeal.main_v52) = Cert.ReferenceIdeal.Segs.U5 m' c (Proc.devRef .tc Cert.ReferenceIdeal.main_v54) := by
  show StableHlo.after Cert.KernelIdeal.Gen.hostOps2 (Cert.KernelIdeal.Gen.W6 m ρ c) (Proc.devRef .tc Cert.KernelIdeal.main_v52)
     = StableHlo.after Cert.ReferenceIdeal.Segs.seg4 (Cert.ReferenceIdeal.Segs.U4 m' c) (Proc.devRef .tc Cert.ReferenceIdeal.main_v54)
  after_results_simp
  simp only [h_arg3, h_arg4]
  try rfl

/-- Both programs slice the same layer's weights and bias out of the same argument arrays. Here: `v54` of the kernel against `v56` of the reference. -/
theorem slice1_v54
    (h_arg3 : Cert.KernelIdeal.Gen.W6 m ρ c (Proc.devRef .tc Cert.KernelIdeal.main_arg3) = Cert.ReferenceIdeal.Segs.U4 m' c (Proc.devRef .tc Cert.ReferenceIdeal.main_arg3))
    (h_arg4 : Cert.KernelIdeal.Gen.W6 m ρ c (Proc.devRef .tc Cert.KernelIdeal.main_arg4) = Cert.ReferenceIdeal.Segs.U4 m' c (Proc.devRef .tc Cert.ReferenceIdeal.main_arg4)) :
    Cert.KernelIdeal.Gen.W7 m ρ c (Proc.devRef .tc Cert.KernelIdeal.main_v54) = Cert.ReferenceIdeal.Segs.U5 m' c (Proc.devRef .tc Cert.ReferenceIdeal.main_v56) := by
  show StableHlo.after Cert.KernelIdeal.Gen.hostOps2 (Cert.KernelIdeal.Gen.W6 m ρ c) (Proc.devRef .tc Cert.KernelIdeal.main_v54)
     = StableHlo.after Cert.ReferenceIdeal.Segs.seg4 (Cert.ReferenceIdeal.Segs.U4 m' c) (Proc.devRef .tc Cert.ReferenceIdeal.main_v56)
  after_results_simp
  simp only [h_arg3, h_arg4]
  try rfl

/-- Every entry of the reference's `v54` after this stretch is a real number, the entries it is computed from being real. -/
theorem slice1_real_v54
    (r_arg3 : AllReal (Cert.ReferenceIdeal.Segs.U4 m' c (Proc.devRef .tc Cert.ReferenceIdeal.main_arg3)))
    (r_arg4 : AllReal (Cert.ReferenceIdeal.Segs.U4 m' c (Proc.devRef .tc Cert.ReferenceIdeal.main_arg4))) :
    AllReal (Cert.ReferenceIdeal.Segs.U5 m' c (Proc.devRef .tc Cert.ReferenceIdeal.main_v54)) := by
  show AllReal (StableHlo.after Cert.ReferenceIdeal.Segs.seg4 (Cert.ReferenceIdeal.Segs.U4 m' c) (Proc.devRef .tc Cert.ReferenceIdeal.main_v54))
  after_results_simp
  all_real

/-- Every entry of the reference's `v56` after this stretch is a real number, the entries it is computed from being real. -/
theorem slice1_real_v56
    (r_arg3 : AllReal (Cert.ReferenceIdeal.Segs.U4 m' c (Proc.devRef .tc Cert.ReferenceIdeal.main_arg3)))
    (r_arg4 : AllReal (Cert.ReferenceIdeal.Segs.U4 m' c (Proc.devRef .tc Cert.ReferenceIdeal.main_arg4))) :
    AllReal (Cert.ReferenceIdeal.Segs.U5 m' c (Proc.devRef .tc Cert.ReferenceIdeal.main_v56)) := by
  show AllReal (StableHlo.after Cert.ReferenceIdeal.Segs.seg4 (Cert.ReferenceIdeal.Segs.U4 m' c) (Proc.devRef .tc Cert.ReferenceIdeal.main_v56))
  after_results_simp
  all_real

/-- The two programs run the same host operations on buffers that agree: the result buffers agree. Here: `v68` of the kernel against `v70` of the reference. -/
theorem gcn1_v68
    (h_v3 : Cert.KernelIdeal.Gen.W8 m ρ c (Proc.devRef .tc Cert.KernelIdeal.main_v3) = Cert.ReferenceIdeal.Segs.U6 m' c (Proc.devRef .tc Cert.ReferenceIdeal.main_v3))
    (h_v6 : Cert.KernelIdeal.Gen.W8 m ρ c (Proc.devRef .tc Cert.KernelIdeal.main_v6) = Cert.ReferenceIdeal.Segs.U6 m' c (Proc.devRef .tc Cert.ReferenceIdeal.main_v6))
    (h_v29 : Cert.KernelIdeal.Gen.W8 m ρ c (Proc.devRef .tc Cert.KernelIdeal.main_v29) = Cert.ReferenceIdeal.Segs.U6 m' c (Proc.devRef .tc Cert.ReferenceIdeal.main_v29))
    (h_v55 : Cert.KernelIdeal.Gen.W8 m ρ c (Proc.devRef .tc Cert.KernelIdeal.main_v55) = Cert.ReferenceIdeal.Segs.U6 m' c (Proc.devRef .tc Cert.ReferenceIdeal.main_v57)) :
    Cert.KernelIdeal.Gen.W9 m ρ c (Proc.devRef .tc Cert.KernelIdeal.main_v68) = Cert.ReferenceIdeal.Segs.U7 m' c (Proc.devRef .tc Cert.ReferenceIdeal.main_v70) := by
  show StableHlo.after Cert.KernelIdeal.Gen.hostOps3 (Cert.KernelIdeal.Gen.W8 m ρ c) (Proc.devRef .tc Cert.KernelIdeal.main_v68)
     = StableHlo.after Cert.ReferenceIdeal.Segs.seg6 (Cert.ReferenceIdeal.Segs.U6 m' c) (Proc.devRef .tc Cert.ReferenceIdeal.main_v70)
  after_results_simp
  simp only [h_v3, h_v6, h_v29, h_v55]
  try rfl

/-- Every entry of the reference's `v70` after this stretch is a real number, the entries it is computed from being real. -/
theorem gcn1_real_v70
    (r_v57 : AllReal (Cert.ReferenceIdeal.Segs.U6 m' c (Proc.devRef .tc Cert.ReferenceIdeal.main_v57)))
    (r_v29 : AllReal (Cert.ReferenceIdeal.Segs.U6 m' c (Proc.devRef .tc Cert.ReferenceIdeal.main_v29))) :
    AllReal (Cert.ReferenceIdeal.Segs.U7 m' c (Proc.devRef .tc Cert.ReferenceIdeal.main_v70)) := by
  show AllReal (StableHlo.after Cert.ReferenceIdeal.Segs.seg6 (Cert.ReferenceIdeal.Segs.U6 m' c) (Proc.devRef .tc Cert.ReferenceIdeal.main_v70))
  after_results_simp
  all_real

/-- The kernel recasts the 64-entry vector `v54` as the 1×64 row `v69`: entry `(0, j)` is the vector's entry `j`. -/
theorem gcn1_row_v69 (j : Fin 64) :
    (Cert.KernelIdeal.Gen.W9 m ρ c (Proc.devRef .tc Cert.KernelIdeal.main_v69)) (ix2 0 j) = (Cert.KernelIdeal.Gen.W8 m ρ c (Proc.devRef .tc Cert.KernelIdeal.main_v54)) (ix1 j) := by
  show (StableHlo.after Cert.KernelIdeal.Gen.hostOps3 (Cert.KernelIdeal.Gen.W8 m ρ c) (Proc.devRef .tc Cert.KernelIdeal.main_v69)) (ix2 0 j) = _
  after_results_simp
  exact Cert.RowLayout.shapeCast_row _ _ j

end Cert.Sim

end
-- ==== Proof.SimHostP.lean ====
/-
  The stretches of host operations that the two programs share. Between two regions the idealized kernel runs the
  same host operations as the reference does between the corresponding points (index normalisation, gather of the
  transformed rows, scaling by the per-edge coefficient, scatter-add into the target rows; slices of the parameter
  arrays): from buffers that agree, the buffers written agree. Where the kernel recasts a 64-entry vector as a 1×64
  row for its next region, the row's entries are the vector's. Along the way every entry of the reference's float
  buffers is a real number.
-/
import proofs.«168298_j84988812853302_1_alg».proof.Proof.Gen.KernelIdeal.Frame
import proofs.«168298_j84988812853302_1_alg».proof.Proof.RefSegs
import proofs.«168298_j84988812853302_1_alg».proof.Proof.RowOps
import proofs.«168298_j84988812853302_1_alg».proof.Proof.RowLayout
import proofs.«168298_j84988812853302_1_alg».proof.Proof.LibFinite

import Idealize.ShloMosaic.Lib.StableHlo.Run
import Idealize.ShloMosaic.PureOps.Ideal

set_option maxRecDepth 16384
set_option maxHeartbeats 16000000

noncomputable section

namespace Cert.Sim

open Idealize.ShloMosaic Idealize.ShloMosaic.TcCoe Idealize.SL.Sem Idealize.ShloMosaic.StableHlo
open Idealize.ShloMosaic.ValueIdx Cert.RowOps Cert.LibFinite

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- Before the first pooling both programs slice its parameters and sum the node rows into their clusters by the same operations. Here: `v72` of the kernel against `v76` of the reference. -/
theorem pool1_v72
    (h_arg5 : Cert.KernelIdeal.Gen.W10 m ρ c (Proc.devRef .tc Cert.KernelIdeal.main_arg5) = Cert.ReferenceIdeal.Segs.U8 m' c (Proc.devRef .tc Cert.ReferenceIdeal.main_arg5))
    (h_arg6 : Cert.KernelIdeal.Gen.W10 m ρ c (Proc.devRef .tc Cert.KernelIdeal.main_arg6) = Cert.ReferenceIdeal.Segs.U8 m' c (Proc.devRef .tc Cert.ReferenceIdeal.main_arg6))
    (h_arg7 : Cert.KernelIdeal.Gen.W10 m ρ c (Proc.devRef .tc Cert.KernelIdeal.main_arg7) = Cert.ReferenceIdeal.Segs.U8 m' c (Proc.devRef .tc Cert.ReferenceIdeal.main_arg7))
    (h_arg8 : Cert.KernelIdeal.Gen.W10 m ρ c (Proc.devRef .tc Cert.KernelIdeal.main_arg8) = Cert.ReferenceIdeal.Segs.U8 m' c (Proc.devRef .tc Cert.ReferenceIdeal.main_arg8))
    (h_arg2 : Cert.KernelIdeal.Gen.W10 m ρ c (Proc.devRef .tc Cert.KernelIdeal.main_arg2) = Cert.ReferenceIdeal.Segs.U8 m' c (Proc.devRef .tc Cert.ReferenceIdeal.main_arg2))
    (h_v30 : Cert.KernelIdeal.Gen.W10 m ρ c (Proc.devRef .tc Cert.KernelIdeal.main_v30) = Cert.ReferenceIdeal.Segs.U8 m' c (Proc.devRef .tc Cert.ReferenceIdeal.main_v30))
    (h_v70 : Cert.KernelIdeal.Gen.W10 m ρ c (Proc.devRef .tc Cert.KernelIdeal.main_v70) = Cert.ReferenceIdeal.Segs.U8 m' c (Proc.devRef .tc Cert.ReferenceIdeal.main_v74)) :
    Cert.KernelIdeal.Gen.W11 m ρ c (Proc.devRef .tc Cert.KernelIdeal.main_v72) = Cert.ReferenceIdeal.Segs.U9 m' c (Proc.devRef .tc Cert.ReferenceIdeal.main_v76) := by
  show StableHlo.after Cert.KernelIdeal.Gen.hostOps4 (Cert.KernelIdeal.Gen.W10 m ρ c) (Proc.devRef .tc Cert.KernelIdeal.main_v72)
     = StableHlo.after Cert.ReferenceIdeal.Segs.seg8 (Cert.ReferenceIdeal.Segs.U8 m' c) (Proc.devRef .tc Cert.ReferenceIdeal.main_v76)
  after_results_simp
  simp only [h_arg5, h_arg6, h_arg7, h_arg8, h_arg2, h_v30, h_v70]
  try rfl

/-- Before the first pooling both programs slice its parameters and sum the node rows into their clusters by the same operations. Here: `v74` of the kernel against `v78` of the reference. -/
theorem pool1_v74
    (h_arg5 : Cert.KernelIdeal.Gen.W10 m ρ c (Proc.devRef .tc Cert.KernelIdeal.main_arg5) = Cert.ReferenceIdeal.Segs.U8 m' c (Proc.devRef .tc Cert.ReferenceIdeal.main_arg5))
    (h_arg6 : Cert.KernelIdeal.Gen.W10 m ρ c (Proc.devRef .tc Cert.KernelIdeal.main_arg6) = Cert.ReferenceIdeal.Segs.U8 m' c (Proc.devRef .tc Cert.ReferenceIdeal.main_arg6))
    (h_arg7 : Cert.KernelIdeal.Gen.W10 m ρ c (Proc.devRef .tc Cert.KernelIdeal.main_arg7) = Cert.ReferenceIdeal.Segs.U8 m' c (Proc.devRef .tc Cert.ReferenceIdeal.main_arg7))
    (h_arg8 : Cert.KernelIdeal.Gen.W10 m ρ c (Proc.devRef .tc Cert.KernelIdeal.main_arg8) = Cert.ReferenceIdeal.Segs.U8 m' c (Proc.devRef .tc Cert.ReferenceIdeal.main_arg8))
    (h_arg2 : Cert.KernelIdeal.Gen.W10 m ρ c (Proc.devRef .tc Cert.KernelIdeal.main_arg2) = Cert.ReferenceIdeal.Segs.U8 m' c (Proc.devRef .tc Cert.ReferenceIdeal.main_arg2))
    (h_v30 : Cert.KernelIdeal.Gen.W10 m ρ c (Proc.devRef .tc Cert.KernelIdeal.main_v30) = Cert.ReferenceIdeal.Segs.U8 m' c (Proc.devRef .tc Cert.ReferenceIdeal.main_v30))
    (h_v70 : Cert.KernelIdeal.Gen.W10 m ρ c (Proc.devRef .tc Cert.KernelIdeal.main_v70) = Cert.ReferenceIdeal.Segs.U8 m' c (Proc.devRef .tc Cert.ReferenceIdeal.main_v74)) :
    Cert.KernelIdeal.Gen.W11 m ρ c (Proc.devRef .tc Cert.KernelIdeal.main_v74) = Cert.ReferenceIdeal.Segs.U9 m' c (Proc.devRef .tc Cert.ReferenceIdeal.main_v78) := by
  show StableHlo.after Cert.KernelIdeal.Gen.hostOps4 (Cert.KernelIdeal.Gen.W10 m ρ c) (Proc.devRef .tc Cert.KernelIdeal.main_v74)
     = StableHlo.after Cert.ReferenceIdeal.Segs.seg8 (Cert.ReferenceIdeal.Segs.U8 m' c) (Proc.devRef .tc Cert.ReferenceIdeal.main_v78)
  after_results_simp
  simp only [h_arg5, h_arg6, h_arg7, h_arg8, h_arg2, h_v30, h_v70]
  try rfl

/-- Before the first pooling both programs slice its parameters and sum the node rows into their clusters by the same operations. Here: `v76` of the kernel against `v80` of the reference. -/
theorem pool1_v76
    (h_arg5 : Cert.KernelIdeal.Gen.W10 m ρ c (Proc.devRef .tc Cert.KernelIdeal.main_arg5) = Cert.ReferenceIdeal.Segs.U8 m' c (Proc.devRef .tc Cert.ReferenceIdeal.main_arg5))
    (h_arg6 : Cert.KernelIdeal.Gen.W10 m ρ c (Proc.devRef .tc Cert.KernelIdeal.main_arg6) = Cert.ReferenceIdeal.Segs.U8 m' c (Proc.devRef .tc Cert.ReferenceIdeal.main_arg6))
    (h_arg7 : Cert.KernelIdeal.Gen.W10 m ρ c (Proc.devRef .tc Cert.KernelIdeal.main_arg7) = Cert.ReferenceIdeal.Segs.U8 m' c (Proc.devRef .tc Cert.ReferenceIdeal.main_arg7))
    (h_arg8 : Cert.KernelIdeal.Gen.W10 m ρ c (Proc.devRef .tc Cert.KernelIdeal.main_arg8) = Cert.ReferenceIdeal.Segs.U8 m' c (Proc.devRef .tc Cert.ReferenceIdeal.main_arg8))
    (h_arg2 : Cert.KernelIdeal.Gen.W10 m ρ c (Proc.devRef .tc Cert.KernelIdeal.main_arg2) = Cert.ReferenceIdeal.Segs.U8 m' c (Proc.devRef .tc Cert.ReferenceIdeal.main_arg2))
    (h_v30 : Cert.KernelIdeal.Gen.W10 m ρ c (Proc.devRef .tc Cert.KernelIdeal.main_v30) = Cert.ReferenceIdeal.Segs.U8 m' c (Proc.devRef .tc Cert.ReferenceIdeal.main_v30))
    (h_v70 : Cert.KernelIdeal.Gen.W10 m ρ c (Proc.devRef .tc Cert.KernelIdeal.main_v70) = Cert.ReferenceIdeal.Segs.U8 m' c (Proc.devRef .tc Cert.ReferenceIdeal.main_v74)) :
    Cert.KernelIdeal.Gen.W11 m ρ c (Proc.devRef .tc Cert.KernelIdeal.main_v76) = Cert.ReferenceIdeal.Segs.U9 m' c (Proc.devRef .tc Cert.ReferenceIdeal.main_v80) := by
  show StableHlo.after Cert.KernelIdeal.Gen.hostOps4 (Cert.KernelIdeal.Gen.W10 m ρ c) (Proc.devRef .tc Cert.KernelIdeal.main_v76)
     = StableHlo.after Cert.ReferenceIdeal.Segs.seg8 (Cert.ReferenceIdeal.Segs.U8 m' c) (Proc.devRef .tc Cert.ReferenceIdeal.main_v80)
  after_results_simp
  simp only [h_arg5, h_arg6, h_arg7, h_arg8, h_arg2, h_v30, h_v70]
  try rfl

/-- Before the first pooling both programs slice its parameters and sum the node rows into their clusters by the same operations. Here: `v78` of the kernel against `v82` of the reference. -/
theorem pool1_v78
    (h_arg5 : Cert.KernelIdeal.Gen.W10 m ρ c (Proc.devRef .tc Cert.KernelIdeal.main_arg5) = Cert.ReferenceIdeal.Segs.U8 m' c (Proc.devRef .tc Cert.ReferenceIdeal.main_arg5))
    (h_arg6 : Cert.KernelIdeal.Gen.W10 m ρ c (Proc.devRef .tc Cert.KernelIdeal.main_arg6) = Cert.ReferenceIdeal.Segs.U8 m' c (Proc.devRef .tc Cert.ReferenceIdeal.main_arg6))
    (h_arg7 : Cert.KernelIdeal.Gen.W10 m ρ c (Proc.devRef .tc Cert.KernelIdeal.main_arg7) = Cert.ReferenceIdeal.Segs.U8 m' c (Proc.devRef .tc Cert.ReferenceIdeal.main_arg7))
    (h_arg8 : Cert.KernelIdeal.Gen.W10 m ρ c (Proc.devRef .tc Cert.KernelIdeal.main_arg8) = Cert.ReferenceIdeal.Segs.U8 m' c (Proc.devRef .tc Cert.ReferenceIdeal.main_arg8))
    (h_arg2 : Cert.KernelIdeal.Gen.W10 m ρ c (Proc.devRef .tc Cert.KernelIdeal.main_arg2) = Cert.ReferenceIdeal.Segs.U8 m' c (Proc.devRef .tc Cert.ReferenceIdeal.main_arg2))
    (h_v30 : Cert.KernelIdeal.Gen.W10 m ρ c (Proc.devRef .tc Cert.KernelIdeal.main_v30) = Cert.ReferenceIdeal.Segs.U8 m' c (Proc.devRef .tc Cert.ReferenceIdeal.main_v30))
    (h_v70 : Cert.KernelIdeal.Gen.W10 m ρ c (Proc.devRef .tc Cert.KernelIdeal.main_v70) = Cert.ReferenceIdeal.Segs.U8 m' c (Proc.devRef .tc Cert.ReferenceIdeal.main_v74)) :
    Cert.KernelIdeal.Gen.W11 m ρ c (Proc.devRef .tc Cert.KernelIdeal.main_v78) = Cert.ReferenceIdeal.Segs.U9 m' c (Proc.devRef .tc Cert.ReferenceIdeal.main_v82) := by
  show StableHlo.after Cert.KernelIdeal.Gen.hostOps4 (Cert.KernelIdeal.Gen.W10 m ρ c) (Proc.devRef .tc Cert.KernelIdeal.main_v78)
     = StableHlo.after Cert.ReferenceIdeal.Segs.seg8 (Cert.ReferenceIdeal.Segs.U8 m' c) (Proc.devRef .tc Cert.ReferenceIdeal.main_v82)
  after_results_simp
  simp only [h_arg5, h_arg6, h_arg7, h_arg8, h_arg2, h_v30, h_v70]
  try rfl

/-- Before the first pooling both programs slice its parameters and sum the node rows into their clusters by the same operations. Here: `v88` of the kernel against `v92` of the reference. -/
theorem pool1_v88
    (h_arg5 : Cert.KernelIdeal.Gen.W10 m ρ c (Proc.devRef .tc Cert.KernelIdeal.main_arg5) = Cert.ReferenceIdeal.Segs.U8 m' c (Proc.devRef .tc Cert.ReferenceIdeal.main_arg5))
    (h_arg6 : Cert.KernelIdeal.Gen.W10 m ρ c (Proc.devRef .tc Cert.KernelIdeal.main_arg6) = Cert.ReferenceIdeal.Segs.U8 m' c (Proc.devRef .tc Cert.ReferenceIdeal.main_arg6))
    (h_arg7 : Cert.KernelIdeal.Gen.W10 m ρ c (Proc.devRef .tc Cert.KernelIdeal.main_arg7) = Cert.ReferenceIdeal.Segs.U8 m' c (Proc.devRef .tc Cert.ReferenceIdeal.main_arg7))
    (h_arg8 : Cert.KernelIdeal.Gen.W10 m ρ c (Proc.devRef .tc Cert.KernelIdeal.main_arg8) = Cert.ReferenceIdeal.Segs.U8 m' c (Proc.devRef .tc Cert.ReferenceIdeal.main_arg8))
    (h_arg2 : Cert.KernelIdeal.Gen.W10 m ρ c (Proc.devRef .tc Cert.KernelIdeal.main_arg2) = Cert.ReferenceIdeal.Segs.U8 m' c (Proc.devRef .tc Cert.ReferenceIdeal.main_arg2))
    (h_v30 : Cert.KernelIdeal.Gen.W10 m ρ c (Proc.devRef .tc Cert.KernelIdeal.main_v30) = Cert.ReferenceIdeal.Segs.U8 m' c (Proc.devRef .tc Cert.ReferenceIdeal.main_v30))
    (h_v70 : Cert.KernelIdeal.Gen.W10 m ρ c (Proc.devRef .tc Cert.KernelIdeal.main_v70) = Cert.ReferenceIdeal.Segs.U8 m' c (Proc.devRef .tc Cert.ReferenceIdeal.main_v74)) :
    Cert.KernelIdeal.Gen.W11 m ρ c (Proc.devRef .tc Cert.KernelIdeal.main_v88) = Cert.ReferenceIdeal.Segs.U9 m' c (Proc.devRef .tc Cert.ReferenceIdeal.main_v92) := by
  show StableHlo.after Cert.KernelIdeal.Gen.hostOps4 (Cert.KernelIdeal.Gen.W10 m ρ c) (Proc.devRef .tc Cert.KernelIdeal.main_v88)
     = StableHlo.after Cert.ReferenceIdeal.Segs.seg8 (Cert.ReferenceIdeal.Segs.U8 m' c) (Proc.devRef .tc Cert.ReferenceIdeal.main_v92)
  after_results_simp
  simp only [h_arg5, h_arg6, h_arg7, h_arg8, h_arg2, h_v30, h_v70]
  try rfl

/-- Every entry of the reference's `v76` after this stretch is a real number, the entries it is computed from being real. -/
theorem pool1_real_v76
    (r_arg5 : AllReal (Cert.ReferenceIdeal.Segs.U8 m' c (Proc.devRef .tc Cert.ReferenceIdeal.main_arg5)))
    (r_arg6 : AllReal (Cert.ReferenceIdeal.Segs.U8 m' c (Proc.devRef .tc Cert.ReferenceIdeal.main_arg6)))
    (r_arg7 : AllReal (Cert.ReferenceIdeal.Segs.U8 m' c (Proc.devRef .tc Cert.ReferenceIdeal.main_arg7)))
    (r_arg8 : AllReal (Cert.ReferenceIdeal.Segs.U8 m' c (Proc.devRef .tc Cert.ReferenceIdeal.main_arg8)))
    (r_v74 : AllReal (Cert.ReferenceIdeal.Segs.U8 m' c (Proc.devRef .tc Cert.ReferenceIdeal.main_v74))) :
    AllReal (Cert.ReferenceIdeal.Segs.U9 m' c (Proc.devRef .tc Cert.ReferenceIdeal.main_v76)) := by
  show AllReal (StableHlo.after Cert.ReferenceIdeal.Segs.seg8 (Cert.ReferenceIdeal.Segs.U8 m' c) (Proc.devRef .tc Cert.ReferenceIdeal.main_v76))
  after_results_simp
  all_real

/-- Every entry of the reference's `v78` after this stretch is a real number, the entries it is computed from being real. -/
theorem pool1_real_v78
    (r_arg5 : AllReal (Cert.ReferenceIdeal.Segs.U8 m' c (Proc.devRef .tc Cert.ReferenceIdeal.main_arg5)))
    (r_arg6 : AllReal (Cert.ReferenceIdeal.Segs.U8 m' c (Proc.devRef .tc Cert.ReferenceIdeal.main_arg6)))
    (r_arg7 : AllReal (Cert.ReferenceIdeal.Segs.U8 m' c (Proc.devRef .tc Cert.ReferenceIdeal.main_arg7)))
    (r_arg8 : AllReal (Cert.ReferenceIdeal.Segs.U8 m' c (Proc.devRef .tc Cert.ReferenceIdeal.main_arg8)))
    (r_v74 : AllReal (Cert.ReferenceIdeal.Segs.U8 m' c (Proc.devRef .tc Cert.ReferenceIdeal.main_v74))) :
    AllReal (Cert.ReferenceIdeal.Segs.U9 m' c (Proc.devRef .tc Cert.ReferenceIdeal.main_v78)) := by
  show AllReal (StableHlo.after Cert.ReferenceIdeal.Segs.seg8 (Cert.ReferenceIdeal.Segs.U8 m' c) (Proc.devRef .tc Cert.ReferenceIdeal.main_v78))
  after_results_simp
  all_real

/-- Every entry of the reference's `v80` after this stretch is a real number, the entries it is computed from being real. -/
theorem pool1_real_v80
    (r_arg5 : AllReal (Cert.ReferenceIdeal.Segs.U8 m' c (Proc.devRef .tc Cert.ReferenceIdeal.main_arg5)))
    (r_arg6 : AllReal (Cert.ReferenceIdeal.Segs.U8 m' c (Proc.devRef .tc Cert.ReferenceIdeal.main_arg6)))
    (r_arg7 : AllReal (Cert.ReferenceIdeal.Segs.U8 m' c (Proc.devRef .tc Cert.ReferenceIdeal.main_arg7)))
    (r_arg8 : AllReal (Cert.ReferenceIdeal.Segs.U8 m' c (Proc.devRef .tc Cert.ReferenceIdeal.main_arg8)))
    (r_v74 : AllReal (Cert.ReferenceIdeal.Segs.U8 m' c (Proc.devRef .tc Cert.ReferenceIdeal.main_v74))) :
    AllReal (Cert.ReferenceIdeal.Segs.U9 m' c (Proc.devRef .tc Cert.ReferenceIdeal.main_v80)) := by
  show AllReal (StableHlo.after Cert.ReferenceIdeal.Segs.seg8 (Cert.ReferenceIdeal.Segs.U8 m' c) (Proc.devRef .tc Cert.ReferenceIdeal.main_v80))
  after_results_simp
  all_real

/-- Every entry of the reference's `v82` after this stretch is a real number, the entries it is computed from being real. -/
theorem pool1_real_v82
    (r_arg5 : AllReal (Cert.ReferenceIdeal.Segs.U8 m' c (Proc.devRef .tc Cert.ReferenceIdeal.main_arg5)))
    (r_arg6 : AllReal (Cert.ReferenceIdeal.Segs.U8 m' c (Proc.devRef .tc Cert.ReferenceIdeal.main_arg6)))
    (r_arg7 : AllReal (Cert.ReferenceIdeal.Segs.U8 m' c (Proc.devRef .tc Cert.ReferenceIdeal.main_arg7)))
    (r_arg8 : AllReal (Cert.ReferenceIdeal.Segs.U8 m' c (Proc.devRef .tc Cert.ReferenceIdeal.main_arg8)))
    (r_v74 : AllReal (Cert.ReferenceIdeal.Segs.U8 m' c (Proc.devRef .tc Cert.ReferenceIdeal.main_v74))) :
    AllReal (Cert.ReferenceIdeal.Segs.U9 m' c (Proc.devRef .tc Cert.ReferenceIdeal.main_v82)) := by
  show AllReal (StableHlo.after Cert.ReferenceIdeal.Segs.seg8 (Cert.ReferenceIdeal.Segs.U8 m' c) (Proc.devRef .tc Cert.ReferenceIdeal.main_v82))
  after_results_simp
  all_real

/-- Every entry of the reference's `v92` after this stretch is a real number, the entries it is computed from being real. -/
theorem pool1_real_v92
    (r_arg5 : AllReal (Cert.ReferenceIdeal.Segs.U8 m' c (Proc.devRef .tc Cert.ReferenceIdeal.main_arg5)))
    (r_arg6 : AllReal (Cert.ReferenceIdeal.Segs.U8 m' c (Proc.devRef .tc Cert.ReferenceIdeal.main_arg6)))
    (r_arg7 : AllReal (Cert.ReferenceIdeal.Segs.U8 m' c (Proc.devRef .tc Cert.ReferenceIdeal.main_arg7)))
    (r_arg8 : AllReal (Cert.ReferenceIdeal.Segs.U8 m' c (Proc.devRef .tc Cert.ReferenceIdeal.main_arg8)))
    (r_v74 : AllReal (Cert.ReferenceIdeal.Segs.U8 m' c (Proc.devRef .tc Cert.ReferenceIdeal.main_v74))) :
    AllReal (Cert.ReferenceIdeal.Segs.U9 m' c (Proc.devRef .tc Cert.ReferenceIdeal.main_v92)) := by
  show AllReal (StableHlo.after Cert.ReferenceIdeal.Segs.seg8 (Cert.ReferenceIdeal.Segs.U8 m' c) (Proc.devRef .tc Cert.ReferenceIdeal.main_v92))
  after_results_simp
  all_real

/-- The kernel recasts the 64-entry vector `v74` as the 1×64 row `v89`: entry `(0, j)` is the vector's entry `j`. -/
theorem pool1_row_v89 (j : Fin 64) :
    (Cert.KernelIdeal.Gen.W11 m ρ c (Proc.devRef .tc Cert.KernelIdeal.main_v89)) (ix2 0 j) = (Cert.KernelIdeal.Gen.W11 m ρ c (Proc.devRef .tc Cert.KernelIdeal.main_v74)) (ix1 j) := by
  show (StableHlo.after Cert.KernelIdeal.Gen.hostOps4 (Cert.KernelIdeal.Gen.W10 m ρ c) (Proc.devRef .tc Cert.KernelIdeal.main_v89)) (ix2 0 j) = (StableHlo.after Cert.KernelIdeal.Gen.hostOps4 (Cert.KernelIdeal.Gen.W10 m ρ c) (Proc.devRef .tc Cert.KernelIdeal.main_v74)) (ix1 j)
  after_results_simp
  exact Cert.RowLayout.shapeCast_row _ _ j

/-- Before the second pooling both programs slice its parameters and copy each cluster's row back to its nodes by the same operations. Here: `v112` of the kernel against `v125` of the reference. -/
theorem pool2_v112
    (h_arg5 : Cert.KernelIdeal.Gen.W14 m ρ c (Proc.devRef .tc Cert.KernelIdeal.main_arg5) = Cert.ReferenceIdeal.Segs.U11 m' c (Proc.devRef .tc Cert.ReferenceIdeal.main_arg5))
    (h_arg6 : Cert.KernelIdeal.Gen.W14 m ρ c (Proc.devRef .tc Cert.KernelIdeal.main_arg6) = Cert.ReferenceIdeal.Segs.U11 m' c (Proc.devRef .tc Cert.ReferenceIdeal.main_arg6))
    (h_arg7 : Cert.KernelIdeal.Gen.W14 m ρ c (Proc.devRef .tc Cert.KernelIdeal.main_arg7) = Cert.ReferenceIdeal.Segs.U11 m' c (Proc.devRef .tc Cert.ReferenceIdeal.main_arg7))
    (h_arg8 : Cert.KernelIdeal.Gen.W14 m ρ c (Proc.devRef .tc Cert.KernelIdeal.main_arg8) = Cert.ReferenceIdeal.Segs.U11 m' c (Proc.devRef .tc Cert.ReferenceIdeal.main_arg8))
    (h_arg2 : Cert.KernelIdeal.Gen.W14 m ρ c (Proc.devRef .tc Cert.KernelIdeal.main_arg2) = Cert.ReferenceIdeal.Segs.U11 m' c (Proc.devRef .tc Cert.ReferenceIdeal.main_arg2))
    (h_v30 : Cert.KernelIdeal.Gen.W14 m ρ c (Proc.devRef .tc Cert.KernelIdeal.main_v30) = Cert.ReferenceIdeal.Segs.U11 m' c (Proc.devRef .tc Cert.ReferenceIdeal.main_v30))
    (h_v110 : Cert.KernelIdeal.Gen.W14 m ρ c (Proc.devRef .tc Cert.KernelIdeal.main_v110) = Cert.ReferenceIdeal.Segs.U11 m' c (Proc.devRef .tc Cert.ReferenceIdeal.main_v123)) :
    Cert.KernelIdeal.Gen.W15 m ρ c (Proc.devRef .tc Cert.KernelIdeal.main_v112) = Cert.ReferenceIdeal.Segs.U12 m' c (Proc.devRef .tc Cert.ReferenceIdeal.main_v125) := by
  show StableHlo.after Cert.KernelIdeal.Gen.hostOps6 (Cert.KernelIdeal.Gen.W14 m ρ c) (Proc.devRef .tc Cert.KernelIdeal.main_v112)
     = StableHlo.after Cert.ReferenceIdeal.Segs.seg11 (Cert.ReferenceIdeal.Segs.U11 m' c) (Proc.devRef .tc Cert.ReferenceIdeal.main_v125)
  after_results_simp
  simp only [h_arg5, h_arg6, h_arg7, h_arg8, h_arg2, h_v30, h_v110]
  try rfl

/-- Before the second pooling both programs slice its parameters and copy each cluster's row back to its nodes by the same operations. Here: `v114` of the kernel against `v127` of the reference. -/
theorem pool2_v114
    (h_arg5 : Cert.KernelIdeal.Gen.W14 m ρ c (Proc.devRef .tc Cert.KernelIdeal.main_arg5) = Cert.ReferenceIdeal.Segs.U11 m' c (Proc.devRef .tc Cert.ReferenceIdeal.main_arg5))
    (h_arg6 : Cert.KernelIdeal.Gen.W14 m ρ c (Proc.devRef .tc Cert.KernelIdeal.main_arg6) = Cert.ReferenceIdeal.Segs.U11 m' c (Proc.devRef .tc Cert.ReferenceIdeal.main_arg6))
    (h_arg7 : Cert.KernelIdeal.Gen.W14 m ρ c (Proc.devRef .tc Cert.KernelIdeal.main_arg7) = Cert.ReferenceIdeal.Segs.U11 m' c (Proc.devRef .tc Cert.ReferenceIdeal.main_arg7))
    (h_arg8 : Cert.KernelIdeal.Gen.W14 m ρ c (Proc.devRef .tc Cert.KernelIdeal.main_arg8) = Cert.ReferenceIdeal.Segs.U11 m' c (Proc.devRef .tc Cert.ReferenceIdeal.main_arg8))
    (h_arg2 : Cert.KernelIdeal.Gen.W14 m ρ c (Proc.devRef .tc Cert.KernelIdeal.main_arg2) = Cert.ReferenceIdeal.Segs.U11 m' c (Proc.devRef .tc Cert.ReferenceIdeal.main_arg2))
    (h_v30 : Cert.KernelIdeal.Gen.W14 m ρ c (Proc.devRef .tc Cert.KernelIdeal.main_v30) = Cert.ReferenceIdeal.Segs.U11 m' c (Proc.devRef .tc Cert.ReferenceIdeal.main_v30))
    (h_v110 : Cert.KernelIdeal.Gen.W14 m ρ c (Proc.devRef .tc Cert.KernelIdeal.main_v110) = Cert.ReferenceIdeal.Segs.U11 m' c (Proc.devRef .tc Cert.ReferenceIdeal.main_v123)) :
    Cert.KernelIdeal.Gen.W15 m ρ c (Proc.devRef .tc Cert.KernelIdeal.main_v114) = Cert.ReferenceIdeal.Segs.U12 m' c (Proc.devRef .tc Cert.ReferenceIdeal.main_v127) := by
  show StableHlo.after Cert.KernelIdeal.Gen.hostOps6 (Cert.KernelIdeal.Gen.W14 m ρ c) (Proc.devRef .tc Cert.KernelIdeal.main_v114)
     = StableHlo.after Cert.ReferenceIdeal.Segs.seg11 (Cert.ReferenceIdeal.Segs.U11 m' c) (Proc.devRef .tc Cert.ReferenceIdeal.main_v127)
  after_results_simp
  simp only [h_arg5, h_arg6, h_arg7, h_arg8, h_arg2, h_v30, h_v110]
  try rfl

/-- Before the second pooling both programs slice its parameters and copy each cluster's row back to its nodes by the same operations. Here: `v116` of the kernel against `v129` of the reference. -/
theorem pool2_v116
    (h_arg5 : Cert.KernelIdeal.Gen.W14 m ρ c (Proc.devRef .tc Cert.KernelIdeal.main_arg5) = Cert.ReferenceIdeal.Segs.U11 m' c (Proc.devRef .tc Cert.ReferenceIdeal.main_arg5))
    (h_arg6 : Cert.KernelIdeal.Gen.W14 m ρ c (Proc.devRef .tc Cert.KernelIdeal.main_arg6) = Cert.ReferenceIdeal.Segs.U11 m' c (Proc.devRef .tc Cert.ReferenceIdeal.main_arg6))
    (h_arg7 : Cert.KernelIdeal.Gen.W14 m ρ c (Proc.devRef .tc Cert.KernelIdeal.main_arg7) = Cert.ReferenceIdeal.Segs.U11 m' c (Proc.devRef .tc Cert.ReferenceIdeal.main_arg7))
    (h_arg8 : Cert.KernelIdeal.Gen.W14 m ρ c (Proc.devRef .tc Cert.KernelIdeal.main_arg8) = Cert.ReferenceIdeal.Segs.U11 m' c (Proc.devRef .tc Cert.ReferenceIdeal.main_arg8))
    (h_arg2 : Cert.KernelIdeal.Gen.W14 m ρ c (Proc.devRef .tc Cert.KernelIdeal.main_arg2) = Cert.ReferenceIdeal.Segs.U11 m' c (Proc.devRef .tc Cert.ReferenceIdeal.main_arg2))
    (h_v30 : Cert.KernelIdeal.Gen.W14 m ρ c (Proc.devRef .tc Cert.KernelIdeal.main_v30) = Cert.ReferenceIdeal.Segs.U11 m' c (Proc.devRef .tc Cert.ReferenceIdeal.main_v30))
    (h_v110 : Cert.KernelIdeal.Gen.W14 m ρ c (Proc.devRef .tc Cert.KernelIdeal.main_v110) = Cert.ReferenceIdeal.Segs.U11 m' c (Proc.devRef .tc Cert.ReferenceIdeal.main_v123)) :
    Cert.KernelIdeal.Gen.W15 m ρ c (Proc.devRef .tc Cert.KernelIdeal.main_v116) = Cert.ReferenceIdeal.Segs.U12 m' c (Proc.devRef .tc Cert.ReferenceIdeal.main_v129) := by
  show StableHlo.after Cert.KernelIdeal.Gen.hostOps6 (Cert.KernelIdeal.Gen.W14 m ρ c) (Proc.devRef .tc Cert.KernelIdeal.main_v116)
     = StableHlo.after Cert.ReferenceIdeal.Segs.seg11 (Cert.ReferenceIdeal.Segs.U11 m' c) (Proc.devRef .tc Cert.ReferenceIdeal.main_v129)
  after_results_simp
  simp only [h_arg5, h_arg6, h_arg7, h_arg8, h_arg2, h_v30, h_v110]
  try rfl

/-- Before the second pooling both programs slice its parameters and copy each cluster's row back to its nodes by the same operations. Here: `v118` of the kernel against `v131` of the reference. -/
theorem pool2_v118
    (h_arg5 : Cert.KernelIdeal.Gen.W14 m ρ c (Proc.devRef .tc Cert.KernelIdeal.main_arg5) = Cert.ReferenceIdeal.Segs.U11 m' c (Proc.devRef .tc Cert.ReferenceIdeal.main_arg5))
    (h_arg6 : Cert.KernelIdeal.Gen.W14 m ρ c (Proc.devRef .tc Cert.KernelIdeal.main_arg6) = Cert.ReferenceIdeal.Segs.U11 m' c (Proc.devRef .tc Cert.ReferenceIdeal.main_arg6))
    (h_arg7 : Cert.KernelIdeal.Gen.W14 m ρ c (Proc.devRef .tc Cert.KernelIdeal.main_arg7) = Cert.ReferenceIdeal.Segs.U11 m' c (Proc.devRef .tc Cert.ReferenceIdeal.main_arg7))
    (h_arg8 : Cert.KernelIdeal.Gen.W14 m ρ c (Proc.devRef .tc Cert.KernelIdeal.main_arg8) = Cert.ReferenceIdeal.Segs.U11 m' c (Proc.devRef .tc Cert.ReferenceIdeal.main_arg8))
    (h_arg2 : Cert.KernelIdeal.Gen.W14 m ρ c (Proc.devRef .tc Cert.KernelIdeal.main_arg2) = Cert.ReferenceIdeal.Segs.U11 m' c (Proc.devRef .tc Cert.ReferenceIdeal.main_arg2))
    (h_v30 : Cert.KernelIdeal.Gen.W14 m ρ c (Proc.devRef .tc Cert.KernelIdeal.main_v30) = Cert.ReferenceIdeal.Segs.U11 m' c (Proc.devRef .tc Cert.ReferenceIdeal.main_v30))
    (h_v110 : Cert.KernelIdeal.Gen.W14 m ρ c (Proc.devRef .tc Cert.KernelIdeal.main_v110) = Cert.ReferenceIdeal.Segs.U11 m' c (Proc.devRef .tc Cert.ReferenceIdeal.main_v123)) :
    Cert.KernelIdeal.Gen.W15 m ρ c (Proc.devRef .tc Cert.KernelIdeal.main_v118) = Cert.ReferenceIdeal.Segs.U12 m' c (Proc.devRef .tc Cert.ReferenceIdeal.main_v131) := by
  show StableHlo.after Cert.KernelIdeal.Gen.hostOps6 (Cert.KernelIdeal.Gen.W14 m ρ c) (Proc.devRef .tc Cert.KernelIdeal.main_v118)
     = StableHlo.after Cert.ReferenceIdeal.Segs.seg11 (Cert.ReferenceIdeal.Segs.U11 m' c) (Proc.devRef .tc Cert.ReferenceIdeal.main_v131)
  after_results_simp
  simp only [h_arg5, h_arg6, h_arg7, h_arg8, h_arg2, h_v30, h_v110]
  try rfl

/-- Before the second pooling both programs slice its parameters and copy each cluster's row back to its nodes by the same operations. Here: `v128` of the kernel against `v141` of the reference. -/
theorem pool2_v128
    (h_arg5 : Cert.KernelIdeal.Gen.W14 m ρ c (Proc.devRef .tc Cert.KernelIdeal.main_arg5) = Cert.ReferenceIdeal.Segs.U11 m' c (Proc.devRef .tc Cert.ReferenceIdeal.main_arg5))
    (h_arg6 : Cert.KernelIdeal.Gen.W14 m ρ c (Proc.devRef .tc Cert.KernelIdeal.main_arg6) = Cert.ReferenceIdeal.Segs.U11 m' c (Proc.devRef .tc Cert.ReferenceIdeal.main_arg6))
    (h_arg7 : Cert.KernelIdeal.Gen.W14 m ρ c (Proc.devRef .tc Cert.KernelIdeal.main_arg7) = Cert.ReferenceIdeal.Segs.U11 m' c (Proc.devRef .tc Cert.ReferenceIdeal.main_arg7))
    (h_arg8 : Cert.KernelIdeal.Gen.W14 m ρ c (Proc.devRef .tc Cert.KernelIdeal.main_arg8) = Cert.ReferenceIdeal.Segs.U11 m' c (Proc.devRef .tc Cert.ReferenceIdeal.main_arg8))
    (h_arg2 : Cert.KernelIdeal.Gen.W14 m ρ c (Proc.devRef .tc Cert.KernelIdeal.main_arg2) = Cert.ReferenceIdeal.Segs.U11 m' c (Proc.devRef .tc Cert.ReferenceIdeal.main_arg2))
    (h_v30 : Cert.KernelIdeal.Gen.W14 m ρ c (Proc.devRef .tc Cert.KernelIdeal.main_v30) = Cert.ReferenceIdeal.Segs.U11 m' c (Proc.devRef .tc Cert.ReferenceIdeal.main_v30))
    (h_v110 : Cert.KernelIdeal.Gen.W14 m ρ c (Proc.devRef .tc Cert.KernelIdeal.main_v110) = Cert.ReferenceIdeal.Segs.U11 m' c (Proc.devRef .tc Cert.ReferenceIdeal.main_v123)) :
    Cert.KernelIdeal.Gen.W15 m ρ c (Proc.devRef .tc Cert.KernelIdeal.main_v128) = Cert.ReferenceIdeal.Segs.U12 m' c (Proc.devRef .tc Cert.ReferenceIdeal.main_v141) := by
  show StableHlo.after Cert.KernelIdeal.Gen.hostOps6 (Cert.KernelIdeal.Gen.W14 m ρ c) (Proc.devRef .tc Cert.KernelIdeal.main_v128)
     = StableHlo.after Cert.ReferenceIdeal.Segs.seg11 (Cert.ReferenceIdeal.Segs.U11 m' c) (Proc.devRef .tc Cert.ReferenceIdeal.main_v141)
  after_results_simp
  simp only [h_arg5, h_arg6, h_arg7, h_arg8, h_arg2, h_v30, h_v110]
  try rfl

/-- Every entry of the reference's `v125` after this stretch is a real number, the entries it is computed from being real. -/
theorem pool2_real_v125
    (r_arg5 : AllReal (Cert.ReferenceIdeal.Segs.U11 m' c (Proc.devRef .tc Cert.ReferenceIdeal.main_arg5)))
    (r_arg6 : AllReal (Cert.ReferenceIdeal.Segs.U11 m' c (Proc.devRef .tc Cert.ReferenceIdeal.main_arg6)))
    (r_arg7 : AllReal (Cert.ReferenceIdeal.Segs.U11 m' c (Proc.devRef .tc Cert.ReferenceIdeal.main_arg7)))
    (r_arg8 : AllReal (Cert.ReferenceIdeal.Segs.U11 m' c (Proc.devRef .tc Cert.ReferenceIdeal.main_arg8)))
    (r_v123 : AllReal (Cert.ReferenceIdeal.Segs.U11 m' c (Proc.devRef .tc Cert.ReferenceIdeal.main_v123))) :
    AllReal (Cert.ReferenceIdeal.Segs.U12 m' c (Proc.devRef .tc Cert.ReferenceIdeal.main_v125)) := by
  show AllReal (StableHlo.after Cert.ReferenceIdeal.Segs.seg11 (Cert.ReferenceIdeal.Segs.U11 m' c) (Proc.devRef .tc Cert.ReferenceIdeal.main_v125))
  after_results_simp
  all_real

/-- Every entry of the reference's `v127` after this stretch is a real number, the entries it is computed from being real. -/
theorem pool2_real_v127
    (r_arg5 : AllReal (Cert.ReferenceIdeal.Segs.U11 m' c (Proc.devRef .tc Cert.ReferenceIdeal.main_arg5)))
    (r_arg6 : AllReal (Cert.ReferenceIdeal.Segs.U11 m' c (Proc.devRef .tc Cert.ReferenceIdeal.main_arg6)))
    (r_arg7 : AllReal (Cert.ReferenceIdeal.Segs.U11 m' c (Proc.devRef .tc Cert.ReferenceIdeal.main_arg7)))
    (r_arg8 : AllReal (Cert.ReferenceIdeal.Segs.U11 m' c (Proc.devRef .tc Cert.ReferenceIdeal.main_arg8)))
    (r_v123 : AllReal (Cert.ReferenceIdeal.Segs.U11 m' c (Proc.devRef .tc Cert.ReferenceIdeal.main_v123))) :
    AllReal (Cert.ReferenceIdeal.Segs.U12 m' c (Proc.devRef .tc Cert.ReferenceIdeal.main_v127)) := by
  show AllReal (StableHlo.after Cert.ReferenceIdeal.Segs.seg11 (Cert.ReferenceIdeal.Segs.U11 m' c) (Proc.devRef .tc Cert.ReferenceIdeal.main_v127))
  after_results_simp
  all_real

/-- Every entry of the reference's `v129` after this stretch is a real number, the entries it is computed from being real. -/
theorem pool2_real_v129
    (r_arg5 : AllReal (Cert.ReferenceIdeal.Segs.U11 m' c (Proc.devRef .tc Cert.ReferenceIdeal.main_arg5)))
    (r_arg6 : AllReal (Cert.ReferenceIdeal.Segs.U11 m' c (Proc.devRef .tc Cert.ReferenceIdeal.main_arg6)))
    (r_arg7 : AllReal (Cert.ReferenceIdeal.Segs.U11 m' c (Proc.devRef .tc Cert.ReferenceIdeal.main_arg7)))
    (r_arg8 : AllReal (Cert.ReferenceIdeal.Segs.U11 m' c (Proc.devRef .tc Cert.ReferenceIdeal.main_arg8)))
    (r_v123 : AllReal (Cert.ReferenceIdeal.Segs.U11 m' c (Proc.devRef .tc Cert.ReferenceIdeal.main_v123))) :
    AllReal (Cert.ReferenceIdeal.Segs.U12 m' c (Proc.devRef .tc Cert.ReferenceIdeal.main_v129)) := by
  show AllReal (StableHlo.after Cert.ReferenceIdeal.Segs.seg11 (Cert.ReferenceIdeal.Segs.U11 m' c) (Proc.devRef .tc Cert.ReferenceIdeal.main_v129))
  after_results_simp
  all_real

/-- Every entry of the reference's `v131` after this stretch is a real number, the entries it is computed from being real. -/
theorem pool2_real_v131
    (r_arg5 : AllReal (Cert.ReferenceIdeal.Segs.U11 m' c (Proc.devRef .tc Cert.ReferenceIdeal.main_arg5)))
    (r_arg6 : AllReal (Cert.ReferenceIdeal.Segs.U11 m' c (Proc.devRef .tc Cert.ReferenceIdeal.main_arg6)))
    (r_arg7 : AllReal (Cert.ReferenceIdeal.Segs.U11 m' c (Proc.devRef .tc Cert.ReferenceIdeal.main_arg7)))
    (r_arg8 : AllReal (Cert.ReferenceIdeal.Segs.U11 m' c (Proc.devRef .tc Cert.ReferenceIdeal.main_arg8)))
    (r_v123 : AllReal (Cert.ReferenceIdeal.Segs.U11 m' c (Proc.devRef .tc Cert.ReferenceIdeal.main_v123))) :
    AllReal (Cert.ReferenceIdeal.Segs.U12 m' c (Proc.devRef .tc Cert.ReferenceIdeal.main_v131)) := by
  show AllReal (StableHlo.after Cert.ReferenceIdeal.Segs.seg11 (Cert.ReferenceIdeal.Segs.U11 m' c) (Proc.devRef .tc Cert.ReferenceIdeal.main_v131))
  after_results_simp
  all_real

/-- Every entry of the reference's `v141` after this stretch is a real number, the entries it is computed from being real. -/
theorem pool2_real_v141
    (r_arg5 : AllReal (Cert.ReferenceIdeal.Segs.U11 m' c (Proc.devRef .tc Cert.ReferenceIdeal.main_arg5)))
    (r_arg6 : AllReal (Cert.ReferenceIdeal.Segs.U11 m' c (Proc.devRef .tc Cert.ReferenceIdeal.main_arg6)))
    (r_arg7 : AllReal (Cert.ReferenceIdeal.Segs.U11 m' c (Proc.devRef .tc Cert.ReferenceIdeal.main_arg7)))
    (r_arg8 : AllReal (Cert.ReferenceIdeal.Segs.U11 m' c (Proc.devRef .tc Cert.ReferenceIdeal.main_arg8)))
    (r_v123 : AllReal (Cert.ReferenceIdeal.Segs.U11 m' c (Proc.devRef .tc Cert.ReferenceIdeal.main_v123))) :
    AllReal (Cert.ReferenceIdeal.Segs.U12 m' c (Proc.devRef .tc Cert.ReferenceIdeal.main_v141)) := by
  show AllReal (StableHlo.after Cert.ReferenceIdeal.Segs.seg11 (Cert.ReferenceIdeal.Segs.U11 m' c) (Proc.devRef .tc Cert.ReferenceIdeal.main_v141))
  after_results_simp
  all_real

/-- The kernel recasts the 64-entry vector `v114` as the 1×64 row `v129`: entry `(0, j)` is the vector's entry `j`. -/
theorem pool2_row_v129 (j : Fin 64) :
    (Cert.KernelIdeal.Gen.W15 m ρ c (Proc.devRef .tc Cert.KernelIdeal.main_v129)) (ix2 0 j) = (Cert.KernelIdeal.Gen.W15 m ρ c (Proc.devRef .tc Cert.KernelIdeal.main_v114)) (ix1 j) := by
  show (StableHlo.after Cert.KernelIdeal.Gen.hostOps6 (Cert.KernelIdeal.Gen.W14 m ρ c) (Proc.devRef .tc Cert.KernelIdeal.main_v129)) (ix2 0 j) = (StableHlo.after Cert.KernelIdeal.Gen.hostOps6 (Cert.KernelIdeal.Gen.W14 m ρ c) (Proc.devRef .tc Cert.KernelIdeal.main_v114)) (ix1 j)
  after_results_simp
  exact Cert.RowLayout.shapeCast_row _ _ j

end Cert.Sim

end
-- ==== Proof.SimHostB.lean ====
/-
  The stretches of host operations that the two programs share. Between two regions the idealized kernel runs the
  same host operations as the reference does between the corresponding points (index normalisation, gather of the
  transformed rows, scaling by the per-edge coefficient, scatter-add into the target rows; slices of the parameter
  arrays): from buffers that agree, the buffers written agree. Where the kernel recasts a 64-entry vector as a 1×64
  row for its next region, the row's entries are the vector's. Along the way every entry of the reference's float
  buffers is a real number.
-/
import proofs.«168298_j84988812853302_1_alg».proof.Proof.Gen.KernelIdeal.Frame
import proofs.«168298_j84988812853302_1_alg».proof.Proof.RefSegs
import proofs.«168298_j84988812853302_1_alg».proof.Proof.RowOps
import proofs.«168298_j84988812853302_1_alg».proof.Proof.RowLayout
import proofs.«168298_j84988812853302_1_alg».proof.Proof.LibFinite

import Idealize.ShloMosaic.Lib.StableHlo.Run
import Idealize.ShloMosaic.PureOps.Ideal

set_option maxRecDepth 16384
set_option maxHeartbeats 16000000

noncomputable section

namespace Cert.Sim

open Idealize.ShloMosaic Idealize.ShloMosaic.TcCoe Idealize.SL.Sem Idealize.ShloMosaic.StableHlo
open Idealize.ShloMosaic.ValueIdx Cert.RowOps Cert.LibFinite

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- Both programs slice the same layer's weights and bias out of the same argument arrays. Here: `v152` of the kernel against `v174` of the reference. -/
theorem slice2_v152
    (h_arg3 : Cert.KernelIdeal.Gen.W18 m ρ c (Proc.devRef .tc Cert.KernelIdeal.main_arg3) = Cert.ReferenceIdeal.Segs.U14 m' c (Proc.devRef .tc Cert.ReferenceIdeal.main_arg3))
    (h_arg4 : Cert.KernelIdeal.Gen.W18 m ρ c (Proc.devRef .tc Cert.KernelIdeal.main_arg4) = Cert.ReferenceIdeal.Segs.U14 m' c (Proc.devRef .tc Cert.ReferenceIdeal.main_arg4)) :
    Cert.KernelIdeal.Gen.W19 m ρ c (Proc.devRef .tc Cert.KernelIdeal.main_v152) = Cert.ReferenceIdeal.Segs.U15 m' c (Proc.devRef .tc Cert.ReferenceIdeal.main_v174) := by
  show StableHlo.after Cert.KernelIdeal.Gen.hostOps8 (Cert.KernelIdeal.Gen.W18 m ρ c) (Proc.devRef .tc Cert.KernelIdeal.main_v152)
     = StableHlo.after Cert.ReferenceIdeal.Segs.seg14 (Cert.ReferenceIdeal.Segs.U14 m' c) (Proc.devRef .tc Cert.ReferenceIdeal.main_v174)
  after_results_simp
  simp only [h_arg3, h_arg4]
  try rfl

/-- Both programs slice the same layer's weights and bias out of the same argument arrays. Here: `v154` of the kernel against `v176` of the reference. -/
theorem slice2_v154
    (h_arg3 : Cert.KernelIdeal.Gen.W18 m ρ c (Proc.devRef .tc Cert.KernelIdeal.main_arg3) = Cert.ReferenceIdeal.Segs.U14 m' c (Proc.devRef .tc Cert.ReferenceIdeal.main_arg3))
    (h_arg4 : Cert.KernelIdeal.Gen.W18 m ρ c (Proc.devRef .tc Cert.KernelIdeal.main_arg4) = Cert.ReferenceIdeal.Segs.U14 m' c (Proc.devRef .tc Cert.ReferenceIdeal.main_arg4)) :
    Cert.KernelIdeal.Gen.W19 m ρ c (Proc.devRef .tc Cert.KernelIdeal.main_v154) = Cert.ReferenceIdeal.Segs.U15 m' c (Proc.devRef .tc Cert.ReferenceIdeal.main_v176) := by
  show StableHlo.after Cert.KernelIdeal.Gen.hostOps8 (Cert.KernelIdeal.Gen.W18 m ρ c) (Proc.devRef .tc Cert.KernelIdeal.main_v154)
     = StableHlo.after Cert.ReferenceIdeal.Segs.seg14 (Cert.ReferenceIdeal.Segs.U14 m' c) (Proc.devRef .tc Cert.ReferenceIdeal.main_v176)
  after_results_simp
  simp only [h_arg3, h_arg4]
  try rfl

/-- The two programs run the same host operations on buffers that agree: the result buffers agree. Here: `v168` of the kernel against `v190` of the reference. -/
theorem gcn2_v168
    (h_v3 : Cert.KernelIdeal.Gen.W20 m ρ c (Proc.devRef .tc Cert.KernelIdeal.main_v3) = Cert.ReferenceIdeal.Segs.U16 m' c (Proc.devRef .tc Cert.ReferenceIdeal.main_v3))
    (h_v6 : Cert.KernelIdeal.Gen.W20 m ρ c (Proc.devRef .tc Cert.KernelIdeal.main_v6) = Cert.ReferenceIdeal.Segs.U16 m' c (Proc.devRef .tc Cert.ReferenceIdeal.main_v6))
    (h_v29 : Cert.KernelIdeal.Gen.W20 m ρ c (Proc.devRef .tc Cert.KernelIdeal.main_v29) = Cert.ReferenceIdeal.Segs.U16 m' c (Proc.devRef .tc Cert.ReferenceIdeal.main_v29))
    (h_v155 : Cert.KernelIdeal.Gen.W20 m ρ c (Proc.devRef .tc Cert.KernelIdeal.main_v155) = Cert.ReferenceIdeal.Segs.U16 m' c (Proc.devRef .tc Cert.ReferenceIdeal.main_v177)) :
    Cert.KernelIdeal.Gen.W21 m ρ c (Proc.devRef .tc Cert.KernelIdeal.main_v168) = Cert.ReferenceIdeal.Segs.U17 m' c (Proc.devRef .tc Cert.ReferenceIdeal.main_v190) := by
  show StableHlo.after Cert.KernelIdeal.Gen.hostOps9 (Cert.KernelIdeal.Gen.W20 m ρ c) (Proc.devRef .tc Cert.KernelIdeal.main_v168)
     = StableHlo.after Cert.ReferenceIdeal.Segs.seg16 (Cert.ReferenceIdeal.Segs.U16 m' c) (Proc.devRef .tc Cert.ReferenceIdeal.main_v190)
  after_results_simp
  simp only [h_v3, h_v6, h_v29, h_v155]
  try rfl

/-- The kernel recasts the 64-entry vector `v154` as the 1×64 row `v169`: entry `(0, j)` is the vector's entry `j`. -/
theorem gcn2_row_v169 (j : Fin 64) :
    (Cert.KernelIdeal.Gen.W21 m ρ c (Proc.devRef .tc Cert.KernelIdeal.main_v169)) (ix2 0 j) = (Cert.KernelIdeal.Gen.W20 m ρ c (Proc.devRef .tc Cert.KernelIdeal.main_v154)) (ix1 j) := by
  show (StableHlo.after Cert.KernelIdeal.Gen.hostOps9 (Cert.KernelIdeal.Gen.W20 m ρ c) (Proc.devRef .tc Cert.KernelIdeal.main_v169)) (ix2 0 j) = _
  after_results_simp
  exact Cert.RowLayout.shapeCast_row _ _ j

/-- Both programs slice the same layer's weights and bias out of the same argument arrays. Here: `v172` of the kernel against `v196` of the reference. -/
theorem slice3_v172
    (h_arg3 : Cert.KernelIdeal.Gen.W22 m ρ c (Proc.devRef .tc Cert.KernelIdeal.main_arg3) = Cert.ReferenceIdeal.Segs.U18 m' c (Proc.devRef .tc Cert.ReferenceIdeal.main_arg3))
    (h_arg4 : Cert.KernelIdeal.Gen.W22 m ρ c (Proc.devRef .tc Cert.KernelIdeal.main_arg4) = Cert.ReferenceIdeal.Segs.U18 m' c (Proc.devRef .tc Cert.ReferenceIdeal.main_arg4)) :
    Cert.KernelIdeal.Gen.W23 m ρ c (Proc.devRef .tc Cert.KernelIdeal.main_v172) = Cert.ReferenceIdeal.Segs.U19 m' c (Proc.devRef .tc Cert.ReferenceIdeal.main_v196) := by
  show StableHlo.after Cert.KernelIdeal.Gen.hostOps10 (Cert.KernelIdeal.Gen.W22 m ρ c) (Proc.devRef .tc Cert.KernelIdeal.main_v172)
     = StableHlo.after Cert.ReferenceIdeal.Segs.seg18 (Cert.ReferenceIdeal.Segs.U18 m' c) (Proc.devRef .tc Cert.ReferenceIdeal.main_v196)
  after_results_simp
  simp only [h_arg3, h_arg4]
  try rfl

/-- Both programs slice the same layer's weights and bias out of the same argument arrays. Here: `v174` of the kernel against `v198` of the reference. -/
theorem slice3_v174
    (h_arg3 : Cert.KernelIdeal.Gen.W22 m ρ c (Proc.devRef .tc Cert.KernelIdeal.main_arg3) = Cert.ReferenceIdeal.Segs.U18 m' c (Proc.devRef .tc Cert.ReferenceIdeal.main_arg3))
    (h_arg4 : Cert.KernelIdeal.Gen.W22 m ρ c (Proc.devRef .tc Cert.KernelIdeal.main_arg4) = Cert.ReferenceIdeal.Segs.U18 m' c (Proc.devRef .tc Cert.ReferenceIdeal.main_arg4)) :
    Cert.KernelIdeal.Gen.W23 m ρ c (Proc.devRef .tc Cert.KernelIdeal.main_v174) = Cert.ReferenceIdeal.Segs.U19 m' c (Proc.devRef .tc Cert.ReferenceIdeal.main_v198) := by
  show StableHlo.after Cert.KernelIdeal.Gen.hostOps10 (Cert.KernelIdeal.Gen.W22 m ρ c) (Proc.devRef .tc Cert.KernelIdeal.main_v174)
     = StableHlo.after Cert.ReferenceIdeal.Segs.seg18 (Cert.ReferenceIdeal.Segs.U18 m' c) (Proc.devRef .tc Cert.ReferenceIdeal.main_v198)
  after_results_simp
  simp only [h_arg3, h_arg4]
  try rfl

/-- The two programs run the same host operations on buffers that agree: the result buffers agree. Here: `v188` of the kernel against `v212` of the reference. -/
theorem gcn3_v188
    (h_v3 : Cert.KernelIdeal.Gen.W24 m ρ c (Proc.devRef .tc Cert.KernelIdeal.main_v3) = Cert.ReferenceIdeal.Segs.U20 m' c (Proc.devRef .tc Cert.ReferenceIdeal.main_v3))
    (h_v6 : Cert.KernelIdeal.Gen.W24 m ρ c (Proc.devRef .tc Cert.KernelIdeal.main_v6) = Cert.ReferenceIdeal.Segs.U20 m' c (Proc.devRef .tc Cert.ReferenceIdeal.main_v6))
    (h_v29 : Cert.KernelIdeal.Gen.W24 m ρ c (Proc.devRef .tc Cert.KernelIdeal.main_v29) = Cert.ReferenceIdeal.Segs.U20 m' c (Proc.devRef .tc Cert.ReferenceIdeal.main_v29))
    (h_v175 : Cert.KernelIdeal.Gen.W24 m ρ c (Proc.devRef .tc Cert.KernelIdeal.main_v175) = Cert.ReferenceIdeal.Segs.U20 m' c (Proc.devRef .tc Cert.ReferenceIdeal.main_v199)) :
    Cert.KernelIdeal.Gen.W25 m ρ c (Proc.devRef .tc Cert.KernelIdeal.main_v188) = Cert.ReferenceIdeal.Segs.U21 m' c (Proc.devRef .tc Cert.ReferenceIdeal.main_v212) := by
  show StableHlo.after Cert.KernelIdeal.Gen.hostOps11 (Cert.KernelIdeal.Gen.W24 m ρ c) (Proc.devRef .tc Cert.KernelIdeal.main_v188)
     = StableHlo.after Cert.ReferenceIdeal.Segs.seg20 (Cert.ReferenceIdeal.Segs.U20 m' c) (Proc.devRef .tc Cert.ReferenceIdeal.main_v212)
  after_results_simp
  simp only [h_v3, h_v6, h_v29, h_v175]
  try rfl

/-- The kernel recasts the 64-entry vector `v174` as the 1×64 row `v189`: entry `(0, j)` is the vector's entry `j`. -/
theorem gcn3_row_v189 (j : Fin 64) :
    (Cert.KernelIdeal.Gen.W25 m ρ c (Proc.devRef .tc Cert.KernelIdeal.main_v189)) (ix2 0 j) = (Cert.KernelIdeal.Gen.W24 m ρ c (Proc.devRef .tc Cert.KernelIdeal.main_v174)) (ix1 j) := by
  show (StableHlo.after Cert.KernelIdeal.Gen.hostOps11 (Cert.KernelIdeal.Gen.W24 m ρ c) (Proc.devRef .tc Cert.KernelIdeal.main_v189)) (ix2 0 j) = _
  after_results_simp
  exact Cert.RowLayout.shapeCast_row _ _ j

end Cert.Sim

end
-- ==== Proof.SimHostC.lean ====
/-
  The stretches of host operations that the two programs share. Between two regions the idealized kernel runs the
  same host operations as the reference does between the corresponding points (index normalisation, gather of the
  transformed rows, scaling by the per-edge coefficient, scatter-add into the target rows; slices of the parameter
  arrays): from buffers that agree, the buffers written agree. Where the kernel recasts a 64-entry vector as a 1×64
  row for its next region, the row's entries are the vector's. Along the way every entry of the reference's float
  buffers is a real number.
-/
import proofs.«168298_j84988812853302_1_alg».proof.Proof.Gen.KernelIdeal.Frame
import proofs.«168298_j84988812853302_1_alg».proof.Proof.RefSegs
import proofs.«168298_j84988812853302_1_alg».proof.Proof.RowOps
import proofs.«168298_j84988812853302_1_alg».proof.Proof.RowLayout
import proofs.«168298_j84988812853302_1_alg».proof.Proof.LibFinite

import Idealize.ShloMosaic.Lib.StableHlo.Run
import Idealize.ShloMosaic.PureOps.Ideal

set_option maxRecDepth 16384
set_option maxHeartbeats 16000000

noncomputable section

namespace Cert.Sim

open Idealize.ShloMosaic Idealize.ShloMosaic.TcCoe Idealize.SL.Sem Idealize.ShloMosaic.StableHlo
open Idealize.ShloMosaic.ValueIdx Cert.RowOps Cert.LibFinite

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- Both programs slice the same layer's weights and bias out of the same argument arrays. Here: `v192` of the kernel against `v218` of the reference. -/
theorem slice4_v192
    (h_arg3 : Cert.KernelIdeal.Gen.W26 m ρ c (Proc.devRef .tc Cert.KernelIdeal.main_arg3) = Cert.ReferenceIdeal.Segs.U22 m' c (Proc.devRef .tc Cert.ReferenceIdeal.main_arg3))
    (h_arg4 : Cert.KernelIdeal.Gen.W26 m ρ c (Proc.devRef .tc Cert.KernelIdeal.main_arg4) = Cert.ReferenceIdeal.Segs.U22 m' c (Proc.devRef .tc Cert.ReferenceIdeal.main_arg4)) :
    Cert.KernelIdeal.Gen.W27 m ρ c (Proc.devRef .tc Cert.KernelIdeal.main_v192) = Cert.ReferenceIdeal.Segs.U23 m' c (Proc.devRef .tc Cert.ReferenceIdeal.main_v218) := by
  show StableHlo.after Cert.KernelIdeal.Gen.hostOps12 (Cert.KernelIdeal.Gen.W26 m ρ c) (Proc.devRef .tc Cert.KernelIdeal.main_v192)
     = StableHlo.after Cert.ReferenceIdeal.Segs.seg22 (Cert.ReferenceIdeal.Segs.U22 m' c) (Proc.devRef .tc Cert.ReferenceIdeal.main_v218)
  after_results_simp
  simp only [h_arg3, h_arg4]
  try rfl

/-- Both programs slice the same layer's weights and bias out of the same argument arrays. Here: `v194` of the kernel against `v220` of the reference. -/
theorem slice4_v194
    (h_arg3 : Cert.KernelIdeal.Gen.W26 m ρ c (Proc.devRef .tc Cert.KernelIdeal.main_arg3) = Cert.ReferenceIdeal.Segs.U22 m' c (Proc.devRef .tc Cert.ReferenceIdeal.main_arg3))
    (h_arg4 : Cert.KernelIdeal.Gen.W26 m ρ c (Proc.devRef .tc Cert.KernelIdeal.main_arg4) = Cert.ReferenceIdeal.Segs.U22 m' c (Proc.devRef .tc Cert.ReferenceIdeal.main_arg4)) :
    Cert.KernelIdeal.Gen.W27 m ρ c (Proc.devRef .tc Cert.KernelIdeal.main_v194) = Cert.ReferenceIdeal.Segs.U23 m' c (Proc.devRef .tc Cert.ReferenceIdeal.main_v220) := by
  show StableHlo.after Cert.KernelIdeal.Gen.hostOps12 (Cert.KernelIdeal.Gen.W26 m ρ c) (Proc.devRef .tc Cert.KernelIdeal.main_v194)
     = StableHlo.after Cert.ReferenceIdeal.Segs.seg22 (Cert.ReferenceIdeal.Segs.U22 m' c) (Proc.devRef .tc Cert.ReferenceIdeal.main_v220)
  after_results_simp
  simp only [h_arg3, h_arg4]
  try rfl

/-- The two programs run the same host operations on buffers that agree: the result buffers agree. Here: `v208` of the kernel against `v234` of the reference. -/
theorem gcn4_v208
    (h_v3 : Cert.KernelIdeal.Gen.W28 m ρ c (Proc.devRef .tc Cert.KernelIdeal.main_v3) = Cert.ReferenceIdeal.Segs.U24 m' c (Proc.devRef .tc Cert.ReferenceIdeal.main_v3))
    (h_v6 : Cert.KernelIdeal.Gen.W28 m ρ c (Proc.devRef .tc Cert.KernelIdeal.main_v6) = Cert.ReferenceIdeal.Segs.U24 m' c (Proc.devRef .tc Cert.ReferenceIdeal.main_v6))
    (h_v29 : Cert.KernelIdeal.Gen.W28 m ρ c (Proc.devRef .tc Cert.KernelIdeal.main_v29) = Cert.ReferenceIdeal.Segs.U24 m' c (Proc.devRef .tc Cert.ReferenceIdeal.main_v29))
    (h_v195 : Cert.KernelIdeal.Gen.W28 m ρ c (Proc.devRef .tc Cert.KernelIdeal.main_v195) = Cert.ReferenceIdeal.Segs.U24 m' c (Proc.devRef .tc Cert.ReferenceIdeal.main_v221)) :
    Cert.KernelIdeal.Gen.W29 m ρ c (Proc.devRef .tc Cert.KernelIdeal.main_v208) = Cert.ReferenceIdeal.Segs.U25 m' c (Proc.devRef .tc Cert.ReferenceIdeal.main_v234) := by
  show StableHlo.after Cert.KernelIdeal.Gen.hostOps13 (Cert.KernelIdeal.Gen.W28 m ρ c) (Proc.devRef .tc Cert.KernelIdeal.main_v208)
     = StableHlo.after Cert.ReferenceIdeal.Segs.seg24 (Cert.ReferenceIdeal.Segs.U24 m' c) (Proc.devRef .tc Cert.ReferenceIdeal.main_v234)
  after_results_simp
  simp only [h_v3, h_v6, h_v29, h_v195]
  try rfl

/-- The kernel recasts the 64-entry vector `v194` as the 1×64 row `v209`: entry `(0, j)` is the vector's entry `j`. -/
theorem gcn4_row_v209 (j : Fin 64) :
    (Cert.KernelIdeal.Gen.W29 m ρ c (Proc.devRef .tc Cert.KernelIdeal.main_v209)) (ix2 0 j) = (Cert.KernelIdeal.Gen.W28 m ρ c (Proc.devRef .tc Cert.KernelIdeal.main_v194)) (ix1 j) := by
  show (StableHlo.after Cert.KernelIdeal.Gen.hostOps13 (Cert.KernelIdeal.Gen.W28 m ρ c) (Proc.devRef .tc Cert.KernelIdeal.main_v209)) (ix2 0 j) = _
  after_results_simp
  exact Cert.RowLayout.shapeCast_row _ _ j

end Cert.Sim

end
-- ==== Proof.RowForms.lean ====
/-
  The reference's operator trees on arrays of n rows and 64 columns, read at the ideal values, are the row-wise
  operations: the host's product with a 64×64 matrix is every row times the matrix; adding a bias vector broadcast to
  every row is adding one row; the maximum with a broadcast zero is the positive part; and, over real numbers, the
  normalisation gamma * (H - mu) * s + beta with its four vectors broadcast to every row is one scale and one shift
  per column, gamma * s and beta - gamma * mu * s. The last needs every entry to be a real number: at an infinity
  the two sides differ.
-/
import proofs.«168298_j84988812853302_1_alg».proof.ReferenceIdeal
import proofs.«168298_j84988812853302_1_alg».proof.Proof.RowOps
import proofs.«168298_j84988812853302_1_alg».proof.Proof.LibFinite
import Idealize.ShloMosaic.Lib.Pipeline.Value
import Idealize.ShloMosaic.Lib.ValueIdx
import Idealize.ShloMosaic.Lib.IdealHost
import Idealize.ShloMosaic.PureOps.Ideal.Laws

namespace Cert.RowForms

open Idealize.ShloMosaic Idealize.ShloMosaic.ValueIdx Cert.ReferenceIdeal Cert.RowOps Cert.LibFinite
open scoped BigOperators

/-- Every index of a two-axis shape is the pair of its coordinates, as variables of the literal coordinate types. -/
theorem exists_ix2 {n0 n1 : Nat} (i : (⟨2, ![n0, n1]⟩ : Shape).Idx) : ∃ (r : Fin n0) (j : Fin n1), i = ix2 r j :=
  ⟨i 0, i 1, eq_ix2 i⟩

/-! ## Arrays of 100000 rows -/

section Rows100000

/-! ### The matrix product -/

section Dot
variable [Facts₀]

/-- The left operand's row coordinate in the 100000×64 by 64×64 product is the result's. -/
theorem lhsIdx_100000_row (i : S100000x64.Idx) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch from List.not_mem_nil),
    dif_pos (show (0 : Fin S100000x64.rank) ∈ dot_S100000x64_S64x64_S100000x64_1_0_0_1_n_n.lhsNonContracting from List.mem_singleton.2 rfl)]
  rfl

/-- The left operand's column coordinate is the contraction position. -/
theorem lhsIdx_100000_col (i : S100000x64.Idx) (q : dot_S100000x64_S64x64_S100000x64_1_0_0_1_n_n.contr.Idx) :
    (dot_S100000x64_S64x64_S100000x64_1_0_0_1_n_n.lhsIdx i q 1).val = (q ⟨0, Nat.one_pos⟩).val :=
  dot_S100000x64_S64x64_S100000x64_1_0_0_1_n_n.lhsIdx_val_of_single rfl i q

/-- The right operand's row coordinate is the contraction position. -/
theorem rhsIdx_100000_row (i : S100000x64.Idx) (q : dot_S100000x64_S64x64_S100000x64_1_0_0_1_n_n.contr.Idx) :
    (dot_S100000x64_S64x64_S100000x64_1_0_0_1_n_n.rhsIdx i q 0).val = (q ⟨0, Nat.one_pos⟩).val :=
  dot_S100000x64_S64x64_S100000x64_1_0_0_1_n_n.rhsIdx_val_of_single rfl i q

/-- The right operand's column coordinate is the result's. -/
theorem rhsIdx_100000_col (i : S100000x64.Idx) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch from List.not_mem_nil),
    dif_pos (show (1 : Fin S64x64.rank) ∈ dot_S100000x64_S64x64_S100000x64_1_0_0_1_n_n.rhsNonContracting from List.mem_singleton.2 rfl)]
  rfl

/-- The host's product of a 100000×64 array with a 64×64 matrix, at the ideal values, is every row times the matrix. -/
theorem dotGeneral_100000_eq_rowsMul (X : Rows 100000) (Wm : Rows 64) :
    Host.dotGeneral (F := Ideal) (φ₁ := .f32) (φ₂ := .f32) dot_S100000x64_S64x64_S100000x64_1_0_0_1_n_n none X Wm = rowsMul X Wm := by
  funext i
  obtain ⟨r, j, rfl⟩ := exists_ix2 i
  show FloatOps.dotGeneral (F := Ideal) (φ₁ := .f32) (φ₂ := .f32) dot_S100000x64_S64x64_S100000x64_1_0_0_1_n_n none .single X Wm (ix2 r j)
    = ∑ k : Fin 64, X (ix2 r k) * Wm (ix2 k j)
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 r j) ((contrEquiv1 dot_S100000x64_S64x64_S100000x64_1_0_0_1_n_n 64 rfl rfl).symm k) = ix2 r k := funext fun a => Fin.ext (by
    match a with
    | ⟨0, _⟩ => exact lhsIdx_100000_row _ _
    | ⟨1, _⟩ => exact (lhsIdx_100000_col _ _).trans hk)
  have er : dot_S100000x64_S64x64_S100000x64_1_0_0_1_n_n.rhsIdx (ix2 r j) ((contrEquiv1 dot_S100000x64_S64x64_S100000x64_1_0_0_1_n_n 64 rfl rfl).symm k) = ix2 k j := funext fun a => Fin.ext (by
    match a with
    | ⟨0, _⟩ => exact (rhsIdx_100000_row _ _).trans hk
    | ⟨1, _⟩ => exact rhsIdx_100000_col _ _)
  exact congrArg₂ (fun a b => X a * Wm b) el er

end Dot

/-! ### A vector of 64 entries broadcast to every row, and the zero array -/

/-- A vector of 64 entries, broadcast to one row and then to 100000 rows, reads the vector at the column. -/
theorem bcRow_100000_apply {h1 : S64.BroadcastsInDim S1x64 ![1]} {h2 : S1x64.BroadcastsInDim S100000x64 ![0, 1]}
    (v : S64.Idx → EReal) (r : Fin 100000) (j : Fin 64) :
    broadcastInDim S100000x64 ![0, 1] h2 (broadcastInDim S1x64 ![1] h1 v) (ix2 r j) = v (ix1 j) :=
  (broadcastInDim_apply ![0, 1] h2 (broadcastInDim S1x64 ![1] h1 v) (ix2 r j) (ix2 0 j) (fun a => match a with
      | ⟨0, _⟩ => by show 0 = if (1 : Nat) = 1 then 0 else r.val; rw [if_pos rfl]
      | ⟨1, _⟩ => by show j.val = if (64 : Nat) = 1 then 0 else j.val; rw [if_neg (by decide)])).trans
    (broadcastInDim_apply ![1] h1 v (ix2 0 j) (ix1 j) (fun a => match a with
      | ⟨0, _⟩ => by show j.val = if (64 : Nat) = 1 then 0 else j.val; rw [if_neg (by decide)]))

/-- The zero constant broadcast to 100000 rows reads zero. -/
theorem bcZero_100000_apply {h0 : S_.BroadcastsInDim S100000x64 ![]} (i : S100000x64.Idx) :
    broadcastInDim S100000x64 ![] h0 (constant (F := Ideal) S_ .f32 0x00000000#32) i = 0 :=
  (broadcastInDim_scalar_apply h0 _ i).trans Ideal.ofBits_zero_f32

/-! ### Bias and rectifier -/

/-- Adding a broadcast bias vector is adding one row to every row. -/
theorem addf_bias_100000 {h1 : S64.BroadcastsInDim S1x64 ![1]} {h2 : S1x64.BroadcastsInDim S100000x64 ![0, 1]}
    (A : Rows 100000) (bv : S64.Idx → EReal) (b : Rows 1) (hb : ∀ j : Fin 64, b (ix2 0 j) = bv (ix1 j)) :
    addf (F := Ideal) (φ := .f32) A (broadcastInDim S100000x64 ![0, 1] h2 (broadcastInDim S1x64 ![1] h1 bv))
      = addRow A b := by
  funext i
  obtain ⟨r, j, rfl⟩ := exists_ix2 i
  show A (ix2 r j) + broadcastInDim S100000x64 ![0, 1] h2 (broadcastInDim S1x64 ![1] h1 bv) (ix2 r j)
    = A (ix2 r j) + b (ix2 0 j)
  rw [bcRow_100000_apply, hb]

/-- The maximum with the broadcast zero constant is the positive part. -/
theorem maximumf_zero_100000 {h0 : S_.BroadcastsInDim S100000x64 ![]} (Y : Rows 100000) :
    maximumf (F := Ideal) (φ := .f32) Y (broadcastInDim S100000x64 ![] h0 (constant (F := Ideal) S_ .f32 0x00000000#32))
      = RowOps.posPart Y := by
  funext i
  show max (Y i) (broadcastInDim S100000x64 ![] h0 (constant (F := Ideal) S_ .f32 0x00000000#32) i) = max (Y i) 0
  rw [bcZero_100000_apply]

/-- Bias then rectifier: the positive part of every row plus the bias row. -/
theorem relu_bias_100000 {h0 : S_.BroadcastsInDim S100000x64 ![]} {h1 : S64.BroadcastsInDim S1x64 ![1]}
    {h2 : S1x64.BroadcastsInDim S100000x64 ![0, 1]}
    (A : Rows 100000) (bv : S64.Idx → EReal) (b : Rows 1) (hb : ∀ j : Fin 64, b (ix2 0 j) = bv (ix1 j)) :
    maximumf (F := Ideal) (φ := .f32)
        (addf (F := Ideal) (φ := .f32) A (broadcastInDim S100000x64 ![0, 1] h2 (broadcastInDim S1x64 ![1] h1 bv)))
        (broadcastInDim S100000x64 ![] h0 (constant (F := Ideal) S_ .f32 0x00000000#32))
      = RowOps.posPart (addRow A b) := by
  rw [addf_bias_100000 A bv b hb, maximumf_zero_100000]

/-! ### The normalisation: scale the centred value, shift, rectify -/

/-- Over real numbers, gamma * (H - mu) * s + beta with the four vectors broadcast to every row is one scale and
    one shift per column. -/
theorem scale_shift_100000 {h1 : S64.BroadcastsInDim S1x64 ![1]} {h2 : S1x64.BroadcastsInDim S100000x64 ![0, 1]}
    (H : Rows 100000) (μ s γ β : S64.Idx → EReal) (hH : AllReal H) (hμ : AllReal μ) (hs : AllReal s)
    (hγ : AllReal γ) (hβ : AllReal β) (sc sh : Rows 1)
    (hsc : ∀ j : Fin 64, sc (ix2 0 j) = γ (ix1 j) * s (ix1 j))
    (hsh : ∀ j : Fin 64, sh (ix2 0 j) = β (ix1 j) - γ (ix1 j) * μ (ix1 j) * s (ix1 j)) :
    addf (F := Ideal) (φ := .f32)
        (mulf (F := Ideal) (φ := .f32)
          (mulf (F := Ideal) (φ := .f32) (broadcastInDim S100000x64 ![0, 1] h2 (broadcastInDim S1x64 ![1] h1 γ))
            (subf (F := Ideal) (φ := .f32) H (broadcastInDim S100000x64 ![0, 1] h2 (broadcastInDim S1x64 ![1] h1 μ))))
          (broadcastInDim S100000x64 ![0, 1] h2 (broadcastInDim S1x64 ![1] h1 s)))
        (broadcastInDim S100000x64 ![0, 1] h2 (broadcastInDim S1x64 ![1] h1 β))
      = scaleShift H sc sh := by
  funext i
  obtain ⟨r, j, rfl⟩ := exists_ix2 i
  show broadcastInDim S100000x64 ![0, 1] h2 (broadcastInDim S1x64 ![1] h1 γ) (ix2 r j)
        * (H (ix2 r j) - broadcastInDim S100000x64 ![0, 1] h2 (broadcastInDim S1x64 ![1] h1 μ) (ix2 r j))
        * broadcastInDim S100000x64 ![0, 1] h2 (broadcastInDim S1x64 ![1] h1 s) (ix2 r j)
      + broadcastInDim S100000x64 ![0, 1] h2 (broadcastInDim S1x64 ![1] h1 β) (ix2 r j)
    = H (ix2 r j) * sc (ix2 0 j) + sh (ix2 0 j)
  rw [bcRow_100000_apply, bcRow_100000_apply, bcRow_100000_apply, bcRow_100000_apply, hsc, hsh]
  exact scale_shift_eq (hγ _) (hH _) (hμ _) (hs _) (hβ _)

/-- The normalisation followed by the rectifier is the positive part of the scale and shift. -/
theorem relu_scale_shift_100000 {h0 : S_.BroadcastsInDim S100000x64 ![]} {h1 : S64.BroadcastsInDim S1x64 ![1]}
    {h2 : S1x64.BroadcastsInDim S100000x64 ![0, 1]}
    (H : Rows 100000) (μ s γ β : S64.Idx → EReal) (hH : AllReal H) (hμ : AllReal μ) (hs : AllReal s)
    (hγ : AllReal γ) (hβ : AllReal β) (sc sh : Rows 1)
    (hsc : ∀ j : Fin 64, sc (ix2 0 j) = γ (ix1 j) * s (ix1 j))
    (hsh : ∀ j : Fin 64, sh (ix2 0 j) = β (ix1 j) - γ (ix1 j) * μ (ix1 j) * s (ix1 j)) :
    maximumf (F := Ideal) (φ := .f32)
        (addf (F := Ideal) (φ := .f32)
          (mulf (F := Ideal) (φ := .f32)
            (mulf (F := Ideal) (φ := .f32) (broadcastInDim S100000x64 ![0, 1] h2 (broadcastInDim S1x64 ![1] h1 γ))
              (subf (F := Ideal) (φ := .f32) H (broadcastInDim S100000x64 ![0, 1] h2 (broadcastInDim S1x64 ![1] h1 μ))))
            (broadcastInDim S100000x64 ![0, 1] h2 (broadcastInDim S1x64 ![1] h1 s)))
          (broadcastInDim S100000x64 ![0, 1] h2 (broadcastInDim S1x64 ![1] h1 β)))
        (broadcastInDim S100000x64 ![] h0 (constant (F := Ideal) S_ .f32 0x00000000#32))
      = RowOps.posPart (scaleShift H sc sh) := by
  rw [scale_shift_100000 H μ s γ β hH hμ hs hγ hβ sc sh hsc hsh, maximumf_zero_100000]

end Rows100000

/-! ## Arrays of 25000 rows -/

section Rows25000

/-! ### The matrix product -/

section Dot
variable [Facts₀]

/-- The left operand's row coordinate in the 25000×64 by 64×64 product is the result's. -/
theorem lhsIdx_25000_row (i : S25000x64.Idx) (q : dot_S25000x64_S64x64_S25000x64_1_0_0_1_n_n.contr.Idx) : (dot_S25000x64_S64x64_S25000x64_1_0_0_1_n_n.lhsIdx i q 0).val = (i 0).val := by
  unfold DotDims.lhsIdx
  rw [dif_neg (show ¬(0 : Fin S25000x64.rank) ∈ dot_S25000x64_S64x64_S25000x64_1_0_0_1_n_n.lhsBatch from List.not_mem_nil),
    dif_pos (show (0 : Fin S25000x64.rank) ∈ dot_S25000x64_S64x64_S25000x64_1_0_0_1_n_n.lhsNonContracting from List.mem_singleton.2 rfl)]
  rfl

/-- The left operand's column coordinate is the contraction position. -/
theorem lhsIdx_25000_col (i : S25000x64.Idx) (q : dot_S25000x64_S64x64_S25000x64_1_0_0_1_n_n.contr.Idx) :
    (dot_S25000x64_S64x64_S25000x64_1_0_0_1_n_n.lhsIdx i q 1).val = (q ⟨0, Nat.one_pos⟩).val :=
  dot_S25000x64_S64x64_S25000x64_1_0_0_1_n_n.lhsIdx_val_of_single rfl i q

/-- The right operand's row coordinate is the contraction position. -/
theorem rhsIdx_25000_row (i : S25000x64.Idx) (q : dot_S25000x64_S64x64_S25000x64_1_0_0_1_n_n.contr.Idx) :
    (dot_S25000x64_S64x64_S25000x64_1_0_0_1_n_n.rhsIdx i q 0).val = (q ⟨0, Nat.one_pos⟩).val :=
  dot_S25000x64_S64x64_S25000x64_1_0_0_1_n_n.rhsIdx_val_of_single rfl i q

/-- The right operand's column coordinate is the result's. -/
theorem rhsIdx_25000_col (i : S25000x64.Idx) (q : dot_S25000x64_S64x64_S25000x64_1_0_0_1_n_n.contr.Idx) : (dot_S25000x64_S64x64_S25000x64_1_0_0_1_n_n.rhsIdx i q 1).val = (i 1).val := by
  unfold DotDims.rhsIdx
  rw [dif_neg (show ¬(1 : Fin S64x64.rank) ∈ dot_S25000x64_S64x64_S25000x64_1_0_0_1_n_n.rhsBatch from List.not_mem_nil),
    dif_pos (show (1 : Fin S64x64.rank) ∈ dot_S25000x64_S64x64_S25000x64_1_0_0_1_n_n.rhsNonContracting from List.mem_singleton.2 rfl)]
  rfl

/-- The host's product of a 25000×64 array with a 64×64 matrix, at the ideal values, is every row times the matrix. -/
theorem dotGeneral_25000_eq_rowsMul (X : Rows 25000) (Wm : Rows 64) :
    Host.dotGeneral (F := Ideal) (φ₁ := .f32) (φ₂ := .f32) dot_S25000x64_S64x64_S25000x64_1_0_0_1_n_n none X Wm = rowsMul X Wm := by
  funext i
  obtain ⟨r, j, rfl⟩ := exists_ix2 i
  show FloatOps.dotGeneral (F := Ideal) (φ₁ := .f32) (φ₂ := .f32) dot_S25000x64_S64x64_S25000x64_1_0_0_1_n_n none .single X Wm (ix2 r j)
    = ∑ k : Fin 64, X (ix2 r k) * Wm (ix2 k j)
  rw [Ideal.dotGeneral_apply, ← Equiv.sum_comp (contrEquiv1 dot_S25000x64_S64x64_S25000x64_1_0_0_1_n_n 64 rfl rfl).symm]
  refine Finset.sum_congr rfl fun k _ => ?_
  have hk := contrEquiv1_symm_val dot_S25000x64_S64x64_S25000x64_1_0_0_1_n_n 64 rfl rfl k
  have el : dot_S25000x64_S64x64_S25000x64_1_0_0_1_n_n.lhsIdx (ix2 r j) ((contrEquiv1 dot_S25000x64_S64x64_S25000x64_1_0_0_1_n_n 64 rfl rfl).symm k) = ix2 r k := funext fun a => Fin.ext (by
    match a with
    | ⟨0, _⟩ => exact lhsIdx_25000_row _ _
    | ⟨1, _⟩ => exact (lhsIdx_25000_col _ _).trans hk)
  have er : dot_S25000x64_S64x64_S25000x64_1_0_0_1_n_n.rhsIdx (ix2 r j) ((contrEquiv1 dot_S25000x64_S64x64_S25000x64_1_0_0_1_n_n 64 rfl rfl).symm k) = ix2 k j := funext fun a => Fin.ext (by
    match a with
    | ⟨0, _⟩ => exact (rhsIdx_25000_row _ _).trans hk
    | ⟨1, _⟩ => exact rhsIdx_25000_col _ _)
  exact congrArg₂ (fun a b => X a * Wm b) el er

end Dot

/-! ### A vector of 64 entries broadcast to every row, and the zero array -/

/-- A vector of 64 entries, broadcast to one row and then to 25000 rows, reads the vector at the column. -/
theorem bcRow_25000_apply {h1 : S64.BroadcastsInDim S1x64 ![1]} {h2 : S1x64.BroadcastsInDim S25000x64 ![0, 1]}
    (v : S64.Idx → EReal) (r : Fin 25000) (j : Fin 64) :
    broadcastInDim S25000x64 ![0, 1] h2 (broadcastInDim S1x64 ![1] h1 v) (ix2 r j) = v (ix1 j) :=
  (broadcastInDim_apply ![0, 1] h2 (broadcastInDim S1x64 ![1] h1 v) (ix2 r j) (ix2 0 j) (fun a => match a with
      | ⟨0, _⟩ => by show 0 = if (1 : Nat) = 1 then 0 else r.val; rw [if_pos rfl]
      | ⟨1, _⟩ => by show j.val = if (64 : Nat) = 1 then 0 else j.val; rw [if_neg (by decide)])).trans
    (broadcastInDim_apply ![1] h1 v (ix2 0 j) (ix1 j) (fun a => match a with
      | ⟨0, _⟩ => by show j.val = if (64 : Nat) = 1 then 0 else j.val; rw [if_neg (by decide)]))

/-- The zero constant broadcast to 25000 rows reads zero. -/
theorem bcZero_25000_apply {h0 : S_.BroadcastsInDim S25000x64 ![]} (i : S25000x64.Idx) :
    broadcastInDim S25000x64 ![] h0 (constant (F := Ideal) S_ .f32 0x00000000#32) i = 0 :=
  (broadcastInDim_scalar_apply h0 _ i).trans Ideal.ofBits_zero_f32

/-! ### Bias and rectifier -/

/-- Adding a broadcast bias vector is adding one row to every row. -/
theorem addf_bias_25000 {h1 : S64.BroadcastsInDim S1x64 ![1]} {h2 : S1x64.BroadcastsInDim S25000x64 ![0, 1]}
    (A : Rows 25000) (bv : S64.Idx → EReal) (b : Rows 1) (hb : ∀ j : Fin 64, b (ix2 0 j) = bv (ix1 j)) :
    addf (F := Ideal) (φ := .f32) A (broadcastInDim S25000x64 ![0, 1] h2 (broadcastInDim S1x64 ![1] h1 bv))
      = addRow A b := by
  funext i
  obtain ⟨r, j, rfl⟩ := exists_ix2 i
  show A (ix2 r j) + broadcastInDim S25000x64 ![0, 1] h2 (broadcastInDim S1x64 ![1] h1 bv) (ix2 r j)
    = A (ix2 r j) + b (ix2 0 j)
  rw [bcRow_25000_apply, hb]

/-- The maximum with the broadcast zero constant is the positive part. -/
theorem maximumf_zero_25000 {h0 : S_.BroadcastsInDim S25000x64 ![]} (Y : Rows 25000) :
    maximumf (F := Ideal) (φ := .f32) Y (broadcastInDim S25000x64 ![] h0 (constant (F := Ideal) S_ .f32 0x00000000#32))
      = RowOps.posPart Y := by
  funext i
  show max (Y i) (broadcastInDim S25000x64 ![] h0 (constant (F := Ideal) S_ .f32 0x00000000#32) i) = max (Y i) 0
  rw [bcZero_25000_apply]

/-- Bias then rectifier: the positive part of every row plus the bias row. -/
theorem relu_bias_25000 {h0 : S_.BroadcastsInDim S25000x64 ![]} {h1 : S64.BroadcastsInDim S1x64 ![1]}
    {h2 : S1x64.BroadcastsInDim S25000x64 ![0, 1]}
    (A : Rows 25000) (bv : S64.Idx → EReal) (b : Rows 1) (hb : ∀ j : Fin 64, b (ix2 0 j) = bv (ix1 j)) :
    maximumf (F := Ideal) (φ := .f32)
        (addf (F := Ideal) (φ := .f32) A (broadcastInDim S25000x64 ![0, 1] h2 (broadcastInDim S1x64 ![1] h1 bv)))
        (broadcastInDim S25000x64 ![] h0 (constant (F := Ideal) S_ .f32 0x00000000#32))
      = RowOps.posPart (addRow A b) := by
  rw [addf_bias_25000 A bv b hb, maximumf_zero_25000]

/-! ### The normalisation: scale the centred value, shift, rectify -/

/-- Over real numbers, gamma * (H - mu) * s + beta with the four vectors broadcast to every row is one scale and
    one shift per column. -/
theorem scale_shift_25000 {h1 : S64.BroadcastsInDim S1x64 ![1]} {h2 : S1x64.BroadcastsInDim S25000x64 ![0, 1]}
    (H : Rows 25000) (μ s γ β : S64.Idx → EReal) (hH : AllReal H) (hμ : AllReal μ) (hs : AllReal s)
    (hγ : AllReal γ) (hβ : AllReal β) (sc sh : Rows 1)
    (hsc : ∀ j : Fin 64, sc (ix2 0 j) = γ (ix1 j) * s (ix1 j))
    (hsh : ∀ j : Fin 64, sh (ix2 0 j) = β (ix1 j) - γ (ix1 j) * μ (ix1 j) * s (ix1 j)) :
    addf (F := Ideal) (φ := .f32)
        (mulf (F := Ideal) (φ := .f32)
          (mulf (F := Ideal) (φ := .f32) (broadcastInDim S25000x64 ![0, 1] h2 (broadcastInDim S1x64 ![1] h1 γ))
            (subf (F := Ideal) (φ := .f32) H (broadcastInDim S25000x64 ![0, 1] h2 (broadcastInDim S1x64 ![1] h1 μ))))
          (broadcastInDim S25000x64 ![0, 1] h2 (broadcastInDim S1x64 ![1] h1 s)))
        (broadcastInDim S25000x64 ![0, 1] h2 (broadcastInDim S1x64 ![1] h1 β))
      = scaleShift H sc sh := by
  funext i
  obtain ⟨r, j, rfl⟩ := exists_ix2 i
  show broadcastInDim S25000x64 ![0, 1] h2 (broadcastInDim S1x64 ![1] h1 γ) (ix2 r j)
        * (H (ix2 r j) - broadcastInDim S25000x64 ![0, 1] h2 (broadcastInDim S1x64 ![1] h1 μ) (ix2 r j))
        * broadcastInDim S25000x64 ![0, 1] h2 (broadcastInDim S1x64 ![1] h1 s) (ix2 r j)
      + broadcastInDim S25000x64 ![0, 1] h2 (broadcastInDim S1x64 ![1] h1 β) (ix2 r j)
    = H (ix2 r j) * sc (ix2 0 j) + sh (ix2 0 j)
  rw [bcRow_25000_apply, bcRow_25000_apply, bcRow_25000_apply, bcRow_25000_apply, hsc, hsh]
  exact scale_shift_eq (hγ _) (hH _) (hμ _) (hs _) (hβ _)

/-- The normalisation followed by the rectifier is the positive part of the scale and shift. -/
theorem relu_scale_shift_25000 {h0 : S_.BroadcastsInDim S25000x64 ![]} {h1 : S64.BroadcastsInDim S1x64 ![1]}
    {h2 : S1x64.BroadcastsInDim S25000x64 ![0, 1]}
    (H : Rows 25000) (μ s γ β : S64.Idx → EReal) (hH : AllReal H) (hμ : AllReal μ) (hs : AllReal s)
    (hγ : AllReal γ) (hβ : AllReal β) (sc sh : Rows 1)
    (hsc : ∀ j : Fin 64, sc (ix2 0 j) = γ (ix1 j) * s (ix1 j))
    (hsh : ∀ j : Fin 64, sh (ix2 0 j) = β (ix1 j) - γ (ix1 j) * μ (ix1 j) * s (ix1 j)) :
    maximumf (F := Ideal) (φ := .f32)
        (addf (F := Ideal) (φ := .f32)
          (mulf (F := Ideal) (φ := .f32)
            (mulf (F := Ideal) (φ := .f32) (broadcastInDim S25000x64 ![0, 1] h2 (broadcastInDim S1x64 ![1] h1 γ))
              (subf (F := Ideal) (φ := .f32) H (broadcastInDim S25000x64 ![0, 1] h2 (broadcastInDim S1x64 ![1] h1 μ))))
            (broadcastInDim S25000x64 ![0, 1] h2 (broadcastInDim S1x64 ![1] h1 s)))
          (broadcastInDim S25000x64 ![0, 1] h2 (broadcastInDim S1x64 ![1] h1 β)))
        (broadcastInDim S25000x64 ![] h0 (constant (F := Ideal) S_ .f32 0x00000000#32))
      = RowOps.posPart (scaleShift H sc sh) := by
  rw [scale_shift_25000 H μ s γ β hH hμ hs hγ hβ sc sh hsc hsh, maximumf_zero_25000]

end Rows25000

end Cert.RowForms
-- ==== Proof.RefBiasRelu.lean ====
/-
  The reference's way of adding a bias vector to every row of an array and taking the positive part — two broadcasts,
  a sum and a maximum with the zero array — named once, for arrays of 100000 and of 25000 rows, with its reading as
  the row-wise operations and the fact that it keeps real entries real.
-/
import proofs.«168298_j84988812853302_1_alg».proof.Proof.RefSegs
import proofs.«168298_j84988812853302_1_alg».proof.Proof.RowOps
import proofs.«168298_j84988812853302_1_alg».proof.Proof.LibFinite
import proofs.«168298_j84988812853302_1_alg».proof.Proof.RowForms
import Idealize.ShloMosaic.PureOps.Ideal

set_option maxRecDepth 16384

noncomputable section

namespace Cert.Sim

open Idealize.ShloMosaic Idealize.ShloMosaic.ValueIdx Cert.RowOps Cert.LibFinite

/-- A bias vector added to every row of an array of 100000 rows, then the positive part, as the reference computes it:
    the vector broadcast to one row and then to every row, the sum, the maximum with the zero array. -/
def biasRelu100000 (A : FVec Ideal Cert.ReferenceIdeal.S100000x64 .f32) (v : FVec Ideal Cert.ReferenceIdeal.S64 .f32) : FVec Ideal Cert.ReferenceIdeal.S100000x64 .f32 :=
  maximumf
    (addf A (broadcastInDim Cert.ReferenceIdeal.S100000x64 ![0, 1] Cert.ReferenceIdeal.Gen.bcast_S1x64_S100000x64_0_1
      (broadcastInDim Cert.ReferenceIdeal.S1x64 ![1] Cert.ReferenceIdeal.Gen.bcast_S64_S1x64_1 v)))
    (broadcastInDim Cert.ReferenceIdeal.S100000x64 ![] Cert.ReferenceIdeal.Gen.bcast_S_S100000x64 (constant (F := Ideal) Cert.ReferenceIdeal.S_ .f32 0x00000000#32))

/-- It is the positive part of the array with one row added to every row, for any 1×64 row holding the vector. -/
theorem biasRelu100000_eq (A : FVec Ideal Cert.ReferenceIdeal.S100000x64 .f32) (v : FVec Ideal Cert.ReferenceIdeal.S64 .f32) (b : Rows 1)
    (hb : ∀ j : Fin 64, b (ix2 0 j) = v (ix1 j)) :
    biasRelu100000 A v = RowOps.posPart (addRow (n := 100000) A b) := by
  unfold biasRelu100000
  exact Cert.RowForms.relu_bias_100000 A v b hb

/-- Its entries are real when the array's and the vector's are. -/
theorem allReal_biasRelu100000 {A : FVec Ideal Cert.ReferenceIdeal.S100000x64 .f32} {v : FVec Ideal Cert.ReferenceIdeal.S64 .f32}
    (hA : AllReal A) (hv : AllReal v) : AllReal (biasRelu100000 A v) := by
  unfold biasRelu100000
  all_real

/-- A bias vector added to every row of an array of 25000 rows, then the positive part, as the reference computes it:
    the vector broadcast to one row and then to every row, the sum, the maximum with the zero array. -/
def biasRelu25000 (A : FVec Ideal Cert.ReferenceIdeal.S25000x64 .f32) (v : FVec Ideal Cert.ReferenceIdeal.S64 .f32) : FVec Ideal Cert.ReferenceIdeal.S25000x64 .f32 :=
  maximumf
    (addf A (broadcastInDim Cert.ReferenceIdeal.S25000x64 ![0, 1] Cert.ReferenceIdeal.Gen.bcast_S1x64_S25000x64_0_1
      (broadcastInDim Cert.ReferenceIdeal.S1x64 ![1] Cert.ReferenceIdeal.Gen.bcast_S64_S1x64_1 v)))
    (broadcastInDim Cert.ReferenceIdeal.S25000x64 ![] Cert.ReferenceIdeal.Gen.bcast_S_S25000x64 (constant (F := Ideal) Cert.ReferenceIdeal.S_ .f32 0x00000000#32))

/-- It is the positive part of the array with one row added to every row, for any 1×64 row holding the vector. -/
theorem biasRelu25000_eq (A : FVec Ideal Cert.ReferenceIdeal.S25000x64 .f32) (v : FVec Ideal Cert.ReferenceIdeal.S64 .f32) (b : Rows 1)
    (hb : ∀ j : Fin 64, b (ix2 0 j) = v (ix1 j)) :
    biasRelu25000 A v = RowOps.posPart (addRow (n := 25000) A b) := by
  unfold biasRelu25000
  exact Cert.RowForms.relu_bias_25000 A v b hb

/-- Its entries are real when the array's and the vector's are. -/
theorem allReal_biasRelu25000 {A : FVec Ideal Cert.ReferenceIdeal.S25000x64 .f32} {v : FVec Ideal Cert.ReferenceIdeal.S64 .f32}
    (hA : AllReal A) (hv : AllReal v) : AllReal (biasRelu25000 A v) := by
  unfold biasRelu25000
  all_real

end Cert.Sim

end
-- ==== Proof.MatmulAt.lean ====
/-
  A matrix product with one contracted axis, read at an index: entry (p, q) of the product of an R×64 block with a
  64×64 matrix, accumulated into the zero block, is the sum over k of x (p, k) · w (k, q). Stated for the two block
  heights the kernel uses (2000 and 1000 rows), over explicit coordinates.
-/
import proofs.«168298_j84988812853302_1_alg».proof.Proof.Gen.KernelIdeal.Skeleton
import Idealize.ShloMosaic.Lib.ValueIdx
import Idealize.ShloMosaic.PureOps.Ideal.Laws

noncomputable section

namespace Cert.KernelIdeal.BodyAt

open Cert.KernelIdeal Idealize.ShloMosaic Idealize.ShloMosaic.ValueIdx

/-- The product of a 2000×64 block with a 64×64 matrix into the zero accumulator, at (p, q). -/
theorem matmul2000_at {φ₁ φ₂ : FTy} (a : FVec Ideal S2000x64 φ₁) (b : FVec Ideal S64x64 φ₂) (p : Fin 2000) (q : Fin 64) :
    matmul dot_S2000x64_S64x64_S2000x64_1_0_0_1_n_n none a b (constant (F := Ideal) S2000x64 .f32 0x00000000#32) (ix2 p q)
      = ∑ k : Fin 64, a (ix2 p k) * b (ix2 k q) := by
  simp only [matmul]
  rw [Ideal.matmul_constant_zero_apply,
    ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q)
      ((contrEquiv1 dot_S2000x64_S64x64_S2000x64_1_0_0_1_n_n 64 rfl rfl).symm k) = ix2 p k :=
    funext fun c => Fin.ext (by
      match c with
      | ⟨0, _⟩ =>
        show (dot_S2000x64_S64x64_S2000x64_1_0_0_1_n_n.lhsIdx (ix2 p q) _ 0).val = p.val
        unfold DotDims.lhsIdx
        rw [dif_neg (show ¬(0 : Fin S2000x64.rank) ∈ dot_S2000x64_S64x64_S2000x64_1_0_0_1_n_n.lhsBatch by decide),
          dif_pos (show (0 : Fin S2000x64.rank) ∈ dot_S2000x64_S64x64_S2000x64_1_0_0_1_n_n.lhsNonContracting by decide)]
        rfl
      | ⟨1, _⟩ => exact (dot_S2000x64_S64x64_S2000x64_1_0_0_1_n_n.lhsIdx_val_of_single rfl _ _).trans hk)
  have er : dot_S2000x64_S64x64_S2000x64_1_0_0_1_n_n.rhsIdx (ix2 p q)
      ((contrEquiv1 dot_S2000x64_S64x64_S2000x64_1_0_0_1_n_n 64 rfl rfl).symm k) = ix2 k q :=
    funext fun c => Fin.ext (by
      match c with
      | ⟨0, _⟩ => exact (dot_S2000x64_S64x64_S2000x64_1_0_0_1_n_n.rhsIdx_val_of_single rfl _ _).trans hk
      | ⟨1, _⟩ =>
        show (dot_S2000x64_S64x64_S2000x64_1_0_0_1_n_n.rhsIdx (ix2 p q) _ 1).val = q.val
        unfold DotDims.rhsIdx
        rw [dif_neg (show ¬(1 : Fin S64x64.rank) ∈ dot_S2000x64_S64x64_S2000x64_1_0_0_1_n_n.rhsBatch by decide),
          dif_pos (show (1 : Fin S64x64.rank) ∈ dot_S2000x64_S64x64_S2000x64_1_0_0_1_n_n.rhsNonContracting by decide)]
        rfl)
  rw [el, er]

/-- The product of a 1000×64 block with a 64×64 matrix into the zero accumulator, at (p, q). -/
theorem matmul1000_at {φ₁ φ₂ : FTy} (a : FVec Ideal S1000x64 φ₁) (b : FVec Ideal S64x64 φ₂) (p : Fin 1000) (q : Fin 64) :
    matmul dot_S1000x64_S64x64_S1000x64_1_0_0_1_n_n none a b (constant (F := Ideal) S1000x64 .f32 0x00000000#32) (ix2 p q)
      = ∑ k : Fin 64, a (ix2 p k) * b (ix2 k q) := by
  simp only [matmul]
  rw [Ideal.matmul_constant_zero_apply,
    ← Equiv.sum_comp (contrEquiv1 dot_S1000x64_S64x64_S1000x64_1_0_0_1_n_n 64 rfl rfl).symm]
  refine Finset.sum_congr rfl fun k _ => ?_
  have hk := contrEquiv1_symm_val dot_S1000x64_S64x64_S1000x64_1_0_0_1_n_n 64 rfl rfl k
  have el : dot_S1000x64_S64x64_S1000x64_1_0_0_1_n_n.lhsIdx (ix2 p q)
      ((contrEquiv1 dot_S1000x64_S64x64_S1000x64_1_0_0_1_n_n 64 rfl rfl).symm k) = ix2 p k :=
    funext fun c => Fin.ext (by
      match c with
      | ⟨0, _⟩ =>
        show (dot_S1000x64_S64x64_S1000x64_1_0_0_1_n_n.lhsIdx (ix2 p q) _ 0).val = p.val
        unfold DotDims.lhsIdx
        rw [dif_neg (show ¬(0 : Fin S1000x64.rank) ∈ dot_S1000x64_S64x64_S1000x64_1_0_0_1_n_n.lhsBatch by decide),
          dif_pos (show (0 : Fin S1000x64.rank) ∈ dot_S1000x64_S64x64_S1000x64_1_0_0_1_n_n.lhsNonContracting by decide)]
        rfl
      | ⟨1, _⟩ => exact (dot_S1000x64_S64x64_S1000x64_1_0_0_1_n_n.lhsIdx_val_of_single rfl _ _).trans hk)
  have er : dot_S1000x64_S64x64_S1000x64_1_0_0_1_n_n.rhsIdx (ix2 p q)
      ((contrEquiv1 dot_S1000x64_S64x64_S1000x64_1_0_0_1_n_n 64 rfl rfl).symm k) = ix2 k q :=
    funext fun c => Fin.ext (by
      match c with
      | ⟨0, _⟩ => exact (dot_S1000x64_S64x64_S1000x64_1_0_0_1_n_n.rhsIdx_val_of_single rfl _ _).trans hk
      | ⟨1, _⟩ =>
        show (dot_S1000x64_S64x64_S1000x64_1_0_0_1_n_n.rhsIdx (ix2 p q) _ 1).val = q.val
        unfold DotDims.rhsIdx
        rw [dif_neg (show ¬(1 : Fin S64x64.rank) ∈ dot_S1000x64_S64x64_S1000x64_1_0_0_1_n_n.rhsBatch by decide),
          dif_pos (show (1 : Fin S64x64.rank) ∈ dot_S1000x64_S64x64_S1000x64_1_0_0_1_n_n.rhsNonContracting by decide)]
        rfl)
  rw [el, er]

end Cert.KernelIdeal.BodyAt

end
-- ==== Proof.BodyAt.lean ====
/-
  What each region's body stores, read at one entry (p, q) of its block, over the extended reals: a row-times-matrix
  sum (regions 0, 2, 8, 10, 12), an added row vector with or without the positive part (regions 1, 3, 9, 11; 13),
  the two fused (regions 4, 6), and a per-column scale and shift with the positive part (regions 5, 7).
-/
import proofs.«168298_j84988812853302_1_alg».proof.Proof.MatmulAt
import Idealize.ShloMosaic.Lib.Pipeline.Value

noncomputable section

namespace Cert.KernelIdeal.BodyAt

open Cert.KernelIdeal Idealize.ShloMosaic Idealize.ShloMosaic.ValueIdx
open Facts₀ Facts

/-- A 1×64 row vector broadcast to 2000 rows, at (p, q), is its entry (0, q). -/
theorem rowTo2000_at {α : Type} (v : S1x64.Idx → α) (p : Fin 2000) (q : Fin 64) :
    broadcastTo S2000x64 v broadcasts_S1x64_S2000x64 (ix2 p q) = v (ix2 0 q) :=
  broadcastTo_apply v broadcasts_S1x64_S2000x64 (ix2 p q) (ix2 0 q) (fun a => by
    match a with
    | ⟨0, _⟩ => rfl
    | ⟨1, _⟩ => rfl)

/-- A 1×64 row vector broadcast to 1000 rows, at (p, q), is its entry (0, q). -/
theorem rowTo1000_at {α : Type} (v : S1x64.Idx → α) (p : Fin 1000) (q : Fin 64) :
    broadcastTo S1000x64 v broadcasts_S1x64_S1000x64 (ix2 p q) = v (ix2 0 q) :=
  broadcastTo_apply v broadcasts_S1x64_S1000x64 (ix2 p q) (ix2 0 q) (fun a => by
    match a with
    | ⟨0, _⟩ => rfl
    | ⟨1, _⟩ => rfl)

/-- Region 0's stored block at (p, q): row p of the loaded block times column q of the matrix (the narrowing to
    bf16 is the identity on extended reals, the shape casts are between equal shapes). -/
theorem pay0_at (x : Vec Ideal S2000x64 .f32) (w : Vec Ideal S64x64 .f32) (p : Fin 2000) (q : Fin 64) :
    Gen.k0_pay1 (F := Ideal) x w (ix2 p q) = ∑ k : Fin 64, x (ix2 p k) * w (ix2 k q) := by
  unfold Gen.k0_pay1
  refine (matmul2000_at _ _ p q).trans ?_
  rw [shapeCast_self]
  rfl

/-- Region 2's stored block at (p, q): row p of the loaded block times column q of the matrix (the narrowing to
    bf16 is the identity on extended reals, the shape casts are between equal shapes). -/
theorem pay2_at (x : Vec Ideal S2000x64 .f32) (w : Vec Ideal S64x64 .f32) (p : Fin 2000) (q : Fin 64) :
    Gen.k2_pay1 (F := Ideal) x w (ix2 p q) = ∑ k : Fin 64, x (ix2 p k) * w (ix2 k q) := by
  unfold Gen.k2_pay1
  refine (matmul2000_at _ _ p q).trans ?_
  rw [shapeCast_self, shapeCast_self]
  rfl

/-- Region 8's stored block at (p, q): row p of the loaded block times column q of the matrix (the narrowing to
    bf16 is the identity on extended reals, the shape casts are between equal shapes). -/
theorem pay8_at (x : Vec Ideal S2000x64 .f32) (w : Vec Ideal S64x64 .f32) (p : Fin 2000) (q : Fin 64) :
    Gen.k8_pay1 (F := Ideal) x w (ix2 p q) = ∑ k : Fin 64, x (ix2 p k) * w (ix2 k q) := by
  unfold Gen.k8_pay1
  refine (matmul2000_at _ _ p q).trans ?_
  rw [shapeCast_self, shapeCast_self]
  rfl

/-- Region 10's stored block at (p, q): row p of the loaded block times column q of the matrix (the narrowing to
    bf16 is the identity on extended reals, the shape casts are between equal shapes). -/
theorem pay10_at (x : Vec Ideal S2000x64 .f32) (w : Vec Ideal S64x64 .f32) (p : Fin 2000) (q : Fin 64) :
    Gen.k10_pay1 (F := Ideal) x w (ix2 p q) = ∑ k : Fin 64, x (ix2 p k) * w (ix2 k q) := by
  unfold Gen.k10_pay1
  refine (matmul2000_at _ _ p q).trans ?_
  rw [shapeCast_self, shapeCast_self]
  rfl

/-- Region 12's stored block at (p, q): row p of the loaded block times column q of the matrix (the narrowing to
    bf16 is the identity on extended reals, the shape casts are between equal shapes). -/
theorem pay12_at (x : Vec Ideal S2000x64 .f32) (w : Vec Ideal S64x64 .f32) (p : Fin 2000) (q : Fin 64) :
    Gen.k12_pay1 (F := Ideal) x w (ix2 p q) = ∑ k : Fin 64, x (ix2 p k) * w (ix2 k q) := by
  unfold Gen.k12_pay1
  refine (matmul2000_at _ _ p q).trans ?_
  rw [shapeCast_self, shapeCast_self]
  rfl

/-- Region 1's stored block at (p, q): the loaded entry plus the row vector's entry q, then the positive part. -/
theorem pay1_at (x : Vec Ideal S2000x64 .f32) (b : Vec Ideal S1x64 .f32) (p : Fin 2000) (q : Fin 64) :
    Gen.k1_pay1 (F := Ideal) x b (ix2 p q) = max (x (ix2 p q) + b (ix2 0 q)) 0 := by
  unfold Gen.k1_pay1
  show max (shapeCast S2000x64 x shapeCasts_S2000x64_S2000x64 (ix2 p q)
      + broadcastTo S2000x64 (shapeCast S1x64 b shapeCasts_S1x64_S1x64) broadcasts_S1x64_S2000x64 (ix2 p q))
      (Ideal.ofBits .f32 0x00000000#32) = _
  rw [shapeCast_self, shapeCast_self, rowTo2000_at, Ideal.ofBits_zero_f32]

/-- Region 3's stored block at (p, q): the loaded entry plus the row vector's entry q, then the positive part. -/
theorem pay3_at (x : Vec Ideal S2000x64 .f32) (b : Vec Ideal S1x64 .f32) (p : Fin 2000) (q : Fin 64) :
    Gen.k3_pay1 (F := Ideal) x b (ix2 p q) = max (x (ix2 p q) + b (ix2 0 q)) 0 := by
  unfold Gen.k3_pay1
  show max (shapeCast S2000x64 x shapeCasts_S2000x64_S2000x64 (ix2 p q)
      + broadcastTo S2000x64 (shapeCast S1x64 b shapeCasts_S1x64_S1x64) broadcasts_S1x64_S2000x64 (ix2 p q))
      (Ideal.ofBits .f32 0x00000000#32) = _
  rw [shapeCast_self, shapeCast_self, rowTo2000_at, Ideal.ofBits_zero_f32]

/-- Region 9's stored block at (p, q): the loaded entry plus the row vector's entry q, then the positive part. -/
theorem pay9_at (x : Vec Ideal S2000x64 .f32) (b : Vec Ideal S1x64 .f32) (p : Fin 2000) (q : Fin 64) :
    Gen.k9_pay1 (F := Ideal) x b (ix2 p q) = max (x (ix2 p q) + b (ix2 0 q)) 0 := by
  unfold Gen.k9_pay1
  show max (shapeCast S2000x64 x shapeCasts_S2000x64_S2000x64 (ix2 p q)
      + broadcastTo S2000x64 (shapeCast S1x64 b shapeCasts_S1x64_S1x64) broadcasts_S1x64_S2000x64 (ix2 p q))
      (Ideal.ofBits .f32 0x00000000#32) = _
  rw [shapeCast_self, shapeCast_self, rowTo2000_at, Ideal.ofBits_zero_f32]

/-- Region 11's stored block at (p, q): the loaded entry plus the row vector's entry q, then the positive part. -/
theorem pay11_at (x : Vec Ideal S2000x64 .f32) (b : Vec Ideal S1x64 .f32) (p : Fin 2000) (q : Fin 64) :
    Gen.k11_pay1 (F := Ideal) x b (ix2 p q) = max (x (ix2 p q) + b (ix2 0 q)) 0 := by
  unfold Gen.k11_pay1
  show max (shapeCast S2000x64 x shapeCasts_S2000x64_S2000x64 (ix2 p q)
      + broadcastTo S2000x64 (shapeCast S1x64 b shapeCasts_S1x64_S1x64) broadcasts_S1x64_S2000x64 (ix2 p q))
      (Ideal.ofBits .f32 0x00000000#32) = _
  rw [shapeCast_self, shapeCast_self, rowTo2000_at, Ideal.ofBits_zero_f32]

/-- Region 13's stored block at (p, q): the loaded entry plus the row vector's entry q. -/
theorem pay13_at (x : Vec Ideal S2000x64 .f32) (b : Vec Ideal S1x64 .f32) (p : Fin 2000) (q : Fin 64) :
    Gen.k13_pay1 (F := Ideal) x b (ix2 p q) = x (ix2 p q) + b (ix2 0 q) := by
  unfold Gen.k13_pay1
  show shapeCast S2000x64 x shapeCasts_S2000x64_S2000x64 (ix2 p q)
      + broadcastTo S2000x64 (shapeCast S1x64 b shapeCasts_S1x64_S1x64) broadcasts_S1x64_S2000x64 (ix2 p q) = _
  rw [shapeCast_self, shapeCast_self, rowTo2000_at]

/-- Region 4's stored block at (p, q): row p times column q of the matrix, plus the row vector's entry q, then the
    positive part. -/
theorem pay4_at (x : Vec Ideal S1000x64 .f32) (w : Vec Ideal S64x64 .f32) (b : Vec Ideal S1x64 .f32) (p : Fin 1000) (q : Fin 64) :
    Gen.k4_pay1 (F := Ideal) x w b (ix2 p q) = max ((∑ k : Fin 64, x (ix2 p k) * w (ix2 k q)) + b (ix2 0 q)) 0 := by
  unfold Gen.k4_pay1
  show max (matmul dot_S1000x64_S64x64_S1000x64_1_0_0_1_n_n none
        (truncf .bf16 (shapeCast S1000x64 x shapeCasts_S1000x64_S1000x64) bitsLt_bf16_f32)
        (truncf .bf16 (shapeCast S64x64 w shapeCasts_S64x64_S64x64) bitsLt_bf16_f32)
        (constant (F := Ideal) S1000x64 .f32 0x00000000#32) (ix2 p q)
      + broadcastTo S1000x64 (shapeCast S1x64 b shapeCasts_S1x64_S1x64) broadcasts_S1x64_S1000x64 (ix2 p q))
      (Ideal.ofBits .f32 0x00000000#32) = _
  rw [matmul1000_at, shapeCast_self, shapeCast_self, shapeCast_self, rowTo1000_at, Ideal.ofBits_zero_f32]
  rfl

/-- Region 6's stored block at (p, q): row p times column q of the matrix, plus the row vector's entry q, then the
    positive part. -/
theorem pay6_at (x : Vec Ideal S2000x64 .f32) (w : Vec Ideal S64x64 .f32) (b : Vec Ideal S1x64 .f32) (p : Fin 2000) (q : Fin 64) :
    Gen.k6_pay1 (F := Ideal) x w b (ix2 p q) = max ((∑ k : Fin 64, x (ix2 p k) * w (ix2 k q)) + b (ix2 0 q)) 0 := by
  unfold Gen.k6_pay1
  show max (matmul dot_S2000x64_S64x64_S2000x64_1_0_0_1_n_n none
        (truncf .bf16 (shapeCast S2000x64 x shapeCasts_S2000x64_S2000x64) bitsLt_bf16_f32)
        (truncf .bf16 (shapeCast S64x64 w shapeCasts_S64x64_S64x64) bitsLt_bf16_f32)
        (constant (F := Ideal) S2000x64 .f32 0x00000000#32) (ix2 p q)
      + broadcastTo S2000x64 (shapeCast S1x64 b shapeCasts_S1x64_S1x64) broadcasts_S1x64_S2000x64 (ix2 p q))
      (Ideal.ofBits .f32 0x00000000#32) = _
  rw [matmul2000_at, shapeCast_self, shapeCast_self, shapeCast_self, rowTo2000_at, Ideal.ofBits_zero_f32]
  rfl

/-- Region 5's stored block at (p, q): the loaded entry times the scale's entry q plus the shift's entry q, then
    the positive part. -/
theorem pay5_at (x : Vec Ideal S1000x64 .f32) (sc : Vec Ideal S1x64 .f32) (sh : Vec Ideal S1x64 .f32) (p : Fin 1000) (q : Fin 64) :
    Gen.k5_pay1 (F := Ideal) x sc sh (ix2 p q) = max (x (ix2 p q) * sc (ix2 0 q) + sh (ix2 0 q)) 0 := by
  unfold Gen.k5_pay1
  show max (shapeCast S1000x64 x shapeCasts_S1000x64_S1000x64 (ix2 p q)
        * broadcastTo S1000x64 (shapeCast S1x64 sc shapeCasts_S1x64_S1x64) broadcasts_S1x64_S1000x64 (ix2 p q)
      + broadcastTo S1000x64 (shapeCast S1x64 sh shapeCasts_S1x64_S1x64) broadcasts_S1x64_S1000x64 (ix2 p q))
      (Ideal.ofBits .f32 0x00000000#32) = _
  rw [shapeCast_self, shapeCast_self, shapeCast_self, rowTo1000_at, rowTo1000_at, Ideal.ofBits_zero_f32]

/-- Region 7's stored block at (p, q): the loaded entry times the scale's entry q plus the shift's entry q, then
    the positive part. -/
theorem pay7_at (x : Vec Ideal S2000x64 .f32) (sc : Vec Ideal S1x64 .f32) (sh : Vec Ideal S1x64 .f32) (p : Fin 2000) (q : Fin 64) :
    Gen.k7_pay1 (F := Ideal) x sc sh (ix2 p q) = max (x (ix2 p q) * sc (ix2 0 q) + sh (ix2 0 q)) 0 := by
  unfold Gen.k7_pay1
  show max (shapeCast S2000x64 x shapeCasts_S2000x64_S2000x64 (ix2 p q)
        * broadcastTo S2000x64 (shapeCast S1x64 sc shapeCasts_S1x64_S1x64) broadcasts_S1x64_S2000x64 (ix2 p q)
      + broadcastTo S2000x64 (shapeCast S1x64 sh shapeCasts_S1x64_S1x64) broadcasts_S1x64_S2000x64 (ix2 p q))
      (Ideal.ofBits .f32 0x00000000#32) = _
  rw [shapeCast_self, shapeCast_self, shapeCast_self, rowTo2000_at, rowTo2000_at, Ideal.ofBits_zero_f32]

end Cert.KernelIdeal.BodyAt

end
-- ==== Proof.TransformValue0.lean ====
/-
  Region 0 of the kernel (a row-blocked product with a resident 64×64 matrix), as one function of the arrays it
  finds: after its 50 grid points the output array holds, at every entry (r, j), the sum over k of X (r, k) · W (k, j).
  Each grid point t writes rows 2000·t … 2000·t + 1999; the 50 blocks cover the 100000 rows.
-/
import proofs.«168298_j84988812853302_1_alg».proof.Proof.Gen.KernelIdeal.Frame
import proofs.«168298_j84988812853302_1_alg».proof.Proof.BodyAt
import proofs.«168298_j84988812853302_1_alg».proof.Proof.RowOps
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx Cert.KernelIdeal.BodyAt
open Idealize.ShloMosaic.Pipeline (Dat)
open Facts₀ Facts

variable (V : (c : Dev nD) → (b : Ref sig .tc) → Buf (Elt Ideal) ((c : Thread nD τ).loc b))

/-- The zero offsets of a whole-block access, as a constant function. -/
theorem zeroOff0 : (![0, 0] : Fin 2 → Nat) = fun _ => 0 := funext fun a => by fin_cases a <;> rfl

/-- The index maps over the grid: the row-blocked windows sit at block (t, 0), the matrix at block (0, 0). -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What the body stores at point t, entry by entry: the row-times-matrix sum at the entry's place in the array. -/
theorem stored0_at (c : Dev nD) (t : Fin cfg0.N) (j : S2000x64.Idx) :
    k0_pay1 (F := Ideal) (iblk0 V c 0 t) (iblk0 V c 1 t) j
      = Cert.RowOps.rowsMul (V c (Pipeline.arrRef spec0 0)) (V c (Pipeline.arrRef spec0 1)) (((cfg0.win 2).blk t).view.emb j) := by
  obtain ⟨e0, e1, e2, e3, e4, e5⟩ := blockIdx0 t
  obtain ⟨p, q, rfl⟩ : ∃ (p : Fin 2000) (q : Fin 64), j = ix2 p q := ⟨j 0, j 1, eq_ix2 j⟩
  refine (pay0_at _ _ p q).trans ?_
  unfold Cert.RowOps.rowsMul
  refine Finset.sum_congr rfl fun k _ => ?_
  have hx : ((cfg0.win 0).blk t).view.emb (ix2 p k) = ix2 ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 64 + 1 * k.val = k.val; omega
  have hw : ((cfg0.win 1).blk t).view.emb (ix2 k q) = ix2 k ((((cfg0.win 2).blk t).view.emb (ix2 p q)) 1) := by
    funext a; apply Fin.ext
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega
  have key : ∀ (X : S100000x64.Idx → EReal) (W : S64x64.Idx → EReal),
      X (((cfg0.win 0).blk t).view.emb (ix2 p k)) * W (((cfg0.win 1).blk t).view.emb (ix2 k q))
        = X (ix2 ((((cfg0.win 2).blk t).view.emb (ix2 p q)) 0) k) * W (ix2 k ((((cfg0.win 2).blk t).view.emb (ix2 p q)) 1)) :=
    fun X W => by rw [hx, hw]; try rfl
  exact key (V c (Pipeline.arrRef spec0 0)) (V c (Pipeline.arrRef spec0 1))

/-- What point t writes back is block t of the row-times-matrix array. -/
theorem flushed0 (c : Dev nD) (t : Fin cfg0.N) :
    (dat0 (F := Ideal) V c).flushed 2 t = ((cfg0.win 2).blk t).view.read (Elt Ideal)
      (Cert.RowOps.rowsMul (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero zeroOff0]
  simp only [View.ld_unit_zero (S := S2000x64) zeroOff0, View.ld_unit_zero (S := S64x64) zeroOff0]
  funext j
  exact stored0_at V c t j

/-- An entry of the array is in point t's block iff each coordinate is in the block's range. -/
theorem mem_block0 (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v35).slice (win0_2.rect t)).set ↔ _
  rw [View.set_slice_whole, Rect.mem_set_unit]
  exact Iff.rfl

/-- Every entry is in some point's block: row r is in block r / 2000. -/
theorem covered0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 2000 < cfg0.N := by rw [show cfg0.N = 50 from N_0]; omega
  obtain ⟨e0, e1, e2, e3, e4, e5⟩ := blockIdx0 ⟨(i 0).val / 2000, hN⟩
  have e4' : win0_2.index ⟨(i 0).val / 2000, hN⟩ (0 : Fin 2) = (i 0).val / 2000 := e4
  refine ⟨⟨(i 0).val / 2000, hN⟩, flush0_2 _, ?_⟩
  rw [mem_block0]
  intro a
  match a with
  | ⟨0, _⟩ => show win0_2.index ⟨(i 0).val / 2000, hN⟩ (0 : Fin 2) * 2000 ≤ (i 0).val ∧ (i 0).val < win0_2.index ⟨(i 0).val / 2000, hN⟩ (0 : Fin 2) * 2000 + 2000; omega
  | ⟨1, _⟩ => show win0_2.index ⟨(i 0).val / 2000, hN⟩ (1 : Fin 2) * 64 ≤ (i 1).val ∧ (i 1).val < win0_2.index ⟨(i 0).val / 2000, hN⟩ (1 : Fin 2) * 64 + 64; omega

/-- REGION 0: the output array after the region is every row of the first array times the matrix. -/
theorem region0_value (c : Dev nD) :
    (dat0 (F := Ideal) V c).arrAt 2 cfg0.N
      = Cert.RowOps.rowsMul (V c (Pipeline.arrRef spec0 0)) (V c (Pipeline.arrRef spec0 1)) :=
  (dat0 (F := Ideal) V c).arrAt_eq_of_cover 2 _ (fun t _ => flushed0 V c t) covered0

end Cert.KernelIdeal.RegionValue

end
-- ==== Proof.BiasValue1.lean ====
/-
  Region 1 of the kernel (a row vector added to every row of a row-blocked array, then the positive part), as one
  function of the arrays it finds: after its 50 grid points the output array holds, at every entry (r, j),
  max (A (r, j) + b (0, j)) 0. Each grid point t writes rows 2000·t … 2000·t + 1999; the 50 blocks cover the 100000 rows.
-/
import proofs.«168298_j84988812853302_1_alg».proof.Proof.Gen.KernelIdeal.Frame
import proofs.«168298_j84988812853302_1_alg».proof.Proof.BodyAt
import proofs.«168298_j84988812853302_1_alg».proof.Proof.RowOps
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx Cert.KernelIdeal.BodyAt
open Idealize.ShloMosaic.Pipeline (Dat)
open Facts₀ Facts

variable (V : (c : Dev nD) → (b : Ref sig .tc) → Buf (Elt Ideal) ((c : Thread nD τ).loc b))

/-- The zero offsets of a whole-block access, as a constant function. -/
theorem zeroOff1 : (![0, 0] : Fin 2 → Nat) = fun _ => 0 := funext fun a => by fin_cases a <;> rfl

/-- The index maps over the grid: the row-blocked windows sit at block (t, 0), the row vector at block (0, 0). -/
theorem blockIdx1 : ∀ t : Fin cfg1.N, (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = t.val ∧ win1_2.index t (1 : Fin 2) = 0) :=
  (by decide +kernel : ∀ t : Fin grid1.N, _)

/-- What the body stores at point t, entry by entry: the specification at the entry's place in the array. -/
theorem stored1_at (c : Dev nD) (t : Fin cfg1.N) (j : S2000x64.Idx) :
    k1_pay1 (F := Ideal) (iblk1 V c 0 t) (iblk1 V c 1 t) j
      = (Cert.RowOps.posPart (Cert.RowOps.addRow (V c (Pipeline.arrRef spec1 0)) (V c (Pipeline.arrRef spec1 1)))) (((cfg1.win 2).blk t).view.emb j) := by
  obtain ⟨⟨e0, e1⟩, ⟨e2, e3⟩, ⟨e4, e5⟩⟩ := blockIdx1 t
  obtain ⟨p, q, rfl⟩ : ∃ (p : Fin 2000) (q : Fin 64), j = ix2 p q := ⟨j 0, j 1, eq_ix2 j⟩
  refine (pay1_at _ _ p q).trans ?_
  have hx : ((cfg1.win 0).blk t).view.emb (ix2 p q) = ((cfg1.win 2).blk t).view.emb (ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 64 + 1 * q.val = win1_2.index t (1 : Fin 2) * 64 + 1 * q.val; omega
  have hb : ((cfg1.win 1).blk t).view.emb (ix2 0 q) = ix2 0 ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  have key : ∀ (X : S100000x64.Idx → EReal) (b : S1x64.Idx → EReal),
      max (X (((cfg1.win 0).blk t).view.emb (ix2 p q)) + b (((cfg1.win 1).blk t).view.emb (ix2 0 q))) 0
        = max (X (((cfg1.win 2).blk t).view.emb (ix2 p q)) + b (ix2 0 ((((cfg1.win 2).blk t).view.emb (ix2 p q)) 1))) 0 :=
    fun X b => by rw [hx, hb]; try rfl
  exact key (V c (Pipeline.arrRef spec1 0)) (V c (Pipeline.arrRef spec1 1))

/-- What point t writes back is block t of the specified array. -/
theorem flushed1 (c : Dev nD) (t : Fin cfg1.N) :
    (dat1 (F := Ideal) V c).flushed 2 t = ((cfg1.win 2).blk t).view.read (Elt Ideal)
      (Cert.RowOps.posPart (Cert.RowOps.addRow (V c (Pipeline.arrRef spec1 0)) (V c (Pipeline.arrRef spec1 1)))) := by
  show (cfg1.win 2).cut (grid1.coords t) ((dat1 (F := Ideal) V c).after 2 t) = _
  rw [after1_2]
  unfold out1_2
  rw [View.canon_unit_zero zeroOff1]
  simp only [View.ld_unit_zero (S := S2000x64) zeroOff1, View.ld_unit_zero (S := S1x64) zeroOff1]
  funext j
  exact stored1_at V c t j

/-- An entry of the array is in point t's block iff each coordinate is in the block's range. -/
theorem mem_block1 (t : Fin cfg1.N) (i : S100000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v50).slice (win1_2.rect t)).set ↔ _
  rw [View.set_slice_whole, Rect.mem_set_unit]
  exact Iff.rfl

/-- Every entry is in some point's block: row r is in block r / 2000. -/
theorem covered1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : (i 0).val / 2000 < cfg1.N := by rw [show cfg1.N = 50 from N_1]; omega
  have eo := (blockIdx1 ⟨(i 0).val / 2000, hN⟩).2.2
  have eo0 : win1_2.index ⟨(i 0).val / 2000, hN⟩ (0 : Fin 2) = (i 0).val / 2000 := eo.1
  have eo1 : win1_2.index ⟨(i 0).val / 2000, hN⟩ (1 : Fin 2) = 0 := eo.2
  refine ⟨⟨(i 0).val / 2000, hN⟩, flush1_2 _, ?_⟩
  rw [mem_block1]
  intro a
  match a with
  | ⟨0, _⟩ => show win1_2.index ⟨(i 0).val / 2000, hN⟩ (0 : Fin 2) * 2000 ≤ (i 0).val ∧ (i 0).val < win1_2.index ⟨(i 0).val / 2000, hN⟩ (0 : Fin 2) * 2000 + 2000; omega
  | ⟨1, _⟩ => show win1_2.index ⟨(i 0).val / 2000, hN⟩ (1 : Fin 2) * 64 ≤ (i 1).val ∧ (i 1).val < win1_2.index ⟨(i 0).val / 2000, hN⟩ (1 : Fin 2) * 64 + 64; omega

/-- REGION 1: the output array after the region is the first array with the row vector added to every row, positive part. -/
theorem region1_value (c : Dev nD) :
    (dat1 (F := Ideal) V c).arrAt 2 cfg1.N
      = Cert.RowOps.posPart (Cert.RowOps.addRow (V c (Pipeline.arrRef spec1 0)) (V c (Pipeline.arrRef spec1 1))) :=
  (dat1 (F := Ideal) V c).arrAt_eq_of_cover 2 _ (fun t _ => flushed1 V c t) covered1

end Cert.KernelIdeal.RegionValue

end
-- ==== Proof.TransformValue2.lean ====
/-
  Region 2 of the kernel (a row-blocked product with a resident 64×64 matrix), as one function of the arrays it
  finds: after its 50 grid points the output array holds, at every entry (r, j), the sum over k of X (r, k) · W (k, j).
  Each grid point t writes rows 2000·t … 2000·t + 1999; the 50 blocks cover the 100000 rows.
-/
import proofs.«168298_j84988812853302_1_alg».proof.Proof.Gen.KernelIdeal.Frame
import proofs.«168298_j84988812853302_1_alg».proof.Proof.BodyAt
import proofs.«168298_j84988812853302_1_alg».proof.Proof.RowOps
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx Cert.KernelIdeal.BodyAt
open Idealize.ShloMosaic.Pipeline (Dat)
open Facts₀ Facts

variable (V : (c : Dev nD) → (b : Ref sig .tc) → Buf (Elt Ideal) ((c : Thread nD τ).loc b))

/-- The zero offsets of a whole-block access, as a constant function. -/
theorem zeroOff2 : (![0, 0] : Fin 2 → Nat) = fun _ => 0 := funext fun a => by fin_cases a <;> rfl

/-- The index maps over the grid: the row-blocked windows sit at block (t, 0), the matrix at block (0, 0). -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What the body stores at point t, entry by entry: the row-times-matrix sum at the entry's place in the array. -/
theorem stored2_at (c : Dev nD) (t : Fin cfg2.N) (j : S2000x64.Idx) :
    k2_pay1 (F := Ideal) (iblk2 V c 0 t) (iblk2 V c 1 t) j
      = Cert.RowOps.rowsMul (V c (Pipeline.arrRef spec2 0)) (V c (Pipeline.arrRef spec2 1)) (((cfg2.win 2).blk t).view.emb j) := by
  obtain ⟨e0, e1, e2, e3, e4, e5⟩ := blockIdx2 t
  obtain ⟨p, q, rfl⟩ : ∃ (p : Fin 2000) (q : Fin 64), j = ix2 p q := ⟨j 0, j 1, eq_ix2 j⟩
  refine (pay2_at _ _ p q).trans ?_
  unfold Cert.RowOps.rowsMul
  refine Finset.sum_congr rfl fun k _ => ?_
  have hx : ((cfg2.win 0).blk t).view.emb (ix2 p k) = ix2 ((((cfg2.win 2).blk t).view.emb (ix2 p q)) 0) k := by
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 64 + 1 * k.val = k.val; omega
  have hw : ((cfg2.win 1).blk t).view.emb (ix2 k q) = ix2 k ((((cfg2.win 2).blk t).view.emb (ix2 p q)) 1) := by
    funext a; apply Fin.ext
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega
  have key : ∀ (X : S100000x64.Idx → EReal) (W : S64x64.Idx → EReal),
      X (((cfg2.win 0).blk t).view.emb (ix2 p k)) * W (((cfg2.win 1).blk t).view.emb (ix2 k q))
        = X (ix2 ((((cfg2.win 2).blk t).view.emb (ix2 p q)) 0) k) * W (ix2 k ((((cfg2.win 2).blk t).view.emb (ix2 p q)) 1)) :=
    fun X W => by rw [hx, hw]; try rfl
  exact key (V c (Pipeline.arrRef spec2 0)) (V c (Pipeline.arrRef spec2 1))

/-- What point t writes back is block t of the row-times-matrix array. -/
theorem flushed2 (c : Dev nD) (t : Fin cfg2.N) :
    (dat2 (F := Ideal) V c).flushed 2 t = ((cfg2.win 2).blk t).view.read (Elt Ideal)
      (Cert.RowOps.rowsMul (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero zeroOff2]
  simp only [View.ld_unit_zero (S := S2000x64) zeroOff2, View.ld_unit_zero (S := S64x64) zeroOff2]
  funext j
  exact stored2_at V c t j

/-- An entry of the array is in point t's block iff each coordinate is in the block's range. -/
theorem mem_block2 (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v55).slice (win2_2.rect t)).set ↔ _
  rw [View.set_slice_whole, Rect.mem_set_unit]
  exact Iff.rfl

/-- Every entry is in some point's block: row r is in block r / 2000. -/
theorem covered2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : (i 0).val / 2000 < cfg2.N := by rw [show cfg2.N = 50 from N_2]; omega
  obtain ⟨e0, e1, e2, e3, e4, e5⟩ := blockIdx2 ⟨(i 0).val / 2000, hN⟩
  have e4' : win2_2.index ⟨(i 0).val / 2000, hN⟩ (0 : Fin 2) = (i 0).val / 2000 := e4
  refine ⟨⟨(i 0).val / 2000, hN⟩, flush2_2 _, ?_⟩
  rw [mem_block2]
  intro a
  match a with
  | ⟨0, _⟩ => show win2_2.index ⟨(i 0).val / 2000, hN⟩ (0 : Fin 2) * 2000 ≤ (i 0).val ∧ (i 0).val < win2_2.index ⟨(i 0).val / 2000, hN⟩ (0 : Fin 2) * 2000 + 2000; omega
  | ⟨1, _⟩ => show win2_2.index ⟨(i 0).val / 2000, hN⟩ (1 : Fin 2) * 64 ≤ (i 1).val ∧ (i 1).val < win2_2.index ⟨(i 0).val / 2000, hN⟩ (1 : Fin 2) * 64 + 64; omega

/-- REGION 2: the output array after the region is every row of the first array times the matrix. -/
theorem region2_value (c : Dev nD) :
    (dat2 (F := Ideal) V c).arrAt 2 cfg2.N
      = Cert.RowOps.rowsMul (V c (Pipeline.arrRef spec2 0)) (V c (Pipeline.arrRef spec2 1)) :=
  (dat2 (F := Ideal) V c).arrAt_eq_of_cover 2 _ (fun t _ => flushed2 V c t) covered2

end Cert.KernelIdeal.RegionValue

end
-- ==== Proof.BiasValue3.lean ====
/-
  Region 3 of the kernel (a row vector added to every row of a row-blocked array, then the positive part), as one
  function of the arrays it finds: after its 50 grid points the output array holds, at every entry (r, j),
  max (A (r, j) + b (0, j)) 0. Each grid point t writes rows 2000·t … 2000·t + 1999; the 50 blocks cover the 100000 rows.
-/
import proofs.«168298_j84988812853302_1_alg».proof.Proof.Gen.KernelIdeal.Frame
import proofs.«168298_j84988812853302_1_alg».proof.Proof.BodyAt
import proofs.«168298_j84988812853302_1_alg».proof.Proof.RowOps
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx Cert.KernelIdeal.BodyAt
open Idealize.ShloMosaic.Pipeline (Dat)
open Facts₀ Facts

variable (V : (c : Dev nD) → (b : Ref sig .tc) → Buf (Elt Ideal) ((c : Thread nD τ).loc b))

/-- The zero offsets of a whole-block access, as a constant function. -/
theorem zeroOff3 : (![0, 0] : Fin 2 → Nat) = fun _ => 0 := funext fun a => by fin_cases a <;> rfl

/-- The index maps over the grid: the row-blocked windows sit at block (t, 0), the row vector at block (0, 0). -/
theorem blockIdx3 : ∀ t : Fin cfg3.N, (win3_0.index t (0 : Fin 2) = t.val ∧ win3_0.index t (1 : Fin 2) = 0)
    ∧ (win3_1.index t (0 : Fin 2) = 0 ∧ win3_1.index t (1 : Fin 2) = 0)
    ∧ (win3_2.index t (0 : Fin 2) = t.val ∧ win3_2.index t (1 : Fin 2) = 0) :=
  (by decide +kernel : ∀ t : Fin grid3.N, _)

/-- What the body stores at point t, entry by entry: the specification at the entry's place in the array. -/
theorem stored3_at (c : Dev nD) (t : Fin cfg3.N) (j : S2000x64.Idx) :
    k3_pay1 (F := Ideal) (iblk3 V c 0 t) (iblk3 V c 1 t) j
      = (Cert.RowOps.posPart (Cert.RowOps.addRow (V c (Pipeline.arrRef spec3 0)) (V c (Pipeline.arrRef spec3 1)))) (((cfg3.win 2).blk t).view.emb j) := by
  obtain ⟨⟨e0, e1⟩, ⟨e2, e3⟩, ⟨e4, e5⟩⟩ := blockIdx3 t
  obtain ⟨p, q, rfl⟩ : ∃ (p : Fin 2000) (q : Fin 64), j = ix2 p q := ⟨j 0, j 1, eq_ix2 j⟩
  refine (pay3_at _ _ p q).trans ?_
  have hx : ((cfg3.win 0).blk t).view.emb (ix2 p q) = ((cfg3.win 2).blk t).view.emb (ix2 p q) := by
    funext a; apply Fin.ext
    match a with
    | ⟨0, _⟩ => show win3_0.index t (0 : Fin 2) * 2000 + 1 * p.val = win3_2.index t (0 : Fin 2) * 2000 + 1 * p.val; omega
    | ⟨1, _⟩ => show win3_0.index t (1 : Fin 2) * 64 + 1 * q.val = win3_2.index t (1 : Fin 2) * 64 + 1 * q.val; omega
  have hb : ((cfg3.win 1).blk t).view.emb (ix2 0 q) = ix2 0 ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  have key : ∀ (X : S100000x64.Idx → EReal) (b : S1x64.Idx → EReal),
      max (X (((cfg3.win 0).blk t).view.emb (ix2 p q)) + b (((cfg3.win 1).blk t).view.emb (ix2 0 q))) 0
        = max (X (((cfg3.win 2).blk t).view.emb (ix2 p q)) + b (ix2 0 ((((cfg3.win 2).blk t).view.emb (ix2 p q)) 1))) 0 :=
    fun X b => by rw [hx, hb]; try rfl
  exact key (V c (Pipeline.arrRef spec3 0)) (V c (Pipeline.arrRef spec3 1))

/-- What point t writes back is block t of the specified array. -/
theorem flushed3 (c : Dev nD) (t : Fin cfg3.N) :
    (dat3 (F := Ideal) V c).flushed 2 t = ((cfg3.win 2).blk t).view.read (Elt Ideal)
      (Cert.RowOps.posPart (Cert.RowOps.addRow (V c (Pipeline.arrRef spec3 0)) (V c (Pipeline.arrRef spec3 1)))) := by
  show (cfg3.win 2).cut (grid3.coords t) ((dat3 (F := Ideal) V c).after 2 t) = _
  rw [after3_2]
  unfold out3_2
  rw [View.canon_unit_zero zeroOff3]
  simp only [View.ld_unit_zero (S := S2000x64) zeroOff3, View.ld_unit_zero (S := S1x64) zeroOff3]
  funext j
  exact stored3_at V c t j

/-- An entry of the array is in point t's block iff each coordinate is in the block's range. -/
theorem mem_block3 (t : Fin cfg3.N) (i : S100000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v70).slice (win3_2.rect t)).set ↔ _
  rw [View.set_slice_whole, Rect.mem_set_unit]
  exact Iff.rfl

/-- Every entry is in some point's block: row r is in block r / 2000. -/
theorem covered3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : (i 0).val / 2000 < cfg3.N := by rw [show cfg3.N = 50 from N_3]; omega
  have eo := (blockIdx3 ⟨(i 0).val / 2000, hN⟩).2.2
  have eo0 : win3_2.index ⟨(i 0).val / 2000, hN⟩ (0 : Fin 2) = (i 0).val / 2000 := eo.1
  have eo1 : win3_2.index ⟨(i 0).val / 2000, hN⟩ (1 : Fin 2) = 0 := eo.2
  refine ⟨⟨(i 0).val / 2000, hN⟩, flush3_2 _, ?_⟩
  rw [mem_block3]
  intro a
  match a with
  | ⟨0, _⟩ => show win3_2.index ⟨(i 0).val / 2000, hN⟩ (0 : Fin 2) * 2000 ≤ (i 0).val ∧ (i 0).val < win3_2.index ⟨(i 0).val / 2000, hN⟩ (0 : Fin 2) * 2000 + 2000; omega
  | ⟨1, _⟩ => show win3_2.index ⟨(i 0).val / 2000, hN⟩ (1 : Fin 2) * 64 ≤ (i 1).val ∧ (i 1).val < win3_2.index ⟨(i 0).val / 2000, hN⟩ (1 : Fin 2) * 64 + 64; omega

/-- REGION 3: the output array after the region is the first array with the row vector added to every row, positive part. -/
theorem region3_value (c : Dev nD) :
    (dat3 (F := Ideal) V c).arrAt 2 cfg3.N
      = Cert.RowOps.posPart (Cert.RowOps.addRow (V c (Pipeline.arrRef spec3 0)) (V c (Pipeline.arrRef spec3 1))) :=
  (dat3 (F := Ideal) V c).arrAt_eq_of_cover 2 _ (fun t _ => flushed3 V c t) covered3

end Cert.KernelIdeal.RegionValue

end
-- ==== Proof.SimRegA.lean ====
/-
  The regions against the reference's stretches that compute the same thing. A region's output array, after its grid
  has run, is one whole-array function of the arrays the region found (a row-by-matrix product, a bias row added and the
  positive part taken, or both); the reference's corresponding operations, read entry by entry, are the same function
  of the buffers that agree with those arrays.
-/
import proofs.«168298_j84988812853302_1_alg».proof.Proof.Gen.KernelIdeal.Frame
import proofs.«168298_j84988812853302_1_alg».proof.Proof.RefSegs
import proofs.«168298_j84988812853302_1_alg».proof.Proof.RowOps
import proofs.«168298_j84988812853302_1_alg».proof.Proof.RowLayout
import proofs.«168298_j84988812853302_1_alg».proof.Proof.LibFinite
import proofs.«168298_j84988812853302_1_alg».proof.Proof.RowForms
import proofs.«168298_j84988812853302_1_alg».proof.Proof.RefBiasRelu
import proofs.«168298_j84988812853302_1_alg».proof.Proof.TransformValue0
import proofs.«168298_j84988812853302_1_alg».proof.Proof.BiasValue1
import proofs.«168298_j84988812853302_1_alg».proof.Proof.TransformValue2
import proofs.«168298_j84988812853302_1_alg».proof.Proof.BiasValue3
import Idealize.ShloMosaic.Lib.StableHlo.Run
import Idealize.ShloMosaic.PureOps.Ideal

set_option maxRecDepth 16384
set_option maxHeartbeats 16000000

noncomputable section

namespace Cert.Sim

open Idealize.ShloMosaic Idealize.ShloMosaic.TcCoe Idealize.SL.Sem Idealize.ShloMosaic.StableHlo
open Idealize.ShloMosaic.ValueIdx Cert.RowOps Cert.LibFinite

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- Region 0 multiplies every row of its first array by its 64×64 second array; the reference's `dot_general` of the
    arrays that agree with them is the same row-by-matrix product. -/
theorem conv0
    (h_x : Cert.KernelIdeal.Gen.W3 m ρ c (Proc.devRef .tc Cert.KernelIdeal.main_arg0) = Cert.ReferenceIdeal.Segs.U1 m' c (Proc.devRef .tc Cert.ReferenceIdeal.main_arg0))
    (h_w : Cert.KernelIdeal.Gen.W3 m ρ c (Proc.devRef .tc Cert.KernelIdeal.main_v32) = Cert.ReferenceIdeal.Segs.U1 m' c (Proc.devRef .tc Cert.ReferenceIdeal.main_v32)) :
    Cert.KernelIdeal.Gen.W4 m ρ c (Proc.devRef .tc Cert.KernelIdeal.main_v35) = Cert.ReferenceIdeal.Segs.U2 m' c (Proc.devRef .tc Cert.ReferenceIdeal.main_v35) := by
  have e1 : Cert.KernelIdeal.Gen.W4 m ρ c (Proc.devRef .tc Cert.KernelIdeal.main_v35) = rowsMul (n := 100000) (Cert.KernelIdeal.Gen.W3 m ρ c (Proc.devRef .tc Cert.KernelIdeal.main_arg0)) (Cert.KernelIdeal.Gen.W3 m ρ c (Proc.devRef .tc Cert.KernelIdeal.main_v32)) :=
    (Cert.KernelIdeal.Gen.W4_arr m ρ c 2).trans (Cert.KernelIdeal.RegionValue.region0_value (Cert.KernelIdeal.Gen.V3 m ρ) c)
  have e2 : Cert.ReferenceIdeal.Segs.U2 m' c (Proc.devRef .tc Cert.ReferenceIdeal.main_v35) = rowsMul (n := 100000) (Cert.ReferenceIdeal.Segs.U1 m' c (Proc.devRef .tc Cert.ReferenceIdeal.main_arg0)) (Cert.ReferenceIdeal.Segs.U1 m' c (Proc.devRef .tc Cert.ReferenceIdeal.main_v32)) := by
    show StableHlo.after Cert.ReferenceIdeal.Segs.seg1 (Cert.ReferenceIdeal.Segs.U1 m' c) (Proc.devRef .tc Cert.ReferenceIdeal.main_v35) = _
    after_results_simp
    exact Cert.RowForms.dotGeneral_100000_eq_rowsMul _ _
  rw [e1, e2, h_x, h_w]

/-- The product's entries are finite sums of products of real numbers. -/
theorem conv0_real
    (r_x : AllReal (Cert.ReferenceIdeal.Segs.U1 m' c (Proc.devRef .tc Cert.ReferenceIdeal.main_arg0))) (r_w : AllReal (Cert.ReferenceIdeal.Segs.U1 m' c (Proc.devRef .tc Cert.ReferenceIdeal.main_v32))) :
    AllReal (Cert.ReferenceIdeal.Segs.U2 m' c (Proc.devRef .tc Cert.ReferenceIdeal.main_v35)) := by
  show AllReal (StableHlo.after Cert.ReferenceIdeal.Segs.seg1 (Cert.ReferenceIdeal.Segs.U1 m' c) (Proc.devRef .tc Cert.ReferenceIdeal.main_v35))
  after_results_simp
  all_real

/-- The stretch's operator tree over two arbitrary arrays, its copies between a called function's buffers read through:
    it is the bias-and-positive-part tree. -/
theorem bias1_tree (A : FVec Ideal Cert.ReferenceIdeal.S100000x64 .f32) (v : FVec Ideal Cert.ReferenceIdeal.S64 .f32) :
    (TRef.of (T := ⟨Cert.ReferenceIdeal.S100000x64, .f32⟩) Cert.ReferenceIdeal.main_v52).toBuf (Val := Elt Ideal)
      (maximumf (F := Ideal) (s := Cert.ReferenceIdeal.S100000x64) (φ := .f32)
        ((TRef.of (T := ⟨Cert.ReferenceIdeal.S100000x64, .f32⟩) Cert.ReferenceIdeal.main_v51).ofBuf (Val := Elt Ideal)
          (addf (F := Ideal) (s := Cert.ReferenceIdeal.S100000x64) (φ := .f32) A (broadcastInDim Cert.ReferenceIdeal.S100000x64 ![0, 1] Cert.ReferenceIdeal.Gen.bcast_S1x64_S100000x64_0_1
            (broadcastInDim Cert.ReferenceIdeal.S1x64 ![1] Cert.ReferenceIdeal.Gen.bcast_S64_S1x64_1 v))))
        ((TRef.of (T := ⟨Cert.ReferenceIdeal.S100000x64, .f32⟩) Cert.ReferenceIdeal.main_call1_v0).ofBuf (Val := Elt Ideal)
          ((TRef.of (T := ⟨Cert.ReferenceIdeal.S100000x64, .f32⟩) Cert.ReferenceIdeal.main_call1_v0).toBuf (Val := Elt Ideal)
            (broadcastInDim Cert.ReferenceIdeal.S100000x64 ![] Cert.ReferenceIdeal.Gen.bcast_S_S100000x64
              ((TRef.of (T := ⟨Cert.ReferenceIdeal.S_, .f32⟩) Cert.ReferenceIdeal.main_call1_cst).ofBuf (Val := Elt Ideal)
                ((TRef.of (T := ⟨Cert.ReferenceIdeal.S_, .f32⟩) Cert.ReferenceIdeal.main_call1_cst).toBuf (Val := Elt Ideal)
                  (constant (F := Ideal) Cert.ReferenceIdeal.S_ .f32 0x00000000#32)))))))
      = biasRelu100000 A v := rfl

/-- The reference's stretch leaves in its result the bias vector added to every row and the
    positive part, over the buffers it reads. -/
theorem bias1_ref :
    Cert.ReferenceIdeal.Segs.U4 m' c (Proc.devRef .tc Cert.ReferenceIdeal.main_v52)
      = biasRelu100000 (Cert.ReferenceIdeal.Segs.U3 m' c (Proc.devRef .tc Cert.ReferenceIdeal.main_v48)) (Cert.ReferenceIdeal.Segs.U3 m' c (Proc.devRef .tc Cert.ReferenceIdeal.main_v34)) := by
  show StableHlo.after Cert.ReferenceIdeal.Segs.seg3 (Cert.ReferenceIdeal.Segs.U3 m' c) (Proc.devRef .tc Cert.ReferenceIdeal.main_v52) = _
  after_results_simp
  exact bias1_tree _ _

/-- Region 1 adds its 1×64 second array to every row of its first and takes the positive part; the reference broadcasts the
    bias vector over the rows, adds and takes the maximum with zero: the same function of arrays that agree, the row holding the vector. -/
theorem bias1
    (h_a : Cert.KernelIdeal.Gen.W5 m ρ c (Proc.devRef .tc Cert.KernelIdeal.main_v48) = Cert.ReferenceIdeal.Segs.U3 m' c (Proc.devRef .tc Cert.ReferenceIdeal.main_v48))
    (h_row : ∀ j : Fin 64, (Cert.KernelIdeal.Gen.W5 m ρ c (Proc.devRef .tc Cert.KernelIdeal.main_v49)) (ix2 0 j) = (Cert.ReferenceIdeal.Segs.U3 m' c (Proc.devRef .tc Cert.ReferenceIdeal.main_v34)) (ix1 j)) :
    Cert.KernelIdeal.Gen.W6 m ρ c (Proc.devRef .tc Cert.KernelIdeal.main_v50) = Cert.ReferenceIdeal.Segs.U4 m' c (Proc.devRef .tc Cert.ReferenceIdeal.main_v52) := by
  have e1 : Cert.KernelIdeal.Gen.W6 m ρ c (Proc.devRef .tc Cert.KernelIdeal.main_v50) = Cert.RowOps.posPart (addRow (n := 100000) (Cert.KernelIdeal.Gen.W5 m ρ c (Proc.devRef .tc Cert.KernelIdeal.main_v48)) (Cert.KernelIdeal.Gen.W5 m ρ c (Proc.devRef .tc Cert.KernelIdeal.main_v49))) :=
    (Cert.KernelIdeal.Gen.W6_arr m ρ c 2).trans (Cert.KernelIdeal.RegionValue.region1_value (Cert.KernelIdeal.Gen.V5 m ρ) c)
  have e2 : Cert.ReferenceIdeal.Segs.U4 m' c (Proc.devRef .tc Cert.ReferenceIdeal.main_v52) = Cert.RowOps.posPart (addRow (n := 100000) (Cert.ReferenceIdeal.Segs.U3 m' c (Proc.devRef .tc Cert.ReferenceIdeal.main_v48)) (Cert.KernelIdeal.Gen.W5 m ρ c (Proc.devRef .tc Cert.KernelIdeal.main_v49))) := by
    rw [bias1_ref m' c]
    exact biasRelu100000_eq _ _ _ h_row
  rw [e1, e2, h_a]

/-- A real plus a real, and the larger of it and zero, are real. -/
theorem bias1_real
    (r_a : AllReal (Cert.ReferenceIdeal.Segs.U3 m' c (Proc.devRef .tc Cert.ReferenceIdeal.main_v48))) (r_v : AllReal (Cert.ReferenceIdeal.Segs.U3 m' c (Proc.devRef .tc Cert.ReferenceIdeal.main_v34))) :
    AllReal (Cert.ReferenceIdeal.Segs.U4 m' c (Proc.devRef .tc Cert.ReferenceIdeal.main_v52)) := by
  rw [bias1_ref m' c]
  exact allReal_biasRelu100000 r_a r_v

/-- Region 2 multiplies every row of its first array by its 64×64 second array; the reference's `dot_general` of the
    arrays that agree with them is the same row-by-matrix product. -/
theorem conv2
    (h_x : Cert.KernelIdeal.Gen.W7 m ρ c (Proc.devRef .tc Cert.KernelIdeal.main_v50) = Cert.ReferenceIdeal.Segs.U5 m' c (Proc.devRef .tc Cert.ReferenceIdeal.main_v52))
    (h_w : Cert.KernelIdeal.Gen.W7 m ρ c (Proc.devRef .tc Cert.KernelIdeal.main_v52) = Cert.ReferenceIdeal.Segs.U5 m' c (Proc.devRef .tc Cert.ReferenceIdeal.main_v54)) :
    Cert.KernelIdeal.Gen.W8 m ρ c (Proc.devRef .tc Cert.KernelIdeal.main_v55) = Cert.ReferenceIdeal.Segs.U6 m' c (Proc.devRef .tc Cert.ReferenceIdeal.main_v57) := by
  have e1 : Cert.KernelIdeal.Gen.W8 m ρ c (Proc.devRef .tc Cert.KernelIdeal.main_v55) = rowsMul (n := 100000) (Cert.KernelIdeal.Gen.W7 m ρ c (Proc.devRef .tc Cert.KernelIdeal.main_v50)) (Cert.KernelIdeal.Gen.W7 m ρ c (Proc.devRef .tc Cert.KernelIdeal.main_v52)) :=
    (Cert.KernelIdeal.Gen.W8_arr m ρ c 2).trans (Cert.KernelIdeal.RegionValue.region2_value (Cert.KernelIdeal.Gen.V7 m ρ) c)
  have e2 : Cert.ReferenceIdeal.Segs.U6 m' c (Proc.devRef .tc Cert.ReferenceIdeal.main_v57) = rowsMul (n := 100000) (Cert.ReferenceIdeal.Segs.U5 m' c (Proc.devRef .tc Cert.ReferenceIdeal.main_v52)) (Cert.ReferenceIdeal.Segs.U5 m' c (Proc.devRef .tc Cert.ReferenceIdeal.main_v54)) := by
    show StableHlo.after Cert.ReferenceIdeal.Segs.seg5 (Cert.ReferenceIdeal.Segs.U5 m' c) (Proc.devRef .tc Cert.ReferenceIdeal.main_v57) = _
    after_results_simp
    exact Cert.RowForms.dotGeneral_100000_eq_rowsMul _ _
  rw [e1, e2, h_x, h_w]

/-- The product's entries are finite sums of products of real numbers. -/
theorem conv2_real
    (r_x : AllReal (Cert.ReferenceIdeal.Segs.U5 m' c (Proc.devRef .tc Cert.ReferenceIdeal.main_v52))) (r_w : AllReal (Cert.ReferenceIdeal.Segs.U5 m' c (Proc.devRef .tc Cert.ReferenceIdeal.main_v54))) :
    AllReal (Cert.ReferenceIdeal.Segs.U6 m' c (Proc.devRef .tc Cert.ReferenceIdeal.main_v57)) := by
  show AllReal (StableHlo.after Cert.ReferenceIdeal.Segs.seg5 (Cert.ReferenceIdeal.Segs.U5 m' c) (Proc.devRef .tc Cert.ReferenceIdeal.main_v57))
  after_results_simp
  all_real

/-- The stretch's operator tree over two arbitrary arrays, its copies between a called function's buffers read through:
    it is the bias-and-positive-part tree. -/
theorem bias3_tree (A : FVec Ideal Cert.ReferenceIdeal.S100000x64 .f32) (v : FVec Ideal Cert.ReferenceIdeal.S64 .f32) :
    (TRef.of (T := ⟨Cert.ReferenceIdeal.S100000x64, .f32⟩) Cert.ReferenceIdeal.main_v74).toBuf (Val := Elt Ideal)
      (maximumf (F := Ideal) (s := Cert.ReferenceIdeal.S100000x64) (φ := .f32)
        ((TRef.of (T := ⟨Cert.ReferenceIdeal.S100000x64, .f32⟩) Cert.ReferenceIdeal.main_v73).ofBuf (Val := Elt Ideal)
          (addf (F := Ideal) (s := Cert.ReferenceIdeal.S100000x64) (φ := .f32) A (broadcastInDim Cert.ReferenceIdeal.S100000x64 ![0, 1] Cert.ReferenceIdeal.Gen.bcast_S1x64_S100000x64_0_1
            (broadcastInDim Cert.ReferenceIdeal.S1x64 ![1] Cert.ReferenceIdeal.Gen.bcast_S64_S1x64_1 v))))
        ((TRef.of (T := ⟨Cert.ReferenceIdeal.S100000x64, .f32⟩) Cert.ReferenceIdeal.main_call2_v0).ofBuf (Val := Elt Ideal)
          ((TRef.of (T := ⟨Cert.ReferenceIdeal.S100000x64, .f32⟩) Cert.ReferenceIdeal.main_call2_v0).toBuf (Val := Elt Ideal)
            (broadcastInDim Cert.ReferenceIdeal.S100000x64 ![] Cert.ReferenceIdeal.Gen.bcast_S_S100000x64
              ((TRef.of (T := ⟨Cert.ReferenceIdeal.S_, .f32⟩) Cert.ReferenceIdeal.main_call2_cst).ofBuf (Val := Elt Ideal)
                ((TRef.of (T := ⟨Cert.ReferenceIdeal.S_, .f32⟩) Cert.ReferenceIdeal.main_call2_cst).toBuf (Val := Elt Ideal)
                  (constant (F := Ideal) Cert.ReferenceIdeal.S_ .f32 0x00000000#32)))))))
      = biasRelu100000 A v := rfl

/-- The reference's stretch leaves in its result the bias vector added to every row and the
    positive part, over the buffers it reads. -/
theorem bias3_ref :
    Cert.ReferenceIdeal.Segs.U8 m' c (Proc.devRef .tc Cert.ReferenceIdeal.main_v74)
      = biasRelu100000 (Cert.ReferenceIdeal.Segs.U7 m' c (Proc.devRef .tc Cert.ReferenceIdeal.main_v70)) (Cert.ReferenceIdeal.Segs.U7 m' c (Proc.devRef .tc Cert.ReferenceIdeal.main_v56)) := by
  show StableHlo.after Cert.ReferenceIdeal.Segs.seg7 (Cert.ReferenceIdeal.Segs.U7 m' c) (Proc.devRef .tc Cert.ReferenceIdeal.main_v74) = _
  after_results_simp
  exact bias3_tree _ _

/-- Region 3 adds its 1×64 second array to every row of its first and takes the positive part; the reference broadcasts the
    bias vector over the rows, adds and takes the maximum with zero: the same function of arrays that agree, the row holding the vector. -/
theorem bias3
    (h_a : Cert.KernelIdeal.Gen.W9 m ρ c (Proc.devRef .tc Cert.KernelIdeal.main_v68) = Cert.ReferenceIdeal.Segs.U7 m' c (Proc.devRef .tc Cert.ReferenceIdeal.main_v70))
    (h_row : ∀ j : Fin 64, (Cert.KernelIdeal.Gen.W9 m ρ c (Proc.devRef .tc Cert.KernelIdeal.main_v69)) (ix2 0 j) = (Cert.ReferenceIdeal.Segs.U7 m' c (Proc.devRef .tc Cert.ReferenceIdeal.main_v56)) (ix1 j)) :
    Cert.KernelIdeal.Gen.W10 m ρ c (Proc.devRef .tc Cert.KernelIdeal.main_v70) = Cert.ReferenceIdeal.Segs.U8 m' c (Proc.devRef .tc Cert.ReferenceIdeal.main_v74) := by
  have e1 : Cert.KernelIdeal.Gen.W10 m ρ c (Proc.devRef .tc Cert.KernelIdeal.main_v70) = Cert.RowOps.posPart (addRow (n := 100000) (Cert.KernelIdeal.Gen.W9 m ρ c (Proc.devRef .tc Cert.KernelIdeal.main_v68)) (Cert.KernelIdeal.Gen.W9 m ρ c (Proc.devRef .tc Cert.KernelIdeal.main_v69))) :=
    (Cert.KernelIdeal.Gen.W10_arr m ρ c 2).trans (Cert.KernelIdeal.RegionValue.region3_value (Cert.KernelIdeal.Gen.V9 m ρ) c)
  have e2 : Cert.ReferenceIdeal.Segs.U8 m' c (Proc.devRef .tc Cert.ReferenceIdeal.main_v74) = Cert.RowOps.posPart (addRow (n := 100000) (Cert.ReferenceIdeal.Segs.U7 m' c (Proc.devRef .tc Cert.ReferenceIdeal.main_v70)) (Cert.KernelIdeal.Gen.W9 m ρ c (Proc.devRef .tc Cert.KernelIdeal.main_v69))) := by
    rw [bias3_ref m' c]
    exact biasRelu100000_eq _ _ _ h_row
  rw [e1, e2, h_a]

/-- A real plus a real, and the larger of it and zero, are real. -/
theorem bias3_real
    (r_a : AllReal (Cert.ReferenceIdeal.Segs.U7 m' c (Proc.devRef .tc Cert.ReferenceIdeal.main_v70))) (r_v : AllReal (Cert.ReferenceIdeal.Segs.U7 m' c (Proc.devRef .tc Cert.ReferenceIdeal.main_v56))) :
    AllReal (Cert.ReferenceIdeal.Segs.U8 m' c (Proc.devRef .tc Cert.ReferenceIdeal.main_v74)) := by
  rw [bias3_ref m' c]
  exact allReal_biasRelu100000 r_a r_v

end Cert.Sim

end
-- ==== Proof.MatmulBiasValue4.lean ====
/-
  Region 4 of the kernel (a row-blocked product with a resident 64×64 matrix, a row vector added, then the positive
  part), as one function of the arrays it finds: after its 25 grid points the output array holds, at every entry
  (r, j), max ((∑ k, X (r, k) · W (k, j)) + b (0, j)) 0. Each grid point t writes rows 1000·t … 1000·t + 999; the 25
  blocks cover the 25000 rows.
-/
import proofs.«168298_j84988812853302_1_alg».proof.Proof.Gen.KernelIdeal.Frame
import proofs.«168298_j84988812853302_1_alg».proof.Proof.BodyAt
import proofs.«168298_j84988812853302_1_alg».proof.Proof.RowOps
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx Cert.KernelIdeal.BodyAt
open Idealize.ShloMosaic.Pipeline (Dat)
open Facts₀ Facts

variable (V : (c : Dev nD) → (b : Ref sig .tc) → Buf (Elt Ideal) ((c : Thread nD τ).loc b))

/-- The zero offsets of a whole-block access, as a constant function. -/
theorem zeroOff4 : (![0, 0] : Fin 2 → Nat) = fun _ => 0 := funext fun a => by fin_cases a <;> rfl

/-- The index maps over the grid: the row-blocked windows sit at block (t, 0), the matrix and the row vector at
    block (0, 0). -/
theorem blockIdx4 : ∀ t : Fin cfg4.N, (win4_0.index t (0 : Fin 2) = t.val ∧ win4_0.index t (1 : Fin 2) = 0)
    ∧ (win4_1.index t (0 : Fin 2) = 0 ∧ win4_1.index t (1 : Fin 2) = 0)
    ∧ (win4_2.index t (0 : Fin 2) = 0 ∧ win4_2.index t (1 : Fin 2) = 0)
    ∧ (win4_3.index t (0 : Fin 2) = t.val ∧ win4_3.index t (1 : Fin 2) = 0) :=
  (by decide +kernel : ∀ t : Fin grid4.N, _)

/-- What the body stores at point t, entry by entry: the specification at the entry's place in the array. -/
theorem stored4_at (c : Dev nD) (t : Fin cfg4.N) (j : S1000x64.Idx) :
    k4_pay1 (F := Ideal) (iblk4 V c 0 t) (iblk4 V c 1 t) (iblk4 V c 2 t) j
      = (Cert.RowOps.posPart (Cert.RowOps.addRow (Cert.RowOps.rowsMul (V c (Pipeline.arrRef spec4 0)) (V c (Pipeline.arrRef spec4 1))) (V c (Pipeline.arrRef spec4 2)))) (((cfg4.win 3).blk t).view.emb j) := by
  obtain ⟨⟨e0, e1⟩, ⟨e2, e3⟩, ⟨e4, e5⟩, ⟨e6, e7⟩⟩ := blockIdx4 t
  obtain ⟨p, q, rfl⟩ : ∃ (p : Fin 1000) (q : Fin 64), j = ix2 p q := ⟨j 0, j 1, eq_ix2 j⟩
  refine (pay4_at _ _ _ p q).trans ?_
  have hx : ∀ k : Fin 64, (((cfg4.win 0).blk t).view.emb (ix2 p k)) = ix2 ((((cfg4.win 3).blk t).view.emb (ix2 p q)) 0) k := fun k => by
    funext a; apply Fin.ext
    match a with
    | ⟨0, _⟩ => show win4_0.index t (0 : Fin 2) * 1000 + 1 * p.val = win4_3.index t (0 : Fin 2) * 1000 + 1 * p.val; omega
    | ⟨1, _⟩ => show win4_0.index t (1 : Fin 2) * 64 + 1 * k.val = k.val; omega
  have hw : ∀ k : Fin 64, (((cfg4.win 1).blk t).view.emb (ix2 k q)) = ix2 k ((((cfg4.win 3).blk t).view.emb (ix2 p q)) 1) := fun k => by
    funext a; apply Fin.ext
    match a with
    | ⟨0, _⟩ => show win4_1.index t (0 : Fin 2) * 64 + 1 * k.val = k.val; omega
    | ⟨1, _⟩ => show win4_1.index t (1 : Fin 2) * 64 + 1 * q.val = win4_3.index t (1 : Fin 2) * 64 + 1 * q.val; omega
  have hb : (((cfg4.win 2).blk t).view.emb (ix2 0 q)) = ix2 0 ((((cfg4.win 3).blk t).view.emb (ix2 p q)) 1) := by
    funext a; apply Fin.ext
    match a with
    | ⟨0, _⟩ => show win4_2.index t (0 : Fin 2) * 1 + 1 * 0 = 0; omega
    | ⟨1, _⟩ => show win4_2.index t (1 : Fin 2) * 64 + 1 * q.val = win4_3.index t (1 : Fin 2) * 64 + 1 * q.val; omega
  have key : ∀ (X : S25000x64.Idx → EReal) (W : S64x64.Idx → EReal) (b : S1x64.Idx → EReal),
      max ((∑ k : Fin 64, X (((cfg4.win 0).blk t).view.emb (ix2 p k)) * W (((cfg4.win 1).blk t).view.emb (ix2 k q))) + b (((cfg4.win 2).blk t).view.emb (ix2 0 q))) 0
        = max ((∑ k : Fin 64, X (ix2 ((((cfg4.win 3).blk t).view.emb (ix2 p q)) 0) k) * W (ix2 k ((((cfg4.win 3).blk t).view.emb (ix2 p q)) 1)))
            + b (ix2 0 ((((cfg4.win 3).blk t).view.emb (ix2 p q)) 1))) 0 :=
    fun X W b => by rw [hb, Finset.sum_congr rfl fun k _ => by rw [hx k, hw k]]; try rfl
  exact key (V c (Pipeline.arrRef spec4 0)) (V c (Pipeline.arrRef spec4 1)) (V c (Pipeline.arrRef spec4 2))

/-- What point t writes back is block t of the specified array. -/
theorem flushed4 (c : Dev nD) (t : Fin cfg4.N) :
    (dat4 (F := Ideal) V c).flushed 3 t = ((cfg4.win 3).blk t).view.read (Elt Ideal)
      (Cert.RowOps.posPart (Cert.RowOps.addRow (Cert.RowOps.rowsMul (V c (Pipeline.arrRef spec4 0)) (V c (Pipeline.arrRef spec4 1))) (V c (Pipeline.arrRef spec4 2)))) := by
  show (cfg4.win 3).cut (grid4.coords t) ((dat4 (F := Ideal) V c).after 3 t) = _
  rw [after4_3]
  unfold out4_3
  rw [View.canon_unit_zero zeroOff4]
  simp only [View.ld_unit_zero (S := S1000x64) zeroOff4, View.ld_unit_zero (S := S64x64) zeroOff4, View.ld_unit_zero (S := S1x64) zeroOff4]
  funext j
  exact stored4_at V c t j

/-- An entry of the array is in point t's block iff each coordinate is in the block's range. -/
theorem mem_block4 (t : Fin cfg4.N) (i : S25000x64.Idx) :
    i ∈ ((cfg4.win 3).blk t).view.set ↔ ∀ a : Fin 2, win4_3.index t a * S1000x64.size a ≤ (i a).val ∧ (i a).val < win4_3.index t a * S1000x64.size a + S1000x64.size a := by
  show i ∈ ((View.whole main_v90).slice (win4_3.rect t)).set ↔ _
  rw [View.set_slice_whole, Rect.mem_set_unit]
  exact Iff.rfl

/-- Every entry is in some point's block: row r is in block r / 1000. -/
theorem covered4 (i : S25000x64.Idx) :
    ∃ t : Fin cfg4.N, (cfg4.win 3).flush t = true ∧ i ∈ ((cfg4.win 3).blk t).view.set := by
  have hi0 : (i 0).val < 25000 := (i 0).isLt
  have hi1 : (i 1).val < 64 := (i 1).isLt
  have hN : (i 0).val / 1000 < cfg4.N := by rw [show cfg4.N = 25 from N_4]; omega
  have eo := (blockIdx4 ⟨(i 0).val / 1000, hN⟩).2.2.2
  have eo0 : win4_3.index ⟨(i 0).val / 1000, hN⟩ (0 : Fin 2) = (i 0).val / 1000 := eo.1
  have eo1 : win4_3.index ⟨(i 0).val / 1000, hN⟩ (1 : Fin 2) = 0 := eo.2
  refine ⟨⟨(i 0).val / 1000, hN⟩, flush4_3 _, ?_⟩
  rw [mem_block4]
  intro a
  match a with
  | ⟨0, _⟩ => show win4_3.index ⟨(i 0).val / 1000, hN⟩ (0 : Fin 2) * 1000 ≤ (i 0).val ∧ (i 0).val < win4_3.index ⟨(i 0).val / 1000, hN⟩ (0 : Fin 2) * 1000 + 1000; omega
  | ⟨1, _⟩ => show win4_3.index ⟨(i 0).val / 1000, hN⟩ (1 : Fin 2) * 64 ≤ (i 1).val ∧ (i 1).val < win4_3.index ⟨(i 0).val / 1000, hN⟩ (1 : Fin 2) * 64 + 64; omega

/-- REGION 4: the output array after the region is the positive part of (every row of the first array times the matrix, plus the row vector). -/
theorem region4_value (c : Dev nD) :
    (dat4 (F := Ideal) V c).arrAt 3 cfg4.N
      = Cert.RowOps.posPart (Cert.RowOps.addRow (Cert.RowOps.rowsMul (V c (Pipeline.arrRef spec4 0)) (V c (Pipeline.arrRef spec4 1))) (V c (Pipeline.arrRef spec4 2))) :=
  (dat4 (F := Ideal) V c).arrAt_eq_of_cover 3 _ (fun t _ => flushed4 V c t) covered4

end Cert.KernelIdeal.RegionValue

end
-- ==== Proof.MatmulBiasValue6.lean ====
/-
  Region 6 of the kernel (a row-blocked product with a resident 64×64 matrix, a row vector added, then the positive
  part), as one function of the arrays it finds: after its 50 grid points the output array holds, at every entry
  (r, j), max ((∑ k, X (r, k) · W (k, j)) + b (0, j)) 0. Each grid point t writes rows 2000·t … 2000·t + 1999; the 50
  blocks cover the 100000 rows.
-/
import proofs.«168298_j84988812853302_1_alg».proof.Proof.Gen.KernelIdeal.Frame
import proofs.«168298_j84988812853302_1_alg».proof.Proof.BodyAt
import proofs.«168298_j84988812853302_1_alg».proof.Proof.RowOps
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx Cert.KernelIdeal.BodyAt
open Idealize.ShloMosaic.Pipeline (Dat)
open Facts₀ Facts

variable (V : (c : Dev nD) → (b : Ref sig .tc) → Buf (Elt Ideal) ((c : Thread nD τ).loc b))

/-- The zero offsets of a whole-block access, as a constant function. -/
theorem zeroOff6 : (![0, 0] : Fin 2 → Nat) = fun _ => 0 := funext fun a => by fin_cases a <;> rfl

/-- The index maps over the grid: the row-blocked windows sit at block (t, 0), the matrix and the row vector at
    block (0, 0). -/
theorem blockIdx6 : ∀ t : Fin cfg6.N, (win6_0.index t (0 : Fin 2) = t.val ∧ win6_0.index t (1 : Fin 2) = 0)
    ∧ (win6_1.index t (0 : Fin 2) = 0 ∧ win6_1.index t (1 : Fin 2) = 0)
    ∧ (win6_2.index t (0 : Fin 2) = 0 ∧ win6_2.index t (1 : Fin 2) = 0)
    ∧ (win6_3.index t (0 : Fin 2) = t.val ∧ win6_3.index t (1 : Fin 2) = 0) :=
  (by decide +kernel : ∀ t : Fin grid6.N, _)

/-- What the body stores at point t, entry by entry: the specification at the entry's place in the array. -/
theorem stored6_at (c : Dev nD) (t : Fin cfg6.N) (j : S2000x64.Idx) :
    k6_pay1 (F := Ideal) (iblk6 V c 0 t) (iblk6 V c 1 t) (iblk6 V c 2 t) j
      = (Cert.RowOps.posPart (Cert.RowOps.addRow (Cert.RowOps.rowsMul (V c (Pipeline.arrRef spec6 0)) (V c (Pipeline.arrRef spec6 1))) (V c (Pipeline.arrRef spec6 2)))) (((cfg6.win 3).blk t).view.emb j) := by
  obtain ⟨⟨e0, e1⟩, ⟨e2, e3⟩, ⟨e4, e5⟩, ⟨e6, e7⟩⟩ := blockIdx6 t
  obtain ⟨p, q, rfl⟩ : ∃ (p : Fin 2000) (q : Fin 64), j = ix2 p q := ⟨j 0, j 1, eq_ix2 j⟩
  refine (pay6_at _ _ _ p q).trans ?_
  have hx : ∀ k : Fin 64, (((cfg6.win 0).blk t).view.emb (ix2 p k)) = ix2 ((((cfg6.win 3).blk t).view.emb (ix2 p q)) 0) k := fun k => by
    funext a; apply Fin.ext
    match a with
    | ⟨0, _⟩ => show win6_0.index t (0 : Fin 2) * 2000 + 1 * p.val = win6_3.index t (0 : Fin 2) * 2000 + 1 * p.val; omega
    | ⟨1, _⟩ => show win6_0.index t (1 : Fin 2) * 64 + 1 * k.val = k.val; omega
  have hw : ∀ k : Fin 64, (((cfg6.win 1).blk t).view.emb (ix2 k q)) = ix2 k ((((cfg6.win 3).blk t).view.emb (ix2 p q)) 1) := fun k => by
    funext a; apply Fin.ext
    match a with
    | ⟨0, _⟩ => show win6_1.index t (0 : Fin 2) * 64 + 1 * k.val = k.val; omega
    | ⟨1, _⟩ => show win6_1.index t (1 : Fin 2) * 64 + 1 * q.val = win6_3.index t (1 : Fin 2) * 64 + 1 * q.val; omega
  have hb : (((cfg6.win 2).blk t).view.emb (ix2 0 q)) = ix2 0 ((((cfg6.win 3).blk t).view.emb (ix2 p q)) 1) := by
    funext a; apply Fin.ext
    match a with
    | ⟨0, _⟩ => show win6_2.index t (0 : Fin 2) * 1 + 1 * 0 = 0; omega
    | ⟨1, _⟩ => show win6_2.index t (1 : Fin 2) * 64 + 1 * q.val = win6_3.index t (1 : Fin 2) * 64 + 1 * q.val; omega
  have key : ∀ (X : S100000x64.Idx → EReal) (W : S64x64.Idx → EReal) (b : S1x64.Idx → EReal),
      max ((∑ k : Fin 64, X (((cfg6.win 0).blk t).view.emb (ix2 p k)) * W (((cfg6.win 1).blk t).view.emb (ix2 k q))) + b (((cfg6.win 2).blk t).view.emb (ix2 0 q))) 0
        = max ((∑ k : Fin 64, X (ix2 ((((cfg6.win 3).blk t).view.emb (ix2 p q)) 0) k) * W (ix2 k ((((cfg6.win 3).blk t).view.emb (ix2 p q)) 1)))
            + b (ix2 0 ((((cfg6.win 3).blk t).view.emb (ix2 p q)) 1))) 0 :=
    fun X W b => by rw [hb, Finset.sum_congr rfl fun k _ => by rw [hx k, hw k]]; try rfl
  exact key (V c (Pipeline.arrRef spec6 0)) (V c (Pipeline.arrRef spec6 1)) (V c (Pipeline.arrRef spec6 2))

/-- What point t writes back is block t of the specified array. -/
theorem flushed6 (c : Dev nD) (t : Fin cfg6.N) :
    (dat6 (F := Ideal) V c).flushed 3 t = ((cfg6.win 3).blk t).view.read (Elt Ideal)
      (Cert.RowOps.posPart (Cert.RowOps.addRow (Cert.RowOps.rowsMul (V c (Pipeline.arrRef spec6 0)) (V c (Pipeline.arrRef spec6 1))) (V c (Pipeline.arrRef spec6 2)))) := by
  show (cfg6.win 3).cut (grid6.coords t) ((dat6 (F := Ideal) V c).after 3 t) = _
  rw [after6_3]
  unfold out6_3
  rw [View.canon_unit_zero zeroOff6]
  simp only [View.ld_unit_zero (S := S2000x64) zeroOff6, View.ld_unit_zero (S := S64x64) zeroOff6, View.ld_unit_zero (S := S1x64) zeroOff6]
  funext j
  exact stored6_at V c t j

/-- An entry of the array is in point t's block iff each coordinate is in the block's range. -/
theorem mem_block6 (t : Fin cfg6.N) (i : S100000x64.Idx) :
    i ∈ ((cfg6.win 3).blk t).view.set ↔ ∀ a : Fin 2, win6_3.index t a * S2000x64.size a ≤ (i a).val ∧ (i a).val < win6_3.index t a * S2000x64.size a + S2000x64.size a := by
  show i ∈ ((View.whole main_v130).slice (win6_3.rect t)).set ↔ _
  rw [View.set_slice_whole, Rect.mem_set_unit]
  exact Iff.rfl

/-- Every entry is in some point's block: row r is in block r / 2000. -/
theorem covered6 (i : S100000x64.Idx) :
    ∃ t : Fin cfg6.N, (cfg6.win 3).flush t = true ∧ i ∈ ((cfg6.win 3).blk t).view.set := by
  have hi0 : (i 0).val < 100000 := (i 0).isLt
  have hi1 : (i 1).val < 64 := (i 1).isLt
  have hN : (i 0).val / 2000 < cfg6.N := by rw [show cfg6.N = 50 from N_6]; omega
  have eo := (blockIdx6 ⟨(i 0).val / 2000, hN⟩).2.2.2
  have eo0 : win6_3.index ⟨(i 0).val / 2000, hN⟩ (0 : Fin 2) = (i 0).val / 2000 := eo.1
  have eo1 : win6_3.index ⟨(i 0).val / 2000, hN⟩ (1 : Fin 2) = 0 := eo.2
  refine ⟨⟨(i 0).val / 2000, hN⟩, flush6_3 _, ?_⟩
  rw [mem_block6]
  intro a
  match a with
  | ⟨0, _⟩ => show win6_3.index ⟨(i 0).val / 2000, hN⟩ (0 : Fin 2) * 2000 ≤ (i 0).val ∧ (i 0).val < win6_3.index ⟨(i 0).val / 2000, hN⟩ (0 : Fin 2) * 2000 + 2000; omega
  | ⟨1, _⟩ => show win6_3.index ⟨(i 0).val / 2000, hN⟩ (1 : Fin 2) * 64 ≤ (i 1).val ∧ (i 1).val < win6_3.index ⟨(i 0).val / 2000, hN⟩ (1 : Fin 2) * 64 + 64; omega

/-- REGION 6: the output array after the region is the positive part of (every row of the first array times the matrix, plus the row vector). -/
theorem region6_value (c : Dev nD) :
    (dat6 (F := Ideal) V c).arrAt 3 cfg6.N
      = Cert.RowOps.posPart (Cert.RowOps.addRow (Cert.RowOps.rowsMul (V c (Pipeline.arrRef spec6 0)) (V c (Pipeline.arrRef spec6 1))) (V c (Pipeline.arrRef spec6 2))) :=
  (dat6 (F := Ideal) V c).arrAt_eq_of_cover 3 _ (fun t _ => flushed6 V c t) covered6

end Cert.KernelIdeal.RegionValue

end
-- ==== Proof.SimRegP.lean ====
/-
  The regions against the reference's stretches that compute the same thing. A region's output array, after its grid
  has run, is one whole-array function of the arrays the region found (a row-by-matrix product, a bias row added and the
  positive part taken, or both); the reference's corresponding operations, read entry by entry, are the same function
  of the buffers that agree with those arrays.
-/
import proofs.«168298_j84988812853302_1_alg».proof.Proof.Gen.KernelIdeal.Frame
import proofs.«168298_j84988812853302_1_alg».proof.Proof.RefSegs
import proofs.«168298_j84988812853302_1_alg».proof.Proof.RowOps
import proofs.«168298_j84988812853302_1_alg».proof.Proof.RowLayout
import proofs.«168298_j84988812853302_1_alg».proof.Proof.LibFinite
import proofs.«168298_j84988812853302_1_alg».proof.Proof.RowForms
import proofs.«168298_j84988812853302_1_alg».proof.Proof.RefBiasRelu
import proofs.«168298_j84988812853302_1_alg».proof.Proof.MatmulBiasValue4
import proofs.«168298_j84988812853302_1_alg».proof.Proof.MatmulBiasValue6
import Idealize.ShloMosaic.Lib.StableHlo.Run
import Idealize.ShloMosaic.PureOps.Ideal

set_option maxRecDepth 16384
set_option maxHeartbeats 16000000

noncomputable section

namespace Cert.Sim

open Idealize.ShloMosaic Idealize.ShloMosaic.TcCoe Idealize.SL.Sem Idealize.ShloMosaic.StableHlo
open Idealize.ShloMosaic.ValueIdx Cert.RowOps Cert.LibFinite

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The reference's stretch leaves in its result the product of every row with the matrix, then the bias vector added to every row and the
    positive part, over the buffers it reads. -/
theorem lin4_ref :
    Cert.ReferenceIdeal.Segs.U10 m' c (Proc.devRef .tc Cert.ReferenceIdeal.main_v97)
      = biasRelu25000 (Host.dotGeneral (F := Ideal) (φ₁ := .f32) (φ₂ := .f32) Cert.ReferenceIdeal.dot_S25000x64_S64x64_S25000x64_1_0_0_1_n_n none (Cert.ReferenceIdeal.Segs.U9 m' c (Proc.devRef .tc Cert.ReferenceIdeal.main_v92)) (Cert.ReferenceIdeal.Segs.U9 m' c (Proc.devRef .tc Cert.ReferenceIdeal.main_v76))) (Cert.ReferenceIdeal.Segs.U9 m' c (Proc.devRef .tc Cert.ReferenceIdeal.main_v78)) := by
  show StableHlo.after Cert.ReferenceIdeal.Segs.seg9 (Cert.ReferenceIdeal.Segs.U9 m' c) (Proc.devRef .tc Cert.ReferenceIdeal.main_v97) = _
  after_results_simp
  try rfl

/-- Region 4 multiplies every row by the 64×64 array, adds the 1×64 row and takes the positive part; the reference's
    `dot_general`, broadcast bias, sum and maximum with zero are the same function of arrays that agree. -/
theorem lin4
    (h_x : Cert.KernelIdeal.Gen.W11 m ρ c (Proc.devRef .tc Cert.KernelIdeal.main_v88) = Cert.ReferenceIdeal.Segs.U9 m' c (Proc.devRef .tc Cert.ReferenceIdeal.main_v92))
    (h_w : Cert.KernelIdeal.Gen.W11 m ρ c (Proc.devRef .tc Cert.KernelIdeal.main_v72) = Cert.ReferenceIdeal.Segs.U9 m' c (Proc.devRef .tc Cert.ReferenceIdeal.main_v76))
    (h_row : ∀ j : Fin 64, (Cert.KernelIdeal.Gen.W11 m ρ c (Proc.devRef .tc Cert.KernelIdeal.main_v89)) (ix2 0 j) = (Cert.ReferenceIdeal.Segs.U9 m' c (Proc.devRef .tc Cert.ReferenceIdeal.main_v78)) (ix1 j)) :
    Cert.KernelIdeal.Gen.W12 m ρ c (Proc.devRef .tc Cert.KernelIdeal.main_v90) = Cert.ReferenceIdeal.Segs.U10 m' c (Proc.devRef .tc Cert.ReferenceIdeal.main_v97) := by
  have e1 : Cert.KernelIdeal.Gen.W12 m ρ c (Proc.devRef .tc Cert.KernelIdeal.main_v90) = Cert.RowOps.posPart (addRow (n := 25000) (rowsMul (n := 25000) (Cert.KernelIdeal.Gen.W11 m ρ c (Proc.devRef .tc Cert.KernelIdeal.main_v88)) (Cert.KernelIdeal.Gen.W11 m ρ c (Proc.devRef .tc Cert.KernelIdeal.main_v72))) (Cert.KernelIdeal.Gen.W11 m ρ c (Proc.devRef .tc Cert.KernelIdeal.main_v89))) :=
    (Cert.KernelIdeal.Gen.W12_arr m ρ c 3).trans (Cert.KernelIdeal.RegionValue.region4_value (Cert.KernelIdeal.Gen.V11 m ρ) c)
  have e2 : Cert.ReferenceIdeal.Segs.U10 m' c (Proc.devRef .tc Cert.ReferenceIdeal.main_v97) = Cert.RowOps.posPart (addRow (n := 25000) (rowsMul (n := 25000) (Cert.ReferenceIdeal.Segs.U9 m' c (Proc.devRef .tc Cert.ReferenceIdeal.main_v92)) (Cert.ReferenceIdeal.Segs.U9 m' c (Proc.devRef .tc Cert.ReferenceIdeal.main_v76))) (Cert.KernelIdeal.Gen.W11 m ρ c (Proc.devRef .tc Cert.KernelIdeal.main_v89))) := by
    rw [lin4_ref m' c, Cert.RowForms.dotGeneral_25000_eq_rowsMul]
    exact biasRelu25000_eq _ _ _ h_row
  rw [e1, e2, h_x, h_w]

/-- Sums of products of reals plus a real, and the larger of that and zero, are real. -/
theorem lin4_real
    (r_x : AllReal (Cert.ReferenceIdeal.Segs.U9 m' c (Proc.devRef .tc Cert.ReferenceIdeal.main_v92))) (r_w : AllReal (Cert.ReferenceIdeal.Segs.U9 m' c (Proc.devRef .tc Cert.ReferenceIdeal.main_v76))) (r_v : AllReal (Cert.ReferenceIdeal.Segs.U9 m' c (Proc.devRef .tc Cert.ReferenceIdeal.main_v78))) :
    AllReal (Cert.ReferenceIdeal.Segs.U10 m' c (Proc.devRef .tc Cert.ReferenceIdeal.main_v97)) := by
  rw [lin4_ref m' c]
  exact allReal_biasRelu25000 (allReal_dotGeneral r_x r_w) r_v

/-- The reference's stretch leaves in its result the product of every row with the matrix, then the bias vector added to every row and the
    positive part, over the buffers it reads. -/
theorem lin6_ref :
    Cert.ReferenceIdeal.Segs.U13 m' c (Proc.devRef .tc Cert.ReferenceIdeal.main_v146)
      = biasRelu100000 (Host.dotGeneral (F := Ideal) (φ₁ := .f32) (φ₂ := .f32) Cert.ReferenceIdeal.dot_S100000x64_S64x64_S100000x64_1_0_0_1_n_n none (Cert.ReferenceIdeal.Segs.U12 m' c (Proc.devRef .tc Cert.ReferenceIdeal.main_v141)) (Cert.ReferenceIdeal.Segs.U12 m' c (Proc.devRef .tc Cert.ReferenceIdeal.main_v125))) (Cert.ReferenceIdeal.Segs.U12 m' c (Proc.devRef .tc Cert.ReferenceIdeal.main_v127)) := by
  show StableHlo.after Cert.ReferenceIdeal.Segs.seg12 (Cert.ReferenceIdeal.Segs.U12 m' c) (Proc.devRef .tc Cert.ReferenceIdeal.main_v146) = _
  after_results_simp
  try rfl

/-- Region 6 multiplies every row by the 64×64 array, adds the 1×64 row and takes the positive part; the reference's
    `dot_general`, broadcast bias, sum and maximum with zero are the same function of arrays that agree. -/
theorem lin6
    (h_x : Cert.KernelIdeal.Gen.W15 m ρ c (Proc.devRef .tc Cert.KernelIdeal.main_v128) = Cert.ReferenceIdeal.Segs.U12 m' c (Proc.devRef .tc Cert.ReferenceIdeal.main_v141))
    (h_w : Cert.KernelIdeal.Gen.W15 m ρ c (Proc.devRef .tc Cert.KernelIdeal.main_v112) = Cert.ReferenceIdeal.Segs.U12 m' c (Proc.devRef .tc Cert.ReferenceIdeal.main_v125))
    (h_row : ∀ j : Fin 64, (Cert.KernelIdeal.Gen.W15 m ρ c (Proc.devRef .tc Cert.KernelIdeal.main_v129)) (ix2 0 j) = (Cert.ReferenceIdeal.Segs.U12 m' c (Proc.devRef .tc Cert.ReferenceIdeal.main_v127)) (ix1 j)) :
    Cert.KernelIdeal.Gen.W16 m ρ c (Proc.devRef .tc Cert.KernelIdeal.main_v130) = Cert.ReferenceIdeal.Segs.U13 m' c (Proc.devRef .tc Cert.ReferenceIdeal.main_v146) := by
  have e1 : Cert.KernelIdeal.Gen.W16 m ρ c (Proc.devRef .tc Cert.KernelIdeal.main_v130) = Cert.RowOps.posPart (addRow (n := 100000) (rowsMul (n := 100000) (Cert.KernelIdeal.Gen.W15 m ρ c (Proc.devRef .tc Cert.KernelIdeal.main_v128)) (Cert.KernelIdeal.Gen.W15 m ρ c (Proc.devRef .tc Cert.KernelIdeal.main_v112))) (Cert.KernelIdeal.Gen.W15 m ρ c (Proc.devRef .tc Cert.KernelIdeal.main_v129))) :=
    (Cert.KernelIdeal.Gen.W16_arr m ρ c 3).trans (Cert.KernelIdeal.RegionValue.region6_value (Cert.KernelIdeal.Gen.V15 m ρ) c)
  have e2 : Cert.ReferenceIdeal.Segs.U13 m' c (Proc.devRef .tc Cert.ReferenceIdeal.main_v146) = Cert.RowOps.posPart (addRow (n := 100000) (rowsMul (n := 100000) (Cert.ReferenceIdeal.Segs.U12 m' c (Proc.devRef .tc Cert.ReferenceIdeal.main_v141)) (Cert.ReferenceIdeal.Segs.U12 m' c (Proc.devRef .tc Cert.ReferenceIdeal.main_v125))) (Cert.KernelIdeal.Gen.W15 m ρ c (Proc.devRef .tc Cert.KernelIdeal.main_v129))) := by
    rw [lin6_ref m' c, Cert.RowForms.dotGeneral_100000_eq_rowsMul]
    exact biasRelu100000_eq _ _ _ h_row
  rw [e1, e2, h_x, h_w]

/-- Sums of products of reals plus a real, and the larger of that and zero, are real. -/
theorem lin6_real
    (r_x : AllReal (Cert.ReferenceIdeal.Segs.U12 m' c (Proc.devRef .tc Cert.ReferenceIdeal.main_v141))) (r_w : AllReal (Cert.ReferenceIdeal.Segs.U12 m' c (Proc.devRef .tc Cert.ReferenceIdeal.main_v125))) (r_v : AllReal (Cert.ReferenceIdeal.Segs.U12 m' c (Proc.devRef .tc Cert.ReferenceIdeal.main_v127))) :
    AllReal (Cert.ReferenceIdeal.Segs.U13 m' c (Proc.devRef .tc Cert.ReferenceIdeal.main_v146)) := by
  rw [lin6_ref m' c]
  exact allReal_biasRelu100000 (allReal_dotGeneral r_x r_w) r_v

end Cert.Sim

end
-- ==== Proof.TransformValue8.lean ====
/-
  Region 8 of the kernel (a row-blocked product with a resident 64×64 matrix), as one function of the arrays it
  finds: after its 50 grid points the output array holds, at every entry (r, j), the sum over k of X (r, k) · W (k, j).
  Each grid point t writes rows 2000·t … 2000·t + 1999; the 50 blocks cover the 100000 rows.
-/
import proofs.«168298_j84988812853302_1_alg».proof.Proof.Gen.KernelIdeal.Frame
import proofs.«168298_j84988812853302_1_alg».proof.Proof.BodyAt
import proofs.«168298_j84988812853302_1_alg».proof.Proof.RowOps
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx Cert.KernelIdeal.BodyAt
open Idealize.ShloMosaic.Pipeline (Dat)
open Facts₀ Facts

variable (V : (c : Dev nD) → (b : Ref sig .tc) → Buf (Elt Ideal) ((c : Thread nD τ).loc b))

/-- The zero offsets of a whole-block access, as a constant function. -/
theorem zeroOff8 : (![0, 0] : Fin 2 → Nat) = fun _ => 0 := funext fun a => by fin_cases a <;> rfl

/-- The index maps over the grid: the row-blocked windows sit at block (t, 0), the matrix at block (0, 0). -/
theorem blockIdx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What the body stores at point t, entry by entry: the row-times-matrix sum at the entry's place in the array. -/
theorem stored8_at (c : Dev nD) (t : Fin cfg8.N) (j : S2000x64.Idx) :
    k8_pay1 (F := Ideal) (iblk8 V c 0 t) (iblk8 V c 1 t) j
      = Cert.RowOps.rowsMul (V c (Pipeline.arrRef spec8 0)) (V c (Pipeline.arrRef spec8 1)) (((cfg8.win 2).blk t).view.emb j) := by
  obtain ⟨e0, e1, e2, e3, e4, e5⟩ := blockIdx8 t
  obtain ⟨p, q, rfl⟩ : ∃ (p : Fin 2000) (q : Fin 64), j = ix2 p q := ⟨j 0, j 1, eq_ix2 j⟩
  refine (pay8_at _ _ p q).trans ?_
  unfold Cert.RowOps.rowsMul
  refine Finset.sum_congr rfl fun k _ => ?_
  have hx : ((cfg8.win 0).blk t).view.emb (ix2 p k) = ix2 ((((cfg8.win 2).blk t).view.emb (ix2 p q)) 0) k := by
    funext a; apply Fin.ext
    match a with
    | ⟨0, _⟩ => show win8_0.index t (0 : Fin 2) * 2000 + 1 * p.val = win8_2.index t (0 : Fin 2) * 2000 + 1 * p.val; omega
    | ⟨1, _⟩ => show win8_0.index t (1 : Fin 2) * 64 + 1 * k.val = k.val; omega
  have hw : ((cfg8.win 1).blk t).view.emb (ix2 k q) = ix2 k ((((cfg8.win 2).blk t).view.emb (ix2 p q)) 1) := by
    funext a; apply Fin.ext
    match a with
    | ⟨0, _⟩ => show win8_1.index t (0 : Fin 2) * 64 + 1 * k.val = k.val; omega
    | ⟨1, _⟩ => show win8_1.index t (1 : Fin 2) * 64 + 1 * q.val = win8_2.index t (1 : Fin 2) * 64 + 1 * q.val; omega
  have key : ∀ (X : S100000x64.Idx → EReal) (W : S64x64.Idx → EReal),
      X (((cfg8.win 0).blk t).view.emb (ix2 p k)) * W (((cfg8.win 1).blk t).view.emb (ix2 k q))
        = X (ix2 ((((cfg8.win 2).blk t).view.emb (ix2 p q)) 0) k) * W (ix2 k ((((cfg8.win 2).blk t).view.emb (ix2 p q)) 1)) :=
    fun X W => by rw [hx, hw]; try rfl
  exact key (V c (Pipeline.arrRef spec8 0)) (V c (Pipeline.arrRef spec8 1))

/-- What point t writes back is block t of the row-times-matrix array. -/
theorem flushed8 (c : Dev nD) (t : Fin cfg8.N) :
    (dat8 (F := Ideal) V c).flushed 2 t = ((cfg8.win 2).blk t).view.read (Elt Ideal)
      (Cert.RowOps.rowsMul (V c (Pipeline.arrRef spec8 0)) (V c (Pipeline.arrRef spec8 1))) := by
  show (cfg8.win 2).cut (grid8.coords t) ((dat8 (F := Ideal) V c).after 2 t) = _
  rw [after8_2]
  unfold out8_2
  rw [View.canon_unit_zero zeroOff8]
  simp only [View.ld_unit_zero (S := S2000x64) zeroOff8, View.ld_unit_zero (S := S64x64) zeroOff8]
  funext j
  exact stored8_at V c t j

/-- An entry of the array is in point t's block iff each coordinate is in the block's range. -/
theorem mem_block8 (t : Fin cfg8.N) (i : S100000x64.Idx) :
    i ∈ ((cfg8.win 2).blk t).view.set ↔ ∀ a : Fin 2, win8_2.index t a * S2000x64.size a ≤ (i a).val ∧ (i a).val < win8_2.index t a * S2000x64.size a + S2000x64.size a := by
  show i ∈ ((View.whole main_v155).slice (win8_2.rect t)).set ↔ _
  rw [View.set_slice_whole, Rect.mem_set_unit]
  exact Iff.rfl

/-- Every entry is in some point's block: row r is in block r / 2000. -/
theorem covered8 (i : S100000x64.Idx) :
    ∃ t : Fin cfg8.N, (cfg8.win 2).flush t = true ∧ i ∈ ((cfg8.win 2).blk t).view.set := by
  have hi0 : (i 0).val < 100000 := (i 0).isLt
  have hi1 : (i 1).val < 64 := (i 1).isLt
  have hN : (i 0).val / 2000 < cfg8.N := by rw [show cfg8.N = 50 from N_8]; omega
  obtain ⟨e0, e1, e2, e3, e4, e5⟩ := blockIdx8 ⟨(i 0).val / 2000, hN⟩
  have e4' : win8_2.index ⟨(i 0).val / 2000, hN⟩ (0 : Fin 2) = (i 0).val / 2000 := e4
  refine ⟨⟨(i 0).val / 2000, hN⟩, flush8_2 _, ?_⟩
  rw [mem_block8]
  intro a
  match a with
  | ⟨0, _⟩ => show win8_2.index ⟨(i 0).val / 2000, hN⟩ (0 : Fin 2) * 2000 ≤ (i 0).val ∧ (i 0).val < win8_2.index ⟨(i 0).val / 2000, hN⟩ (0 : Fin 2) * 2000 + 2000; omega
  | ⟨1, _⟩ => show win8_2.index ⟨(i 0).val / 2000, hN⟩ (1 : Fin 2) * 64 ≤ (i 1).val ∧ (i 1).val < win8_2.index ⟨(i 0).val / 2000, hN⟩ (1 : Fin 2) * 64 + 64; omega

/-- REGION 8: the output array after the region is every row of the first array times the matrix. -/
theorem region8_value (c : Dev nD) :
    (dat8 (F := Ideal) V c).arrAt 2 cfg8.N
      = Cert.RowOps.rowsMul (V c (Pipeline.arrRef spec8 0)) (V c (Pipeline.arrRef spec8 1)) :=
  (dat8 (F := Ideal) V c).arrAt_eq_of_cover 2 _ (fun t _ => flushed8 V c t) covered8

end Cert.KernelIdeal.RegionValue

end
-- ==== Proof.BiasValue9.lean ====
/-
  Region 9 of the kernel (a row vector added to every row of a row-blocked array, then the positive part), as one
  function of the arrays it finds: after its 50 grid points the output array holds, at every entry (r, j),
  max (A (r, j) + b (0, j)) 0. Each grid point t writes rows 2000·t … 2000·t + 1999; the 50 blocks cover the 100000 rows.
-/
import proofs.«168298_j84988812853302_1_alg».proof.Proof.Gen.KernelIdeal.Frame
import proofs.«168298_j84988812853302_1_alg».proof.Proof.BodyAt
import proofs.«168298_j84988812853302_1_alg».proof.Proof.RowOps
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx Cert.KernelIdeal.BodyAt
open Idealize.ShloMosaic.Pipeline (Dat)
open Facts₀ Facts

variable (V : (c : Dev nD) → (b : Ref sig .tc) → Buf (Elt Ideal) ((c : Thread nD τ).loc b))

/-- The zero offsets of a whole-block access, as a constant function. -/
theorem zeroOff9 : (![0, 0] : Fin 2 → Nat) = fun _ => 0 := funext fun a => by fin_cases a <;> rfl

/-- The index maps over the grid: the row-blocked windows sit at block (t, 0), the row vector at block (0, 0). -/
theorem blockIdx9 : ∀ t : Fin cfg9.N, (win9_0.index t (0 : Fin 2) = t.val ∧ win9_0.index t (1 : Fin 2) = 0)
    ∧ (win9_1.index t (0 : Fin 2) = 0 ∧ win9_1.index t (1 : Fin 2) = 0)
    ∧ (win9_2.index t (0 : Fin 2) = t.val ∧ win9_2.index t (1 : Fin 2) = 0) :=
  (by decide +kernel : ∀ t : Fin grid9.N, _)

/-- What the body stores at point t, entry by entry: the specification at the entry's place in the array. -/
theorem stored9_at (c : Dev nD) (t : Fin cfg9.N) (j : S2000x64.Idx) :
    k9_pay1 (F := Ideal) (iblk9 V c 0 t) (iblk9 V c 1 t) j
      = (Cert.RowOps.posPart (Cert.RowOps.addRow (V c (Pipeline.arrRef spec9 0)) (V c (Pipeline.arrRef spec9 1)))) (((cfg9.win 2).blk t).view.emb j) := by
  obtain ⟨⟨e0, e1⟩, ⟨e2, e3⟩, ⟨e4, e5⟩⟩ := blockIdx9 t
  obtain ⟨p, q, rfl⟩ : ∃ (p : Fin 2000) (q : Fin 64), j = ix2 p q := ⟨j 0, j 1, eq_ix2 j⟩
  refine (pay9_at _ _ p q).trans ?_
  have hx : ((cfg9.win 0).blk t).view.emb (ix2 p q) = ((cfg9.win 2).blk t).view.emb (ix2 p q) := by
    funext a; apply Fin.ext
    match a with
    | ⟨0, _⟩ => show win9_0.index t (0 : Fin 2) * 2000 + 1 * p.val = win9_2.index t (0 : Fin 2) * 2000 + 1 * p.val; omega
    | ⟨1, _⟩ => show win9_0.index t (1 : Fin 2) * 64 + 1 * q.val = win9_2.index t (1 : Fin 2) * 64 + 1 * q.val; omega
  have hb : ((cfg9.win 1).blk t).view.emb (ix2 0 q) = ix2 0 ((((cfg9.win 2).blk t).view.emb (ix2 p q)) 1) := by
    funext a; apply Fin.ext
    match a with
    | ⟨0, _⟩ => show win9_1.index t (0 : Fin 2) * 1 + 1 * 0 = 0; omega
    | ⟨1, _⟩ => show win9_1.index t (1 : Fin 2) * 64 + 1 * q.val = win9_2.index t (1 : Fin 2) * 64 + 1 * q.val; omega
  have key : ∀ (X : S100000x64.Idx → EReal) (b : S1x64.Idx → EReal),
      max (X (((cfg9.win 0).blk t).view.emb (ix2 p q)) + b (((cfg9.win 1).blk t).view.emb (ix2 0 q))) 0
        = max (X (((cfg9.win 2).blk t).view.emb (ix2 p q)) + b (ix2 0 ((((cfg9.win 2).blk t).view.emb (ix2 p q)) 1))) 0 :=
    fun X b => by rw [hx, hb]; try rfl
  exact key (V c (Pipeline.arrRef spec9 0)) (V c (Pipeline.arrRef spec9 1))

/-- What point t writes back is block t of the specified array. -/
theorem flushed9 (c : Dev nD) (t : Fin cfg9.N) :
    (dat9 (F := Ideal) V c).flushed 2 t = ((cfg9.win 2).blk t).view.read (Elt Ideal)
      (Cert.RowOps.posPart (Cert.RowOps.addRow (V c (Pipeline.arrRef spec9 0)) (V c (Pipeline.arrRef spec9 1)))) := by
  show (cfg9.win 2).cut (grid9.coords t) ((dat9 (F := Ideal) V c).after 2 t) = _
  rw [after9_2]
  unfold out9_2
  rw [View.canon_unit_zero zeroOff9]
  simp only [View.ld_unit_zero (S := S2000x64) zeroOff9, View.ld_unit_zero (S := S1x64) zeroOff9]
  funext j
  exact stored9_at V c t j

/-- An entry of the array is in point t's block iff each coordinate is in the block's range. -/
theorem mem_block9 (t : Fin cfg9.N) (i : S100000x64.Idx) :
    i ∈ ((cfg9.win 2).blk t).view.set ↔ ∀ a : Fin 2, win9_2.index t a * S2000x64.size a ≤ (i a).val ∧ (i a).val < win9_2.index t a * S2000x64.size a + S2000x64.size a := by
  show i ∈ ((View.whole main_v170).slice (win9_2.rect t)).set ↔ _
  rw [View.set_slice_whole, Rect.mem_set_unit]
  exact Iff.rfl

/-- Every entry is in some point's block: row r is in block r / 2000. -/
theorem covered9 (i : S100000x64.Idx) :
    ∃ t : Fin cfg9.N, (cfg9.win 2).flush t = true ∧ i ∈ ((cfg9.win 2).blk t).view.set := by
  have hi0 : (i 0).val < 100000 := (i 0).isLt
  have hi1 : (i 1).val < 64 := (i 1).isLt
  have hN : (i 0).val / 2000 < cfg9.N := by rw [show cfg9.N = 50 from N_9]; omega
  have eo := (blockIdx9 ⟨(i 0).val / 2000, hN⟩).2.2
  have eo0 : win9_2.index ⟨(i 0).val / 2000, hN⟩ (0 : Fin 2) = (i 0).val / 2000 := eo.1
  have eo1 : win9_2.index ⟨(i 0).val / 2000, hN⟩ (1 : Fin 2) = 0 := eo.2
  refine ⟨⟨(i 0).val / 2000, hN⟩, flush9_2 _, ?_⟩
  rw [mem_block9]
  intro a
  match a with
  | ⟨0, _⟩ => show win9_2.index ⟨(i 0).val / 2000, hN⟩ (0 : Fin 2) * 2000 ≤ (i 0).val ∧ (i 0).val < win9_2.index ⟨(i 0).val / 2000, hN⟩ (0 : Fin 2) * 2000 + 2000; omega
  | ⟨1, _⟩ => show win9_2.index ⟨(i 0).val / 2000, hN⟩ (1 : Fin 2) * 64 ≤ (i 1).val ∧ (i 1).val < win9_2.index ⟨(i 0).val / 2000, hN⟩ (1 : Fin 2) * 64 + 64; omega

/-- REGION 9: the output array after the region is the first array with the row vector added to every row, positive part. -/
theorem region9_value (c : Dev nD) :
    (dat9 (F := Ideal) V c).arrAt 2 cfg9.N
      = Cert.RowOps.posPart (Cert.RowOps.addRow (V c (Pipeline.arrRef spec9 0)) (V c (Pipeline.arrRef spec9 1))) :=
  (dat9 (F := Ideal) V c).arrAt_eq_of_cover 2 _ (fun t _ => flushed9 V c t) covered9

end Cert.KernelIdeal.RegionValue

end
-- ==== Proof.TransformValue10.lean ====
/-
  Region 10 of the kernel (a row-blocked product with a resident 64×64 matrix), as one function of the arrays it
  finds: after its 50 grid points the output array holds, at every entry (r, j), the sum over k of X (r, k) · W (k, j).
  Each grid point t writes rows 2000·t … 2000·t + 1999; the 50 blocks cover the 100000 rows.
-/
import proofs.«168298_j84988812853302_1_alg».proof.Proof.Gen.KernelIdeal.Frame
import proofs.«168298_j84988812853302_1_alg».proof.Proof.BodyAt
import proofs.«168298_j84988812853302_1_alg».proof.Proof.RowOps
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx Cert.KernelIdeal.BodyAt
open Idealize.ShloMosaic.Pipeline (Dat)
open Facts₀ Facts

variable (V : (c : Dev nD) → (b : Ref sig .tc) → Buf (Elt Ideal) ((c : Thread nD τ).loc b))

/-- The zero offsets of a whole-block access, as a constant function. -/
theorem zeroOff10 : (![0, 0] : Fin 2 → Nat) = fun _ => 0 := funext fun a => by fin_cases a <;> rfl

/-- The index maps over the grid: the row-blocked windows sit at block (t, 0), the matrix at block (0, 0). -/
theorem blockIdx10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

/-- What the body stores at point t, entry by entry: the row-times-matrix sum at the entry's place in the array. -/
theorem stored10_at (c : Dev nD) (t : Fin cfg10.N) (j : S2000x64.Idx) :
    k10_pay1 (F := Ideal) (iblk10 V c 0 t) (iblk10 V c 1 t) j
      = Cert.RowOps.rowsMul (V c (Pipeline.arrRef spec10 0)) (V c (Pipeline.arrRef spec10 1)) (((cfg10.win 2).blk t).view.emb j) := by
  obtain ⟨e0, e1, e2, e3, e4, e5⟩ := blockIdx10 t
  obtain ⟨p, q, rfl⟩ : ∃ (p : Fin 2000) (q : Fin 64), j = ix2 p q := ⟨j 0, j 1, eq_ix2 j⟩
  refine (pay10_at _ _ p q).trans ?_
  unfold Cert.RowOps.rowsMul
  refine Finset.sum_congr rfl fun k _ => ?_
  have hx : ((cfg10.win 0).blk t).view.emb (ix2 p k) = ix2 ((((cfg10.win 2).blk t).view.emb (ix2 p q)) 0) k := by
    funext a; apply Fin.ext
    match a with
    | ⟨0, _⟩ => show win10_0.index t (0 : Fin 2) * 2000 + 1 * p.val = win10_2.index t (0 : Fin 2) * 2000 + 1 * p.val; omega
    | ⟨1, _⟩ => show win10_0.index t (1 : Fin 2) * 64 + 1 * k.val = k.val; omega
  have hw : ((cfg10.win 1).blk t).view.emb (ix2 k q) = ix2 k ((((cfg10.win 2).blk t).view.emb (ix2 p q)) 1) := by
    funext a; apply Fin.ext
    match a with
    | ⟨0, _⟩ => show win10_1.index t (0 : Fin 2) * 64 + 1 * k.val = k.val; omega
    | ⟨1, _⟩ => show win10_1.index t (1 : Fin 2) * 64 + 1 * q.val = win10_2.index t (1 : Fin 2) * 64 + 1 * q.val; omega
  have key : ∀ (X : S100000x64.Idx → EReal) (W : S64x64.Idx → EReal),
      X (((cfg10.win 0).blk t).view.emb (ix2 p k)) * W (((cfg10.win 1).blk t).view.emb (ix2 k q))
        = X (ix2 ((((cfg10.win 2).blk t).view.emb (ix2 p q)) 0) k) * W (ix2 k ((((cfg10.win 2).blk t).view.emb (ix2 p q)) 1)) :=
    fun X W => by rw [hx, hw]; try rfl
  exact key (V c (Pipeline.arrRef spec10 0)) (V c (Pipeline.arrRef spec10 1))

/-- What point t writes back is block t of the row-times-matrix array. -/
theorem flushed10 (c : Dev nD) (t : Fin cfg10.N) :
    (dat10 (F := Ideal) V c).flushed 2 t = ((cfg10.win 2).blk t).view.read (Elt Ideal)
      (Cert.RowOps.rowsMul (V c (Pipeline.arrRef spec10 0)) (V c (Pipeline.arrRef spec10 1))) := by
  show (cfg10.win 2).cut (grid10.coords t) ((dat10 (F := Ideal) V c).after 2 t) = _
  rw [after10_2]
  unfold out10_2
  rw [View.canon_unit_zero zeroOff10]
  simp only [View.ld_unit_zero (S := S2000x64) zeroOff10, View.ld_unit_zero (S := S64x64) zeroOff10]
  funext j
  exact stored10_at V c t j

/-- An entry of the array is in point t's block iff each coordinate is in the block's range. -/
theorem mem_block10 (t : Fin cfg10.N) (i : S100000x64.Idx) :
    i ∈ ((cfg10.win 2).blk t).view.set ↔ ∀ a : Fin 2, win10_2.index t a * S2000x64.size a ≤ (i a).val ∧ (i a).val < win10_2.index t a * S2000x64.size a + S2000x64.size a := by
  show i ∈ ((View.whole main_v175).slice (win10_2.rect t)).set ↔ _
  rw [View.set_slice_whole, Rect.mem_set_unit]
  exact Iff.rfl

/-- Every entry is in some point's block: row r is in block r / 2000. -/
theorem covered10 (i : S100000x64.Idx) :
    ∃ t : Fin cfg10.N, (cfg10.win 2).flush t = true ∧ i ∈ ((cfg10.win 2).blk t).view.set := by
  have hi0 : (i 0).val < 100000 := (i 0).isLt
  have hi1 : (i 1).val < 64 := (i 1).isLt
  have hN : (i 0).val / 2000 < cfg10.N := by rw [show cfg10.N = 50 from N_10]; omega
  obtain ⟨e0, e1, e2, e3, e4, e5⟩ := blockIdx10 ⟨(i 0).val / 2000, hN⟩
  have e4' : win10_2.index ⟨(i 0).val / 2000, hN⟩ (0 : Fin 2) = (i 0).val / 2000 := e4
  refine ⟨⟨(i 0).val / 2000, hN⟩, flush10_2 _, ?_⟩
  rw [mem_block10]
  intro a
  match a with
  | ⟨0, _⟩ => show win10_2.index ⟨(i 0).val / 2000, hN⟩ (0 : Fin 2) * 2000 ≤ (i 0).val ∧ (i 0).val < win10_2.index ⟨(i 0).val / 2000, hN⟩ (0 : Fin 2) * 2000 + 2000; omega
  | ⟨1, _⟩ => show win10_2.index ⟨(i 0).val / 2000, hN⟩ (1 : Fin 2) * 64 ≤ (i 1).val ∧ (i 1).val < win10_2.index ⟨(i 0).val / 2000, hN⟩ (1 : Fin 2) * 64 + 64; omega

/-- REGION 10: the output array after the region is every row of the first array times the matrix. -/
theorem region10_value (c : Dev nD) :
    (dat10 (F := Ideal) V c).arrAt 2 cfg10.N
      = Cert.RowOps.rowsMul (V c (Pipeline.arrRef spec10 0)) (V c (Pipeline.arrRef spec10 1)) :=
  (dat10 (F := Ideal) V c).arrAt_eq_of_cover 2 _ (fun t _ => flushed10 V c t) covered10

end Cert.KernelIdeal.RegionValue

end
-- ==== Proof.BiasValue11.lean ====
/-
  Region 11 of the kernel (a row vector added to every row of a row-blocked array, then the positive part), as one
  function of the arrays it finds: after its 50 grid points the output array holds, at every entry (r, j),
  max (A (r, j) + b (0, j)) 0. Each grid point t writes rows 2000·t … 2000·t + 1999; the 50 blocks cover the 100000 rows.
-/
import proofs.«168298_j84988812853302_1_alg».proof.Proof.Gen.KernelIdeal.Frame
import proofs.«168298_j84988812853302_1_alg».proof.Proof.BodyAt
import proofs.«168298_j84988812853302_1_alg».proof.Proof.RowOps
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx Cert.KernelIdeal.BodyAt
open Idealize.ShloMosaic.Pipeline (Dat)
open Facts₀ Facts

variable (V : (c : Dev nD) → (b : Ref sig .tc) → Buf (Elt Ideal) ((c : Thread nD τ).loc b))

/-- The zero offsets of a whole-block access, as a constant function. -/
theorem zeroOff11 : (![0, 0] : Fin 2 → Nat) = fun _ => 0 := funext fun a => by fin_cases a <;> rfl

/-- The index maps over the grid: the row-blocked windows sit at block (t, 0), the row vector at block (0, 0). -/
theorem blockIdx11 : ∀ t : Fin cfg11.N, (win11_0.index t (0 : Fin 2) = t.val ∧ win11_0.index t (1 : Fin 2) = 0)
    ∧ (win11_1.index t (0 : Fin 2) = 0 ∧ win11_1.index t (1 : Fin 2) = 0)
    ∧ (win11_2.index t (0 : Fin 2) = t.val ∧ win11_2.index t (1 : Fin 2) = 0) :=
  (by decide +kernel : ∀ t : Fin grid11.N, _)

/-- What the body stores at point t, entry by entry: the specification at the entry's place in the array. -/
theorem stored11_at (c : Dev nD) (t : Fin cfg11.N) (j : S2000x64.Idx) :
    k11_pay1 (F := Ideal) (iblk11 V c 0 t) (iblk11 V c 1 t) j
      = (Cert.RowOps.posPart (Cert.RowOps.addRow (V c (Pipeline.arrRef spec11 0)) (V c (Pipeline.arrRef spec11 1)))) (((cfg11.win 2).blk t).view.emb j) := by
  obtain ⟨⟨e0, e1⟩, ⟨e2, e3⟩, ⟨e4, e5⟩⟩ := blockIdx11 t
  obtain ⟨p, q, rfl⟩ : ∃ (p : Fin 2000) (q : Fin 64), j = ix2 p q := ⟨j 0, j 1, eq_ix2 j⟩
  refine (pay11_at _ _ p q).trans ?_
  have hx : ((cfg11.win 0).blk t).view.emb (ix2 p q) = ((cfg11.win 2).blk t).view.emb (ix2 p q) := by
    funext a; apply Fin.ext
    match a with
    | ⟨0, _⟩ => show win11_0.index t (0 : Fin 2) * 2000 + 1 * p.val = win11_2.index t (0 : Fin 2) * 2000 + 1 * p.val; omega
    | ⟨1, _⟩ => show win11_0.index t (1 : Fin 2) * 64 + 1 * q.val = win11_2.index t (1 : Fin 2) * 64 + 1 * q.val; omega
  have hb : ((cfg11.win 1).blk t).view.emb (ix2 0 q) = ix2 0 ((((cfg11.win 2).blk t).view.emb (ix2 p q)) 1) := by
    funext a; apply Fin.ext
    match a with
    | ⟨0, _⟩ => show win11_1.index t (0 : Fin 2) * 1 + 1 * 0 = 0; omega
    | ⟨1, _⟩ => show win11_1.index t (1 : Fin 2) * 64 + 1 * q.val = win11_2.index t (1 : Fin 2) * 64 + 1 * q.val; omega
  have key : ∀ (X : S100000x64.Idx → EReal) (b : S1x64.Idx → EReal),
      max (X (((cfg11.win 0).blk t).view.emb (ix2 p q)) + b (((cfg11.win 1).blk t).view.emb (ix2 0 q))) 0
        = max (X (((cfg11.win 2).blk t).view.emb (ix2 p q)) + b (ix2 0 ((((cfg11.win 2).blk t).view.emb (ix2 p q)) 1))) 0 :=
    fun X b => by rw [hx, hb]; try rfl
  exact key (V c (Pipeline.arrRef spec11 0)) (V c (Pipeline.arrRef spec11 1))

/-- What point t writes back is block t of the specified array. -/
theorem flushed11 (c : Dev nD) (t : Fin cfg11.N) :
    (dat11 (F := Ideal) V c).flushed 2 t = ((cfg11.win 2).blk t).view.read (Elt Ideal)
      (Cert.RowOps.posPart (Cert.RowOps.addRow (V c (Pipeline.arrRef spec11 0)) (V c (Pipeline.arrRef spec11 1)))) := by
  show (cfg11.win 2).cut (grid11.coords t) ((dat11 (F := Ideal) V c).after 2 t) = _
  rw [after11_2]
  unfold out11_2
  rw [View.canon_unit_zero zeroOff11]
  simp only [View.ld_unit_zero (S := S2000x64) zeroOff11, View.ld_unit_zero (S := S1x64) zeroOff11]
  funext j
  exact stored11_at V c t j

/-- An entry of the array is in point t's block iff each coordinate is in the block's range. -/
theorem mem_block11 (t : Fin cfg11.N) (i : S100000x64.Idx) :
    i ∈ ((cfg11.win 2).blk t).view.set ↔ ∀ a : Fin 2, win11_2.index t a * S2000x64.size a ≤ (i a).val ∧ (i a).val < win11_2.index t a * S2000x64.size a + S2000x64.size a := by
  show i ∈ ((View.whole main_v190).slice (win11_2.rect t)).set ↔ _
  rw [View.set_slice_whole, Rect.mem_set_unit]
  exact Iff.rfl

/-- Every entry is in some point's block: row r is in block r / 2000. -/
theorem covered11 (i : S100000x64.Idx) :
    ∃ t : Fin cfg11.N, (cfg11.win 2).flush t = true ∧ i ∈ ((cfg11.win 2).blk t).view.set := by
  have hi0 : (i 0).val < 100000 := (i 0).isLt
  have hi1 : (i 1).val < 64 := (i 1).isLt
  have hN : (i 0).val / 2000 < cfg11.N := by rw [show cfg11.N = 50 from N_11]; omega
  have eo := (blockIdx11 ⟨(i 0).val / 2000, hN⟩).2.2
  have eo0 : win11_2.index ⟨(i 0).val / 2000, hN⟩ (0 : Fin 2) = (i 0).val / 2000 := eo.1
  have eo1 : win11_2.index ⟨(i 0).val / 2000, hN⟩ (1 : Fin 2) = 0 := eo.2
  refine ⟨⟨(i 0).val / 2000, hN⟩, flush11_2 _, ?_⟩
  rw [mem_block11]
  intro a
  match a with
  | ⟨0, _⟩ => show win11_2.index ⟨(i 0).val / 2000, hN⟩ (0 : Fin 2) * 2000 ≤ (i 0).val ∧ (i 0).val < win11_2.index ⟨(i 0).val / 2000, hN⟩ (0 : Fin 2) * 2000 + 2000; omega
  | ⟨1, _⟩ => show win11_2.index ⟨(i 0).val / 2000, hN⟩ (1 : Fin 2) * 64 ≤ (i 1).val ∧ (i 1).val < win11_2.index ⟨(i 0).val / 2000, hN⟩ (1 : Fin 2) * 64 + 64; omega

/-- REGION 11: the output array after the region is the first array with the row vector added to every row, positive part. -/
theorem region11_value (c : Dev nD) :
    (dat11 (F := Ideal) V c).arrAt 2 cfg11.N
      = Cert.RowOps.posPart (Cert.RowOps.addRow (V c (Pipeline.arrRef spec11 0)) (V c (Pipeline.arrRef spec11 1))) :=
  (dat11 (F := Ideal) V c).arrAt_eq_of_cover 2 _ (fun t _ => flushed11 V c t) covered11

end Cert.KernelIdeal.RegionValue

end
-- ==== Proof.SimRegB.lean ====
/-
  The regions against the reference's stretches that compute the same thing. A region's output array, after its grid
  has run, is one whole-array function of the arrays the region found (a row-by-matrix product, a bias row added and the
  positive part taken, or both); the reference's corresponding operations, read entry by entry, are the same function
  of the buffers that agree with those arrays.
-/
import proofs.«168298_j84988812853302_1_alg».proof.Proof.Gen.KernelIdeal.Frame
import proofs.«168298_j84988812853302_1_alg».proof.Proof.RefSegs
import proofs.«168298_j84988812853302_1_alg».proof.Proof.RowOps
import proofs.«168298_j84988812853302_1_alg».proof.Proof.RowLayout
import proofs.«168298_j84988812853302_1_alg».proof.Proof.LibFinite
import proofs.«168298_j84988812853302_1_alg».proof.Proof.RowForms
import proofs.«168298_j84988812853302_1_alg».proof.Proof.RefBiasRelu
import proofs.«168298_j84988812853302_1_alg».proof.Proof.TransformValue8
import proofs.«168298_j84988812853302_1_alg».proof.Proof.BiasValue9
import proofs.«168298_j84988812853302_1_alg».proof.Proof.TransformValue10
import proofs.«168298_j84988812853302_1_alg».proof.Proof.BiasValue11
import Idealize.ShloMosaic.Lib.StableHlo.Run
import Idealize.ShloMosaic.PureOps.Ideal

set_option maxRecDepth 16384
set_option maxHeartbeats 16000000

noncomputable section

namespace Cert.Sim

open Idealize.ShloMosaic Idealize.ShloMosaic.TcCoe Idealize.SL.Sem Idealize.ShloMosaic.StableHlo
open Idealize.ShloMosaic.ValueIdx Cert.RowOps Cert.LibFinite

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- Region 8 multiplies every row of its first array by its 64×64 second array; the reference's `dot_general` of the
    arrays that agree with them is the same row-by-matrix product. -/
theorem conv8
    (h_x : Cert.KernelIdeal.Gen.W19 m ρ c (Proc.devRef .tc Cert.KernelIdeal.main_v150) = Cert.ReferenceIdeal.Segs.U15 m' c (Proc.devRef .tc Cert.ReferenceIdeal.main_v172))
    (h_w : Cert.KernelIdeal.Gen.W19 m ρ c (Proc.devRef .tc Cert.KernelIdeal.main_v152) = Cert.ReferenceIdeal.Segs.U15 m' c (Proc.devRef .tc Cert.ReferenceIdeal.main_v174)) :
    Cert.KernelIdeal.Gen.W20 m ρ c (Proc.devRef .tc Cert.KernelIdeal.main_v155) = Cert.ReferenceIdeal.Segs.U16 m' c (Proc.devRef .tc Cert.ReferenceIdeal.main_v177) := by
  have e1 : Cert.KernelIdeal.Gen.W20 m ρ c (Proc.devRef .tc Cert.KernelIdeal.main_v155) = rowsMul (n := 100000) (Cert.KernelIdeal.Gen.W19 m ρ c (Proc.devRef .tc Cert.KernelIdeal.main_v150)) (Cert.KernelIdeal.Gen.W19 m ρ c (Proc.devRef .tc Cert.KernelIdeal.main_v152)) :=
    (Cert.KernelIdeal.Gen.W20_arr m ρ c 2).trans (Cert.KernelIdeal.RegionValue.region8_value (Cert.KernelIdeal.Gen.V19 m ρ) c)
  have e2 : Cert.ReferenceIdeal.Segs.U16 m' c (Proc.devRef .tc Cert.ReferenceIdeal.main_v177) = rowsMul (n := 100000) (Cert.ReferenceIdeal.Segs.U15 m' c (Proc.devRef .tc Cert.ReferenceIdeal.main_v172)) (Cert.ReferenceIdeal.Segs.U15 m' c (Proc.devRef .tc Cert.ReferenceIdeal.main_v174)) := by
    show StableHlo.after Cert.ReferenceIdeal.Segs.seg15 (Cert.ReferenceIdeal.Segs.U15 m' c) (Proc.devRef .tc Cert.ReferenceIdeal.main_v177) = _
    after_results_simp
    exact Cert.RowForms.dotGeneral_100000_eq_rowsMul _ _
  rw [e1, e2, h_x, h_w]

/-- The stretch's operator tree over two arbitrary arrays, its copies between a called function's buffers read through:
    it is the bias-and-positive-part tree. -/
theorem bias9_tree (A : FVec Ideal Cert.ReferenceIdeal.S100000x64 .f32) (v : FVec Ideal Cert.ReferenceIdeal.S64 .f32) :
    (TRef.of (T := ⟨Cert.ReferenceIdeal.S100000x64, .f32⟩) Cert.ReferenceIdeal.main_v194).toBuf (Val := Elt Ideal)
      (maximumf (F := Ideal) (s := Cert.ReferenceIdeal.S100000x64) (φ := .f32)
        ((TRef.of (T := ⟨Cert.ReferenceIdeal.S100000x64, .f32⟩) Cert.ReferenceIdeal.main_v193).ofBuf (Val := Elt Ideal)
          (addf (F := Ideal) (s := Cert.ReferenceIdeal.S100000x64) (φ := .f32) A (broadcastInDim Cert.ReferenceIdeal.S100000x64 ![0, 1] Cert.ReferenceIdeal.Gen.bcast_S1x64_S100000x64_0_1
            (broadcastInDim Cert.ReferenceIdeal.S1x64 ![1] Cert.ReferenceIdeal.Gen.bcast_S64_S1x64_1 v))))
        ((TRef.of (T := ⟨Cert.ReferenceIdeal.S100000x64, .f32⟩) Cert.ReferenceIdeal.main_call7_v0).ofBuf (Val := Elt Ideal)
          ((TRef.of (T := ⟨Cert.ReferenceIdeal.S100000x64, .f32⟩) Cert.ReferenceIdeal.main_call7_v0).toBuf (Val := Elt Ideal)
            (broadcastInDim Cert.ReferenceIdeal.S100000x64 ![] Cert.ReferenceIdeal.Gen.bcast_S_S100000x64
              ((TRef.of (T := ⟨Cert.ReferenceIdeal.S_, .f32⟩) Cert.ReferenceIdeal.main_call7_cst).ofBuf (Val := Elt Ideal)
                ((TRef.of (T := ⟨Cert.ReferenceIdeal.S_, .f32⟩) Cert.ReferenceIdeal.main_call7_cst).toBuf (Val := Elt Ideal)
                  (constant (F := Ideal) Cert.ReferenceIdeal.S_ .f32 0x00000000#32)))))))
      = biasRelu100000 A v := rfl

/-- The reference's stretch leaves in its result the bias vector added to every row and the
    positive part, over the buffers it reads. -/
theorem bias9_ref :
    Cert.ReferenceIdeal.Segs.U18 m' c (Proc.devRef .tc Cert.ReferenceIdeal.main_v194)
      = biasRelu100000 (Cert.ReferenceIdeal.Segs.U17 m' c (Proc.devRef .tc Cert.ReferenceIdeal.main_v190)) (Cert.ReferenceIdeal.Segs.U17 m' c (Proc.devRef .tc Cert.ReferenceIdeal.main_v176)) := by
  show StableHlo.after Cert.ReferenceIdeal.Segs.seg17 (Cert.ReferenceIdeal.Segs.U17 m' c) (Proc.devRef .tc Cert.ReferenceIdeal.main_v194) = _
  after_results_simp
  exact bias9_tree _ _

/-- Region 9 adds its 1×64 second array to every row of its first and takes the positive part; the reference broadcasts the
    bias vector over the rows, adds and takes the maximum with zero: the same function of arrays that agree, the row holding the vector. -/
theorem bias9
    (h_a : Cert.KernelIdeal.Gen.W21 m ρ c (Proc.devRef .tc Cert.KernelIdeal.main_v168) = Cert.ReferenceIdeal.Segs.U17 m' c (Proc.devRef .tc Cert.ReferenceIdeal.main_v190))
    (h_row : ∀ j : Fin 64, (Cert.KernelIdeal.Gen.W21 m ρ c (Proc.devRef .tc Cert.KernelIdeal.main_v169)) (ix2 0 j) = (Cert.ReferenceIdeal.Segs.U17 m' c (Proc.devRef .tc Cert.ReferenceIdeal.main_v176)) (ix1 j)) :
    Cert.KernelIdeal.Gen.W22 m ρ c (Proc.devRef .tc Cert.KernelIdeal.main_v170) = Cert.ReferenceIdeal.Segs.U18 m' c (Proc.devRef .tc Cert.ReferenceIdeal.main_v194) := by
  have e1 : Cert.KernelIdeal.Gen.W22 m ρ c (Proc.devRef .tc Cert.KernelIdeal.main_v170) = Cert.RowOps.posPart (addRow (n := 100000) (Cert.KernelIdeal.Gen.W21 m ρ c (Proc.devRef .tc Cert.KernelIdeal.main_v168)) (Cert.KernelIdeal.Gen.W21 m ρ c (Proc.devRef .tc Cert.KernelIdeal.main_v169))) :=
    (Cert.KernelIdeal.Gen.W22_arr m ρ c 2).trans (Cert.KernelIdeal.RegionValue.region9_value (Cert.KernelIdeal.Gen.V21 m ρ) c)
  have e2 : Cert.ReferenceIdeal.Segs.U18 m' c (Proc.devRef .tc Cert.ReferenceIdeal.main_v194) = Cert.RowOps.posPart (addRow (n := 100000) (Cert.ReferenceIdeal.Segs.U17 m' c (Proc.devRef .tc Cert.ReferenceIdeal.main_v190)) (Cert.KernelIdeal.Gen.W21 m ρ c (Proc.devRef .tc Cert.KernelIdeal.main_v169))) := by
    rw [bias9_ref m' c]
    exact biasRelu100000_eq _ _ _ h_row
  rw [e1, e2, h_a]

/-- Region 10 multiplies every row of its first array by its 64×64 second array; the reference's `dot_general` of the
    arrays that agree with them is the same row-by-matrix product. -/
theorem conv10
    (h_x : Cert.KernelIdeal.Gen.W23 m ρ c (Proc.devRef .tc Cert.KernelIdeal.main_v170) = Cert.ReferenceIdeal.Segs.U19 m' c (Proc.devRef .tc Cert.ReferenceIdeal.main_v194))
    (h_w : Cert.KernelIdeal.Gen.W23 m ρ c (Proc.devRef .tc Cert.KernelIdeal.main_v172) = Cert.ReferenceIdeal.Segs.U19 m' c (Proc.devRef .tc Cert.ReferenceIdeal.main_v196)) :
    Cert.KernelIdeal.Gen.W24 m ρ c (Proc.devRef .tc Cert.KernelIdeal.main_v175) = Cert.ReferenceIdeal.Segs.U20 m' c (Proc.devRef .tc Cert.ReferenceIdeal.main_v199) := by
  have e1 : Cert.KernelIdeal.Gen.W24 m ρ c (Proc.devRef .tc Cert.KernelIdeal.main_v175) = rowsMul (n := 100000) (Cert.KernelIdeal.Gen.W23 m ρ c (Proc.devRef .tc Cert.KernelIdeal.main_v170)) (Cert.KernelIdeal.Gen.W23 m ρ c (Proc.devRef .tc Cert.KernelIdeal.main_v172)) :=
    (Cert.KernelIdeal.Gen.W24_arr m ρ c 2).trans (Cert.KernelIdeal.RegionValue.region10_value (Cert.KernelIdeal.Gen.V23 m ρ) c)
  have e2 : Cert.ReferenceIdeal.Segs.U20 m' c (Proc.devRef .tc Cert.ReferenceIdeal.main_v199) = rowsMul (n := 100000) (Cert.ReferenceIdeal.Segs.U19 m' c (Proc.devRef .tc Cert.ReferenceIdeal.main_v194)) (Cert.ReferenceIdeal.Segs.U19 m' c (Proc.devRef .tc Cert.ReferenceIdeal.main_v196)) := by
    show StableHlo.after Cert.ReferenceIdeal.Segs.seg19 (Cert.ReferenceIdeal.Segs.U19 m' c) (Proc.devRef .tc Cert.ReferenceIdeal.main_v199) = _
    after_results_simp
    exact Cert.RowForms.dotGeneral_100000_eq_rowsMul _ _
  rw [e1, e2, h_x, h_w]

/-- The stretch's operator tree over two arbitrary arrays, its copies between a called function's buffers read through:
    it is the bias-and-positive-part tree. -/
theorem bias11_tree (A : FVec Ideal Cert.ReferenceIdeal.S100000x64 .f32) (v : FVec Ideal Cert.ReferenceIdeal.S64 .f32) :
    (TRef.of (T := ⟨Cert.ReferenceIdeal.S100000x64, .f32⟩) Cert.ReferenceIdeal.main_v216).toBuf (Val := Elt Ideal)
      (maximumf (F := Ideal) (s := Cert.ReferenceIdeal.S100000x64) (φ := .f32)
        ((TRef.of (T := ⟨Cert.ReferenceIdeal.S100000x64, .f32⟩) Cert.ReferenceIdeal.main_v215).ofBuf (Val := Elt Ideal)
          (addf (F := Ideal) (s := Cert.ReferenceIdeal.S100000x64) (φ := .f32) A (broadcastInDim Cert.ReferenceIdeal.S100000x64 ![0, 1] Cert.ReferenceIdeal.Gen.bcast_S1x64_S100000x64_0_1
            (broadcastInDim Cert.ReferenceIdeal.S1x64 ![1] Cert.ReferenceIdeal.Gen.bcast_S64_S1x64_1 v))))
        ((TRef.of (T := ⟨Cert.ReferenceIdeal.S100000x64, .f32⟩) Cert.ReferenceIdeal.main_call8_v0).ofBuf (Val := Elt Ideal)
          ((TRef.of (T := ⟨Cert.ReferenceIdeal.S100000x64, .f32⟩) Cert.ReferenceIdeal.main_call8_v0).toBuf (Val := Elt Ideal)
            (broadcastInDim Cert.ReferenceIdeal.S100000x64 ![] Cert.ReferenceIdeal.Gen.bcast_S_S100000x64
              ((TRef.of (T := ⟨Cert.ReferenceIdeal.S_, .f32⟩) Cert.ReferenceIdeal.main_call8_cst).ofBuf (Val := Elt Ideal)
                ((TRef.of (T := ⟨Cert.ReferenceIdeal.S_, .f32⟩) Cert.ReferenceIdeal.main_call8_cst).toBuf (Val := Elt Ideal)
                  (constant (F := Ideal) Cert.ReferenceIdeal.S_ .f32 0x00000000#32)))))))
      = biasRelu100000 A v := rfl

/-- The reference's stretch leaves in its result the bias vector added to every row and the
    positive part, over the buffers it reads. -/
theorem bias11_ref :
    Cert.ReferenceIdeal.Segs.U22 m' c (Proc.devRef .tc Cert.ReferenceIdeal.main_v216)
      = biasRelu100000 (Cert.ReferenceIdeal.Segs.U21 m' c (Proc.devRef .tc Cert.ReferenceIdeal.main_v212)) (Cert.ReferenceIdeal.Segs.U21 m' c (Proc.devRef .tc Cert.ReferenceIdeal.main_v198)) := by
  show StableHlo.after Cert.ReferenceIdeal.Segs.seg21 (Cert.ReferenceIdeal.Segs.U21 m' c) (Proc.devRef .tc Cert.ReferenceIdeal.main_v216) = _
  after_results_simp
  exact bias11_tree _ _

/-- Region 11 adds its 1×64 second array to every row of its first and takes the positive part; the reference broadcasts the
    bias vector over the rows, adds and takes the maximum with zero: the same function of arrays that agree, the row holding the vector. -/
theorem bias11
    (h_a : Cert.KernelIdeal.Gen.W25 m ρ c (Proc.devRef .tc Cert.KernelIdeal.main_v188) = Cert.ReferenceIdeal.Segs.U21 m' c (Proc.devRef .tc Cert.ReferenceIdeal.main_v212))
    (h_row : ∀ j : Fin 64, (Cert.KernelIdeal.Gen.W25 m ρ c (Proc.devRef .tc Cert.KernelIdeal.main_v189)) (ix2 0 j) = (Cert.ReferenceIdeal.Segs.U21 m' c (Proc.devRef .tc Cert.ReferenceIdeal.main_v198)) (ix1 j)) :
    Cert.KernelIdeal.Gen.W26 m ρ c (Proc.devRef .tc Cert.KernelIdeal.main_v190) = Cert.ReferenceIdeal.Segs.U22 m' c (Proc.devRef .tc Cert.ReferenceIdeal.main_v216) := by
  have e1 : Cert.KernelIdeal.Gen.W26 m ρ c (Proc.devRef .tc Cert.KernelIdeal.main_v190) = Cert.RowOps.posPart (addRow (n := 100000) (Cert.KernelIdeal.Gen.W25 m ρ c (Proc.devRef .tc Cert.KernelIdeal.main_v188)) (Cert.KernelIdeal.Gen.W25 m ρ c (Proc.devRef .tc Cert.KernelIdeal.main_v189))) :=
    (Cert.KernelIdeal.Gen.W26_arr m ρ c 2).trans (Cert.KernelIdeal.RegionValue.region11_value (Cert.KernelIdeal.Gen.V25 m ρ) c)
  have e2 : Cert.ReferenceIdeal.Segs.U22 m' c (Proc.devRef .tc Cert.ReferenceIdeal.main_v216) = Cert.RowOps.posPart (addRow (n := 100000) (Cert.ReferenceIdeal.Segs.U21 m' c (Proc.devRef .tc Cert.ReferenceIdeal.main_v212)) (Cert.KernelIdeal.Gen.W25 m ρ c (Proc.devRef .tc Cert.KernelIdeal.main_v189))) := by
    rw [bias11_ref m' c]
    exact biasRelu100000_eq _ _ _ h_row
  rw [e1, e2, h_a]

end Cert.Sim

end
-- ==== Proof.TransformValue12.lean ====
/-
  Region 12 of the kernel (a row-blocked product with a resident 64×64 matrix), as one function of the arrays it
  finds: after its 50 grid points the output array holds, at every entry (r, j), the sum over k of X (r, k) · W (k, j).
  Each grid point t writes rows 2000·t … 2000·t + 1999; the 50 blocks cover the 100000 rows.
-/
import proofs.«168298_j84988812853302_1_alg».proof.Proof.Gen.KernelIdeal.Frame
import proofs.«168298_j84988812853302_1_alg».proof.Proof.BodyAt
import proofs.«168298_j84988812853302_1_alg».proof.Proof.RowOps
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx Cert.KernelIdeal.BodyAt
open Idealize.ShloMosaic.Pipeline (Dat)
open Facts₀ Facts

variable (V : (c : Dev nD) → (b : Ref sig .tc) → Buf (Elt Ideal) ((c : Thread nD τ).loc b))

/-- The zero offsets of a whole-block access, as a constant function. -/
theorem zeroOff12 : (![0, 0] : Fin 2 → Nat) = fun _ => 0 := funext fun a => by fin_cases a <;> rfl

/-- The index maps over the grid: the row-blocked windows sit at block (t, 0), the matrix at block (0, 0). -/
theorem blockIdx12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = t.val ∧ win12_2.index t (1 : Fin 2) = 0 :=
  (by decide +kernel : ∀ t : Fin grid12.N, _)

/-- What the body stores at point t, entry by entry: the row-times-matrix sum at the entry's place in the array. -/
theorem stored12_at (c : Dev nD) (t : Fin cfg12.N) (j : S2000x64.Idx) :
    k12_pay1 (F := Ideal) (iblk12 V c 0 t) (iblk12 V c 1 t) j
      = Cert.RowOps.rowsMul (V c (Pipeline.arrRef spec12 0)) (V c (Pipeline.arrRef spec12 1)) (((cfg12.win 2).blk t).view.emb j) := by
  obtain ⟨e0, e1, e2, e3, e4, e5⟩ := blockIdx12 t
  obtain ⟨p, q, rfl⟩ : ∃ (p : Fin 2000) (q : Fin 64), j = ix2 p q := ⟨j 0, j 1, eq_ix2 j⟩
  refine (pay12_at _ _ p q).trans ?_
  unfold Cert.RowOps.rowsMul
  refine Finset.sum_congr rfl fun k _ => ?_
  have hx : ((cfg12.win 0).blk t).view.emb (ix2 p k) = ix2 ((((cfg12.win 2).blk t).view.emb (ix2 p q)) 0) k := by
    funext a; apply Fin.ext
    match a with
    | ⟨0, _⟩ => show win12_0.index t (0 : Fin 2) * 2000 + 1 * p.val = win12_2.index t (0 : Fin 2) * 2000 + 1 * p.val; omega
    | ⟨1, _⟩ => show win12_0.index t (1 : Fin 2) * 64 + 1 * k.val = k.val; omega
  have hw : ((cfg12.win 1).blk t).view.emb (ix2 k q) = ix2 k ((((cfg12.win 2).blk t).view.emb (ix2 p q)) 1) := by
    funext a; apply Fin.ext
    match a with
    | ⟨0, _⟩ => show win12_1.index t (0 : Fin 2) * 64 + 1 * k.val = k.val; omega
    | ⟨1, _⟩ => show win12_1.index t (1 : Fin 2) * 64 + 1 * q.val = win12_2.index t (1 : Fin 2) * 64 + 1 * q.val; omega
  have key : ∀ (X : S100000x64.Idx → EReal) (W : S64x64.Idx → EReal),
      X (((cfg12.win 0).blk t).view.emb (ix2 p k)) * W (((cfg12.win 1).blk t).view.emb (ix2 k q))
        = X (ix2 ((((cfg12.win 2).blk t).view.emb (ix2 p q)) 0) k) * W (ix2 k ((((cfg12.win 2).blk t).view.emb (ix2 p q)) 1)) :=
    fun X W => by rw [hx, hw]; try rfl
  exact key (V c (Pipeline.arrRef spec12 0)) (V c (Pipeline.arrRef spec12 1))

/-- What point t writes back is block t of the row-times-matrix array. -/
theorem flushed12 (c : Dev nD) (t : Fin cfg12.N) :
    (dat12 (F := Ideal) V c).flushed 2 t = ((cfg12.win 2).blk t).view.read (Elt Ideal)
      (Cert.RowOps.rowsMul (V c (Pipeline.arrRef spec12 0)) (V c (Pipeline.arrRef spec12 1))) := by
  show (cfg12.win 2).cut (grid12.coords t) ((dat12 (F := Ideal) V c).after 2 t) = _
  rw [after12_2]
  unfold out12_2
  rw [View.canon_unit_zero zeroOff12]
  simp only [View.ld_unit_zero (S := S2000x64) zeroOff12, View.ld_unit_zero (S := S64x64) zeroOff12]
  funext j
  exact stored12_at V c t j

/-- An entry of the array is in point t's block iff each coordinate is in the block's range. -/
theorem mem_block12 (t : Fin cfg12.N) (i : S100000x64.Idx) :
    i ∈ ((cfg12.win 2).blk t).view.set ↔ ∀ a : Fin 2, win12_2.index t a * S2000x64.size a ≤ (i a).val ∧ (i a).val < win12_2.index t a * S2000x64.size a + S2000x64.size a := by
  show i ∈ ((View.whole main_v195).slice (win12_2.rect t)).set ↔ _
  rw [View.set_slice_whole, Rect.mem_set_unit]
  exact Iff.rfl

/-- Every entry is in some point's block: row r is in block r / 2000. -/
theorem covered12 (i : S100000x64.Idx) :
    ∃ t : Fin cfg12.N, (cfg12.win 2).flush t = true ∧ i ∈ ((cfg12.win 2).blk t).view.set := by
  have hi0 : (i 0).val < 100000 := (i 0).isLt
  have hi1 : (i 1).val < 64 := (i 1).isLt
  have hN : (i 0).val / 2000 < cfg12.N := by rw [show cfg12.N = 50 from N_12]; omega
  obtain ⟨e0, e1, e2, e3, e4, e5⟩ := blockIdx12 ⟨(i 0).val / 2000, hN⟩
  have e4' : win12_2.index ⟨(i 0).val / 2000, hN⟩ (0 : Fin 2) = (i 0).val / 2000 := e4
  refine ⟨⟨(i 0).val / 2000, hN⟩, flush12_2 _, ?_⟩
  rw [mem_block12]
  intro a
  match a with
  | ⟨0, _⟩ => show win12_2.index ⟨(i 0).val / 2000, hN⟩ (0 : Fin 2) * 2000 ≤ (i 0).val ∧ (i 0).val < win12_2.index ⟨(i 0).val / 2000, hN⟩ (0 : Fin 2) * 2000 + 2000; omega
  | ⟨1, _⟩ => show win12_2.index ⟨(i 0).val / 2000, hN⟩ (1 : Fin 2) * 64 ≤ (i 1).val ∧ (i 1).val < win12_2.index ⟨(i 0).val / 2000, hN⟩ (1 : Fin 2) * 64 + 64; omega

/-- REGION 12: the output array after the region is every row of the first array times the matrix. -/
theorem region12_value (c : Dev nD) :
    (dat12 (F := Ideal) V c).arrAt 2 cfg12.N
      = Cert.RowOps.rowsMul (V c (Pipeline.arrRef spec12 0)) (V c (Pipeline.arrRef spec12 1)) :=
  (dat12 (F := Ideal) V c).arrAt_eq_of_cover 2 _ (fun t _ => flushed12 V c t) covered12

end Cert.KernelIdeal.RegionValue

end
-- ==== Proof.BiasValue13.lean ====
/-
  Region 13 of the kernel (a row vector added to every row of a row-blocked array), as one
  function of the arrays it finds: after its 50 grid points the output array holds, at every entry (r, j),
  A (r, j) + b (0, j). Each grid point t writes rows 2000·t … 2000·t + 1999; the 50 blocks cover the 100000 rows.
-/
import proofs.«168298_j84988812853302_1_alg».proof.Proof.Gen.KernelIdeal.Frame
import proofs.«168298_j84988812853302_1_alg».proof.Proof.BodyAt
import proofs.«168298_j84988812853302_1_alg».proof.Proof.RowOps
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx Cert.KernelIdeal.BodyAt
open Idealize.ShloMosaic.Pipeline (Dat)
open Facts₀ Facts

variable (V : (c : Dev nD) → (b : Ref sig .tc) → Buf (Elt Ideal) ((c : Thread nD τ).loc b))

/-- The zero offsets of a whole-block access, as a constant function. -/
theorem zeroOff13 : (![0, 0] : Fin 2 → Nat) = fun _ => 0 := funext fun a => by fin_cases a <;> rfl

/-- The index maps over the grid: the row-blocked windows sit at block (t, 0), the row vector at block (0, 0). -/
theorem blockIdx13 : ∀ t : Fin cfg13.N, (win13_0.index t (0 : Fin 2) = t.val ∧ win13_0.index t (1 : Fin 2) = 0)
    ∧ (win13_1.index t (0 : Fin 2) = 0 ∧ win13_1.index t (1 : Fin 2) = 0)
    ∧ (win13_2.index t (0 : Fin 2) = t.val ∧ win13_2.index t (1 : Fin 2) = 0) :=
  (by decide +kernel : ∀ t : Fin grid13.N, _)

/-- What the body stores at point t, entry by entry: the specification at the entry's place in the array. -/
theorem stored13_at (c : Dev nD) (t : Fin cfg13.N) (j : S2000x64.Idx) :
    k13_pay1 (F := Ideal) (iblk13 V c 0 t) (iblk13 V c 1 t) j
      = (Cert.RowOps.addRow (V c (Pipeline.arrRef spec13 0)) (V c (Pipeline.arrRef spec13 1))) (((cfg13.win 2).blk t).view.emb j) := by
  obtain ⟨⟨e0, e1⟩, ⟨e2, e3⟩, ⟨e4, e5⟩⟩ := blockIdx13 t
  obtain ⟨p, q, rfl⟩ : ∃ (p : Fin 2000) (q : Fin 64), j = ix2 p q := ⟨j 0, j 1, eq_ix2 j⟩
  refine (pay13_at _ _ p q).trans ?_
  have hx : ((cfg13.win 0).blk t).view.emb (ix2 p q) = ((cfg13.win 2).blk t).view.emb (ix2 p q) := by
    funext a; apply Fin.ext
    match a with
    | ⟨0, _⟩ => show win13_0.index t (0 : Fin 2) * 2000 + 1 * p.val = win13_2.index t (0 : Fin 2) * 2000 + 1 * p.val; omega
    | ⟨1, _⟩ => show win13_0.index t (1 : Fin 2) * 64 + 1 * q.val = win13_2.index t (1 : Fin 2) * 64 + 1 * q.val; omega
  have hb : ((cfg13.win 1).blk t).view.emb (ix2 0 q) = ix2 0 ((((cfg13.win 2).blk t).view.emb (ix2 p q)) 1) := by
    funext a; apply Fin.ext
    match a with
    | ⟨0, _⟩ => show win13_1.index t (0 : Fin 2) * 1 + 1 * 0 = 0; omega
    | ⟨1, _⟩ => show win13_1.index t (1 : Fin 2) * 64 + 1 * q.val = win13_2.index t (1 : Fin 2) * 64 + 1 * q.val; omega
  have key : ∀ (X : S100000x64.Idx → EReal) (b : S1x64.Idx → EReal),
      X (((cfg13.win 0).blk t).view.emb (ix2 p q)) + b (((cfg13.win 1).blk t).view.emb (ix2 0 q))
        = X (((cfg13.win 2).blk t).view.emb (ix2 p q)) + b (ix2 0 ((((cfg13.win 2).blk t).view.emb (ix2 p q)) 1)) :=
    fun X b => by rw [hx, hb]; try rfl
  exact key (V c (Pipeline.arrRef spec13 0)) (V c (Pipeline.arrRef spec13 1))

/-- What point t writes back is block t of the specified array. -/
theorem flushed13 (c : Dev nD) (t : Fin cfg13.N) :
    (dat13 (F := Ideal) V c).flushed 2 t = ((cfg13.win 2).blk t).view.read (Elt Ideal)
      (Cert.RowOps.addRow (V c (Pipeline.arrRef spec13 0)) (V c (Pipeline.arrRef spec13 1))) := by
  show (cfg13.win 2).cut (grid13.coords t) ((dat13 (F := Ideal) V c).after 2 t) = _
  rw [after13_2]
  unfold out13_2
  rw [View.canon_unit_zero zeroOff13]
  simp only [View.ld_unit_zero (S := S2000x64) zeroOff13, View.ld_unit_zero (S := S1x64) zeroOff13]
  funext j
  exact stored13_at V c t j

/-- An entry of the array is in point t's block iff each coordinate is in the block's range. -/
theorem mem_block13 (t : Fin cfg13.N) (i : S100000x64.Idx) :
    i ∈ ((cfg13.win 2).blk t).view.set ↔ ∀ a : Fin 2, win13_2.index t a * S2000x64.size a ≤ (i a).val ∧ (i a).val < win13_2.index t a * S2000x64.size a + S2000x64.size a := by
  show i ∈ ((View.whole main_v210).slice (win13_2.rect t)).set ↔ _
  rw [View.set_slice_whole, Rect.mem_set_unit]
  exact Iff.rfl

/-- Every entry is in some point's block: row r is in block r / 2000. -/
theorem covered13 (i : S100000x64.Idx) :
    ∃ t : Fin cfg13.N, (cfg13.win 2).flush t = true ∧ i ∈ ((cfg13.win 2).blk t).view.set := by
  have hi0 : (i 0).val < 100000 := (i 0).isLt
  have hi1 : (i 1).val < 64 := (i 1).isLt
  have hN : (i 0).val / 2000 < cfg13.N := by rw [show cfg13.N = 50 from N_13]; omega
  have eo := (blockIdx13 ⟨(i 0).val / 2000, hN⟩).2.2
  have eo0 : win13_2.index ⟨(i 0).val / 2000, hN⟩ (0 : Fin 2) = (i 0).val / 2000 := eo.1
  have eo1 : win13_2.index ⟨(i 0).val / 2000, hN⟩ (1 : Fin 2) = 0 := eo.2
  refine ⟨⟨(i 0).val / 2000, hN⟩, flush13_2 _, ?_⟩
  rw [mem_block13]
  intro a
  match a with
  | ⟨0, _⟩ => show win13_2.index ⟨(i 0).val / 2000, hN⟩ (0 : Fin 2) * 2000 ≤ (i 0).val ∧ (i 0).val < win13_2.index ⟨(i 0).val / 2000, hN⟩ (0 : Fin 2) * 2000 + 2000; omega
  | ⟨1, _⟩ => show win13_2.index ⟨(i 0).val / 2000, hN⟩ (1 : Fin 2) * 64 ≤ (i 1).val ∧ (i 1).val < win13_2.index ⟨(i 0).val / 2000, hN⟩ (1 : Fin 2) * 64 + 64; omega

/-- REGION 13: the output array after the region is the first array with the row vector added to every row. -/
theorem region13_value (c : Dev nD) :
    (dat13 (F := Ideal) V c).arrAt 2 cfg13.N
      = Cert.RowOps.addRow (V c (Pipeline.arrRef spec13 0)) (V c (Pipeline.arrRef spec13 1)) :=
  (dat13 (F := Ideal) V c).arrAt_eq_of_cover 2 _ (fun t _ => flushed13 V c t) covered13

end Cert.KernelIdeal.RegionValue

end
-- ==== Proof.SimRegC.lean ====
/-
  The regions against the reference's stretches that compute the same thing. A region's output array, after its grid
  has run, is one whole-array function of the arrays the region found (a row-by-matrix product, a bias row added and the
  positive part taken, or both); the reference's corresponding operations, read entry by entry, are the same function
  of the buffers that agree with those arrays.
-/
import proofs.«168298_j84988812853302_1_alg».proof.Proof.Gen.KernelIdeal.Frame
import proofs.«168298_j84988812853302_1_alg».proof.Proof.RefSegs
import proofs.«168298_j84988812853302_1_alg».proof.Proof.RowOps
import proofs.«168298_j84988812853302_1_alg».proof.Proof.RowLayout
import proofs.«168298_j84988812853302_1_alg».proof.Proof.LibFinite
import proofs.«168298_j84988812853302_1_alg».proof.Proof.RowForms
import proofs.«168298_j84988812853302_1_alg».proof.Proof.TransformValue12
import proofs.«168298_j84988812853302_1_alg».proof.Proof.BiasValue13
import Idealize.ShloMosaic.Lib.StableHlo.Run
import Idealize.ShloMosaic.PureOps.Ideal

set_option maxRecDepth 16384
set_option maxHeartbeats 16000000

noncomputable section

namespace Cert.Sim

open Idealize.ShloMosaic Idealize.ShloMosaic.TcCoe Idealize.SL.Sem Idealize.ShloMosaic.StableHlo
open Idealize.ShloMosaic.ValueIdx Cert.RowOps Cert.LibFinite

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- Region 12 multiplies every row of its first array by its 64×64 second array; the reference's `dot_general` of the
    arrays that agree with them is the same row-by-matrix product. -/
theorem conv12
    (h_x : Cert.KernelIdeal.Gen.W27 m ρ c (Proc.devRef .tc Cert.KernelIdeal.main_v190) = Cert.ReferenceIdeal.Segs.U23 m' c (Proc.devRef .tc Cert.ReferenceIdeal.main_v216))
    (h_w : Cert.KernelIdeal.Gen.W27 m ρ c (Proc.devRef .tc Cert.KernelIdeal.main_v192) = Cert.ReferenceIdeal.Segs.U23 m' c (Proc.devRef .tc Cert.ReferenceIdeal.main_v218)) :
    Cert.KernelIdeal.Gen.W28 m ρ c (Proc.devRef .tc Cert.KernelIdeal.main_v195) = Cert.ReferenceIdeal.Segs.U24 m' c (Proc.devRef .tc Cert.ReferenceIdeal.main_v221) := by
  have e1 : Cert.KernelIdeal.Gen.W28 m ρ c (Proc.devRef .tc Cert.KernelIdeal.main_v195) = rowsMul (n := 100000) (Cert.KernelIdeal.Gen.W27 m ρ c (Proc.devRef .tc Cert.KernelIdeal.main_v190)) (Cert.KernelIdeal.Gen.W27 m ρ c (Proc.devRef .tc Cert.KernelIdeal.main_v192)) :=
    (Cert.KernelIdeal.Gen.W28_arr m ρ c 2).trans (Cert.KernelIdeal.RegionValue.region12_value (Cert.KernelIdeal.Gen.V27 m ρ) c)
  have e2 : Cert.ReferenceIdeal.Segs.U24 m' c (Proc.devRef .tc Cert.ReferenceIdeal.main_v221) = rowsMul (n := 100000) (Cert.ReferenceIdeal.Segs.U23 m' c (Proc.devRef .tc Cert.ReferenceIdeal.main_v216)) (Cert.ReferenceIdeal.Segs.U23 m' c (Proc.devRef .tc Cert.ReferenceIdeal.main_v218)) := by
    show StableHlo.after Cert.ReferenceIdeal.Segs.seg23 (Cert.ReferenceIdeal.Segs.U23 m' c) (Proc.devRef .tc Cert.ReferenceIdeal.main_v221) = _
    after_results_simp
    exact Cert.RowForms.dotGeneral_100000_eq_rowsMul _ _
  rw [e1, e2, h_x, h_w]

/-- Region 13 adds its 1×64 second array to every row of its first; the reference broadcasts the
    bias vector over the rows, adds: the same function of arrays that agree, the row holding the vector. -/
theorem bias13
    (h_a : Cert.KernelIdeal.Gen.W29 m ρ c (Proc.devRef .tc Cert.KernelIdeal.main_v208) = Cert.ReferenceIdeal.Segs.U25 m' c (Proc.devRef .tc Cert.ReferenceIdeal.main_v234))
    (h_row : ∀ j : Fin 64, (Cert.KernelIdeal.Gen.W29 m ρ c (Proc.devRef .tc Cert.KernelIdeal.main_v209)) (ix2 0 j) = (Cert.ReferenceIdeal.Segs.U25 m' c (Proc.devRef .tc Cert.ReferenceIdeal.main_v220)) (ix1 j)) :
    Cert.KernelIdeal.Gen.W30 m ρ c (Proc.devRef .tc Cert.KernelIdeal.main_v210) = Cert.ReferenceIdeal.Segs.U26 m' c (Proc.devRef .tc Cert.ReferenceIdeal.main_v237) := by
  have e1 : Cert.KernelIdeal.Gen.W30 m ρ c (Proc.devRef .tc Cert.KernelIdeal.main_v210) = addRow (n := 100000) (Cert.KernelIdeal.Gen.W29 m ρ c (Proc.devRef .tc Cert.KernelIdeal.main_v208)) (Cert.KernelIdeal.Gen.W29 m ρ c (Proc.devRef .tc Cert.KernelIdeal.main_v209)) :=
    (Cert.KernelIdeal.Gen.W30_arr m ρ c 2).trans (Cert.KernelIdeal.RegionValue.region13_value (Cert.KernelIdeal.Gen.V29 m ρ) c)
  have e2 : Cert.ReferenceIdeal.Segs.U26 m' c (Proc.devRef .tc Cert.ReferenceIdeal.main_v237) = addRow (n := 100000) (Cert.ReferenceIdeal.Segs.U25 m' c (Proc.devRef .tc Cert.ReferenceIdeal.main_v234)) (Cert.KernelIdeal.Gen.W29 m ρ c (Proc.devRef .tc Cert.KernelIdeal.main_v209)) := by
    show StableHlo.after Cert.ReferenceIdeal.Segs.seg25 (Cert.ReferenceIdeal.Segs.U25 m' c) (Proc.devRef .tc Cert.ReferenceIdeal.main_v237) = _
    after_results_simp
    exact Cert.RowForms.addf_bias_100000 _ _ _ h_row
  rw [e1, e2, h_a]

end Cert.Sim

end
-- ==== Proof.AffineValue5.lean ====
/-
  Region 5 of the kernel (a scale and a shift per column of a row-blocked array, then the positive part), as one
  function of the arrays it finds: after its 25 grid points the output array holds, at every entry (r, j),
  max (H (r, j) · sc (0, j) + sh (0, j)) 0. Each grid point t writes rows 1000·t … 1000·t + 999; the 25 blocks cover the
  25000 rows.
-/
import proofs.«168298_j84988812853302_1_alg».proof.Proof.Gen.KernelIdeal.Frame
import proofs.«168298_j84988812853302_1_alg».proof.Proof.BodyAt
import proofs.«168298_j84988812853302_1_alg».proof.Proof.RowOps
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx Cert.KernelIdeal.BodyAt
open Idealize.ShloMosaic.Pipeline (Dat)
open Facts₀ Facts

variable (V : (c : Dev nD) → (b : Ref sig .tc) → Buf (Elt Ideal) ((c : Thread nD τ).loc b))

/-- The zero offsets of a whole-block access, as a constant function. -/
theorem zeroOff5 : (![0, 0] : Fin 2 → Nat) = fun _ => 0 := funext fun a => by fin_cases a <;> rfl

/-- The index maps over the grid: the row-blocked windows sit at block (t, 0), the two row vectors at block (0, 0). -/
theorem blockIdx5 : ∀ t : Fin cfg5.N, (win5_0.index t (0 : Fin 2) = t.val ∧ win5_0.index t (1 : Fin 2) = 0)
    ∧ (win5_1.index t (0 : Fin 2) = 0 ∧ win5_1.index t (1 : Fin 2) = 0)
    ∧ (win5_2.index t (0 : Fin 2) = 0 ∧ win5_2.index t (1 : Fin 2) = 0)
    ∧ (win5_3.index t (0 : Fin 2) = t.val ∧ win5_3.index t (1 : Fin 2) = 0) :=
  (by decide +kernel : ∀ t : Fin grid5.N, _)

/-- What the body stores at point t, entry by entry: the specification at the entry's place in the array. -/
theorem stored5_at (c : Dev nD) (t : Fin cfg5.N) (j : S1000x64.Idx) :
    k5_pay1 (F := Ideal) (iblk5 V c 0 t) (iblk5 V c 1 t) (iblk5 V c 2 t) j
      = (Cert.RowOps.posPart (Cert.RowOps.scaleShift (V c (Pipeline.arrRef spec5 0)) (V c (Pipeline.arrRef spec5 1)) (V c (Pipeline.arrRef spec5 2)))) (((cfg5.win 3).blk t).view.emb j) := by
  obtain ⟨⟨e0, e1⟩, ⟨e2, e3⟩, ⟨e4, e5⟩, ⟨e6, e7⟩⟩ := blockIdx5 t
  obtain ⟨p, q, rfl⟩ : ∃ (p : Fin 1000) (q : Fin 64), j = ix2 p q := ⟨j 0, j 1, eq_ix2 j⟩
  refine (pay5_at _ _ _ p q).trans ?_
  have hx : (((cfg5.win 0).blk t).view.emb (ix2 p q)) = (((cfg5.win 3).blk t).view.emb (ix2 p q)) := by
    funext a; apply Fin.ext
    match a with
    | ⟨0, _⟩ => show win5_0.index t (0 : Fin 2) * 1000 + 1 * p.val = win5_3.index t (0 : Fin 2) * 1000 + 1 * p.val; omega
    | ⟨1, _⟩ => show win5_0.index t (1 : Fin 2) * 64 + 1 * q.val = win5_3.index t (1 : Fin 2) * 64 + 1 * q.val; omega
  have hsc : (((cfg5.win 1).blk t).view.emb (ix2 0 q)) = ix2 0 ((((cfg5.win 3).blk t).view.emb (ix2 p q)) 1) := by
    funext a; apply Fin.ext
    match a with
    | ⟨0, _⟩ => show win5_1.index t (0 : Fin 2) * 1 + 1 * 0 = 0; omega
    | ⟨1, _⟩ => show win5_1.index t (1 : Fin 2) * 64 + 1 * q.val = win5_3.index t (1 : Fin 2) * 64 + 1 * q.val; omega
  have hsh : (((cfg5.win 2).blk t).view.emb (ix2 0 q)) = ix2 0 ((((cfg5.win 3).blk t).view.emb (ix2 p q)) 1) := by
    funext a; apply Fin.ext
    match a with
    | ⟨0, _⟩ => show win5_2.index t (0 : Fin 2) * 1 + 1 * 0 = 0; omega
    | ⟨1, _⟩ => show win5_2.index t (1 : Fin 2) * 64 + 1 * q.val = win5_3.index t (1 : Fin 2) * 64 + 1 * q.val; omega
  have key : ∀ (H : S25000x64.Idx → EReal) (sc sh : S1x64.Idx → EReal),
      max (H (((cfg5.win 0).blk t).view.emb (ix2 p q)) * sc (((cfg5.win 1).blk t).view.emb (ix2 0 q)) + sh (((cfg5.win 2).blk t).view.emb (ix2 0 q))) 0
        = max (H (((cfg5.win 3).blk t).view.emb (ix2 p q)) * sc (ix2 0 ((((cfg5.win 3).blk t).view.emb (ix2 p q)) 1)) + sh (ix2 0 ((((cfg5.win 3).blk t).view.emb (ix2 p q)) 1))) 0 :=
    fun H sc sh => by rw [hx, hsc, hsh]; try rfl
  exact key (V c (Pipeline.arrRef spec5 0)) (V c (Pipeline.arrRef spec5 1)) (V c (Pipeline.arrRef spec5 2))

/-- What point t writes back is block t of the specified array. -/
theorem flushed5 (c : Dev nD) (t : Fin cfg5.N) :
    (dat5 (F := Ideal) V c).flushed 3 t = ((cfg5.win 3).blk t).view.read (Elt Ideal)
      (Cert.RowOps.posPart (Cert.RowOps.scaleShift (V c (Pipeline.arrRef spec5 0)) (V c (Pipeline.arrRef spec5 1)) (V c (Pipeline.arrRef spec5 2)))) := by
  show (cfg5.win 3).cut (grid5.coords t) ((dat5 (F := Ideal) V c).after 3 t) = _
  rw [after5_3]
  unfold out5_3
  rw [View.canon_unit_zero zeroOff5]
  simp only [View.ld_unit_zero (S := S1000x64) zeroOff5, View.ld_unit_zero (S := S1x64) zeroOff5]
  funext j
  exact stored5_at V c t j

/-- An entry of the array is in point t's block iff each coordinate is in the block's range. -/
theorem mem_block5 (t : Fin cfg5.N) (i : S25000x64.Idx) :
    i ∈ ((cfg5.win 3).blk t).view.set ↔ ∀ a : Fin 2, win5_3.index t a * S1000x64.size a ≤ (i a).val ∧ (i a).val < win5_3.index t a * S1000x64.size a + S1000x64.size a := by
  show i ∈ ((View.whole main_v110).slice (win5_3.rect t)).set ↔ _
  rw [View.set_slice_whole, Rect.mem_set_unit]
  exact Iff.rfl

/-- Every entry is in some point's block: row r is in block r / 1000. -/
theorem covered5 (i : S25000x64.Idx) :
    ∃ t : Fin cfg5.N, (cfg5.win 3).flush t = true ∧ i ∈ ((cfg5.win 3).blk t).view.set := by
  have hi0 : (i 0).val < 25000 := (i 0).isLt
  have hi1 : (i 1).val < 64 := (i 1).isLt
  have hN : (i 0).val / 1000 < cfg5.N := by rw [show cfg5.N = 25 from N_5]; omega
  have eo := (blockIdx5 ⟨(i 0).val / 1000, hN⟩).2.2.2
  have eo0 : win5_3.index ⟨(i 0).val / 1000, hN⟩ (0 : Fin 2) = (i 0).val / 1000 := eo.1
  have eo1 : win5_3.index ⟨(i 0).val / 1000, hN⟩ (1 : Fin 2) = 0 := eo.2
  refine ⟨⟨(i 0).val / 1000, hN⟩, flush5_3 _, ?_⟩
  rw [mem_block5]
  intro a
  match a with
  | ⟨0, _⟩ => show win5_3.index ⟨(i 0).val / 1000, hN⟩ (0 : Fin 2) * 1000 ≤ (i 0).val ∧ (i 0).val < win5_3.index ⟨(i 0).val / 1000, hN⟩ (0 : Fin 2) * 1000 + 1000; omega
  | ⟨1, _⟩ => show win5_3.index ⟨(i 0).val / 1000, hN⟩ (1 : Fin 2) * 64 ≤ (i 1).val ∧ (i 1).val < win5_3.index ⟨(i 0).val / 1000, hN⟩ (1 : Fin 2) * 64 + 64; omega

/-- REGION 5: the output array after the region is the positive part of the first array scaled and shifted per column. -/
theorem region5_value (c : Dev nD) :
    (dat5 (F := Ideal) V c).arrAt 3 cfg5.N
      = Cert.RowOps.posPart (Cert.RowOps.scaleShift (V c (Pipeline.arrRef spec5 0)) (V c (Pipeline.arrRef spec5 1)) (V c (Pipeline.arrRef spec5 2))) :=
  (dat5 (F := Ideal) V c).arrAt_eq_of_cover 3 _ (fun t _ => flushed5 V c t) covered5

end Cert.KernelIdeal.RegionValue

end
-- ==== Proof.AffineValue7.lean ====
/-
  Region 7 of the kernel (a scale and a shift per column of a row-blocked array, then the positive part), as one
  function of the arrays it finds: after its 50 grid points the output array holds, at every entry (r, j),
  max (H (r, j) · sc (0, j) + sh (0, j)) 0. Each grid point t writes rows 2000·t … 2000·t + 1999; the 50 blocks cover the
  100000 rows.
-/
import proofs.«168298_j84988812853302_1_alg».proof.Proof.Gen.KernelIdeal.Frame
import proofs.«168298_j84988812853302_1_alg».proof.Proof.BodyAt
import proofs.«168298_j84988812853302_1_alg».proof.Proof.RowOps
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx Cert.KernelIdeal.BodyAt
open Idealize.ShloMosaic.Pipeline (Dat)
open Facts₀ Facts

variable (V : (c : Dev nD) → (b : Ref sig .tc) → Buf (Elt Ideal) ((c : Thread nD τ).loc b))

/-- The zero offsets of a whole-block access, as a constant function. -/
theorem zeroOff7 : (![0, 0] : Fin 2 → Nat) = fun _ => 0 := funext fun a => by fin_cases a <;> rfl

/-- The index maps over the grid: the row-blocked windows sit at block (t, 0), the two row vectors at block (0, 0). -/
theorem blockIdx7 : ∀ t : Fin cfg7.N, (win7_0.index t (0 : Fin 2) = t.val ∧ win7_0.index t (1 : Fin 2) = 0)
    ∧ (win7_1.index t (0 : Fin 2) = 0 ∧ win7_1.index t (1 : Fin 2) = 0)
    ∧ (win7_2.index t (0 : Fin 2) = 0 ∧ win7_2.index t (1 : Fin 2) = 0)
    ∧ (win7_3.index t (0 : Fin 2) = t.val ∧ win7_3.index t (1 : Fin 2) = 0) :=
  (by decide +kernel : ∀ t : Fin grid7.N, _)

/-- What the body stores at point t, entry by entry: the specification at the entry's place in the array. -/
theorem stored7_at (c : Dev nD) (t : Fin cfg7.N) (j : S2000x64.Idx) :
    k7_pay1 (F := Ideal) (iblk7 V c 0 t) (iblk7 V c 1 t) (iblk7 V c 2 t) j
      = (Cert.RowOps.posPart (Cert.RowOps.scaleShift (V c (Pipeline.arrRef spec7 0)) (V c (Pipeline.arrRef spec7 1)) (V c (Pipeline.arrRef spec7 2)))) (((cfg7.win 3).blk t).view.emb j) := by
  obtain ⟨⟨e0, e1⟩, ⟨e2, e3⟩, ⟨e4, e5⟩, ⟨e6, e7⟩⟩ := blockIdx7 t
  obtain ⟨p, q, rfl⟩ : ∃ (p : Fin 2000) (q : Fin 64), j = ix2 p q := ⟨j 0, j 1, eq_ix2 j⟩
  refine (pay7_at _ _ _ p q).trans ?_
  have hx : (((cfg7.win 0).blk t).view.emb (ix2 p q)) = (((cfg7.win 3).blk t).view.emb (ix2 p q)) := by
    funext a; apply Fin.ext
    match a with
    | ⟨0, _⟩ => show win7_0.index t (0 : Fin 2) * 2000 + 1 * p.val = win7_3.index t (0 : Fin 2) * 2000 + 1 * p.val; omega
    | ⟨1, _⟩ => show win7_0.index t (1 : Fin 2) * 64 + 1 * q.val = win7_3.index t (1 : Fin 2) * 64 + 1 * q.val; omega
  have hsc : (((cfg7.win 1).blk t).view.emb (ix2 0 q)) = ix2 0 ((((cfg7.win 3).blk t).view.emb (ix2 p q)) 1) := by
    funext a; apply Fin.ext
    match a with
    | ⟨0, _⟩ => show win7_1.index t (0 : Fin 2) * 1 + 1 * 0 = 0; omega
    | ⟨1, _⟩ => show win7_1.index t (1 : Fin 2) * 64 + 1 * q.val = win7_3.index t (1 : Fin 2) * 64 + 1 * q.val; omega
  have hsh : (((cfg7.win 2).blk t).view.emb (ix2 0 q)) = ix2 0 ((((cfg7.win 3).blk t).view.emb (ix2 p q)) 1) := by
    funext a; apply Fin.ext
    match a with
    | ⟨0, _⟩ => show win7_2.index t (0 : Fin 2) * 1 + 1 * 0 = 0; omega
    | ⟨1, _⟩ => show win7_2.index t (1 : Fin 2) * 64 + 1 * q.val = win7_3.index t (1 : Fin 2) * 64 + 1 * q.val; omega
  have key : ∀ (H : S100000x64.Idx → EReal) (sc sh : S1x64.Idx → EReal),
      max (H (((cfg7.win 0).blk t).view.emb (ix2 p q)) * sc (((cfg7.win 1).blk t).view.emb (ix2 0 q)) + sh (((cfg7.win 2).blk t).view.emb (ix2 0 q))) 0
        = max (H (((cfg7.win 3).blk t).view.emb (ix2 p q)) * sc (ix2 0 ((((cfg7.win 3).blk t).view.emb (ix2 p q)) 1)) + sh (ix2 0 ((((cfg7.win 3).blk t).view.emb (ix2 p q)) 1))) 0 :=
    fun H sc sh => by rw [hx, hsc, hsh]; try rfl
  exact key (V c (Pipeline.arrRef spec7 0)) (V c (Pipeline.arrRef spec7 1)) (V c (Pipeline.arrRef spec7 2))

/-- What point t writes back is block t of the specified array. -/
theorem flushed7 (c : Dev nD) (t : Fin cfg7.N) :
    (dat7 (F := Ideal) V c).flushed 3 t = ((cfg7.win 3).blk t).view.read (Elt Ideal)
      (Cert.RowOps.posPart (Cert.RowOps.scaleShift (V c (Pipeline.arrRef spec7 0)) (V c (Pipeline.arrRef spec7 1)) (V c (Pipeline.arrRef spec7 2)))) := by
  show (cfg7.win 3).cut (grid7.coords t) ((dat7 (F := Ideal) V c).after 3 t) = _
  rw [after7_3]
  unfold out7_3
  rw [View.canon_unit_zero zeroOff7]
  simp only [View.ld_unit_zero (S := S2000x64) zeroOff7, View.ld_unit_zero (S := S1x64) zeroOff7]
  funext j
  exact stored7_at V c t j

/-- An entry of the array is in point t's block iff each coordinate is in the block's range. -/
theorem mem_block7 (t : Fin cfg7.N) (i : S100000x64.Idx) :
    i ∈ ((cfg7.win 3).blk t).view.set ↔ ∀ a : Fin 2, win7_3.index t a * S2000x64.size a ≤ (i a).val ∧ (i a).val < win7_3.index t a * S2000x64.size a + S2000x64.size a := by
  show i ∈ ((View.whole main_v150).slice (win7_3.rect t)).set ↔ _
  rw [View.set_slice_whole, Rect.mem_set_unit]
  exact Iff.rfl

/-- Every entry is in some point's block: row r is in block r / 2000. -/
theorem covered7 (i : S100000x64.Idx) :
    ∃ t : Fin cfg7.N, (cfg7.win 3).flush t = true ∧ i ∈ ((cfg7.win 3).blk t).view.set := by
  have hi0 : (i 0).val < 100000 := (i 0).isLt
  have hi1 : (i 1).val < 64 := (i 1).isLt
  have hN : (i 0).val / 2000 < cfg7.N := by rw [show cfg7.N = 50 from N_7]; omega
  have eo := (blockIdx7 ⟨(i 0).val / 2000, hN⟩).2.2.2
  have eo0 : win7_3.index ⟨(i 0).val / 2000, hN⟩ (0 : Fin 2) = (i 0).val / 2000 := eo.1
  have eo1 : win7_3.index ⟨(i 0).val / 2000, hN⟩ (1 : Fin 2) = 0 := eo.2
  refine ⟨⟨(i 0).val / 2000, hN⟩, flush7_3 _, ?_⟩
  rw [mem_block7]
  intro a
  match a with
  | ⟨0, _⟩ => show win7_3.index ⟨(i 0).val / 2000, hN⟩ (0 : Fin 2) * 2000 ≤ (i 0).val ∧ (i 0).val < win7_3.index ⟨(i 0).val / 2000, hN⟩ (0 : Fin 2) * 2000 + 2000; omega
  | ⟨1, _⟩ => show win7_3.index ⟨(i 0).val / 2000, hN⟩ (1 : Fin 2) * 64 ≤ (i 1).val ∧ (i 1).val < win7_3.index ⟨(i 0).val / 2000, hN⟩ (1 : Fin 2) * 64 + 64; omega

/-- REGION 7: the output array after the region is the positive part of the first array scaled and shifted per column. -/
theorem region7_value (c : Dev nD) :
    (dat7 (F := Ideal) V c).arrAt 3 cfg7.N
      = Cert.RowOps.posPart (Cert.RowOps.scaleShift (V c (Pipeline.arrRef spec7 0)) (V c (Pipeline.arrRef spec7 1)) (V c (Pipeline.arrRef spec7 2))) :=
  (dat7 (F := Ideal) V c).arrAt_eq_of_cover 3 _ (fun t _ => flushed7 V c t) covered7

end Cert.KernelIdeal.RegionValue

end
-- ==== Proof.SimBn.lean ====
/-
  The two batch normalisations. The kernel computes each column's mean μ and reciprocal standard deviation s on the
  host, folds them with the scale vector γ and the shift vector β into one scale row γ · s and one shift row
  β − γ · μ · s, and its region applies max (H · scale + shift) 0 entry by entry. The reference computes
  max (γ · (H − μ) · s + β) 0 with the four vectors broadcast to every row. Over real numbers the two agree; the
  statistics are the same operator trees of the same array on both sides.
-/
import proofs.«168298_j84988812853302_1_alg».proof.Proof.Gen.KernelIdeal.Frame
import proofs.«168298_j84988812853302_1_alg».proof.Proof.RefSegs
import proofs.«168298_j84988812853302_1_alg».proof.Proof.RowOps
import proofs.«168298_j84988812853302_1_alg».proof.Proof.RowLayout
import proofs.«168298_j84988812853302_1_alg».proof.Proof.LibFinite
import proofs.«168298_j84988812853302_1_alg».proof.Proof.RowForms
import proofs.«168298_j84988812853302_1_alg».proof.Proof.KCarryShort
import proofs.«168298_j84988812853302_1_alg».proof.Proof.AffineValue5
import proofs.«168298_j84988812853302_1_alg».proof.Proof.AffineValue7
import Idealize.ShloMosaic.Lib.StableHlo.Run
import Idealize.ShloMosaic.PureOps.Ideal

set_option maxRecDepth 16384
set_option maxHeartbeats 16000000

noncomputable section

namespace Cert.Sim

open Idealize.ShloMosaic Idealize.ShloMosaic.TcCoe Idealize.SL.Sem Idealize.ShloMosaic.StableHlo
open Idealize.ShloMosaic.ValueIdx Cert.RowOps Cert.LibFinite

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-! ## Arrays of 25000 rows -/

/-- The column means of an array of 25000 rows: each column's sum divided by 25000. -/
def colMean25000 (H : FVec Ideal Cert.ReferenceIdeal.S25000x64 .f32) : FVec Ideal Cert.ReferenceIdeal.S64 .f32 :=
  Host.divf (Host.reduceAdd H (constant (F := Ideal) Cert.ReferenceIdeal.S_ .f32 0x00000000#32) Cert.ReferenceIdeal.Gen.reducesTo_S25000x64_S64_d0 Cert.ReferenceIdeal.Gen.h_S_)
    (broadcastInDim Cert.ReferenceIdeal.S64 ![] Cert.ReferenceIdeal.Gen.bcast_S_S64 (constant (F := Ideal) Cert.ReferenceIdeal.S_ .f32 0x46C35000#32))

/-- The reciprocal standard deviation of each column: the reciprocal square root of the mean squared deviation
    from the column mean plus the positive constant ε. -/
def colRstd25000 (H : FVec Ideal Cert.ReferenceIdeal.S25000x64 .f32) : FVec Ideal Cert.ReferenceIdeal.S64 .f32 :=
  Host.rsqrt (addf
    (Host.divf
      (Host.reduceAdd (mulf (subf H (broadcastInDim Cert.ReferenceIdeal.S25000x64 ![0, 1] Cert.ReferenceIdeal.Gen.bcast_S1x64_S25000x64_0_1 (broadcastInDim Cert.ReferenceIdeal.S1x64 ![1] Cert.ReferenceIdeal.Gen.bcast_S64_S1x64_1 (colMean25000 H))))
          (subf H (broadcastInDim Cert.ReferenceIdeal.S25000x64 ![0, 1] Cert.ReferenceIdeal.Gen.bcast_S1x64_S25000x64_0_1 (broadcastInDim Cert.ReferenceIdeal.S1x64 ![1] Cert.ReferenceIdeal.Gen.bcast_S64_S1x64_1 (colMean25000 H))))) (constant (F := Ideal) Cert.ReferenceIdeal.S_ .f32 0x00000000#32) Cert.ReferenceIdeal.Gen.reducesTo_S25000x64_S64_d0 Cert.ReferenceIdeal.Gen.h_S_)
      (broadcastInDim Cert.ReferenceIdeal.S64 ![] Cert.ReferenceIdeal.Gen.bcast_S_S64 (constant (F := Ideal) Cert.ReferenceIdeal.S_ .f32 0x46C35000#32)))
    (broadcastInDim Cert.ReferenceIdeal.S64 ![] Cert.ReferenceIdeal.Gen.bcast_S_S64 (constant (F := Ideal) Cert.ReferenceIdeal.S_ .f32 0x3727C5AC#32)))

/-- The batch normalisation of an array of 25000 rows followed by the positive part, as the reference computes it:
    γ · (H − μ) · s + β with the four vectors broadcast to every row, then the maximum with zero. -/
def normRelu25000 (H : FVec Ideal Cert.ReferenceIdeal.S25000x64 .f32) (γ β : FVec Ideal Cert.ReferenceIdeal.S64 .f32) : FVec Ideal Cert.ReferenceIdeal.S25000x64 .f32 :=
  maximumf
    (addf
      (mulf
        (mulf (broadcastInDim Cert.ReferenceIdeal.S25000x64 ![0, 1] Cert.ReferenceIdeal.Gen.bcast_S1x64_S25000x64_0_1 (broadcastInDim Cert.ReferenceIdeal.S1x64 ![1] Cert.ReferenceIdeal.Gen.bcast_S64_S1x64_1 γ))
          (subf H (broadcastInDim Cert.ReferenceIdeal.S25000x64 ![0, 1] Cert.ReferenceIdeal.Gen.bcast_S1x64_S25000x64_0_1 (broadcastInDim Cert.ReferenceIdeal.S1x64 ![1] Cert.ReferenceIdeal.Gen.bcast_S64_S1x64_1 (colMean25000 H)))))
        (broadcastInDim Cert.ReferenceIdeal.S25000x64 ![0, 1] Cert.ReferenceIdeal.Gen.bcast_S1x64_S25000x64_0_1 (broadcastInDim Cert.ReferenceIdeal.S1x64 ![1] Cert.ReferenceIdeal.Gen.bcast_S64_S1x64_1 (colRstd25000 H))))
      (broadcastInDim Cert.ReferenceIdeal.S25000x64 ![0, 1] Cert.ReferenceIdeal.Gen.bcast_S1x64_S25000x64_0_1 (broadcastInDim Cert.ReferenceIdeal.S1x64 ![1] Cert.ReferenceIdeal.Gen.bcast_S64_S1x64_1 β)))
    (broadcastInDim Cert.ReferenceIdeal.S25000x64 ![] Cert.ReferenceIdeal.Gen.bcast_S_S25000x64 (constant (F := Ideal) Cert.ReferenceIdeal.S_ .f32 0x00000000#32))

/-- The column means of a real array are real. -/
theorem allReal_colMean25000 {H : FVec Ideal Cert.ReferenceIdeal.S25000x64 .f32} (hH : AllReal H) : AllReal (colMean25000 H) := by
  unfold colMean25000
  all_real

/-- The columns' reciprocal standard deviations of a real array are real: the mean squared deviation is not
    negative and ε is positive. -/
theorem allReal_colRstd25000 {H : FVec Ideal Cert.ReferenceIdeal.S25000x64 .f32} (hH : AllReal H) : AllReal (colRstd25000 H) := by
  unfold colRstd25000 colMean25000
  all_real

/-- The normalised and rectified array is real when the array, the scale vector and the shift vector are. -/
theorem allReal_normRelu25000 {H : FVec Ideal Cert.ReferenceIdeal.S25000x64 .f32} {γ β : FVec Ideal Cert.ReferenceIdeal.S64 .f32}
    (hH : AllReal H) (hγ : AllReal γ) (hβ : AllReal β) : AllReal (normRelu25000 H γ β) := by
  unfold normRelu25000 colRstd25000 colMean25000
  all_real

/-- Over real numbers the normalisation followed by the positive part is one scale and one shift per column followed
    by the positive part, the scale row being γ · s and the shift row β − γ · μ · s. -/
theorem normRelu25000_eq {H : FVec Ideal Cert.ReferenceIdeal.S25000x64 .f32} {γ β : FVec Ideal Cert.ReferenceIdeal.S64 .f32}
    (hH : AllReal H) (hγ : AllReal γ) (hβ : AllReal β) (sc sh : Rows 1)
    (hsc : ∀ j : Fin 64, sc (ix2 0 j) = γ (ix1 j) * colRstd25000 H (ix1 j))
    (hsh : ∀ j : Fin 64, sh (ix2 0 j) = β (ix1 j) - γ (ix1 j) * colMean25000 H (ix1 j) * colRstd25000 H (ix1 j)) :
    normRelu25000 H γ β = RowOps.posPart (scaleShift H sc sh) := by
  unfold normRelu25000
  exact Cert.RowForms.relu_scale_shift_25000 H (colMean25000 H) (colRstd25000 H) γ β hH (allReal_colMean25000 hH)
    (allReal_colRstd25000 hH) hγ hβ sc sh hsc hsh

/-- The two rows the kernel's region reads, entry by entry: the scale row holds γ · s and the shift row
    β − γ · μ · s at each column. -/
theorem rows_at25000 {H : FVec Ideal Cert.ReferenceIdeal.S25000x64 .f32} {γ β : FVec Ideal Cert.ReferenceIdeal.S64 .f32} {sc sh : Rows 1}
    (esc : sc = shapeCast Cert.KernelIdeal.S1x64 (mulf (F := Ideal) (φ := .f32) γ (colRstd25000 H)) Cert.KernelIdeal.Gen.shapeCasts_S64_S1x64)
    (esh : sh = shapeCast Cert.KernelIdeal.S1x64
      (subf (F := Ideal) (φ := .f32) β (mulf (F := Ideal) (φ := .f32) (mulf (F := Ideal) (φ := .f32) γ (colMean25000 H)) (colRstd25000 H)))
      Cert.KernelIdeal.Gen.shapeCasts_S64_S1x64) :
    (∀ j : Fin 64, sc (ix2 0 j) = γ (ix1 j) * colRstd25000 H (ix1 j))
      ∧ (∀ j : Fin 64, sh (ix2 0 j) = β (ix1 j) - γ (ix1 j) * colMean25000 H (ix1 j) * colRstd25000 H (ix1 j)) := by
  subst esc esh
  exact ⟨fun j => (Cert.RowLayout.shapeCast_row _ _ j).trans rfl, fun j => (Cert.RowLayout.shapeCast_row _ _ j).trans rfl⟩

/-! ## Arrays of 100000 rows -/

/-- The column means of an array of 100000 rows: each column's sum divided by 100000. -/
def colMean100000 (H : FVec Ideal Cert.ReferenceIdeal.S100000x64 .f32) : FVec Ideal Cert.ReferenceIdeal.S64 .f32 :=
  Host.divf (Host.reduceAdd H (constant (F := Ideal) Cert.ReferenceIdeal.S_ .f32 0x00000000#32) Cert.ReferenceIdeal.Gen.reducesTo_S100000x64_S64_d0 Cert.ReferenceIdeal.Gen.h_S_)
    (broadcastInDim Cert.ReferenceIdeal.S64 ![] Cert.ReferenceIdeal.Gen.bcast_S_S64 (constant (F := Ideal) Cert.ReferenceIdeal.S_ .f32 0x47C35000#32))

/-- The reciprocal standard deviation of each column: the reciprocal square root of the mean squared deviation
    from the column mean plus the positive constant ε. -/
def colRstd100000 (H : FVec Ideal Cert.ReferenceIdeal.S100000x64 .f32) : FVec Ideal Cert.ReferenceIdeal.S64 .f32 :=
  Host.rsqrt (addf
    (Host.divf
      (Host.reduceAdd (mulf (subf H (broadcastInDim Cert.ReferenceIdeal.S100000x64 ![0, 1] Cert.ReferenceIdeal.Gen.bcast_S1x64_S100000x64_0_1 (broadcastInDim Cert.ReferenceIdeal.S1x64 ![1] Cert.ReferenceIdeal.Gen.bcast_S64_S1x64_1 (colMean100000 H))))
          (subf H (broadcastInDim Cert.ReferenceIdeal.S100000x64 ![0, 1] Cert.ReferenceIdeal.Gen.bcast_S1x64_S100000x64_0_1 (broadcastInDim Cert.ReferenceIdeal.S1x64 ![1] Cert.ReferenceIdeal.Gen.bcast_S64_S1x64_1 (colMean100000 H))))) (constant (F := Ideal) Cert.ReferenceIdeal.S_ .f32 0x00000000#32) Cert.ReferenceIdeal.Gen.reducesTo_S100000x64_S64_d0 Cert.ReferenceIdeal.Gen.h_S_)
      (broadcastInDim Cert.ReferenceIdeal.S64 ![] Cert.ReferenceIdeal.Gen.bcast_S_S64 (constant (F := Ideal) Cert.ReferenceIdeal.S_ .f32 0x47C35000#32)))
    (broadcastInDim Cert.ReferenceIdeal.S64 ![] Cert.ReferenceIdeal.Gen.bcast_S_S64 (constant (F := Ideal) Cert.ReferenceIdeal.S_ .f32 0x3727C5AC#32)))

/-- The batch normalisation of an array of 100000 rows followed by the positive part, as the reference computes it:
    γ · (H − μ) · s + β with the four vectors broadcast to every row, then the maximum with zero. -/
def normRelu100000 (H : FVec Ideal Cert.ReferenceIdeal.S100000x64 .f32) (γ β : FVec Ideal Cert.ReferenceIdeal.S64 .f32) : FVec Ideal Cert.ReferenceIdeal.S100000x64 .f32 :=
  maximumf
    (addf
      (mulf
        (mulf (broadcastInDim Cert.ReferenceIdeal.S100000x64 ![0, 1] Cert.ReferenceIdeal.Gen.bcast_S1x64_S100000x64_0_1 (broadcastInDim Cert.ReferenceIdeal.S1x64 ![1] Cert.ReferenceIdeal.Gen.bcast_S64_S1x64_1 γ))
          (subf H (broadcastInDim Cert.ReferenceIdeal.S100000x64 ![0, 1] Cert.ReferenceIdeal.Gen.bcast_S1x64_S100000x64_0_1 (broadcastInDim Cert.ReferenceIdeal.S1x64 ![1] Cert.ReferenceIdeal.Gen.bcast_S64_S1x64_1 (colMean100000 H)))))
        (broadcastInDim Cert.ReferenceIdeal.S100000x64 ![0, 1] Cert.ReferenceIdeal.Gen.bcast_S1x64_S100000x64_0_1 (broadcastInDim Cert.ReferenceIdeal.S1x64 ![1] Cert.ReferenceIdeal.Gen.bcast_S64_S1x64_1 (colRstd100000 H))))
      (broadcastInDim Cert.ReferenceIdeal.S100000x64 ![0, 1] Cert.ReferenceIdeal.Gen.bcast_S1x64_S100000x64_0_1 (broadcastInDim Cert.ReferenceIdeal.S1x64 ![1] Cert.ReferenceIdeal.Gen.bcast_S64_S1x64_1 β)))
    (broadcastInDim Cert.ReferenceIdeal.S100000x64 ![] Cert.ReferenceIdeal.Gen.bcast_S_S100000x64 (constant (F := Ideal) Cert.ReferenceIdeal.S_ .f32 0x00000000#32))

/-- The column means of a real array are real. -/
theorem allReal_colMean100000 {H : FVec Ideal Cert.ReferenceIdeal.S100000x64 .f32} (hH : AllReal H) : AllReal (colMean100000 H) := by
  unfold colMean100000
  all_real

/-- The columns' reciprocal standard deviations of a real array are real: the mean squared deviation is not
    negative and ε is positive. -/
theorem allReal_colRstd100000 {H : FVec Ideal Cert.ReferenceIdeal.S100000x64 .f32} (hH : AllReal H) : AllReal (colRstd100000 H) := by
  unfold colRstd100000 colMean100000
  all_real

/-- The normalised and rectified array is real when the array, the scale vector and the shift vector are. -/
theorem allReal_normRelu100000 {H : FVec Ideal Cert.ReferenceIdeal.S100000x64 .f32} {γ β : FVec Ideal Cert.ReferenceIdeal.S64 .f32}
    (hH : AllReal H) (hγ : AllReal γ) (hβ : AllReal β) : AllReal (normRelu100000 H γ β) := by
  unfold normRelu100000 colRstd100000 colMean100000
  all_real

/-- Over real numbers the normalisation followed by the positive part is one scale and one shift per column followed
    by the positive part, the scale row being γ · s and the shift row β − γ · μ · s. -/
theorem normRelu100000_eq {H : FVec Ideal Cert.ReferenceIdeal.S100000x64 .f32} {γ β : FVec Ideal Cert.ReferenceIdeal.S64 .f32}
    (hH : AllReal H) (hγ : AllReal γ) (hβ : AllReal β) (sc sh : Rows 1)
    (hsc : ∀ j : Fin 64, sc (ix2 0 j) = γ (ix1 j) * colRstd100000 H (ix1 j))
    (hsh : ∀ j : Fin 64, sh (ix2 0 j) = β (ix1 j) - γ (ix1 j) * colMean100000 H (ix1 j) * colRstd100000 H (ix1 j)) :
    normRelu100000 H γ β = RowOps.posPart (scaleShift H sc sh) := by
  unfold normRelu100000
  exact Cert.RowForms.relu_scale_shift_100000 H (colMean100000 H) (colRstd100000 H) γ β hH (allReal_colMean100000 hH)
    (allReal_colRstd100000 hH) hγ hβ sc sh hsc hsh

/-- The two rows the kernel's region reads, entry by entry: the scale row holds γ · s and the shift row
    β − γ · μ · s at each column. -/
theorem rows_at100000 {H : FVec Ideal Cert.ReferenceIdeal.S100000x64 .f32} {γ β : FVec Ideal Cert.ReferenceIdeal.S64 .f32} {sc sh : Rows 1}
    (esc : sc = shapeCast Cert.KernelIdeal.S1x64 (mulf (F := Ideal) (φ := .f32) γ (colRstd100000 H)) Cert.KernelIdeal.Gen.shapeCasts_S64_S1x64)
    (esh : sh = shapeCast Cert.KernelIdeal.S1x64
      (subf (F := Ideal) (φ := .f32) β (mulf (F := Ideal) (φ := .f32) (mulf (F := Ideal) (φ := .f32) γ (colMean100000 H)) (colRstd100000 H)))
      Cert.KernelIdeal.Gen.shapeCasts_S64_S1x64) :
    (∀ j : Fin 64, sc (ix2 0 j) = γ (ix1 j) * colRstd100000 H (ix1 j))
      ∧ (∀ j : Fin 64, sh (ix2 0 j) = β (ix1 j) - γ (ix1 j) * colMean100000 H (ix1 j) * colRstd100000 H (ix1 j)) := by
  subst esc esh
  exact ⟨fun j => (Cert.RowLayout.shapeCast_row _ _ j).trans rfl, fun j => (Cert.RowLayout.shapeCast_row _ _ j).trans rfl⟩

/-! ## The first normalisation (after the first pooling: 25000 rows) -/

/-- The reference's stretch leaves in its result the normalisation-and-positive-part tree of the three buffers it
    reads. -/
theorem bn1_ref :
    Cert.ReferenceIdeal.Segs.U11 m' c (Proc.devRef .tc Cert.ReferenceIdeal.main_v123) = normRelu25000 (Cert.ReferenceIdeal.Segs.U10 m' c (Proc.devRef .tc Cert.ReferenceIdeal.main_v97)) (Cert.ReferenceIdeal.Segs.U10 m' c (Proc.devRef .tc Cert.ReferenceIdeal.main_v80)) (Cert.ReferenceIdeal.Segs.U10 m' c (Proc.devRef .tc Cert.ReferenceIdeal.main_v82)) := by
  show StableHlo.after Cert.ReferenceIdeal.Segs.seg10 (Cert.ReferenceIdeal.Segs.U10 m' c) (Proc.devRef .tc Cert.ReferenceIdeal.main_v123) = _
  after_results_simp
  try rfl

/-- The kernel's stretch writes the scale row: the vector γ · s recast as a 1×64 array, s the columns' reciprocal
    standard deviations of the array it normalises. -/
theorem bn1_scale_row :
    Cert.KernelIdeal.Gen.W13 m ρ c (Proc.devRef .tc Cert.KernelIdeal.main_v108) = shapeCast Cert.KernelIdeal.S1x64
      (mulf (F := Ideal) (φ := .f32) (Cert.KernelIdeal.Gen.W12 m ρ c (Proc.devRef .tc Cert.KernelIdeal.main_v76)) (colRstd25000 (Cert.KernelIdeal.Gen.W12 m ρ c (Proc.devRef .tc Cert.KernelIdeal.main_v90)))) Cert.KernelIdeal.Gen.shapeCasts_S64_S1x64 := by
  show StableHlo.after Cert.KernelIdeal.Gen.hostOps5 (Cert.KernelIdeal.Gen.W12 m ρ c) (Proc.devRef .tc Cert.KernelIdeal.main_v108) = _
  after_results_simp
  try rfl

/-- The kernel's stretch writes the shift row: the vector β − (γ · μ) · s recast as a 1×64 array. -/
theorem bn1_shift_row :
    Cert.KernelIdeal.Gen.W13 m ρ c (Proc.devRef .tc Cert.KernelIdeal.main_v109) = shapeCast Cert.KernelIdeal.S1x64
      (subf (F := Ideal) (φ := .f32) (Cert.KernelIdeal.Gen.W12 m ρ c (Proc.devRef .tc Cert.KernelIdeal.main_v78))
        (mulf (F := Ideal) (φ := .f32) (mulf (F := Ideal) (φ := .f32) (Cert.KernelIdeal.Gen.W12 m ρ c (Proc.devRef .tc Cert.KernelIdeal.main_v76)) (colMean25000 (Cert.KernelIdeal.Gen.W12 m ρ c (Proc.devRef .tc Cert.KernelIdeal.main_v90))))
          (colRstd25000 (Cert.KernelIdeal.Gen.W12 m ρ c (Proc.devRef .tc Cert.KernelIdeal.main_v90))))) Cert.KernelIdeal.Gen.shapeCasts_S64_S1x64 := by
  show StableHlo.after Cert.KernelIdeal.Gen.hostOps5 (Cert.KernelIdeal.Gen.W12 m ρ c) (Proc.devRef .tc Cert.KernelIdeal.main_v109) = _
  after_results_simp
  try rfl

/-- The kernel's region leaves the positive part of the array scaled and shifted per column by the two rows. -/
theorem bn1_region :
    Cert.KernelIdeal.Gen.W14 m ρ c (Proc.devRef .tc Cert.KernelIdeal.main_v110) = RowOps.posPart (scaleShift (Cert.KernelIdeal.Gen.W13 m ρ c (Proc.devRef .tc Cert.KernelIdeal.main_v90)) (Cert.KernelIdeal.Gen.W13 m ρ c (Proc.devRef .tc Cert.KernelIdeal.main_v108)) (Cert.KernelIdeal.Gen.W13 m ρ c (Proc.devRef .tc Cert.KernelIdeal.main_v109))) :=
  (Cert.KernelIdeal.Gen.W14_arr m ρ c 3).trans (Cert.KernelIdeal.RegionValue.region5_value (Cert.KernelIdeal.Gen.V13 m ρ) c)

/-- BATCH NORMALISATION, kernel against reference: from buffers that agree (the array, the scale vector γ, the shift
    vector β) and hold real numbers, the kernel's statistics stretch followed by its scale-and-shift region leaves
    what the reference's normalisation and positive part leave. -/
theorem bn1
    (h_h : Cert.KernelIdeal.Gen.W12 m ρ c (Proc.devRef .tc Cert.KernelIdeal.main_v90) = Cert.ReferenceIdeal.Segs.U10 m' c (Proc.devRef .tc Cert.ReferenceIdeal.main_v97))
    (h_g : Cert.KernelIdeal.Gen.W12 m ρ c (Proc.devRef .tc Cert.KernelIdeal.main_v76) = Cert.ReferenceIdeal.Segs.U10 m' c (Proc.devRef .tc Cert.ReferenceIdeal.main_v80))
    (h_b : Cert.KernelIdeal.Gen.W12 m ρ c (Proc.devRef .tc Cert.KernelIdeal.main_v78) = Cert.ReferenceIdeal.Segs.U10 m' c (Proc.devRef .tc Cert.ReferenceIdeal.main_v82))
    (r_h : AllReal (Cert.ReferenceIdeal.Segs.U10 m' c (Proc.devRef .tc Cert.ReferenceIdeal.main_v97)))
    (r_g : AllReal (Cert.ReferenceIdeal.Segs.U10 m' c (Proc.devRef .tc Cert.ReferenceIdeal.main_v80)))
    (r_b : AllReal (Cert.ReferenceIdeal.Segs.U10 m' c (Proc.devRef .tc Cert.ReferenceIdeal.main_v82))) :
    Cert.KernelIdeal.Gen.W14 m ρ c (Proc.devRef .tc Cert.KernelIdeal.main_v110) = Cert.ReferenceIdeal.Segs.U11 m' c (Proc.devRef .tc Cert.ReferenceIdeal.main_v123) := by
  have esc := bn1_scale_row m ρ c
  rw [h_g, h_h] at esc
  have esh := bn1_shift_row m ρ c
  rw [h_g, h_h, h_b] at esh
  obtain ⟨hsc, hsh⟩ := rows_at25000 esc esh
  rw [bn1_region, bn1_ref, normRelu25000_eq r_h r_g r_b _ _ hsc hsh, Cert.KernelIdeal.Carry.k_v90_13 m ρ c, h_h]

/-- Every entry the reference's normalisation and positive part leave is a real number. -/
theorem bn1_real
    (r_h : AllReal (Cert.ReferenceIdeal.Segs.U10 m' c (Proc.devRef .tc Cert.ReferenceIdeal.main_v97)))
    (r_g : AllReal (Cert.ReferenceIdeal.Segs.U10 m' c (Proc.devRef .tc Cert.ReferenceIdeal.main_v80)))
    (r_b : AllReal (Cert.ReferenceIdeal.Segs.U10 m' c (Proc.devRef .tc Cert.ReferenceIdeal.main_v82))) :
    AllReal (Cert.ReferenceIdeal.Segs.U11 m' c (Proc.devRef .tc Cert.ReferenceIdeal.main_v123)) := by
  rw [bn1_ref]
  exact allReal_normRelu25000 r_h r_g r_b

/-! ## The second normalisation (100000 rows) -/

/-- The reference's stretch leaves in its result the normalisation-and-positive-part tree of the three buffers it
    reads. -/
theorem bn2_ref :
    Cert.ReferenceIdeal.Segs.U14 m' c (Proc.devRef .tc Cert.ReferenceIdeal.main_v172) = normRelu100000 (Cert.ReferenceIdeal.Segs.U13 m' c (Proc.devRef .tc Cert.ReferenceIdeal.main_v146)) (Cert.ReferenceIdeal.Segs.U13 m' c (Proc.devRef .tc Cert.ReferenceIdeal.main_v129)) (Cert.ReferenceIdeal.Segs.U13 m' c (Proc.devRef .tc Cert.ReferenceIdeal.main_v131)) := by
  show StableHlo.after Cert.ReferenceIdeal.Segs.seg13 (Cert.ReferenceIdeal.Segs.U13 m' c) (Proc.devRef .tc Cert.ReferenceIdeal.main_v172) = _
  after_results_simp
  try rfl

/-- The kernel's stretch writes the scale row: the vector γ · s recast as a 1×64 array, s the columns' reciprocal
    standard deviations of the array it normalises. -/
theorem bn2_scale_row :
    Cert.KernelIdeal.Gen.W17 m ρ c (Proc.devRef .tc Cert.KernelIdeal.main_v148) = shapeCast Cert.KernelIdeal.S1x64
      (mulf (F := Ideal) (φ := .f32) (Cert.KernelIdeal.Gen.W16 m ρ c (Proc.devRef .tc Cert.KernelIdeal.main_v116)) (colRstd100000 (Cert.KernelIdeal.Gen.W16 m ρ c (Proc.devRef .tc Cert.KernelIdeal.main_v130)))) Cert.KernelIdeal.Gen.shapeCasts_S64_S1x64 := by
  show StableHlo.after Cert.KernelIdeal.Gen.hostOps7 (Cert.KernelIdeal.Gen.W16 m ρ c) (Proc.devRef .tc Cert.KernelIdeal.main_v148) = _
  after_results_simp
  try rfl

/-- The kernel's stretch writes the shift row: the vector β − (γ · μ) · s recast as a 1×64 array. -/
theorem bn2_shift_row :
    Cert.KernelIdeal.Gen.W17 m ρ c (Proc.devRef .tc Cert.KernelIdeal.main_v149) = shapeCast Cert.KernelIdeal.S1x64
      (subf (F := Ideal) (φ := .f32) (Cert.KernelIdeal.Gen.W16 m ρ c (Proc.devRef .tc Cert.KernelIdeal.main_v118))
        (mulf (F := Ideal) (φ := .f32) (mulf (F := Ideal) (φ := .f32) (Cert.KernelIdeal.Gen.W16 m ρ c (Proc.devRef .tc Cert.KernelIdeal.main_v116)) (colMean100000 (Cert.KernelIdeal.Gen.W16 m ρ c (Proc.devRef .tc Cert.KernelIdeal.main_v130))))
          (colRstd100000 (Cert.KernelIdeal.Gen.W16 m ρ c (Proc.devRef .tc Cert.KernelIdeal.main_v130))))) Cert.KernelIdeal.Gen.shapeCasts_S64_S1x64 := by
  show StableHlo.after Cert.KernelIdeal.Gen.hostOps7 (Cert.KernelIdeal.Gen.W16 m ρ c) (Proc.devRef .tc Cert.KernelIdeal.main_v149) = _
  after_results_simp
  try rfl

/-- The kernel's region leaves the positive part of the array scaled and shifted per column by the two rows. -/
theorem bn2_region :
    Cert.KernelIdeal.Gen.W18 m ρ c (Proc.devRef .tc Cert.KernelIdeal.main_v150) = RowOps.posPart (scaleShift (Cert.KernelIdeal.Gen.W17 m ρ c (Proc.devRef .tc Cert.KernelIdeal.main_v130)) (Cert.KernelIdeal.Gen.W17 m ρ c (Proc.devRef .tc Cert.KernelIdeal.main_v148)) (Cert.KernelIdeal.Gen.W17 m ρ c (Proc.devRef .tc Cert.KernelIdeal.main_v149))) :=
  (Cert.KernelIdeal.Gen.W18_arr m ρ c 3).trans (Cert.KernelIdeal.RegionValue.region7_value (Cert.KernelIdeal.Gen.V17 m ρ) c)

/-- BATCH NORMALISATION, kernel against reference: from buffers that agree (the array, the scale vector γ, the shift
    vector β) and hold real numbers, the kernel's statistics stretch followed by its scale-and-shift region leaves
    what the reference's normalisation and positive part leave. -/
theorem bn2
    (h_h : Cert.KernelIdeal.Gen.W16 m ρ c (Proc.devRef .tc Cert.KernelIdeal.main_v130) = Cert.ReferenceIdeal.Segs.U13 m' c (Proc.devRef .tc Cert.ReferenceIdeal.main_v146))
    (h_g : Cert.KernelIdeal.Gen.W16 m ρ c (Proc.devRef .tc Cert.KernelIdeal.main_v116) = Cert.ReferenceIdeal.Segs.U13 m' c (Proc.devRef .tc Cert.ReferenceIdeal.main_v129))
    (h_b : Cert.KernelIdeal.Gen.W16 m ρ c (Proc.devRef .tc Cert.KernelIdeal.main_v118) = Cert.ReferenceIdeal.Segs.U13 m' c (Proc.devRef .tc Cert.ReferenceIdeal.main_v131))
    (r_h : AllReal (Cert.ReferenceIdeal.Segs.U13 m' c (Proc.devRef .tc Cert.ReferenceIdeal.main_v146)))
    (r_g : AllReal (Cert.ReferenceIdeal.Segs.U13 m' c (Proc.devRef .tc Cert.ReferenceIdeal.main_v129)))
    (r_b : AllReal (Cert.ReferenceIdeal.Segs.U13 m' c (Proc.devRef .tc Cert.ReferenceIdeal.main_v131))) :
    Cert.KernelIdeal.Gen.W18 m ρ c (Proc.devRef .tc Cert.KernelIdeal.main_v150) = Cert.ReferenceIdeal.Segs.U14 m' c (Proc.devRef .tc Cert.ReferenceIdeal.main_v172) := by
  have esc := bn2_scale_row m ρ c
  rw [h_g, h_h] at esc
  have esh := bn2_shift_row m ρ c
  rw [h_g, h_h, h_b] at esh
  obtain ⟨hsc, hsh⟩ := rows_at100000 esc esh
  rw [bn2_region, bn2_ref, normRelu100000_eq r_h r_g r_b _ _ hsc hsh, Cert.KernelIdeal.Carry.k_v130_17 m ρ c, h_h]

/-- Every entry the reference's normalisation and positive part leave is a real number. -/
theorem bn2_real
    (r_h : AllReal (Cert.ReferenceIdeal.Segs.U13 m' c (Proc.devRef .tc Cert.ReferenceIdeal.main_v146)))
    (r_g : AllReal (Cert.ReferenceIdeal.Segs.U13 m' c (Proc.devRef .tc Cert.ReferenceIdeal.main_v129)))
    (r_b : AllReal (Cert.ReferenceIdeal.Segs.U13 m' c (Proc.devRef .tc Cert.ReferenceIdeal.main_v131))) :
    AllReal (Cert.ReferenceIdeal.Segs.U14 m' c (Proc.devRef .tc Cert.ReferenceIdeal.main_v172)) := by
  rw [bn2_ref]
  exact allReal_normRelu100000 r_h r_g r_b

end Cert.Sim

end
-- ==== Proof.Simulation.lean ====
/-
  The two runs side by side. The idealized kernel's buffers at its thirty boundaries (between stretches of host
  operations and regions) and the reference's buffers after its twenty-six stretches are related step by step: at
  corresponding boundaries the live buffers agree — the edge lists with self-loops, the per-edge normalisation, the
  layer parameters sliced from the arguments, and the current node or cluster features. A shared stretch of host
  operations preserves agreement because both sides apply the same operations; a region preserves it because its
  output is the same row-wise function of its input arrays that the reference's corresponding operations compute. The
  two batch normalisations are where the programs differ in form: the kernel scales by γ·s and shifts by β − γ·μ·s,
  the reference computes γ·(h − μ)·s + β; these agree entry by entry because every quantity involved is a real number,
  which is why realness of the reference's float buffers is carried along up to the second normalisation. A buffer
  read long after it was written is moved to the boundary where it is read by the fact that nothing in between writes
  it. The conclusion: the kernel's result array is the reference's.
-/
import proofs.«168298_j84988812853302_1_alg».proof.Proof.KCarryEdges
import proofs.«168298_j84988812853302_1_alg».proof.Proof.KCarryNorm
import proofs.«168298_j84988812853302_1_alg».proof.Proof.KCarryArgsA
import proofs.«168298_j84988812853302_1_alg».proof.Proof.KCarryArgsB
import proofs.«168298_j84988812853302_1_alg».proof.Proof.KCarryShort
import proofs.«168298_j84988812853302_1_alg».proof.Proof.RCarryEdges
import proofs.«168298_j84988812853302_1_alg».proof.Proof.RCarryNorm
import proofs.«168298_j84988812853302_1_alg».proof.Proof.RCarryArgsA
import proofs.«168298_j84988812853302_1_alg».proof.Proof.RCarryArgsB
import proofs.«168298_j84988812853302_1_alg».proof.Proof.RCarryShort
import proofs.«168298_j84988812853302_1_alg».proof.Proof.SimInit
import proofs.«168298_j84988812853302_1_alg».proof.Proof.SimHostA
import proofs.«168298_j84988812853302_1_alg».proof.Proof.SimHostP
import proofs.«168298_j84988812853302_1_alg».proof.Proof.SimHostB
import proofs.«168298_j84988812853302_1_alg».proof.Proof.SimHostC
import proofs.«168298_j84988812853302_1_alg».proof.Proof.SimRegA
import proofs.«168298_j84988812853302_1_alg».proof.Proof.SimRegP
import proofs.«168298_j84988812853302_1_alg».proof.Proof.SimRegB
import proofs.«168298_j84988812853302_1_alg».proof.Proof.SimRegC
import proofs.«168298_j84988812853302_1_alg».proof.Proof.SimBn

set_option maxRecDepth 16384
set_option maxHeartbeats 4000000

noncomputable section

namespace Cert.Sim

open Idealize.ShloMosaic Idealize.ShloMosaic.TcCoe Idealize.SL.Sem Idealize.ShloMosaic.StableHlo
open Idealize.ShloMosaic.ValueIdx Cert.LibFinite

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- From argument arrays that agree at launch, the float ones real: the array the kernel returns is the array the
    reference returns. -/
theorem result_agrees
    (a0 : Cert.KernelIdeal.Gen.W0 m ρ c (Proc.devRef .tc Cert.KernelIdeal.main_arg0) = Cert.ReferenceIdeal.Segs.U0 m' c (Proc.devRef .tc Cert.ReferenceIdeal.main_arg0))
    (a1 : Cert.KernelIdeal.Gen.W0 m ρ c (Proc.devRef .tc Cert.KernelIdeal.main_arg1) = Cert.ReferenceIdeal.Segs.U0 m' c (Proc.devRef .tc Cert.ReferenceIdeal.main_arg1))
    (a2 : Cert.KernelIdeal.Gen.W0 m ρ c (Proc.devRef .tc Cert.KernelIdeal.main_arg2) = Cert.ReferenceIdeal.Segs.U0 m' c (Proc.devRef .tc Cert.ReferenceIdeal.main_arg2))
    (a3 : Cert.KernelIdeal.Gen.W0 m ρ c (Proc.devRef .tc Cert.KernelIdeal.main_arg3) = Cert.ReferenceIdeal.Segs.U0 m' c (Proc.devRef .tc Cert.ReferenceIdeal.main_arg3))
    (a4 : Cert.KernelIdeal.Gen.W0 m ρ c (Proc.devRef .tc Cert.KernelIdeal.main_arg4) = Cert.ReferenceIdeal.Segs.U0 m' c (Proc.devRef .tc Cert.ReferenceIdeal.main_arg4))
    (a5 : Cert.KernelIdeal.Gen.W0 m ρ c (Proc.devRef .tc Cert.KernelIdeal.main_arg5) = Cert.ReferenceIdeal.Segs.U0 m' c (Proc.devRef .tc Cert.ReferenceIdeal.main_arg5))
    (a6 : Cert.KernelIdeal.Gen.W0 m ρ c (Proc.devRef .tc Cert.KernelIdeal.main_arg6) = Cert.ReferenceIdeal.Segs.U0 m' c (Proc.devRef .tc Cert.ReferenceIdeal.main_arg6))
    (a7 : Cert.KernelIdeal.Gen.W0 m ρ c (Proc.devRef .tc Cert.KernelIdeal.main_arg7) = Cert.ReferenceIdeal.Segs.U0 m' c (Proc.devRef .tc Cert.ReferenceIdeal.main_arg7))
    (a8 : Cert.KernelIdeal.Gen.W0 m ρ c (Proc.devRef .tc Cert.KernelIdeal.main_arg8) = Cert.ReferenceIdeal.Segs.U0 m' c (Proc.devRef .tc Cert.ReferenceIdeal.main_arg8))
    (r0 : AllReal (Cert.ReferenceIdeal.Segs.U0 m' c (Proc.devRef .tc Cert.ReferenceIdeal.main_arg0)))
    (r3 : AllReal (Cert.ReferenceIdeal.Segs.U0 m' c (Proc.devRef .tc Cert.ReferenceIdeal.main_arg3)))
    (r4 : AllReal (Cert.ReferenceIdeal.Segs.U0 m' c (Proc.devRef .tc Cert.ReferenceIdeal.main_arg4)))
    (r5 : AllReal (Cert.ReferenceIdeal.Segs.U0 m' c (Proc.devRef .tc Cert.ReferenceIdeal.main_arg5)))
    (r6 : AllReal (Cert.ReferenceIdeal.Segs.U0 m' c (Proc.devRef .tc Cert.ReferenceIdeal.main_arg6)))
    (r7 : AllReal (Cert.ReferenceIdeal.Segs.U0 m' c (Proc.devRef .tc Cert.ReferenceIdeal.main_arg7)))
    (r8 : AllReal (Cert.ReferenceIdeal.Segs.U0 m' c (Proc.devRef .tc Cert.ReferenceIdeal.main_arg8))) :
    Cert.KernelIdeal.Gen.W30 m ρ c (Proc.devRef .tc Cert.KernelIdeal.main_v210) = Cert.ReferenceIdeal.Segs.U26 m' c (Proc.devRef .tc Cert.ReferenceIdeal.main_v237) := by
  have e_v3_3_1 : Cert.KernelIdeal.Gen.W3 m ρ c (Proc.devRef .tc Cert.KernelIdeal.main_v3) = Cert.ReferenceIdeal.Segs.U1 m' c (Proc.devRef .tc Cert.ReferenceIdeal.main_v3) := init_v3 m ρ m' c a1 a3 a4
  have e_v6_3_1 : Cert.KernelIdeal.Gen.W3 m ρ c (Proc.devRef .tc Cert.KernelIdeal.main_v6) = Cert.ReferenceIdeal.Segs.U1 m' c (Proc.devRef .tc Cert.ReferenceIdeal.main_v6) := init_v6 m ρ m' c a1 a3 a4
  have e_v29_3_1 : Cert.KernelIdeal.Gen.W3 m ρ c (Proc.devRef .tc Cert.KernelIdeal.main_v29) = Cert.ReferenceIdeal.Segs.U1 m' c (Proc.devRef .tc Cert.ReferenceIdeal.main_v29) := init_v29 m ρ m' c a1 a3 a4
  have e_v30_3_1 : Cert.KernelIdeal.Gen.W3 m ρ c (Proc.devRef .tc Cert.KernelIdeal.main_v30) = Cert.ReferenceIdeal.Segs.U1 m' c (Proc.devRef .tc Cert.ReferenceIdeal.main_v30) := init_v30 m ρ m' c a1 a3 a4
  have e_v32_3_1 : Cert.KernelIdeal.Gen.W3 m ρ c (Proc.devRef .tc Cert.KernelIdeal.main_v32) = Cert.ReferenceIdeal.Segs.U1 m' c (Proc.devRef .tc Cert.ReferenceIdeal.main_v32) := init_v32 m ρ m' c a1 a3 a4
  have e_v34_3_1 : Cert.KernelIdeal.Gen.W3 m ρ c (Proc.devRef .tc Cert.KernelIdeal.main_v34) = Cert.ReferenceIdeal.Segs.U1 m' c (Proc.devRef .tc Cert.ReferenceIdeal.main_v34) := init_v34 m ρ m' c a1 a3 a4
  have r_v29_1 : AllReal (Cert.ReferenceIdeal.Segs.U1 m' c (Proc.devRef .tc Cert.ReferenceIdeal.main_v29)) := init_real_v29 m' c
  have r_v32_1 : AllReal (Cert.ReferenceIdeal.Segs.U1 m' c (Proc.devRef .tc Cert.ReferenceIdeal.main_v32)) := init_real_v32 m' c r3
  have r_v34_1 : AllReal (Cert.ReferenceIdeal.Segs.U1 m' c (Proc.devRef .tc Cert.ReferenceIdeal.main_v34)) := init_real_v34 m' c r4
  have e_arg0_3_1 : Cert.KernelIdeal.Gen.W3 m ρ c (Proc.devRef .tc Cert.KernelIdeal.main_arg0) = Cert.ReferenceIdeal.Segs.U1 m' c (Proc.devRef .tc Cert.ReferenceIdeal.main_arg0) := (Cert.KernelIdeal.Carry.k_arg0_0_3 m ρ c).trans (a0.trans (Cert.ReferenceIdeal.Carry.r_arg0_0_1 m' c).symm)
  have r_arg0_1 : AllReal (Cert.ReferenceIdeal.Segs.U1 m' c (Proc.devRef .tc Cert.ReferenceIdeal.main_arg0)) := by rw [Cert.ReferenceIdeal.Carry.r_arg0_0_1 m' c]; exact r0
  have r_v35_2 : AllReal (Cert.ReferenceIdeal.Segs.U2 m' c (Proc.devRef .tc Cert.ReferenceIdeal.main_v35)) := conv0_real m' c r_arg0_1 r_v32_1
  have e_v35_4_2 : Cert.KernelIdeal.Gen.W4 m ρ c (Proc.devRef .tc Cert.KernelIdeal.main_v35) = Cert.ReferenceIdeal.Segs.U2 m' c (Proc.devRef .tc Cert.ReferenceIdeal.main_v35) := conv0 m ρ m' c e_arg0_3_1 e_v32_3_1
  have e_v3_4_2 : Cert.KernelIdeal.Gen.W4 m ρ c (Proc.devRef .tc Cert.KernelIdeal.main_v3) = Cert.ReferenceIdeal.Segs.U2 m' c (Proc.devRef .tc Cert.ReferenceIdeal.main_v3) := (Cert.KernelIdeal.Carry.k_v3_3_4 m ρ c).trans (e_v3_3_1.trans (Cert.ReferenceIdeal.Carry.r_v3_1_2 m' c).symm)
  have e_v6_4_2 : Cert.KernelIdeal.Gen.W4 m ρ c (Proc.devRef .tc Cert.KernelIdeal.main_v6) = Cert.ReferenceIdeal.Segs.U2 m' c (Proc.devRef .tc Cert.ReferenceIdeal.main_v6) := (Cert.KernelIdeal.Carry.k_v6_3_4 m ρ c).trans (e_v6_3_1.trans (Cert.ReferenceIdeal.Carry.r_v6_1_2 m' c).symm)
  have e_v29_4_2 : Cert.KernelIdeal.Gen.W4 m ρ c (Proc.devRef .tc Cert.KernelIdeal.main_v29) = Cert.ReferenceIdeal.Segs.U2 m' c (Proc.devRef .tc Cert.ReferenceIdeal.main_v29) := (Cert.KernelIdeal.Carry.k_v29_3_4 m ρ c).trans (e_v29_3_1.trans (Cert.ReferenceIdeal.Carry.r_v29_1_2 m' c).symm)
  have r_v29_2 : AllReal (Cert.ReferenceIdeal.Segs.U2 m' c (Proc.devRef .tc Cert.ReferenceIdeal.main_v29)) := by rw [Cert.ReferenceIdeal.Carry.r_v29_1_2 m' c]; exact r_v29_1
  have r_v48_3 : AllReal (Cert.ReferenceIdeal.Segs.U3 m' c (Proc.devRef .tc Cert.ReferenceIdeal.main_v48)) := gcn0_real_v48 m' c r_v35_2 r_v29_2
  have e_v48_5_3 : Cert.KernelIdeal.Gen.W5 m ρ c (Proc.devRef .tc Cert.KernelIdeal.main_v48) = Cert.ReferenceIdeal.Segs.U3 m' c (Proc.devRef .tc Cert.ReferenceIdeal.main_v48) := gcn0_v48 m ρ m' c e_v3_4_2 e_v6_4_2 e_v29_4_2 e_v35_4_2
  have e_v34_4_3 : Cert.KernelIdeal.Gen.W4 m ρ c (Proc.devRef .tc Cert.KernelIdeal.main_v34) = Cert.ReferenceIdeal.Segs.U3 m' c (Proc.devRef .tc Cert.ReferenceIdeal.main_v34) := (Cert.KernelIdeal.Carry.k_v34_3_4 m ρ c).trans (e_v34_3_1.trans (Cert.ReferenceIdeal.Carry.r_v34_1_3 m' c).symm)
  have r_v34_3 : AllReal (Cert.ReferenceIdeal.Segs.U3 m' c (Proc.devRef .tc Cert.ReferenceIdeal.main_v34)) := by rw [Cert.ReferenceIdeal.Carry.r_v34_1_3 m' c]; exact r_v34_1
  have r_v52_4 : AllReal (Cert.ReferenceIdeal.Segs.U4 m' c (Proc.devRef .tc Cert.ReferenceIdeal.main_v52)) := bias1_real m' c r_v48_3 r_v34_3
  have e_v50_6_4 : Cert.KernelIdeal.Gen.W6 m ρ c (Proc.devRef .tc Cert.KernelIdeal.main_v50) = Cert.ReferenceIdeal.Segs.U4 m' c (Proc.devRef .tc Cert.ReferenceIdeal.main_v52) := bias1 m ρ m' c e_v48_5_3 (fun j => by rw [gcn0_row_v49 m ρ c j, e_v34_4_3])
  have e_arg3_6_4 : Cert.KernelIdeal.Gen.W6 m ρ c (Proc.devRef .tc Cert.KernelIdeal.main_arg3) = Cert.ReferenceIdeal.Segs.U4 m' c (Proc.devRef .tc Cert.ReferenceIdeal.main_arg3) := ((Cert.KernelIdeal.Carry.k_arg3_2_6 m ρ c).trans (Cert.KernelIdeal.Carry.k_arg3_0_2 m ρ c)).trans (a3.trans (Cert.ReferenceIdeal.Carry.r_arg3_0_4 m' c).symm)
  have e_arg4_6_4 : Cert.KernelIdeal.Gen.W6 m ρ c (Proc.devRef .tc Cert.KernelIdeal.main_arg4) = Cert.ReferenceIdeal.Segs.U4 m' c (Proc.devRef .tc Cert.ReferenceIdeal.main_arg4) := ((Cert.KernelIdeal.Carry.k_arg4_2_6 m ρ c).trans (Cert.KernelIdeal.Carry.k_arg4_0_2 m ρ c)).trans (a4.trans (Cert.ReferenceIdeal.Carry.r_arg4_0_4 m' c).symm)
  have r_arg3_4 : AllReal (Cert.ReferenceIdeal.Segs.U4 m' c (Proc.devRef .tc Cert.ReferenceIdeal.main_arg3)) := by rw [Cert.ReferenceIdeal.Carry.r_arg3_0_4 m' c]; exact r3
  have r_arg4_4 : AllReal (Cert.ReferenceIdeal.Segs.U4 m' c (Proc.devRef .tc Cert.ReferenceIdeal.main_arg4)) := by rw [Cert.ReferenceIdeal.Carry.r_arg4_0_4 m' c]; exact r4
  have r_v54_5 : AllReal (Cert.ReferenceIdeal.Segs.U5 m' c (Proc.devRef .tc Cert.ReferenceIdeal.main_v54)) := slice1_real_v54 m' c r_arg3_4 r_arg4_4
  have r_v56_5 : AllReal (Cert.ReferenceIdeal.Segs.U5 m' c (Proc.devRef .tc Cert.ReferenceIdeal.main_v56)) := slice1_real_v56 m' c r_arg3_4 r_arg4_4
  have e_v52_7_5 : Cert.KernelIdeal.Gen.W7 m ρ c (Proc.devRef .tc Cert.KernelIdeal.main_v52) = Cert.ReferenceIdeal.Segs.U5 m' c (Proc.devRef .tc Cert.ReferenceIdeal.main_v54) := slice1_v52 m ρ m' c e_arg3_6_4 e_arg4_6_4
  have e_v54_7_5 : Cert.KernelIdeal.Gen.W7 m ρ c (Proc.devRef .tc Cert.KernelIdeal.main_v54) = Cert.ReferenceIdeal.Segs.U5 m' c (Proc.devRef .tc Cert.ReferenceIdeal.main_v56) := slice1_v54 m ρ m' c e_arg3_6_4 e_arg4_6_4
  have e_v50_7_5 : Cert.KernelIdeal.Gen.W7 m ρ c (Proc.devRef .tc Cert.KernelIdeal.main_v50) = Cert.ReferenceIdeal.Segs.U5 m' c (Proc.devRef .tc Cert.ReferenceIdeal.main_v52) := (Cert.KernelIdeal.Carry.k_v50_6_7 m ρ c).trans (e_v50_6_4.trans (Cert.ReferenceIdeal.Carry.r_v52_4_5 m' c).symm)
  have r_v52_5 : AllReal (Cert.ReferenceIdeal.Segs.U5 m' c (Proc.devRef .tc Cert.ReferenceIdeal.main_v52)) := by rw [Cert.ReferenceIdeal.Carry.r_v52_4_5 m' c]; exact r_v52_4
  have r_v57_6 : AllReal (Cert.ReferenceIdeal.Segs.U6 m' c (Proc.devRef .tc Cert.ReferenceIdeal.main_v57)) := conv2_real m' c r_v52_5 r_v54_5
  have e_v55_8_6 : Cert.KernelIdeal.Gen.W8 m ρ c (Proc.devRef .tc Cert.KernelIdeal.main_v55) = Cert.ReferenceIdeal.Segs.U6 m' c (Proc.devRef .tc Cert.ReferenceIdeal.main_v57) := conv2 m ρ m' c e_v50_7_5 e_v52_7_5
  have e_v3_8_6 : Cert.KernelIdeal.Gen.W8 m ρ c (Proc.devRef .tc Cert.KernelIdeal.main_v3) = Cert.ReferenceIdeal.Segs.U6 m' c (Proc.devRef .tc Cert.ReferenceIdeal.main_v3) := (Cert.KernelIdeal.Carry.k_v3_4_8 m ρ c).trans (e_v3_4_2.trans (Cert.ReferenceIdeal.Carry.r_v3_2_6 m' c).symm)
  have e_v6_8_6 : Cert.KernelIdeal.Gen.W8 m ρ c (Proc.devRef .tc Cert.KernelIdeal.main_v6) = Cert.ReferenceIdeal.Segs.U6 m' c (Proc.devRef .tc Cert.ReferenceIdeal.main_v6) := (Cert.KernelIdeal.Carry.k_v6_4_8 m ρ c).trans (e_v6_4_2.trans (Cert.ReferenceIdeal.Carry.r_v6_2_6 m' c).symm)
  have e_v29_8_6 : Cert.KernelIdeal.Gen.W8 m ρ c (Proc.devRef .tc Cert.KernelIdeal.main_v29) = Cert.ReferenceIdeal.Segs.U6 m' c (Proc.devRef .tc Cert.ReferenceIdeal.main_v29) := (Cert.KernelIdeal.Carry.k_v29_4_8 m ρ c).trans (e_v29_4_2.trans (Cert.ReferenceIdeal.Carry.r_v29_2_6 m' c).symm)
  have r_v29_6 : AllReal (Cert.ReferenceIdeal.Segs.U6 m' c (Proc.devRef .tc Cert.ReferenceIdeal.main_v29)) := by rw [Cert.ReferenceIdeal.Carry.r_v29_2_6 m' c]; exact r_v29_2
  have r_v70_7 : AllReal (Cert.ReferenceIdeal.Segs.U7 m' c (Proc.devRef .tc Cert.ReferenceIdeal.main_v70)) := gcn1_real_v70 m' c r_v57_6 r_v29_6
  have e_v68_9_7 : Cert.KernelIdeal.Gen.W9 m ρ c (Proc.devRef .tc Cert.KernelIdeal.main_v68) = Cert.ReferenceIdeal.Segs.U7 m' c (Proc.devRef .tc Cert.ReferenceIdeal.main_v70) := gcn1_v68 m ρ m' c e_v3_8_6 e_v6_8_6 e_v29_8_6 e_v55_8_6
  have e_v54_8_7 : Cert.KernelIdeal.Gen.W8 m ρ c (Proc.devRef .tc Cert.KernelIdeal.main_v54) = Cert.ReferenceIdeal.Segs.U7 m' c (Proc.devRef .tc Cert.ReferenceIdeal.main_v56) := (Cert.KernelIdeal.Carry.k_v54_7_8 m ρ c).trans (e_v54_7_5.trans (Cert.ReferenceIdeal.Carry.r_v56_5_7 m' c).symm)
  have r_v56_7 : AllReal (Cert.ReferenceIdeal.Segs.U7 m' c (Proc.devRef .tc Cert.ReferenceIdeal.main_v56)) := by rw [Cert.ReferenceIdeal.Carry.r_v56_5_7 m' c]; exact r_v56_5
  have r_v74_8 : AllReal (Cert.ReferenceIdeal.Segs.U8 m' c (Proc.devRef .tc Cert.ReferenceIdeal.main_v74)) := bias3_real m' c r_v70_7 r_v56_7
  have e_v70_10_8 : Cert.KernelIdeal.Gen.W10 m ρ c (Proc.devRef .tc Cert.KernelIdeal.main_v70) = Cert.ReferenceIdeal.Segs.U8 m' c (Proc.devRef .tc Cert.ReferenceIdeal.main_v74) := bias3 m ρ m' c e_v68_9_7 (fun j => by rw [gcn1_row_v69 m ρ c j, e_v54_8_7])
  have e_arg5_10_8 : Cert.KernelIdeal.Gen.W10 m ρ c (Proc.devRef .tc Cert.KernelIdeal.main_arg5) = Cert.ReferenceIdeal.Segs.U8 m' c (Proc.devRef .tc Cert.ReferenceIdeal.main_arg5) := (Cert.KernelIdeal.Carry.k_arg5_0_10 m ρ c).trans (a5.trans (Cert.ReferenceIdeal.Carry.r_arg5_0_8 m' c).symm)
  have e_arg6_10_8 : Cert.KernelIdeal.Gen.W10 m ρ c (Proc.devRef .tc Cert.KernelIdeal.main_arg6) = Cert.ReferenceIdeal.Segs.U8 m' c (Proc.devRef .tc Cert.ReferenceIdeal.main_arg6) := (Cert.KernelIdeal.Carry.k_arg6_0_10 m ρ c).trans (a6.trans (Cert.ReferenceIdeal.Carry.r_arg6_0_8 m' c).symm)
  have e_arg7_10_8 : Cert.KernelIdeal.Gen.W10 m ρ c (Proc.devRef .tc Cert.KernelIdeal.main_arg7) = Cert.ReferenceIdeal.Segs.U8 m' c (Proc.devRef .tc Cert.ReferenceIdeal.main_arg7) := (Cert.KernelIdeal.Carry.k_arg7_0_10 m ρ c).trans (a7.trans (Cert.ReferenceIdeal.Carry.r_arg7_0_8 m' c).symm)
  have e_arg8_10_8 : Cert.KernelIdeal.Gen.W10 m ρ c (Proc.devRef .tc Cert.KernelIdeal.main_arg8) = Cert.ReferenceIdeal.Segs.U8 m' c (Proc.devRef .tc Cert.ReferenceIdeal.main_arg8) := (Cert.KernelIdeal.Carry.k_arg8_0_10 m ρ c).trans (a8.trans (Cert.ReferenceIdeal.Carry.r_arg8_0_8 m' c).symm)
  have e_arg2_10_8 : Cert.KernelIdeal.Gen.W10 m ρ c (Proc.devRef .tc Cert.KernelIdeal.main_arg2) = Cert.ReferenceIdeal.Segs.U8 m' c (Proc.devRef .tc Cert.ReferenceIdeal.main_arg2) := (Cert.KernelIdeal.Carry.k_arg2_0_10 m ρ c).trans (a2.trans (Cert.ReferenceIdeal.Carry.r_arg2_0_8 m' c).symm)
  have e_v30_10_8 : Cert.KernelIdeal.Gen.W10 m ρ c (Proc.devRef .tc Cert.KernelIdeal.main_v30) = Cert.ReferenceIdeal.Segs.U8 m' c (Proc.devRef .tc Cert.ReferenceIdeal.main_v30) := (Cert.KernelIdeal.Carry.k_v30_3_10 m ρ c).trans (e_v30_3_1.trans (Cert.ReferenceIdeal.Carry.r_v30_1_8 m' c).symm)
  have r_arg5_8 : AllReal (Cert.ReferenceIdeal.Segs.U8 m' c (Proc.devRef .tc Cert.ReferenceIdeal.main_arg5)) := by rw [Cert.ReferenceIdeal.Carry.r_arg5_0_8 m' c]; exact r5
  have r_arg6_8 : AllReal (Cert.ReferenceIdeal.Segs.U8 m' c (Proc.devRef .tc Cert.ReferenceIdeal.main_arg6)) := by rw [Cert.ReferenceIdeal.Carry.r_arg6_0_8 m' c]; exact r6
  have r_arg7_8 : AllReal (Cert.ReferenceIdeal.Segs.U8 m' c (Proc.devRef .tc Cert.ReferenceIdeal.main_arg7)) := by rw [Cert.ReferenceIdeal.Carry.r_arg7_0_8 m' c]; exact r7
  have r_arg8_8 : AllReal (Cert.ReferenceIdeal.Segs.U8 m' c (Proc.devRef .tc Cert.ReferenceIdeal.main_arg8)) := by rw [Cert.ReferenceIdeal.Carry.r_arg8_0_8 m' c]; exact r8
  have r_v76_9 : AllReal (Cert.ReferenceIdeal.Segs.U9 m' c (Proc.devRef .tc Cert.ReferenceIdeal.main_v76)) := pool1_real_v76 m' c r_arg5_8 r_arg6_8 r_arg7_8 r_arg8_8 r_v74_8
  have r_v78_9 : AllReal (Cert.ReferenceIdeal.Segs.U9 m' c (Proc.devRef .tc Cert.ReferenceIdeal.main_v78)) := pool1_real_v78 m' c r_arg5_8 r_arg6_8 r_arg7_8 r_arg8_8 r_v74_8
  have r_v80_9 : AllReal (Cert.ReferenceIdeal.Segs.U9 m' c (Proc.devRef .tc Cert.ReferenceIdeal.main_v80)) := pool1_real_v80 m' c r_arg5_8 r_arg6_8 r_arg7_8 r_arg8_8 r_v74_8
  have r_v82_9 : AllReal (Cert.ReferenceIdeal.Segs.U9 m' c (Proc.devRef .tc Cert.ReferenceIdeal.main_v82)) := pool1_real_v82 m' c r_arg5_8 r_arg6_8 r_arg7_8 r_arg8_8 r_v74_8
  have r_v92_9 : AllReal (Cert.ReferenceIdeal.Segs.U9 m' c (Proc.devRef .tc Cert.ReferenceIdeal.main_v92)) := pool1_real_v92 m' c r_arg5_8 r_arg6_8 r_arg7_8 r_arg8_8 r_v74_8
  have e_v72_11_9 : Cert.KernelIdeal.Gen.W11 m ρ c (Proc.devRef .tc Cert.KernelIdeal.main_v72) = Cert.ReferenceIdeal.Segs.U9 m' c (Proc.devRef .tc Cert.ReferenceIdeal.main_v76) := pool1_v72 m ρ m' c e_arg5_10_8 e_arg6_10_8 e_arg7_10_8 e_arg8_10_8 e_arg2_10_8 e_v30_10_8 e_v70_10_8
  have e_v74_11_9 : Cert.KernelIdeal.Gen.W11 m ρ c (Proc.devRef .tc Cert.KernelIdeal.main_v74) = Cert.ReferenceIdeal.Segs.U9 m' c (Proc.devRef .tc Cert.ReferenceIdeal.main_v78) := pool1_v74 m ρ m' c e_arg5_10_8 e_arg6_10_8 e_arg7_10_8 e_arg8_10_8 e_arg2_10_8 e_v30_10_8 e_v70_10_8
  have e_v76_11_9 : Cert.KernelIdeal.Gen.W11 m ρ c (Proc.devRef .tc Cert.KernelIdeal.main_v76) = Cert.ReferenceIdeal.Segs.U9 m' c (Proc.devRef .tc Cert.ReferenceIdeal.main_v80) := pool1_v76 m ρ m' c e_arg5_10_8 e_arg6_10_8 e_arg7_10_8 e_arg8_10_8 e_arg2_10_8 e_v30_10_8 e_v70_10_8
  have e_v78_11_9 : Cert.KernelIdeal.Gen.W11 m ρ c (Proc.devRef .tc Cert.KernelIdeal.main_v78) = Cert.ReferenceIdeal.Segs.U9 m' c (Proc.devRef .tc Cert.ReferenceIdeal.main_v82) := pool1_v78 m ρ m' c e_arg5_10_8 e_arg6_10_8 e_arg7_10_8 e_arg8_10_8 e_arg2_10_8 e_v30_10_8 e_v70_10_8
  have e_v88_11_9 : Cert.KernelIdeal.Gen.W11 m ρ c (Proc.devRef .tc Cert.KernelIdeal.main_v88) = Cert.ReferenceIdeal.Segs.U9 m' c (Proc.devRef .tc Cert.ReferenceIdeal.main_v92) := pool1_v88 m ρ m' c e_arg5_10_8 e_arg6_10_8 e_arg7_10_8 e_arg8_10_8 e_arg2_10_8 e_v30_10_8 e_v70_10_8
  have r_v97_10 : AllReal (Cert.ReferenceIdeal.Segs.U10 m' c (Proc.devRef .tc Cert.ReferenceIdeal.main_v97)) := lin4_real m' c r_v92_9 r_v76_9 r_v78_9
  have e_v90_12_10 : Cert.KernelIdeal.Gen.W12 m ρ c (Proc.devRef .tc Cert.KernelIdeal.main_v90) = Cert.ReferenceIdeal.Segs.U10 m' c (Proc.devRef .tc Cert.ReferenceIdeal.main_v97) := lin4 m ρ m' c e_v88_11_9 e_v72_11_9 (fun j => by rw [pool1_row_v89 m ρ c j, e_v74_11_9])
  have e_v76_12_10 : Cert.KernelIdeal.Gen.W12 m ρ c (Proc.devRef .tc Cert.KernelIdeal.main_v76) = Cert.ReferenceIdeal.Segs.U10 m' c (Proc.devRef .tc Cert.ReferenceIdeal.main_v80) := (Cert.KernelIdeal.Carry.k_v76_11_12 m ρ c).trans (e_v76_11_9.trans (Cert.ReferenceIdeal.Carry.r_v80_9_10 m' c).symm)
  have e_v78_12_10 : Cert.KernelIdeal.Gen.W12 m ρ c (Proc.devRef .tc Cert.KernelIdeal.main_v78) = Cert.ReferenceIdeal.Segs.U10 m' c (Proc.devRef .tc Cert.ReferenceIdeal.main_v82) := (Cert.KernelIdeal.Carry.k_v78_11_12 m ρ c).trans (e_v78_11_9.trans (Cert.ReferenceIdeal.Carry.r_v82_9_10 m' c).symm)
  have r_v80_10 : AllReal (Cert.ReferenceIdeal.Segs.U10 m' c (Proc.devRef .tc Cert.ReferenceIdeal.main_v80)) := by rw [Cert.ReferenceIdeal.Carry.r_v80_9_10 m' c]; exact r_v80_9
  have r_v82_10 : AllReal (Cert.ReferenceIdeal.Segs.U10 m' c (Proc.devRef .tc Cert.ReferenceIdeal.main_v82)) := by rw [Cert.ReferenceIdeal.Carry.r_v82_9_10 m' c]; exact r_v82_9
  have r_v123_11 : AllReal (Cert.ReferenceIdeal.Segs.U11 m' c (Proc.devRef .tc Cert.ReferenceIdeal.main_v123)) := bn1_real m' c r_v97_10 r_v80_10 r_v82_10
  have e_v110_14_11 : Cert.KernelIdeal.Gen.W14 m ρ c (Proc.devRef .tc Cert.KernelIdeal.main_v110) = Cert.ReferenceIdeal.Segs.U11 m' c (Proc.devRef .tc Cert.ReferenceIdeal.main_v123) := bn1 m ρ m' c e_v90_12_10 e_v76_12_10 e_v78_12_10 r_v97_10 r_v80_10 r_v82_10
  have e_arg5_14_11 : Cert.KernelIdeal.Gen.W14 m ρ c (Proc.devRef .tc Cert.KernelIdeal.main_arg5) = Cert.ReferenceIdeal.Segs.U11 m' c (Proc.devRef .tc Cert.ReferenceIdeal.main_arg5) := (Cert.KernelIdeal.Carry.k_arg5_10_14 m ρ c).trans (e_arg5_10_8.trans (Cert.ReferenceIdeal.Carry.r_arg5_8_11 m' c).symm)
  have e_arg6_14_11 : Cert.KernelIdeal.Gen.W14 m ρ c (Proc.devRef .tc Cert.KernelIdeal.main_arg6) = Cert.ReferenceIdeal.Segs.U11 m' c (Proc.devRef .tc Cert.ReferenceIdeal.main_arg6) := (Cert.KernelIdeal.Carry.k_arg6_10_14 m ρ c).trans (e_arg6_10_8.trans (Cert.ReferenceIdeal.Carry.r_arg6_8_11 m' c).symm)
  have e_arg7_14_11 : Cert.KernelIdeal.Gen.W14 m ρ c (Proc.devRef .tc Cert.KernelIdeal.main_arg7) = Cert.ReferenceIdeal.Segs.U11 m' c (Proc.devRef .tc Cert.ReferenceIdeal.main_arg7) := (Cert.KernelIdeal.Carry.k_arg7_10_14 m ρ c).trans (e_arg7_10_8.trans (Cert.ReferenceIdeal.Carry.r_arg7_8_11 m' c).symm)
  have e_arg8_14_11 : Cert.KernelIdeal.Gen.W14 m ρ c (Proc.devRef .tc Cert.KernelIdeal.main_arg8) = Cert.ReferenceIdeal.Segs.U11 m' c (Proc.devRef .tc Cert.ReferenceIdeal.main_arg8) := (Cert.KernelIdeal.Carry.k_arg8_10_14 m ρ c).trans (e_arg8_10_8.trans (Cert.ReferenceIdeal.Carry.r_arg8_8_11 m' c).symm)
  have e_arg2_14_11 : Cert.KernelIdeal.Gen.W14 m ρ c (Proc.devRef .tc Cert.KernelIdeal.main_arg2) = Cert.ReferenceIdeal.Segs.U11 m' c (Proc.devRef .tc Cert.ReferenceIdeal.main_arg2) := (Cert.KernelIdeal.Carry.k_arg2_10_14 m ρ c).trans (e_arg2_10_8.trans (Cert.ReferenceIdeal.Carry.r_arg2_8_11 m' c).symm)
  have e_v30_14_11 : Cert.KernelIdeal.Gen.W14 m ρ c (Proc.devRef .tc Cert.KernelIdeal.main_v30) = Cert.ReferenceIdeal.Segs.U11 m' c (Proc.devRef .tc Cert.ReferenceIdeal.main_v30) := (Cert.KernelIdeal.Carry.k_v30_10_14 m ρ c).trans (e_v30_10_8.trans (Cert.ReferenceIdeal.Carry.r_v30_8_11 m' c).symm)
  have r_arg5_11 : AllReal (Cert.ReferenceIdeal.Segs.U11 m' c (Proc.devRef .tc Cert.ReferenceIdeal.main_arg5)) := by rw [Cert.ReferenceIdeal.Carry.r_arg5_8_11 m' c]; exact r_arg5_8
  have r_arg6_11 : AllReal (Cert.ReferenceIdeal.Segs.U11 m' c (Proc.devRef .tc Cert.ReferenceIdeal.main_arg6)) := by rw [Cert.ReferenceIdeal.Carry.r_arg6_8_11 m' c]; exact r_arg6_8
  have r_arg7_11 : AllReal (Cert.ReferenceIdeal.Segs.U11 m' c (Proc.devRef .tc Cert.ReferenceIdeal.main_arg7)) := by rw [Cert.ReferenceIdeal.Carry.r_arg7_8_11 m' c]; exact r_arg7_8
  have r_arg8_11 : AllReal (Cert.ReferenceIdeal.Segs.U11 m' c (Proc.devRef .tc Cert.ReferenceIdeal.main_arg8)) := by rw [Cert.ReferenceIdeal.Carry.r_arg8_8_11 m' c]; exact r_arg8_8
  have r_v125_12 : AllReal (Cert.ReferenceIdeal.Segs.U12 m' c (Proc.devRef .tc Cert.ReferenceIdeal.main_v125)) := pool2_real_v125 m' c r_arg5_11 r_arg6_11 r_arg7_11 r_arg8_11 r_v123_11
  have r_v127_12 : AllReal (Cert.ReferenceIdeal.Segs.U12 m' c (Proc.devRef .tc Cert.ReferenceIdeal.main_v127)) := pool2_real_v127 m' c r_arg5_11 r_arg6_11 r_arg7_11 r_arg8_11 r_v123_11
  have r_v129_12 : AllReal (Cert.ReferenceIdeal.Segs.U12 m' c (Proc.devRef .tc Cert.ReferenceIdeal.main_v129)) := pool2_real_v129 m' c r_arg5_11 r_arg6_11 r_arg7_11 r_arg8_11 r_v123_11
  have r_v131_12 : AllReal (Cert.ReferenceIdeal.Segs.U12 m' c (Proc.devRef .tc Cert.ReferenceIdeal.main_v131)) := pool2_real_v131 m' c r_arg5_11 r_arg6_11 r_arg7_11 r_arg8_11 r_v123_11
  have r_v141_12 : AllReal (Cert.ReferenceIdeal.Segs.U12 m' c (Proc.devRef .tc Cert.ReferenceIdeal.main_v141)) := pool2_real_v141 m' c r_arg5_11 r_arg6_11 r_arg7_11 r_arg8_11 r_v123_11
  have e_v112_15_12 : Cert.KernelIdeal.Gen.W15 m ρ c (Proc.devRef .tc Cert.KernelIdeal.main_v112) = Cert.ReferenceIdeal.Segs.U12 m' c (Proc.devRef .tc Cert.ReferenceIdeal.main_v125) := pool2_v112 m ρ m' c e_arg5_14_11 e_arg6_14_11 e_arg7_14_11 e_arg8_14_11 e_arg2_14_11 e_v30_14_11 e_v110_14_11
  have e_v114_15_12 : Cert.KernelIdeal.Gen.W15 m ρ c (Proc.devRef .tc Cert.KernelIdeal.main_v114) = Cert.ReferenceIdeal.Segs.U12 m' c (Proc.devRef .tc Cert.ReferenceIdeal.main_v127) := pool2_v114 m ρ m' c e_arg5_14_11 e_arg6_14_11 e_arg7_14_11 e_arg8_14_11 e_arg2_14_11 e_v30_14_11 e_v110_14_11
  have e_v116_15_12 : Cert.KernelIdeal.Gen.W15 m ρ c (Proc.devRef .tc Cert.KernelIdeal.main_v116) = Cert.ReferenceIdeal.Segs.U12 m' c (Proc.devRef .tc Cert.ReferenceIdeal.main_v129) := pool2_v116 m ρ m' c e_arg5_14_11 e_arg6_14_11 e_arg7_14_11 e_arg8_14_11 e_arg2_14_11 e_v30_14_11 e_v110_14_11
  have e_v118_15_12 : Cert.KernelIdeal.Gen.W15 m ρ c (Proc.devRef .tc Cert.KernelIdeal.main_v118) = Cert.ReferenceIdeal.Segs.U12 m' c (Proc.devRef .tc Cert.ReferenceIdeal.main_v131) := pool2_v118 m ρ m' c e_arg5_14_11 e_arg6_14_11 e_arg7_14_11 e_arg8_14_11 e_arg2_14_11 e_v30_14_11 e_v110_14_11
  have e_v128_15_12 : Cert.KernelIdeal.Gen.W15 m ρ c (Proc.devRef .tc Cert.KernelIdeal.main_v128) = Cert.ReferenceIdeal.Segs.U12 m' c (Proc.devRef .tc Cert.ReferenceIdeal.main_v141) := pool2_v128 m ρ m' c e_arg5_14_11 e_arg6_14_11 e_arg7_14_11 e_arg8_14_11 e_arg2_14_11 e_v30_14_11 e_v110_14_11
  have r_v146_13 : AllReal (Cert.ReferenceIdeal.Segs.U13 m' c (Proc.devRef .tc Cert.ReferenceIdeal.main_v146)) := lin6_real m' c r_v141_12 r_v125_12 r_v127_12
  have e_v130_16_13 : Cert.KernelIdeal.Gen.W16 m ρ c (Proc.devRef .tc Cert.KernelIdeal.main_v130) = Cert.ReferenceIdeal.Segs.U13 m' c (Proc.devRef .tc Cert.ReferenceIdeal.main_v146) := lin6 m ρ m' c e_v128_15_12 e_v112_15_12 (fun j => by rw [pool2_row_v129 m ρ c j, e_v114_15_12])
  have e_v116_16_13 : Cert.KernelIdeal.Gen.W16 m ρ c (Proc.devRef .tc Cert.KernelIdeal.main_v116) = Cert.ReferenceIdeal.Segs.U13 m' c (Proc.devRef .tc Cert.ReferenceIdeal.main_v129) := (Cert.KernelIdeal.Carry.k_v116_15_16 m ρ c).trans (e_v116_15_12.trans (Cert.ReferenceIdeal.Carry.r_v129_12_13 m' c).symm)
  have e_v118_16_13 : Cert.KernelIdeal.Gen.W16 m ρ c (Proc.devRef .tc Cert.KernelIdeal.main_v118) = Cert.ReferenceIdeal.Segs.U13 m' c (Proc.devRef .tc Cert.ReferenceIdeal.main_v131) := (Cert.KernelIdeal.Carry.k_v118_15_16 m ρ c).trans (e_v118_15_12.trans (Cert.ReferenceIdeal.Carry.r_v131_12_13 m' c).symm)
  have r_v129_13 : AllReal (Cert.ReferenceIdeal.Segs.U13 m' c (Proc.devRef .tc Cert.ReferenceIdeal.main_v129)) := by rw [Cert.ReferenceIdeal.Carry.r_v129_12_13 m' c]; exact r_v129_12
  have r_v131_13 : AllReal (Cert.ReferenceIdeal.Segs.U13 m' c (Proc.devRef .tc Cert.ReferenceIdeal.main_v131)) := by rw [Cert.ReferenceIdeal.Carry.r_v131_12_13 m' c]; exact r_v131_12
  have e_v150_18_14 : Cert.KernelIdeal.Gen.W18 m ρ c (Proc.devRef .tc Cert.KernelIdeal.main_v150) = Cert.ReferenceIdeal.Segs.U14 m' c (Proc.devRef .tc Cert.ReferenceIdeal.main_v172) := bn2 m ρ m' c e_v130_16_13 e_v116_16_13 e_v118_16_13 r_v146_13 r_v129_13 r_v131_13
  have e_arg3_18_14 : Cert.KernelIdeal.Gen.W18 m ρ c (Proc.devRef .tc Cert.KernelIdeal.main_arg3) = Cert.ReferenceIdeal.Segs.U14 m' c (Proc.devRef .tc Cert.ReferenceIdeal.main_arg3) := (Cert.KernelIdeal.Carry.k_arg3_6_18 m ρ c).trans (e_arg3_6_4.trans (Cert.ReferenceIdeal.Carry.r_arg3_4_14 m' c).symm)
  have e_arg4_18_14 : Cert.KernelIdeal.Gen.W18 m ρ c (Proc.devRef .tc Cert.KernelIdeal.main_arg4) = Cert.ReferenceIdeal.Segs.U14 m' c (Proc.devRef .tc Cert.ReferenceIdeal.main_arg4) := (Cert.KernelIdeal.Carry.k_arg4_6_18 m ρ c).trans (e_arg4_6_4.trans (Cert.ReferenceIdeal.Carry.r_arg4_4_14 m' c).symm)
  have e_v152_19_15 : Cert.KernelIdeal.Gen.W19 m ρ c (Proc.devRef .tc Cert.KernelIdeal.main_v152) = Cert.ReferenceIdeal.Segs.U15 m' c (Proc.devRef .tc Cert.ReferenceIdeal.main_v174) := slice2_v152 m ρ m' c e_arg3_18_14 e_arg4_18_14
  have e_v154_19_15 : Cert.KernelIdeal.Gen.W19 m ρ c (Proc.devRef .tc Cert.KernelIdeal.main_v154) = Cert.ReferenceIdeal.Segs.U15 m' c (Proc.devRef .tc Cert.ReferenceIdeal.main_v176) := slice2_v154 m ρ m' c e_arg3_18_14 e_arg4_18_14
  have e_v150_19_15 : Cert.KernelIdeal.Gen.W19 m ρ c (Proc.devRef .tc Cert.KernelIdeal.main_v150) = Cert.ReferenceIdeal.Segs.U15 m' c (Proc.devRef .tc Cert.ReferenceIdeal.main_v172) := (Cert.KernelIdeal.Carry.k_v150_18_19 m ρ c).trans (e_v150_18_14.trans (Cert.ReferenceIdeal.Carry.r_v172_14_15 m' c).symm)
  have e_v155_20_16 : Cert.KernelIdeal.Gen.W20 m ρ c (Proc.devRef .tc Cert.KernelIdeal.main_v155) = Cert.ReferenceIdeal.Segs.U16 m' c (Proc.devRef .tc Cert.ReferenceIdeal.main_v177) := conv8 m ρ m' c e_v150_19_15 e_v152_19_15
  have e_v3_20_16 : Cert.KernelIdeal.Gen.W20 m ρ c (Proc.devRef .tc Cert.KernelIdeal.main_v3) = Cert.ReferenceIdeal.Segs.U16 m' c (Proc.devRef .tc Cert.ReferenceIdeal.main_v3) := (Cert.KernelIdeal.Carry.k_v3_8_20 m ρ c).trans (e_v3_8_6.trans (Cert.ReferenceIdeal.Carry.r_v3_6_16 m' c).symm)
  have e_v6_20_16 : Cert.KernelIdeal.Gen.W20 m ρ c (Proc.devRef .tc Cert.KernelIdeal.main_v6) = Cert.ReferenceIdeal.Segs.U16 m' c (Proc.devRef .tc Cert.ReferenceIdeal.main_v6) := (Cert.KernelIdeal.Carry.k_v6_8_20 m ρ c).trans (e_v6_8_6.trans (Cert.ReferenceIdeal.Carry.r_v6_6_16 m' c).symm)
  have e_v29_20_16 : Cert.KernelIdeal.Gen.W20 m ρ c (Proc.devRef .tc Cert.KernelIdeal.main_v29) = Cert.ReferenceIdeal.Segs.U16 m' c (Proc.devRef .tc Cert.ReferenceIdeal.main_v29) := (Cert.KernelIdeal.Carry.k_v29_8_20 m ρ c).trans (e_v29_8_6.trans (Cert.ReferenceIdeal.Carry.r_v29_6_16 m' c).symm)
  have e_v168_21_17 : Cert.KernelIdeal.Gen.W21 m ρ c (Proc.devRef .tc Cert.KernelIdeal.main_v168) = Cert.ReferenceIdeal.Segs.U17 m' c (Proc.devRef .tc Cert.ReferenceIdeal.main_v190) := gcn2_v168 m ρ m' c e_v3_20_16 e_v6_20_16 e_v29_20_16 e_v155_20_16
  have e_v154_20_17 : Cert.KernelIdeal.Gen.W20 m ρ c (Proc.devRef .tc Cert.KernelIdeal.main_v154) = Cert.ReferenceIdeal.Segs.U17 m' c (Proc.devRef .tc Cert.ReferenceIdeal.main_v176) := (Cert.KernelIdeal.Carry.k_v154_19_20 m ρ c).trans (e_v154_19_15.trans (Cert.ReferenceIdeal.Carry.r_v176_15_17 m' c).symm)
  have e_v170_22_18 : Cert.KernelIdeal.Gen.W22 m ρ c (Proc.devRef .tc Cert.KernelIdeal.main_v170) = Cert.ReferenceIdeal.Segs.U18 m' c (Proc.devRef .tc Cert.ReferenceIdeal.main_v194) := bias9 m ρ m' c e_v168_21_17 (fun j => by rw [gcn2_row_v169 m ρ c j, e_v154_20_17])
  have e_arg3_22_18 : Cert.KernelIdeal.Gen.W22 m ρ c (Proc.devRef .tc Cert.KernelIdeal.main_arg3) = Cert.ReferenceIdeal.Segs.U18 m' c (Proc.devRef .tc Cert.ReferenceIdeal.main_arg3) := (Cert.KernelIdeal.Carry.k_arg3_18_22 m ρ c).trans (e_arg3_18_14.trans (Cert.ReferenceIdeal.Carry.r_arg3_14_18 m' c).symm)
  have e_arg4_22_18 : Cert.KernelIdeal.Gen.W22 m ρ c (Proc.devRef .tc Cert.KernelIdeal.main_arg4) = Cert.ReferenceIdeal.Segs.U18 m' c (Proc.devRef .tc Cert.ReferenceIdeal.main_arg4) := (Cert.KernelIdeal.Carry.k_arg4_18_22 m ρ c).trans (e_arg4_18_14.trans (Cert.ReferenceIdeal.Carry.r_arg4_14_18 m' c).symm)
  have e_v172_23_19 : Cert.KernelIdeal.Gen.W23 m ρ c (Proc.devRef .tc Cert.KernelIdeal.main_v172) = Cert.ReferenceIdeal.Segs.U19 m' c (Proc.devRef .tc Cert.ReferenceIdeal.main_v196) := slice3_v172 m ρ m' c e_arg3_22_18 e_arg4_22_18
  have e_v174_23_19 : Cert.KernelIdeal.Gen.W23 m ρ c (Proc.devRef .tc Cert.KernelIdeal.main_v174) = Cert.ReferenceIdeal.Segs.U19 m' c (Proc.devRef .tc Cert.ReferenceIdeal.main_v198) := slice3_v174 m ρ m' c e_arg3_22_18 e_arg4_22_18
  have e_v170_23_19 : Cert.KernelIdeal.Gen.W23 m ρ c (Proc.devRef .tc Cert.KernelIdeal.main_v170) = Cert.ReferenceIdeal.Segs.U19 m' c (Proc.devRef .tc Cert.ReferenceIdeal.main_v194) := (Cert.KernelIdeal.Carry.k_v170_22_23 m ρ c).trans (e_v170_22_18.trans (Cert.ReferenceIdeal.Carry.r_v194_18_19 m' c).symm)
  have e_v175_24_20 : Cert.KernelIdeal.Gen.W24 m ρ c (Proc.devRef .tc Cert.KernelIdeal.main_v175) = Cert.ReferenceIdeal.Segs.U20 m' c (Proc.devRef .tc Cert.ReferenceIdeal.main_v199) := conv10 m ρ m' c e_v170_23_19 e_v172_23_19
  have e_v3_24_20 : Cert.KernelIdeal.Gen.W24 m ρ c (Proc.devRef .tc Cert.KernelIdeal.main_v3) = Cert.ReferenceIdeal.Segs.U20 m' c (Proc.devRef .tc Cert.ReferenceIdeal.main_v3) := (Cert.KernelIdeal.Carry.k_v3_20_24 m ρ c).trans (e_v3_20_16.trans (Cert.ReferenceIdeal.Carry.r_v3_16_20 m' c).symm)
  have e_v6_24_20 : Cert.KernelIdeal.Gen.W24 m ρ c (Proc.devRef .tc Cert.KernelIdeal.main_v6) = Cert.ReferenceIdeal.Segs.U20 m' c (Proc.devRef .tc Cert.ReferenceIdeal.main_v6) := (Cert.KernelIdeal.Carry.k_v6_20_24 m ρ c).trans (e_v6_20_16.trans (Cert.ReferenceIdeal.Carry.r_v6_16_20 m' c).symm)
  have e_v29_24_20 : Cert.KernelIdeal.Gen.W24 m ρ c (Proc.devRef .tc Cert.KernelIdeal.main_v29) = Cert.ReferenceIdeal.Segs.U20 m' c (Proc.devRef .tc Cert.ReferenceIdeal.main_v29) := (Cert.KernelIdeal.Carry.k_v29_20_24 m ρ c).trans (e_v29_20_16.trans (Cert.ReferenceIdeal.Carry.r_v29_16_20 m' c).symm)
  have e_v188_25_21 : Cert.KernelIdeal.Gen.W25 m ρ c (Proc.devRef .tc Cert.KernelIdeal.main_v188) = Cert.ReferenceIdeal.Segs.U21 m' c (Proc.devRef .tc Cert.ReferenceIdeal.main_v212) := gcn3_v188 m ρ m' c e_v3_24_20 e_v6_24_20 e_v29_24_20 e_v175_24_20
  have e_v174_24_21 : Cert.KernelIdeal.Gen.W24 m ρ c (Proc.devRef .tc Cert.KernelIdeal.main_v174) = Cert.ReferenceIdeal.Segs.U21 m' c (Proc.devRef .tc Cert.ReferenceIdeal.main_v198) := (Cert.KernelIdeal.Carry.k_v174_23_24 m ρ c).trans (e_v174_23_19.trans (Cert.ReferenceIdeal.Carry.r_v198_19_21 m' c).symm)
  have e_v190_26_22 : Cert.KernelIdeal.Gen.W26 m ρ c (Proc.devRef .tc Cert.KernelIdeal.main_v190) = Cert.ReferenceIdeal.Segs.U22 m' c (Proc.devRef .tc Cert.ReferenceIdeal.main_v216) := bias11 m ρ m' c e_v188_25_21 (fun j => by rw [gcn3_row_v189 m ρ c j, e_v174_24_21])
  have e_arg3_26_22 : Cert.KernelIdeal.Gen.W26 m ρ c (Proc.devRef .tc Cert.KernelIdeal.main_arg3) = Cert.ReferenceIdeal.Segs.U22 m' c (Proc.devRef .tc Cert.ReferenceIdeal.main_arg3) := (Cert.KernelIdeal.Carry.k_arg3_22_26 m ρ c).trans (e_arg3_22_18.trans (Cert.ReferenceIdeal.Carry.r_arg3_18_22 m' c).symm)
  have e_arg4_26_22 : Cert.KernelIdeal.Gen.W26 m ρ c (Proc.devRef .tc Cert.KernelIdeal.main_arg4) = Cert.ReferenceIdeal.Segs.U22 m' c (Proc.devRef .tc Cert.ReferenceIdeal.main_arg4) := (Cert.KernelIdeal.Carry.k_arg4_22_26 m ρ c).trans (e_arg4_22_18.trans (Cert.ReferenceIdeal.Carry.r_arg4_18_22 m' c).symm)
  have e_v192_27_23 : Cert.KernelIdeal.Gen.W27 m ρ c (Proc.devRef .tc Cert.KernelIdeal.main_v192) = Cert.ReferenceIdeal.Segs.U23 m' c (Proc.devRef .tc Cert.ReferenceIdeal.main_v218) := slice4_v192 m ρ m' c e_arg3_26_22 e_arg4_26_22
  have e_v194_27_23 : Cert.KernelIdeal.Gen.W27 m ρ c (Proc.devRef .tc Cert.KernelIdeal.main_v194) = Cert.ReferenceIdeal.Segs.U23 m' c (Proc.devRef .tc Cert.ReferenceIdeal.main_v220) := slice4_v194 m ρ m' c e_arg3_26_22 e_arg4_26_22
  have e_v190_27_23 : Cert.KernelIdeal.Gen.W27 m ρ c (Proc.devRef .tc Cert.KernelIdeal.main_v190) = Cert.ReferenceIdeal.Segs.U23 m' c (Proc.devRef .tc Cert.ReferenceIdeal.main_v216) := (Cert.KernelIdeal.Carry.k_v190_26_27 m ρ c).trans (e_v190_26_22.trans (Cert.ReferenceIdeal.Carry.r_v216_22_23 m' c).symm)
  have e_v195_28_24 : Cert.KernelIdeal.Gen.W28 m ρ c (Proc.devRef .tc Cert.KernelIdeal.main_v195) = Cert.ReferenceIdeal.Segs.U24 m' c (Proc.devRef .tc Cert.ReferenceIdeal.main_v221) := conv12 m ρ m' c e_v190_27_23 e_v192_27_23
  have e_v3_28_24 : Cert.KernelIdeal.Gen.W28 m ρ c (Proc.devRef .tc Cert.KernelIdeal.main_v3) = Cert.ReferenceIdeal.Segs.U24 m' c (Proc.devRef .tc Cert.ReferenceIdeal.main_v3) := (Cert.KernelIdeal.Carry.k_v3_24_28 m ρ c).trans (e_v3_24_20.trans (Cert.ReferenceIdeal.Carry.r_v3_20_24 m' c).symm)
  have e_v6_28_24 : Cert.KernelIdeal.Gen.W28 m ρ c (Proc.devRef .tc Cert.KernelIdeal.main_v6) = Cert.ReferenceIdeal.Segs.U24 m' c (Proc.devRef .tc Cert.ReferenceIdeal.main_v6) := (Cert.KernelIdeal.Carry.k_v6_24_28 m ρ c).trans (e_v6_24_20.trans (Cert.ReferenceIdeal.Carry.r_v6_20_24 m' c).symm)
  have e_v29_28_24 : Cert.KernelIdeal.Gen.W28 m ρ c (Proc.devRef .tc Cert.KernelIdeal.main_v29) = Cert.ReferenceIdeal.Segs.U24 m' c (Proc.devRef .tc Cert.ReferenceIdeal.main_v29) := (Cert.KernelIdeal.Carry.k_v29_24_28 m ρ c).trans (e_v29_24_20.trans (Cert.ReferenceIdeal.Carry.r_v29_20_24 m' c).symm)
  have e_v208_29_25 : Cert.KernelIdeal.Gen.W29 m ρ c (Proc.devRef .tc Cert.KernelIdeal.main_v208) = Cert.ReferenceIdeal.Segs.U25 m' c (Proc.devRef .tc Cert.ReferenceIdeal.main_v234) := gcn4_v208 m ρ m' c e_v3_28_24 e_v6_28_24 e_v29_28_24 e_v195_28_24
  have e_v194_28_25 : Cert.KernelIdeal.Gen.W28 m ρ c (Proc.devRef .tc Cert.KernelIdeal.main_v194) = Cert.ReferenceIdeal.Segs.U25 m' c (Proc.devRef .tc Cert.ReferenceIdeal.main_v220) := (Cert.KernelIdeal.Carry.k_v194_27_28 m ρ c).trans (e_v194_27_23.trans (Cert.ReferenceIdeal.Carry.r_v220_23_25 m' c).symm)
  have e_v210_30_26 : Cert.KernelIdeal.Gen.W30 m ρ c (Proc.devRef .tc Cert.KernelIdeal.main_v210) = Cert.ReferenceIdeal.Segs.U26 m' c (Proc.devRef .tc Cert.ReferenceIdeal.main_v237) := bias13 m ρ m' c e_v208_29_25 (fun j => by rw [gcn4_row_v209 m ρ c j, e_v194_28_25])
  exact e_v210_30_26

end Cert.Sim

end
-- ==== Proof.PreFinite.lean ====
/-
  The precondition that every float input is finite, read back: when the printed predicate (for each float
  argument x, all of abs x < inf, joined by and) answers 1, every entry of every float argument is a real number
  at the ideal values. Each conjunct is a reduction by and over a comparison of the absolute value with the upper
  infinity; a reduction by and that is 1 had a 1 at every index, and an extended real whose absolute value is below
  the upper infinity is neither infinity.
-/
import proofs.«168298_j84988812853302_1_alg».proof.Pre_finite_inputs
import proofs.«168298_j84988812853302_1_alg».proof.Proof.LibFinite
import Idealize.ShloMosaic.Lib.ReduceAll
import Idealize.ShloMosaic.Lib.ValueIdx

namespace Cert.PreFinite

open Idealize.ShloMosaic Cert.Pre_finite_inputs Cert.LibFinite

/-- The scalar shape has one index. -/
instance : Subsingleton S_.Idx := ⟨fun a b => funext fun d => d.elim0⟩

/-- The f32 pattern 0x7F800000 is the upper infinity. -/
theorem ofBits_f32_inf : Ideal.ofBits .f32 0x7F800000#32 = ⊤ := by simp [Ideal.ofBits, Ideal.ieee]

/-- One conjunct of the predicate: when the reduction by and of abs x < inf over every axis answers 1, every
    entry of x is a real number. -/
theorem allReal_of_all_abs_lt {s : Shape} {dims : Fin S_.rank → Fin s.rank} {hb : S_.BroadcastsInDim s dims}
    {axes : List (Fin s.rank)} {hr : s.ReducesTo axes S_} {hu : 0 < S_.numel} (x : FVec Ideal s .f32)
    (init : IVec S_ 1)
    (e : Host.reduce IntOp.andi
        (cmpf .olt (Host.absf x) (broadcastInDim s dims hb (constant (F := Ideal) S_ .f32 0x7F800000#32))) init hr hu
        ValueIdx.ix0 = 1#1) : AllReal x :=
  allReal_of_abs_lt (inf := broadcastInDim s dims hb (constant (F := Ideal) S_ .f32 0x7F800000#32))
    (fun _ => ofBits_f32_inf) (fun i => Host.reduce_andi_all _ init hr hu ValueIdx.ix0 e i)

variable [Facts]

/-- When the finiteness predicate of the nine arguments answers 1, the seven float arguments hold real numbers only;
    nothing is said of the two integer arguments. -/
theorem allReal_of_finite_inputs (a0 : FVec Ideal S100000x64 .f32) (a1 : IVec S2x1000000 32) (a2 : IVec S100000 32)
    (a3 : FVec Ideal S5x64x64 .f32) (a4 : FVec Ideal S5x64 .f32) (a5 : FVec Ideal S2x64x64 .f32)
    (a6 a7 a8 : FVec Ideal S2x64 .f32)
    (h : fn (F := Ideal) a0 a1 a2 a3 a4 a5 a6 a7 a8 = (fun _ => 1#1)) :
    AllReal a0 ∧ AllReal a3 ∧ AllReal a4 ∧ AllReal a5 ∧ AllReal a6 ∧ AllReal a7 ∧ AllReal a8 := by
  have h0 := congrFun h ValueIdx.ix0
  dsimp only [fn, fn_part1, Idealize.ShloMosaic.andi] at h0
  simp only [IntOp.andi_eq_one] at h0
  obtain ⟨⟨⟨⟨⟨⟨e0, e3⟩, e4⟩, e5⟩, e6⟩, e7⟩, e8⟩ := h0
  exact ⟨allReal_of_all_abs_lt a0 _ e0, allReal_of_all_abs_lt a3 _ e3, allReal_of_all_abs_lt a4 _ e4,
    allReal_of_all_abs_lt a5 _ e5, allReal_of_all_abs_lt a6 _ e6, allReal_of_all_abs_lt a7 _ e7,
    allReal_of_all_abs_lt a8 _ e8⟩

end Cert.PreFinite
-- ==== Proof.ArgsBridge.lean ====
/-
  The arguments of the two programs at launch. The algebraic claim supposes that the reference's nine argument
  arrays equal the kernel's and that the kernel's float arguments pass the finiteness predicate. Here these two
  suppositions are restated about the buffer contents the two runs start from: the kernel's contents at launch and
  the reference's contents at launch agree on every argument, and the reference's seven float arguments hold real
  numbers only (the predicate holds of the kernel's arrays, which are the reference's).
-/
import proofs.«168298_j84988812853302_1_alg».proof.Defs
import proofs.«168298_j84988812853302_1_alg».proof.Proof.Gen.KernelIdeal.Frame
import proofs.«168298_j84988812853302_1_alg».proof.Proof.RefSegs
import proofs.«168298_j84988812853302_1_alg».proof.Proof.Gen.Pre_finite_inputs
import proofs.«168298_j84988812853302_1_alg».proof.Proof.PreFinite
import proofs.«168298_j84988812853302_1_alg».proof.Proof.LibFinite

namespace Cert.ArgsBridge

open Idealize.ShloMosaic Idealize.ShloMosaic.TcCoe Idealize.SL.Sem Cert.LibFinite

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- An array equal to an array of real numbers is an array of real numbers. -/
theorem allReal_of_eq {ι : Type} {f g : ι → EReal} (h : f = g) (hg : AllReal g) : AllReal f := h ▸ hg

/-! ## The two programs' contents at launch agree on each argument -/

/-- Argument 0: the kernel's contents at launch are the reference's, when the two memories agree on it. -/
theorem arg0_agree (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.KernelIdeal.Gen.W0 m ρ c (Proc.devRef .tc Cert.KernelIdeal.main_arg0) = Cert.ReferenceIdeal.Segs.U0 m' c (Proc.devRef .tc Cert.ReferenceIdeal.main_arg0) :=
  h.symm

/-- Argument 1: the kernel's contents at launch are the reference's, when the two memories agree on it. -/
theorem arg1_agree (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.KernelIdeal.Gen.W0 m ρ c (Proc.devRef .tc Cert.KernelIdeal.main_arg1) = Cert.ReferenceIdeal.Segs.U0 m' c (Proc.devRef .tc Cert.ReferenceIdeal.main_arg1) :=
  h.symm

/-- Argument 2: the kernel's contents at launch are the reference's, when the two memories agree on it. -/
theorem arg2_agree (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.KernelIdeal.Gen.W0 m ρ c (Proc.devRef .tc Cert.KernelIdeal.main_arg2) = Cert.ReferenceIdeal.Segs.U0 m' c (Proc.devRef .tc Cert.ReferenceIdeal.main_arg2) :=
  h.symm

/-- Argument 3: the kernel's contents at launch are the reference's, when the two memories agree on it. -/
theorem arg3_agree (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.KernelIdeal.Gen.W0 m ρ c (Proc.devRef .tc Cert.KernelIdeal.main_arg3) = Cert.ReferenceIdeal.Segs.U0 m' c (Proc.devRef .tc Cert.ReferenceIdeal.main_arg3) :=
  h.symm

/-- Argument 4: the kernel's contents at launch are the reference's, when the two memories agree on it. -/
theorem arg4_agree (h : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.KernelIdeal.Gen.W0 m ρ c (Proc.devRef .tc Cert.KernelIdeal.main_arg4) = Cert.ReferenceIdeal.Segs.U0 m' c (Proc.devRef .tc Cert.ReferenceIdeal.main_arg4) :=
  h.symm

/-- Argument 5: the kernel's contents at launch are the reference's, when the two memories agree on it. -/
theorem arg5_agree (h : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.KernelIdeal.Gen.W0 m ρ c (Proc.devRef .tc Cert.KernelIdeal.main_arg5) = Cert.ReferenceIdeal.Segs.U0 m' c (Proc.devRef .tc Cert.ReferenceIdeal.main_arg5) :=
  h.symm

/-- Argument 6: the kernel's contents at launch are the reference's, when the two memories agree on it. -/
theorem arg6_agree (h : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.KernelIdeal.Gen.W0 m ρ c (Proc.devRef .tc Cert.KernelIdeal.main_arg6) = Cert.ReferenceIdeal.Segs.U0 m' c (Proc.devRef .tc Cert.ReferenceIdeal.main_arg6) :=
  h.symm

/-- Argument 7: the kernel's contents at launch are the reference's, when the two memories agree on it. -/
theorem arg7_agree (h : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.KernelIdeal.Gen.W0 m ρ c (Proc.devRef .tc Cert.KernelIdeal.main_arg7) = Cert.ReferenceIdeal.Segs.U0 m' c (Proc.devRef .tc Cert.ReferenceIdeal.main_arg7) :=
  h.symm

/-- Argument 8: the kernel's contents at launch are the reference's, when the two memories agree on it. -/
theorem arg8_agree (h : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.KernelIdeal.Gen.W0 m ρ c (Proc.devRef .tc Cert.KernelIdeal.main_arg8) = Cert.ReferenceIdeal.Segs.U0 m' c (Proc.devRef .tc Cert.ReferenceIdeal.main_arg8) :=
  h.symm

/-! ## The reference's float arguments are real numbers -/

/-- When the kernel's arguments pass the finiteness predicate and the reference's float arguments are the kernel's,
    the reference's float arguments at launch hold real numbers only. -/
theorem args_real (hpre : Cert.Pre_KernelIdeal (hPre_finite_inputs := Cert.Pre_finite_inputs.Gen.facts) m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    AllReal (Cert.ReferenceIdeal.Segs.U0 m' c (Proc.devRef .tc Cert.ReferenceIdeal.main_arg0))
    ∧ AllReal (Cert.ReferenceIdeal.Segs.U0 m' c (Proc.devRef .tc Cert.ReferenceIdeal.main_arg3))
    ∧ AllReal (Cert.ReferenceIdeal.Segs.U0 m' c (Proc.devRef .tc Cert.ReferenceIdeal.main_arg4))
    ∧ AllReal (Cert.ReferenceIdeal.Segs.U0 m' c (Proc.devRef .tc Cert.ReferenceIdeal.main_arg5))
    ∧ AllReal (Cert.ReferenceIdeal.Segs.U0 m' c (Proc.devRef .tc Cert.ReferenceIdeal.main_arg6))
    ∧ AllReal (Cert.ReferenceIdeal.Segs.U0 m' c (Proc.devRef .tc Cert.ReferenceIdeal.main_arg7))
    ∧ AllReal (Cert.ReferenceIdeal.Segs.U0 m' c (Proc.devRef .tc Cert.ReferenceIdeal.main_arg8)) := by
  obtain ⟨r0, r3, r4, r5, r6, r7, r8⟩ := Cert.PreFinite.allReal_of_finite_inputs _ _ _ _ _ _ _ _ _ (hpre c)
  exact ⟨allReal_of_eq h0 r0, allReal_of_eq h3 r3, allReal_of_eq h4 r4, allReal_of_eq h5 r5, allReal_of_eq h6 r6, allReal_of_eq h7 r7, allReal_of_eq h8 r8⟩

end Cert.ArgsBridge
-- ==== Proof.lean ====
/-
  A graph network of five graph convolutions and two cluster poolings with batch normalisation, as a Pallas kernel
  program of fourteen regions against its jnp reference, over the extended reals.

  Both programs compute the degree normalisation, the gathers along edges and the scatter-adds into nodes or clusters
  by the same host operations. They differ in the dense steps: each region multiplies row blocks by a 64×64 matrix
  (against one whole `dot_general`), adds a bias row and takes the positive part (against broadcasts, a sum and a
  maximum), or applies a per-column scale and shift (against the batch normalisation written out). Over the extended
  reals the first two are the same function of the same arrays outright; sums may be regrouped freely. The last is
  γ·(h − μ)·s + β against h·(γ·s) + (β − γ·μ·s), which needs every quantity to be a real number: this is where the
  precondition is used — the float arguments are finite, sums and products of reals are real, a degree's inverse
  square root is taken only where the degree is positive, and a variance plus a positive ε has a real inverse square
  root.

  The kernel's run names its result as the last of its boundary contents; the reference's run, cut into stretches,
  names its result as its last boundary contents; `Cert.Sim.result_agrees` relates the two boundary by boundary.
  The frames: the two kernel programs' are their frame certificates; the reference's is its run with the result
  dropped. The idealization rewrote nothing, so there is nothing to preserve.
-/
import proofs.«168298_j84988812853302_1_alg».proof.Defs
import proofs.«168298_j84988812853302_1_alg».proof.Proof.Gen.Kernel
import proofs.«168298_j84988812853302_1_alg».proof.Proof.Gen.Kernel.Skeleton
import proofs.«168298_j84988812853302_1_alg».proof.Proof.Gen.Kernel.Launch
import proofs.«168298_j84988812853302_1_alg».proof.Proof.Gen.Kernel.Points
import proofs.«168298_j84988812853302_1_alg».proof.Proof.Gen.Kernel.Frame
import proofs.«168298_j84988812853302_1_alg».proof.Proof.Gen.KernelIdeal
import proofs.«168298_j84988812853302_1_alg».proof.Proof.Gen.KernelIdeal.Skeleton
import proofs.«168298_j84988812853302_1_alg».proof.Proof.Gen.KernelIdeal.Launch
import proofs.«168298_j84988812853302_1_alg».proof.Proof.Gen.KernelIdeal.Points
import proofs.«168298_j84988812853302_1_alg».proof.Proof.Gen.KernelIdeal.Frame
import proofs.«168298_j84988812853302_1_alg».proof.Proof.Gen.ReferenceIdeal
import proofs.«168298_j84988812853302_1_alg».proof.Proof.Gen.Pre_finite_inputs
import proofs.«168298_j84988812853302_1_alg».proof.Proof.KernelRun
import proofs.«168298_j84988812853302_1_alg».proof.Proof.RefRunP
import proofs.«168298_j84988812853302_1_alg».proof.Proof.RefSegs
import proofs.«168298_j84988812853302_1_alg».proof.Proof.RFrameA
import proofs.«168298_j84988812853302_1_alg».proof.Proof.RFrameB
import proofs.«168298_j84988812853302_1_alg».proof.Proof.RFrameC
import proofs.«168298_j84988812853302_1_alg».proof.Proof.Simulation
import proofs.«168298_j84988812853302_1_alg».proof.Proof.ArgsBridge
import Idealize.ShloMosaic.Adequacy
import Idealize.ShloMosaic.Init

noncomputable section

namespace Cert.Proof

open Idealize.ShloMosaic Idealize.ShloMosaic.TcCoe Idealize.SL.Sem

/-- The reference's run, read: every weakly fair execution terminates; the returned array holds the contents after
    the last stretch, and no argument array is written. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v237) = Cert.ReferenceIdeal.Segs.U26 m' c (Proc.devRef .tc Cert.ReferenceIdeal.main_v237)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)) :=
  (θ_run (Cert.ReferenceIdeal.defs (F := Ideal)) _ _).mono (fun r h c =>
    ⟨(h c Cert.ReferenceIdeal.main_v237).trans (congrFun (Cert.ReferenceIdeal.Segs.after_ops m' c) _),
      (h c Cert.ReferenceIdeal.main_arg0).trans ((congrFun (Cert.ReferenceIdeal.Segs.after_ops m' c) _).trans (Cert.ReferenceIdeal.FrameCarry.f_arg0_unchanged m' c)),
      (h c Cert.ReferenceIdeal.main_arg1).trans ((congrFun (Cert.ReferenceIdeal.Segs.after_ops m' c) _).trans (Cert.ReferenceIdeal.FrameCarry.f_arg1_unchanged m' c)),
      (h c Cert.ReferenceIdeal.main_arg2).trans ((congrFun (Cert.ReferenceIdeal.Segs.after_ops m' c) _).trans (Cert.ReferenceIdeal.FrameCarry.f_arg2_unchanged m' c)),
      (h c Cert.ReferenceIdeal.main_arg3).trans ((congrFun (Cert.ReferenceIdeal.Segs.after_ops m' c) _).trans (Cert.ReferenceIdeal.FrameCarry.f_arg3_unchanged m' c)),
      (h c Cert.ReferenceIdeal.main_arg4).trans ((congrFun (Cert.ReferenceIdeal.Segs.after_ops m' c) _).trans (Cert.ReferenceIdeal.FrameCarry.f_arg4_unchanged m' c)),
      (h c Cert.ReferenceIdeal.main_arg5).trans ((congrFun (Cert.ReferenceIdeal.Segs.after_ops m' c) _).trans (Cert.ReferenceIdeal.FrameCarry.f_arg5_unchanged m' c)),
      (h c Cert.ReferenceIdeal.main_arg6).trans ((congrFun (Cert.ReferenceIdeal.Segs.after_ops m' c) _).trans (Cert.ReferenceIdeal.FrameCarry.f_arg6_unchanged m' c)),
      (h c Cert.ReferenceIdeal.main_arg7).trans ((congrFun (Cert.ReferenceIdeal.Segs.after_ops m' c) _).trans (Cert.ReferenceIdeal.FrameCarry.f_arg7_unchanged m' c)),
      (h c Cert.ReferenceIdeal.main_arg8).trans ((congrFun (Cert.ReferenceIdeal.Segs.after_ops m' c) _).trans (Cert.ReferenceIdeal.FrameCarry.f_arg8_unchanged m' c))⟩)
    (Cert.ReferenceIdeal.RunP.run_raw (F := Ideal) m' ρ')

theorem frame_kernel : Cert.frame_Kernel (hKernel := Cert.Kernel.Gen.facts) (hPre_finite_inputs := Cert.Pre_finite_inputs.Gen.facts) :=
  fun m ρ _ => Cert.Kernel.Gen.frame m ρ

theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

theorem frame_reference_ideal : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (ref_run m ρ)

/-- From memories that agree on the arguments, the float arguments finite: both programs run, and the array the
    kernel returns is the array the reference returns. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' hpre hagree
  refine ⟨fun c => Cert.KernelIdeal.Gen.W30 m ρ c (Proc.devRef .tc Cert.KernelIdeal.main_v210), Cert.KernelIdeal.RunValue.run_result m ρ, ?_⟩
  refine (θ_run (Cert.ReferenceIdeal.defs (F := Ideal)) _ _).mono (fun r h c => ⟨(h c).1.trans ?_, (h c).2⟩) (ref_run m' ρ')
  obtain ⟨g0, g1, g2, g3, g4, g5, g6, g7, g8⟩ := hagree c
  obtain ⟨q0, q3, q4, q5, q6, q7, q8⟩ := Cert.ArgsBridge.args_real m m' c hpre g0 g3 g4 g5 g6 g7 g8
  exact (Cert.Sim.result_agrees m ρ m' c
    (Cert.ArgsBridge.arg0_agree m ρ m' c g0) (Cert.ArgsBridge.arg1_agree m ρ m' c g1) (Cert.ArgsBridge.arg2_agree m ρ m' c g2)
    (Cert.ArgsBridge.arg3_agree m ρ m' c g3) (Cert.ArgsBridge.arg4_agree m ρ m' c g4) (Cert.ArgsBridge.arg5_agree m ρ m' c g5)
    (Cert.ArgsBridge.arg6_agree m ρ m' c g6) (Cert.ArgsBridge.arg7_agree m ρ m' c g7) (Cert.ArgsBridge.arg8_agree m ρ m' c g8)
    q0 q3 q4 q5 q6 q7 q8).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
